-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v159)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v159) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S512x128 : Shape := ⟨2, ![512, 128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S512x128 : S_.BroadcastsInDim S512x128 (![] : Fin 0 → Fin S512x128.rank)
  reducesTo_S512x128_S_d0_1 : S512x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S128 .f32) (main_arg17 : FVec F S128x10 .f32) (main_arg18 : FVec F S10 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x10 .f32 := Host.absf main_arg17
  let main_cst_28 : FVec F S_ .f32 := constant S_ .f32 0x7F800000#32
  let main_v75 : FVec F S128x10 .f32 := broadcastInDim S128x10 ![] bcast_S_S128x10 main_cst_28
  let main_v76 : IVec S128x10 1 := cmpf .olt main_v74 main_v75
  let main_c_29 : IVec S_ 1 := constantI S_ 1 1#1
  let main_v77 : IVec S_ 1 := (fun x v => Host.reduce IntOp.andi x v reducesTo_S128x10_S_d0_1 h_S_) main_v76 main_c_29
  let main_v78 : IVec S_ 1 := andi main_v73 main_v77
  let main_v79 : FVec F S10 .f32 := Host.absf main_arg18
  let main_cst_30 : FVec F S_ .f32 := constant S_ .f32 0x7F800000#32
  let main_v80 : FVec F S10 .f32 := broadcastInDim S10 ![] bcast_S_S10 main_cst_30
  let main_v81 : IVec S10 1 := cmpf .olt main_v79 main_v80
  let main_c_31 : IVec S_ 1 := constantI S_ 1 1#1
  let main_v82 : IVec S_ 1 := (fun x v => Host.reduce IntOp.andi x v reducesTo_S10_S_d0 h_S_) main_v81 main_c_31
  let main_v83 : IVec S_ 1 := andi main_v78 main_v82
  main_v83

def fn_part3 {F : FTy → Type} [FloatOps F] (main_arg13 : FVec F S3x128 .f32) (main_arg14 : FVec F S3x128 .f32) (main_arg15 : FVec F S512x128 .f32) (main_arg16 : FVec F S128 .f32) (main_arg17 : FVec F S128x10 .f32) (main_arg18 : FVec F S10 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128 .f32 := Host.absf main_arg14
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S512x128 .f32 := Host.absf main_arg15
  let main_cst_24 : FVec F S_ .f32 := constant S_ .f32 0x7F800000#32
  let main_v65 : FVec F S512x128 .f32 := broadcastInDim S512x128 ![] bcast_S_S512x128 main_cst_24
  let main_v66 : IVec S512x128 1 := cmpf .olt main_v64 main_v65
  let main_c_25 : IVec S_ 1 := constantI S_ 1 1#1
  let main_v67 : IVec S_ 1 := (fun x v => Host.reduce IntOp.andi x v reducesTo_S512x128_S_d0_1 h_S_) main_v66 main_c_25
  fn_part4 (F := F) main_arg16 main_arg17 main_arg18 main_v63 main_v67

def fn_part2 {F : FTy → Type} [FloatOps F] (main_arg9 : FVec F S3x128x128 .f32) (main_arg10 : FVec F S3x128 .f32) (main_arg11 : FVec F S3x128x128 .f32) (main_arg12 : FVec F S3x128 .f32) (main_arg13 : FVec F S3x128 .f32) (main_arg14 : FVec F S3x128 .f32) (main_arg15 : FVec F S512x128 .f32) (main_arg16 : FVec F S128 .f32) (main_arg17 : FVec F S128x10 .f32) (main_arg18 : FVec F S10 .f32) (main_v33 : IVec S_ 1) : IVec S_ 1 :=
  let main_v34 : FVec F S3x128x128 .f32 := Host.absf main_arg9
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128x128 .f32 := Host.absf main_arg11
  let main_cst_16 : FVec F S_ .f32 := constant S_ .f32 0x7F800000#32
  let main_v45 : FVec F S3x128x128 .f32 := broadcastInDim S3x128x128 ![] bcast_S_S3x128x128 main_cst_16
  let main_v46 : IVec S3x128x128 1 := cmpf .olt main_v44 main_v45
  let main_c_17 : IVec S_ 1 := constantI S_ 1 1#1
  let main_v47 : IVec S_ 1 := (fun x v => Host.reduce IntOp.andi x v reducesTo_S3x128x128_S_d0_1_2 h_S_) main_v46 main_c_17
  let main_v48 : IVec S_ 1 := andi main_v43 main_v47
  let main_v49 : FVec F S3x128 .f32 := Host.absf main_arg12
  let main_cst_18 : FVec F S_ .f32 := constant S_ .f32 0x7F800000#32
  let main_v50 : FVec F S3x128 .f32 := broadcastInDim S3x128 ![] bcast_S_S3x128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128 .f32) (main_arg8 : FVec F S128 .f32) (main_arg9 : FVec F S3x128x128 .f32) (main_arg10 : FVec F S3x128 .f32) (main_arg11 : FVec F S3x128x128 .f32) (main_arg12 : FVec F S3x128 .f32) (main_arg13 : FVec F S3x128 .f32) (main_arg14 : FVec F S3x128 .f32) (main_arg15 : FVec F S512x128 .f32) (main_arg16 : FVec F S128 .f32) (main_arg17 : FVec F S128x10 .f32) (main_arg18 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128 .f32) (main_arg8 : FVec F S128 .f32) (main_arg9 : FVec F S3x128x128 .f32) (main_arg10 : FVec F S3x128 .f32) (main_arg11 : FVec F S3x128x128 .f32) (main_arg12 : FVec F S3x128 .f32) (main_arg13 : FVec F S3x128 .f32) (main_arg14 : FVec F S3x128 .f32) (main_arg15 : FVec F S512x128 .f32) (main_arg16 : FVec F S128 .f32) (main_arg17 : FVec F S128x10 .f32) (main_arg18 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S512x128 : Shape := ⟨2, ![512, 128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x128x128 : Shape := ⟨3, ![1, 128, 128]⟩
abbrev S100000x512 : Shape := ⟨2, ![100000, 512]⟩
abbrev S128x512 : Shape := ⟨2, ![128, 512]⟩
abbrev S100000x1 : Shape := ⟨2, ![100000, 1]⟩
abbrev S128x1 : Shape := ⟨2, ![128, 1]⟩
abbrev S1x10 : Shape := ⟨2, ![1, 10]⟩

abbrev nBuf : Space → Nat
  | .hbm => 211
  | .vmem => 86
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S3x128x128, .f32⟩
  | 10 => ⟨S3x128, .f32⟩
  | 11 => ⟨S3x128x128, .f32⟩
  | 12 => ⟨S3x128, .f32⟩
  | 13 => ⟨S3x128, .f32⟩
  | 14 => ⟨S3x128, .f32⟩
  | 15 => ⟨S512x128, .f32⟩
  | 16 => ⟨S128, .f32⟩
  | 17 => ⟨S128x10, .f32⟩
  | 18 => ⟨S10, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S1x128, .f32⟩
  | 37 => ⟨S1x128, .f32⟩
  | 38 => ⟨S100000x128, .f32⟩
  | 39 => ⟨S1x128, .f32⟩
  | 40 => ⟨S1x128, .f32⟩
  | 41 => ⟨S128, .f32⟩
  | 42 => ⟨S_, .f32⟩
  | 43 => ⟨S128, .f32⟩
  | 44 => ⟨S128, .f32⟩
  | 45 => ⟨S128, .f32⟩
  | 46 => ⟨S_, .f32⟩
  | 47 => ⟨S128, .f32⟩
  | 48 => ⟨S128, .f32⟩
  | 49 => ⟨S128, .f32⟩
  | 50 => ⟨S128, .f32⟩
  | 51 => ⟨S1x128, .f32⟩
  | 52 => ⟨S1x128, .f32⟩
  | 53 => ⟨S1x128, .f32⟩
  | 54 => ⟨S1x128, .f32⟩
  | 55 => ⟨S100000x128, .f32⟩
  | 56 => ⟨S1x128x128, .f32⟩
  | 57 => ⟨S128x128, .f32⟩
  | 58 => ⟨S1x128, .f32⟩
  | 59 => ⟨S128, .f32⟩
  | 60 => ⟨S1x128x128, .f32⟩
  | 61 => ⟨S128x128, .f32⟩
  | 62 => ⟨S1x128, .f32⟩
  | 63 => ⟨S128, .f32⟩
  | 64 => ⟨S1x128, .f32⟩
  | 65 => ⟨S128, .f32⟩
  | 66 => ⟨S1x128, .f32⟩
  | 67 => ⟨S128, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S_, .f32⟩
  | 78 => ⟨S100000x128, .f32⟩
  | 79 => ⟨S1600000x1, .i32⟩
  | 80 => ⟨S100000x128, .f32⟩
  | 81 => ⟨S1x128, .f32⟩
  | 82 => ⟨S1x128, .f32⟩
  | 83 => ⟨S100000x128, .f32⟩
  | 84 => ⟨S1x128, .f32⟩
  | 85 => ⟨S1x128, .f32⟩
  | 86 => ⟨S128, .f32⟩
  | 87 => ⟨S_, .f32⟩
  | 88 => ⟨S128, .f32⟩
  | 89 => ⟨S128, .f32⟩
  | 90 => ⟨S128, .f32⟩
  | 91 => ⟨S_, .f32⟩
  | 92 => ⟨S128, .f32⟩
  | 93 => ⟨S128, .f32⟩
  | 94 => ⟨S128, .f32⟩
  | 95 => ⟨S128, .f32⟩
  | 96 => ⟨S1x128, .f32⟩
  | 97 => ⟨S1x128, .f32⟩
  | 98 => ⟨S1x128, .f32⟩
  | 99 => ⟨S1x128, .f32⟩
  | 100 => ⟨S100000x128, .f32⟩
  | 101 => ⟨S1x128x128, .f32⟩
  | 102 => ⟨S128x128, .f32⟩
  | 103 => ⟨S1x128, .f32⟩
  | 104 => ⟨S128, .f32⟩
  | 105 => ⟨S1x128x128, .f32⟩
  | 106 => ⟨S128x128, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S1x128, .f32⟩
  | 127 => ⟨S1x128, .f32⟩
  | _ => ⟨S100000x128, .f32⟩

abbrev hbmTy0_1 (i : Nat) : BufTy := match i % 128 with
  | 0 => ⟨S100000x128, .f32⟩
  | 1 => ⟨S1x128, .f32⟩
  | 2 => ⟨S1x128, .f32⟩
  | 3 => ⟨S128, .f32⟩
  | 4 => ⟨S_, .f32⟩
  | 5 => ⟨S128, .f32⟩
  | 6 => ⟨S128, .f32⟩
  | 7 => ⟨S128, .f32⟩
  | 8 => ⟨S_, .f32⟩
  | 9 => ⟨S128, .f32⟩
  | 10 => ⟨S128, .f32⟩
  | 11 => ⟨S128, .f32⟩
  | 12 => ⟨S128, .f32⟩
  | 13 => ⟨S1x128, .f32⟩
  | 14 => ⟨S1x128, .f32⟩
  | 15 => ⟨S1x128, .f32⟩
  | 16 => ⟨S1x128, .f32⟩
  | 17 => ⟨S100000x128, .f32⟩
  | 18 => ⟨S1x128x128, .f32⟩
  | 19 => ⟨S128x128, .f32⟩
  | 20 => ⟨S1x128, .f32⟩
  | 21 => ⟨S128, .f32⟩
  | 22 => ⟨S1x128x128, .f32⟩
  | 23 => ⟨S128x128, .f32⟩
  | 24 => ⟨S1x128, .f32⟩
  | 25 => ⟨S128, .f32⟩
  | 26 => ⟨S1x128, .f32⟩
  | 27 => ⟨S128, .f32⟩
  | 28 => ⟨S1x128, .f32⟩
  | 29 => ⟨S128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S1x128, .f32⟩
  | 44 => ⟨S1x128, .f32⟩
  | 45 => ⟨S100000x128, .f32⟩
  | 46 => ⟨S1x128, .f32⟩
  | 47 => ⟨S1x128, .f32⟩
  | 48 => ⟨S128, .f32⟩
  | 49 => ⟨S_, .f32⟩
  | 50 => ⟨S128, .f32⟩
  | 51 => ⟨S128, .f32⟩
  | 52 => ⟨S128, .f32⟩
  | 53 => ⟨S_, .f32⟩
  | 54 => ⟨S128, .f32⟩
  | 55 => ⟨S128, .f32⟩
  | 56 => ⟨S128, .f32⟩
  | 57 => ⟨S128, .f32⟩
  | 58 => ⟨S1x128, .f32⟩
  | 59 => ⟨S1x128, .f32⟩
  | 60 => ⟨S1x128, .f32⟩
  | 61 => ⟨S1x128, .f32⟩
  | 62 => ⟨S100000x128, .f32⟩
  | 63 => ⟨S100000x512, .f32⟩
  | 64 => ⟨S_, .f32⟩
  | 65 => ⟨S128x512, .f32⟩
  | 66 => ⟨S100000x1, .i32⟩
  | 67 => ⟨S128x512, .f32⟩
  | 68 => ⟨S_, .f32⟩
  | 69 => ⟨S100000, .f32⟩
  | 70 => ⟨S_, .f32⟩
  | 71 => ⟨S128, .f32⟩
  | 72 => ⟨S100000x1, .i32⟩
  | 73 => ⟨S128, .f32⟩
  | 74 => ⟨S_, .f32⟩
  | 75 => ⟨S128, .f32⟩
  | 76 => ⟨S128, .f32⟩
  | 77 => ⟨S128x1, .f32⟩
  | 78 => ⟨S128x512, .f32⟩
  | 79 => ⟨S128x512, .f32⟩
  | 80 => ⟨S1x128, .f32⟩
  | 81 => ⟨S1x10, .f32⟩
  | 82 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S128x128, .f32⟩
  | .local _ .vmem, ⟨65, _⟩ => ⟨S1x128, .f32⟩
  | .local _ .vmem, ⟨66, _⟩ => ⟨S128x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S1x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | .local _ .vmem, ⟨80, _⟩ => ⟨S128x512, .f32⟩
  | .local _ .vmem, ⟨81, _⟩ => ⟨S512x128, .f32⟩
  | .local _ .vmem, ⟨82, _⟩ => ⟨S1x128, .f32⟩
  | .local _ .vmem, ⟨83, _⟩ => ⟨S128x10, .f32⟩
  | .local _ .vmem, ⟨84, _⟩ => ⟨S1x10, .f32⟩
  | .local _ .vmem, ⟨85, _⟩ => ⟨S128x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16_0 : Ref sig .tc := ⟨.hbm, 38, rfl⟩
abbrev main_v16_1 : Ref sig .tc := ⟨.hbm, 39, rfl⟩
abbrev main_v16_2 : Ref sig .tc := ⟨.hbm, 40, rfl⟩
abbrev main_v17 : Ref sig .tc := ⟨.hbm, 41, rfl⟩
abbrev main_cst_1 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_2 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_3 : Ref sig .tc := ⟨.hbm, 68, rfl⟩
abbrev main_v42 : Ref sig .tc := ⟨.hbm, 69, rfl⟩
abbrev main_v43 : Ref sig .tc := ⟨.hbm, 70, rfl⟩
abbrev main_c_4 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54_0 : Ref sig .tc := ⟨.hbm, 83, rfl⟩
abbrev main_v54_1 : Ref sig .tc := ⟨.hbm, 84, rfl⟩
abbrev main_v54_2 : Ref sig .tc := ⟨.hbm, 85, rfl⟩
abbrev main_v55 : Ref sig .tc := ⟨.hbm, 86, rfl⟩
abbrev main_cst_6 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_7 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_8 : Ref sig .tc := ⟨.hbm, 113, rfl⟩
abbrev main_v80 : Ref sig .tc := ⟨.hbm, 114, rfl⟩
abbrev main_v81 : Ref sig .tc := ⟨.hbm, 115, rfl⟩
abbrev main_c_9 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_10 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92_0 : Ref sig .tc := ⟨.hbm, 128, rfl⟩
abbrev main_v92_1 : Ref sig .tc := ⟨.hbm, 129, rfl⟩
abbrev main_v92_2 : Ref sig .tc := ⟨.hbm, 130, rfl⟩
abbrev main_v93 : Ref sig .tc := ⟨.hbm, 131, rfl⟩
abbrev main_cst_11 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_12 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_13 : Ref sig .tc := ⟨.hbm, 158, rfl⟩
abbrev main_v118 : Ref sig .tc := ⟨.hbm, 159, rfl⟩
abbrev main_v119 : Ref sig .tc := ⟨.hbm, 160, rfl⟩
abbrev main_c_14 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_15 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130_0 : Ref sig .tc := ⟨.hbm, 173, rfl⟩
abbrev main_v130_1 : Ref sig .tc := ⟨.hbm, 174, rfl⟩
abbrev main_v130_2 : Ref sig .tc := ⟨.hbm, 175, rfl⟩
abbrev main_v131 : Ref sig .tc := ⟨.hbm, 176, rfl⟩
abbrev main_cst_16 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_17 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_18 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_cst_19 : Ref sig .tc := ⟨.hbm, 196, rfl⟩
abbrev main_v148 : Ref sig .tc := ⟨.hbm, 197, rfl⟩
abbrev main_cst_20 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_cst_21 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg5_0 : Ref sig .tc := ⟨.vmem, 67, rfl⟩
abbrev cc6_stg6_0 : Ref sig .tc := ⟨.vmem, 68, rfl⟩
abbrev cc6_stg6_1 : Ref sig .tc := ⟨.vmem, 69, rfl⟩
abbrev cc6_stg7_0 : Ref sig .tc := ⟨.vmem, 70, rfl⟩
abbrev cc6_stg8_0 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg5_1 : Ref sig .tc := ⟨.vmem, 79, rfl⟩
abbrev cc8_stg0_0 : Ref sig .tc := ⟨.vmem, 80, rfl⟩
abbrev cc8_stg1_0 : Ref sig .tc := ⟨.vmem, 81, rfl⟩
abbrev cc8_stg2_0 : Ref sig .tc := ⟨.vmem, 82, rfl⟩
abbrev cc8_stg3_0 : Ref sig .tc := ⟨.vmem, 83, rfl⟩
abbrev cc8_stg4_0 : Ref sig .tc := ⟨.vmem, 84, rfl⟩
abbrev cc8_stg5_0 : Ref sig .tc := ⟨.vmem, 85, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem6_0 : DmaSem sig := 68
abbrev cc6_sem6_1 : DmaSem sig := 69
abbrev cc6_sem7_0 : DmaSem sig := 70
abbrev cc6_sem8_0 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem4_0 : DmaSem sig := 77
abbrev cc7_sem5_0 : DmaSem sig := 78
abbrev cc7_sem5_1 : DmaSem sig := 79
abbrev cc8_sem0_0 : DmaSem sig := 80
abbrev cc8_sem1_0 : DmaSem sig := 81
abbrev cc8_sem2_0 : DmaSem sig := 82
abbrev cc8_sem3_0 : DmaSem sig := 83
abbrev cc8_sem4_0 : DmaSem sig := 84
abbrev cc8_sem5_0 : DmaSem sig := 85

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S128x512 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S512x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x10 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x10 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x10 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S100000x128_S100000x128_S100000x128_S100000x128_S100000x512_d1 : Shape.Concatenates [S100000x128, S100000x128, S100000x128, S100000x128] S100000x512 1
  bcast_S_S128x512 : S_.BroadcastsInDim S128x512 (![] : Fin 0 → Fin S128x512.rank)
  bcast_S100000_S100000x1_0 : S100000.BroadcastsInDim S100000x1 (![0] : Fin 1 → Fin S100000x1.rank)
  bcast_S_S100000 : S_.BroadcastsInDim S100000 (![] : Fin 0 → Fin S100000.rank)
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  shapeCasts_S10_S1x10 : S10.ShapeCasts S1x10
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x128_S512x128_0_0 : ∀ a, (![0, 0] : Fin 2 → Nat) a + S512x128.size a ≤ S512x128.size a
  h_S512x128 : 0 < S512x128.numel
  broadcasts_S1x128_S128x128 : S1x128.Broadcasts S128x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S128x512_S100000x1_S100000x512_1_0_0_1_wf : ScatterDims.WF S128x512 S100000x1 S100000x512 [1] [0] [0] 1
  scatter_S128_S100000x1_S100000_n_0_0_1_wf : ScatterDims.WF S128 S100000x1 S100000 [] [0] [0] 1
  dot_S128x512_S512x128_S128x128_1_0_0_1_n_n_wf : DotDims.WF S128x512 S512x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S100000x128.size a
  hwx4_6 : ∀ i : grid4.Coords, EltTy.bits .f32 = 32 ∨ (Rect.block (s := S100000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S100000x128.size a
  hwx6_6 : ∀ i : grid6.Coords, EltTy.bits .f32 = 32 ∨ (Rect.block (s := S100000x128) S5000x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S128x512.size a ≤ S128x512.size a
  hwx8_0 : ∀ i : grid8.Coords, EltTy.bits .f32 = 32 ∨ (Rect.block (s := S128x512) S128x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x128.size a ≤ S512x128.size a
  hwx8_1 : ∀ i : grid8.Coords, EltTy.bits .f32 = 32 ∨ (Rect.block (s := S512x128) S512x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x10.size a ≤ S128x10.size a
  hwx8_3 : ∀ i : grid8.Coords, EltTy.bits .f32 = 32 ∨ (Rect.block (s := S128x10) S128x10.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x10.size a ≤ S1x10.size a
  hwx8_4 : ∀ i : grid8.Coords, EltTy.bits .f32 = 32 ∨ (Rect.block (s := S1x10) S1x10.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x10.size a ≤ S128x10.size a
  hwx8_5 : ∀ i : grid8.Coords, EltTy.bits .f32 = 32 ∨ (Rect.block (s := S128x10) S128x10.size (cc8_transform_5 i) (hinb8_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x512_S100000x1_S100000x512_1_0_0_1 : ScatterDims S128x512 S100000x1 S100000x512 where
  updateWindowDims := [1]
  insertedWindowDims := [0]
  scatterDimsToOperandDims := [0]
  indexVectorDim := 1
  wf := scatter_S128x512_S100000x1_S100000x512_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v16_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v54_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v54_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v54_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v67) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v69) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v90) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v92_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v92_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v92_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v92_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v102) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v103) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v104) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v105) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v105) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v127) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v107) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v128) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v111) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v129) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v130_0) S5000x128.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v130_1) S1x128.size cc6_transform_7 reads6_7 true true 1 stage6_7 sem6_7
    hrank6 hreads6_7 hinb6_7 nbuf6_7 (Memref.isWhole_whole _) hwx6_7 hstage6_7

abbrev win6_8 : Pipeline.Window sig grid6 :=
  Pipeline.Window.ofSpec (Memref.whole main_v130_2) S1x128.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v130_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v139) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v140) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v141) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v142) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v143) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v156) S128x512.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg15) S512x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v157) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg17) S128x10.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v158) S1x10.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v159) S128x10.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S512x128 : Shape := ⟨2, ![512, 128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1x128x128 : Shape := ⟨3, ![1, 128, 128]⟩
abbrev S100000x512 : Shape := ⟨2, ![100000, 512]⟩
abbrev S128x512 : Shape := ⟨2, ![128, 512]⟩
abbrev S100000x1 : Shape := ⟨2, ![100000, 1]⟩
abbrev S128x1 : Shape := ⟨2, ![128, 1]⟩
abbrev S1x10 : Shape := ⟨2, ![1, 10]⟩

abbrev nBuf : Space → Nat
  | .hbm => 375
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128, .f32⟩
  | 8 => ⟨S128, .f32⟩
  | 9 => ⟨S3x128x128, .f32⟩
  | 10 => ⟨S3x128, .f32⟩
  | 11 => ⟨S3x128x128, .f32⟩
  | 12 => ⟨S3x128, .f32⟩
  | 13 => ⟨S3x128, .f32⟩
  | 14 => ⟨S3x128, .f32⟩
  | 15 => ⟨S512x128, .f32⟩
  | 16 => ⟨S128, .f32⟩
  | 17 => ⟨S128x10, .f32⟩
  | 18 => ⟨S10, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S_, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .f32⟩
  | 52 => ⟨S128, .f32⟩
  | 53 => ⟨S_, .f32⟩
  | 54 => ⟨S128, .f32⟩
  | 55 => ⟨S128, .f32⟩
  | 56 => ⟨S_, .i32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S100000x128, .f32⟩
  | 64 => ⟨S100000x128, .f32⟩
  | 65 => ⟨S100000x128, .f32⟩
  | 66 => ⟨S_, .f32⟩
  | 67 => ⟨S_, .f32⟩
  | 68 => ⟨S_, .f32⟩
  | 69 => ⟨S_, .f32⟩
  | 70 => ⟨S128, .f32⟩
  | 71 => ⟨S128, .f32⟩
  | 72 => ⟨S128, .f32⟩
  | 73 => ⟨S_, .f32⟩
  | 74 => ⟨S_, .i1⟩
  | 75 => ⟨S_, .f32⟩
  | 76 => ⟨S_, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S_, .f32⟩
  | 83 => ⟨S128, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S1x128x128, .f32⟩
  | 96 => ⟨S128x128, .f32⟩
  | 97 => ⟨S1x128, .f32⟩
  | 98 => ⟨S128, .f32⟩
  | 99 => ⟨S1x128x128, .f32⟩
  | 100 => ⟨S128x128, .f32⟩
  | 101 => ⟨S1x128, .f32⟩
  | 102 => ⟨S128, .f32⟩
  | 103 => ⟨S1x128, .f32⟩
  | 104 => ⟨S128, .f32⟩
  | 105 => ⟨S1x128, .f32⟩
  | 106 => ⟨S128, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x128, .f32⟩
  | 116 => ⟨S_, .f32⟩
  | 117 => ⟨S100000x128, .f32⟩
  | 118 => ⟨S1600000x1, .i32⟩
  | 119 => ⟨S100000x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S100000x128, .f32⟩
  | 20 => ⟨S100000x128, .f32⟩
  | 21 => ⟨S100000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S100000x128, .f32⟩
  | 37 => ⟨S100000x128, .f32⟩
  | 38 => ⟨S_, .f32⟩
  | 39 => ⟨S128, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S1x128x128, .f32⟩
  | 52 => ⟨S128x128, .f32⟩
  | 53 => ⟨S1x128, .f32⟩
  | 54 => ⟨S128, .f32⟩
  | 55 => ⟨S1x128x128, .f32⟩
  | 56 => ⟨S128x128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S_, .f32⟩
  | 92 => ⟨S128, .f32⟩
  | 93 => ⟨S_, .f32⟩
  | 94 => ⟨S128, .f32⟩
  | 95 => ⟨S128, .f32⟩
  | 96 => ⟨S_, .i32⟩
  | 97 => ⟨S_, .f32⟩
  | 98 => ⟨S128, .f32⟩
  | 99 => ⟨S1x128, .f32⟩
  | 100 => ⟨S_, .f32⟩
  | 101 => ⟨S1x128, .f32⟩
  | 102 => ⟨S1x128, .f32⟩
  | 103 => ⟨S100000x128, .f32⟩
  | 104 => ⟨S100000x128, .f32⟩
  | 105 => ⟨S100000x128, .f32⟩
  | 106 => ⟨S_, .f32⟩
  | 107 => ⟨S_, .f32⟩
  | 108 => ⟨S_, .f32⟩
  | 109 => ⟨S_, .f32⟩
  | 110 => ⟨S128, .f32⟩
  | 111 => ⟨S128, .f32⟩
  | 112 => ⟨S128, .f32⟩
  | 113 => ⟨S_, .f32⟩
  | 114 => ⟨S_, .i1⟩
  | 115 => ⟨S_, .f32⟩
  | 116 => ⟨S_, .f32⟩
  | 117 => ⟨S128, .f32⟩
  | 118 => ⟨S128, .f32⟩
  | 119 => ⟨S1x128, .f32⟩
  | 120 => ⟨S100000x128, .f32⟩
  | 121 => ⟨S100000x128, .f32⟩
  | 122 => ⟨S_, .f32⟩
  | 123 => ⟨S128, .f32⟩
  | 124 => ⟨S128, .f32⟩
  | 125 => ⟨S128, .f32⟩
  | 126 => ⟨S1x128, .f32⟩
  | 127 => ⟨S100000x128, .f32⟩
  | _ => ⟨S100000x128, .f32⟩

abbrev hbmTy0_2 (i : Nat) : BufTy := match i % 128 with
  | 0 => ⟨S100000x128, .f32⟩
  | 1 => ⟨S1x128, .f32⟩
  | 2 => ⟨S100000x128, .f32⟩
  | 3 => ⟨S100000x128, .f32⟩
  | 4 => ⟨S1x128, .f32⟩
  | 5 => ⟨S100000x128, .f32⟩
  | 6 => ⟨S100000x128, .f32⟩
  | 7 => ⟨S1x128x128, .f32⟩
  | 8 => ⟨S128x128, .f32⟩
  | 9 => ⟨S1x128, .f32⟩
  | 10 => ⟨S128, .f32⟩
  | 11 => ⟨S1x128x128, .f32⟩
  | 12 => ⟨S128x128, .f32⟩
  | 13 => ⟨S1x128, .f32⟩
  | 14 => ⟨S128, .f32⟩
  | 15 => ⟨S1x128, .f32⟩
  | 16 => ⟨S128, .f32⟩
  | 17 => ⟨S1x128, .f32⟩
  | 18 => ⟨S128, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S100000x128, .f32⟩
  | 60 => ⟨S100000x128, .f32⟩
  | 61 => ⟨S100000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S100000x128, .f32⟩
  | 77 => ⟨S100000x128, .f32⟩
  | 78 => ⟨S_, .f32⟩
  | 79 => ⟨S128, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S100000x512, .f32⟩
  | 92 => ⟨S_, .f32⟩
  | 93 => ⟨S128x512, .f32⟩
  | 94 => ⟨S100000x1, .i32⟩
  | 95 => ⟨S128x512, .f32⟩
  | 96 => ⟨S_, .f32⟩
  | 97 => ⟨S100000, .f32⟩
  | 98 => ⟨S_, .f32⟩
  | 99 => ⟨S128, .f32⟩
  | 100 => ⟨S100000x1, .i32⟩
  | 101 => ⟨S128, .f32⟩
  | 102 => ⟨S_, .f32⟩
  | 103 => ⟨S128, .f32⟩
  | 104 => ⟨S128, .f32⟩
  | 105 => ⟨S128x1, .f32⟩
  | 106 => ⟨S128x512, .f32⟩
  | 107 => ⟨S128x512, .f32⟩
  | 108 => ⟨S128x128, .f32⟩
  | 109 => ⟨S1x128, .f32⟩
  | 110 => ⟨S128x128, .f32⟩
  | 111 => ⟨S128x128, .f32⟩
  | 112 => ⟨S_, .f32⟩
  | 113 => ⟨S128x128, .f32⟩
  | 114 => ⟨S128x128, .f32⟩
  | 115 => ⟨S128x10, .f32⟩
  | 116 => ⟨S1x10, .f32⟩
  | 117 => ⟨S128x10, .f32⟩
  | 118 => ⟨S128x10, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call0_cst : Ref sig .tc := ⟨.hbm, 41, rfl⟩
abbrev main_call0_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_call1_cst : Ref sig .tc := ⟨.hbm, 48, rfl⟩
abbrev main_call1_v0 : Ref sig .tc := ⟨.hbm, 49, rfl⟩
abbrev main_v24 : Ref sig .tc := ⟨.hbm, 50, rfl⟩
abbrev main_cst_1 : Ref sig .tc := ⟨.hbm, 51, rfl⟩
abbrev main_v25 : Ref sig .tc := ⟨.hbm, 52, rfl⟩
abbrev main_cst_2 : Ref sig .tc := ⟨.hbm, 53, rfl⟩
abbrev main_v26 : Ref sig .tc := ⟨.hbm, 54, rfl⟩
abbrev main_v27 : Ref sig .tc := ⟨.hbm, 55, rfl⟩
abbrev main_c_3 : Ref sig .tc := ⟨.hbm, 56, rfl⟩
abbrev main_call2_cst : Ref sig .tc := ⟨.hbm, 57, rfl⟩
abbrev main_call2_v0 : Ref sig .tc := ⟨.hbm, 58, rfl⟩
abbrev main_call2_v1 : Ref sig .tc := ⟨.hbm, 59, rfl⟩
abbrev main_call2_cst_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_cst_1 : Ref sig .tc := ⟨.hbm, 67, rfl⟩
abbrev main_call2_v8 : Ref sig .tc := ⟨.hbm, 68, rfl⟩
abbrev main_call2_cst_2 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_cst_3 : Ref sig .tc := ⟨.hbm, 73, rfl⟩
abbrev main_call2_v12 : Ref sig .tc := ⟨.hbm, 74, rfl⟩
abbrev main_call2_cst_4 : Ref sig .tc := ⟨.hbm, 75, rfl⟩
abbrev main_call2_call0_v0 : Ref sig .tc := ⟨.hbm, 76, rfl⟩
abbrev main_call2_call0_v1 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_cst_4 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_c_5 : Ref sig .tc := ⟨.hbm, 107, rfl⟩
abbrev main_v56 : Ref sig .tc := ⟨.hbm, 108, rfl⟩
abbrev main_v57 : Ref sig .tc := ⟨.hbm, 109, rfl⟩
abbrev main_c_6 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_7 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_call3_cst : Ref sig .tc := ⟨.hbm, 125, rfl⟩
abbrev main_call3_v0 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_call4_cst : Ref sig .tc := ⟨.hbm, 132, rfl⟩
abbrev main_call4_v0 : Ref sig .tc := ⟨.hbm, 133, rfl⟩
abbrev main_v76 : Ref sig .tc := ⟨.hbm, 134, rfl⟩
abbrev main_cst_8 : Ref sig .tc := ⟨.hbm, 135, rfl⟩
abbrev main_v77 : Ref sig .tc := ⟨.hbm, 136, rfl⟩
abbrev main_cst_9 : Ref sig .tc := ⟨.hbm, 137, rfl⟩
abbrev main_v78 : Ref sig .tc := ⟨.hbm, 138, rfl⟩
abbrev main_v79 : Ref sig .tc := ⟨.hbm, 139, rfl⟩
abbrev main_c_10 : Ref sig .tc := ⟨.hbm, 140, rfl⟩
abbrev main_call5_cst : Ref sig .tc := ⟨.hbm, 141, rfl⟩
abbrev main_call5_v0 : Ref sig .tc := ⟨.hbm, 142, rfl⟩
abbrev main_call5_v1 : Ref sig .tc := ⟨.hbm, 143, rfl⟩
abbrev main_call5_cst_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_v6 : Ref sig .tc := ⟨.hbm, 149, rfl⟩
abbrev main_call5_v7 : Ref sig .tc := ⟨.hbm, 150, rfl⟩
abbrev main_call5_cst_1 : Ref sig .tc := ⟨.hbm, 151, rfl⟩
abbrev main_call5_v8 : Ref sig .tc := ⟨.hbm, 152, rfl⟩
abbrev main_call5_cst_2 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_cst_3 : Ref sig .tc := ⟨.hbm, 157, rfl⟩
abbrev main_call5_v12 : Ref sig .tc := ⟨.hbm, 158, rfl⟩
abbrev main_call5_cst_4 : Ref sig .tc := ⟨.hbm, 159, rfl⟩
abbrev main_call5_call0_v0 : Ref sig .tc := ⟨.hbm, 160, rfl⟩
abbrev main_call5_call0_v1 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_cst_11 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_c_12 : Ref sig .tc := ⟨.hbm, 191, rfl⟩
abbrev main_v108 : Ref sig .tc := ⟨.hbm, 192, rfl⟩
abbrev main_v109 : Ref sig .tc := ⟨.hbm, 193, rfl⟩
abbrev main_c_13 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_cst_14 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_call6_cst : Ref sig .tc := ⟨.hbm, 209, rfl⟩
abbrev main_call6_v0 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_call7_cst : Ref sig .tc := ⟨.hbm, 216, rfl⟩
abbrev main_call7_v0 : Ref sig .tc := ⟨.hbm, 217, rfl⟩
abbrev main_v128 : Ref sig .tc := ⟨.hbm, 218, rfl⟩
abbrev main_cst_15 : Ref sig .tc := ⟨.hbm, 219, rfl⟩
abbrev main_v129 : Ref sig .tc := ⟨.hbm, 220, rfl⟩
abbrev main_cst_16 : Ref sig .tc := ⟨.hbm, 221, rfl⟩
abbrev main_v130 : Ref sig .tc := ⟨.hbm, 222, rfl⟩
abbrev main_v131 : Ref sig .tc := ⟨.hbm, 223, rfl⟩
abbrev main_c_17 : Ref sig .tc := ⟨.hbm, 224, rfl⟩
abbrev main_call8_cst : Ref sig .tc := ⟨.hbm, 225, rfl⟩
abbrev main_call8_v0 : Ref sig .tc := ⟨.hbm, 226, rfl⟩
abbrev main_call8_v1 : Ref sig .tc := ⟨.hbm, 227, rfl⟩
abbrev main_call8_cst_0 : Ref sig .tc := ⟨.hbm, 228, rfl⟩
abbrev main_call8_v2 : Ref sig .tc := ⟨.hbm, 229, rfl⟩
abbrev main_call8_v3 : Ref sig .tc := ⟨.hbm, 230, rfl⟩
abbrev main_call8_v4 : Ref sig .tc := ⟨.hbm, 231, rfl⟩
abbrev main_call8_v5 : Ref sig .tc := ⟨.hbm, 232, rfl⟩
abbrev main_call8_v6 : Ref sig .tc := ⟨.hbm, 233, rfl⟩
abbrev main_call8_v7 : Ref sig .tc := ⟨.hbm, 234, rfl⟩
abbrev main_call8_cst_1 : Ref sig .tc := ⟨.hbm, 235, rfl⟩
abbrev main_call8_v8 : Ref sig .tc := ⟨.hbm, 236, rfl⟩
abbrev main_call8_cst_2 : Ref sig .tc := ⟨.hbm, 237, rfl⟩
abbrev main_call8_v9 : Ref sig .tc := ⟨.hbm, 238, rfl⟩
abbrev main_call8_v10 : Ref sig .tc := ⟨.hbm, 239, rfl⟩
abbrev main_call8_v11 : Ref sig .tc := ⟨.hbm, 240, rfl⟩
abbrev main_call8_cst_3 : Ref sig .tc := ⟨.hbm, 241, rfl⟩
abbrev main_call8_v12 : Ref sig .tc := ⟨.hbm, 242, rfl⟩
abbrev main_call8_cst_4 : Ref sig .tc := ⟨.hbm, 243, rfl⟩
abbrev main_call8_call0_v0 : Ref sig .tc := ⟨.hbm, 244, rfl⟩
abbrev main_call8_call0_v1 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_cst_18 : Ref sig .tc := ⟨.hbm, 250, rfl⟩
abbrev main_v136 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_v141 : Ref sig .tc := ⟨.hbm, 256, rfl⟩
abbrev main_v142 : Ref sig .tc := ⟨.hbm, 257, rfl⟩
abbrev main_v143 : Ref sig .tc := ⟨.hbm, 258, rfl⟩
abbrev main_v144 : Ref sig .tc := ⟨.hbm, 259, rfl⟩
abbrev main_v145 : Ref sig .tc := ⟨.hbm, 260, rfl⟩
abbrev main_v146 : Ref sig .tc := ⟨.hbm, 261, rfl⟩
abbrev main_v147 : Ref sig .tc := ⟨.hbm, 262, rfl⟩
abbrev main_v148 : Ref sig .tc := ⟨.hbm, 263, rfl⟩
abbrev main_v149 : Ref sig .tc := ⟨.hbm, 264, rfl⟩
abbrev main_v150 : Ref sig .tc := ⟨.hbm, 265, rfl⟩
abbrev main_v151 : Ref sig .tc := ⟨.hbm, 266, rfl⟩
abbrev main_v152 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩
abbrev main_c_19 : Ref sig .tc := ⟨.hbm, 275, rfl⟩
abbrev main_v160 : Ref sig .tc := ⟨.hbm, 276, rfl⟩
abbrev main_v161 : Ref sig .tc := ⟨.hbm, 277, rfl⟩
abbrev main_c_20 : Ref sig .tc := ⟨.hbm, 278, rfl⟩
abbrev main_v162 : Ref sig .tc := ⟨.hbm, 279, rfl⟩
abbrev main_v163 : Ref sig .tc := ⟨.hbm, 280, rfl⟩
abbrev main_v164 : Ref sig .tc := ⟨.hbm, 281, rfl⟩
abbrev main_v165 : Ref sig .tc := ⟨.hbm, 282, rfl⟩
abbrev main_v166 : Ref sig .tc := ⟨.hbm, 283, rfl⟩
abbrev main_cst_21 : Ref sig .tc := ⟨.hbm, 284, rfl⟩
abbrev main_v167 : Ref sig .tc := ⟨.hbm, 285, rfl⟩
abbrev main_v168 : Ref sig .tc := ⟨.hbm, 286, rfl⟩
abbrev main_v169 : Ref sig .tc := ⟨.hbm, 287, rfl⟩
abbrev main_v170 : Ref sig .tc := ⟨.hbm, 288, rfl⟩
abbrev main_v171 : Ref sig .tc := ⟨.hbm, 289, rfl⟩
abbrev main_v172 : Ref sig .tc := ⟨.hbm, 290, rfl⟩
abbrev main_v173 : Ref sig .tc := ⟨.hbm, 291, rfl⟩
abbrev main_v174 : Ref sig .tc := ⟨.hbm, 292, rfl⟩
abbrev main_call9_cst : Ref sig .tc := ⟨.hbm, 293, rfl⟩
abbrev main_call9_v0 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_v179 : Ref sig .tc := ⟨.hbm, 299, rfl⟩
abbrev main_call10_cst : Ref sig .tc := ⟨.hbm, 300, rfl⟩
abbrev main_call10_v0 : Ref sig .tc := ⟨.hbm, 301, rfl⟩
abbrev main_v180 : Ref sig .tc := ⟨.hbm, 302, rfl⟩
abbrev main_cst_22 : Ref sig .tc := ⟨.hbm, 303, rfl⟩
abbrev main_v181 : Ref sig .tc := ⟨.hbm, 304, rfl⟩
abbrev main_cst_23 : Ref sig .tc := ⟨.hbm, 305, rfl⟩
abbrev main_v182 : Ref sig .tc := ⟨.hbm, 306, rfl⟩
abbrev main_v183 : Ref sig .tc := ⟨.hbm, 307, rfl⟩
abbrev main_c_24 : Ref sig .tc := ⟨.hbm, 308, rfl⟩
abbrev main_call11_cst : Ref sig .tc := ⟨.hbm, 309, rfl⟩
abbrev main_call11_v0 : Ref sig .tc := ⟨.hbm, 310, rfl⟩
abbrev main_call11_v1 : Ref sig .tc := ⟨.hbm, 311, rfl⟩
abbrev main_call11_cst_0 : Ref sig .tc := ⟨.hbm, 312, rfl⟩
abbrev main_call11_v2 : Ref sig .tc := ⟨.hbm, 313, rfl⟩
abbrev main_call11_v3 : Ref sig .tc := ⟨.hbm, 314, rfl⟩
abbrev main_call11_v4 : Ref sig .tc := ⟨.hbm, 315, rfl⟩
abbrev main_call11_v5 : Ref sig .tc := ⟨.hbm, 316, rfl⟩
abbrev main_call11_v6 : Ref sig .tc := ⟨.hbm, 317, rfl⟩
abbrev main_call11_v7 : Ref sig .tc := ⟨.hbm, 318, rfl⟩
abbrev main_call11_cst_1 : Ref sig .tc := ⟨.hbm, 319, rfl⟩
abbrev main_call11_v8 : Ref sig .tc := ⟨.hbm, 320, rfl⟩
abbrev main_call11_cst_2 : Ref sig .tc := ⟨.hbm, 321, rfl⟩
abbrev main_call11_v9 : Ref sig .tc := ⟨.hbm, 322, rfl⟩
abbrev main_call11_v10 : Ref sig .tc := ⟨.hbm, 323, rfl⟩
abbrev main_call11_v11 : Ref sig .tc := ⟨.hbm, 324, rfl⟩
abbrev main_call11_cst_3 : Ref sig .tc := ⟨.hbm, 325, rfl⟩
abbrev main_call11_v12 : Ref sig .tc := ⟨.hbm, 326, rfl⟩
abbrev main_call11_cst_4 : Ref sig .tc := ⟨.hbm, 327, rfl⟩
abbrev main_call11_call0_v0 : Ref sig .tc := ⟨.hbm, 328, rfl⟩
abbrev main_call11_call0_v1 : Ref sig .tc := ⟨.hbm, 329, rfl⟩
abbrev main_v184 : Ref sig .tc := ⟨.hbm, 330, rfl⟩
abbrev main_v185 : Ref sig .tc := ⟨.hbm, 331, rfl⟩
abbrev main_v186 : Ref sig .tc := ⟨.hbm, 332, rfl⟩
abbrev main_v187 : Ref sig .tc := ⟨.hbm, 333, rfl⟩
abbrev main_cst_25 : Ref sig .tc := ⟨.hbm, 334, rfl⟩
abbrev main_v188 : Ref sig .tc := ⟨.hbm, 335, rfl⟩
abbrev main_v189 : Ref sig .tc := ⟨.hbm, 336, rfl⟩
abbrev main_v190 : Ref sig .tc := ⟨.hbm, 337, rfl⟩
abbrev main_v191 : Ref sig .tc := ⟨.hbm, 338, rfl⟩
abbrev main_v192 : Ref sig .tc := ⟨.hbm, 339, rfl⟩
abbrev main_v193 : Ref sig .tc := ⟨.hbm, 340, rfl⟩
abbrev main_v194 : Ref sig .tc := ⟨.hbm, 341, rfl⟩
abbrev main_v195 : Ref sig .tc := ⟨.hbm, 342, rfl⟩
abbrev main_v196 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_v200 : Ref sig .tc := ⟨.hbm, 347, rfl⟩
abbrev main_cst_26 : Ref sig .tc := ⟨.hbm, 348, rfl⟩
abbrev main_v201 : Ref sig .tc := ⟨.hbm, 349, rfl⟩
abbrev main_v202 : Ref sig .tc := ⟨.hbm, 350, rfl⟩
abbrev main_v203 : Ref sig .tc := ⟨.hbm, 351, rfl⟩
abbrev main_cst_27 : Ref sig .tc := ⟨.hbm, 352, rfl⟩
abbrev main_v204 : Ref sig .tc := ⟨.hbm, 353, rfl⟩
abbrev main_cst_28 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_cst_29 : Ref sig .tc := ⟨.hbm, 358, rfl⟩
abbrev main_v208 : Ref sig .tc := ⟨.hbm, 359, rfl⟩
abbrev main_v209 : Ref sig .tc := ⟨.hbm, 360, rfl⟩
abbrev main_v210 : Ref sig .tc := ⟨.hbm, 361, rfl⟩
abbrev main_v211 : Ref sig .tc := ⟨.hbm, 362, rfl⟩
abbrev main_v212 : Ref sig .tc := ⟨.hbm, 363, rfl⟩
abbrev main_v213 : Ref sig .tc := ⟨.hbm, 364, rfl⟩
abbrev main_v214 : Ref sig .tc := ⟨.hbm, 365, rfl⟩
abbrev main_v215 : Ref sig .tc := ⟨.hbm, 366, rfl⟩
abbrev main_v216 : Ref sig .tc := ⟨.hbm, 367, rfl⟩
abbrev main_call12_cst : Ref sig .tc := ⟨.hbm, 368, rfl⟩
abbrev main_call12_v0 : Ref sig .tc := ⟨.hbm, 369, rfl⟩
abbrev main_v217 : Ref sig .tc := ⟨.hbm, 370, rfl⟩
abbrev main_v218 : Ref sig .tc := ⟨.hbm, 371, rfl⟩
abbrev main_v219 : Ref sig .tc := ⟨.hbm, 372, rfl⟩
abbrev main_v220 : Ref sig .tc := ⟨.hbm, 373, rfl⟩
abbrev main_v221 : Ref sig .tc := ⟨.hbm, 374, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S100000x128_S100000x128_S100000x128_S100000x128_S100000x512_d1 : Shape.Concatenates [S100000x128, S100000x128, S100000x128, S100000x128] S100000x512 1
  bcast_S_S128x512 : S_.BroadcastsInDim S128x512 (![] : Fin 0 → Fin S128x512.rank)
  bcast_S100000_S100000x1_0 : S100000.BroadcastsInDim S100000x1 (![0] : Fin 1 → Fin S100000x1.rank)
  bcast_S_S100000 : S_.BroadcastsInDim S100000 (![] : Fin 0 → Fin S100000.rank)
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S128x512_S100000x1_S100000x512_1_0_0_1_wf : ScatterDims.WF S128x512 S100000x1 S100000x512 [1] [0] [0] 1
  scatter_S128_S100000x1_S100000_n_0_0_1_wf : ScatterDims.WF S128 S100000x1 S100000 [] [0] [0] 1
  dot_S128x512_S512x128_S128x128_1_0_0_1_n_n_wf : DotDims.WF S128x512 S512x128 S128x128 [1] [0] [0] [1] [] []
  dot_S128x128_S128x10_S128x10_1_0_0_1_n_n_wf : DotDims.WF S128x128 S128x10 S128x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x512_S100000x1_S100000x512_1_0_0_1 : ScatterDims S128x512 S100000x1 S100000x512 where
  updateWindowDims := [1]
  insertedWindowDims := [0]
  scatterDimsToOperandDims := [0]
  indexVectorDim := 1
  wf := scatter_S128x512_S100000x1_S100000x512_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.KRunCond.lean ====
/-
  The program's run with its result named. The generated conditional frame gives, from one segment record per region,
  that the program runs to the end leaving its arguments as launched; the same argument also reads the result array off
  the last thread state, where it sits at the contents named for what the last region leaves in it.
-/
import proofs.«117300_j5643587027248_1_alg».proof.Proof.Gen.Kernel.Regions

set_option maxRecDepth 1700

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The program's run from its regions' records, with the result's contents named: as the conditional frame, and in
    addition every final memory holds the result array at the contents named for what the last region leaves in it. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 9) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c)) :
    θ_run defs (onTc (τ := τ) (main (F := F))) ⟨m, fun _ => 0, ρ⟩ (fun r => ∀ c : Dev nD,
      r.2.mem ((c.tc : Thread nD τ).loc main_v159) = outs 18 main_v159 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8)
    (fun c Q => by
      rewrite [main_chain c, Seg.run_eq_chain,
        show (segs m outs 𝒱₀ L lv E ι pdats R0 R1 R2 R3 R4 R5 R6 R7 R8 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, (hpost8 c).trans (sep_mono .rfl (hE9 c))⟩)
    (hinit := ?_) (QY := fun c s => s.mem ((c.tc : Thread nD τ).loc main_v159) = outs 18 main_v159 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V18 m outs c) s') $$ [Hh HSI]
    · isplitl [Hh] <;> iassumption
    icases Hr with ⟨%h, HSI⟩
    imodintro
    isplitr
    · ipureintro
      exact ⟨(h (Proc.devRef .tc main_v159) (Finset.mem_filter.mpr ⟨StableHlo.devRef_mem_tcRefs main_v159, by decide⟩)).trans (by simp only [V18]; rw [Function.update_self]),
        (h (Proc.devRef .tc main_arg0) (Finset.mem_filter.mpr ⟨StableHlo.devRef_mem_tcRefs main_arg0, by decide⟩)).trans (V18_main_arg0 m outs c),
        (h (Proc.devRef .tc main_arg1) (Finset.mem_filter.mpr ⟨StableHlo.devRef_mem_tcRefs main_arg1, by decide⟩)).trans (V18_main_arg1 m outs c),
        (h (Proc.devRef .tc main_arg2) (Finset.mem_filter.mpr ⟨StableHlo.devRef_mem_tcRefs main_arg2, by decide⟩)).trans (V18_main_arg2 m outs c),
        (h (Proc.devRef .tc main_arg3) (Finset.mem_filter.mpr ⟨StableHlo.devRef_mem_tcRefs main_arg3, by decide⟩)).trans (V18_main_arg3 m outs c),
        (h (Proc.devRef .tc main_arg4) (Finset.mem_filter.mpr ⟨StableHlo.devRef_mem_tcRefs main_arg4, by decide⟩)).trans (V18_main_arg4 m outs c),
        (h (Proc.devRef .tc main_arg5) (Finset.mem_filter.mpr ⟨StableHlo.devRef_mem_tcRefs main_arg5, by decide⟩)).trans (V18_main_arg5 m outs c),
        (h (Proc.devRef .tc main_arg6) (Finset.mem_filter.mpr ⟨StableHlo.devRef_mem_tcRefs main_arg6, by decide⟩)).trans (V18_main_arg6 m outs c),
        (h (Proc.devRef .tc main_arg7) (Finset.mem_filter.mpr ⟨StableHlo.devRef_mem_tcRefs main_arg7, by decide⟩)).trans (V18_main_arg7 m outs c),
        (h (Proc.devRef .tc main_arg8) (Finset.mem_filter.mpr ⟨StableHlo.devRef_mem_tcRefs main_arg8, by decide⟩)).trans (V18_main_arg8 m outs c),
        (h (Proc.devRef .tc main_arg9) (Finset.mem_filter.mpr ⟨StableHlo.devRef_mem_tcRefs main_arg9, by decide⟩)).trans (V18_main_arg9 m outs c),
        (h (Proc.devRef .tc main_arg10) (Finset.mem_filter.mpr ⟨StableHlo.devRef_mem_tcRefs main_arg10, by decide⟩)).trans (V18_main_arg10 m outs c),
        (h (Proc.devRef .tc main_arg11) (Finset.mem_filter.mpr ⟨StableHlo.devRef_mem_tcRefs main_arg11, by decide⟩)).trans (V18_main_arg11 m outs c),
        (h (Proc.devRef .tc main_arg12) (Finset.mem_filter.mpr ⟨StableHlo.devRef_mem_tcRefs main_arg12, by decide⟩)).trans (V18_main_arg12 m outs c),
        (h (Proc.devRef .tc main_arg13) (Finset.mem_filter.mpr ⟨StableHlo.devRef_mem_tcRefs main_arg13, by decide⟩)).trans (V18_main_arg13 m outs c),
        (h (Proc.devRef .tc main_arg14) (Finset.mem_filter.mpr ⟨StableHlo.devRef_mem_tcRefs main_arg14, by decide⟩)).trans (V18_main_arg14 m outs c),
        (h (Proc.devRef .tc main_arg15) (Finset.mem_filter.mpr ⟨StableHlo.devRef_mem_tcRefs main_arg15, by decide⟩)).trans (V18_main_arg15 m outs c),
        (h (Proc.devRef .tc main_arg16) (Finset.mem_filter.mpr ⟨StableHlo.devRef_mem_tcRefs main_arg16, by decide⟩)).trans (V18_main_arg16 m outs c),
        (h (Proc.devRef .tc main_arg17) (Finset.mem_filter.mpr ⟨StableHlo.devRef_mem_tcRefs main_arg17, by decide⟩)).trans (V18_main_arg17 m outs c),
        (h (Proc.devRef .tc main_arg18) (Finset.mem_filter.mpr ⟨StableHlo.devRef_mem_tcRefs main_arg18, by decide⟩)).trans (V18_main_arg18 m outs c)⟩
    · iexact HSI

end Cert.Kernel.Hand

end
-- ==== Proof.KRegionMlp0.lean ====
/-
  The layer-0 perceptron region (z = x + agg; h = relu(relu(z·w1 + b1)·w2 + b2), stored whole per point; and two
  one-row outputs, the column sums of h and of h·h, reset at the first grid point and accumulated over the twenty
  points of 5000 rows each), over nine windows: the rows' blocks of x and agg, the four parameter blocks (one whole
  block each, the same at every point), the output rows' block, and the two one-row accumulators. Stated at the buffer
  contents the region is entered from: each window's block at a point; the body's triple at a point that resets the
  accumulators and at one that carries them, the pieces each output's buffer ends with being the witness the run finds;
  what the outputs hold point by point; the proof data (arrays as entered; inputs left in place; the outputs at the
  point-by-point contents; nothing owed) and the body obligation.
-/
import proofs.«117300_j5643587027248_1_alg».proof.Proof.Gen.Kernel.Launch
import proofs.«117300_j5643587027248_1_alg».proof.Proof.Gen.Kernel.Skeleton
import proofs.«117300_j5643587027248_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's conditional (is this the first row block?), from the grid coordinates. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val % 20 = 0 :=
  (by decide +kernel : ∀ t : Fin grid0.N, cond0_0 (grid0.coords t) ↔ t.val % 20 = 0)

/-! ## The staging memrefs -/

/-- One staging buffer of each output window, through which its contents are stated (the choice does not matter). -/
abbrev VO0_6 : View sig .tc .vmem S5000x128 .f32 := (Memref.whole cc0_stg6_0 : Memref sig .tc .vmem S5000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view
/-- Each window's current staging memref at point `t`, spelled as the pipeline passes it, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)

/-! ## The body's triple, case by case -/

set_option maxHeartbeats 4000000 in
/-- What the body's stores leave in each output's staging memref, as pieces (last first), at a point where the
    accumulators are reset (the conditional taken), with the proof that on whole staging memrefs — the inputs' at given
    contents, the outputs' at anything — the body runs to the continuation holding the inputs' as they were and each
    output's buffer with its pieces written. The pieces are the witness the run finds. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)) (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mlp_kernel_eq_skeleton]; unfold cc0__mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- The same at a point where the accumulators are carried (the conditional not taken): the two accumulator outputs'
    buffers at the running contents `xo7`, `xo8` the point before left. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    Σ' (L6 : List (View.Piece (Elt F) S5000x128 .f32)) (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mlp_kernel_eq_skeleton]; unfold cc0__mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

/-! ## What each case leaves in the outputs' buffers -/

/-- Case A's pieces for output 6 tile its block (checked by evaluating them), so they cover it. -/
theorem cover0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).1 S5000x128.size (by sl_kernel_rfl) y

/-- What case A leaves in output 6's staging buffer: its pieces read back over junk. -/
def out0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4 x5).1)

/-- Case A's pieces for output 7 tile its block (checked by evaluating them), so they cover it. -/
theorem cover0_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.1 S1x128.size (by sl_kernel_rfl) y

/-- What case A leaves in output 7's staging buffer: its pieces read back over junk. -/
def out0_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5).2.1)

/-- Case A's pieces for output 8 tile its block (checked by evaluating them), so they cover it. -/
theorem cover0_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.2.1 S1x128.size (by sl_kernel_rfl) y

/-- What case A leaves in output 8's staging buffer: its pieces read back over junk. -/
def out0_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 hc0 x0 x1 x2 x3 x4 x5).2.2.1)

/-- Case B's pieces for output 6 tile its block (checked by evaluating them), so they cover it. -/
theorem cover0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S5000x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).1 S5000x128.size (by sl_kernel_rfl) y

/-- What case B leaves in output 6's staging buffer: its pieces read back over junk. -/
def out0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S5000x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 x4 x5 xo7 xo8).1)

/-- Case B's pieces for output 7 tile its block (checked by evaluating them), so they cover it. -/
theorem cover0_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).2.1 S1x128.size (by sl_kernel_rfl) y

/-- What case B leaves in output 7's staging buffer: its pieces read back over junk. -/
def out0_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S1x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 xo7 xo8).2.1)

/-- Case B's pieces for output 8 tile its block (checked by evaluating them), so they cover it. -/
theorem cover0_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).2.2.1 S1x128.size (by sl_kernel_rfl) y

/-- What case B leaves in output 8's staging buffer: its pieces read back over junk. -/
def out0_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S1x128 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 hc0 x0 x1 x2 x3 x4 x5 xo7 xo8).2.2.1)

/-! ## What the outputs hold after each point -/

/-- The accumulation. What the outputs' staging buffers hold after the body at position `n` (a tuple, in window order):
    the case the closed form selects at `n`, run at the point's memrefs and input blocks, the two accumulators at what
    this leaves at `n - 1` when they are carried (their buffers are not written back between). -/
def outsAt0 (c : Dev nD) : (n : ℕ) → n < cfg0.N → Vec F S5000x128 .f32 × Vec F S1x128 .f32 × Vec F S1x128 .f32
  | 0, hn =>
      (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
       out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
       out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 20 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
       out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
       out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2,
       out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2,
       out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2)

/-- `outsAt0` at a point that resets the accumulators: that case's contents. -/
theorem outsAt0_A (c : Dev nD) (t : Fin cfg0.N) (h0 : t.val % 20 = 0) :
    outsAt0 V c t.val t.isLt =
      (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
       out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
       out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans rfl

/-- `outsAt0` at a point that carries them: that case's contents, over what the point before left. -/
theorem outsAt0_B (c : Dev nD) (t : Fin cfg0.N) (h0 : ¬t.val % 20 = 0) :
    outsAt0 V c t.val t.isLt =
      (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2,
       out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2,
       out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt0`; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- At a point that carries the accumulators, output 7's current staging buffer holds what the body left at the point
    before: the point is not the first, the buffer was not written back between, the window is live and uncut. -/
theorem before0_7_B (c : Dev nD) (t : Fin cfg0.N) (h0 : ¬t.val % 20 = 0) (d) :
    (dat0 V c).before 7 t d = (outsAt0 V c (t.val - 1) (Nat.lt_of_le_of_lt (Nat.sub_le _ _) t.isLt)).2.1 := by
  have hN : t.val < 20 := lt_of_lt_of_eq t.isLt (show cfg0.N = 20 from N_0)
  rw [Dat.before_out_kept _ 7 rfl t (by omega) (Bool.eq_false_iff.mpr fun h => by have := (flush0_7 _).mp h; dsimp only at this; omega)
    (fun _ => rfl) (fun _ _ => rfl)]
  dsimp only [dat0]

/-- At a point that carries the accumulators, output 8's current staging buffer holds what the body left at the point
    before: the point is not the first, the buffer was not written back between, the window is live and uncut. -/
theorem before0_8_B (c : Dev nD) (t : Fin cfg0.N) (h0 : ¬t.val % 20 = 0) (d) :
    (dat0 V c).before 8 t d = (outsAt0 V c (t.val - 1) (Nat.lt_of_le_of_lt (Nat.sub_le _ _) t.isLt)).2.2 := by
  have hN : t.val < 20 := lt_of_lt_of_eq t.isLt (show cfg0.N = 20 from N_0)
  rw [Dat.before_out_kept _ 8 rfl t (by omega) (Bool.eq_false_iff.mpr fun h => by have := (flush0_8 _).mp h; dsimp only at this; omega)
    (fun _ => rfl) (fun _ _ => rfl)]
  dsimp only [dat0]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 4000000 in
/-- The body at any point: the inputs' memrefs hold their blocks; the closed form says which case the point is in; at a
    point that carries the accumulators their buffers hold what the point before left; so the case's run applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  have hN : t.val < 20 := lt_of_lt_of_eq t.isLt (show cfg0.N = 20 from N_0)
  by_cases h0 : t.val % 20 = 0
  · rw [outsAt0_A V c t h0]
    unfold out0_A_6 out0_A_7 out0_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _ _ _)
  · rw [outsAt0_B V c t h0]
    simp only [before0_7_B V c t h0, before0_8_B V c t h0]
    unfold out0_B_6 out0_B_7 out0_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _)
    unfold owns; iexists _; isplitr
    swap; · iexact H8
    ipureintro; exact View.read_writes_of_cover _ _ _ _ _ (cover0_B_8 c _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegionNorm1.lean ====
/-
  The normalising region of layer 0 (out = (h − mean) · rsqrt(var + ε) · γ + β, entry by entry), twenty grid points
  of 5000 rows each over six windows: the rows' block of h, the four one-row statistics and parameters (mean, var,
  γ, β: one whole block each, the same at every point) and the output's rows. Stated at the buffer contents the
  region is entered from: each window's block at a point, what the body leaves in the output's staging buffer (its
  one store, of the whole block), the body's triple, the proof data (arrays as entered; inputs left in place; the
  output at the store's value; nothing owed) and the body obligation.
-/
import proofs.«117300_j5643587027248_1_alg».proof.Proof.Gen.Kernel.Launch
import proofs.«117300_j5643587027248_1_alg».proof.Proof.Gen.Kernel.Skeleton
import proofs.«117300_j5643587027248_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer: its one store, of the whole block -/

def out1_5 (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k1_pay1 (View.ld x2 (Rect.unit (s := S1x128) ![0, 0] S1x128.size inb_S1x128_S1x128_0_0)) (View.ld x0 (Rect.unit (s := S5000x128) ![0, 0] S5000x128.size inb_S5000x128_S5000x128_0_0)) (View.ld x1 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

/-- The store takes the whole buffer, so it covers it. -/
theorem cover1_5 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

/-! ## The body's triple -/

set_option maxHeartbeats 1000000 in
/-- The body on whole staging memrefs, the inputs' at given contents and the output's at anything, runs to the
    continuation holding the inputs' as they were and the output's at `out1_5` of the inputs'. -/
theorem sound_kernel1 (c : Dev nD) (E : Set ℕ) (i : grid1.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1__norm_kernel i arg0 harg0 arg1 harg1 arg2 harg2 arg3 harg3 arg4 harg4 arg5 harg5) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t` each
    input's buffer at its block and the output's at `out1_5` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRegionMlp2.lean ====
/-
  The layer-1 perceptron region (z = x + agg; h = relu(relu(z·w1 + b1)·w2 + b2), stored whole per point; and two
  one-row outputs, the column sums of h and of h·h, reset at the first grid point and accumulated over the twenty
  points of 5000 rows each), over nine windows: the rows' blocks of x and agg, the four parameter blocks (one whole
  block each, the same at every point), the output rows' block, and the two one-row accumulators. Stated at the buffer
  contents the region is entered from: each window's block at a point; the body's triple at a point that resets the
  accumulators and at one that carries them, the pieces each output's buffer ends with being the witness the run finds;
  what the outputs hold point by point; the proof data (arrays as entered; inputs left in place; the outputs at the
  point-by-point contents; nothing owed) and the body obligation.
-/
import proofs.«117300_j5643587027248_1_alg».proof.Proof.Gen.Kernel.Launch
import proofs.«117300_j5643587027248_1_alg».proof.Proof.Gen.Kernel.Skeleton
import proofs.«117300_j5643587027248_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is the entry contents and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is the entry contents and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's conditional (is this the first row block?), from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 20 = 0 :=
  (by decide +kernel : ∀ t : Fin grid2.N, cond2_0 (grid2.coords t) ↔ t.val % 20 = 0)

/-! ## The staging memrefs -/

/-- One staging buffer of each output window, through which its contents are stated (the choice does not matter). -/
abbrev VO2_6 : View sig .tc .vmem S5000x128 .f32 := (Memref.whole cc2_stg6_0 : Memref sig .tc .vmem S5000x128 .f32).view
abbrev VO2_7 : View sig .tc .vmem S1x128 .f32 := (Memref.whole cc2_stg7_0 : Memref sig .tc .vmem S1x128 .f32).view
abbrev VO2_8 : View sig .tc .vmem S1x128 .f32 := (Memref.whole cc2_stg8_0 : Memref sig .tc .vmem S1x128 .f32).view
/-- Each window's current staging memref at point `t`, spelled as the pipeline passes it, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)

/-! ## The body's triple, case by case -/

set_option maxHeartbeats 4000000 in
/-- What the body's stores leave in each output's staging memref, as pieces (last first), at a point where the
    accumulators are reset (the conditional taken), with the proof that on whole staging memrefs — the inputs' at given
    contents, the outputs' at anything — the body runs to the continuation holding the inputs' as they were and each
    output's buffer with its pieces written. The pieces are the witness the run finds. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)) (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__mlp_kernel_eq_skeleton]; unfold cc2__mlp_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- The same at a point where the accumulators are carried (the conditional not taken): the two accumulator outputs'
    buffers at the running contents `xo7`, `xo8` the point before left. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    Σ' (L6 : List (View.Piece (Elt F) S5000x128 .f32)) (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__mlp_kernel_eq_skeleton]; unfold cc2__mlp_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

/-! ## What each case leaves in the outputs' buffers -/

/-- Case A's pieces for output 6 tile its block (checked by evaluating them), so they cover it. -/
theorem cover2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun2_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).1 S5000x128.size (by sl_kernel_rfl) y

/-- What case A leaves in output 6's staging buffer: its pieces read back over junk. -/
def out2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 hc0 x0 x1 x2 x3 x4 x5).1)

/-- Case A's pieces for output 7 tile its block (checked by evaluating them), so they cover it. -/
theorem cover2_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).2.1 S1x128.size (by sl_kernel_rfl) y

/-- What case A leaves in output 7's staging buffer: its pieces read back over junk. -/
def out2_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 hc0 x0 x1 x2 x3 x4 x5).2.1)

/-- Case A's pieces for output 8 tile its block (checked by evaluating them), so they cover it. -/
theorem cover2_A_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).2.2.1 S1x128.size (by sl_kernel_rfl) y

/-- What case A leaves in output 8's staging buffer: its pieces read back over junk. -/
def out2_A_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 hc0 x0 x1 x2 x3 x4 x5).2.2.1)

/-- Case B's pieces for output 6 tile its block (checked by evaluating them), so they cover it. -/
theorem cover2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S5000x128.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).1 S5000x128.size (by sl_kernel_rfl) y

/-- What case B leaves in output 6's staging buffer: its pieces read back over junk. -/
def out2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S5000x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 hc0 x0 x1 x2 x3 x4 x5 xo7 xo8).1)

/-- Case B's pieces for output 7 tile its block (checked by evaluating them), so they cover it. -/
theorem cover2_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).2.1 S1x128.size (by sl_kernel_rfl) y

/-- What case B leaves in output 7's staging buffer: its pieces read back over junk. -/
def out2_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S1x128 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 hc0 x0 x1 x2 x3 x4 x5 xo7 xo8).2.1)

/-- Case B's pieces for output 8 tile its block (checked by evaluating them), so they cover it. -/
theorem cover2_B_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).2.2.1 S1x128.size (by sl_kernel_rfl) y

/-- What case B leaves in output 8's staging buffer: its pieces read back over junk. -/
def out2_B_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S1x128 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 hc0 x0 x1 x2 x3 x4 x5 xo7 xo8).2.2.1)

/-! ## What the outputs hold after each point -/

/-- The accumulation. What the outputs' staging buffers hold after the body at position `n` (a tuple, in window order):
    the case the closed form selects at `n`, run at the point's memrefs and input blocks, the two accumulators at what
    this leaves at `n - 1` when they are carried (their buffers are not written back between). -/
def outsAt2 (c : Dev nD) : (n : ℕ) → n < cfg2.N → Vec F S5000x128 .f32 × Vec F S1x128 .f32 × Vec F S1x128 .f32
  | 0, hn =>
      (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
       out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
       out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 20 = 0 then
      (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
       out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
       out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2,
       out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2,
       out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2)

/-- `outsAt2` at a point that resets the accumulators: that case's contents. -/
theorem outsAt2_A (c : Dev nD) (t : Fin cfg2.N) (h0 : t.val % 20 = 0) :
    outsAt2 V c t.val t.isLt =
      (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
       out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
       out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans rfl

/-- `outsAt2` at a point that carries them: that case's contents, over what the point before left. -/
theorem outsAt2_B (c : Dev nD) (t : Fin cfg2.N) (h0 : ¬t.val % 20 = 0) :
    outsAt2 V c t.val t.isLt =
      (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2,
       out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2,
       out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt2`; the scoped rest and the generator register untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- At a point that carries the accumulators, output 7's current staging buffer holds what the body left at the point
    before: the point is not the first, the buffer was not written back between, the window is live and uncut. -/
theorem before2_7_B (c : Dev nD) (t : Fin cfg2.N) (h0 : ¬t.val % 20 = 0) (d) :
    (dat2 V c).before 7 t d = (outsAt2 V c (t.val - 1) (Nat.lt_of_le_of_lt (Nat.sub_le _ _) t.isLt)).2.1 := by
  have hN : t.val < 20 := lt_of_lt_of_eq t.isLt (show cfg2.N = 20 from N_2)
  rw [Dat.before_out_kept _ 7 rfl t (by omega) (Bool.eq_false_iff.mpr fun h => by have := (flush2_7 _).mp h; dsimp only at this; omega)
    (fun _ => rfl) (fun _ _ => rfl)]
  dsimp only [dat2]

/-- At a point that carries the accumulators, output 8's current staging buffer holds what the body left at the point
    before: the point is not the first, the buffer was not written back between, the window is live and uncut. -/
theorem before2_8_B (c : Dev nD) (t : Fin cfg2.N) (h0 : ¬t.val % 20 = 0) (d) :
    (dat2 V c).before 8 t d = (outsAt2 V c (t.val - 1) (Nat.lt_of_le_of_lt (Nat.sub_le _ _) t.isLt)).2.2 := by
  have hN : t.val < 20 := lt_of_lt_of_eq t.isLt (show cfg2.N = 20 from N_2)
  rw [Dat.before_out_kept _ 8 rfl t (by omega) (Bool.eq_false_iff.mpr fun h => by have := (flush2_8 _).mp h; dsimp only at this; omega)
    (fun _ => rfl) (fun _ _ => rfl)]
  dsimp only [dat2]

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

set_option maxHeartbeats 4000000 in
/-- The body at any point: the inputs' memrefs hold their blocks; the closed form says which case the point is in; at a
    point that carries the accumulators their buffers hold what the point before left; so the case's run applies; the
    invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  have hN : t.val < 20 := lt_of_lt_of_eq t.isLt (show cfg2.N = 20 from N_2)
  by_cases h0 : t.val % 20 = 0
  · rw [outsAt2_A V c t h0]
    unfold out2_A_6 out2_A_7 out2_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover2_A_7 c _ _ _ _ _ _ _ _ _ _ _ _ _ _ _ _ _ _ _ _ _ _ _ _ _ _)
    unfold owns; iexists _; isplitr
    swap; · iexact H8
    ipureintro; exact View.read_writes_of_cover _ _ _ _ _ (cover2_A_8 c _ _ _ _ _ _ _ _ _ _ _ _ _ _ _ _ _ _ _ _ _ _ _ _ _ _)
  · rw [outsAt2_B V c t h0]
    simp only [before2_7_B V c t h0, before2_8_B V c t h0]
    unfold out2_B_6 out2_B_7 out2_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_B c (grid2.coords t) _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover2_B_7 c _ _ _ _ _ _ _ _ _ _ _ _ _ _ _ _ _ _ _ _ _ _ _ _ _ _ _ _)
    unfold owns; iexists _; isplitr
    swap; · iexact H8
    ipureintro; exact View.read_writes_of_cover _ _ _ _ _ (cover2_B_8 c _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegionNorm3.lean ====
/-
  The normalising region of layer 1 (out = (h − mean) · rsqrt(var + ε) · γ + β, entry by entry), twenty grid points
  of 5000 rows each over six windows: the rows' block of h, the four one-row statistics and parameters (mean, var,
  γ, β: one whole block each, the same at every point) and the output's rows. Stated at the buffer contents the
  region is entered from: each window's block at a point, what the body leaves in the output's staging buffer (its
  one store, of the whole block), the body's triple, the proof data (arrays as entered; inputs left in place; the
  output at the store's value; nothing owed) and the body obligation.
-/
import proofs.«117300_j5643587027248_1_alg».proof.Proof.Gen.Kernel.Launch
import proofs.«117300_j5643587027248_1_alg».proof.Proof.Gen.Kernel.Skeleton
import proofs.«117300_j5643587027248_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is the entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data
    whose array is the entry contents and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window's buffer: its one store, of the whole block -/

def out3_5 (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k3_pay1 (View.ld x2 (Rect.unit (s := S1x128) ![0, 0] S1x128.size inb_S1x128_S1x128_0_0)) (View.ld x0 (Rect.unit (s := S5000x128) ![0, 0] S5000x128.size inb_S5000x128_S5000x128_0_0)) (View.ld x1 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

/-- The store takes the whole buffer, so it covers it. -/
theorem cover3_5 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

/-! ## The body's triple -/

set_option maxHeartbeats 1000000 in
/-- The body on whole staging memrefs, the inputs' at given contents and the output's at anything, runs to the
    continuation holding the inputs' as they were and the output's at `out3_5` of the inputs'. -/
theorem sound_kernel3 (c : Dev nD) (E : Set ℕ) (i : grid3.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out3_5 x0 x1 x2 x3 x4)) -∗ K ⟨⟩))
      ⊢ wp frame (wpE (defs₀ (F := F)) Variants.none c none) E (cc3__norm_kernel i arg0 harg0 arg1 harg1 arg2 harg2 arg3 harg3 arg4 harg4 arg5 harg5) K := by
  simp only [cc3__norm_kernel_eq_skeleton]; unfold cc3__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of this pipeline on core `c`: the arrays as the region finds them; after the body at point `t` each
    input's buffer at its block and the output's at `out3_5` of the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the triple applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRegionMlp4.lean ====
/-
  The layer-2 perceptron region (z = x + agg; h = relu(relu(z·w1 + b1)·w2 + b2), stored whole per point; and two
  one-row outputs, the column sums of h and of h·h, reset at the first grid point and accumulated over the twenty
  points of 5000 rows each), over nine windows: the rows' blocks of x and agg, the four parameter blocks (one whole
  block each, the same at every point), the output rows' block, and the two one-row accumulators. Stated at the buffer
  contents the region is entered from: each window's block at a point; the body's triple at a point that resets the
  accumulators and at one that carries them, the pieces each output's buffer ends with being the witness the run finds;
  what the outputs hold point by point; the proof data (arrays as entered; inputs left in place; the outputs at the
  point-by-point contents; nothing owed) and the body obligation.
-/
import proofs.«117300_j5643587027248_1_alg».proof.Proof.Gen.Kernel.Launch
import proofs.«117300_j5643587027248_1_alg».proof.Proof.Gen.Kernel.Skeleton
import proofs.«117300_j5643587027248_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is the entry contents and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is the entry contents and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof data
    whose array is the entry contents and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof data
    whose array is the entry contents and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof data
    whose array is the entry contents and whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch condition -/

/-- The condition of the body's conditional (is this the first row block?), from the grid coordinates. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val % 20 = 0 :=
  (by decide +kernel : ∀ t : Fin grid4.N, cond4_0 (grid4.coords t) ↔ t.val % 20 = 0)

/-! ## The staging memrefs -/

/-- One staging buffer of each output window, through which its contents are stated (the choice does not matter). -/
abbrev VO4_6 : View sig .tc .vmem S5000x128 .f32 := (Memref.whole cc4_stg6_0 : Memref sig .tc .vmem S5000x128 .f32).view
abbrev VO4_7 : View sig .tc .vmem S1x128 .f32 := (Memref.whole cc4_stg7_0 : Memref sig .tc .vmem S1x128 .f32).view
abbrev VO4_8 : View sig .tc .vmem S1x128 .f32 := (Memref.whole cc4_stg8_0 : Memref sig .tc .vmem S1x128 .f32).view
/-- Each window's current staging memref at point `t`, spelled as the pipeline passes it, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S5000x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)

/-! ## The body's triple, case by case -/

set_option maxHeartbeats 4000000 in
/-- What the body's stores leave in each output's staging memref, as pieces (last first), at a point where the
    accumulators are reset (the conditional taken), with the proof that on whole staging memrefs — the inputs' at given
    contents, the outputs' at anything — the body runs to the continuation holding the inputs' as they were and each
    output's buffer with its pieces written. The pieces are the witness the run finds. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)) (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc4__mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__mlp_kernel_eq_skeleton]; unfold cc4__mlp_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- The same at a point where the accumulators are carried (the conditional not taken): the two accumulator outputs'
    buffers at the running contents `xo7`, `xo8` the point before left. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    Σ' (L6 : List (View.Piece (Elt F) S5000x128 .f32)) (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc4__mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__mlp_kernel_eq_skeleton]; unfold cc4__mlp_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

/-! ## What each case leaves in the outputs' buffers -/

/-- Case A's pieces for output 6 tile its block (checked by evaluating them), so they cover it. -/
theorem cover4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun4_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).1 S5000x128.size (by sl_kernel_rfl) y

/-- What case A leaves in output 6's staging buffer: its pieces read back over junk. -/
def out4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 x0 x1 x2 x3 x4 x5).1)

/-- Case A's pieces for output 7 tile its block (checked by evaluating them), so they cover it. -/
theorem cover4_A_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).2.1 S1x128.size (by sl_kernel_rfl) y

/-- What case A leaves in output 7's staging buffer: its pieces read back over junk. -/
def out4_A_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 hc0 x0 x1 x2 x3 x4 x5).2.1)

/-- Case A's pieces for output 8 tile its block (checked by evaluating them), so they cover it. -/
theorem cover4_A_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).2.2.1 S1x128.size (by sl_kernel_rfl) y

/-- What case A leaves in output 8's staging buffer: its pieces read back over junk. -/
def out4_A_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 hc0 x0 x1 x2 x3 x4 x5).2.2.1)

/-- Case B's pieces for output 6 tile its block (checked by evaluating them), so they cover it. -/
theorem cover4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S5000x128.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).1 S5000x128.size (by sl_kernel_rfl) y

/-- What case B leaves in output 6's staging buffer: its pieces read back over junk. -/
def out4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S5000x128 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 x0 x1 x2 x3 x4 x5 xo7 xo8).1)

/-- Case B's pieces for output 7 tile its block (checked by evaluating them), so they cover it. -/
theorem cover4_B_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).2.1 S1x128.size (by sl_kernel_rfl) y

/-- What case B leaves in output 7's staging buffer: its pieces read back over junk. -/
def out4_B_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S1x128 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 hc0 x0 x1 x2 x3 x4 x5 xo7 xo8).2.1)

/-- Case B's pieces for output 8 tile its block (checked by evaluating them), so they cover it. -/
theorem cover4_B_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).2.2.1 S1x128.size (by sl_kernel_rfl) y

/-- What case B leaves in output 8's staging buffer: its pieces read back over junk. -/
def out4_B_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S1x128 .f32 :=
  VO4_8.read (Elt F) (VO4_8.writes (Elt F) VO4_8.junk (kernelRun4_B c i arg1 harg1 arg2 harg2 arg3 harg3 arg4 harg4 arg5 harg5 arg6 harg6 arg7 harg7 arg8 harg8 arg9 harg9 hc0 x0 x1 x2 x3 x4 x5 xo7 xo8).2.2.1)

/-! ## What the outputs hold after each point -/

/-- The accumulation. What the outputs' staging buffers hold after the body at position `n` (a tuple, in window order):
    the case the closed form selects at `n`, run at the point's memrefs and input blocks, the two accumulators at what
    this leaves at `n - 1` when they are carried (their buffers are not written back between). -/
def outsAt4 (c : Dev nD) : (n : ℕ) → n < cfg4.N → Vec F S5000x128 .f32 × Vec F S1x128 .f32 × Vec F S1x128 .f32
  | 0, hn =>
      (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
       out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
       out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 20 = 0 then
      (out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩),
       out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩),
       out4_A_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
    else
      (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2,
       out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2,
       out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2)

/-- `outsAt4` at a point that resets the accumulators: that case's contents. -/
theorem outsAt4_A (c : Dev nD) (t : Fin cfg4.N) (h0 : t.val % 20 = 0) :
    outsAt4 V c t.val t.isLt =
      (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t),
       out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t),
       out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (dif_pos h0).trans rfl

/-- `outsAt4` at a point that carries them: that case's contents, over what the point before left. -/
theorem outsAt4_B (c : Dev nD) (t : Fin cfg4.N) (h0 : ¬t.val % 20 = 0) :
    outsAt4 V c t.val t.isLt =
      (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2,
       out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2,
       out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt4`; the scoped rest and the generator register untouched;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- At a point that carries the accumulators, output 7's current staging buffer holds what the body left at the point
    before: the point is not the first, the buffer was not written back between, the window is live and uncut. -/
theorem before4_7_B (c : Dev nD) (t : Fin cfg4.N) (h0 : ¬t.val % 20 = 0) (d) :
    (dat4 V c).before 7 t d = (outsAt4 V c (t.val - 1) (Nat.lt_of_le_of_lt (Nat.sub_le _ _) t.isLt)).2.1 := by
  have hN : t.val < 20 := lt_of_lt_of_eq t.isLt (show cfg4.N = 20 from N_4)
  rw [Dat.before_out_kept _ 7 rfl t (by omega) (Bool.eq_false_iff.mpr fun h => by have := (flush4_7 _).mp h; dsimp only at this; omega)
    (fun _ => rfl) (fun _ _ => rfl)]
  dsimp only [dat4]

/-- At a point that carries the accumulators, output 8's current staging buffer holds what the body left at the point
    before: the point is not the first, the buffer was not written back between, the window is live and uncut. -/
theorem before4_8_B (c : Dev nD) (t : Fin cfg4.N) (h0 : ¬t.val % 20 = 0) (d) :
    (dat4 V c).before 8 t d = (outsAt4 V c (t.val - 1) (Nat.lt_of_le_of_lt (Nat.sub_le _ _) t.isLt)).2.2 := by
  have hN : t.val < 20 := lt_of_lt_of_eq t.isLt (show cfg4.N = 20 from N_4)
  rw [Dat.before_out_kept _ 8 rfl t (by omega) (Bool.eq_false_iff.mpr fun h => by have := (flush4_8 _).mp h; dsimp only at this; omega)
    (fun _ => rfl) (fun _ _ => rfl)]
  dsimp only [dat4]

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t))

set_option maxHeartbeats 4000000 in
/-- The body at any point: the inputs' memrefs hold their blocks; the closed form says which case the point is in; at a
    point that carries the accumulators their buffers hold what the point before left; so the case's run applies; the
    invariant and the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  have hN : t.val < 20 := lt_of_lt_of_eq t.isLt (show cfg4.N = 20 from N_4)
  by_cases h0 : t.val % 20 = 0
  · rw [outsAt4_A V c t h0]
    unfold out4_A_6 out4_A_7 out4_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_A c (grid4.coords t) _ _ _ _ _ _ _ _ _ _ _ _ _ _ _ _ _ _ ((hcond4_0 t).mpr h0) (iblk4 V c 0 t) (iblk4 V c 1 t) (iblk4 V c 2 t) (iblk4 V c 3 t) (iblk4 V c 4 t) (iblk4 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover4_A_7 c _ _ _ _ _ _ _ _ _ _ _ _ _ _ _ _ _ _ _ _ _ _ _ _ _ _)
    unfold owns; iexists _; isplitr
    swap; · iexact H8
    ipureintro; exact View.read_writes_of_cover _ _ _ _ _ (cover4_A_8 c _ _ _ _ _ _ _ _ _ _ _ _ _ _ _ _ _ _ _ _ _ _ _ _ _ _)
  · rw [outsAt4_B V c t h0]
    simp only [before4_7_B V c t h0, before4_8_B V c t h0]
    unfold out4_B_6 out4_B_7 out4_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_B c (grid4.coords t) _ _ _ _ _ _ _ _ _ _ _ _ _ _ _ _ _ _ (fun h => h0 ((hcond4_0 t).mp h)) (iblk4 V c 0 t) (iblk4 V c 1 t) (iblk4 V c 2 t) (iblk4 V c 3 t) (iblk4 V c 4 t) (iblk4 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover4_B_7 c _ _ _ _ _ _ _ _ _ _ _ _ _ _ _ _ _ _ _ _ _ _ _ _ _ _ _ _)
    unfold owns; iexists _; isplitr
    swap; · iexact H8
    ipureintro; exact View.read_writes_of_cover _ _ _ _ _ (cover4_B_8 c _ _ _ _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KRegionNorm5.lean ====
/-
  The normalising region of layer 2 (out = (h − mean) · rsqrt(var + ε) · γ + β, entry by entry), twenty grid points
  of 5000 rows each over six windows: the rows' block of h, the four one-row statistics and parameters (mean, var,
  γ, β: one whole block each, the same at every point) and the output's rows. Stated at the buffer contents the
  region is entered from: each window's block at a point, what the body leaves in the output's staging buffer (its
  one store, of the whole block), the body's triple, the proof data (arrays as entered; inputs left in place; the
  output at the store's value; nothing owed) and the body obligation.
-/
import proofs.«117300_j5643587027248_1_alg».proof.Proof.Gen.Kernel.Launch
import proofs.«117300_j5643587027248_1_alg».proof.Proof.Gen.Kernel.Skeleton
import proofs.«117300_j5643587027248_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data
    whose array is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data
    whose array is the entry contents and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data
    whose array is the entry contents and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof data
    whose array is the entry contents and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof data
    whose array is the entry contents and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## What the body leaves in the output window's buffer: its one store, of the whole block -/

def out5_5 (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k5_pay1 (View.ld x2 (Rect.unit (s := S1x128) ![0, 0] S1x128.size inb_S1x128_S1x128_0_0)) (View.ld x0 (Rect.unit (s := S5000x128) ![0, 0] S5000x128.size inb_S5000x128_S5000x128_0_0)) (View.ld x1 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

/-- The store takes the whole buffer, so it covers it. -/
theorem cover5_5 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

/-! ## The body's triple -/

set_option maxHeartbeats 1000000 in
/-- The body on whole staging memrefs, the inputs' at given contents and the output's at anything, runs to the
    continuation holding the inputs' as they were and the output's at `out5_5` of the inputs'. -/
theorem sound_kernel5 (c : Dev nD) (E : Set ℕ) (i : grid5.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out5_5 x0 x1 x2 x3 x4)) -∗ K ⟨⟩))
      ⊢ wp frame (wpE (defs₀ (F := F)) Variants.none c none) E (cc5__norm_kernel i arg0 harg0 arg1 harg1 arg2 harg2 arg3 harg3 arg4 harg4 arg5 harg5) K := by
  simp only [cc5__norm_kernel_eq_skeleton]; unfold cc5__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of this pipeline on core `c`: the arrays as the region finds them; after the body at point `t` each
    input's buffer at its block and the output's at `out5_5` of the input blocks; the scoped rest and the generator
    register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the triple applies; the invariant and the core's
    dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KRegionMlp6.lean ====
/-
  The layer-3 perceptron region (z = x + agg; h = relu(relu(z·w1 + b1)·w2 + b2), stored whole per point; and two
  one-row outputs, the column sums of h and of h·h, reset at the first grid point and accumulated over the twenty
  points of 5000 rows each), over nine windows: the rows' blocks of x and agg, the four parameter blocks (one whole
  block each, the same at every point), the output rows' block, and the two one-row accumulators. Stated at the buffer
  contents the region is entered from: each window's block at a point; the body's triple at a point that resets the
  accumulators and at one that carries them, the pieces each output's buffer ends with being the witness the run finds;
  what the outputs hold point by point; the proof data (arrays as entered; inputs left in place; the outputs at the
  point-by-point contents; nothing owed) and the body obligation.
-/
import proofs.«117300_j5643587027248_1_alg».proof.Proof.Gen.Kernel.Launch
import proofs.«117300_j5643587027248_1_alg».proof.Proof.Gen.Kernel.Skeleton
import proofs.«117300_j5643587027248_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof data
    whose array is the entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof data
    whose array is the entry contents and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof data
    whose array is the entry contents and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof data
    whose array is the entry contents and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof data
    whose array is the entry contents and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof data
    whose array is the entry contents and whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's branch condition -/

/-- The condition of the body's conditional (is this the first row block?), from the grid coordinates. -/
abbrev cond6_0 (i : grid6.Coords) : Prop := (Scalar.cmpi .ne (Scalar.extui (Scalar.cmpi .eq (BitVec.ofNat 32 (i 0).val) 0#32)) 0#32) = 1#1
/-- It holds at the first point only — decided over the grid. -/
theorem hcond6_0 : ∀ t : Fin cfg6.N, cond6_0 (grid6.coords t) ↔ t.val % 20 = 0 :=
  (by decide +kernel : ∀ t : Fin grid6.N, cond6_0 (grid6.coords t) ↔ t.val % 20 = 0)

/-! ## The staging memrefs -/

/-- One staging buffer of each output window, through which its contents are stated (the choice does not matter). -/
abbrev VO6_6 : View sig .tc .vmem S5000x128 .f32 := (Memref.whole cc6_stg6_0 : Memref sig .tc .vmem S5000x128 .f32).view
abbrev VO6_7 : View sig .tc .vmem S1x128 .f32 := (Memref.whole cc6_stg7_0 : Memref sig .tc .vmem S1x128 .f32).view
abbrev VO6_8 : View sig .tc .vmem S1x128 .f32 := (Memref.whole cc6_stg8_0 : Memref sig .tc .vmem S1x128 .f32).view
/-- Each window's current staging memref at point `t`, spelled as the pipeline passes it, and its wholeness. -/
abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S128x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S5000x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x128 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S1x128 .f32 := win6_8.stage (cfg6.slots t 8)
abbrev hs6_8 (t : Fin cfg6.N) : (ms6_8 t).IsWhole := hstage6_8 ((cfg6.slots t 8).cast nbuf6_8)

/-! ## The body's triple, case by case -/

set_option maxHeartbeats 4000000 in
/-- What the body's stores leave in each output's staging memref, as pieces (last first), at a point where the
    accumulators are reset (the conditional taken), with the proof that on whole staging memrefs — the inputs' at given
    contents, the outputs' at anything — the body runs to the continuation holding the inputs' as they were and each
    output's buffer with its pieces written. The pieces are the witness the run finds. -/
noncomputable def kernelRun6_A (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)) (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc6__mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc6__mlp_kernel_eq_skeleton]; unfold cc6__mlp_kernel_skel
    simp only [k6_part1_eq_skeleton]; unfold k6_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- The same at a point where the accumulators are carried (the conditional not taken): the two accumulator outputs'
    buffers at the running contents `xo7`, `xo8` the point before left. -/
noncomputable def kernelRun6_B (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    Σ' (L6 : List (View.Piece (Elt F) S5000x128 .f32)) (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc6__mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc6__mlp_kernel_eq_skeleton]; unfold cc6__mlp_kernel_skel
    simp only [k6_part1_eq_skeleton]; unfold k6_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

/-! ## What each case leaves in the outputs' buffers -/

/-- Case A's pieces for output 6 tile its block (checked by evaluating them), so they cover it. -/
theorem cover6_A_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun6_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun6_A c i arg1 harg1 arg2 harg2 arg3 harg3 arg4 harg4 arg5 harg5 arg6 harg6 arg7 harg7 arg8 harg8 arg9 harg9 hc0 x0 x1 x2 x3 x4 x5).1 S5000x128.size (by sl_kernel_rfl) y

/-- What case A leaves in output 6's staging buffer: its pieces read back over junk. -/
def out6_A_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO6_6.read (Elt F) (VO6_6.writes (Elt F) VO6_6.junk (kernelRun6_A c i arg1 harg1 arg2 harg2 arg3 harg3 arg4 harg4 arg5 harg5 arg6 harg6 arg7 harg7 arg8 harg8 arg9 harg9 hc0 x0 x1 x2 x3 x4 x5).1)

/-- Case A's pieces for output 7 tile its block (checked by evaluating them), so they cover it. -/
theorem cover6_A_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun6_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun6_A c i arg1 harg1 arg2 harg2 arg3 harg3 arg4 harg4 arg5 harg5 arg6 harg6 arg7 harg7 arg8 harg8 arg9 harg9 hc0 x0 x1 x2 x3 x4 x5).2.1 S1x128.size (by sl_kernel_rfl) y

/-- What case A leaves in output 7's staging buffer: its pieces read back over junk. -/
def out6_A_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO6_7.read (Elt F) (VO6_7.writes (Elt F) VO6_7.junk (kernelRun6_A c i arg1 harg1 arg2 harg2 arg3 harg3 arg4 harg4 arg5 harg5 arg6 harg6 arg7 harg7 arg8 harg8 arg9 harg9 hc0 x0 x1 x2 x3 x4 x5).2.1)

/-- Case A's pieces for output 8 tile its block (checked by evaluating them), so they cover it. -/
theorem cover6_A_8 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun6_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun6_A c i arg1 harg1 arg2 harg2 arg3 harg3 arg4 harg4 arg5 harg5 arg6 harg6 arg7 harg7 arg8 harg8 arg9 harg9 hc0 x0 x1 x2 x3 x4 x5).2.2.1 S1x128.size (by sl_kernel_rfl) y

/-- What case A leaves in output 8's staging buffer: its pieces read back over junk. -/
def out6_A_8 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO6_8.read (Elt F) (VO6_8.writes (Elt F) VO6_8.junk (kernelRun6_A c i arg1 harg1 arg2 harg2 arg3 harg3 arg4 harg4 arg5 harg5 arg6 harg6 arg7 harg7 arg8 harg8 arg9 harg9 hc0 x0 x1 x2 x3 x4 x5).2.2.1)

/-- Case B's pieces for output 6 tile its block (checked by evaluating them), so they cover it. -/
theorem cover6_B_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S5000x128.Idx) :
    ∃ pc ∈ (kernelRun6_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun6_B c i arg1 harg1 arg2 harg2 arg3 harg3 arg4 harg4 arg5 harg5 arg6 harg6 arg7 harg7 arg8 harg8 arg9 harg9 hc0 x0 x1 x2 x3 x4 x5 xo7 xo8).1 S5000x128.size (by sl_kernel_rfl) y

/-- What case B leaves in output 6's staging buffer: its pieces read back over junk. -/
def out6_B_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S5000x128 .f32 :=
  VO6_6.read (Elt F) (VO6_6.writes (Elt F) VO6_6.junk (kernelRun6_B c i arg1 harg1 arg2 harg2 arg3 harg3 arg4 harg4 arg5 harg5 arg6 harg6 arg7 harg7 arg8 harg8 arg9 harg9 hc0 x0 x1 x2 x3 x4 x5 xo7 xo8).1)

/-- Case B's pieces for output 7 tile its block (checked by evaluating them), so they cover it. -/
theorem cover6_B_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S1x128.Idx) :
    ∃ pc ∈ (kernelRun6_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun6_B c i arg1 harg1 arg2 harg2 arg3 harg3 arg4 harg4 arg5 harg5 arg6 harg6 arg7 harg7 arg8 harg8 arg9 harg9 hc0 x0 x1 x2 x3 x4 x5 xo7 xo8).2.1 S1x128.size (by sl_kernel_rfl) y

/-- What case B leaves in output 7's staging buffer: its pieces read back over junk. -/
def out6_B_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S1x128 .f32 :=
  VO6_7.read (Elt F) (VO6_7.writes (Elt F) VO6_7.junk (kernelRun6_B c i arg1 harg1 arg2 harg2 arg3 harg3 arg4 harg4 arg5 harg5 arg6 harg6 arg7 harg7 arg8 harg8 arg9 harg9 hc0 x0 x1 x2 x3 x4 x5 xo7 xo8).2.1)

/-- Case B's pieces for output 8 tile its block (checked by evaluating them), so they cover it. -/
theorem cover6_B_8 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S1x128.Idx) :
    ∃ pc ∈ (kernelRun6_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun6_B c i arg1 harg1 arg2 harg2 arg3 harg3 arg4 harg4 arg5 harg5 arg6 harg6 arg7 harg7 arg8 harg8 arg9 harg9 hc0 x0 x1 x2 x3 x4 x5 xo7 xo8).2.2.1 S1x128.size (by sl_kernel_rfl) y

/-- What case B leaves in output 8's staging buffer: its pieces read back over junk. -/
def out6_B_8 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S1x128 .f32 :=
  VO6_8.read (Elt F) (VO6_8.writes (Elt F) VO6_8.junk (kernelRun6_B c i arg1 harg1 arg2 harg2 arg3 harg3 arg4 harg4 arg5 harg5 arg6 harg6 arg7 harg7 arg8 harg8 arg9 harg9 hc0 x0 x1 x2 x3 x4 x5 xo7 xo8).2.2.1)

/-! ## What the outputs hold after each point -/

/-- The accumulation. What the outputs' staging buffers hold after the body at position `n` (a tuple, in window order):
    the case the closed form selects at `n`, run at the point's memrefs and input blocks, the two accumulators at what
    this leaves at `n - 1` when they are carried (their buffers are not written back between). -/
def outsAt6 (c : Dev nD) : (n : ℕ) → n < cfg6.N → Vec F S5000x128 .f32 × Vec F S1x128 .f32 × Vec F S1x128 .f32
  | 0, hn =>
      (out6_A_6 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) ((hcond6_0 ⟨0, hn⟩).mpr (Nat.zero_mod _)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
       out6_A_7 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) ((hcond6_0 ⟨0, hn⟩).mpr (Nat.zero_mod _)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
       out6_A_8 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) ((hcond6_0 ⟨0, hn⟩).mpr (Nat.zero_mod _)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩))
  | n + 1, hn =>
    if h0 : (n + 1) % 20 = 0 then
      (out6_A_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) ((hcond6_0 ⟨n + 1, hn⟩).mpr h0) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩),
       out6_A_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) ((hcond6_0 ⟨n + 1, hn⟩).mpr h0) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩),
       out6_A_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) ((hcond6_0 ⟨n + 1, hn⟩).mpr h0) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩))
    else
      (out6_B_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (fun h => h0 ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.1 (outsAt6 c n (Nat.lt_of_succ_lt hn)).2.2,
       out6_B_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (fun h => h0 ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.1 (outsAt6 c n (Nat.lt_of_succ_lt hn)).2.2,
       out6_B_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (fun h => h0 ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.1 (outsAt6 c n (Nat.lt_of_succ_lt hn)).2.2)

/-- `outsAt6` at a point that resets the accumulators: that case's contents. -/
theorem outsAt6_A (c : Dev nD) (t : Fin cfg6.N) (h0 : t.val % 20 = 0) :
    outsAt6 V c t.val t.isLt =
      (out6_A_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h0) (iblk6 V c 0 t) (iblk6 V c 1 t) (iblk6 V c 2 t) (iblk6 V c 3 t) (iblk6 V c 4 t) (iblk6 V c 5 t),
       out6_A_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h0) (iblk6 V c 0 t) (iblk6 V c 1 t) (iblk6 V c 2 t) (iblk6 V c 3 t) (iblk6 V c 4 t) (iblk6 V c 5 t),
       out6_A_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h0) (iblk6 V c 0 t) (iblk6 V c 1 t) (iblk6 V c 2 t) (iblk6 V c 3 t) (iblk6 V c 4 t) (iblk6 V c 5 t)) := by
  obtain ⟨n, hn⟩ := t
  cases n with
  | zero => exact rfl
  | succ n => exact (dif_pos h0).trans rfl

/-- `outsAt6` at a point that carries them: that case's contents, over what the point before left. -/
theorem outsAt6_B (c : Dev nD) (t : Fin cfg6.N) (h0 : ¬t.val % 20 = 0) :
    outsAt6 V c t.val t.isLt =
      (out6_B_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h => h0 ((hcond6_0 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.1 (outsAt6 V c (t.val - 1) (Nat.lt_of_le_of_lt (Nat.sub_le _ _) t.isLt)).2.2,
       out6_B_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h => h0 ((hcond6_0 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.1 (outsAt6 V c (t.val - 1) (Nat.lt_of_le_of_lt (Nat.sub_le _ _) t.isLt)).2.2,
       out6_B_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h => h0 ((hcond6_0 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt6`; the scoped rest and the generator register untouched;
    nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => (outsAt6 V c t.val t.isLt).1
    | ⟨7, _⟩ => (outsAt6 V c t.val t.isLt).2.1
    | ⟨8, _⟩ => (outsAt6 V c t.val t.isLt).2.2
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = (outsAt6 V c t.val t.isLt).1 := by dsimp only [dat6]
theorem after6_7 (c : Dev nD) (t : Fin cfg6.N) : (dat6 V c).after 7 t = (outsAt6 V c t.val t.isLt).2.1 := by dsimp only [dat6]
theorem after6_8 (c : Dev nD) (t : Fin cfg6.N) : (dat6 V c).after 8 t = (outsAt6 V c t.val t.isLt).2.2 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-- At a point that carries the accumulators, output 7's current staging buffer holds what the body left at the point
    before: the point is not the first, the buffer was not written back between, the window is live and uncut. -/
theorem before6_7_B (c : Dev nD) (t : Fin cfg6.N) (h0 : ¬t.val % 20 = 0) (d) :
    (dat6 V c).before 7 t d = (outsAt6 V c (t.val - 1) (Nat.lt_of_le_of_lt (Nat.sub_le _ _) t.isLt)).2.1 := by
  have hN : t.val < 20 := lt_of_lt_of_eq t.isLt (show cfg6.N = 20 from N_6)
  rw [Dat.before_out_kept _ 7 rfl t (by omega) (Bool.eq_false_iff.mpr fun h => by have := (flush6_7 _).mp h; dsimp only at this; omega)
    (fun _ => rfl) (fun _ _ => rfl)]
  dsimp only [dat6]

/-- At a point that carries the accumulators, output 8's current staging buffer holds what the body left at the point
    before: the point is not the first, the buffer was not written back between, the window is live and uncut. -/
theorem before6_8_B (c : Dev nD) (t : Fin cfg6.N) (h0 : ¬t.val % 20 = 0) (d) :
    (dat6 V c).before 8 t d = (outsAt6 V c (t.val - 1) (Nat.lt_of_le_of_lt (Nat.sub_le _ _) t.isLt)).2.2 := by
  have hN : t.val < 20 := lt_of_lt_of_eq t.isLt (show cfg6.N = 20 from N_6)
  rw [Dat.before_out_kept _ 8 rfl t (by omega) (Bool.eq_false_iff.mpr fun h => by have := (flush6_8 _).mp h; dsimp only at this; omega)
    (fun _ => rfl) (fun _ _ => rfl)]
  dsimp only [dat6]

/-! ## The body obligation, at a generic point -/

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t)
    ∗ owns (c : Thread nD τ) (ms6_6 t) fullShare ((dat6 V c).after 6 t)
    ∗ owns (c : Thread nD τ) (ms6_7 t) fullShare ((dat6 V c).after 7 t)
    ∗ owns (c : Thread nD τ) (ms6_8 t) fullShare ((dat6 V c).after 8 t))

set_option maxHeartbeats 4000000 in
/-- The body at any point: the inputs' memrefs hold their blocks; the closed form says which case the point is in; at a
    point that carries the accumulators their buffers hold what the point before left; so the case's run applies; the
    invariant and the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8]
  have hN : t.val < 20 := lt_of_lt_of_eq t.isLt (show cfg6.N = 20 from N_6)
  by_cases h0 : t.val % 20 = 0
  · rw [outsAt6_A V c t h0]
    unfold out6_A_6 out6_A_7 out6_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun6_A c (grid6.coords t) _ _ _ _ _ _ _ _ _ _ _ _ _ _ _ _ _ _ ((hcond6_0 t).mpr h0) (iblk6 V c 0 t) (iblk6 V c 1 t) (iblk6 V c 2 t) (iblk6 V c 3 t) (iblk6 V c 4 t) (iblk6 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover6_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover6_A_7 c _ _ _ _ _ _ _ _ _ _ _ _ _ _ _ _ _ _ _ _ _ _ _ _ _ _)
    unfold owns; iexists _; isplitr
    swap; · iexact H8
    ipureintro; exact View.read_writes_of_cover _ _ _ _ _ (cover6_A_8 c _ _ _ _ _ _ _ _ _ _ _ _ _ _ _ _ _ _ _ _ _ _ _ _ _ _)
  · rw [outsAt6_B V c t h0]
    simp only [before6_7_B V c t h0, before6_8_B V c t h0]
    unfold out6_B_6 out6_B_7 out6_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun6_B c (grid6.coords t) _ _ _ _ _ _ _ _ _ _ _ _ _ _ _ _ _ _ (fun h => h0 ((hcond6_0 t).mp h)) (iblk6 V c 0 t) (iblk6 V c 1 t) (iblk6 V c 2 t) (iblk6 V c 3 t) (iblk6 V c 4 t) (iblk6 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover6_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover6_B_7 c _ _ _ _ _ _ _ _ _ _ _ _ _ _ _ _ _ _ _ _ _ _ _ _ _ _ _ _)
    unfold owns; iexists _; isplitr
    swap; · iexact H8
    ipureintro; exact View.read_writes_of_cover _ _ _ _ _ (cover6_B_8 c _ _ _ _ _ _ _ _ _ _ _ _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KRegionNorm7.lean ====
/-
  The normalising region of layer 3 (out = (h − mean) · rsqrt(var + ε) · γ + β, entry by entry), twenty grid points
  of 5000 rows each over six windows: the rows' block of h, the four one-row statistics and parameters (mean, var,
  γ, β: one whole block each, the same at every point) and the output's rows. Stated at the buffer contents the
  region is entered from: each window's block at a point, what the body leaves in the output's staging buffer (its
  one store, of the whole block), the body's triple, the proof data (arrays as entered; inputs left in place; the
  output at the store's value; nothing owed) and the body obligation.
-/
import proofs.«117300_j5643587027248_1_alg».proof.Proof.Gen.Kernel.Launch
import proofs.«117300_j5643587027248_1_alg».proof.Proof.Gen.Kernel.Skeleton
import proofs.«117300_j5643587027248_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof data
    whose array is the entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof data
    whose array is the entry contents and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof data
    whose array is the entry contents and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof data
    whose array is the entry contents and whose body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof data
    whose array is the entry contents and whose body leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## What the body leaves in the output window's buffer: its one store, of the whole block -/

def out7_5 (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k7_pay1 (View.ld x2 (Rect.unit (s := S1x128) ![0, 0] S1x128.size inb_S1x128_S1x128_0_0)) (View.ld x0 (Rect.unit (s := S5000x128) ![0, 0] S5000x128.size inb_S5000x128_S5000x128_0_0)) (View.ld x1 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

/-- The store takes the whole buffer, so it covers it. -/
theorem cover7_5 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

/-! ## The body's triple -/

set_option maxHeartbeats 1000000 in
/-- The body on whole staging memrefs, the inputs' at given contents and the output's at anything, runs to the
    continuation holding the inputs' as they were and the output's at `out7_5` of the inputs'. -/
theorem sound_kernel7 (c : Dev nD) (E : Set ℕ) (i : grid7.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out7_5 x0 x1 x2 x3 x4)) -∗ K ⟨⟩))
      ⊢ wp frame (wpE (defs₀ (F := F)) Variants.none c none) E (cc7__norm_kernel i arg0 harg0 arg1 harg1 arg2 harg2 arg3 harg3 arg4 harg4 arg5 harg5) K := by
  simp only [cc7__norm_kernel_eq_skeleton]; unfold cc7__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of this pipeline on core `c`: the arrays as the region finds them; after the body at point `t` each
    input's buffer at its block and the output's at `out7_5` of the input blocks; the scoped rest and the generator
    register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation -/

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so the triple applies; the invariant and the core's
    dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.KRegionCls.lean ====
/-
  The classifier region (the ninth pallas_call: pooled features times the first weight matrix plus bias, rectified,
  times the second weight matrix plus bias), one grid point over six whole-array windows: five inputs and the
  result. Stated at the buffer contents the region is entered from: each window's block at the point, what the
  body leaves in the result's staging buffer (its one store, of the whole block), the body's triple, the proof data
  (arrays as entered; inputs left in place; the result at the store's value; nothing owed) and the body obligation.
-/
import proofs.«117300_j5643587027248_1_alg».proof.Proof.Gen.Kernel.Launch
import proofs.«117300_j5643587027248_1_alg».proof.Proof.Gen.Kernel.Skeleton
import proofs.«117300_j5643587027248_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof data
    whose array is the entry contents and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof data
    whose array is the entry contents and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof data
    whose array is the entry contents and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof data
    whose array is the entry contents and whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof data
    whose array is the entry contents and whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and the store take the whole block -/

abbrev r8_p : Rect S128x512 := Rect.unit (s := S128x512) ![0, 0] S128x512.size inb_S128x512_S128x512_0_0
abbrev r8_w1 : Rect S512x128 := Rect.unit (s := S512x128) ![0, 0] S512x128.size inb_S512x128_S512x128_0_0
abbrev r8_b1 : Rect S1x128 := Rect.unit (s := S1x128) ![0, 0] S1x128.size inb_S1x128_S1x128_0_0
abbrev r8_w2 : Rect S128x10 := Rect.unit (s := S128x10) ![0, 0] S128x10.size inb_S128x10_S128x10_0_0
abbrev r8_b2 : Rect S1x10 := Rect.unit (s := S1x10) ![0, 0] S1x10.size inb_S1x10_S1x10_0_0

/-- The result's staging buffer after the body, from the input windows' blocks: its one store as a piece. -/
def out8_5 (x0 : Vec F S128x512 .f32) (x1 : Vec F S512x128 .f32) (x2 : Vec F S1x128 .f32) (x3 : Vec F S128x10 .f32) (x4 : Vec F S1x10 .f32) :
    Vec F S128x10 .f32 :=
  View.canon [⟨r8_w2, k8_pay1 (View.ld x0 r8_p) (View.ld x1 r8_w1) (View.ld x2 r8_b1) (View.ld x3 r8_w2) (View.ld x4 r8_b2)⟩]

/-- The store takes the whole buffer, so it covers it. -/
theorem cover8_5 (p0 : Vec F S128x10 .f32) (y : S128x10.Idx) :
    ∃ pc ∈ ([⟨r8_w2, p0⟩] : List (View.Piece (Elt F) S128x10 .f32)), y ∈ pc.1.set :=
  View.cover_of_tiled [⟨r8_w2, p0⟩] S128x10.size (by rfl) y

/-! ## The body's triple -/

set_option maxHeartbeats 1000000 in
/-- The body on whole staging memrefs, the inputs' at contents `x0 … x4` and the result's at anything, runs to the
    continuation holding the inputs' as they were and the result's at `out8_5` of the inputs'. -/
theorem sound_kernel8 (c : Dev nD) (E : Set ℕ) (i : grid8.Coords)
    (arg0 : Memref sig .tc .vmem S128x512 .f32) (harg0 : arg0.IsWhole) (arg1 : Memref sig .tc .vmem S512x128 .f32) (harg1 : arg1.IsWhole)
    (arg2 : Memref sig .tc .vmem S1x128 .f32) (harg2 : arg2.IsWhole) (arg3 : Memref sig .tc .vmem S128x10 .f32) (harg3 : arg3.IsWhole)
    (arg4 : Memref sig .tc .vmem S1x10 .f32) (harg4 : arg4.IsWhole) (arg5 : Memref sig .tc .vmem S128x10 .f32) (harg5 : arg5.IsWhole)
    (x0 : Vec F S128x512 .f32) (x1 : Vec F S512x128 .f32) (x2 : Vec F S1x128 .f32) (x3 : Vec F S128x10 .f32) (x4 : Vec F S1x10 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out8_5 x0 x1 x2 x3 x4)) -∗ K ⟨⟩))
      ⊢ wp frame (wpE (defs₀ (F := F)) Variants.none c none) E (cc8__cls_kernel i arg0 harg0 arg1 harg1 arg2 harg2 arg3 harg3 arg4 harg4 arg5 harg5) K := by
  simp only [cc8__cls_kernel_eq_skeleton]; unfold cc8__cls_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of the classifier's pipeline on core `c`: the arrays as the region finds them; after the body each
    input's buffer at its block and the result's at `out8_5` of the input blocks; the scoped rest and the generator
    register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation -/

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, so the triple applies; the invariant and the core's
    dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KFrameDefs.lean ====
/-
  The program's nine regions side by side: the contents each region is entered from (every unscoped buffer after the
  host stretch before it), every pipeline's proof data at its region's entry contents, and what it means for named
  contents of the regions' outputs to be what the regions' pipelines leave.
-/
import proofs.«117300_j5643587027248_1_alg».proof.Proof.Gen.Kernel.Regions
import proofs.«117300_j5643587027248_1_alg».proof.Proof.KRunCond
import proofs.«117300_j5643587027248_1_alg».proof.Proof.KRegionMlp0
import proofs.«117300_j5643587027248_1_alg».proof.Proof.KRegionNorm1
import proofs.«117300_j5643587027248_1_alg».proof.Proof.KRegionMlp2
import proofs.«117300_j5643587027248_1_alg».proof.Proof.KRegionNorm3
import proofs.«117300_j5643587027248_1_alg».proof.Proof.KRegionMlp4
import proofs.«117300_j5643587027248_1_alg».proof.Proof.KRegionNorm5
import proofs.«117300_j5643587027248_1_alg».proof.Proof.KRegionMlp6
import proofs.«117300_j5643587027248_1_alg».proof.Proof.KRegionNorm7
import proofs.«117300_j5643587027248_1_alg».proof.Proof.KRegionCls
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## The contents each region is entered from, read at the TensorCore's references -/

abbrev In0 : (c : Dev nD) → (b : Ref sig .tc) → Buf (Elt F) ((c : Thread nD τ).loc b) := fun c b => Gen.V1 m c b
abbrev In1 : (c : Dev nD) → (b : Ref sig .tc) → Buf (Elt F) ((c : Thread nD τ).loc b) := fun c b => Gen.V3 m outs c b
abbrev In2 : (c : Dev nD) → (b : Ref sig .tc) → Buf (Elt F) ((c : Thread nD τ).loc b) := fun c b => Gen.V5 m outs c b
abbrev In3 : (c : Dev nD) → (b : Ref sig .tc) → Buf (Elt F) ((c : Thread nD τ).loc b) := fun c b => Gen.V7 m outs c b
abbrev In4 : (c : Dev nD) → (b : Ref sig .tc) → Buf (Elt F) ((c : Thread nD τ).loc b) := fun c b => Gen.V9 m outs c b
abbrev In5 : (c : Dev nD) → (b : Ref sig .tc) → Buf (Elt F) ((c : Thread nD τ).loc b) := fun c b => Gen.V11 m outs c b
abbrev In6 : (c : Dev nD) → (b : Ref sig .tc) → Buf (Elt F) ((c : Thread nD τ).loc b) := fun c b => Gen.V13 m outs c b
abbrev In7 : (c : Dev nD) → (b : Ref sig .tc) → Buf (Elt F) ((c : Thread nD τ).loc b) := fun c b => Gen.V15 m outs c b
abbrev In8 : (c : Dev nD) → (b : Ref sig .tc) → Buf (Elt F) ((c : Thread nD τ).loc b) := fun c b => Gen.V17 m outs c b

/-- Every pipeline's proof data, each at its region's entry contents. -/
def pdats : (p : Fin 9) → (c : Dev nD) → Dat τ (Elt F) Unit ℕ (UR sig nD τ) ℕ (cfgs p) c
  | ⟨0, _⟩ => fun c => dat0 (In0 m) c
  | ⟨1, _⟩ => fun c => dat1 (In1 m outs) c
  | ⟨2, _⟩ => fun c => dat2 (In2 m outs) c
  | ⟨3, _⟩ => fun c => dat3 (In3 m outs) c
  | ⟨4, _⟩ => fun c => dat4 (In4 m outs) c
  | ⟨5, _⟩ => fun c => dat5 (In5 m outs) c
  | ⟨6, _⟩ => fun c => dat6 (In6 m outs) c
  | ⟨7, _⟩ => fun c => dat7 (In7 m outs) c
  | ⟨8, _⟩ => fun c => dat8 (In8 m outs) c

/-- The named contents of the regions' outputs are what the regions' pipelines leave in them. -/
structure OutsOK : Prop where
  /-- what region 0 leaves in `main_v16_0` -/
  o0_6 : ∀ c, outs 2 main_v16_0 c = (dat0 (In0 m) c).arrAt 6 cfg0.N
  /-- what region 0 leaves in `main_v16_1` -/
  o0_7 : ∀ c, outs 2 main_v16_1 c = (dat0 (In0 m) c).arrAt 7 cfg0.N
  /-- what region 0 leaves in `main_v16_2` -/
  o0_8 : ∀ c, outs 2 main_v16_2 c = (dat0 (In0 m) c).arrAt 8 cfg0.N
  /-- what region 1 leaves in `main_v29` -/
  o1_5 : ∀ c, outs 4 main_v29 c = (dat1 (In1 m outs) c).arrAt 5 cfg1.N
  /-- what region 2 leaves in `main_v54_0` -/
  o2_6 : ∀ c, outs 6 main_v54_0 c = (dat2 (In2 m outs) c).arrAt 6 cfg2.N
  /-- what region 2 leaves in `main_v54_1` -/
  o2_7 : ∀ c, outs 6 main_v54_1 c = (dat2 (In2 m outs) c).arrAt 7 cfg2.N
  /-- what region 2 leaves in `main_v54_2` -/
  o2_8 : ∀ c, outs 6 main_v54_2 c = (dat2 (In2 m outs) c).arrAt 8 cfg2.N
  /-- what region 3 leaves in `main_v67` -/
  o3_5 : ∀ c, outs 8 main_v67 c = (dat3 (In3 m outs) c).arrAt 5 cfg3.N
  /-- what region 4 leaves in `main_v92_0` -/
  o4_6 : ∀ c, outs 10 main_v92_0 c = (dat4 (In4 m outs) c).arrAt 6 cfg4.N
  /-- what region 4 leaves in `main_v92_1` -/
  o4_7 : ∀ c, outs 10 main_v92_1 c = (dat4 (In4 m outs) c).arrAt 7 cfg4.N
  /-- what region 4 leaves in `main_v92_2` -/
  o4_8 : ∀ c, outs 10 main_v92_2 c = (dat4 (In4 m outs) c).arrAt 8 cfg4.N
  /-- what region 5 leaves in `main_v105` -/
  o5_5 : ∀ c, outs 12 main_v105 c = (dat5 (In5 m outs) c).arrAt 5 cfg5.N
  /-- what region 6 leaves in `main_v130_0` -/
  o6_6 : ∀ c, outs 14 main_v130_0 c = (dat6 (In6 m outs) c).arrAt 6 cfg6.N
  /-- what region 6 leaves in `main_v130_1` -/
  o6_7 : ∀ c, outs 14 main_v130_1 c = (dat6 (In6 m outs) c).arrAt 7 cfg6.N
  /-- what region 6 leaves in `main_v130_2` -/
  o6_8 : ∀ c, outs 14 main_v130_2 c = (dat6 (In6 m outs) c).arrAt 8 cfg6.N
  /-- what region 7 leaves in `main_v143` -/
  o7_5 : ∀ c, outs 16 main_v143 c = (dat7 (In7 m outs) c).arrAt 5 cfg7.N
  /-- what region 8 leaves in `main_v159` -/
  o8_5 : ∀ c, outs 18 main_v159 c = (dat8 (In8 m outs) c).arrAt 5 cfg8.N

/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

end Cert.Kernel.Hand

end
-- ==== Proof.KFrameReg0.lean ====
/-
  Region 0 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.KFrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 0 -/

theorem V2_at_6 (c : Dev nD) : Gen.V2 m outs c main_v16_0 = outs 2 main_v16_0 c := by
  simp only [Gen.V2]; rw [Function.update_of_ne (StableHlo.devRef_ne_of_ne (by decide) : (Proc.devRef .tc main_v16_0 : DevRef τ sig) ≠ Proc.devRef .tc main_v16_2), Function.update_of_ne (StableHlo.devRef_ne_of_ne (by decide) : (Proc.devRef .tc main_v16_0 : DevRef τ sig) ≠ Proc.devRef .tc main_v16_1), Function.update_self]
theorem V2_at_7 (c : Dev nD) : Gen.V2 m outs c main_v16_1 = outs 2 main_v16_1 c := by
  simp only [Gen.V2]; rw [Function.update_of_ne (StableHlo.devRef_ne_of_ne (by decide) : (Proc.devRef .tc main_v16_1 : DevRef τ sig) ≠ Proc.devRef .tc main_v16_2), Function.update_self]
theorem V2_at_8 (c : Dev nD) : Gen.V2 m outs c main_v16_2 = outs 2 main_v16_2 c := by
  simp only [Gen.V2]; rw [Function.update_self]

set_option maxHeartbeats 4000000 in
/-- At region 0's exit each of its arrays holds what the pipeline leaves: an input as entered, an output at the
    contents named for it. -/
theorem hFgen0 {c : Dev nD} (V' : (b : Ref sig .tc) → Buf (Elt F) ((c : Thread nD τ).loc b))
    (dat : Dat τ (Elt F) Unit ℕ (UR sig nD τ) ℕ cfg0 c) (h0 : dat.arrAt 0 cfg0.N = V' main_arg0) (h1 : dat.arrAt 1 cfg0.N = V' main_v13) (h2 : dat.arrAt 2 cfg0.N = V' main_arg3) (h3 : dat.arrAt 3 cfg0.N = V' main_v14) (h4 : dat.arrAt 4 cfg0.N = V' main_arg5) (h5 : dat.arrAt 5 cfg0.N = V' main_v15) (h6 : dat.arrAt 6 cfg0.N = V' main_v16_0) (h7 : dat.arrAt 7 cfg0.N = V' main_v16_1) (h8 : dat.arrAt 8 cfg0.N = V' main_v16_2) :
    ∀ w : Fin 9, dat.arrAt w cfg0.N = V' (Pipeline.arrRef spec0 w)
  | 0 => h0
  | 1 => h1
  | 2 => h2
  | 3 => h3
  | 4 => h4
  | 5 => h5
  | 6 => h6
  | 7 => h7
  | 8 => h8
  | ⟨_ + 9, h⟩ => absurd h (by omega)

theorem hF0 (hO : OutsOK m outs) (c : Dev nD) : ∀ w : Fin 9, (pdats m outs 0 c).arrAt w cfg0.N = Gen.V2 m outs c (Pipeline.arrRef spec0 w) :=
  hFgen0 (fun b => Gen.V2 m outs c b) (pdats m outs 0 c)
    (((dat0 (In0 m) c).arrAt_in 0 rfl _).trans ((A_eq0 (In0 m) c 0).trans (Gen.V2_of m outs c main_arg0 (by decide)).symm))
    (((dat0 (In0 m) c).arrAt_in 1 rfl _).trans ((A_eq0 (In0 m) c 1).trans (Gen.V2_of m outs c main_v13 (by decide)).symm))
    (((dat0 (In0 m) c).arrAt_in 2 rfl _).trans ((A_eq0 (In0 m) c 2).trans (Gen.V2_of m outs c main_arg3 (by decide)).symm))
    (((dat0 (In0 m) c).arrAt_in 3 rfl _).trans ((A_eq0 (In0 m) c 3).trans (Gen.V2_of m outs c main_v14 (by decide)).symm))
    (((dat0 (In0 m) c).arrAt_in 4 rfl _).trans ((A_eq0 (In0 m) c 4).trans (Gen.V2_of m outs c main_arg5 (by decide)).symm))
    (((dat0 (In0 m) c).arrAt_in 5 rfl _).trans ((A_eq0 (In0 m) c 5).trans (Gen.V2_of m outs c main_v15 (by decide)).symm))
    ((hO.o0_6 c).symm.trans (V2_at_6 m outs c).symm)
    ((hO.o0_7 c).symm.trans (V2_at_7 m outs c).symm)
    ((hO.o0_8 c).symm.trans (V2_at_8 m outs c).symm)

/-- Every other buffer holds what it held at entry. -/
theorem hrest0 (c : Dev nD) : ∀ b, b ∉ Finset.univ.image (Pipeline.arrRef spec0) → Gen.V2 m outs c b = Gen.V1 m c b :=
  fun b hb => Gen.V2_of m outs c b (by
    intro hmem
    simp only [List.mem_cons, List.not_mem_nil, or_false] at hmem
    rcases hmem with rfl | rfl | rfl
    · exact hb (Finset.mem_image.mpr ⟨6, Finset.mem_univ _, rfl⟩)
    · exact hb (Finset.mem_image.mpr ⟨7, Finset.mem_univ _, rfl⟩)
    · exact hb (Finset.mem_image.mpr ⟨8, Finset.mem_univ _, rfl⟩))

set_option backward.isDefEq.respectTransparency.types false in
/-- Region 0 over the thread state: entered from every unscoped buffer at the contents before it, left at the contents
    after it; its arrays split out of the unscoped buffers and put back at the exit contents; the generator register
    into the invariant and out; nothing owed; no semaphore of the kernel's own. -/
def reg0 (hO : OutsOK m outs) : Pipeline.RegionSeg (pcfgs (F := F)) Gen.adm (pdats m outs) () defs₀ Variants.none L lv 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m outs c) ∗ R c)
  X c := iprop(∃ r, prngReg c r)
  Y c := iprop(∃ r, prngReg c r)
  Z c := Pipeline.unscopedRest (Ix := Unit) (Name := ℕ) (U := UR sig nD τ) (Lvl := ℕ) spec0 c ((In0 m) c)
  hentry c := by
    rw [Pipeline.ownSems0_none]
    have hsplit := Pipeline.arrays_of_unscopedBufs (p := 0) (pcfgs (F := F)) Gen.adm (pdats m outs) launch0.win launch0.arr_whole c
      ((pdats m outs 0 c).share_full fun _ => rfl) ((In0 m) c) fun w => A_eq0 (In0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m outs) ((pdats m outs 0 c).share_full fun _ => rfl)
      ((In0 m) c) (fun b => Gen.V2 m outs c b) ((pdats m outs 0 c).arrAt · cfg0.N) (hF0 m outs hO c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrameReg1.lean ====
/-
  Region 1 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.KFrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 1 -/

theorem V4_at_5 (c : Dev nD) : Gen.V4 m outs c main_v29 = outs 4 main_v29 c := by
  simp only [Gen.V4]; rw [Function.update_self]

set_option maxHeartbeats 4000000 in
/-- At region 1's exit each of its arrays holds what the pipeline leaves: an input as entered, an output at the
    contents named for it. -/
theorem hFgen1 {c : Dev nD} (V' : (b : Ref sig .tc) → Buf (Elt F) ((c : Thread nD τ).loc b))
    (dat : Dat τ (Elt F) Unit ℕ (UR sig nD τ) ℕ cfg1 c) (h0 : dat.arrAt 0 cfg1.N = V' main_v16_0) (h1 : dat.arrAt 1 cfg1.N = V' main_v25) (h2 : dat.arrAt 2 cfg1.N = V' main_v26) (h3 : dat.arrAt 3 cfg1.N = V' main_v27) (h4 : dat.arrAt 4 cfg1.N = V' main_v28) (h5 : dat.arrAt 5 cfg1.N = V' main_v29) :
    ∀ w : Fin 6, dat.arrAt w cfg1.N = V' (Pipeline.arrRef spec1 w)
  | 0 => h0
  | 1 => h1
  | 2 => h2
  | 3 => h3
  | 4 => h4
  | 5 => h5
  | ⟨_ + 6, h⟩ => absurd h (by omega)

theorem hF1 (hO : OutsOK m outs) (c : Dev nD) : ∀ w : Fin 6, (pdats m outs 1 c).arrAt w cfg1.N = Gen.V4 m outs c (Pipeline.arrRef spec1 w) :=
  hFgen1 (fun b => Gen.V4 m outs c b) (pdats m outs 1 c)
    (((dat1 (In1 m outs) c).arrAt_in 0 rfl _).trans ((A_eq1 (In1 m outs) c 0).trans (Gen.V4_of m outs c main_v16_0 (by decide)).symm))
    (((dat1 (In1 m outs) c).arrAt_in 1 rfl _).trans ((A_eq1 (In1 m outs) c 1).trans (Gen.V4_of m outs c main_v25 (by decide)).symm))
    (((dat1 (In1 m outs) c).arrAt_in 2 rfl _).trans ((A_eq1 (In1 m outs) c 2).trans (Gen.V4_of m outs c main_v26 (by decide)).symm))
    (((dat1 (In1 m outs) c).arrAt_in 3 rfl _).trans ((A_eq1 (In1 m outs) c 3).trans (Gen.V4_of m outs c main_v27 (by decide)).symm))
    (((dat1 (In1 m outs) c).arrAt_in 4 rfl _).trans ((A_eq1 (In1 m outs) c 4).trans (Gen.V4_of m outs c main_v28 (by decide)).symm))
    ((hO.o1_5 c).symm.trans (V4_at_5 m outs c).symm)

/-- Every other buffer holds what it held at entry. -/
theorem hrest1 (c : Dev nD) : ∀ b, b ∉ Finset.univ.image (Pipeline.arrRef spec1) → Gen.V4 m outs c b = Gen.V3 m outs c b :=
  fun b hb => Gen.V4_of m outs c b (by
    intro hmem
    simp only [List.mem_cons, List.not_mem_nil, or_false] at hmem
    rcases hmem with rfl
    · exact hb (Finset.mem_image.mpr ⟨5, Finset.mem_univ _, rfl⟩))

set_option backward.isDefEq.respectTransparency.types false in
/-- Region 1 over the thread state: entered from every unscoped buffer at the contents before it, left at the contents
    after it; its arrays split out of the unscoped buffers and put back at the exit contents; the generator register
    into the invariant and out; nothing owed; no semaphore of the kernel's own. -/
def reg1 (hO : OutsOK m outs) : Pipeline.RegionSeg (pcfgs (F := F)) Gen.adm (pdats m outs) () defs₀ Variants.none L lv 1 where
  win := launch1.win.to₀
  block_pos := launch1.block_pos
  stage_whole := launch1.stage_whole
  K := PEmpty
  osem k := k.elim
  ho := Pipeline.OwnSemFacts.none _
  hbody c := (body_obligation1 (In1 m outs) c).loose
  hwaits := Pipeline.hwaits_of_owed_zero _ _ _ _ L lv 1 fun _ _ => rfl
  pre c := iprop(StableHlo.held (c : Thread nD τ) (Pipeline.ucRefs τ sig) (Gen.V3 m outs c) ∗ R c)
  post c := iprop(StableHlo.held (c : Thread nD τ) (Pipeline.ucRefs τ sig) (Gen.V4 m outs c) ∗ R c)
  X c := iprop(∃ r, prngReg c r)
  Y c := iprop(∃ r, prngReg c r)
  Z c := Pipeline.unscopedRest (Ix := Unit) (Name := ℕ) (U := UR sig nD τ) (Lvl := ℕ) spec1 c ((In1 m outs) c)
  hentry c := by
    rw [Pipeline.ownSems0_none]
    have hsplit := Pipeline.arrays_of_unscopedBufs (p := 1) (pcfgs (F := F)) Gen.adm (pdats m outs) launch1.win launch1.arr_whole c
      ((pdats m outs 1 c).share_full fun _ => rfl) ((In1 m outs) c) fun w => A_eq1 (In1 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m outs) ((pdats m outs 1 c).share_full fun _ => rfl)
      ((In1 m outs) c) (fun b => Gen.V4 m outs c b) ((pdats m outs 1 c).arrAt · cfg1.N) (hF1 m outs hO c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrameReg2.lean ====
/-
  Region 2 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.KFrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 2 -/

theorem V6_at_6 (c : Dev nD) : Gen.V6 m outs c main_v54_0 = outs 6 main_v54_0 c := by
  simp only [Gen.V6]; rw [Function.update_of_ne (StableHlo.devRef_ne_of_ne (by decide) : (Proc.devRef .tc main_v54_0 : DevRef τ sig) ≠ Proc.devRef .tc main_v54_2), Function.update_of_ne (StableHlo.devRef_ne_of_ne (by decide) : (Proc.devRef .tc main_v54_0 : DevRef τ sig) ≠ Proc.devRef .tc main_v54_1), Function.update_self]
theorem V6_at_7 (c : Dev nD) : Gen.V6 m outs c main_v54_1 = outs 6 main_v54_1 c := by
  simp only [Gen.V6]; rw [Function.update_of_ne (StableHlo.devRef_ne_of_ne (by decide) : (Proc.devRef .tc main_v54_1 : DevRef τ sig) ≠ Proc.devRef .tc main_v54_2), Function.update_self]
theorem V6_at_8 (c : Dev nD) : Gen.V6 m outs c main_v54_2 = outs 6 main_v54_2 c := by
  simp only [Gen.V6]; rw [Function.update_self]

set_option maxHeartbeats 4000000 in
/-- At region 2's exit each of its arrays holds what the pipeline leaves: an input as entered, an output at the
    contents named for it. -/
theorem hFgen2 {c : Dev nD} (V' : (b : Ref sig .tc) → Buf (Elt F) ((c : Thread nD τ).loc b))
    (dat : Dat τ (Elt F) Unit ℕ (UR sig nD τ) ℕ cfg2 c) (h0 : dat.arrAt 0 cfg2.N = V' main_v29) (h1 : dat.arrAt 1 cfg2.N = V' main_v51) (h2 : dat.arrAt 2 cfg2.N = V' main_v31) (h3 : dat.arrAt 3 cfg2.N = V' main_v52) (h4 : dat.arrAt 4 cfg2.N = V' main_v35) (h5 : dat.arrAt 5 cfg2.N = V' main_v53) (h6 : dat.arrAt 6 cfg2.N = V' main_v54_0) (h7 : dat.arrAt 7 cfg2.N = V' main_v54_1) (h8 : dat.arrAt 8 cfg2.N = V' main_v54_2) :
    ∀ w : Fin 9, dat.arrAt w cfg2.N = V' (Pipeline.arrRef spec2 w)
  | 0 => h0
  | 1 => h1
  | 2 => h2
  | 3 => h3
  | 4 => h4
  | 5 => h5
  | 6 => h6
  | 7 => h7
  | 8 => h8
  | ⟨_ + 9, h⟩ => absurd h (by omega)

theorem hF2 (hO : OutsOK m outs) (c : Dev nD) : ∀ w : Fin 9, (pdats m outs 2 c).arrAt w cfg2.N = Gen.V6 m outs c (Pipeline.arrRef spec2 w) :=
  hFgen2 (fun b => Gen.V6 m outs c b) (pdats m outs 2 c)
    (((dat2 (In2 m outs) c).arrAt_in 0 rfl _).trans ((A_eq2 (In2 m outs) c 0).trans (Gen.V6_of m outs c main_v29 (by decide)).symm))
    (((dat2 (In2 m outs) c).arrAt_in 1 rfl _).trans ((A_eq2 (In2 m outs) c 1).trans (Gen.V6_of m outs c main_v51 (by decide)).symm))
    (((dat2 (In2 m outs) c).arrAt_in 2 rfl _).trans ((A_eq2 (In2 m outs) c 2).trans (Gen.V6_of m outs c main_v31 (by decide)).symm))
    (((dat2 (In2 m outs) c).arrAt_in 3 rfl _).trans ((A_eq2 (In2 m outs) c 3).trans (Gen.V6_of m outs c main_v52 (by decide)).symm))
    (((dat2 (In2 m outs) c).arrAt_in 4 rfl _).trans ((A_eq2 (In2 m outs) c 4).trans (Gen.V6_of m outs c main_v35 (by decide)).symm))
    (((dat2 (In2 m outs) c).arrAt_in 5 rfl _).trans ((A_eq2 (In2 m outs) c 5).trans (Gen.V6_of m outs c main_v53 (by decide)).symm))
    ((hO.o2_6 c).symm.trans (V6_at_6 m outs c).symm)
    ((hO.o2_7 c).symm.trans (V6_at_7 m outs c).symm)
    ((hO.o2_8 c).symm.trans (V6_at_8 m outs c).symm)

/-- Every other buffer holds what it held at entry. -/
theorem hrest2 (c : Dev nD) : ∀ b, b ∉ Finset.univ.image (Pipeline.arrRef spec2) → Gen.V6 m outs c b = Gen.V5 m outs c b :=
  fun b hb => Gen.V6_of m outs c b (by
    intro hmem
    simp only [List.mem_cons, List.not_mem_nil, or_false] at hmem
    rcases hmem with rfl | rfl | rfl
    · exact hb (Finset.mem_image.mpr ⟨6, Finset.mem_univ _, rfl⟩)
    · exact hb (Finset.mem_image.mpr ⟨7, Finset.mem_univ _, rfl⟩)
    · exact hb (Finset.mem_image.mpr ⟨8, Finset.mem_univ _, rfl⟩))

set_option backward.isDefEq.respectTransparency.types false in
/-- Region 2 over the thread state: entered from every unscoped buffer at the contents before it, left at the contents
    after it; its arrays split out of the unscoped buffers and put back at the exit contents; the generator register
    into the invariant and out; nothing owed; no semaphore of the kernel's own. -/
def reg2 (hO : OutsOK m outs) : Pipeline.RegionSeg (pcfgs (F := F)) Gen.adm (pdats m outs) () defs₀ Variants.none L lv 2 where
  win := launch2.win.to₀
  block_pos := launch2.block_pos
  stage_whole := launch2.stage_whole
  K := PEmpty
  osem k := k.elim
  ho := Pipeline.OwnSemFacts.none _
  hbody c := (body_obligation2 (In2 m outs) c).loose
  hwaits := Pipeline.hwaits_of_owed_zero _ _ _ _ L lv 2 fun _ _ => rfl
  pre c := iprop(StableHlo.held (c : Thread nD τ) (Pipeline.ucRefs τ sig) (Gen.V5 m outs c) ∗ R c)
  post c := iprop(StableHlo.held (c : Thread nD τ) (Pipeline.ucRefs τ sig) (Gen.V6 m outs c) ∗ R c)
  X c := iprop(∃ r, prngReg c r)
  Y c := iprop(∃ r, prngReg c r)
  Z c := Pipeline.unscopedRest (Ix := Unit) (Name := ℕ) (U := UR sig nD τ) (Lvl := ℕ) spec2 c ((In2 m outs) c)
  hentry c := by
    rw [Pipeline.ownSems0_none]
    have hsplit := Pipeline.arrays_of_unscopedBufs (p := 2) (pcfgs (F := F)) Gen.adm (pdats m outs) launch2.win launch2.arr_whole c
      ((pdats m outs 2 c).share_full fun _ => rfl) ((In2 m outs) c) fun w => A_eq2 (In2 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m outs) ((pdats m outs 2 c).share_full fun _ => rfl)
      ((In2 m outs) c) (fun b => Gen.V6 m outs c b) ((pdats m outs 2 c).arrAt · cfg2.N) (hF2 m outs hO c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrameReg3.lean ====
/-
  Region 3 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.KFrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 3 -/

theorem V8_at_5 (c : Dev nD) : Gen.V8 m outs c main_v67 = outs 8 main_v67 c := by
  simp only [Gen.V8]; rw [Function.update_self]

set_option maxHeartbeats 4000000 in
/-- At region 3's exit each of its arrays holds what the pipeline leaves: an input as entered, an output at the
    contents named for it. -/
theorem hFgen3 {c : Dev nD} (V' : (b : Ref sig .tc) → Buf (Elt F) ((c : Thread nD τ).loc b))
    (dat : Dat τ (Elt F) Unit ℕ (UR sig nD τ) ℕ cfg3 c) (h0 : dat.arrAt 0 cfg3.N = V' main_v54_0) (h1 : dat.arrAt 1 cfg3.N = V' main_v63) (h2 : dat.arrAt 2 cfg3.N = V' main_v64) (h3 : dat.arrAt 3 cfg3.N = V' main_v65) (h4 : dat.arrAt 4 cfg3.N = V' main_v66) (h5 : dat.arrAt 5 cfg3.N = V' main_v67) :
    ∀ w : Fin 6, dat.arrAt w cfg3.N = V' (Pipeline.arrRef spec3 w)
  | 0 => h0
  | 1 => h1
  | 2 => h2
  | 3 => h3
  | 4 => h4
  | 5 => h5
  | ⟨_ + 6, h⟩ => absurd h (by omega)

theorem hF3 (hO : OutsOK m outs) (c : Dev nD) : ∀ w : Fin 6, (pdats m outs 3 c).arrAt w cfg3.N = Gen.V8 m outs c (Pipeline.arrRef spec3 w) :=
  hFgen3 (fun b => Gen.V8 m outs c b) (pdats m outs 3 c)
    (((dat3 (In3 m outs) c).arrAt_in 0 rfl _).trans ((A_eq3 (In3 m outs) c 0).trans (Gen.V8_of m outs c main_v54_0 (by decide)).symm))
    (((dat3 (In3 m outs) c).arrAt_in 1 rfl _).trans ((A_eq3 (In3 m outs) c 1).trans (Gen.V8_of m outs c main_v63 (by decide)).symm))
    (((dat3 (In3 m outs) c).arrAt_in 2 rfl _).trans ((A_eq3 (In3 m outs) c 2).trans (Gen.V8_of m outs c main_v64 (by decide)).symm))
    (((dat3 (In3 m outs) c).arrAt_in 3 rfl _).trans ((A_eq3 (In3 m outs) c 3).trans (Gen.V8_of m outs c main_v65 (by decide)).symm))
    (((dat3 (In3 m outs) c).arrAt_in 4 rfl _).trans ((A_eq3 (In3 m outs) c 4).trans (Gen.V8_of m outs c main_v66 (by decide)).symm))
    ((hO.o3_5 c).symm.trans (V8_at_5 m outs c).symm)

/-- Every other buffer holds what it held at entry. -/
theorem hrest3 (c : Dev nD) : ∀ b, b ∉ Finset.univ.image (Pipeline.arrRef spec3) → Gen.V8 m outs c b = Gen.V7 m outs c b :=
  fun b hb => Gen.V8_of m outs c b (by
    intro hmem
    simp only [List.mem_cons, List.not_mem_nil, or_false] at hmem
    rcases hmem with rfl
    · exact hb (Finset.mem_image.mpr ⟨5, Finset.mem_univ _, rfl⟩))

set_option backward.isDefEq.respectTransparency.types false in
/-- Region 3 over the thread state: entered from every unscoped buffer at the contents before it, left at the contents
    after it; its arrays split out of the unscoped buffers and put back at the exit contents; the generator register
    into the invariant and out; nothing owed; no semaphore of the kernel's own. -/
def reg3 (hO : OutsOK m outs) : Pipeline.RegionSeg (pcfgs (F := F)) Gen.adm (pdats m outs) () defs₀ Variants.none L lv 3 where
  win := launch3.win.to₀
  block_pos := launch3.block_pos
  stage_whole := launch3.stage_whole
  K := PEmpty
  osem k := k.elim
  ho := Pipeline.OwnSemFacts.none _
  hbody c := (body_obligation3 (In3 m outs) c).loose
  hwaits := Pipeline.hwaits_of_owed_zero _ _ _ _ L lv 3 fun _ _ => rfl
  pre c := iprop(StableHlo.held (c : Thread nD τ) (Pipeline.ucRefs τ sig) (Gen.V7 m outs c) ∗ R c)
  post c := iprop(StableHlo.held (c : Thread nD τ) (Pipeline.ucRefs τ sig) (Gen.V8 m outs c) ∗ R c)
  X c := iprop(∃ r, prngReg c r)
  Y c := iprop(∃ r, prngReg c r)
  Z c := Pipeline.unscopedRest (Ix := Unit) (Name := ℕ) (U := UR sig nD τ) (Lvl := ℕ) spec3 c ((In3 m outs) c)
  hentry c := by
    rw [Pipeline.ownSems0_none]
    have hsplit := Pipeline.arrays_of_unscopedBufs (p := 3) (pcfgs (F := F)) Gen.adm (pdats m outs) launch3.win launch3.arr_whole c
      ((pdats m outs 3 c).share_full fun _ => rfl) ((In3 m outs) c) fun w => A_eq3 (In3 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m outs) ((pdats m outs 3 c).share_full fun _ => rfl)
      ((In3 m outs) c) (fun b => Gen.V8 m outs c b) ((pdats m outs 3 c).arrAt · cfg3.N) (hF3 m outs hO c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrameReg4.lean ====
/-
  Region 4 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.KFrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 4 -/

theorem V10_at_6 (c : Dev nD) : Gen.V10 m outs c main_v92_0 = outs 10 main_v92_0 c := by
  simp only [Gen.V10]; rw [Function.update_of_ne (StableHlo.devRef_ne_of_ne (by decide) : (Proc.devRef .tc main_v92_0 : DevRef τ sig) ≠ Proc.devRef .tc main_v92_2), Function.update_of_ne (StableHlo.devRef_ne_of_ne (by decide) : (Proc.devRef .tc main_v92_0 : DevRef τ sig) ≠ Proc.devRef .tc main_v92_1), Function.update_self]
theorem V10_at_7 (c : Dev nD) : Gen.V10 m outs c main_v92_1 = outs 10 main_v92_1 c := by
  simp only [Gen.V10]; rw [Function.update_of_ne (StableHlo.devRef_ne_of_ne (by decide) : (Proc.devRef .tc main_v92_1 : DevRef τ sig) ≠ Proc.devRef .tc main_v92_2), Function.update_self]
theorem V10_at_8 (c : Dev nD) : Gen.V10 m outs c main_v92_2 = outs 10 main_v92_2 c := by
  simp only [Gen.V10]; rw [Function.update_self]

set_option maxHeartbeats 4000000 in
/-- At region 4's exit each of its arrays holds what the pipeline leaves: an input as entered, an output at the
    contents named for it. -/
theorem hFgen4 {c : Dev nD} (V' : (b : Ref sig .tc) → Buf (Elt F) ((c : Thread nD τ).loc b))
    (dat : Dat τ (Elt F) Unit ℕ (UR sig nD τ) ℕ cfg4 c) (h0 : dat.arrAt 0 cfg4.N = V' main_v67) (h1 : dat.arrAt 1 cfg4.N = V' main_v89) (h2 : dat.arrAt 2 cfg4.N = V' main_v69) (h3 : dat.arrAt 3 cfg4.N = V' main_v90) (h4 : dat.arrAt 4 cfg4.N = V' main_v73) (h5 : dat.arrAt 5 cfg4.N = V' main_v91) (h6 : dat.arrAt 6 cfg4.N = V' main_v92_0) (h7 : dat.arrAt 7 cfg4.N = V' main_v92_1) (h8 : dat.arrAt 8 cfg4.N = V' main_v92_2) :
    ∀ w : Fin 9, dat.arrAt w cfg4.N = V' (Pipeline.arrRef spec4 w)
  | 0 => h0
  | 1 => h1
  | 2 => h2
  | 3 => h3
  | 4 => h4
  | 5 => h5
  | 6 => h6
  | 7 => h7
  | 8 => h8
  | ⟨_ + 9, h⟩ => absurd h (by omega)

theorem hF4 (hO : OutsOK m outs) (c : Dev nD) : ∀ w : Fin 9, (pdats m outs 4 c).arrAt w cfg4.N = Gen.V10 m outs c (Pipeline.arrRef spec4 w) :=
  hFgen4 (fun b => Gen.V10 m outs c b) (pdats m outs 4 c)
    (((dat4 (In4 m outs) c).arrAt_in 0 rfl _).trans ((A_eq4 (In4 m outs) c 0).trans (Gen.V10_of m outs c main_v67 (by decide)).symm))
    (((dat4 (In4 m outs) c).arrAt_in 1 rfl _).trans ((A_eq4 (In4 m outs) c 1).trans (Gen.V10_of m outs c main_v89 (by decide)).symm))
    (((dat4 (In4 m outs) c).arrAt_in 2 rfl _).trans ((A_eq4 (In4 m outs) c 2).trans (Gen.V10_of m outs c main_v69 (by decide)).symm))
    (((dat4 (In4 m outs) c).arrAt_in 3 rfl _).trans ((A_eq4 (In4 m outs) c 3).trans (Gen.V10_of m outs c main_v90 (by decide)).symm))
    (((dat4 (In4 m outs) c).arrAt_in 4 rfl _).trans ((A_eq4 (In4 m outs) c 4).trans (Gen.V10_of m outs c main_v73 (by decide)).symm))
    (((dat4 (In4 m outs) c).arrAt_in 5 rfl _).trans ((A_eq4 (In4 m outs) c 5).trans (Gen.V10_of m outs c main_v91 (by decide)).symm))
    ((hO.o4_6 c).symm.trans (V10_at_6 m outs c).symm)
    ((hO.o4_7 c).symm.trans (V10_at_7 m outs c).symm)
    ((hO.o4_8 c).symm.trans (V10_at_8 m outs c).symm)

/-- Every other buffer holds what it held at entry. -/
theorem hrest4 (c : Dev nD) : ∀ b, b ∉ Finset.univ.image (Pipeline.arrRef spec4) → Gen.V10 m outs c b = Gen.V9 m outs c b :=
  fun b hb => Gen.V10_of m outs c b (by
    intro hmem
    simp only [List.mem_cons, List.not_mem_nil, or_false] at hmem
    rcases hmem with rfl | rfl | rfl
    · exact hb (Finset.mem_image.mpr ⟨6, Finset.mem_univ _, rfl⟩)
    · exact hb (Finset.mem_image.mpr ⟨7, Finset.mem_univ _, rfl⟩)
    · exact hb (Finset.mem_image.mpr ⟨8, Finset.mem_univ _, rfl⟩))

set_option backward.isDefEq.respectTransparency.types false in
/-- Region 4 over the thread state: entered from every unscoped buffer at the contents before it, left at the contents
    after it; its arrays split out of the unscoped buffers and put back at the exit contents; the generator register
    into the invariant and out; nothing owed; no semaphore of the kernel's own. -/
def reg4 (hO : OutsOK m outs) : Pipeline.RegionSeg (pcfgs (F := F)) Gen.adm (pdats m outs) () defs₀ Variants.none L lv 4 where
  win := launch4.win.to₀
  block_pos := launch4.block_pos
  stage_whole := launch4.stage_whole
  K := PEmpty
  osem k := k.elim
  ho := Pipeline.OwnSemFacts.none _
  hbody c := (body_obligation4 (In4 m outs) c).loose
  hwaits := Pipeline.hwaits_of_owed_zero _ _ _ _ L lv 4 fun _ _ => rfl
  pre c := iprop(StableHlo.held (c : Thread nD τ) (Pipeline.ucRefs τ sig) (Gen.V9 m outs c) ∗ R c)
  post c := iprop(StableHlo.held (c : Thread nD τ) (Pipeline.ucRefs τ sig) (Gen.V10 m outs c) ∗ R c)
  X c := iprop(∃ r, prngReg c r)
  Y c := iprop(∃ r, prngReg c r)
  Z c := Pipeline.unscopedRest (Ix := Unit) (Name := ℕ) (U := UR sig nD τ) (Lvl := ℕ) spec4 c ((In4 m outs) c)
  hentry c := by
    rw [Pipeline.ownSems0_none]
    have hsplit := Pipeline.arrays_of_unscopedBufs (p := 4) (pcfgs (F := F)) Gen.adm (pdats m outs) launch4.win launch4.arr_whole c
      ((pdats m outs 4 c).share_full fun _ => rfl) ((In4 m outs) c) fun w => A_eq4 (In4 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m outs 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m outs) ((pdats m outs 4 c).share_full fun _ => rfl)
      ((In4 m outs) c) (fun b => Gen.V10 m outs c b) ((pdats m outs 4 c).arrAt · cfg4.N) (hF4 m outs hO c) (hrest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrameReg5.lean ====
/-
  Region 5 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.KFrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 5 -/

theorem V12_at_5 (c : Dev nD) : Gen.V12 m outs c main_v105 = outs 12 main_v105 c := by
  simp only [Gen.V12]; rw [Function.update_self]

set_option maxHeartbeats 4000000 in
/-- At region 5's exit each of its arrays holds what the pipeline leaves: an input as entered, an output at the
    contents named for it. -/
theorem hFgen5 {c : Dev nD} (V' : (b : Ref sig .tc) → Buf (Elt F) ((c : Thread nD τ).loc b))
    (dat : Dat τ (Elt F) Unit ℕ (UR sig nD τ) ℕ cfg5 c) (h0 : dat.arrAt 0 cfg5.N = V' main_v92_0) (h1 : dat.arrAt 1 cfg5.N = V' main_v101) (h2 : dat.arrAt 2 cfg5.N = V' main_v102) (h3 : dat.arrAt 3 cfg5.N = V' main_v103) (h4 : dat.arrAt 4 cfg5.N = V' main_v104) (h5 : dat.arrAt 5 cfg5.N = V' main_v105) :
    ∀ w : Fin 6, dat.arrAt w cfg5.N = V' (Pipeline.arrRef spec5 w)
  | 0 => h0
  | 1 => h1
  | 2 => h2
  | 3 => h3
  | 4 => h4
  | 5 => h5
  | ⟨_ + 6, h⟩ => absurd h (by omega)

theorem hF5 (hO : OutsOK m outs) (c : Dev nD) : ∀ w : Fin 6, (pdats m outs 5 c).arrAt w cfg5.N = Gen.V12 m outs c (Pipeline.arrRef spec5 w) :=
  hFgen5 (fun b => Gen.V12 m outs c b) (pdats m outs 5 c)
    (((dat5 (In5 m outs) c).arrAt_in 0 rfl _).trans ((A_eq5 (In5 m outs) c 0).trans (Gen.V12_of m outs c main_v92_0 (by decide)).symm))
    (((dat5 (In5 m outs) c).arrAt_in 1 rfl _).trans ((A_eq5 (In5 m outs) c 1).trans (Gen.V12_of m outs c main_v101 (by decide)).symm))
    (((dat5 (In5 m outs) c).arrAt_in 2 rfl _).trans ((A_eq5 (In5 m outs) c 2).trans (Gen.V12_of m outs c main_v102 (by decide)).symm))
    (((dat5 (In5 m outs) c).arrAt_in 3 rfl _).trans ((A_eq5 (In5 m outs) c 3).trans (Gen.V12_of m outs c main_v103 (by decide)).symm))
    (((dat5 (In5 m outs) c).arrAt_in 4 rfl _).trans ((A_eq5 (In5 m outs) c 4).trans (Gen.V12_of m outs c main_v104 (by decide)).symm))
    ((hO.o5_5 c).symm.trans (V12_at_5 m outs c).symm)

/-- Every other buffer holds what it held at entry. -/
theorem hrest5 (c : Dev nD) : ∀ b, b ∉ Finset.univ.image (Pipeline.arrRef spec5) → Gen.V12 m outs c b = Gen.V11 m outs c b :=
  fun b hb => Gen.V12_of m outs c b (by
    intro hmem
    simp only [List.mem_cons, List.not_mem_nil, or_false] at hmem
    rcases hmem with rfl
    · exact hb (Finset.mem_image.mpr ⟨5, Finset.mem_univ _, rfl⟩))

set_option backward.isDefEq.respectTransparency.types false in
/-- Region 5 over the thread state: entered from every unscoped buffer at the contents before it, left at the contents
    after it; its arrays split out of the unscoped buffers and put back at the exit contents; the generator register
    into the invariant and out; nothing owed; no semaphore of the kernel's own. -/
def reg5 (hO : OutsOK m outs) : Pipeline.RegionSeg (pcfgs (F := F)) Gen.adm (pdats m outs) () defs₀ Variants.none L lv 5 where
  win := launch5.win.to₀
  block_pos := launch5.block_pos
  stage_whole := launch5.stage_whole
  K := PEmpty
  osem k := k.elim
  ho := Pipeline.OwnSemFacts.none _
  hbody c := (body_obligation5 (In5 m outs) c).loose
  hwaits := Pipeline.hwaits_of_owed_zero _ _ _ _ L lv 5 fun _ _ => rfl
  pre c := iprop(StableHlo.held (c : Thread nD τ) (Pipeline.ucRefs τ sig) (Gen.V11 m outs c) ∗ R c)
  post c := iprop(StableHlo.held (c : Thread nD τ) (Pipeline.ucRefs τ sig) (Gen.V12 m outs c) ∗ R c)
  X c := iprop(∃ r, prngReg c r)
  Y c := iprop(∃ r, prngReg c r)
  Z c := Pipeline.unscopedRest (Ix := Unit) (Name := ℕ) (U := UR sig nD τ) (Lvl := ℕ) spec5 c ((In5 m outs) c)
  hentry c := by
    rw [Pipeline.ownSems0_none]
    have hsplit := Pipeline.arrays_of_unscopedBufs (p := 5) (pcfgs (F := F)) Gen.adm (pdats m outs) launch5.win launch5.arr_whole c
      ((pdats m outs 5 c).share_full fun _ => rfl) ((In5 m outs) c) fun w => A_eq5 (In5 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m outs) ((pdats m outs 5 c).share_full fun _ => rfl)
      ((In5 m outs) c) (fun b => Gen.V12 m outs c b) ((pdats m outs 5 c).arrAt · cfg5.N) (hF5 m outs hO c) (hrest5 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrameReg6.lean ====
/-
  Region 6 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.KFrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 6 -/

theorem V14_at_6 (c : Dev nD) : Gen.V14 m outs c main_v130_0 = outs 14 main_v130_0 c := by
  simp only [Gen.V14]; rw [Function.update_of_ne (StableHlo.devRef_ne_of_ne (by decide) : (Proc.devRef .tc main_v130_0 : DevRef τ sig) ≠ Proc.devRef .tc main_v130_2), Function.update_of_ne (StableHlo.devRef_ne_of_ne (by decide) : (Proc.devRef .tc main_v130_0 : DevRef τ sig) ≠ Proc.devRef .tc main_v130_1), Function.update_self]
theorem V14_at_7 (c : Dev nD) : Gen.V14 m outs c main_v130_1 = outs 14 main_v130_1 c := by
  simp only [Gen.V14]; rw [Function.update_of_ne (StableHlo.devRef_ne_of_ne (by decide) : (Proc.devRef .tc main_v130_1 : DevRef τ sig) ≠ Proc.devRef .tc main_v130_2), Function.update_self]
theorem V14_at_8 (c : Dev nD) : Gen.V14 m outs c main_v130_2 = outs 14 main_v130_2 c := by
  simp only [Gen.V14]; rw [Function.update_self]

set_option maxHeartbeats 4000000 in
/-- At region 6's exit each of its arrays holds what the pipeline leaves: an input as entered, an output at the
    contents named for it. -/
theorem hFgen6 {c : Dev nD} (V' : (b : Ref sig .tc) → Buf (Elt F) ((c : Thread nD τ).loc b))
    (dat : Dat τ (Elt F) Unit ℕ (UR sig nD τ) ℕ cfg6 c) (h0 : dat.arrAt 0 cfg6.N = V' main_v105) (h1 : dat.arrAt 1 cfg6.N = V' main_v127) (h2 : dat.arrAt 2 cfg6.N = V' main_v107) (h3 : dat.arrAt 3 cfg6.N = V' main_v128) (h4 : dat.arrAt 4 cfg6.N = V' main_v111) (h5 : dat.arrAt 5 cfg6.N = V' main_v129) (h6 : dat.arrAt 6 cfg6.N = V' main_v130_0) (h7 : dat.arrAt 7 cfg6.N = V' main_v130_1) (h8 : dat.arrAt 8 cfg6.N = V' main_v130_2) :
    ∀ w : Fin 9, dat.arrAt w cfg6.N = V' (Pipeline.arrRef spec6 w)
  | 0 => h0
  | 1 => h1
  | 2 => h2
  | 3 => h3
  | 4 => h4
  | 5 => h5
  | 6 => h6
  | 7 => h7
  | 8 => h8
  | ⟨_ + 9, h⟩ => absurd h (by omega)

theorem hF6 (hO : OutsOK m outs) (c : Dev nD) : ∀ w : Fin 9, (pdats m outs 6 c).arrAt w cfg6.N = Gen.V14 m outs c (Pipeline.arrRef spec6 w) :=
  hFgen6 (fun b => Gen.V14 m outs c b) (pdats m outs 6 c)
    (((dat6 (In6 m outs) c).arrAt_in 0 rfl _).trans ((A_eq6 (In6 m outs) c 0).trans (Gen.V14_of m outs c main_v105 (by decide)).symm))
    (((dat6 (In6 m outs) c).arrAt_in 1 rfl _).trans ((A_eq6 (In6 m outs) c 1).trans (Gen.V14_of m outs c main_v127 (by decide)).symm))
    (((dat6 (In6 m outs) c).arrAt_in 2 rfl _).trans ((A_eq6 (In6 m outs) c 2).trans (Gen.V14_of m outs c main_v107 (by decide)).symm))
    (((dat6 (In6 m outs) c).arrAt_in 3 rfl _).trans ((A_eq6 (In6 m outs) c 3).trans (Gen.V14_of m outs c main_v128 (by decide)).symm))
    (((dat6 (In6 m outs) c).arrAt_in 4 rfl _).trans ((A_eq6 (In6 m outs) c 4).trans (Gen.V14_of m outs c main_v111 (by decide)).symm))
    (((dat6 (In6 m outs) c).arrAt_in 5 rfl _).trans ((A_eq6 (In6 m outs) c 5).trans (Gen.V14_of m outs c main_v129 (by decide)).symm))
    ((hO.o6_6 c).symm.trans (V14_at_6 m outs c).symm)
    ((hO.o6_7 c).symm.trans (V14_at_7 m outs c).symm)
    ((hO.o6_8 c).symm.trans (V14_at_8 m outs c).symm)

/-- Every other buffer holds what it held at entry. -/
theorem hrest6 (c : Dev nD) : ∀ b, b ∉ Finset.univ.image (Pipeline.arrRef spec6) → Gen.V14 m outs c b = Gen.V13 m outs c b :=
  fun b hb => Gen.V14_of m outs c b (by
    intro hmem
    simp only [List.mem_cons, List.not_mem_nil, or_false] at hmem
    rcases hmem with rfl | rfl | rfl
    · exact hb (Finset.mem_image.mpr ⟨6, Finset.mem_univ _, rfl⟩)
    · exact hb (Finset.mem_image.mpr ⟨7, Finset.mem_univ _, rfl⟩)
    · exact hb (Finset.mem_image.mpr ⟨8, Finset.mem_univ _, rfl⟩))

set_option backward.isDefEq.respectTransparency.types false in
/-- Region 6 over the thread state: entered from every unscoped buffer at the contents before it, left at the contents
    after it; its arrays split out of the unscoped buffers and put back at the exit contents; the generator register
    into the invariant and out; nothing owed; no semaphore of the kernel's own. -/
def reg6 (hO : OutsOK m outs) : Pipeline.RegionSeg (pcfgs (F := F)) Gen.adm (pdats m outs) () defs₀ Variants.none L lv 6 where
  win := launch6.win.to₀
  block_pos := launch6.block_pos
  stage_whole := launch6.stage_whole
  K := PEmpty
  osem k := k.elim
  ho := Pipeline.OwnSemFacts.none _
  hbody c := (body_obligation6 (In6 m outs) c).loose
  hwaits := Pipeline.hwaits_of_owed_zero _ _ _ _ L lv 6 fun _ _ => rfl
  pre c := iprop(StableHlo.held (c : Thread nD τ) (Pipeline.ucRefs τ sig) (Gen.V13 m outs c) ∗ R c)
  post c := iprop(StableHlo.held (c : Thread nD τ) (Pipeline.ucRefs τ sig) (Gen.V14 m outs c) ∗ R c)
  X c := iprop(∃ r, prngReg c r)
  Y c := iprop(∃ r, prngReg c r)
  Z c := Pipeline.unscopedRest (Ix := Unit) (Name := ℕ) (U := UR sig nD τ) (Lvl := ℕ) spec6 c ((In6 m outs) c)
  hentry c := by
    rw [Pipeline.ownSems0_none]
    have hsplit := Pipeline.arrays_of_unscopedBufs (p := 6) (pcfgs (F := F)) Gen.adm (pdats m outs) launch6.win launch6.arr_whole c
      ((pdats m outs 6 c).share_full fun _ => rfl) ((In6 m outs) c) fun w => A_eq6 (In6 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m outs 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m outs) ((pdats m outs 6 c).share_full fun _ => rfl)
      ((In6 m outs) c) (fun b => Gen.V14 m outs c b) ((pdats m outs 6 c).arrAt · cfg6.N) (hF6 m outs hO c) (hrest6 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrameReg7.lean ====
/-
  Region 7 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.KFrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 7 -/

theorem V16_at_5 (c : Dev nD) : Gen.V16 m outs c main_v143 = outs 16 main_v143 c := by
  simp only [Gen.V16]; rw [Function.update_self]

set_option maxHeartbeats 4000000 in
/-- At region 7's exit each of its arrays holds what the pipeline leaves: an input as entered, an output at the
    contents named for it. -/
theorem hFgen7 {c : Dev nD} (V' : (b : Ref sig .tc) → Buf (Elt F) ((c : Thread nD τ).loc b))
    (dat : Dat τ (Elt F) Unit ℕ (UR sig nD τ) ℕ cfg7 c) (h0 : dat.arrAt 0 cfg7.N = V' main_v130_0) (h1 : dat.arrAt 1 cfg7.N = V' main_v139) (h2 : dat.arrAt 2 cfg7.N = V' main_v140) (h3 : dat.arrAt 3 cfg7.N = V' main_v141) (h4 : dat.arrAt 4 cfg7.N = V' main_v142) (h5 : dat.arrAt 5 cfg7.N = V' main_v143) :
    ∀ w : Fin 6, dat.arrAt w cfg7.N = V' (Pipeline.arrRef spec7 w)
  | 0 => h0
  | 1 => h1
  | 2 => h2
  | 3 => h3
  | 4 => h4
  | 5 => h5
  | ⟨_ + 6, h⟩ => absurd h (by omega)

theorem hF7 (hO : OutsOK m outs) (c : Dev nD) : ∀ w : Fin 6, (pdats m outs 7 c).arrAt w cfg7.N = Gen.V16 m outs c (Pipeline.arrRef spec7 w) :=
  hFgen7 (fun b => Gen.V16 m outs c b) (pdats m outs 7 c)
    (((dat7 (In7 m outs) c).arrAt_in 0 rfl _).trans ((A_eq7 (In7 m outs) c 0).trans (Gen.V16_of m outs c main_v130_0 (by decide)).symm))
    (((dat7 (In7 m outs) c).arrAt_in 1 rfl _).trans ((A_eq7 (In7 m outs) c 1).trans (Gen.V16_of m outs c main_v139 (by decide)).symm))
    (((dat7 (In7 m outs) c).arrAt_in 2 rfl _).trans ((A_eq7 (In7 m outs) c 2).trans (Gen.V16_of m outs c main_v140 (by decide)).symm))
    (((dat7 (In7 m outs) c).arrAt_in 3 rfl _).trans ((A_eq7 (In7 m outs) c 3).trans (Gen.V16_of m outs c main_v141 (by decide)).symm))
    (((dat7 (In7 m outs) c).arrAt_in 4 rfl _).trans ((A_eq7 (In7 m outs) c 4).trans (Gen.V16_of m outs c main_v142 (by decide)).symm))
    ((hO.o7_5 c).symm.trans (V16_at_5 m outs c).symm)

/-- Every other buffer holds what it held at entry. -/
theorem hrest7 (c : Dev nD) : ∀ b, b ∉ Finset.univ.image (Pipeline.arrRef spec7) → Gen.V16 m outs c b = Gen.V15 m outs c b :=
  fun b hb => Gen.V16_of m outs c b (by
    intro hmem
    simp only [List.mem_cons, List.not_mem_nil, or_false] at hmem
    rcases hmem with rfl
    · exact hb (Finset.mem_image.mpr ⟨5, Finset.mem_univ _, rfl⟩))

set_option backward.isDefEq.respectTransparency.types false in
/-- Region 7 over the thread state: entered from every unscoped buffer at the contents before it, left at the contents
    after it; its arrays split out of the unscoped buffers and put back at the exit contents; the generator register
    into the invariant and out; nothing owed; no semaphore of the kernel's own. -/
def reg7 (hO : OutsOK m outs) : Pipeline.RegionSeg (pcfgs (F := F)) Gen.adm (pdats m outs) () defs₀ Variants.none L lv 7 where
  win := launch7.win.to₀
  block_pos := launch7.block_pos
  stage_whole := launch7.stage_whole
  K := PEmpty
  osem k := k.elim
  ho := Pipeline.OwnSemFacts.none _
  hbody c := (body_obligation7 (In7 m outs) c).loose
  hwaits := Pipeline.hwaits_of_owed_zero _ _ _ _ L lv 7 fun _ _ => rfl
  pre c := iprop(StableHlo.held (c : Thread nD τ) (Pipeline.ucRefs τ sig) (Gen.V15 m outs c) ∗ R c)
  post c := iprop(StableHlo.held (c : Thread nD τ) (Pipeline.ucRefs τ sig) (Gen.V16 m outs c) ∗ R c)
  X c := iprop(∃ r, prngReg c r)
  Y c := iprop(∃ r, prngReg c r)
  Z c := Pipeline.unscopedRest (Ix := Unit) (Name := ℕ) (U := UR sig nD τ) (Lvl := ℕ) spec7 c ((In7 m outs) c)
  hentry c := by
    rw [Pipeline.ownSems0_none]
    have hsplit := Pipeline.arrays_of_unscopedBufs (p := 7) (pcfgs (F := F)) Gen.adm (pdats m outs) launch7.win launch7.arr_whole c
      ((pdats m outs 7 c).share_full fun _ => rfl) ((In7 m outs) c) fun w => A_eq7 (In7 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m outs 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m outs) ((pdats m outs 7 c).share_full fun _ => rfl)
      ((In7 m outs) c) (fun b => Gen.V16 m outs c b) ((pdats m outs 7 c).arrAt · cfg7.N) (hF7 m outs hO c) (hrest7 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrameReg8.lean ====
/-
  Region 8 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.KFrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 8 -/

theorem V18_at_5 (c : Dev nD) : Gen.V18 m outs c main_v159 = outs 18 main_v159 c := by
  simp only [Gen.V18]; rw [Function.update_self]

set_option maxHeartbeats 4000000 in
/-- At region 8's exit each of its arrays holds what the pipeline leaves: an input as entered, an output at the
    contents named for it. -/
theorem hFgen8 {c : Dev nD} (V' : (b : Ref sig .tc) → Buf (Elt F) ((c : Thread nD τ).loc b))
    (dat : Dat τ (Elt F) Unit ℕ (UR sig nD τ) ℕ cfg8 c) (h0 : dat.arrAt 0 cfg8.N = V' main_v156) (h1 : dat.arrAt 1 cfg8.N = V' main_arg15) (h2 : dat.arrAt 2 cfg8.N = V' main_v157) (h3 : dat.arrAt 3 cfg8.N = V' main_arg17) (h4 : dat.arrAt 4 cfg8.N = V' main_v158) (h5 : dat.arrAt 5 cfg8.N = V' main_v159) :
    ∀ w : Fin 6, dat.arrAt w cfg8.N = V' (Pipeline.arrRef spec8 w)
  | 0 => h0
  | 1 => h1
  | 2 => h2
  | 3 => h3
  | 4 => h4
  | 5 => h5
  | ⟨_ + 6, h⟩ => absurd h (by omega)

theorem hF8 (hO : OutsOK m outs) (c : Dev nD) : ∀ w : Fin 6, (pdats m outs 8 c).arrAt w cfg8.N = Gen.V18 m outs c (Pipeline.arrRef spec8 w) :=
  hFgen8 (fun b => Gen.V18 m outs c b) (pdats m outs 8 c)
    (((dat8 (In8 m outs) c).arrAt_in 0 rfl _).trans ((A_eq8 (In8 m outs) c 0).trans (Gen.V18_of m outs c main_v156 (by decide)).symm))
    (((dat8 (In8 m outs) c).arrAt_in 1 rfl _).trans ((A_eq8 (In8 m outs) c 1).trans (Gen.V18_of m outs c main_arg15 (by decide)).symm))
    (((dat8 (In8 m outs) c).arrAt_in 2 rfl _).trans ((A_eq8 (In8 m outs) c 2).trans (Gen.V18_of m outs c main_v157 (by decide)).symm))
    (((dat8 (In8 m outs) c).arrAt_in 3 rfl _).trans ((A_eq8 (In8 m outs) c 3).trans (Gen.V18_of m outs c main_arg17 (by decide)).symm))
    (((dat8 (In8 m outs) c).arrAt_in 4 rfl _).trans ((A_eq8 (In8 m outs) c 4).trans (Gen.V18_of m outs c main_v158 (by decide)).symm))
    ((hO.o8_5 c).symm.trans (V18_at_5 m outs c).symm)

/-- Every other buffer holds what it held at entry. -/
theorem hrest8 (c : Dev nD) : ∀ b, b ∉ Finset.univ.image (Pipeline.arrRef spec8) → Gen.V18 m outs c b = Gen.V17 m outs c b :=
  fun b hb => Gen.V18_of m outs c b (by
    intro hmem
    simp only [List.mem_cons, List.not_mem_nil, or_false] at hmem
    rcases hmem with rfl
    · exact hb (Finset.mem_image.mpr ⟨5, Finset.mem_univ _, rfl⟩))

set_option backward.isDefEq.respectTransparency.types false in
/-- Region 8 over the thread state: entered from every unscoped buffer at the contents before it, left at the contents
    after it; its arrays split out of the unscoped buffers and put back at the exit contents; the generator register
    into the invariant and out; nothing owed; no semaphore of the kernel's own. -/
def reg8 (hO : OutsOK m outs) : Pipeline.RegionSeg (pcfgs (F := F)) Gen.adm (pdats m outs) () defs₀ Variants.none L lv 8 where
  win := launch8.win.to₀
  block_pos := launch8.block_pos
  stage_whole := launch8.stage_whole
  K := PEmpty
  osem k := k.elim
  ho := Pipeline.OwnSemFacts.none _
  hbody c := (body_obligation8 (In8 m outs) c).loose
  hwaits := Pipeline.hwaits_of_owed_zero _ _ _ _ L lv 8 fun _ _ => rfl
  pre c := iprop(StableHlo.held (c : Thread nD τ) (Pipeline.ucRefs τ sig) (Gen.V17 m outs c) ∗ R c)
  post c := iprop(StableHlo.held (c : Thread nD τ) (Pipeline.ucRefs τ sig) (Gen.V18 m outs c) ∗ R c)
  X c := iprop(∃ r, prngReg c r)
  Y c := iprop(∃ r, prngReg c r)
  Z c := Pipeline.unscopedRest (Ix := Unit) (Name := ℕ) (U := UR sig nD τ) (Lvl := ℕ) spec8 c ((In8 m outs) c)
  hentry c := by
    rw [Pipeline.ownSems0_none]
    have hsplit := Pipeline.arrays_of_unscopedBufs (p := 8) (pcfgs (F := F)) Gen.adm (pdats m outs) launch8.win launch8.arr_whole c
      ((pdats m outs 8 c).share_full fun _ => rfl) ((In8 m outs) c) fun w => A_eq8 (In8 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m outs 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) Gen.adm (Ix := Unit) (Name := ℕ) (U := UR sig nD τ) (Lvl := ℕ)
      launch8.win launch8.arr_whole c (pdats m outs) ((pdats m outs 8 c).share_full fun _ => rfl)
      ((In8 m outs) c) (fun b => Gen.V18 m outs c b) ((pdats m outs 8 c).arrAt · cfg8.N) (hF8 m outs hO c) (hrest8 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KFrameRun.lean ====
/-
  The program's frame and run from its nine regions' segment records: for any named contents of the regions' outputs
  that are what the pipelines leave, the program runs to the end with its arguments as launched and its result at the
  named contents; and such contents exist, built region by region (the buffers after a region are the buffers before
  it with the region's arrays at what its pipeline leaves).
-/
import proofs.«117300_j5643587027248_1_alg».proof.Proof.KFrameReg0
import proofs.«117300_j5643587027248_1_alg».proof.Proof.KFrameReg1
import proofs.«117300_j5643587027248_1_alg».proof.Proof.KFrameReg2
import proofs.«117300_j5643587027248_1_alg».proof.Proof.KFrameReg3
import proofs.«117300_j5643587027248_1_alg».proof.Proof.KFrameReg4
import proofs.«117300_j5643587027248_1_alg».proof.Proof.KFrameReg5
import proofs.«117300_j5643587027248_1_alg».proof.Proof.KFrameReg6
import proofs.«117300_j5643587027248_1_alg».proof.Proof.KFrameReg7
import proofs.«117300_j5643587027248_1_alg».proof.Proof.KFrameReg8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## The run and the frame -/

set_option backward.isDefEq.respectTransparency.types false in
/-- From any memory with zero counters every weakly fair execution of the program terminates, nothing faulting, and every
    final memory holds the result array at the contents named for the last region's output and each argument array as
    launched — for any named contents of the regions' outputs that are what the regions' pipelines leave. -/
theorem run_of_outs (hO : OutsOK m outs) (ρ : Dev nD → PrngReg) :
    θ_run defs (onTc (τ := τ) (main (F := F))) ⟨m, fun _ => 0, ρ⟩ (fun r => ∀ c : Dev nD,
      r.2.mem ((c.tc : Thread nD τ).loc main_v159) = outs 18 main_v159 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  run_cond m emb₁ () Variants.none L lv (fun _ _ => rfl) ρ outs (pdats m outs)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE9 := fun c => by iintro ⟨-, H⟩; iexact H)
    (reg0 m outs hO) (fun _ => .rfl) (fun _ => .rfl)
    (reg1 m outs hO) (fun _ => .rfl) (fun _ => .rfl)
    (reg2 m outs hO) (fun _ => .rfl) (fun _ => .rfl)
    (reg3 m outs hO) (fun _ => .rfl) (fun _ => .rfl)
    (reg4 m outs hO) (fun _ => .rfl) (fun _ => .rfl)
    (reg5 m outs hO) (fun _ => .rfl) (fun _ => .rfl)
    (reg6 m outs hO) (fun _ => .rfl) (fun _ => .rfl)
    (reg7 m outs hO) (fun _ => .rfl) (fun _ => .rfl)
    (reg8 m outs hO) (fun _ => .rfl) (fun _ => .rfl)

/-- The frame: the same run, the result's contents forgotten. -/
theorem frame_of_outs (hO : OutsOK m outs) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => (h c).2) (run_of_outs m outs hO ρ)

/-! ## The contents between items depend on the named contents only below the item -/
theorem V2_congr (o o' : Gen.Outs (F := F)) (h : ∀ i ≤ 2, o i = o' i) (c : Dev nD) : Gen.V2 m o c = Gen.V2 m o' c := by
  simp only [Gen.V2]; rw [h 2 le_rfl]
theorem V3_congr (o o' : Gen.Outs (F := F)) (h : ∀ i ≤ 2, o i = o' i) (c : Dev nD) : Gen.V3 m o c = Gen.V3 m o' c := by
  simp only [Gen.V3]; rw [V2_congr m o o' (fun i hi => h i (by omega)) c]
theorem V4_congr (o o' : Gen.Outs (F := F)) (h : ∀ i ≤ 4, o i = o' i) (c : Dev nD) : Gen.V4 m o c = Gen.V4 m o' c := by
  simp only [Gen.V4]; rw [V3_congr m o o' (fun i hi => h i (by omega)) c, h 4 le_rfl]
theorem V5_congr (o o' : Gen.Outs (F := F)) (h : ∀ i ≤ 4, o i = o' i) (c : Dev nD) : Gen.V5 m o c = Gen.V5 m o' c := by
  simp only [Gen.V5]; rw [V4_congr m o o' (fun i hi => h i (by omega)) c]
theorem V6_congr (o o' : Gen.Outs (F := F)) (h : ∀ i ≤ 6, o i = o' i) (c : Dev nD) : Gen.V6 m o c = Gen.V6 m o' c := by
  simp only [Gen.V6]; rw [V5_congr m o o' (fun i hi => h i (by omega)) c, h 6 le_rfl]
theorem V7_congr (o o' : Gen.Outs (F := F)) (h : ∀ i ≤ 6, o i = o' i) (c : Dev nD) : Gen.V7 m o c = Gen.V7 m o' c := by
  simp only [Gen.V7]; rw [V6_congr m o o' (fun i hi => h i (by omega)) c]
theorem V8_congr (o o' : Gen.Outs (F := F)) (h : ∀ i ≤ 8, o i = o' i) (c : Dev nD) : Gen.V8 m o c = Gen.V8 m o' c := by
  simp only [Gen.V8]; rw [V7_congr m o o' (fun i hi => h i (by omega)) c, h 8 le_rfl]
theorem V9_congr (o o' : Gen.Outs (F := F)) (h : ∀ i ≤ 8, o i = o' i) (c : Dev nD) : Gen.V9 m o c = Gen.V9 m o' c := by
  simp only [Gen.V9]; rw [V8_congr m o o' (fun i hi => h i (by omega)) c]
theorem V10_congr (o o' : Gen.Outs (F := F)) (h : ∀ i ≤ 10, o i = o' i) (c : Dev nD) : Gen.V10 m o c = Gen.V10 m o' c := by
  simp only [Gen.V10]; rw [V9_congr m o o' (fun i hi => h i (by omega)) c, h 10 le_rfl]
theorem V11_congr (o o' : Gen.Outs (F := F)) (h : ∀ i ≤ 10, o i = o' i) (c : Dev nD) : Gen.V11 m o c = Gen.V11 m o' c := by
  simp only [Gen.V11]; rw [V10_congr m o o' (fun i hi => h i (by omega)) c]
theorem V12_congr (o o' : Gen.Outs (F := F)) (h : ∀ i ≤ 12, o i = o' i) (c : Dev nD) : Gen.V12 m o c = Gen.V12 m o' c := by
  simp only [Gen.V12]; rw [V11_congr m o o' (fun i hi => h i (by omega)) c, h 12 le_rfl]
theorem V13_congr (o o' : Gen.Outs (F := F)) (h : ∀ i ≤ 12, o i = o' i) (c : Dev nD) : Gen.V13 m o c = Gen.V13 m o' c := by
  simp only [Gen.V13]; rw [V12_congr m o o' (fun i hi => h i (by omega)) c]
theorem V14_congr (o o' : Gen.Outs (F := F)) (h : ∀ i ≤ 14, o i = o' i) (c : Dev nD) : Gen.V14 m o c = Gen.V14 m o' c := by
  simp only [Gen.V14]; rw [V13_congr m o o' (fun i hi => h i (by omega)) c, h 14 le_rfl]
theorem V15_congr (o o' : Gen.Outs (F := F)) (h : ∀ i ≤ 14, o i = o' i) (c : Dev nD) : Gen.V15 m o c = Gen.V15 m o' c := by
  simp only [Gen.V15]; rw [V14_congr m o o' (fun i hi => h i (by omega)) c]
theorem V16_congr (o o' : Gen.Outs (F := F)) (h : ∀ i ≤ 16, o i = o' i) (c : Dev nD) : Gen.V16 m o c = Gen.V16 m o' c := by
  simp only [Gen.V16]; rw [V15_congr m o o' (fun i hi => h i (by omega)) c, h 16 le_rfl]
theorem V17_congr (o o' : Gen.Outs (F := F)) (h : ∀ i ≤ 16, o i = o' i) (c : Dev nD) : Gen.V17 m o c = Gen.V17 m o' c := by
  simp only [Gen.V17]; rw [V16_congr m o o' (fun i hi => h i (by omega)) c]
theorem V18_congr (o o' : Gen.Outs (F := F)) (h : ∀ i ≤ 18, o i = o' i) (c : Dev nD) : Gen.V18 m o c = Gen.V18 m o' c := by
  simp only [Gen.V18]; rw [V17_congr m o o' (fun i hi => h i (by omega)) c, h 18 le_rfl]

/-! ## The named contents exist: built region by region -/

/-- Before any region nothing is named: any contents (never read). -/
def outsS0 : Gen.Outs (F := F) := fun _ r c => m ((c : Thread nD τ).loc r)

/-- The buffers after region 0: its arrays at what its pipeline leaves, every other buffer as entered. -/
def after0 (c : Dev nD) : Valuation τ sig (Elt F) :=
  Pipeline.withArrays spec0 c (Gen.V1 m c) fun w => (dat0 (In0 m) c).arrAt w cfg0.N
/-- The named contents up to region 0. -/
def outsS1 : Gen.Outs (F := F) := Function.update (outsS0 m) 2 (fun r c => after0 m c r)

/-- The buffers after region 1: its arrays at what its pipeline leaves, every other buffer as entered. -/
def after1 (c : Dev nD) : Valuation τ sig (Elt F) :=
  Pipeline.withArrays spec1 c (Gen.V3 m (outsS1 m) c) fun w => (dat1 (In1 m (outsS1 m)) c).arrAt w cfg1.N
/-- The named contents up to region 1. -/
def outsS2 : Gen.Outs (F := F) := Function.update (outsS1 m) 4 (fun r c => after1 m c r)

/-- The buffers after region 2: its arrays at what its pipeline leaves, every other buffer as entered. -/
def after2 (c : Dev nD) : Valuation τ sig (Elt F) :=
  Pipeline.withArrays spec2 c (Gen.V5 m (outsS2 m) c) fun w => (dat2 (In2 m (outsS2 m)) c).arrAt w cfg2.N
/-- The named contents up to region 2. -/
def outsS3 : Gen.Outs (F := F) := Function.update (outsS2 m) 6 (fun r c => after2 m c r)

/-- The buffers after region 3: its arrays at what its pipeline leaves, every other buffer as entered. -/
def after3 (c : Dev nD) : Valuation τ sig (Elt F) :=
  Pipeline.withArrays spec3 c (Gen.V7 m (outsS3 m) c) fun w => (dat3 (In3 m (outsS3 m)) c).arrAt w cfg3.N
/-- The named contents up to region 3. -/
def outsS4 : Gen.Outs (F := F) := Function.update (outsS3 m) 8 (fun r c => after3 m c r)

/-- The buffers after region 4: its arrays at what its pipeline leaves, every other buffer as entered. -/
def after4 (c : Dev nD) : Valuation τ sig (Elt F) :=
  Pipeline.withArrays spec4 c (Gen.V9 m (outsS4 m) c) fun w => (dat4 (In4 m (outsS4 m)) c).arrAt w cfg4.N
/-- The named contents up to region 4. -/
def outsS5 : Gen.Outs (F := F) := Function.update (outsS4 m) 10 (fun r c => after4 m c r)

/-- The buffers after region 5: its arrays at what its pipeline leaves, every other buffer as entered. -/
def after5 (c : Dev nD) : Valuation τ sig (Elt F) :=
  Pipeline.withArrays spec5 c (Gen.V11 m (outsS5 m) c) fun w => (dat5 (In5 m (outsS5 m)) c).arrAt w cfg5.N
/-- The named contents up to region 5. -/
def outsS6 : Gen.Outs (F := F) := Function.update (outsS5 m) 12 (fun r c => after5 m c r)

/-- The buffers after region 6: its arrays at what its pipeline leaves, every other buffer as entered. -/
def after6 (c : Dev nD) : Valuation τ sig (Elt F) :=
  Pipeline.withArrays spec6 c (Gen.V13 m (outsS6 m) c) fun w => (dat6 (In6 m (outsS6 m)) c).arrAt w cfg6.N
/-- The named contents up to region 6. -/
def outsS7 : Gen.Outs (F := F) := Function.update (outsS6 m) 14 (fun r c => after6 m c r)

/-- The buffers after region 7: its arrays at what its pipeline leaves, every other buffer as entered. -/
def after7 (c : Dev nD) : Valuation τ sig (Elt F) :=
  Pipeline.withArrays spec7 c (Gen.V15 m (outsS7 m) c) fun w => (dat7 (In7 m (outsS7 m)) c).arrAt w cfg7.N
/-- The named contents up to region 7. -/
def outsS8 : Gen.Outs (F := F) := Function.update (outsS7 m) 16 (fun r c => after7 m c r)

/-- The buffers after region 8: its arrays at what its pipeline leaves, every other buffer as entered. -/
def after8 (c : Dev nD) : Valuation τ sig (Elt F) :=
  Pipeline.withArrays spec8 c (Gen.V17 m (outsS8 m) c) fun w => (dat8 (In8 m (outsS8 m)) c).arrAt w cfg8.N
/-- The named contents up to region 8. -/
def outsS9 : Gen.Outs (F := F) := Function.update (outsS8 m) 18 (fun r c => after8 m c r)

theorem outsS9_at_2 : outsS9 m 2 = (show (r : Ref sig .tc) → (c : Dev nD) → Buf (Elt F) ((c : Thread nD τ).loc r) from fun r c => after0 m c r) := by
  show outsS9 m 2 = _; unfold outsS9; rw [Function.update_of_ne (by decide)]
  show outsS8 m 2 = _; unfold outsS8; rw [Function.update_of_ne (by decide)]
  show outsS7 m 2 = _; unfold outsS7; rw [Function.update_of_ne (by decide)]
  show outsS6 m 2 = _; unfold outsS6; rw [Function.update_of_ne (by decide)]
  show outsS5 m 2 = _; unfold outsS5; rw [Function.update_of_ne (by decide)]
  show outsS4 m 2 = _; unfold outsS4; rw [Function.update_of_ne (by decide)]
  show outsS3 m 2 = _; unfold outsS3; rw [Function.update_of_ne (by decide)]
  show outsS2 m 2 = _; unfold outsS2; rw [Function.update_of_ne (by decide)]
  show outsS1 m 2 = _; unfold outsS1; rw [Function.update_self]

theorem outsS9_at_4 : outsS9 m 4 = (show (r : Ref sig .tc) → (c : Dev nD) → Buf (Elt F) ((c : Thread nD τ).loc r) from fun r c => after1 m c r) := by
  show outsS9 m 4 = _; unfold outsS9; rw [Function.update_of_ne (by decide)]
  show outsS8 m 4 = _; unfold outsS8; rw [Function.update_of_ne (by decide)]
  show outsS7 m 4 = _; unfold outsS7; rw [Function.update_of_ne (by decide)]
  show outsS6 m 4 = _; unfold outsS6; rw [Function.update_of_ne (by decide)]
  show outsS5 m 4 = _; unfold outsS5; rw [Function.update_of_ne (by decide)]
  show outsS4 m 4 = _; unfold outsS4; rw [Function.update_of_ne (by decide)]
  show outsS3 m 4 = _; unfold outsS3; rw [Function.update_of_ne (by decide)]
  show outsS2 m 4 = _; unfold outsS2; rw [Function.update_self]
theorem outsS9_below_1 : ∀ i ≤ 2, outsS9 m i = outsS1 m i := by
  intro i hi
  show outsS9 m i = _; unfold outsS9; rw [Function.update_of_ne (by omega)]
  show outsS8 m i = _; unfold outsS8; rw [Function.update_of_ne (by omega)]
  show outsS7 m i = _; unfold outsS7; rw [Function.update_of_ne (by omega)]
  show outsS6 m i = _; unfold outsS6; rw [Function.update_of_ne (by omega)]
  show outsS5 m i = _; unfold outsS5; rw [Function.update_of_ne (by omega)]
  show outsS4 m i = _; unfold outsS4; rw [Function.update_of_ne (by omega)]
  show outsS3 m i = _; unfold outsS3; rw [Function.update_of_ne (by omega)]
  show outsS2 m i = _; unfold outsS2; rw [Function.update_of_ne (by omega)]

theorem outsS9_at_6 : outsS9 m 6 = (show (r : Ref sig .tc) → (c : Dev nD) → Buf (Elt F) ((c : Thread nD τ).loc r) from fun r c => after2 m c r) := by
  show outsS9 m 6 = _; unfold outsS9; rw [Function.update_of_ne (by decide)]
  show outsS8 m 6 = _; unfold outsS8; rw [Function.update_of_ne (by decide)]
  show outsS7 m 6 = _; unfold outsS7; rw [Function.update_of_ne (by decide)]
  show outsS6 m 6 = _; unfold outsS6; rw [Function.update_of_ne (by decide)]
  show outsS5 m 6 = _; unfold outsS5; rw [Function.update_of_ne (by decide)]
  show outsS4 m 6 = _; unfold outsS4; rw [Function.update_of_ne (by decide)]
  show outsS3 m 6 = _; unfold outsS3; rw [Function.update_self]
theorem outsS9_below_2 : ∀ i ≤ 4, outsS9 m i = outsS2 m i := by
  intro i hi
  show outsS9 m i = _; unfold outsS9; rw [Function.update_of_ne (by omega)]
  show outsS8 m i = _; unfold outsS8; rw [Function.update_of_ne (by omega)]
  show outsS7 m i = _; unfold outsS7; rw [Function.update_of_ne (by omega)]
  show outsS6 m i = _; unfold outsS6; rw [Function.update_of_ne (by omega)]
  show outsS5 m i = _; unfold outsS5; rw [Function.update_of_ne (by omega)]
  show outsS4 m i = _; unfold outsS4; rw [Function.update_of_ne (by omega)]
  show outsS3 m i = _; unfold outsS3; rw [Function.update_of_ne (by omega)]

theorem outsS9_at_8 : outsS9 m 8 = (show (r : Ref sig .tc) → (c : Dev nD) → Buf (Elt F) ((c : Thread nD τ).loc r) from fun r c => after3 m c r) := by
  show outsS9 m 8 = _; unfold outsS9; rw [Function.update_of_ne (by decide)]
  show outsS8 m 8 = _; unfold outsS8; rw [Function.update_of_ne (by decide)]
  show outsS7 m 8 = _; unfold outsS7; rw [Function.update_of_ne (by decide)]
  show outsS6 m 8 = _; unfold outsS6; rw [Function.update_of_ne (by decide)]
  show outsS5 m 8 = _; unfold outsS5; rw [Function.update_of_ne (by decide)]
  show outsS4 m 8 = _; unfold outsS4; rw [Function.update_self]
theorem outsS9_below_3 : ∀ i ≤ 6, outsS9 m i = outsS3 m i := by
  intro i hi
  show outsS9 m i = _; unfold outsS9; rw [Function.update_of_ne (by omega)]
  show outsS8 m i = _; unfold outsS8; rw [Function.update_of_ne (by omega)]
  show outsS7 m i = _; unfold outsS7; rw [Function.update_of_ne (by omega)]
  show outsS6 m i = _; unfold outsS6; rw [Function.update_of_ne (by omega)]
  show outsS5 m i = _; unfold outsS5; rw [Function.update_of_ne (by omega)]
  show outsS4 m i = _; unfold outsS4; rw [Function.update_of_ne (by omega)]

theorem outsS9_at_10 : outsS9 m 10 = (show (r : Ref sig .tc) → (c : Dev nD) → Buf (Elt F) ((c : Thread nD τ).loc r) from fun r c => after4 m c r) := by
  show outsS9 m 10 = _; unfold outsS9; rw [Function.update_of_ne (by decide)]
  show outsS8 m 10 = _; unfold outsS8; rw [Function.update_of_ne (by decide)]
  show outsS7 m 10 = _; unfold outsS7; rw [Function.update_of_ne (by decide)]
  show outsS6 m 10 = _; unfold outsS6; rw [Function.update_of_ne (by decide)]
  show outsS5 m 10 = _; unfold outsS5; rw [Function.update_self]
theorem outsS9_below_4 : ∀ i ≤ 8, outsS9 m i = outsS4 m i := by
  intro i hi
  show outsS9 m i = _; unfold outsS9; rw [Function.update_of_ne (by omega)]
  show outsS8 m i = _; unfold outsS8; rw [Function.update_of_ne (by omega)]
  show outsS7 m i = _; unfold outsS7; rw [Function.update_of_ne (by omega)]
  show outsS6 m i = _; unfold outsS6; rw [Function.update_of_ne (by omega)]
  show outsS5 m i = _; unfold outsS5; rw [Function.update_of_ne (by omega)]

theorem outsS9_at_12 : outsS9 m 12 = (show (r : Ref sig .tc) → (c : Dev nD) → Buf (Elt F) ((c : Thread nD τ).loc r) from fun r c => after5 m c r) := by
  show outsS9 m 12 = _; unfold outsS9; rw [Function.update_of_ne (by decide)]
  show outsS8 m 12 = _; unfold outsS8; rw [Function.update_of_ne (by decide)]
  show outsS7 m 12 = _; unfold outsS7; rw [Function.update_of_ne (by decide)]
  show outsS6 m 12 = _; unfold outsS6; rw [Function.update_self]
theorem outsS9_below_5 : ∀ i ≤ 10, outsS9 m i = outsS5 m i := by
  intro i hi
  show outsS9 m i = _; unfold outsS9; rw [Function.update_of_ne (by omega)]
  show outsS8 m i = _; unfold outsS8; rw [Function.update_of_ne (by omega)]
  show outsS7 m i = _; unfold outsS7; rw [Function.update_of_ne (by omega)]
  show outsS6 m i = _; unfold outsS6; rw [Function.update_of_ne (by omega)]

theorem outsS9_at_14 : outsS9 m 14 = (show (r : Ref sig .tc) → (c : Dev nD) → Buf (Elt F) ((c : Thread nD τ).loc r) from fun r c => after6 m c r) := by
  show outsS9 m 14 = _; unfold outsS9; rw [Function.update_of_ne (by decide)]
  show outsS8 m 14 = _; unfold outsS8; rw [Function.update_of_ne (by decide)]
  show outsS7 m 14 = _; unfold outsS7; rw [Function.update_self]
theorem outsS9_below_6 : ∀ i ≤ 12, outsS9 m i = outsS6 m i := by
  intro i hi
  show outsS9 m i = _; unfold outsS9; rw [Function.update_of_ne (by omega)]
  show outsS8 m i = _; unfold outsS8; rw [Function.update_of_ne (by omega)]
  show outsS7 m i = _; unfold outsS7; rw [Function.update_of_ne (by omega)]

theorem outsS9_at_16 : outsS9 m 16 = (show (r : Ref sig .tc) → (c : Dev nD) → Buf (Elt F) ((c : Thread nD τ).loc r) from fun r c => after7 m c r) := by
  show outsS9 m 16 = _; unfold outsS9; rw [Function.update_of_ne (by decide)]
  show outsS8 m 16 = _; unfold outsS8; rw [Function.update_self]
theorem outsS9_below_7 : ∀ i ≤ 14, outsS9 m i = outsS7 m i := by
  intro i hi
  show outsS9 m i = _; unfold outsS9; rw [Function.update_of_ne (by omega)]
  show outsS8 m i = _; unfold outsS8; rw [Function.update_of_ne (by omega)]

theorem outsS9_at_18 : outsS9 m 18 = (show (r : Ref sig .tc) → (c : Dev nD) → Buf (Elt F) ((c : Thread nD τ).loc r) from fun r c => after8 m c r) := by
  show outsS9 m 18 = _; unfold outsS9; rw [Function.update_self]
theorem outsS9_below_8 : ∀ i ≤ 16, outsS9 m i = outsS8 m i := by
  intro i hi
  show outsS9 m i = _; unfold outsS9; rw [Function.update_of_ne (by omega)]

set_option maxHeartbeats 4000000 in
/-- The contents built region by region are what the regions' pipelines leave. -/
theorem outsS_ok : OutsOK m (outsS9 m) where
  o0_6 c := by
    rw [outsS9_at_2]
    show after0 m c main_v16_0 = _
    unfold after0
    exact Pipeline.withArrays_arr spec0 launch0.win.arr_inj c _ _ 6
  o0_7 c := by
    rw [outsS9_at_2]
    show after0 m c main_v16_1 = _
    unfold after0
    exact Pipeline.withArrays_arr spec0 launch0.win.arr_inj c _ _ 7
  o0_8 c := by
    rw [outsS9_at_2]
    show after0 m c main_v16_2 = _
    unfold after0
    exact Pipeline.withArrays_arr spec0 launch0.win.arr_inj c _ _ 8
  o1_5 c := by
    have hIn : In1 m (outsS9 m) = In1 m (outsS1 m) := by
      funext c' b; exact congrFun (V3_congr m _ _ (outsS9_below_1 m) c') _
    rw [hIn, outsS9_at_4]
    show after1 m c main_v29 = _
    unfold after1
    exact Pipeline.withArrays_arr spec1 launch1.win.arr_inj c _ _ 5
  o2_6 c := by
    have hIn : In2 m (outsS9 m) = In2 m (outsS2 m) := by
      funext c' b; exact congrFun (V5_congr m _ _ (outsS9_below_2 m) c') _
    rw [hIn, outsS9_at_6]
    show after2 m c main_v54_0 = _
    unfold after2
    exact Pipeline.withArrays_arr spec2 launch2.win.arr_inj c _ _ 6
  o2_7 c := by
    have hIn : In2 m (outsS9 m) = In2 m (outsS2 m) := by
      funext c' b; exact congrFun (V5_congr m _ _ (outsS9_below_2 m) c') _
    rw [hIn, outsS9_at_6]
    show after2 m c main_v54_1 = _
    unfold after2
    exact Pipeline.withArrays_arr spec2 launch2.win.arr_inj c _ _ 7
  o2_8 c := by
    have hIn : In2 m (outsS9 m) = In2 m (outsS2 m) := by
      funext c' b; exact congrFun (V5_congr m _ _ (outsS9_below_2 m) c') _
    rw [hIn, outsS9_at_6]
    show after2 m c main_v54_2 = _
    unfold after2
    exact Pipeline.withArrays_arr spec2 launch2.win.arr_inj c _ _ 8
  o3_5 c := by
    have hIn : In3 m (outsS9 m) = In3 m (outsS3 m) := by
      funext c' b; exact congrFun (V7_congr m _ _ (outsS9_below_3 m) c') _
    rw [hIn, outsS9_at_8]
    show after3 m c main_v67 = _
    unfold after3
    exact Pipeline.withArrays_arr spec3 launch3.win.arr_inj c _ _ 5
  o4_6 c := by
    have hIn : In4 m (outsS9 m) = In4 m (outsS4 m) := by
      funext c' b; exact congrFun (V9_congr m _ _ (outsS9_below_4 m) c') _
    rw [hIn, outsS9_at_10]
    show after4 m c main_v92_0 = _
    unfold after4
    exact Pipeline.withArrays_arr spec4 launch4.win.arr_inj c _ _ 6
  o4_7 c := by
    have hIn : In4 m (outsS9 m) = In4 m (outsS4 m) := by
      funext c' b; exact congrFun (V9_congr m _ _ (outsS9_below_4 m) c') _
    rw [hIn, outsS9_at_10]
    show after4 m c main_v92_1 = _
    unfold after4
    exact Pipeline.withArrays_arr spec4 launch4.win.arr_inj c _ _ 7
  o4_8 c := by
    have hIn : In4 m (outsS9 m) = In4 m (outsS4 m) := by
      funext c' b; exact congrFun (V9_congr m _ _ (outsS9_below_4 m) c') _
    rw [hIn, outsS9_at_10]
    show after4 m c main_v92_2 = _
    unfold after4
    exact Pipeline.withArrays_arr spec4 launch4.win.arr_inj c _ _ 8
  o5_5 c := by
    have hIn : In5 m (outsS9 m) = In5 m (outsS5 m) := by
      funext c' b; exact congrFun (V11_congr m _ _ (outsS9_below_5 m) c') _
    rw [hIn, outsS9_at_12]
    show after5 m c main_v105 = _
    unfold after5
    exact Pipeline.withArrays_arr spec5 launch5.win.arr_inj c _ _ 5
  o6_6 c := by
    have hIn : In6 m (outsS9 m) = In6 m (outsS6 m) := by
      funext c' b; exact congrFun (V13_congr m _ _ (outsS9_below_6 m) c') _
    rw [hIn, outsS9_at_14]
    show after6 m c main_v130_0 = _
    unfold after6
    exact Pipeline.withArrays_arr spec6 launch6.win.arr_inj c _ _ 6
  o6_7 c := by
    have hIn : In6 m (outsS9 m) = In6 m (outsS6 m) := by
      funext c' b; exact congrFun (V13_congr m _ _ (outsS9_below_6 m) c') _
    rw [hIn, outsS9_at_14]
    show after6 m c main_v130_1 = _
    unfold after6
    exact Pipeline.withArrays_arr spec6 launch6.win.arr_inj c _ _ 7
  o6_8 c := by
    have hIn : In6 m (outsS9 m) = In6 m (outsS6 m) := by
      funext c' b; exact congrFun (V13_congr m _ _ (outsS9_below_6 m) c') _
    rw [hIn, outsS9_at_14]
    show after6 m c main_v130_2 = _
    unfold after6
    exact Pipeline.withArrays_arr spec6 launch6.win.arr_inj c _ _ 8
  o7_5 c := by
    have hIn : In7 m (outsS9 m) = In7 m (outsS7 m) := by
      funext c' b; exact congrFun (V15_congr m _ _ (outsS9_below_7 m) c') _
    rw [hIn, outsS9_at_16]
    show after7 m c main_v143 = _
    unfold after7
    exact Pipeline.withArrays_arr spec7 launch7.win.arr_inj c _ _ 5
  o8_5 c := by
    have hIn : In8 m (outsS9 m) = In8 m (outsS8 m) := by
      funext c' b; exact congrFun (V17_congr m _ _ (outsS9_below_8 m) c') _
    rw [hIn, outsS9_at_18]
    show after8 m c main_v159 = _
    unfold after8
    exact Pipeline.withArrays_arr spec8 launch8.win.arr_inj c _ _ 5

/-! ## The program's frame and run -/

/-- THE FRAME, at any float instance: from any memory with zero counters every weakly fair execution of the program
    terminates, nothing faulting, and every final memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of_outs m (outsS9 m) (outsS_ok m) ρ

/-- THE RUN: the same, and the result array ends at what the last region's pipeline leaves in it. -/
theorem run (ρ : Dev nD → PrngReg) :
    θ_run defs (onTc (τ := τ) (main (F := F))) ⟨m, fun _ => 0, ρ⟩ (fun r => ∀ c : Dev nD,
      r.2.mem ((c.tc : Thread nD τ).loc main_v159) = outsS9 m 18 main_v159 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  run_of_outs m (outsS9 m) (outsS_ok m) ρ

end Cert.Kernel.Hand

end
-- ==== Proof.RunCond.lean ====
/-
  The program's run with its result named. The generated conditional frame gives, from one segment record per region,
  that the program runs to the end leaving its arguments as launched; the same argument also reads the result array off
  the last thread state, where it sits at the contents named for what the last region leaves in it.
-/
import proofs.«117300_j5643587027248_1_alg».proof.Proof.Gen.KernelIdeal.Regions

set_option maxRecDepth 1700

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The program's run from its regions' records, with the result's contents named: as the conditional frame, and in
    addition every final memory holds the result array at the contents named for what the last region leaves in it. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 9) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 10 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE9 : ∀ c : Dev nD, E 9 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V15 m outs c) ∗ E 7 c) ⊢ R7.pre c)
    (hpost7 : ∀ c : Dev nD, R7.post c ⊢ iprop(StableHlo.held (c : Thread nD τ) (Pipeline.ucRefs τ sig) (V16 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V17 m outs c) ∗ E 8 c) ⊢ R8.pre c)
    (hpost8 : ∀ c : Dev nD, R8.post c ⊢ iprop(StableHlo.held (c : Thread nD τ) (Pipeline.ucRefs τ sig) (V18 m outs c) ∗ E 9 c)) :
    θ_run defs (onTc (τ := τ) (main (F := F))) ⟨m, fun _ => 0, ρ⟩ (fun r => ∀ c : Dev nD,
      r.2.mem ((c.tc : Thread nD τ).loc main_v159) = outs 18 main_v159 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8)
    (fun c Q => by
      rewrite [main_chain c, Seg.run_eq_chain,
        show (segs m outs 𝒱₀ L lv E ι pdats R0 R1 R2 R3 R4 R5 R6 R7 R8 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V18 m outs c))
    (hch := fun c => ⟨.rfl, hpre0 c, hpost0 c, hpre1 c, hpost1 c, hpre2 c, hpost2 c, hpre3 c, hpost3 c, hpre4 c, hpost4 c, hpre5 c, hpost5 c, hpre6 c, hpost6 c, hpre7 c, hpost7 c, hpre8 c, (hpost8 c).trans (sep_mono .rfl (hE9 c))⟩)
    (hinit := ?_) (QY := fun c s => s.mem ((c.tc : Thread nD τ).loc main_v159) = outs 18 main_v159 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V18 m outs c) s') $$ [Hh HSI]
    · isplitl [Hh] <;> iassumption
    icases Hr with ⟨%h, HSI⟩
    imodintro
    isplitr
    · ipureintro
      exact ⟨(h (Proc.devRef .tc main_v159) (Finset.mem_filter.mpr ⟨StableHlo.devRef_mem_tcRefs main_v159, by decide⟩)).trans (by simp only [V18]; rw [Function.update_self]),
        (h (Proc.devRef .tc main_arg0) (Finset.mem_filter.mpr ⟨StableHlo.devRef_mem_tcRefs main_arg0, by decide⟩)).trans (V18_main_arg0 m outs c),
        (h (Proc.devRef .tc main_arg1) (Finset.mem_filter.mpr ⟨StableHlo.devRef_mem_tcRefs main_arg1, by decide⟩)).trans (V18_main_arg1 m outs c),
        (h (Proc.devRef .tc main_arg2) (Finset.mem_filter.mpr ⟨StableHlo.devRef_mem_tcRefs main_arg2, by decide⟩)).trans (V18_main_arg2 m outs c),
        (h (Proc.devRef .tc main_arg3) (Finset.mem_filter.mpr ⟨StableHlo.devRef_mem_tcRefs main_arg3, by decide⟩)).trans (V18_main_arg3 m outs c),
        (h (Proc.devRef .tc main_arg4) (Finset.mem_filter.mpr ⟨StableHlo.devRef_mem_tcRefs main_arg4, by decide⟩)).trans (V18_main_arg4 m outs c),
        (h (Proc.devRef .tc main_arg5) (Finset.mem_filter.mpr ⟨StableHlo.devRef_mem_tcRefs main_arg5, by decide⟩)).trans (V18_main_arg5 m outs c),
        (h (Proc.devRef .tc main_arg6) (Finset.mem_filter.mpr ⟨StableHlo.devRef_mem_tcRefs main_arg6, by decide⟩)).trans (V18_main_arg6 m outs c),
        (h (Proc.devRef .tc main_arg7) (Finset.mem_filter.mpr ⟨StableHlo.devRef_mem_tcRefs main_arg7, by decide⟩)).trans (V18_main_arg7 m outs c),
        (h (Proc.devRef .tc main_arg8) (Finset.mem_filter.mpr ⟨StableHlo.devRef_mem_tcRefs main_arg8, by decide⟩)).trans (V18_main_arg8 m outs c),
        (h (Proc.devRef .tc main_arg9) (Finset.mem_filter.mpr ⟨StableHlo.devRef_mem_tcRefs main_arg9, by decide⟩)).trans (V18_main_arg9 m outs c),
        (h (Proc.devRef .tc main_arg10) (Finset.mem_filter.mpr ⟨StableHlo.devRef_mem_tcRefs main_arg10, by decide⟩)).trans (V18_main_arg10 m outs c),
        (h (Proc.devRef .tc main_arg11) (Finset.mem_filter.mpr ⟨StableHlo.devRef_mem_tcRefs main_arg11, by decide⟩)).trans (V18_main_arg11 m outs c),
        (h (Proc.devRef .tc main_arg12) (Finset.mem_filter.mpr ⟨StableHlo.devRef_mem_tcRefs main_arg12, by decide⟩)).trans (V18_main_arg12 m outs c),
        (h (Proc.devRef .tc main_arg13) (Finset.mem_filter.mpr ⟨StableHlo.devRef_mem_tcRefs main_arg13, by decide⟩)).trans (V18_main_arg13 m outs c),
        (h (Proc.devRef .tc main_arg14) (Finset.mem_filter.mpr ⟨StableHlo.devRef_mem_tcRefs main_arg14, by decide⟩)).trans (V18_main_arg14 m outs c),
        (h (Proc.devRef .tc main_arg15) (Finset.mem_filter.mpr ⟨StableHlo.devRef_mem_tcRefs main_arg15, by decide⟩)).trans (V18_main_arg15 m outs c),
        (h (Proc.devRef .tc main_arg16) (Finset.mem_filter.mpr ⟨StableHlo.devRef_mem_tcRefs main_arg16, by decide⟩)).trans (V18_main_arg16 m outs c),
        (h (Proc.devRef .tc main_arg17) (Finset.mem_filter.mpr ⟨StableHlo.devRef_mem_tcRefs main_arg17, by decide⟩)).trans (V18_main_arg17 m outs c),
        (h (Proc.devRef .tc main_arg18) (Finset.mem_filter.mpr ⟨StableHlo.devRef_mem_tcRefs main_arg18, by decide⟩)).trans (V18_main_arg18 m outs c)⟩
    · iexact HSI

end Cert.KernelIdeal.Hand

end
-- ==== Proof.RegionMlp0.lean ====
/-
  The layer-0 perceptron region (z = x + agg; h = relu(relu(z·w1 + b1)·w2 + b2), stored whole per point; and two
  one-row outputs, the column sums of h and of h·h, reset at the first grid point and accumulated over the twenty
  points of 5000 rows each), over nine windows: the rows' blocks of x and agg, the four parameter blocks (one whole
  block each, the same at every point), the output rows' block, and the two one-row accumulators. Stated at the buffer
  contents the region is entered from: each window's block at a point; the body's triple at a point that resets the
  accumulators and at one that carries them, the pieces each output's buffer ends with being the witness the run finds;
  what the outputs hold point by point; the proof data (arrays as entered; inputs left in place; the outputs at the
  point-by-point contents; nothing owed) and the body obligation.
-/
import proofs.«117300_j5643587027248_1_alg».proof.Proof.Gen.KernelIdeal.Launch
import proofs.«117300_j5643587027248_1_alg».proof.Proof.Gen.KernelIdeal.Skeleton
import proofs.«117300_j5643587027248_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's conditional (is this the first row block?), from the grid coordinates. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val % 20 = 0 :=
  (by decide +kernel : ∀ t : Fin grid0.N, cond0_0 (grid0.coords t) ↔ t.val % 20 = 0)

/-! ## The staging memrefs -/

/-- One staging buffer of each output window, through which its contents are stated (the choice does not matter). -/
abbrev VO0_6 : View sig .tc .vmem S5000x128 .f32 := (Memref.whole cc0_stg6_0 : Memref sig .tc .vmem S5000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view
/-- Each window's current staging memref at point `t`, spelled as the pipeline passes it, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)

/-! ## The body's triple, case by case -/

set_option maxHeartbeats 4000000 in
/-- What the body's stores leave in each output's staging memref, as pieces (last first), at a point where the
    accumulators are reset (the conditional taken), with the proof that on whole staging memrefs — the inputs' at given
    contents, the outputs' at anything — the body runs to the continuation holding the inputs' as they were and each
    output's buffer with its pieces written. The pieces are the witness the run finds. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)) (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mlp_kernel_eq_skeleton]; unfold cc0__mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- The same at a point where the accumulators are carried (the conditional not taken): the two accumulator outputs'
    buffers at the running contents `xo7`, `xo8` the point before left. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    Σ' (L6 : List (View.Piece (Elt F) S5000x128 .f32)) (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mlp_kernel_eq_skeleton]; unfold cc0__mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

/-! ## What each case leaves in the outputs' buffers -/

/-- Case A's pieces for output 6 tile its block (checked by evaluating them), so they cover it. -/
theorem cover0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).1 S5000x128.size (by sl_kernel_rfl) y

/-- What case A leaves in output 6's staging buffer: its pieces read back over junk. -/
def out0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4 x5).1)

/-- Case A's pieces for output 7 tile its block (checked by evaluating them), so they cover it. -/
theorem cover0_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.1 S1x128.size (by sl_kernel_rfl) y

/-- What case A leaves in output 7's staging buffer: its pieces read back over junk. -/
def out0_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5).2.1)

/-- Case A's pieces for output 8 tile its block (checked by evaluating them), so they cover it. -/
theorem cover0_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.2.1 S1x128.size (by sl_kernel_rfl) y

/-- What case A leaves in output 8's staging buffer: its pieces read back over junk. -/
def out0_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 hc0 x0 x1 x2 x3 x4 x5).2.2.1)

/-- Case B's pieces for output 6 tile its block (checked by evaluating them), so they cover it. -/
theorem cover0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S5000x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).1 S5000x128.size (by sl_kernel_rfl) y

/-- What case B leaves in output 6's staging buffer: its pieces read back over junk. -/
def out0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S5000x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 x4 x5 xo7 xo8).1)

/-- Case B's pieces for output 7 tile its block (checked by evaluating them), so they cover it. -/
theorem cover0_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).2.1 S1x128.size (by sl_kernel_rfl) y

/-- What case B leaves in output 7's staging buffer: its pieces read back over junk. -/
def out0_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S1x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 xo7 xo8).2.1)

/-- Case B's pieces for output 8 tile its block (checked by evaluating them), so they cover it. -/
theorem cover0_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S1x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xo7 xo8).2.2.1 S1x128.size (by sl_kernel_rfl) y

/-- What case B leaves in output 8's staging buffer: its pieces read back over junk. -/
def out0_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S1x128 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 hc0 x0 x1 x2 x3 x4 x5 xo7 xo8).2.2.1)

/-! ## What the outputs hold after each point -/

/-- The accumulation. What the outputs' staging buffers hold after the body at position `n` (a tuple, in window order):
    the case the closed form selects at `n`, run at the point's memrefs and input blocks, the two accumulators at what
    this leaves at `n - 1` when they are carried (their buffers are not written back between). -/
def outsAt0 (c : Dev nD) : (n : ℕ) → n < cfg0.N → Vec F S5000x128 .f32 × Vec F S1x128 .f32 × Vec F S1x128 .f32
  | 0, hn =>
      (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
       out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
       out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 20 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
       out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
       out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2,
       out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2,
       out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.1 (outsAt0 c n (Nat.lt_of_succ_lt hn)).2.2)

/-- `outsAt0` at a point that resets the accumulators: that case's contents. -/
theorem outsAt0_A (c : Dev nD) (t : Fin cfg0.N) (h0 : t.val % 20 = 0) :
    outsAt0 V c t.val t.isLt =
      (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
       out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
       out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans rfl

/-- `outsAt0` at a point that carries them: that case's contents, over what the point before left. -/
theorem outsAt0_B (c : Dev nD) (t : Fin cfg0.N) (h0 : ¬t.val % 20 = 0) :
    outsAt0 V c t.val t.isLt =
      (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2,
       out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2,
       out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt0`; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- At a point that carries the accumulators, output 7's current staging buffer holds what the body left at the point
    before: the point is not the first, the buffer was not written back between, the window is live and uncut. -/
theorem before0_7_B (c : Dev nD) (t : Fin cfg0.N) (h0 : ¬t.val % 20 = 0) (d) :
    (dat0 V c).before 7 t d = (outsAt0 V c (t.val - 1) (Nat.lt_of_le_of_lt (Nat.sub_le _ _) t.isLt)).2.1 := by
  have hN : t.val < 20 := lt_of_lt_of_eq t.isLt (show cfg0.N = 20 from N_0)
  rw [Dat.before_out_kept _ 7 rfl t (by omega) (Bool.eq_false_iff.mpr fun h => by have := (flush0_7 _).mp h; dsimp only at this; omega)
    (fun _ => rfl) (fun _ _ => rfl)]
  dsimp only [dat0]

/-- At a point that carries the accumulators, output 8's current staging buffer holds what the body left at the point
    before: the point is not the first, the buffer was not written back between, the window is live and uncut. -/
theorem before0_8_B (c : Dev nD) (t : Fin cfg0.N) (h0 : ¬t.val % 20 = 0) (d) :
    (dat0 V c).before 8 t d = (outsAt0 V c (t.val - 1) (Nat.lt_of_le_of_lt (Nat.sub_le _ _) t.isLt)).2.2 := by
  have hN : t.val < 20 := lt_of_lt_of_eq t.isLt (show cfg0.N = 20 from N_0)
  rw [Dat.before_out_kept _ 8 rfl t (by omega) (Bool.eq_false_iff.mpr fun h => by have := (flush0_8 _).mp h; dsimp only at this; omega)
    (fun _ => rfl) (fun _ _ => rfl)]
  dsimp only [dat0]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 4000000 in
/-- The body at any point: the inputs' memrefs hold their blocks; the closed form says which case the point is in; at a
    point that carries the accumulators their buffers hold what the point before left; so the case's run applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  have hN : t.val < 20 := lt_of_lt_of_eq t.isLt (show cfg0.N = 20 from N_0)
  by_cases h0 : t.val % 20 = 0
  · rw [outsAt0_A V c t h0]
    unfold out0_A_6 out0_A_7 out0_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _)
    unfold owns; iexists _; isplitr
    swap; · iexact H8
    ipureintro; exact View.read_writes_of_cover _ _ _ _ _ (cover0_A_8 c _ _ _ _ _ _ _ _ _ _ _ _ _ _ _ _ _ _ _ _ _ _ _ _ _ _)
  · rw [outsAt0_B V c t h0]
    simp only [before0_7_B V c t h0, before0_8_B V c t h0]
    unfold out0_B_6 out0_B_7 out0_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_B c (grid0.coords t) _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _)
    unfold owns; iexists _; isplitr
    swap; · iexact H8
    ipureintro; exact View.read_writes_of_cover _ _ _ _ _ (cover0_B_8 c _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.RegionNorm1.lean ====
/-
  The normalising region of layer 0 (out = (h − mean) · rsqrt(var + ε) · γ + β, entry by entry), twenty grid points
  of 5000 rows each over six windows: the rows' block of h, the four one-row statistics and parameters (mean, var,
  γ, β: one whole block each, the same at every point) and the output's rows. Stated at the buffer contents the
  region is entered from: each window's block at a point, what the body leaves in the output's staging buffer (its
  one store, of the whole block), the body's triple, the proof data (arrays as entered; inputs left in place; the
  output at the store's value; nothing owed) and the body obligation.
-/
import proofs.«117300_j5643587027248_1_alg».proof.Proof.Gen.KernelIdeal.Launch
import proofs.«117300_j5643587027248_1_alg».proof.Proof.Gen.KernelIdeal.Skeleton
import proofs.«117300_j5643587027248_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer: its one store, of the whole block -/

def out1_5 (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k1_pay1 (View.ld x2 (Rect.unit (s := S1x128) ![0, 0] S1x128.size inb_S1x128_S1x128_0_0)) (View.ld x0 (Rect.unit (s := S5000x128) ![0, 0] S5000x128.size inb_S5000x128_S5000x128_0_0)) (View.ld x1 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

/-- The store takes the whole buffer, so it covers it. -/
theorem cover1_5 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

/-! ## The body's triple -/

set_option maxHeartbeats 1000000 in
/-- The body on whole staging memrefs, the inputs' at given contents and the output's at anything, runs to the
    continuation holding the inputs' as they were and the output's at `out1_5` of the inputs'. -/
theorem sound_kernel1 (c : Dev nD) (E : Set ℕ) (i : grid1.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1__norm_kernel i arg0 harg0 arg1 harg1 arg2 harg2 arg3 harg3 arg4 harg4 arg5 harg5) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t` each
    input's buffer at its block and the output's at `out1_5` of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RegionMlp2.lean ====
/-
  The layer-1 perceptron region (z = x + agg; h = relu(relu(z·w1 + b1)·w2 + b2), stored whole per point; and two
  one-row outputs, the column sums of h and of h·h, reset at the first grid point and accumulated over the twenty
  points of 5000 rows each), over nine windows: the rows' blocks of x and agg, the four parameter blocks (one whole
  block each, the same at every point), the output rows' block, and the two one-row accumulators. Stated at the buffer
  contents the region is entered from: each window's block at a point; the body's triple at a point that resets the
  accumulators and at one that carries them, the pieces each output's buffer ends with being the witness the run finds;
  what the outputs hold point by point; the proof data (arrays as entered; inputs left in place; the outputs at the
  point-by-point contents; nothing owed) and the body obligation.
-/
import proofs.«117300_j5643587027248_1_alg».proof.Proof.Gen.KernelIdeal.Launch
import proofs.«117300_j5643587027248_1_alg».proof.Proof.Gen.KernelIdeal.Skeleton
import proofs.«117300_j5643587027248_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is the entry contents and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is the entry contents and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's conditional (is this the first row block?), from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 20 = 0 :=
  (by decide +kernel : ∀ t : Fin grid2.N, cond2_0 (grid2.coords t) ↔ t.val % 20 = 0)

/-! ## The staging memrefs -/

/-- One staging buffer of each output window, through which its contents are stated (the choice does not matter). -/
abbrev VO2_6 : View sig .tc .vmem S5000x128 .f32 := (Memref.whole cc2_stg6_0 : Memref sig .tc .vmem S5000x128 .f32).view
abbrev VO2_7 : View sig .tc .vmem S1x128 .f32 := (Memref.whole cc2_stg7_0 : Memref sig .tc .vmem S1x128 .f32).view
abbrev VO2_8 : View sig .tc .vmem S1x128 .f32 := (Memref.whole cc2_stg8_0 : Memref sig .tc .vmem S1x128 .f32).view
/-- Each window's current staging memref at point `t`, spelled as the pipeline passes it, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)

/-! ## The body's triple, case by case -/

set_option maxHeartbeats 4000000 in
/-- What the body's stores leave in each output's staging memref, as pieces (last first), at a point where the
    accumulators are reset (the conditional taken), with the proof that on whole staging memrefs — the inputs' at given
    contents, the outputs' at anything — the body runs to the continuation holding the inputs' as they were and each
    output's buffer with its pieces written. The pieces are the witness the run finds. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)) (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__mlp_kernel_eq_skeleton]; unfold cc2__mlp_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- The same at a point where the accumulators are carried (the conditional not taken): the two accumulator outputs'
    buffers at the running contents `xo7`, `xo8` the point before left. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    Σ' (L6 : List (View.Piece (Elt F) S5000x128 .f32)) (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc2__mlp_kernel_eq_skeleton]; unfold cc2__mlp_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

/-! ## What each case leaves in the outputs' buffers -/

/-- Case A's pieces for output 6 tile its block (checked by evaluating them), so they cover it. -/
theorem cover2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun2_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).1 S5000x128.size (by sl_kernel_rfl) y

/-- What case A leaves in output 6's staging buffer: its pieces read back over junk. -/
def out2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 hc0 x0 x1 x2 x3 x4 x5).1)

/-- Case A's pieces for output 7 tile its block (checked by evaluating them), so they cover it. -/
theorem cover2_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).2.1 S1x128.size (by sl_kernel_rfl) y

/-- What case A leaves in output 7's staging buffer: its pieces read back over junk. -/
def out2_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 hc0 x0 x1 x2 x3 x4 x5).2.1)

/-- Case A's pieces for output 8 tile its block (checked by evaluating them), so they cover it. -/
theorem cover2_A_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun2_A c i arg1 harg1 arg2 harg2 arg3 harg3 arg4 harg4 arg5 harg5 arg6 harg6 arg7 harg7 arg8 harg8 arg9 harg9 hc0 x0 x1 x2 x3 x4 x5).2.2.1 S1x128.size (by sl_kernel_rfl) y

/-- What case A leaves in output 8's staging buffer: its pieces read back over junk. -/
def out2_A_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 hc0 x0 x1 x2 x3 x4 x5).2.2.1)

/-- Case B's pieces for output 6 tile its block (checked by evaluating them), so they cover it. -/
theorem cover2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S5000x128.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).1 S5000x128.size (by sl_kernel_rfl) y

/-- What case B leaves in output 6's staging buffer: its pieces read back over junk. -/
def out2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S5000x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 hc0 x0 x1 x2 x3 x4 x5 xo7 xo8).1)

/-- Case B's pieces for output 7 tile its block (checked by evaluating them), so they cover it. -/
theorem cover2_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).2.1 S1x128.size (by sl_kernel_rfl) y

/-- What case B leaves in output 7's staging buffer: its pieces read back over junk. -/
def out2_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S1x128 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 hc0 x0 x1 x2 x3 x4 x5 xo7 xo8).2.1)

/-- Case B's pieces for output 8 tile its block (checked by evaluating them), so they cover it. -/
theorem cover2_B_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S1x128.Idx) :
    ∃ pc ∈ (kernelRun2_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun2_B c i arg1 harg1 arg2 harg2 arg3 harg3 arg4 harg4 arg5 harg5 arg6 harg6 arg7 harg7 arg8 harg8 arg9 harg9 hc0 x0 x1 x2 x3 x4 x5 xo7 xo8).2.2.1 S1x128.size (by sl_kernel_rfl) y

/-- What case B leaves in output 8's staging buffer: its pieces read back over junk. -/
def out2_B_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S1x128 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 hc0 x0 x1 x2 x3 x4 x5 xo7 xo8).2.2.1)

/-! ## What the outputs hold after each point -/

/-- The accumulation. What the outputs' staging buffers hold after the body at position `n` (a tuple, in window order):
    the case the closed form selects at `n`, run at the point's memrefs and input blocks, the two accumulators at what
    this leaves at `n - 1` when they are carried (their buffers are not written back between). -/
def outsAt2 (c : Dev nD) : (n : ℕ) → n < cfg2.N → Vec F S5000x128 .f32 × Vec F S1x128 .f32 × Vec F S1x128 .f32
  | 0, hn =>
      (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
       out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
       out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 20 = 0 then
      (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
       out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩),
       out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2,
       out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2,
       out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.1 (outsAt2 c n (Nat.lt_of_succ_lt hn)).2.2)

/-- `outsAt2` at a point that resets the accumulators: that case's contents. -/
theorem outsAt2_A (c : Dev nD) (t : Fin cfg2.N) (h0 : t.val % 20 = 0) :
    outsAt2 V c t.val t.isLt =
      (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
       out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
       out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans rfl

/-- `outsAt2` at a point that carries them: that case's contents, over what the point before left. -/
theorem outsAt2_B (c : Dev nD) (t : Fin cfg2.N) (h0 : ¬t.val % 20 = 0) :
    outsAt2 V c t.val t.isLt =
      (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2,
       out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2,
       out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt2`; the scoped rest and the generator register untouched;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- At a point that carries the accumulators, output 7's current staging buffer holds what the body left at the point
    before: the point is not the first, the buffer was not written back between, the window is live and uncut. -/
theorem before2_7_B (c : Dev nD) (t : Fin cfg2.N) (h0 : ¬t.val % 20 = 0) (d) :
    (dat2 V c).before 7 t d = (outsAt2 V c (t.val - 1) (Nat.lt_of_le_of_lt (Nat.sub_le _ _) t.isLt)).2.1 := by
  have hN : t.val < 20 := lt_of_lt_of_eq t.isLt (show cfg2.N = 20 from N_2)
  rw [Dat.before_out_kept _ 7 rfl t (by omega) (Bool.eq_false_iff.mpr fun h => by have := (flush2_7 _).mp h; dsimp only at this; omega)
    (fun _ => rfl) (fun _ _ => rfl)]
  dsimp only [dat2]

/-- At a point that carries the accumulators, output 8's current staging buffer holds what the body left at the point
    before: the point is not the first, the buffer was not written back between, the window is live and uncut. -/
theorem before2_8_B (c : Dev nD) (t : Fin cfg2.N) (h0 : ¬t.val % 20 = 0) (d) :
    (dat2 V c).before 8 t d = (outsAt2 V c (t.val - 1) (Nat.lt_of_le_of_lt (Nat.sub_le _ _) t.isLt)).2.2 := by
  have hN : t.val < 20 := lt_of_lt_of_eq t.isLt (show cfg2.N = 20 from N_2)
  rw [Dat.before_out_kept _ 8 rfl t (by omega) (Bool.eq_false_iff.mpr fun h => by have := (flush2_8 _).mp h; dsimp only at this; omega)
    (fun _ => rfl) (fun _ _ => rfl)]
  dsimp only [dat2]

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t))

set_option maxHeartbeats 4000000 in
/-- The body at any point: the inputs' memrefs hold their blocks; the closed form says which case the point is in; at a
    point that carries the accumulators their buffers hold what the point before left; so the case's run applies; the
    invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  have hN : t.val < 20 := lt_of_lt_of_eq t.isLt (show cfg2.N = 20 from N_2)
  by_cases h0 : t.val % 20 = 0
  · rw [outsAt2_A V c t h0]
    unfold out2_A_6 out2_A_7 out2_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover2_A_7 c _ _ _ _ _ _ _ _ _ _ _ _ _ _ _ _ _ _ _ _ _ _ _ _ _ _)
    unfold owns; iexists _; isplitr
    swap; · iexact H8
    ipureintro; exact View.read_writes_of_cover _ _ _ _ _ (cover2_A_8 c _ _ _ _ _ _ _ _ _ _ _ _ _ _ _ _ _ _ _ _ _ _ _ _ _ _)
  · rw [outsAt2_B V c t h0]
    simp only [before2_7_B V c t h0, before2_8_B V c t h0]
    unfold out2_B_6 out2_B_7 out2_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_B c (grid2.coords t) _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover2_B_7 c _ _ _ _ _ _ _ _ _ _ _ _ _ _ _ _ _ _ _ _ _ _ _ _ _ _ _ _)
    unfold owns; iexists _; isplitr
    swap; · iexact H8
    ipureintro; exact View.read_writes_of_cover _ _ _ _ _ (cover2_B_8 c _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.RegionNorm3.lean ====
/-
  The normalising region of layer 1 (out = (h − mean) · rsqrt(var + ε) · γ + β, entry by entry), twenty grid points
  of 5000 rows each over six windows: the rows' block of h, the four one-row statistics and parameters (mean, var,
  γ, β: one whole block each, the same at every point) and the output's rows. Stated at the buffer contents the
  region is entered from: each window's block at a point, what the body leaves in the output's staging buffer (its
  one store, of the whole block), the body's triple, the proof data (arrays as entered; inputs left in place; the
  output at the store's value; nothing owed) and the body obligation.
-/
import proofs.«117300_j5643587027248_1_alg».proof.Proof.Gen.KernelIdeal.Launch
import proofs.«117300_j5643587027248_1_alg».proof.Proof.Gen.KernelIdeal.Skeleton
import proofs.«117300_j5643587027248_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is the entry contents and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data
    whose array is the entry contents and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves in the output window's buffer: its one store, of the whole block -/

def out3_5 (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k3_pay1 (View.ld x2 (Rect.unit (s := S1x128) ![0, 0] S1x128.size inb_S1x128_S1x128_0_0)) (View.ld x0 (Rect.unit (s := S5000x128) ![0, 0] S5000x128.size inb_S5000x128_S5000x128_0_0)) (View.ld x1 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

/-- The store takes the whole buffer, so it covers it. -/
theorem cover3_5 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

/-! ## The body's triple -/

set_option maxHeartbeats 1000000 in
/-- The body on whole staging memrefs, the inputs' at given contents and the output's at anything, runs to the
    continuation holding the inputs' as they were and the output's at `out3_5` of the inputs'. -/
theorem sound_kernel3 (c : Dev nD) (E : Set ℕ) (i : grid3.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out3_5 x0 x1 x2 x3 x4)) -∗ K ⟨⟩))
      ⊢ wp frame (wpE (defs₀ (F := F)) Variants.none c none) E (cc3__norm_kernel i arg0 harg0 arg1 harg1 arg2 harg2 arg3 harg3 arg4 harg4 arg5 harg5) K := by
  simp only [cc3__norm_kernel_eq_skeleton]; unfold cc3__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of this pipeline on core `c`: the arrays as the region finds them; after the body at point `t` each
    input's buffer at its block and the output's at `out3_5` of the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the triple applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.RegionMlp4.lean ====
/-
  The layer-2 perceptron region (z = x + agg; h = relu(relu(z·w1 + b1)·w2 + b2), stored whole per point; and two
  one-row outputs, the column sums of h and of h·h, reset at the first grid point and accumulated over the twenty
  points of 5000 rows each), over nine windows: the rows' blocks of x and agg, the four parameter blocks (one whole
  block each, the same at every point), the output rows' block, and the two one-row accumulators. Stated at the buffer
  contents the region is entered from: each window's block at a point; the body's triple at a point that resets the
  accumulators and at one that carries them, the pieces each output's buffer ends with being the witness the run finds;
  what the outputs hold point by point; the proof data (arrays as entered; inputs left in place; the outputs at the
  point-by-point contents; nothing owed) and the body obligation.
-/
import proofs.«117300_j5643587027248_1_alg».proof.Proof.Gen.KernelIdeal.Launch
import proofs.«117300_j5643587027248_1_alg».proof.Proof.Gen.KernelIdeal.Skeleton
import proofs.«117300_j5643587027248_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is the entry contents and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is the entry contents and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof data
    whose array is the entry contents and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof data
    whose array is the entry contents and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof data
    whose array is the entry contents and whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch condition -/

/-- The condition of the body's conditional (is this the first row block?), from the grid coordinates. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val % 20 = 0 :=
  (by decide +kernel : ∀ t : Fin grid4.N, cond4_0 (grid4.coords t) ↔ t.val % 20 = 0)

/-! ## The staging memrefs -/

/-- One staging buffer of each output window, through which its contents are stated (the choice does not matter). -/
abbrev VO4_6 : View sig .tc .vmem S5000x128 .f32 := (Memref.whole cc4_stg6_0 : Memref sig .tc .vmem S5000x128 .f32).view
abbrev VO4_7 : View sig .tc .vmem S1x128 .f32 := (Memref.whole cc4_stg7_0 : Memref sig .tc .vmem S1x128 .f32).view
abbrev VO4_8 : View sig .tc .vmem S1x128 .f32 := (Memref.whole cc4_stg8_0 : Memref sig .tc .vmem S1x128 .f32).view
/-- Each window's current staging memref at point `t`, spelled as the pipeline passes it, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S5000x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)

/-! ## The body's triple, case by case -/

set_option maxHeartbeats 4000000 in
/-- What the body's stores leave in each output's staging memref, as pieces (last first), at a point where the
    accumulators are reset (the conditional taken), with the proof that on whole staging memrefs — the inputs' at given
    contents, the outputs' at anything — the body runs to the continuation holding the inputs' as they were and each
    output's buffer with its pieces written. The pieces are the witness the run finds. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)) (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc4__mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__mlp_kernel_eq_skeleton]; unfold cc4__mlp_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- The same at a point where the accumulators are carried (the conditional not taken): the two accumulator outputs'
    buffers at the running contents `xo7`, `xo8` the point before left. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    Σ' (L6 : List (View.Piece (Elt F) S5000x128 .f32)) (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc4__mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc4__mlp_kernel_eq_skeleton]; unfold cc4__mlp_kernel_skel
    simp only [k4_part1_eq_skeleton]; unfold k4_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

/-! ## What each case leaves in the outputs' buffers -/

/-- Case A's pieces for output 6 tile its block (checked by evaluating them), so they cover it. -/
theorem cover4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun4_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).1 S5000x128.size (by sl_kernel_rfl) y

/-- What case A leaves in output 6's staging buffer: its pieces read back over junk. -/
def out4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 hc0 x0 x1 x2 x3 x4 x5).1)

/-- Case A's pieces for output 7 tile its block (checked by evaluating them), so they cover it. -/
theorem cover4_A_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).2.1 S1x128.size (by sl_kernel_rfl) y

/-- What case A leaves in output 7's staging buffer: its pieces read back over junk. -/
def out4_A_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 hc0 x0 x1 x2 x3 x4 x5).2.1)

/-- Case A's pieces for output 8 tile its block (checked by evaluating them), so they cover it. -/
theorem cover4_A_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun4_A c i arg1 harg1 arg2 harg2 arg3 harg3 arg4 harg4 arg5 harg5 arg6 harg6 arg7 harg7 arg8 harg8 arg9 harg9 hc0 x0 x1 x2 x3 x4 x5).2.2.1 S1x128.size (by sl_kernel_rfl) y

/-- What case A leaves in output 8's staging buffer: its pieces read back over junk. -/
def out4_A_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 hc0 x0 x1 x2 x3 x4 x5).2.2.1)

/-- Case B's pieces for output 6 tile its block (checked by evaluating them), so they cover it. -/
theorem cover4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S5000x128.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).1 S5000x128.size (by sl_kernel_rfl) y

/-- What case B leaves in output 6's staging buffer: its pieces read back over junk. -/
def out4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S5000x128 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 hc0 x0 x1 x2 x3 x4 x5 xo7 xo8).1)

/-- Case B's pieces for output 7 tile its block (checked by evaluating them), so they cover it. -/
theorem cover4_B_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).2.1 S1x128.size (by sl_kernel_rfl) y

/-- What case B leaves in output 7's staging buffer: its pieces read back over junk. -/
def out4_B_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S1x128 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 hc0 x0 x1 x2 x3 x4 x5 xo7 xo8).2.1)

/-- Case B's pieces for output 8 tile its block (checked by evaluating them), so they cover it. -/
theorem cover4_B_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S1x128.Idx) :
    ∃ pc ∈ (kernelRun4_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun4_B c i arg1 harg1 arg2 harg2 arg3 harg3 arg4 harg4 arg5 harg5 arg6 harg6 arg7 harg7 arg8 harg8 arg9 harg9 hc0 x0 x1 x2 x3 x4 x5 xo7 xo8).2.2.1 S1x128.size (by sl_kernel_rfl) y

/-- What case B leaves in output 8's staging buffer: its pieces read back over junk. -/
def out4_B_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S1x128 .f32 :=
  VO4_8.read (Elt F) (VO4_8.writes (Elt F) VO4_8.junk (kernelRun4_B c i arg1 harg1 arg2 harg2 arg3 harg3 arg4 harg4 arg5 harg5 arg6 harg6 arg7 harg7 arg8 harg8 arg9 harg9 hc0 x0 x1 x2 x3 x4 x5 xo7 xo8).2.2.1)

/-! ## What the outputs hold after each point -/

/-- The accumulation. What the outputs' staging buffers hold after the body at position `n` (a tuple, in window order):
    the case the closed form selects at `n`, run at the point's memrefs and input blocks, the two accumulators at what
    this leaves at `n - 1` when they are carried (their buffers are not written back between). -/
def outsAt4 (c : Dev nD) : (n : ℕ) → n < cfg4.N → Vec F S5000x128 .f32 × Vec F S1x128 .f32 × Vec F S1x128 .f32
  | 0, hn =>
      (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
       out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
       out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 20 = 0 then
      (out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩),
       out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩),
       out4_A_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
    else
      (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2,
       out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2,
       out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.1 (outsAt4 c n (Nat.lt_of_succ_lt hn)).2.2)

/-- `outsAt4` at a point that resets the accumulators: that case's contents. -/
theorem outsAt4_A (c : Dev nD) (t : Fin cfg4.N) (h0 : t.val % 20 = 0) :
    outsAt4 V c t.val t.isLt =
      (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t),
       out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t),
       out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (dif_pos h0).trans rfl

/-- `outsAt4` at a point that carries them: that case's contents, over what the point before left. -/
theorem outsAt4_B (c : Dev nD) (t : Fin cfg4.N) (h0 : ¬t.val % 20 = 0) :
    outsAt4 V c t.val t.isLt =
      (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2,
       out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2,
       out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt4`; the scoped rest and the generator register untouched;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- At a point that carries the accumulators, output 7's current staging buffer holds what the body left at the point
    before: the point is not the first, the buffer was not written back between, the window is live and uncut. -/
theorem before4_7_B (c : Dev nD) (t : Fin cfg4.N) (h0 : ¬t.val % 20 = 0) (d) :
    (dat4 V c).before 7 t d = (outsAt4 V c (t.val - 1) (Nat.lt_of_le_of_lt (Nat.sub_le _ _) t.isLt)).2.1 := by
  have hN : t.val < 20 := lt_of_lt_of_eq t.isLt (show cfg4.N = 20 from N_4)
  rw [Dat.before_out_kept _ 7 rfl t (by omega) (Bool.eq_false_iff.mpr fun h => by have := (flush4_7 _).mp h; dsimp only at this; omega)
    (fun _ => rfl) (fun _ _ => rfl)]
  dsimp only [dat4]

/-- At a point that carries the accumulators, output 8's current staging buffer holds what the body left at the point
    before: the point is not the first, the buffer was not written back between, the window is live and uncut. -/
theorem before4_8_B (c : Dev nD) (t : Fin cfg4.N) (h0 : ¬t.val % 20 = 0) (d) :
    (dat4 V c).before 8 t d = (outsAt4 V c (t.val - 1) (Nat.lt_of_le_of_lt (Nat.sub_le _ _) t.isLt)).2.2 := by
  have hN : t.val < 20 := lt_of_lt_of_eq t.isLt (show cfg4.N = 20 from N_4)
  rw [Dat.before_out_kept _ 8 rfl t (by omega) (Bool.eq_false_iff.mpr fun h => by have := (flush4_8 _).mp h; dsimp only at this; omega)
    (fun _ => rfl) (fun _ _ => rfl)]
  dsimp only [dat4]

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t))

set_option maxHeartbeats 4000000 in
/-- The body at any point: the inputs' memrefs hold their blocks; the closed form says which case the point is in; at a
    point that carries the accumulators their buffers hold what the point before left; so the case's run applies; the
    invariant and the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  have hN : t.val < 20 := lt_of_lt_of_eq t.isLt (show cfg4.N = 20 from N_4)
  by_cases h0 : t.val % 20 = 0
  · rw [outsAt4_A V c t h0]
    unfold out4_A_6 out4_A_7 out4_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_A c (grid4.coords t) _ _ _ _ _ _ _ _ _ _ _ _ _ _ _ _ _ _ ((hcond4_0 t).mpr h0) (iblk4 V c 0 t) (iblk4 V c 1 t) (iblk4 V c 2 t) (iblk4 V c 3 t) (iblk4 V c 4 t) (iblk4 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover4_A_7 c _ _ _ _ _ _ _ _ _ _ _ _ _ _ _ _ _ _ _ _ _ _ _ _ _ _)
    unfold owns; iexists _; isplitr
    swap; · iexact H8
    ipureintro; exact View.read_writes_of_cover _ _ _ _ _ (cover4_A_8 c _ _ _ _ _ _ _ _ _ _ _ _ _ _ _ _ _ _ _ _ _ _ _ _ _ _)
  · rw [outsAt4_B V c t h0]
    simp only [before4_7_B V c t h0, before4_8_B V c t h0]
    unfold out4_B_6 out4_B_7 out4_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_B c (grid4.coords t) _ _ _ _ _ _ _ _ _ _ _ _ _ _ _ _ _ _ (fun h => h0 ((hcond4_0 t).mp h)) (iblk4 V c 0 t) (iblk4 V c 1 t) (iblk4 V c 2 t) (iblk4 V c 3 t) (iblk4 V c 4 t) (iblk4 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover4_B_7 c _ _ _ _ _ _ _ _ _ _ _ _ _ _ _ _ _ _ _ _ _ _ _ _ _ _ _ _)
    unfold owns; iexists _; isplitr
    swap; · iexact H8
    ipureintro; exact View.read_writes_of_cover _ _ _ _ _ (cover4_B_8 c _ _ _ _ _ _ _ _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.RegionNorm5.lean ====
/-
  The normalising region of layer 2 (out = (h − mean) · rsqrt(var + ε) · γ + β, entry by entry), twenty grid points
  of 5000 rows each over six windows: the rows' block of h, the four one-row statistics and parameters (mean, var,
  γ, β: one whole block each, the same at every point) and the output's rows. Stated at the buffer contents the
  region is entered from: each window's block at a point, what the body leaves in the output's staging buffer (its
  one store, of the whole block), the body's triple, the proof data (arrays as entered; inputs left in place; the
  output at the store's value; nothing owed) and the body obligation.
-/
import proofs.«117300_j5643587027248_1_alg».proof.Proof.Gen.KernelIdeal.Launch
import proofs.«117300_j5643587027248_1_alg».proof.Proof.Gen.KernelIdeal.Skeleton
import proofs.«117300_j5643587027248_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data
    whose array is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data
    whose array is the entry contents and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data
    whose array is the entry contents and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof data
    whose array is the entry contents and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof data
    whose array is the entry contents and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## What the body leaves in the output window's buffer: its one store, of the whole block -/

def out5_5 (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k5_pay1 (View.ld x2 (Rect.unit (s := S1x128) ![0, 0] S1x128.size inb_S1x128_S1x128_0_0)) (View.ld x0 (Rect.unit (s := S5000x128) ![0, 0] S5000x128.size inb_S5000x128_S5000x128_0_0)) (View.ld x1 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

/-- The store takes the whole buffer, so it covers it. -/
theorem cover5_5 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

/-! ## The body's triple -/

set_option maxHeartbeats 1000000 in
/-- The body on whole staging memrefs, the inputs' at given contents and the output's at anything, runs to the
    continuation holding the inputs' as they were and the output's at `out5_5` of the inputs'. -/
theorem sound_kernel5 (c : Dev nD) (E : Set ℕ) (i : grid5.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out5_5 x0 x1 x2 x3 x4)) -∗ K ⟨⟩))
      ⊢ wp frame (wpE (defs₀ (F := F)) Variants.none c none) E (cc5__norm_kernel i arg0 harg0 arg1 harg1 arg2 harg2 arg3 harg3 arg4 harg4 arg5 harg5) K := by
  simp only [cc5__norm_kernel_eq_skeleton]; unfold cc5__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of this pipeline on core `c`: the arrays as the region finds them; after the body at point `t` each
    input's buffer at its block and the output's at `out5_5` of the input blocks; the scoped rest and the generator
    register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the triple applies; the invariant and the core's
    dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.RegionMlp6.lean ====
/-
  The layer-3 perceptron region (z = x + agg; h = relu(relu(z·w1 + b1)·w2 + b2), stored whole per point; and two
  one-row outputs, the column sums of h and of h·h, reset at the first grid point and accumulated over the twenty
  points of 5000 rows each), over nine windows: the rows' blocks of x and agg, the four parameter blocks (one whole
  block each, the same at every point), the output rows' block, and the two one-row accumulators. Stated at the buffer
  contents the region is entered from: each window's block at a point; the body's triple at a point that resets the
  accumulators and at one that carries them, the pieces each output's buffer ends with being the witness the run finds;
  what the outputs hold point by point; the proof data (arrays as entered; inputs left in place; the outputs at the
  point-by-point contents; nothing owed) and the body obligation.
-/
import proofs.«117300_j5643587027248_1_alg».proof.Proof.Gen.KernelIdeal.Launch
import proofs.«117300_j5643587027248_1_alg».proof.Proof.Gen.KernelIdeal.Skeleton
import proofs.«117300_j5643587027248_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof data
    whose array is the entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof data
    whose array is the entry contents and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof data
    whose array is the entry contents and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof data
    whose array is the entry contents and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof data
    whose array is the entry contents and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof data
    whose array is the entry contents and whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's branch condition -/

/-- The condition of the body's conditional (is this the first row block?), from the grid coordinates. -/
abbrev cond6_0 (i : grid6.Coords) : Prop := (Scalar.cmpi .ne (Scalar.extui (Scalar.cmpi .eq (BitVec.ofNat 32 (i 0).val) 0#32)) 0#32) = 1#1
/-- It holds at the first point only — decided over the grid. -/
theorem hcond6_0 : ∀ t : Fin cfg6.N, cond6_0 (grid6.coords t) ↔ t.val % 20 = 0 :=
  (by decide +kernel : ∀ t : Fin grid6.N, cond6_0 (grid6.coords t) ↔ t.val % 20 = 0)

/-! ## The staging memrefs -/

/-- One staging buffer of each output window, through which its contents are stated (the choice does not matter). -/
abbrev VO6_6 : View sig .tc .vmem S5000x128 .f32 := (Memref.whole cc6_stg6_0 : Memref sig .tc .vmem S5000x128 .f32).view
abbrev VO6_7 : View sig .tc .vmem S1x128 .f32 := (Memref.whole cc6_stg7_0 : Memref sig .tc .vmem S1x128 .f32).view
abbrev VO6_8 : View sig .tc .vmem S1x128 .f32 := (Memref.whole cc6_stg8_0 : Memref sig .tc .vmem S1x128 .f32).view
/-- Each window's current staging memref at point `t`, spelled as the pipeline passes it, and its wholeness. -/
abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S128x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S5000x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x128 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S1x128 .f32 := win6_8.stage (cfg6.slots t 8)
abbrev hs6_8 (t : Fin cfg6.N) : (ms6_8 t).IsWhole := hstage6_8 ((cfg6.slots t 8).cast nbuf6_8)

/-! ## The body's triple, case by case -/

set_option maxHeartbeats 4000000 in
/-- What the body's stores leave in each output's staging memref, as pieces (last first), at a point where the
    accumulators are reset (the conditional taken), with the proof that on whole staging memrefs — the inputs' at given
    contents, the outputs' at anything — the body runs to the continuation holding the inputs' as they were and each
    output's buffer with its pieces written. The pieces are the witness the run finds. -/
noncomputable def kernelRun6_A (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)) (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc6__mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc6__mlp_kernel_eq_skeleton]; unfold cc6__mlp_kernel_skel
    simp only [k6_part1_eq_skeleton]; unfold k6_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

set_option maxHeartbeats 4000000 in
/-- The same at a point where the accumulators are carried (the conditional not taken): the two accumulator outputs'
    buffers at the running contents `xo7`, `xo8` the point before left. -/
noncomputable def kernelRun6_B (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    Σ' (L6 : List (View.Piece (Elt F) S5000x128 .f32)) (L7 : List (View.Piece (Elt F) S1x128 .f32)), { L8 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc6__mlp_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc6__mlp_kernel_eq_skeleton]; unfold cc6__mlp_kernel_skel
    simp only [k6_part1_eq_skeleton]; unfold k6_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact H8

/-! ## What each case leaves in the outputs' buffers -/

/-- Case A's pieces for output 6 tile its block (checked by evaluating them), so they cover it. -/
theorem cover6_A_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun6_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun6_A c i arg1 harg1 arg2 harg2 arg3 harg3 arg4 harg4 arg5 harg5 arg6 harg6 arg7 harg7 arg8 harg8 arg9 harg9 hc0 x0 x1 x2 x3 x4 x5).1 S5000x128.size (by sl_kernel_rfl) y

/-- What case A leaves in output 6's staging buffer: its pieces read back over junk. -/
def out6_A_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO6_6.read (Elt F) (VO6_6.writes (Elt F) VO6_6.junk (kernelRun6_A c i arg1 harg1 arg2 harg2 arg3 harg3 arg4 harg4 arg5 harg5 arg6 harg6 arg7 harg7 arg8 harg8 arg9 harg9 hc0 x0 x1 x2 x3 x4 x5).1)

/-- Case A's pieces for output 7 tile its block (checked by evaluating them), so they cover it. -/
theorem cover6_A_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun6_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun6_A c i arg1 harg1 arg2 harg2 arg3 harg3 arg4 harg4 arg5 harg5 arg6 harg6 arg7 harg7 arg8 harg8 arg9 harg9 hc0 x0 x1 x2 x3 x4 x5).2.1 S1x128.size (by sl_kernel_rfl) y

/-- What case A leaves in output 7's staging buffer: its pieces read back over junk. -/
def out6_A_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO6_7.read (Elt F) (VO6_7.writes (Elt F) VO6_7.junk (kernelRun6_A c i arg1 harg1 arg2 harg2 arg3 harg3 arg4 harg4 arg5 harg5 arg6 harg6 arg7 harg7 arg8 harg8 arg9 harg9 hc0 x0 x1 x2 x3 x4 x5).2.1)

/-- Case A's pieces for output 8 tile its block (checked by evaluating them), so they cover it. -/
theorem cover6_A_8 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun6_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun6_A c i arg1 harg1 arg2 harg2 arg3 harg3 arg4 harg4 arg5 harg5 arg6 harg6 arg7 harg7 arg8 harg8 arg9 harg9 hc0 x0 x1 x2 x3 x4 x5).2.2.1 S1x128.size (by sl_kernel_rfl) y

/-- What case A leaves in output 8's staging buffer: its pieces read back over junk. -/
def out6_A_8 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO6_8.read (Elt F) (VO6_8.writes (Elt F) VO6_8.junk (kernelRun6_A c i arg1 harg1 arg2 harg2 arg3 harg3 arg4 harg4 arg5 harg5 arg6 harg6 arg7 harg7 arg8 harg8 arg9 harg9 hc0 x0 x1 x2 x3 x4 x5).2.2.1)

/-- Case B's pieces for output 6 tile its block (checked by evaluating them), so they cover it. -/
theorem cover6_B_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S5000x128.Idx) :
    ∃ pc ∈ (kernelRun6_B c i arg1 harg1 arg2 harg2 arg3 harg3 arg4 harg4 arg5 harg5 arg6 harg6 arg7 harg7 arg8 harg8 arg9 harg9 hc0 x0 x1 x2 x3 x4 x5 xo7 xo8).1, y ∈ pc.1.set :=
  View.cover_of_tiledL (kernelRun6_B c i arg1 harg1 arg2 harg2 arg3 harg3 arg4 harg4 arg5 harg5 arg6 harg6 arg7 harg7 arg8 harg8 arg9 harg9 hc0 x0 x1 x2 x3 x4 x5 xo7 xo8).1 S5000x128.size (by sl_kernel_rfl) y

/-- What case B leaves in output 6's staging buffer: its pieces read back over junk. -/
def out6_B_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S5000x128 .f32 :=
  VO6_6.read (Elt F) (VO6_6.writes (Elt F) VO6_6.junk (kernelRun6_B c i arg1 harg1 arg2 harg2 arg3 harg3 arg4 harg4 arg5 harg5 arg6 harg6 arg7 harg7 arg8 harg8 arg9 harg9 hc0 x0 x1 x2 x3 x4 x5 xo7 xo8).1)

/-- Case B's pieces for output 7 tile its block (checked by evaluating them), so they cover it. -/
theorem cover6_B_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S1x128.Idx) :
    ∃ pc ∈ (kernelRun6_B c i arg1 harg1 arg2 harg2 arg3 harg3 arg4 harg4 arg5 harg5 arg6 harg6 arg7 harg7 arg8 harg8 arg9 harg9 hc0 x0 x1 x2 x3 x4 x5 xo7 xo8).2.1, y ∈ pc.1.set :=
  View.cover_of_tiledL (kernelRun6_B c i arg1 harg1 arg2 harg2 arg3 harg3 arg4 harg4 arg5 harg5 arg6 harg6 arg7 harg7 arg8 harg8 arg9 harg9 hc0 x0 x1 x2 x3 x4 x5 xo7 xo8).2.1 S1x128.size (by sl_kernel_rfl) y

/-- What case B leaves in output 7's staging buffer: its pieces read back over junk. -/
def out6_B_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S1x128 .f32 :=
  VO6_7.read (Elt F) (VO6_7.writes (Elt F) VO6_7.junk (kernelRun6_B c i arg1 harg1 arg2 harg2 arg3 harg3 arg4 harg4 arg5 harg5 arg6 harg6 arg7 harg7 arg8 harg8 arg9 harg9 hc0 x0 x1 x2 x3 x4 x5 xo7 xo8).2.1)

/-- Case B's pieces for output 8 tile its block (checked by evaluating them), so they cover it. -/
theorem cover6_B_8 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) (y : S1x128.Idx) :
    ∃ pc ∈ (kernelRun6_B c i arg1 harg1 arg2 harg2 arg3 harg3 arg4 harg4 arg5 harg5 arg6 harg6 arg7 harg7 arg8 harg8 arg9 harg9 hc0 x0 x1 x2 x3 x4 x5 xo7 xo8).2.2.1, y ∈ pc.1.set :=
  View.cover_of_tiledL (kernelRun6_B c i arg1 harg1 arg2 harg2 arg3 harg3 arg4 harg4 arg5 harg5 arg6 harg6 arg7 harg7 arg8 harg8 arg9 harg9 hc0 x0 x1 x2 x3 x4 x5 xo7 xo8).2.2.1 S1x128.size (by sl_kernel_rfl) y

/-- What case B leaves in output 8's staging buffer: its pieces read back over junk. -/
def out6_B_8 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) : Vec F S1x128 .f32 :=
  VO6_8.read (Elt F) (VO6_8.writes (Elt F) VO6_8.junk (kernelRun6_B c i arg1 harg1 arg2 harg2 arg3 harg3 arg4 harg4 arg5 harg5 arg6 harg6 arg7 harg7 arg8 harg8 arg9 harg9 hc0 x0 x1 x2 x3 x4 x5 xo7 xo8).2.2.1)

/-! ## What the outputs hold after each point -/

/-- The accumulation. What the outputs' staging buffers hold after the body at position `n` (a tuple, in window order):
    the case the closed form selects at `n`, run at the point's memrefs and input blocks, the two accumulators at what
    this leaves at `n - 1` when they are carried (their buffers are not written back between). -/
def outsAt6 (c : Dev nD) : (n : ℕ) → n < cfg6.N → Vec F S5000x128 .f32 × Vec F S1x128 .f32 × Vec F S1x128 .f32
  | 0, hn =>
      (out6_A_6 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) ((hcond6_0 ⟨0, hn⟩).mpr (Nat.zero_mod _)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
       out6_A_7 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) ((hcond6_0 ⟨0, hn⟩).mpr (Nat.zero_mod _)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
       out6_A_8 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) ((hcond6_0 ⟨0, hn⟩).mpr (Nat.zero_mod _)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩))
  | n + 1, hn =>
    if h0 : (n + 1) % 20 = 0 then
      (out6_A_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) ((hcond6_0 ⟨n + 1, hn⟩).mpr h0) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩),
       out6_A_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) ((hcond6_0 ⟨n + 1, hn⟩).mpr h0) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩),
       out6_A_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) ((hcond6_0 ⟨n + 1, hn⟩).mpr h0) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩))
    else
      (out6_B_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (fun h => h0 ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.1 (outsAt6 c n (Nat.lt_of_succ_lt hn)).2.2,
       out6_B_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (fun h => h0 ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.1 (outsAt6 c n (Nat.lt_of_succ_lt hn)).2.2,
       out6_B_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) (fun h => h0 ((hcond6_0 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.1 (outsAt6 c n (Nat.lt_of_succ_lt hn)).2.2)

/-- `outsAt6` at a point that resets the accumulators: that case's contents. -/
theorem outsAt6_A (c : Dev nD) (t : Fin cfg6.N) (h0 : t.val % 20 = 0) :
    outsAt6 V c t.val t.isLt =
      (out6_A_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h0) (iblk6 V c 0 t) (iblk6 V c 1 t) (iblk6 V c 2 t) (iblk6 V c 3 t) (iblk6 V c 4 t) (iblk6 V c 5 t),
       out6_A_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h0) (iblk6 V c 0 t) (iblk6 V c 1 t) (iblk6 V c 2 t) (iblk6 V c 3 t) (iblk6 V c 4 t) (iblk6 V c 5 t),
       out6_A_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h0) (iblk6 V c 0 t) (iblk6 V c 1 t) (iblk6 V c 2 t) (iblk6 V c 3 t) (iblk6 V c 4 t) (iblk6 V c 5 t)) := by
  obtain ⟨n, hn⟩ := t
  cases n with
  | zero => exact rfl
  | succ n => exact (dif_pos h0).trans rfl

/-- `outsAt6` at a point that carries them: that case's contents, over what the point before left. -/
theorem outsAt6_B (c : Dev nD) (t : Fin cfg6.N) (h0 : ¬t.val % 20 = 0) :
    outsAt6 V c t.val t.isLt =
      (out6_B_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h => h0 ((hcond6_0 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.1 (outsAt6 V c (t.val - 1) (Nat.lt_of_le_of_lt (Nat.sub_le _ _) t.isLt)).2.2,
       out6_B_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h => h0 ((hcond6_0 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.1 (outsAt6 V c (t.val - 1) (Nat.lt_of_le_of_lt (Nat.sub_le _ _) t.isLt)).2.2,
       out6_B_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h => h0 ((hcond6_0 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.1 (outsAt6 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of this pipeline on core `c`: the arrays as the region finds them; after the body at point `t` each
    input's buffer at its block and the outputs' at `outsAt6`; the scoped rest and the generator register untouched;
    nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => (outsAt6 V c t.val t.isLt).1
    | ⟨7, _⟩ => (outsAt6 V c t.val t.isLt).2.1
    | ⟨8, _⟩ => (outsAt6 V c t.val t.isLt).2.2
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = (outsAt6 V c t.val t.isLt).1 := by dsimp only [dat6]
theorem after6_7 (c : Dev nD) (t : Fin cfg6.N) : (dat6 V c).after 7 t = (outsAt6 V c t.val t.isLt).2.1 := by dsimp only [dat6]
theorem after6_8 (c : Dev nD) (t : Fin cfg6.N) : (dat6 V c).after 8 t = (outsAt6 V c t.val t.isLt).2.2 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-- At a point that carries the accumulators, output 7's current staging buffer holds what the body left at the point
    before: the point is not the first, the buffer was not written back between, the window is live and uncut. -/
theorem before6_7_B (c : Dev nD) (t : Fin cfg6.N) (h0 : ¬t.val % 20 = 0) (d) :
    (dat6 V c).before 7 t d = (outsAt6 V c (t.val - 1) (Nat.lt_of_le_of_lt (Nat.sub_le _ _) t.isLt)).2.1 := by
  have hN : t.val < 20 := lt_of_lt_of_eq t.isLt (show cfg6.N = 20 from N_6)
  rw [Dat.before_out_kept _ 7 rfl t (by omega) (Bool.eq_false_iff.mpr fun h => by have := (flush6_7 _).mp h; dsimp only at this; omega)
    (fun _ => rfl) (fun _ _ => rfl)]
  dsimp only [dat6]

/-- At a point that carries the accumulators, output 8's current staging buffer holds what the body left at the point
    before: the point is not the first, the buffer was not written back between, the window is live and uncut. -/
theorem before6_8_B (c : Dev nD) (t : Fin cfg6.N) (h0 : ¬t.val % 20 = 0) (d) :
    (dat6 V c).before 8 t d = (outsAt6 V c (t.val - 1) (Nat.lt_of_le_of_lt (Nat.sub_le _ _) t.isLt)).2.2 := by
  have hN : t.val < 20 := lt_of_lt_of_eq t.isLt (show cfg6.N = 20 from N_6)
  rw [Dat.before_out_kept _ 8 rfl t (by omega) (Bool.eq_false_iff.mpr fun h => by have := (flush6_8 _).mp h; dsimp only at this; omega)
    (fun _ => rfl) (fun _ _ => rfl)]
  dsimp only [dat6]

/-! ## The body obligation, at a generic point -/

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t)
    ∗ owns (c : Thread nD τ) (ms6_6 t) fullShare ((dat6 V c).after 6 t)
    ∗ owns (c : Thread nD τ) (ms6_7 t) fullShare ((dat6 V c).after 7 t)
    ∗ owns (c : Thread nD τ) (ms6_8 t) fullShare ((dat6 V c).after 8 t))

set_option maxHeartbeats 4000000 in
/-- The body at any point: the inputs' memrefs hold their blocks; the closed form says which case the point is in; at a
    point that carries the accumulators their buffers hold what the point before left; so the case's run applies; the
    invariant and the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8]
  have hN : t.val < 20 := lt_of_lt_of_eq t.isLt (show cfg6.N = 20 from N_6)
  by_cases h0 : t.val % 20 = 0
  · rw [outsAt6_A V c t h0]
    unfold out6_A_6 out6_A_7 out6_A_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun6_A c (grid6.coords t) _ _ _ _ _ _ _ _ _ _ _ _ _ _ _ _ _ _ ((hcond6_0 t).mpr h0) (iblk6 V c 0 t) (iblk6 V c 1 t) (iblk6 V c 2 t) (iblk6 V c 3 t) (iblk6 V c 4 t) (iblk6 V c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover6_A_6 c _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover6_A_7 c _ _ _ _ _ _ _ _ _ _ _ _ _ _ _ _ _ _ _ _ _ _ _ _ _ _)
    unfold owns; iexists _; isplitr
    swap; · iexact H8
    ipureintro; exact View.read_writes_of_cover _ _ _ _ _ (cover6_A_8 c _ _ _ _ _ _ _ _ _ _ _ _ _ _ _ _ _ _ _ _ _ _ _ _ _ _)
  · rw [outsAt6_B V c t h0]
    simp only [before6_7_B V c t h0, before6_8_B V c t h0]
    unfold out6_B_6 out6_B_7 out6_B_8; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun6_B c (grid6.coords t) _ _ _ _ _ _ _ _ _ _ _ _ _ _ _ _ _ _ (fun h => h0 ((hcond6_0 t).mp h)) (iblk6 V c 0 t) (iblk6 V c 1 t) (iblk6 V c 2 t) (iblk6 V c 3 t) (iblk6 V c 4 t) (iblk6 V c 5 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    iintro ⟨H0, H1, H2, H3, H4, H5, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover6_B_6 c _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover6_B_7 c _ _ _ _ _ _ _ _ _ _ _ _ _ _ _ _ _ _ _ _ _ _ _ _ _ _ _ _)
    unfold owns; iexists _; isplitr
    swap; · iexact H8
    ipureintro; exact View.read_writes_of_cover _ _ _ _ _ (cover6_B_8 c _ _ _ _ _ _ _ _ _ _ _ _ _ _ _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.RegionNorm7.lean ====
/-
  The normalising region of layer 3 (out = (h − mean) · rsqrt(var + ε) · γ + β, entry by entry), twenty grid points
  of 5000 rows each over six windows: the rows' block of h, the four one-row statistics and parameters (mean, var,
  γ, β: one whole block each, the same at every point) and the output's rows. Stated at the buffer contents the
  region is entered from: each window's block at a point, what the body leaves in the output's staging buffer (its
  one store, of the whole block), the body's triple, the proof data (arrays as entered; inputs left in place; the
  output at the store's value; nothing owed) and the body obligation.
-/
import proofs.«117300_j5643587027248_1_alg».proof.Proof.Gen.KernelIdeal.Launch
import proofs.«117300_j5643587027248_1_alg».proof.Proof.Gen.KernelIdeal.Skeleton
import proofs.«117300_j5643587027248_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof data
    whose array is the entry contents and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof data
    whose array is the entry contents and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof data
    whose array is the entry contents and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof data
    whose array is the entry contents and whose body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof data
    whose array is the entry contents and whose body leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## What the body leaves in the output window's buffer: its one store, of the whole block -/

def out7_5 (x0 : Vec F S5000x128 .f32) (x1 : Vec F S1x128 .f32) (x2 : Vec F S1x128 .f32) (x3 : Vec F S1x128 .f32) (x4 : Vec F S1x128 .f32) : Vec F S5000x128 .f32 :=
  View.canon [⟨(Rect.unit (s := S5000x128) ![0, 0] S5000x128.size inb_S5000x128_S5000x128_0_0), k7_pay1 (View.ld x2 (Rect.unit (s := S1x128) ![0, 0] S1x128.size inb_S1x128_S1x128_0_0)) (View.ld x0 (Rect.unit (s := S5000x128) ![0, 0] S5000x128.size inb_S5000x128_S5000x128_0_0)) (View.ld x1 (Rect.unit (s := S1x128) ![0, 0] S1x128.size inb_S1x128_S1x128_0_0)) (View.ld x3 (Rect.unit (s := S1x128) ![0, 0] S1x128.size inb_S1x128_S1x128_0_0)) (View.ld x4 (Rect.unit (s := S1x128) ![0, 0] S1x128.size inb_S1x128_S1x128_0_0))⟩]

/-- The store takes the whole buffer, so it covers it. -/
theorem cover7_5 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

/-! ## The body's triple -/

set_option maxHeartbeats 1000000 in
/-- The body on whole staging memrefs, the inputs' at given contents and the output's at anything, runs to the
    continuation holding the inputs' as they were and the output's at `out7_5` of the inputs'. -/
theorem sound_kernel7 (c : Dev nD) (E : Set ℕ) (i : grid7.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S5000x128 .f32) (harg5 : arg5.IsWhole)
    (x0 : Vec F S5000x128 .f32) (x1 : Vec F S1x128 .f32) (x2 : Vec F S1x128 .f32) (x3 : Vec F S1x128 .f32) (x4 : Vec F S1x128 .f32)
    (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out7_5 x0 x1 x2 x3 x4)) -∗ K ⟨⟩))
      ⊢ wp frame (wpE (defs₀ (F := F)) Variants.none c none) E (cc7__norm_kernel i arg0 harg0 arg1 harg1 arg2 harg2 arg3 harg3 arg4 harg4 arg5 harg5) K := by
  simp only [cc7__norm_kernel_eq_skeleton]; unfold cc7__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of this pipeline on core `c`: the arrays as the region finds them; after the body at point `t` each
    input's buffer at its block and the output's at `out7_5` of the input blocks; the scoped rest and the generator
    register untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation -/

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the inputs' memrefs hold their blocks, so the triple applies; the invariant and the core's
    dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.RegionCls.lean ====
/-
  The classifier region (the ninth pallas_call: pooled features times the first weight matrix plus bias, rectified,
  times the second weight matrix plus bias), one grid point over six whole-array windows: five inputs and the
  result. Stated at the buffer contents the region is entered from: each window's block at the point, what the
  body leaves in the result's staging buffer (its one store, of the whole block), the body's triple, the proof data
  (arrays as entered; inputs left in place; the result at the store's value; nothing owed) and the body obligation.
-/
import proofs.«117300_j5643587027248_1_alg».proof.Proof.Gen.KernelIdeal.Launch
import proofs.«117300_j5643587027248_1_alg».proof.Proof.Gen.KernelIdeal.Skeleton
import proofs.«117300_j5643587027248_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof data
    whose array is the entry contents and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof data
    whose array is the entry contents and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof data
    whose array is the entry contents and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof data
    whose array is the entry contents and whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof data
    whose array is the entry contents and whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and the store take the whole block -/

abbrev r8_p : Rect S128x512 := Rect.unit (s := S128x512) ![0, 0] S128x512.size inb_S128x512_S128x512_0_0
abbrev r8_w1 : Rect S512x128 := Rect.unit (s := S512x128) ![0, 0] S512x128.size inb_S512x128_S512x128_0_0
abbrev r8_b1 : Rect S1x128 := Rect.unit (s := S1x128) ![0, 0] S1x128.size inb_S1x128_S1x128_0_0
abbrev r8_w2 : Rect S128x10 := Rect.unit (s := S128x10) ![0, 0] S128x10.size inb_S128x10_S128x10_0_0
abbrev r8_b2 : Rect S1x10 := Rect.unit (s := S1x10) ![0, 0] S1x10.size inb_S1x10_S1x10_0_0

/-- The result's staging buffer after the body, from the input windows' blocks: its one store as a piece. -/
def out8_5 (x0 : Vec F S128x512 .f32) (x1 : Vec F S512x128 .f32) (x2 : Vec F S1x128 .f32) (x3 : Vec F S128x10 .f32) (x4 : Vec F S1x10 .f32) :
    Vec F S128x10 .f32 :=
  View.canon [⟨r8_w2, k8_pay1 (View.ld x0 r8_p) (View.ld x1 r8_w1) (View.ld x2 r8_b1) (View.ld x3 r8_w2) (View.ld x4 r8_b2)⟩]

/-- The store takes the whole buffer, so it covers it. -/
theorem cover8_5 (p0 : Vec F S128x10 .f32) (y : S128x10.Idx) :
    ∃ pc ∈ ([⟨r8_w2, p0⟩] : List (View.Piece (Elt F) S128x10 .f32)), y ∈ pc.1.set :=
  View.cover_of_tiled [⟨r8_w2, p0⟩] S128x10.size (by rfl) y

/-! ## The body's triple -/

set_option maxHeartbeats 1000000 in
/-- The body on whole staging memrefs, the inputs' at contents `x0 … x4` and the result's at anything, runs to the
    continuation holding the inputs' as they were and the result's at `out8_5` of the inputs'. -/
theorem sound_kernel8 (c : Dev nD) (E : Set ℕ) (i : grid8.Coords)
    (arg0 : Memref sig .tc .vmem S128x512 .f32) (harg0 : arg0.IsWhole) (arg1 : Memref sig .tc .vmem S512x128 .f32) (harg1 : arg1.IsWhole)
    (arg2 : Memref sig .tc .vmem S1x128 .f32) (harg2 : arg2.IsWhole) (arg3 : Memref sig .tc .vmem S128x10 .f32) (harg3 : arg3.IsWhole)
    (arg4 : Memref sig .tc .vmem S1x10 .f32) (harg4 : arg4.IsWhole) (arg5 : Memref sig .tc .vmem S128x10 .f32) (harg5 : arg5.IsWhole)
    (x0 : Vec F S128x512 .f32) (x1 : Vec F S512x128 .f32) (x2 : Vec F S1x128 .f32) (x3 : Vec F S128x10 .f32) (x4 : Vec F S1x10 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out8_5 x0 x1 x2 x3 x4)) -∗ K ⟨⟩))
      ⊢ wp frame (wpE (defs₀ (F := F)) Variants.none c none) E (cc8__cls_kernel i arg0 harg0 arg1 harg1 arg2 harg2 arg3 harg3 arg4 harg4 arg5 harg5) K := by
  simp only [cc8__cls_kernel_eq_skeleton]; unfold cc8__cls_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of the classifier's pipeline on core `c`: the arrays as the region finds them; after the body each
    input's buffer at its block and the result's at `out8_5` of the input blocks; the scoped rest and the generator
    register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation -/

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, so the triple applies; the invariant and the core's
    dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.FrameDefs.lean ====
/-
  The program's nine regions side by side: the contents each region is entered from (every unscoped buffer after the
  host stretch before it), every pipeline's proof data at its region's entry contents, and what it means for named
  contents of the regions' outputs to be what the regions' pipelines leave.
-/
import proofs.«117300_j5643587027248_1_alg».proof.Proof.Gen.KernelIdeal.Regions
import proofs.«117300_j5643587027248_1_alg».proof.Proof.RunCond
import proofs.«117300_j5643587027248_1_alg».proof.Proof.RegionMlp0
import proofs.«117300_j5643587027248_1_alg».proof.Proof.RegionNorm1
import proofs.«117300_j5643587027248_1_alg».proof.Proof.RegionMlp2
import proofs.«117300_j5643587027248_1_alg».proof.Proof.RegionNorm3
import proofs.«117300_j5643587027248_1_alg».proof.Proof.RegionMlp4
import proofs.«117300_j5643587027248_1_alg».proof.Proof.RegionNorm5
import proofs.«117300_j5643587027248_1_alg».proof.Proof.RegionMlp6
import proofs.«117300_j5643587027248_1_alg».proof.Proof.RegionNorm7
import proofs.«117300_j5643587027248_1_alg».proof.Proof.RegionCls
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## The contents each region is entered from, read at the TensorCore's references -/

abbrev In0 : (c : Dev nD) → (b : Ref sig .tc) → Buf (Elt F) ((c : Thread nD τ).loc b) := fun c b => Gen.V1 m c b
abbrev In1 : (c : Dev nD) → (b : Ref sig .tc) → Buf (Elt F) ((c : Thread nD τ).loc b) := fun c b => Gen.V3 m outs c b
abbrev In2 : (c : Dev nD) → (b : Ref sig .tc) → Buf (Elt F) ((c : Thread nD τ).loc b) := fun c b => Gen.V5 m outs c b
abbrev In3 : (c : Dev nD) → (b : Ref sig .tc) → Buf (Elt F) ((c : Thread nD τ).loc b) := fun c b => Gen.V7 m outs c b
abbrev In4 : (c : Dev nD) → (b : Ref sig .tc) → Buf (Elt F) ((c : Thread nD τ).loc b) := fun c b => Gen.V9 m outs c b
abbrev In5 : (c : Dev nD) → (b : Ref sig .tc) → Buf (Elt F) ((c : Thread nD τ).loc b) := fun c b => Gen.V11 m outs c b
abbrev In6 : (c : Dev nD) → (b : Ref sig .tc) → Buf (Elt F) ((c : Thread nD τ).loc b) := fun c b => Gen.V13 m outs c b
abbrev In7 : (c : Dev nD) → (b : Ref sig .tc) → Buf (Elt F) ((c : Thread nD τ).loc b) := fun c b => Gen.V15 m outs c b
abbrev In8 : (c : Dev nD) → (b : Ref sig .tc) → Buf (Elt F) ((c : Thread nD τ).loc b) := fun c b => Gen.V17 m outs c b

/-- Every pipeline's proof data, each at its region's entry contents. -/
def pdats : (p : Fin 9) → (c : Dev nD) → Dat τ (Elt F) Unit ℕ (UR sig nD τ) ℕ (cfgs p) c
  | ⟨0, _⟩ => fun c => dat0 (In0 m) c
  | ⟨1, _⟩ => fun c => dat1 (In1 m outs) c
  | ⟨2, _⟩ => fun c => dat2 (In2 m outs) c
  | ⟨3, _⟩ => fun c => dat3 (In3 m outs) c
  | ⟨4, _⟩ => fun c => dat4 (In4 m outs) c
  | ⟨5, _⟩ => fun c => dat5 (In5 m outs) c
  | ⟨6, _⟩ => fun c => dat6 (In6 m outs) c
  | ⟨7, _⟩ => fun c => dat7 (In7 m outs) c
  | ⟨8, _⟩ => fun c => dat8 (In8 m outs) c

/-- The named contents of the regions' outputs are what the regions' pipelines leave in them. -/
structure OutsOK : Prop where
  /-- what region 0 leaves in `main_v16_0` -/
  o0_6 : ∀ c, outs 2 main_v16_0 c = (dat0 (In0 m) c).arrAt 6 cfg0.N
  /-- what region 0 leaves in `main_v16_1` -/
  o0_7 : ∀ c, outs 2 main_v16_1 c = (dat0 (In0 m) c).arrAt 7 cfg0.N
  /-- what region 0 leaves in `main_v16_2` -/
  o0_8 : ∀ c, outs 2 main_v16_2 c = (dat0 (In0 m) c).arrAt 8 cfg0.N
  /-- what region 1 leaves in `main_v29` -/
  o1_5 : ∀ c, outs 4 main_v29 c = (dat1 (In1 m outs) c).arrAt 5 cfg1.N
  /-- what region 2 leaves in `main_v54_0` -/
  o2_6 : ∀ c, outs 6 main_v54_0 c = (dat2 (In2 m outs) c).arrAt 6 cfg2.N
  /-- what region 2 leaves in `main_v54_1` -/
  o2_7 : ∀ c, outs 6 main_v54_1 c = (dat2 (In2 m outs) c).arrAt 7 cfg2.N
  /-- what region 2 leaves in `main_v54_2` -/
  o2_8 : ∀ c, outs 6 main_v54_2 c = (dat2 (In2 m outs) c).arrAt 8 cfg2.N
  /-- what region 3 leaves in `main_v67` -/
  o3_5 : ∀ c, outs 8 main_v67 c = (dat3 (In3 m outs) c).arrAt 5 cfg3.N
  /-- what region 4 leaves in `main_v92_0` -/
  o4_6 : ∀ c, outs 10 main_v92_0 c = (dat4 (In4 m outs) c).arrAt 6 cfg4.N
  /-- what region 4 leaves in `main_v92_1` -/
  o4_7 : ∀ c, outs 10 main_v92_1 c = (dat4 (In4 m outs) c).arrAt 7 cfg4.N
  /-- what region 4 leaves in `main_v92_2` -/
  o4_8 : ∀ c, outs 10 main_v92_2 c = (dat4 (In4 m outs) c).arrAt 8 cfg4.N
  /-- what region 5 leaves in `main_v105` -/
  o5_5 : ∀ c, outs 12 main_v105 c = (dat5 (In5 m outs) c).arrAt 5 cfg5.N
  /-- what region 6 leaves in `main_v130_0` -/
  o6_6 : ∀ c, outs 14 main_v130_0 c = (dat6 (In6 m outs) c).arrAt 6 cfg6.N
  /-- what region 6 leaves in `main_v130_1` -/
  o6_7 : ∀ c, outs 14 main_v130_1 c = (dat6 (In6 m outs) c).arrAt 7 cfg6.N
  /-- what region 6 leaves in `main_v130_2` -/
  o6_8 : ∀ c, outs 14 main_v130_2 c = (dat6 (In6 m outs) c).arrAt 8 cfg6.N
  /-- what region 7 leaves in `main_v143` -/
  o7_5 : ∀ c, outs 16 main_v143 c = (dat7 (In7 m outs) c).arrAt 5 cfg7.N
  /-- what region 8 leaves in `main_v159` -/
  o8_5 : ∀ c, outs 18 main_v159 c = (dat8 (In8 m outs) c).arrAt 5 cfg8.N

/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

end Cert.KernelIdeal.Hand

end
-- ==== Proof.FrameReg0.lean ====
/-
  Region 0 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.FrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 0 -/

theorem V2_at_6 (c : Dev nD) : Gen.V2 m outs c main_v16_0 = outs 2 main_v16_0 c := by
  simp only [Gen.V2]; rw [Function.update_of_ne (StableHlo.devRef_ne_of_ne (by decide) : (Proc.devRef .tc main_v16_0 : DevRef τ sig) ≠ Proc.devRef .tc main_v16_2), Function.update_of_ne (StableHlo.devRef_ne_of_ne (by decide) : (Proc.devRef .tc main_v16_0 : DevRef τ sig) ≠ Proc.devRef .tc main_v16_1), Function.update_self]
theorem V2_at_7 (c : Dev nD) : Gen.V2 m outs c main_v16_1 = outs 2 main_v16_1 c := by
  simp only [Gen.V2]; rw [Function.update_of_ne (StableHlo.devRef_ne_of_ne (by decide) : (Proc.devRef .tc main_v16_1 : DevRef τ sig) ≠ Proc.devRef .tc main_v16_2), Function.update_self]
theorem V2_at_8 (c : Dev nD) : Gen.V2 m outs c main_v16_2 = outs 2 main_v16_2 c := by
  simp only [Gen.V2]; rw [Function.update_self]

set_option maxHeartbeats 4000000 in
/-- At region 0's exit each of its arrays holds what the pipeline leaves: an input as entered, an output at the
    contents named for it. -/
theorem hFgen0 {c : Dev nD} (V' : (b : Ref sig .tc) → Buf (Elt F) ((c : Thread nD τ).loc b))
    (dat : Dat τ (Elt F) Unit ℕ (UR sig nD τ) ℕ cfg0 c) (h0 : dat.arrAt 0 cfg0.N = V' main_arg0) (h1 : dat.arrAt 1 cfg0.N = V' main_v13) (h2 : dat.arrAt 2 cfg0.N = V' main_arg3) (h3 : dat.arrAt 3 cfg0.N = V' main_v14) (h4 : dat.arrAt 4 cfg0.N = V' main_arg5) (h5 : dat.arrAt 5 cfg0.N = V' main_v15) (h6 : dat.arrAt 6 cfg0.N = V' main_v16_0) (h7 : dat.arrAt 7 cfg0.N = V' main_v16_1) (h8 : dat.arrAt 8 cfg0.N = V' main_v16_2) :
    ∀ w : Fin 9, dat.arrAt w cfg0.N = V' (Pipeline.arrRef spec0 w)
  | 0 => h0
  | 1 => h1
  | 2 => h2
  | 3 => h3
  | 4 => h4
  | 5 => h5
  | 6 => h6
  | 7 => h7
  | 8 => h8
  | ⟨_ + 9, h⟩ => absurd h (by omega)

theorem hF0 (hO : OutsOK m outs) (c : Dev nD) : ∀ w : Fin 9, (pdats m outs 0 c).arrAt w cfg0.N = Gen.V2 m outs c (Pipeline.arrRef spec0 w) :=
  hFgen0 (fun b => Gen.V2 m outs c b) (pdats m outs 0 c)
    (((dat0 (In0 m) c).arrAt_in 0 rfl _).trans ((A_eq0 (In0 m) c 0).trans (Gen.V2_of m outs c main_arg0 (by decide)).symm))
    (((dat0 (In0 m) c).arrAt_in 1 rfl _).trans ((A_eq0 (In0 m) c 1).trans (Gen.V2_of m outs c main_v13 (by decide)).symm))
    (((dat0 (In0 m) c).arrAt_in 2 rfl _).trans ((A_eq0 (In0 m) c 2).trans (Gen.V2_of m outs c main_arg3 (by decide)).symm))
    (((dat0 (In0 m) c).arrAt_in 3 rfl _).trans ((A_eq0 (In0 m) c 3).trans (Gen.V2_of m outs c main_v14 (by decide)).symm))
    (((dat0 (In0 m) c).arrAt_in 4 rfl _).trans ((A_eq0 (In0 m) c 4).trans (Gen.V2_of m outs c main_arg5 (by decide)).symm))
    (((dat0 (In0 m) c).arrAt_in 5 rfl _).trans ((A_eq0 (In0 m) c 5).trans (Gen.V2_of m outs c main_v15 (by decide)).symm))
    ((hO.o0_6 c).symm.trans (V2_at_6 m outs c).symm)
    ((hO.o0_7 c).symm.trans (V2_at_7 m outs c).symm)
    ((hO.o0_8 c).symm.trans (V2_at_8 m outs c).symm)

/-- Every other buffer holds what it held at entry. -/
theorem hrest0 (c : Dev nD) : ∀ b, b ∉ Finset.univ.image (Pipeline.arrRef spec0) → Gen.V2 m outs c b = Gen.V1 m c b :=
  fun b hb => Gen.V2_of m outs c b (by
    intro hmem
    simp only [List.mem_cons, List.not_mem_nil, or_false] at hmem
    rcases hmem with rfl | rfl | rfl
    · exact hb (Finset.mem_image.mpr ⟨6, Finset.mem_univ _, rfl⟩)
    · exact hb (Finset.mem_image.mpr ⟨7, Finset.mem_univ _, rfl⟩)
    · exact hb (Finset.mem_image.mpr ⟨8, Finset.mem_univ _, rfl⟩))

set_option backward.isDefEq.respectTransparency.types false in
/-- Region 0 over the thread state: entered from every unscoped buffer at the contents before it, left at the contents
    after it; its arrays split out of the unscoped buffers and put back at the exit contents; the generator register
    into the invariant and out; nothing owed; no semaphore of the kernel's own. -/
def reg0 (hO : OutsOK m outs) : Pipeline.RegionSeg (pcfgs (F := F)) Gen.adm (pdats m outs) () defs₀ Variants.none L lv 0 where
  win := launch0.win.to₀
  block_pos := launch0.block_pos
  stage_whole := launch0.stage_whole
  K := PEmpty
  osem k := k.elim
  ho := Pipeline.OwnSemFacts.none _
  hbody c := (body_obligation0 (In0 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m outs c) ∗ R c)
  X c := iprop(∃ r, prngReg c r)
  Y c := iprop(∃ r, prngReg c r)
  Z c := Pipeline.unscopedRest (Ix := Unit) (Name := ℕ) (U := UR sig nD τ) (Lvl := ℕ) spec0 c ((In0 m) c)
  hentry c := by
    rw [Pipeline.ownSems0_none]
    have hsplit := Pipeline.arrays_of_unscopedBufs (p := 0) (pcfgs (F := F)) Gen.adm (pdats m outs) launch0.win launch0.arr_whole c
      ((pdats m outs 0 c).share_full fun _ => rfl) ((In0 m) c) fun w => A_eq0 (In0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m outs) ((pdats m outs 0 c).share_full fun _ => rfl)
      ((In0 m) c) (fun b => Gen.V2 m outs c b) ((pdats m outs 0 c).arrAt · cfg0.N) (hF0 m outs hO c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameReg1.lean ====
/-
  Region 1 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.FrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 1 -/

theorem V4_at_5 (c : Dev nD) : Gen.V4 m outs c main_v29 = outs 4 main_v29 c := by
  simp only [Gen.V4]; rw [Function.update_self]

set_option maxHeartbeats 4000000 in
/-- At region 1's exit each of its arrays holds what the pipeline leaves: an input as entered, an output at the
    contents named for it. -/
theorem hFgen1 {c : Dev nD} (V' : (b : Ref sig .tc) → Buf (Elt F) ((c : Thread nD τ).loc b))
    (dat : Dat τ (Elt F) Unit ℕ (UR sig nD τ) ℕ cfg1 c) (h0 : dat.arrAt 0 cfg1.N = V' main_v16_0) (h1 : dat.arrAt 1 cfg1.N = V' main_v25) (h2 : dat.arrAt 2 cfg1.N = V' main_v26) (h3 : dat.arrAt 3 cfg1.N = V' main_v27) (h4 : dat.arrAt 4 cfg1.N = V' main_v28) (h5 : dat.arrAt 5 cfg1.N = V' main_v29) :
    ∀ w : Fin 6, dat.arrAt w cfg1.N = V' (Pipeline.arrRef spec1 w)
  | 0 => h0
  | 1 => h1
  | 2 => h2
  | 3 => h3
  | 4 => h4
  | 5 => h5
  | ⟨_ + 6, h⟩ => absurd h (by omega)

theorem hF1 (hO : OutsOK m outs) (c : Dev nD) : ∀ w : Fin 6, (pdats m outs 1 c).arrAt w cfg1.N = Gen.V4 m outs c (Pipeline.arrRef spec1 w) :=
  hFgen1 (fun b => Gen.V4 m outs c b) (pdats m outs 1 c)
    (((dat1 (In1 m outs) c).arrAt_in 0 rfl _).trans ((A_eq1 (In1 m outs) c 0).trans (Gen.V4_of m outs c main_v16_0 (by decide)).symm))
    (((dat1 (In1 m outs) c).arrAt_in 1 rfl _).trans ((A_eq1 (In1 m outs) c 1).trans (Gen.V4_of m outs c main_v25 (by decide)).symm))
    (((dat1 (In1 m outs) c).arrAt_in 2 rfl _).trans ((A_eq1 (In1 m outs) c 2).trans (Gen.V4_of m outs c main_v26 (by decide)).symm))
    (((dat1 (In1 m outs) c).arrAt_in 3 rfl _).trans ((A_eq1 (In1 m outs) c 3).trans (Gen.V4_of m outs c main_v27 (by decide)).symm))
    (((dat1 (In1 m outs) c).arrAt_in 4 rfl _).trans ((A_eq1 (In1 m outs) c 4).trans (Gen.V4_of m outs c main_v28 (by decide)).symm))
    ((hO.o1_5 c).symm.trans (V4_at_5 m outs c).symm)

/-- Every other buffer holds what it held at entry. -/
theorem hrest1 (c : Dev nD) : ∀ b, b ∉ Finset.univ.image (Pipeline.arrRef spec1) → Gen.V4 m outs c b = Gen.V3 m outs c b :=
  fun b hb => Gen.V4_of m outs c b (by
    intro hmem
    simp only [List.mem_cons, List.not_mem_nil, or_false] at hmem
    rcases hmem with rfl
    · exact hb (Finset.mem_image.mpr ⟨5, Finset.mem_univ _, rfl⟩))

set_option backward.isDefEq.respectTransparency.types false in
/-- Region 1 over the thread state: entered from every unscoped buffer at the contents before it, left at the contents
    after it; its arrays split out of the unscoped buffers and put back at the exit contents; the generator register
    into the invariant and out; nothing owed; no semaphore of the kernel's own. -/
def reg1 (hO : OutsOK m outs) : Pipeline.RegionSeg (pcfgs (F := F)) Gen.adm (pdats m outs) () defs₀ Variants.none L lv 1 where
  win := launch1.win.to₀
  block_pos := launch1.block_pos
  stage_whole := launch1.stage_whole
  K := PEmpty
  osem k := k.elim
  ho := Pipeline.OwnSemFacts.none _
  hbody c := (body_obligation1 (In1 m outs) c).loose
  hwaits := Pipeline.hwaits_of_owed_zero _ _ _ _ L lv 1 fun _ _ => rfl
  pre c := iprop(StableHlo.held (c : Thread nD τ) (Pipeline.ucRefs τ sig) (Gen.V3 m outs c) ∗ R c)
  post c := iprop(StableHlo.held (c : Thread nD τ) (Pipeline.ucRefs τ sig) (Gen.V4 m outs c) ∗ R c)
  X c := iprop(∃ r, prngReg c r)
  Y c := iprop(∃ r, prngReg c r)
  Z c := Pipeline.unscopedRest (Ix := Unit) (Name := ℕ) (U := UR sig nD τ) (Lvl := ℕ) spec1 c ((In1 m outs) c)
  hentry c := by
    rw [Pipeline.ownSems0_none]
    have hsplit := Pipeline.arrays_of_unscopedBufs (p := 1) (pcfgs (F := F)) Gen.adm (pdats m outs) launch1.win launch1.arr_whole c
      ((pdats m outs 1 c).share_full fun _ => rfl) ((In1 m outs) c) fun w => A_eq1 (In1 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m outs) ((pdats m outs 1 c).share_full fun _ => rfl)
      ((In1 m outs) c) (fun b => Gen.V4 m outs c b) ((pdats m outs 1 c).arrAt · cfg1.N) (hF1 m outs hO c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameReg2.lean ====
/-
  Region 2 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.FrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 2 -/

theorem V6_at_6 (c : Dev nD) : Gen.V6 m outs c main_v54_0 = outs 6 main_v54_0 c := by
  simp only [Gen.V6]; rw [Function.update_of_ne (StableHlo.devRef_ne_of_ne (by decide) : (Proc.devRef .tc main_v54_0 : DevRef τ sig) ≠ Proc.devRef .tc main_v54_2), Function.update_of_ne (StableHlo.devRef_ne_of_ne (by decide) : (Proc.devRef .tc main_v54_0 : DevRef τ sig) ≠ Proc.devRef .tc main_v54_1), Function.update_self]
theorem V6_at_7 (c : Dev nD) : Gen.V6 m outs c main_v54_1 = outs 6 main_v54_1 c := by
  simp only [Gen.V6]; rw [Function.update_of_ne (StableHlo.devRef_ne_of_ne (by decide) : (Proc.devRef .tc main_v54_1 : DevRef τ sig) ≠ Proc.devRef .tc main_v54_2), Function.update_self]
theorem V6_at_8 (c : Dev nD) : Gen.V6 m outs c main_v54_2 = outs 6 main_v54_2 c := by
  simp only [Gen.V6]; rw [Function.update_self]

set_option maxHeartbeats 4000000 in
/-- At region 2's exit each of its arrays holds what the pipeline leaves: an input as entered, an output at the
    contents named for it. -/
theorem hFgen2 {c : Dev nD} (V' : (b : Ref sig .tc) → Buf (Elt F) ((c : Thread nD τ).loc b))
    (dat : Dat τ (Elt F) Unit ℕ (UR sig nD τ) ℕ cfg2 c) (h0 : dat.arrAt 0 cfg2.N = V' main_v29) (h1 : dat.arrAt 1 cfg2.N = V' main_v51) (h2 : dat.arrAt 2 cfg2.N = V' main_v31) (h3 : dat.arrAt 3 cfg2.N = V' main_v52) (h4 : dat.arrAt 4 cfg2.N = V' main_v35) (h5 : dat.arrAt 5 cfg2.N = V' main_v53) (h6 : dat.arrAt 6 cfg2.N = V' main_v54_0) (h7 : dat.arrAt 7 cfg2.N = V' main_v54_1) (h8 : dat.arrAt 8 cfg2.N = V' main_v54_2) :
    ∀ w : Fin 9, dat.arrAt w cfg2.N = V' (Pipeline.arrRef spec2 w)
  | 0 => h0
  | 1 => h1
  | 2 => h2
  | 3 => h3
  | 4 => h4
  | 5 => h5
  | 6 => h6
  | 7 => h7
  | 8 => h8
  | ⟨_ + 9, h⟩ => absurd h (by omega)

theorem hF2 (hO : OutsOK m outs) (c : Dev nD) : ∀ w : Fin 9, (pdats m outs 2 c).arrAt w cfg2.N = Gen.V6 m outs c (Pipeline.arrRef spec2 w) :=
  hFgen2 (fun b => Gen.V6 m outs c b) (pdats m outs 2 c)
    (((dat2 (In2 m outs) c).arrAt_in 0 rfl _).trans ((A_eq2 (In2 m outs) c 0).trans (Gen.V6_of m outs c main_v29 (by decide)).symm))
    (((dat2 (In2 m outs) c).arrAt_in 1 rfl _).trans ((A_eq2 (In2 m outs) c 1).trans (Gen.V6_of m outs c main_v51 (by decide)).symm))
    (((dat2 (In2 m outs) c).arrAt_in 2 rfl _).trans ((A_eq2 (In2 m outs) c 2).trans (Gen.V6_of m outs c main_v31 (by decide)).symm))
    (((dat2 (In2 m outs) c).arrAt_in 3 rfl _).trans ((A_eq2 (In2 m outs) c 3).trans (Gen.V6_of m outs c main_v52 (by decide)).symm))
    (((dat2 (In2 m outs) c).arrAt_in 4 rfl _).trans ((A_eq2 (In2 m outs) c 4).trans (Gen.V6_of m outs c main_v35 (by decide)).symm))
    (((dat2 (In2 m outs) c).arrAt_in 5 rfl _).trans ((A_eq2 (In2 m outs) c 5).trans (Gen.V6_of m outs c main_v53 (by decide)).symm))
    ((hO.o2_6 c).symm.trans (V6_at_6 m outs c).symm)
    ((hO.o2_7 c).symm.trans (V6_at_7 m outs c).symm)
    ((hO.o2_8 c).symm.trans (V6_at_8 m outs c).symm)

/-- Every other buffer holds what it held at entry. -/
theorem hrest2 (c : Dev nD) : ∀ b, b ∉ Finset.univ.image (Pipeline.arrRef spec2) → Gen.V6 m outs c b = Gen.V5 m outs c b :=
  fun b hb => Gen.V6_of m outs c b (by
    intro hmem
    simp only [List.mem_cons, List.not_mem_nil, or_false] at hmem
    rcases hmem with rfl | rfl | rfl
    · exact hb (Finset.mem_image.mpr ⟨6, Finset.mem_univ _, rfl⟩)
    · exact hb (Finset.mem_image.mpr ⟨7, Finset.mem_univ _, rfl⟩)
    · exact hb (Finset.mem_image.mpr ⟨8, Finset.mem_univ _, rfl⟩))

set_option backward.isDefEq.respectTransparency.types false in
/-- Region 2 over the thread state: entered from every unscoped buffer at the contents before it, left at the contents
    after it; its arrays split out of the unscoped buffers and put back at the exit contents; the generator register
    into the invariant and out; nothing owed; no semaphore of the kernel's own. -/
def reg2 (hO : OutsOK m outs) : Pipeline.RegionSeg (pcfgs (F := F)) Gen.adm (pdats m outs) () defs₀ Variants.none L lv 2 where
  win := launch2.win.to₀
  block_pos := launch2.block_pos
  stage_whole := launch2.stage_whole
  K := PEmpty
  osem k := k.elim
  ho := Pipeline.OwnSemFacts.none _
  hbody c := (body_obligation2 (In2 m outs) c).loose
  hwaits := Pipeline.hwaits_of_owed_zero _ _ _ _ L lv 2 fun _ _ => rfl
  pre c := iprop(StableHlo.held (c : Thread nD τ) (Pipeline.ucRefs τ sig) (Gen.V5 m outs c) ∗ R c)
  post c := iprop(StableHlo.held (c : Thread nD τ) (Pipeline.ucRefs τ sig) (Gen.V6 m outs c) ∗ R c)
  X c := iprop(∃ r, prngReg c r)
  Y c := iprop(∃ r, prngReg c r)
  Z c := Pipeline.unscopedRest (Ix := Unit) (Name := ℕ) (U := UR sig nD τ) (Lvl := ℕ) spec2 c ((In2 m outs) c)
  hentry c := by
    rw [Pipeline.ownSems0_none]
    have hsplit := Pipeline.arrays_of_unscopedBufs (p := 2) (pcfgs (F := F)) Gen.adm (pdats m outs) launch2.win launch2.arr_whole c
      ((pdats m outs 2 c).share_full fun _ => rfl) ((In2 m outs) c) fun w => A_eq2 (In2 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m outs) ((pdats m outs 2 c).share_full fun _ => rfl)
      ((In2 m outs) c) (fun b => Gen.V6 m outs c b) ((pdats m outs 2 c).arrAt · cfg2.N) (hF2 m outs hO c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameReg3.lean ====
/-
  Region 3 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.FrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 3 -/

theorem V8_at_5 (c : Dev nD) : Gen.V8 m outs c main_v67 = outs 8 main_v67 c := by
  simp only [Gen.V8]; rw [Function.update_self]

set_option maxHeartbeats 4000000 in
/-- At region 3's exit each of its arrays holds what the pipeline leaves: an input as entered, an output at the
    contents named for it. -/
theorem hFgen3 {c : Dev nD} (V' : (b : Ref sig .tc) → Buf (Elt F) ((c : Thread nD τ).loc b))
    (dat : Dat τ (Elt F) Unit ℕ (UR sig nD τ) ℕ cfg3 c) (h0 : dat.arrAt 0 cfg3.N = V' main_v54_0) (h1 : dat.arrAt 1 cfg3.N = V' main_v63) (h2 : dat.arrAt 2 cfg3.N = V' main_v64) (h3 : dat.arrAt 3 cfg3.N = V' main_v65) (h4 : dat.arrAt 4 cfg3.N = V' main_v66) (h5 : dat.arrAt 5 cfg3.N = V' main_v67) :
    ∀ w : Fin 6, dat.arrAt w cfg3.N = V' (Pipeline.arrRef spec3 w)
  | 0 => h0
  | 1 => h1
  | 2 => h2
  | 3 => h3
  | 4 => h4
  | 5 => h5
  | ⟨_ + 6, h⟩ => absurd h (by omega)

theorem hF3 (hO : OutsOK m outs) (c : Dev nD) : ∀ w : Fin 6, (pdats m outs 3 c).arrAt w cfg3.N = Gen.V8 m outs c (Pipeline.arrRef spec3 w) :=
  hFgen3 (fun b => Gen.V8 m outs c b) (pdats m outs 3 c)
    (((dat3 (In3 m outs) c).arrAt_in 0 rfl _).trans ((A_eq3 (In3 m outs) c 0).trans (Gen.V8_of m outs c main_v54_0 (by decide)).symm))
    (((dat3 (In3 m outs) c).arrAt_in 1 rfl _).trans ((A_eq3 (In3 m outs) c 1).trans (Gen.V8_of m outs c main_v63 (by decide)).symm))
    (((dat3 (In3 m outs) c).arrAt_in 2 rfl _).trans ((A_eq3 (In3 m outs) c 2).trans (Gen.V8_of m outs c main_v64 (by decide)).symm))
    (((dat3 (In3 m outs) c).arrAt_in 3 rfl _).trans ((A_eq3 (In3 m outs) c 3).trans (Gen.V8_of m outs c main_v65 (by decide)).symm))
    (((dat3 (In3 m outs) c).arrAt_in 4 rfl _).trans ((A_eq3 (In3 m outs) c 4).trans (Gen.V8_of m outs c main_v66 (by decide)).symm))
    ((hO.o3_5 c).symm.trans (V8_at_5 m outs c).symm)

/-- Every other buffer holds what it held at entry. -/
theorem hrest3 (c : Dev nD) : ∀ b, b ∉ Finset.univ.image (Pipeline.arrRef spec3) → Gen.V8 m outs c b = Gen.V7 m outs c b :=
  fun b hb => Gen.V8_of m outs c b (by
    intro hmem
    simp only [List.mem_cons, List.not_mem_nil, or_false] at hmem
    rcases hmem with rfl
    · exact hb (Finset.mem_image.mpr ⟨5, Finset.mem_univ _, rfl⟩))

set_option backward.isDefEq.respectTransparency.types false in
/-- Region 3 over the thread state: entered from every unscoped buffer at the contents before it, left at the contents
    after it; its arrays split out of the unscoped buffers and put back at the exit contents; the generator register
    into the invariant and out; nothing owed; no semaphore of the kernel's own. -/
def reg3 (hO : OutsOK m outs) : Pipeline.RegionSeg (pcfgs (F := F)) Gen.adm (pdats m outs) () defs₀ Variants.none L lv 3 where
  win := launch3.win.to₀
  block_pos := launch3.block_pos
  stage_whole := launch3.stage_whole
  K := PEmpty
  osem k := k.elim
  ho := Pipeline.OwnSemFacts.none _
  hbody c := (body_obligation3 (In3 m outs) c).loose
  hwaits := Pipeline.hwaits_of_owed_zero _ _ _ _ L lv 3 fun _ _ => rfl
  pre c := iprop(StableHlo.held (c : Thread nD τ) (Pipeline.ucRefs τ sig) (Gen.V7 m outs c) ∗ R c)
  post c := iprop(StableHlo.held (c : Thread nD τ) (Pipeline.ucRefs τ sig) (Gen.V8 m outs c) ∗ R c)
  X c := iprop(∃ r, prngReg c r)
  Y c := iprop(∃ r, prngReg c r)
  Z c := Pipeline.unscopedRest (Ix := Unit) (Name := ℕ) (U := UR sig nD τ) (Lvl := ℕ) spec3 c ((In3 m outs) c)
  hentry c := by
    rw [Pipeline.ownSems0_none]
    have hsplit := Pipeline.arrays_of_unscopedBufs (p := 3) (pcfgs (F := F)) Gen.adm (pdats m outs) launch3.win launch3.arr_whole c
      ((pdats m outs 3 c).share_full fun _ => rfl) ((In3 m outs) c) fun w => A_eq3 (In3 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m outs) ((pdats m outs 3 c).share_full fun _ => rfl)
      ((In3 m outs) c) (fun b => Gen.V8 m outs c b) ((pdats m outs 3 c).arrAt · cfg3.N) (hF3 m outs hO c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameReg4.lean ====
/-
  Region 4 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.FrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 4 -/

theorem V10_at_6 (c : Dev nD) : Gen.V10 m outs c main_v92_0 = outs 10 main_v92_0 c := by
  simp only [Gen.V10]; rw [Function.update_of_ne (StableHlo.devRef_ne_of_ne (by decide) : (Proc.devRef .tc main_v92_0 : DevRef τ sig) ≠ Proc.devRef .tc main_v92_2), Function.update_of_ne (StableHlo.devRef_ne_of_ne (by decide) : (Proc.devRef .tc main_v92_0 : DevRef τ sig) ≠ Proc.devRef .tc main_v92_1), Function.update_self]
theorem V10_at_7 (c : Dev nD) : Gen.V10 m outs c main_v92_1 = outs 10 main_v92_1 c := by
  simp only [Gen.V10]; rw [Function.update_of_ne (StableHlo.devRef_ne_of_ne (by decide) : (Proc.devRef .tc main_v92_1 : DevRef τ sig) ≠ Proc.devRef .tc main_v92_2), Function.update_self]
theorem V10_at_8 (c : Dev nD) : Gen.V10 m outs c main_v92_2 = outs 10 main_v92_2 c := by
  simp only [Gen.V10]; rw [Function.update_self]

set_option maxHeartbeats 4000000 in
/-- At region 4's exit each of its arrays holds what the pipeline leaves: an input as entered, an output at the
    contents named for it. -/
theorem hFgen4 {c : Dev nD} (V' : (b : Ref sig .tc) → Buf (Elt F) ((c : Thread nD τ).loc b))
    (dat : Dat τ (Elt F) Unit ℕ (UR sig nD τ) ℕ cfg4 c) (h0 : dat.arrAt 0 cfg4.N = V' main_v67) (h1 : dat.arrAt 1 cfg4.N = V' main_v89) (h2 : dat.arrAt 2 cfg4.N = V' main_v69) (h3 : dat.arrAt 3 cfg4.N = V' main_v90) (h4 : dat.arrAt 4 cfg4.N = V' main_v73) (h5 : dat.arrAt 5 cfg4.N = V' main_v91) (h6 : dat.arrAt 6 cfg4.N = V' main_v92_0) (h7 : dat.arrAt 7 cfg4.N = V' main_v92_1) (h8 : dat.arrAt 8 cfg4.N = V' main_v92_2) :
    ∀ w : Fin 9, dat.arrAt w cfg4.N = V' (Pipeline.arrRef spec4 w)
  | 0 => h0
  | 1 => h1
  | 2 => h2
  | 3 => h3
  | 4 => h4
  | 5 => h5
  | 6 => h6
  | 7 => h7
  | 8 => h8
  | ⟨_ + 9, h⟩ => absurd h (by omega)

theorem hF4 (hO : OutsOK m outs) (c : Dev nD) : ∀ w : Fin 9, (pdats m outs 4 c).arrAt w cfg4.N = Gen.V10 m outs c (Pipeline.arrRef spec4 w) :=
  hFgen4 (fun b => Gen.V10 m outs c b) (pdats m outs 4 c)
    (((dat4 (In4 m outs) c).arrAt_in 0 rfl _).trans ((A_eq4 (In4 m outs) c 0).trans (Gen.V10_of m outs c main_v67 (by decide)).symm))
    (((dat4 (In4 m outs) c).arrAt_in 1 rfl _).trans ((A_eq4 (In4 m outs) c 1).trans (Gen.V10_of m outs c main_v89 (by decide)).symm))
    (((dat4 (In4 m outs) c).arrAt_in 2 rfl _).trans ((A_eq4 (In4 m outs) c 2).trans (Gen.V10_of m outs c main_v69 (by decide)).symm))
    (((dat4 (In4 m outs) c).arrAt_in 3 rfl _).trans ((A_eq4 (In4 m outs) c 3).trans (Gen.V10_of m outs c main_v90 (by decide)).symm))
    (((dat4 (In4 m outs) c).arrAt_in 4 rfl _).trans ((A_eq4 (In4 m outs) c 4).trans (Gen.V10_of m outs c main_v73 (by decide)).symm))
    (((dat4 (In4 m outs) c).arrAt_in 5 rfl _).trans ((A_eq4 (In4 m outs) c 5).trans (Gen.V10_of m outs c main_v91 (by decide)).symm))
    ((hO.o4_6 c).symm.trans (V10_at_6 m outs c).symm)
    ((hO.o4_7 c).symm.trans (V10_at_7 m outs c).symm)
    ((hO.o4_8 c).symm.trans (V10_at_8 m outs c).symm)

/-- Every other buffer holds what it held at entry. -/
theorem hrest4 (c : Dev nD) : ∀ b, b ∉ Finset.univ.image (Pipeline.arrRef spec4) → Gen.V10 m outs c b = Gen.V9 m outs c b :=
  fun b hb => Gen.V10_of m outs c b (by
    intro hmem
    simp only [List.mem_cons, List.not_mem_nil, or_false] at hmem
    rcases hmem with rfl | rfl | rfl
    · exact hb (Finset.mem_image.mpr ⟨6, Finset.mem_univ _, rfl⟩)
    · exact hb (Finset.mem_image.mpr ⟨7, Finset.mem_univ _, rfl⟩)
    · exact hb (Finset.mem_image.mpr ⟨8, Finset.mem_univ _, rfl⟩))

set_option backward.isDefEq.respectTransparency.types false in
/-- Region 4 over the thread state: entered from every unscoped buffer at the contents before it, left at the contents
    after it; its arrays split out of the unscoped buffers and put back at the exit contents; the generator register
    into the invariant and out; nothing owed; no semaphore of the kernel's own. -/
def reg4 (hO : OutsOK m outs) : Pipeline.RegionSeg (pcfgs (F := F)) Gen.adm (pdats m outs) () defs₀ Variants.none L lv 4 where
  win := launch4.win.to₀
  block_pos := launch4.block_pos
  stage_whole := launch4.stage_whole
  K := PEmpty
  osem k := k.elim
  ho := Pipeline.OwnSemFacts.none _
  hbody c := (body_obligation4 (In4 m outs) c).loose
  hwaits := Pipeline.hwaits_of_owed_zero _ _ _ _ L lv 4 fun _ _ => rfl
  pre c := iprop(StableHlo.held (c : Thread nD τ) (Pipeline.ucRefs τ sig) (Gen.V9 m outs c) ∗ R c)
  post c := iprop(StableHlo.held (c : Thread nD τ) (Pipeline.ucRefs τ sig) (Gen.V10 m outs c) ∗ R c)
  X c := iprop(∃ r, prngReg c r)
  Y c := iprop(∃ r, prngReg c r)
  Z c := Pipeline.unscopedRest (Ix := Unit) (Name := ℕ) (U := UR sig nD τ) (Lvl := ℕ) spec4 c ((In4 m outs) c)
  hentry c := by
    rw [Pipeline.ownSems0_none]
    have hsplit := Pipeline.arrays_of_unscopedBufs (p := 4) (pcfgs (F := F)) Gen.adm (pdats m outs) launch4.win launch4.arr_whole c
      ((pdats m outs 4 c).share_full fun _ => rfl) ((In4 m outs) c) fun w => A_eq4 (In4 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m outs 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m outs) ((pdats m outs 4 c).share_full fun _ => rfl)
      ((In4 m outs) c) (fun b => Gen.V10 m outs c b) ((pdats m outs 4 c).arrAt · cfg4.N) (hF4 m outs hO c) (hrest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameReg5.lean ====
/-
  Region 5 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.FrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 5 -/

theorem V12_at_5 (c : Dev nD) : Gen.V12 m outs c main_v105 = outs 12 main_v105 c := by
  simp only [Gen.V12]; rw [Function.update_self]

set_option maxHeartbeats 4000000 in
/-- At region 5's exit each of its arrays holds what the pipeline leaves: an input as entered, an output at the
    contents named for it. -/
theorem hFgen5 {c : Dev nD} (V' : (b : Ref sig .tc) → Buf (Elt F) ((c : Thread nD τ).loc b))
    (dat : Dat τ (Elt F) Unit ℕ (UR sig nD τ) ℕ cfg5 c) (h0 : dat.arrAt 0 cfg5.N = V' main_v92_0) (h1 : dat.arrAt 1 cfg5.N = V' main_v101) (h2 : dat.arrAt 2 cfg5.N = V' main_v102) (h3 : dat.arrAt 3 cfg5.N = V' main_v103) (h4 : dat.arrAt 4 cfg5.N = V' main_v104) (h5 : dat.arrAt 5 cfg5.N = V' main_v105) :
    ∀ w : Fin 6, dat.arrAt w cfg5.N = V' (Pipeline.arrRef spec5 w)
  | 0 => h0
  | 1 => h1
  | 2 => h2
  | 3 => h3
  | 4 => h4
  | 5 => h5
  | ⟨_ + 6, h⟩ => absurd h (by omega)

theorem hF5 (hO : OutsOK m outs) (c : Dev nD) : ∀ w : Fin 6, (pdats m outs 5 c).arrAt w cfg5.N = Gen.V12 m outs c (Pipeline.arrRef spec5 w) :=
  hFgen5 (fun b => Gen.V12 m outs c b) (pdats m outs 5 c)
    (((dat5 (In5 m outs) c).arrAt_in 0 rfl _).trans ((A_eq5 (In5 m outs) c 0).trans (Gen.V12_of m outs c main_v92_0 (by decide)).symm))
    (((dat5 (In5 m outs) c).arrAt_in 1 rfl _).trans ((A_eq5 (In5 m outs) c 1).trans (Gen.V12_of m outs c main_v101 (by decide)).symm))
    (((dat5 (In5 m outs) c).arrAt_in 2 rfl _).trans ((A_eq5 (In5 m outs) c 2).trans (Gen.V12_of m outs c main_v102 (by decide)).symm))
    (((dat5 (In5 m outs) c).arrAt_in 3 rfl _).trans ((A_eq5 (In5 m outs) c 3).trans (Gen.V12_of m outs c main_v103 (by decide)).symm))
    (((dat5 (In5 m outs) c).arrAt_in 4 rfl _).trans ((A_eq5 (In5 m outs) c 4).trans (Gen.V12_of m outs c main_v104 (by decide)).symm))
    ((hO.o5_5 c).symm.trans (V12_at_5 m outs c).symm)

/-- Every other buffer holds what it held at entry. -/
theorem hrest5 (c : Dev nD) : ∀ b, b ∉ Finset.univ.image (Pipeline.arrRef spec5) → Gen.V12 m outs c b = Gen.V11 m outs c b :=
  fun b hb => Gen.V12_of m outs c b (by
    intro hmem
    simp only [List.mem_cons, List.not_mem_nil, or_false] at hmem
    rcases hmem with rfl
    · exact hb (Finset.mem_image.mpr ⟨5, Finset.mem_univ _, rfl⟩))

set_option backward.isDefEq.respectTransparency.types false in
/-- Region 5 over the thread state: entered from every unscoped buffer at the contents before it, left at the contents
    after it; its arrays split out of the unscoped buffers and put back at the exit contents; the generator register
    into the invariant and out; nothing owed; no semaphore of the kernel's own. -/
def reg5 (hO : OutsOK m outs) : Pipeline.RegionSeg (pcfgs (F := F)) Gen.adm (pdats m outs) () defs₀ Variants.none L lv 5 where
  win := launch5.win.to₀
  block_pos := launch5.block_pos
  stage_whole := launch5.stage_whole
  K := PEmpty
  osem k := k.elim
  ho := Pipeline.OwnSemFacts.none _
  hbody c := (body_obligation5 (In5 m outs) c).loose
  hwaits := Pipeline.hwaits_of_owed_zero _ _ _ _ L lv 5 fun _ _ => rfl
  pre c := iprop(StableHlo.held (c : Thread nD τ) (Pipeline.ucRefs τ sig) (Gen.V11 m outs c) ∗ R c)
  post c := iprop(StableHlo.held (c : Thread nD τ) (Pipeline.ucRefs τ sig) (Gen.V12 m outs c) ∗ R c)
  X c := iprop(∃ r, prngReg c r)
  Y c := iprop(∃ r, prngReg c r)
  Z c := Pipeline.unscopedRest (Ix := Unit) (Name := ℕ) (U := UR sig nD τ) (Lvl := ℕ) spec5 c ((In5 m outs) c)
  hentry c := by
    rw [Pipeline.ownSems0_none]
    have hsplit := Pipeline.arrays_of_unscopedBufs (p := 5) (pcfgs (F := F)) Gen.adm (pdats m outs) launch5.win launch5.arr_whole c
      ((pdats m outs 5 c).share_full fun _ => rfl) ((In5 m outs) c) fun w => A_eq5 (In5 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m outs) ((pdats m outs 5 c).share_full fun _ => rfl)
      ((In5 m outs) c) (fun b => Gen.V12 m outs c b) ((pdats m outs 5 c).arrAt · cfg5.N) (hF5 m outs hO c) (hrest5 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameReg6.lean ====
/-
  Region 6 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.FrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 6 -/

theorem V14_at_6 (c : Dev nD) : Gen.V14 m outs c main_v130_0 = outs 14 main_v130_0 c := by
  simp only [Gen.V14]; rw [Function.update_of_ne (StableHlo.devRef_ne_of_ne (by decide) : (Proc.devRef .tc main_v130_0 : DevRef τ sig) ≠ Proc.devRef .tc main_v130_2), Function.update_of_ne (StableHlo.devRef_ne_of_ne (by decide) : (Proc.devRef .tc main_v130_0 : DevRef τ sig) ≠ Proc.devRef .tc main_v130_1), Function.update_self]
theorem V14_at_7 (c : Dev nD) : Gen.V14 m outs c main_v130_1 = outs 14 main_v130_1 c := by
  simp only [Gen.V14]; rw [Function.update_of_ne (StableHlo.devRef_ne_of_ne (by decide) : (Proc.devRef .tc main_v130_1 : DevRef τ sig) ≠ Proc.devRef .tc main_v130_2), Function.update_self]
theorem V14_at_8 (c : Dev nD) : Gen.V14 m outs c main_v130_2 = outs 14 main_v130_2 c := by
  simp only [Gen.V14]; rw [Function.update_self]

set_option maxHeartbeats 4000000 in
/-- At region 6's exit each of its arrays holds what the pipeline leaves: an input as entered, an output at the
    contents named for it. -/
theorem hFgen6 {c : Dev nD} (V' : (b : Ref sig .tc) → Buf (Elt F) ((c : Thread nD τ).loc b))
    (dat : Dat τ (Elt F) Unit ℕ (UR sig nD τ) ℕ cfg6 c) (h0 : dat.arrAt 0 cfg6.N = V' main_v105) (h1 : dat.arrAt 1 cfg6.N = V' main_v127) (h2 : dat.arrAt 2 cfg6.N = V' main_v107) (h3 : dat.arrAt 3 cfg6.N = V' main_v128) (h4 : dat.arrAt 4 cfg6.N = V' main_v111) (h5 : dat.arrAt 5 cfg6.N = V' main_v129) (h6 : dat.arrAt 6 cfg6.N = V' main_v130_0) (h7 : dat.arrAt 7 cfg6.N = V' main_v130_1) (h8 : dat.arrAt 8 cfg6.N = V' main_v130_2) :
    ∀ w : Fin 9, dat.arrAt w cfg6.N = V' (Pipeline.arrRef spec6 w)
  | 0 => h0
  | 1 => h1
  | 2 => h2
  | 3 => h3
  | 4 => h4
  | 5 => h5
  | 6 => h6
  | 7 => h7
  | 8 => h8
  | ⟨_ + 9, h⟩ => absurd h (by omega)

theorem hF6 (hO : OutsOK m outs) (c : Dev nD) : ∀ w : Fin 9, (pdats m outs 6 c).arrAt w cfg6.N = Gen.V14 m outs c (Pipeline.arrRef spec6 w) :=
  hFgen6 (fun b => Gen.V14 m outs c b) (pdats m outs 6 c)
    (((dat6 (In6 m outs) c).arrAt_in 0 rfl _).trans ((A_eq6 (In6 m outs) c 0).trans (Gen.V14_of m outs c main_v105 (by decide)).symm))
    (((dat6 (In6 m outs) c).arrAt_in 1 rfl _).trans ((A_eq6 (In6 m outs) c 1).trans (Gen.V14_of m outs c main_v127 (by decide)).symm))
    (((dat6 (In6 m outs) c).arrAt_in 2 rfl _).trans ((A_eq6 (In6 m outs) c 2).trans (Gen.V14_of m outs c main_v107 (by decide)).symm))
    (((dat6 (In6 m outs) c).arrAt_in 3 rfl _).trans ((A_eq6 (In6 m outs) c 3).trans (Gen.V14_of m outs c main_v128 (by decide)).symm))
    (((dat6 (In6 m outs) c).arrAt_in 4 rfl _).trans ((A_eq6 (In6 m outs) c 4).trans (Gen.V14_of m outs c main_v111 (by decide)).symm))
    (((dat6 (In6 m outs) c).arrAt_in 5 rfl _).trans ((A_eq6 (In6 m outs) c 5).trans (Gen.V14_of m outs c main_v129 (by decide)).symm))
    ((hO.o6_6 c).symm.trans (V14_at_6 m outs c).symm)
    ((hO.o6_7 c).symm.trans (V14_at_7 m outs c).symm)
    ((hO.o6_8 c).symm.trans (V14_at_8 m outs c).symm)

/-- Every other buffer holds what it held at entry. -/
theorem hrest6 (c : Dev nD) : ∀ b, b ∉ Finset.univ.image (Pipeline.arrRef spec6) → Gen.V14 m outs c b = Gen.V13 m outs c b :=
  fun b hb => Gen.V14_of m outs c b (by
    intro hmem
    simp only [List.mem_cons, List.not_mem_nil, or_false] at hmem
    rcases hmem with rfl | rfl | rfl
    · exact hb (Finset.mem_image.mpr ⟨6, Finset.mem_univ _, rfl⟩)
    · exact hb (Finset.mem_image.mpr ⟨7, Finset.mem_univ _, rfl⟩)
    · exact hb (Finset.mem_image.mpr ⟨8, Finset.mem_univ _, rfl⟩))

set_option backward.isDefEq.respectTransparency.types false in
/-- Region 6 over the thread state: entered from every unscoped buffer at the contents before it, left at the contents
    after it; its arrays split out of the unscoped buffers and put back at the exit contents; the generator register
    into the invariant and out; nothing owed; no semaphore of the kernel's own. -/
def reg6 (hO : OutsOK m outs) : Pipeline.RegionSeg (pcfgs (F := F)) Gen.adm (pdats m outs) () defs₀ Variants.none L lv 6 where
  win := launch6.win.to₀
  block_pos := launch6.block_pos
  stage_whole := launch6.stage_whole
  K := PEmpty
  osem k := k.elim
  ho := Pipeline.OwnSemFacts.none _
  hbody c := (body_obligation6 (In6 m outs) c).loose
  hwaits := Pipeline.hwaits_of_owed_zero _ _ _ _ L lv 6 fun _ _ => rfl
  pre c := iprop(StableHlo.held (c : Thread nD τ) (Pipeline.ucRefs τ sig) (Gen.V13 m outs c) ∗ R c)
  post c := iprop(StableHlo.held (c : Thread nD τ) (Pipeline.ucRefs τ sig) (Gen.V14 m outs c) ∗ R c)
  X c := iprop(∃ r, prngReg c r)
  Y c := iprop(∃ r, prngReg c r)
  Z c := Pipeline.unscopedRest (Ix := Unit) (Name := ℕ) (U := UR sig nD τ) (Lvl := ℕ) spec6 c ((In6 m outs) c)
  hentry c := by
    rw [Pipeline.ownSems0_none]
    have hsplit := Pipeline.arrays_of_unscopedBufs (p := 6) (pcfgs (F := F)) Gen.adm (pdats m outs) launch6.win launch6.arr_whole c
      ((pdats m outs 6 c).share_full fun _ => rfl) ((In6 m outs) c) fun w => A_eq6 (In6 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m outs 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := UR sig nD τ) (Lvl := ℕ)
      launch6.win launch6.arr_whole c (pdats m outs) ((pdats m outs 6 c).share_full fun _ => rfl)
      ((In6 m outs) c) (fun b => Gen.V14 m outs c b) ((pdats m outs 6 c).arrAt · cfg6.N) (hF6 m outs hO c) (hrest6 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameReg7.lean ====
/-
  Region 7 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.FrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 7 -/

theorem V16_at_5 (c : Dev nD) : Gen.V16 m outs c main_v143 = outs 16 main_v143 c := by
  simp only [Gen.V16]; rw [Function.update_self]

set_option maxHeartbeats 4000000 in
/-- At region 7's exit each of its arrays holds what the pipeline leaves: an input as entered, an output at the
    contents named for it. -/
theorem hFgen7 {c : Dev nD} (V' : (b : Ref sig .tc) → Buf (Elt F) ((c : Thread nD τ).loc b))
    (dat : Dat τ (Elt F) Unit ℕ (UR sig nD τ) ℕ cfg7 c) (h0 : dat.arrAt 0 cfg7.N = V' main_v130_0) (h1 : dat.arrAt 1 cfg7.N = V' main_v139) (h2 : dat.arrAt 2 cfg7.N = V' main_v140) (h3 : dat.arrAt 3 cfg7.N = V' main_v141) (h4 : dat.arrAt 4 cfg7.N = V' main_v142) (h5 : dat.arrAt 5 cfg7.N = V' main_v143) :
    ∀ w : Fin 6, dat.arrAt w cfg7.N = V' (Pipeline.arrRef spec7 w)
  | 0 => h0
  | 1 => h1
  | 2 => h2
  | 3 => h3
  | 4 => h4
  | 5 => h5
  | ⟨_ + 6, h⟩ => absurd h (by omega)

theorem hF7 (hO : OutsOK m outs) (c : Dev nD) : ∀ w : Fin 6, (pdats m outs 7 c).arrAt w cfg7.N = Gen.V16 m outs c (Pipeline.arrRef spec7 w) :=
  hFgen7 (fun b => Gen.V16 m outs c b) (pdats m outs 7 c)
    (((dat7 (In7 m outs) c).arrAt_in 0 rfl _).trans ((A_eq7 (In7 m outs) c 0).trans (Gen.V16_of m outs c main_v130_0 (by decide)).symm))
    (((dat7 (In7 m outs) c).arrAt_in 1 rfl _).trans ((A_eq7 (In7 m outs) c 1).trans (Gen.V16_of m outs c main_v139 (by decide)).symm))
    (((dat7 (In7 m outs) c).arrAt_in 2 rfl _).trans ((A_eq7 (In7 m outs) c 2).trans (Gen.V16_of m outs c main_v140 (by decide)).symm))
    (((dat7 (In7 m outs) c).arrAt_in 3 rfl _).trans ((A_eq7 (In7 m outs) c 3).trans (Gen.V16_of m outs c main_v141 (by decide)).symm))
    (((dat7 (In7 m outs) c).arrAt_in 4 rfl _).trans ((A_eq7 (In7 m outs) c 4).trans (Gen.V16_of m outs c main_v142 (by decide)).symm))
    ((hO.o7_5 c).symm.trans (V16_at_5 m outs c).symm)

/-- Every other buffer holds what it held at entry. -/
theorem hrest7 (c : Dev nD) : ∀ b, b ∉ Finset.univ.image (Pipeline.arrRef spec7) → Gen.V16 m outs c b = Gen.V15 m outs c b :=
  fun b hb => Gen.V16_of m outs c b (by
    intro hmem
    simp only [List.mem_cons, List.not_mem_nil, or_false] at hmem
    rcases hmem with rfl
    · exact hb (Finset.mem_image.mpr ⟨5, Finset.mem_univ _, rfl⟩))

set_option backward.isDefEq.respectTransparency.types false in
/-- Region 7 over the thread state: entered from every unscoped buffer at the contents before it, left at the contents
    after it; its arrays split out of the unscoped buffers and put back at the exit contents; the generator register
    into the invariant and out; nothing owed; no semaphore of the kernel's own. -/
def reg7 (hO : OutsOK m outs) : Pipeline.RegionSeg (pcfgs (F := F)) Gen.adm (pdats m outs) () defs₀ Variants.none L lv 7 where
  win := launch7.win.to₀
  block_pos := launch7.block_pos
  stage_whole := launch7.stage_whole
  K := PEmpty
  osem k := k.elim
  ho := Pipeline.OwnSemFacts.none _
  hbody c := (body_obligation7 (In7 m outs) c).loose
  hwaits := Pipeline.hwaits_of_owed_zero _ _ _ _ L lv 7 fun _ _ => rfl
  pre c := iprop(StableHlo.held (c : Thread nD τ) (Pipeline.ucRefs τ sig) (Gen.V15 m outs c) ∗ R c)
  post c := iprop(StableHlo.held (c : Thread nD τ) (Pipeline.ucRefs τ sig) (Gen.V16 m outs c) ∗ R c)
  X c := iprop(∃ r, prngReg c r)
  Y c := iprop(∃ r, prngReg c r)
  Z c := Pipeline.unscopedRest (Ix := Unit) (Name := ℕ) (U := UR sig nD τ) (Lvl := ℕ) spec7 c ((In7 m outs) c)
  hentry c := by
    rw [Pipeline.ownSems0_none]
    have hsplit := Pipeline.arrays_of_unscopedBufs (p := 7) (pcfgs (F := F)) Gen.adm (pdats m outs) launch7.win launch7.arr_whole c
      ((pdats m outs 7 c).share_full fun _ => rfl) ((In7 m outs) c) fun w => A_eq7 (In7 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m outs 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) Gen.adm (Ix := Unit) (Name := ℕ) (U := UR sig nD τ) (Lvl := ℕ)
      launch7.win launch7.arr_whole c (pdats m outs) ((pdats m outs 7 c).share_full fun _ => rfl)
      ((In7 m outs) c) (fun b => Gen.V16 m outs c b) ((pdats m outs 7 c).arrAt · cfg7.N) (hF7 m outs hO c) (hrest7 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameReg8.lean ====
/-
  Region 8 as a segment of the program: entered from every unscoped buffer at the contents before it, left at the
  contents after it. At its exit each of its arrays holds what its pipeline leaves — an input array as entered, an
  output array at the contents named for it — and every other buffer what it held at entry; the arrays are split out of
  the unscoped buffers at entry and put back at exit; the generator register passes through the invariant; nothing is
  owed; the kernel has no semaphore of its own.
-/
import proofs.«117300_j5643587027248_1_alg».proof.Proof.FrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## Region 8 -/

theorem V18_at_5 (c : Dev nD) : Gen.V18 m outs c main_v159 = outs 18 main_v159 c := by
  simp only [Gen.V18]; rw [Function.update_self]

set_option maxHeartbeats 4000000 in
/-- At region 8's exit each of its arrays holds what the pipeline leaves: an input as entered, an output at the
    contents named for it. -/
theorem hFgen8 {c : Dev nD} (V' : (b : Ref sig .tc) → Buf (Elt F) ((c : Thread nD τ).loc b))
    (dat : Dat τ (Elt F) Unit ℕ (UR sig nD τ) ℕ cfg8 c) (h0 : dat.arrAt 0 cfg8.N = V' main_v156) (h1 : dat.arrAt 1 cfg8.N = V' main_arg15) (h2 : dat.arrAt 2 cfg8.N = V' main_v157) (h3 : dat.arrAt 3 cfg8.N = V' main_arg17) (h4 : dat.arrAt 4 cfg8.N = V' main_v158) (h5 : dat.arrAt 5 cfg8.N = V' main_v159) :
    ∀ w : Fin 6, dat.arrAt w cfg8.N = V' (Pipeline.arrRef spec8 w)
  | 0 => h0
  | 1 => h1
  | 2 => h2
  | 3 => h3
  | 4 => h4
  | 5 => h5
  | ⟨_ + 6, h⟩ => absurd h (by omega)

theorem hF8 (hO : OutsOK m outs) (c : Dev nD) : ∀ w : Fin 6, (pdats m outs 8 c).arrAt w cfg8.N = Gen.V18 m outs c (Pipeline.arrRef spec8 w) :=
  hFgen8 (fun b => Gen.V18 m outs c b) (pdats m outs 8 c)
    (((dat8 (In8 m outs) c).arrAt_in 0 rfl _).trans ((A_eq8 (In8 m outs) c 0).trans (Gen.V18_of m outs c main_v156 (by decide)).symm))
    (((dat8 (In8 m outs) c).arrAt_in 1 rfl _).trans ((A_eq8 (In8 m outs) c 1).trans (Gen.V18_of m outs c main_arg15 (by decide)).symm))
    (((dat8 (In8 m outs) c).arrAt_in 2 rfl _).trans ((A_eq8 (In8 m outs) c 2).trans (Gen.V18_of m outs c main_v157 (by decide)).symm))
    (((dat8 (In8 m outs) c).arrAt_in 3 rfl _).trans ((A_eq8 (In8 m outs) c 3).trans (Gen.V18_of m outs c main_arg17 (by decide)).symm))
    (((dat8 (In8 m outs) c).arrAt_in 4 rfl _).trans ((A_eq8 (In8 m outs) c 4).trans (Gen.V18_of m outs c main_v158 (by decide)).symm))
    ((hO.o8_5 c).symm.trans (V18_at_5 m outs c).symm)

/-- Every other buffer holds what it held at entry. -/
theorem hrest8 (c : Dev nD) : ∀ b, b ∉ Finset.univ.image (Pipeline.arrRef spec8) → Gen.V18 m outs c b = Gen.V17 m outs c b :=
  fun b hb => Gen.V18_of m outs c b (by
    intro hmem
    simp only [List.mem_cons, List.not_mem_nil, or_false] at hmem
    rcases hmem with rfl
    · exact hb (Finset.mem_image.mpr ⟨5, Finset.mem_univ _, rfl⟩))

set_option backward.isDefEq.respectTransparency.types false in
/-- Region 8 over the thread state: entered from every unscoped buffer at the contents before it, left at the contents
    after it; its arrays split out of the unscoped buffers and put back at the exit contents; the generator register
    into the invariant and out; nothing owed; no semaphore of the kernel's own. -/
def reg8 (hO : OutsOK m outs) : Pipeline.RegionSeg (pcfgs (F := F)) Gen.adm (pdats m outs) () defs₀ Variants.none L lv 8 where
  win := launch8.win.to₀
  block_pos := launch8.block_pos
  stage_whole := launch8.stage_whole
  K := PEmpty
  osem k := k.elim
  ho := Pipeline.OwnSemFacts.none _
  hbody c := (body_obligation8 (In8 m outs) c).loose
  hwaits := Pipeline.hwaits_of_owed_zero _ _ _ _ L lv 8 fun _ _ => rfl
  pre c := iprop(StableHlo.held (c : Thread nD τ) (Pipeline.ucRefs τ sig) (Gen.V17 m outs c) ∗ R c)
  post c := iprop(StableHlo.held (c : Thread nD τ) (Pipeline.ucRefs τ sig) (Gen.V18 m outs c) ∗ R c)
  X c := iprop(∃ r, prngReg c r)
  Y c := iprop(∃ r, prngReg c r)
  Z c := Pipeline.unscopedRest (Ix := Unit) (Name := ℕ) (U := UR sig nD τ) (Lvl := ℕ) spec8 c ((In8 m outs) c)
  hentry c := by
    rw [Pipeline.ownSems0_none]
    have hsplit := Pipeline.arrays_of_unscopedBufs (p := 8) (pcfgs (F := F)) Gen.adm (pdats m outs) launch8.win launch8.arr_whole c
      ((pdats m outs 8 c).share_full fun _ => rfl) ((In8 m outs) c) fun w => A_eq8 (In8 m outs) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m outs 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) Gen.adm (Ix := Unit) (Name := ℕ) (U := UR sig nD τ) (Lvl := ℕ)
      launch8.win launch8.arr_whole c (pdats m outs) ((pdats m outs 8 c).share_full fun _ => rfl)
      ((In8 m outs) c) (fun b => Gen.V18 m outs c b) ((pdats m outs 8 c).arrAt · cfg8.N) (hF8 m outs hO c) (hrest8 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameRun.lean ====
/-
  The program's frame and run from its nine regions' segment records: for any named contents of the regions' outputs
  that are what the pipelines leave, the program runs to the end with its arguments as launched and its result at the
  named contents; and such contents exist, built region by region (the buffers after a region are the buffers before
  it with the region's arrays at what its pipeline leaves).
-/
import proofs.«117300_j5643587027248_1_alg».proof.Proof.FrameReg0
import proofs.«117300_j5643587027248_1_alg».proof.Proof.FrameReg1
import proofs.«117300_j5643587027248_1_alg».proof.Proof.FrameReg2
import proofs.«117300_j5643587027248_1_alg».proof.Proof.FrameReg3
import proofs.«117300_j5643587027248_1_alg».proof.Proof.FrameReg4
import proofs.«117300_j5643587027248_1_alg».proof.Proof.FrameReg5
import proofs.«117300_j5643587027248_1_alg».proof.Proof.FrameReg6
import proofs.«117300_j5643587027248_1_alg».proof.Proof.FrameReg7
import proofs.«117300_j5643587027248_1_alg».proof.Proof.FrameReg8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-! ## The run and the frame -/

set_option backward.isDefEq.respectTransparency.types false in
/-- From any memory with zero counters every weakly fair execution of the program terminates, nothing faulting, and every
    final memory holds the result array at the contents named for the last region's output and each argument array as
    launched — for any named contents of the regions' outputs that are what the regions' pipelines leave. -/
theorem run_of_outs (hO : OutsOK m outs) (ρ : Dev nD → PrngReg) :
    θ_run defs (onTc (τ := τ) (main (F := F))) ⟨m, fun _ => 0, ρ⟩ (fun r => ∀ c : Dev nD,
      r.2.mem ((c.tc : Thread nD τ).loc main_v159) = outs 18 main_v159 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  run_cond m emb₁ () Variants.none L lv (fun _ _ => rfl) ρ outs (pdats m outs)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE9 := fun c => by iintro ⟨-, H⟩; iexact H)
    (reg0 m outs hO) (fun _ => .rfl) (fun _ => .rfl)
    (reg1 m outs hO) (fun _ => .rfl) (fun _ => .rfl)
    (reg2 m outs hO) (fun _ => .rfl) (fun _ => .rfl)
    (reg3 m outs hO) (fun _ => .rfl) (fun _ => .rfl)
    (reg4 m outs hO) (fun _ => .rfl) (fun _ => .rfl)
    (reg5 m outs hO) (fun _ => .rfl) (fun _ => .rfl)
    (reg6 m outs hO) (fun _ => .rfl) (fun _ => .rfl)
    (reg7 m outs hO) (fun _ => .rfl) (fun _ => .rfl)
    (reg8 m outs hO) (fun _ => .rfl) (fun _ => .rfl)

/-- The frame: the same run, the result's contents forgotten. -/
theorem frame_of_outs (hO : OutsOK m outs) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => (h c).2) (run_of_outs m outs hO ρ)

/-! ## The contents between items depend on the named contents only below the item -/
theorem V2_congr (o o' : Gen.Outs (F := F)) (h : ∀ i ≤ 2, o i = o' i) (c : Dev nD) : Gen.V2 m o c = Gen.V2 m o' c := by
  simp only [Gen.V2]; rw [h 2 le_rfl]
theorem V3_congr (o o' : Gen.Outs (F := F)) (h : ∀ i ≤ 2, o i = o' i) (c : Dev nD) : Gen.V3 m o c = Gen.V3 m o' c := by
  simp only [Gen.V3]; rw [V2_congr m o o' (fun i hi => h i (by omega)) c]
theorem V4_congr (o o' : Gen.Outs (F := F)) (h : ∀ i ≤ 4, o i = o' i) (c : Dev nD) : Gen.V4 m o c = Gen.V4 m o' c := by
  simp only [Gen.V4]; rw [V3_congr m o o' (fun i hi => h i (by omega)) c, h 4 le_rfl]
theorem V5_congr (o o' : Gen.Outs (F := F)) (h : ∀ i ≤ 4, o i = o' i) (c : Dev nD) : Gen.V5 m o c = Gen.V5 m o' c := by
  simp only [Gen.V5]; rw [V4_congr m o o' (fun i hi => h i (by omega)) c]
theorem V6_congr (o o' : Gen.Outs (F := F)) (h : ∀ i ≤ 6, o i = o' i) (c : Dev nD) : Gen.V6 m o c = Gen.V6 m o' c := by
  simp only [Gen.V6]; rw [V5_congr m o o' (fun i hi => h i (by omega)) c, h 6 le_rfl]
theorem V7_congr (o o' : Gen.Outs (F := F)) (h : ∀ i ≤ 6, o i = o' i) (c : Dev nD) : Gen.V7 m o c = Gen.V7 m o' c := by
  simp only [Gen.V7]; rw [V6_congr m o o' (fun i hi => h i (by omega)) c]
theorem V8_congr (o o' : Gen.Outs (F := F)) (h : ∀ i ≤ 8, o i = o' i) (c : Dev nD) : Gen.V8 m o c = Gen.V8 m o' c := by
  simp only [Gen.V8]; rw [V7_congr m o o' (fun i hi => h i (by omega)) c, h 8 le_rfl]
theorem V9_congr (o o' : Gen.Outs (F := F)) (h : ∀ i ≤ 8, o i = o' i) (c : Dev nD) : Gen.V9 m o c = Gen.V9 m o' c := by
  simp only [Gen.V9]; rw [V8_congr m o o' (fun i hi => h i (by omega)) c]
theorem V10_congr (o o' : Gen.Outs (F := F)) (h : ∀ i ≤ 10, o i = o' i) (c : Dev nD) : Gen.V10 m o c = Gen.V10 m o' c := by
  simp only [Gen.V10]; rw [V9_congr m o o' (fun i hi => h i (by omega)) c, h 10 le_rfl]
theorem V11_congr (o o' : Gen.Outs (F := F)) (h : ∀ i ≤ 10, o i = o' i) (c : Dev nD) : Gen.V11 m o c = Gen.V11 m o' c := by
  simp only [Gen.V11]; rw [V10_congr m o o' (fun i hi => h i (by omega)) c]
theorem V12_congr (o o' : Gen.Outs (F := F)) (h : ∀ i ≤ 12, o i = o' i) (c : Dev nD) : Gen.V12 m o c = Gen.V12 m o' c := by
  simp only [Gen.V12]; rw [V11_congr m o o' (fun i hi => h i (by omega)) c, h 12 le_rfl]
theorem V13_congr (o o' : Gen.Outs (F := F)) (h : ∀ i ≤ 12, o i = o' i) (c : Dev nD) : Gen.V13 m o c = Gen.V13 m o' c := by
  simp only [Gen.V13]; rw [V12_congr m o o' (fun i hi => h i (by omega)) c]
theorem V14_congr (o o' : Gen.Outs (F := F)) (h : ∀ i ≤ 14, o i = o' i) (c : Dev nD) : Gen.V14 m o c = Gen.V14 m o' c := by
  simp only [Gen.V14]; rw [V13_congr m o o' (fun i hi => h i (by omega)) c, h 14 le_rfl]
theorem V15_congr (o o' : Gen.Outs (F := F)) (h : ∀ i ≤ 14, o i = o' i) (c : Dev nD) : Gen.V15 m o c = Gen.V15 m o' c := by
  simp only [Gen.V15]; rw [V14_congr m o o' (fun i hi => h i (by omega)) c]
theorem V16_congr (o o' : Gen.Outs (F := F)) (h : ∀ i ≤ 16, o i = o' i) (c : Dev nD) : Gen.V16 m o c = Gen.V16 m o' c := by
  simp only [Gen.V16]; rw [V15_congr m o o' (fun i hi => h i (by omega)) c, h 16 le_rfl]
theorem V17_congr (o o' : Gen.Outs (F := F)) (h : ∀ i ≤ 16, o i = o' i) (c : Dev nD) : Gen.V17 m o c = Gen.V17 m o' c := by
  simp only [Gen.V17]; rw [V16_congr m o o' (fun i hi => h i (by omega)) c]
theorem V18_congr (o o' : Gen.Outs (F := F)) (h : ∀ i ≤ 18, o i = o' i) (c : Dev nD) : Gen.V18 m o c = Gen.V18 m o' c := by
  simp only [Gen.V18]; rw [V17_congr m o o' (fun i hi => h i (by omega)) c, h 18 le_rfl]

/-! ## The named contents exist: built region by region -/

/-- Before any region nothing is named: any contents (never read). -/
def outsS0 : Gen.Outs (F := F) := fun _ r c => m ((c : Thread nD τ).loc r)

/-- The buffers after region 0: its arrays at what its pipeline leaves, every other buffer as entered. -/
def after0 (c : Dev nD) : Valuation τ sig (Elt F) :=
  Pipeline.withArrays spec0 c (Gen.V1 m c) fun w => (dat0 (In0 m) c).arrAt w cfg0.N
/-- The named contents up to region 0. -/
def outsS1 : Gen.Outs (F := F) := Function.update (outsS0 m) 2 (fun r c => after0 m c r)

/-- The buffers after region 1: its arrays at what its pipeline leaves, every other buffer as entered. -/
def after1 (c : Dev nD) : Valuation τ sig (Elt F) :=
  Pipeline.withArrays spec1 c (Gen.V3 m (outsS1 m) c) fun w => (dat1 (In1 m (outsS1 m)) c).arrAt w cfg1.N
/-- The named contents up to region 1. -/
def outsS2 : Gen.Outs (F := F) := Function.update (outsS1 m) 4 (fun r c => after1 m c r)

/-- The buffers after region 2: its arrays at what its pipeline leaves, every other buffer as entered. -/
def after2 (c : Dev nD) : Valuation τ sig (Elt F) :=
  Pipeline.withArrays spec2 c (Gen.V5 m (outsS2 m) c) fun w => (dat2 (In2 m (outsS2 m)) c).arrAt w cfg2.N
/-- The named contents up to region 2. -/
def outsS3 : Gen.Outs (F := F) := Function.update (outsS2 m) 6 (fun r c => after2 m c r)

/-- The buffers after region 3: its arrays at what its pipeline leaves, every other buffer as entered. -/
def after3 (c : Dev nD) : Valuation τ sig (Elt F) :=
  Pipeline.withArrays spec3 c (Gen.V7 m (outsS3 m) c) fun w => (dat3 (In3 m (outsS3 m)) c).arrAt w cfg3.N
/-- The named contents up to region 3. -/
def outsS4 : Gen.Outs (F := F) := Function.update (outsS3 m) 8 (fun r c => after3 m c r)

/-- The buffers after region 4: its arrays at what its pipeline leaves, every other buffer as entered. -/
def after4 (c : Dev nD) : Valuation τ sig (Elt F) :=
  Pipeline.withArrays spec4 c (Gen.V9 m (outsS4 m) c) fun w => (dat4 (In4 m (outsS4 m)) c).arrAt w cfg4.N
/-- The named contents up to region 4. -/
def outsS5 : Gen.Outs (F := F) := Function.update (outsS4 m) 10 (fun r c => after4 m c r)

/-- The buffers after region 5: its arrays at what its pipeline leaves, every other buffer as entered. -/
def after5 (c : Dev nD) : Valuation τ sig (Elt F) :=
  Pipeline.withArrays spec5 c (Gen.V11 m (outsS5 m) c) fun w => (dat5 (In5 m (outsS5 m)) c).arrAt w cfg5.N
/-- The named contents up to region 5. -/
def outsS6 : Gen.Outs (F := F) := Function.update (outsS5 m) 12 (fun r c => after5 m c r)

/-- The buffers after region 6: its arrays at what its pipeline leaves, every other buffer as entered. -/
def after6 (c : Dev nD) : Valuation τ sig (Elt F) :=
  Pipeline.withArrays spec6 c (Gen.V13 m (outsS6 m) c) fun w => (dat6 (In6 m (outsS6 m)) c).arrAt w cfg6.N
/-- The named contents up to region 6. -/
def outsS7 : Gen.Outs (F := F) := Function.update (outsS6 m) 14 (fun r c => after6 m c r)

/-- The buffers after region 7: its arrays at what its pipeline leaves, every other buffer as entered. -/
def after7 (c : Dev nD) : Valuation τ sig (Elt F) :=
  Pipeline.withArrays spec7 c (Gen.V15 m (outsS7 m) c) fun w => (dat7 (In7 m (outsS7 m)) c).arrAt w cfg7.N
/-- The named contents up to region 7. -/
def outsS8 : Gen.Outs (F := F) := Function.update (outsS7 m) 16 (fun r c => after7 m c r)

/-- The buffers after region 8: its arrays at what its pipeline leaves, every other buffer as entered. -/
def after8 (c : Dev nD) : Valuation τ sig (Elt F) :=
  Pipeline.withArrays spec8 c (Gen.V17 m (outsS8 m) c) fun w => (dat8 (In8 m (outsS8 m)) c).arrAt w cfg8.N
/-- The named contents up to region 8. -/
def outsS9 : Gen.Outs (F := F) := Function.update (outsS8 m) 18 (fun r c => after8 m c r)

theorem outsS9_at_2 : outsS9 m 2 = (show (r : Ref sig .tc) → (c : Dev nD) → Buf (Elt F) ((c : Thread nD τ).loc r) from fun r c => after0 m c r) := by
  show outsS9 m 2 = _; unfold outsS9; rw [Function.update_of_ne (by decide)]
  show outsS8 m 2 = _; unfold outsS8; rw [Function.update_of_ne (by decide)]
  show outsS7 m 2 = _; unfold outsS7; rw [Function.update_of_ne (by decide)]
  show outsS6 m 2 = _; unfold outsS6; rw [Function.update_of_ne (by decide)]
  show outsS5 m 2 = _; unfold outsS5; rw [Function.update_of_ne (by decide)]
  show outsS4 m 2 = _; unfold outsS4; rw [Function.update_of_ne (by decide)]
  show outsS3 m 2 = _; unfold outsS3; rw [Function.update_of_ne (by decide)]
  show outsS2 m 2 = _; unfold outsS2; rw [Function.update_of_ne (by decide)]
  show outsS1 m 2 = _; unfold outsS1; rw [Function.update_self]

theorem outsS9_at_4 : outsS9 m 4 = (show (r : Ref sig .tc) → (c : Dev nD) → Buf (Elt F) ((c : Thread nD τ).loc r) from fun r c => after1 m c r) := by
  show outsS9 m 4 = _; unfold outsS9; rw [Function.update_of_ne (by decide)]
  show outsS8 m 4 = _; unfold outsS8; rw [Function.update_of_ne (by decide)]
  show outsS7 m 4 = _; unfold outsS7; rw [Function.update_of_ne (by decide)]
  show outsS6 m 4 = _; unfold outsS6; rw [Function.update_of_ne (by decide)]
  show outsS5 m 4 = _; unfold outsS5; rw [Function.update_of_ne (by decide)]
  show outsS4 m 4 = _; unfold outsS4; rw [Function.update_of_ne (by decide)]
  show outsS3 m 4 = _; unfold outsS3; rw [Function.update_of_ne (by decide)]
  show outsS2 m 4 = _; unfold outsS2; rw [Function.update_self]
theorem outsS9_below_1 : ∀ i ≤ 2, outsS9 m i = outsS1 m i := by
  intro i hi
  show outsS9 m i = _; unfold outsS9; rw [Function.update_of_ne (by omega)]
  show outsS8 m i = _; unfold outsS8; rw [Function.update_of_ne (by omega)]
  show outsS7 m i = _; unfold outsS7; rw [Function.update_of_ne (by omega)]
  show outsS6 m i = _; unfold outsS6; rw [Function.update_of_ne (by omega)]
  show outsS5 m i = _; unfold outsS5; rw [Function.update_of_ne (by omega)]
  show outsS4 m i = _; unfold outsS4; rw [Function.update_of_ne (by omega)]
  show outsS3 m i = _; unfold outsS3; rw [Function.update_of_ne (by omega)]
  show outsS2 m i = _; unfold outsS2; rw [Function.update_of_ne (by omega)]

theorem outsS9_at_6 : outsS9 m 6 = (show (r : Ref sig .tc) → (c : Dev nD) → Buf (Elt F) ((c : Thread nD τ).loc r) from fun r c => after2 m c r) := by
  show outsS9 m 6 = _; unfold outsS9; rw [Function.update_of_ne (by decide)]
  show outsS8 m 6 = _; unfold outsS8; rw [Function.update_of_ne (by decide)]
  show outsS7 m 6 = _; unfold outsS7; rw [Function.update_of_ne (by decide)]
  show outsS6 m 6 = _; unfold outsS6; rw [Function.update_of_ne (by decide)]
  show outsS5 m 6 = _; unfold outsS5; rw [Function.update_of_ne (by decide)]
  show outsS4 m 6 = _; unfold outsS4; rw [Function.update_of_ne (by decide)]
  show outsS3 m 6 = _; unfold outsS3; rw [Function.update_self]
theorem outsS9_below_2 : ∀ i ≤ 4, outsS9 m i = outsS2 m i := by
  intro i hi
  show outsS9 m i = _; unfold outsS9; rw [Function.update_of_ne (by omega)]
  show outsS8 m i = _; unfold outsS8; rw [Function.update_of_ne (by omega)]
  show outsS7 m i = _; unfold outsS7; rw [Function.update_of_ne (by omega)]
  show outsS6 m i = _; unfold outsS6; rw [Function.update_of_ne (by omega)]
  show outsS5 m i = _; unfold outsS5; rw [Function.update_of_ne (by omega)]
  show outsS4 m i = _; unfold outsS4; rw [Function.update_of_ne (by omega)]
  show outsS3 m i = _; unfold outsS3; rw [Function.update_of_ne (by omega)]

theorem outsS9_at_8 : outsS9 m 8 = (show (r : Ref sig .tc) → (c : Dev nD) → Buf (Elt F) ((c : Thread nD τ).loc r) from fun r c => after3 m c r) := by
  show outsS9 m 8 = _; unfold outsS9; rw [Function.update_of_ne (by decide)]
  show outsS8 m 8 = _; unfold outsS8; rw [Function.update_of_ne (by decide)]
  show outsS7 m 8 = _; unfold outsS7; rw [Function.update_of_ne (by decide)]
  show outsS6 m 8 = _; unfold outsS6; rw [Function.update_of_ne (by decide)]
  show outsS5 m 8 = _; unfold outsS5; rw [Function.update_of_ne (by decide)]
  show outsS4 m 8 = _; unfold outsS4; rw [Function.update_self]
theorem outsS9_below_3 : ∀ i ≤ 6, outsS9 m i = outsS3 m i := by
  intro i hi
  show outsS9 m i = _; unfold outsS9; rw [Function.update_of_ne (by omega)]
  show outsS8 m i = _; unfold outsS8; rw [Function.update_of_ne (by omega)]
  show outsS7 m i = _; unfold outsS7; rw [Function.update_of_ne (by omega)]
  show outsS6 m i = _; unfold outsS6; rw [Function.update_of_ne (by omega)]
  show outsS5 m i = _; unfold outsS5; rw [Function.update_of_ne (by omega)]
  show outsS4 m i = _; unfold outsS4; rw [Function.update_of_ne (by omega)]

theorem outsS9_at_10 : outsS9 m 10 = (show (r : Ref sig .tc) → (c : Dev nD) → Buf (Elt F) ((c : Thread nD τ).loc r) from fun r c => after4 m c r) := by
  show outsS9 m 10 = _; unfold outsS9; rw [Function.update_of_ne (by decide)]
  show outsS8 m 10 = _; unfold outsS8; rw [Function.update_of_ne (by decide)]
  show outsS7 m 10 = _; unfold outsS7; rw [Function.update_of_ne (by decide)]
  show outsS6 m 10 = _; unfold outsS6; rw [Function.update_of_ne (by decide)]
  show outsS5 m 10 = _; unfold outsS5; rw [Function.update_self]
theorem outsS9_below_4 : ∀ i ≤ 8, outsS9 m i = outsS4 m i := by
  intro i hi
  show outsS9 m i = _; unfold outsS9; rw [Function.update_of_ne (by omega)]
  show outsS8 m i = _; unfold outsS8; rw [Function.update_of_ne (by omega)]
  show outsS7 m i = _; unfold outsS7; rw [Function.update_of_ne (by omega)]
  show outsS6 m i = _; unfold outsS6; rw [Function.update_of_ne (by omega)]
  show outsS5 m i = _; unfold outsS5; rw [Function.update_of_ne (by omega)]

theorem outsS9_at_12 : outsS9 m 12 = (show (r : Ref sig .tc) → (c : Dev nD) → Buf (Elt F) ((c : Thread nD τ).loc r) from fun r c => after5 m c r) := by
  show outsS9 m 12 = _; unfold outsS9; rw [Function.update_of_ne (by decide)]
  show outsS8 m 12 = _; unfold outsS8; rw [Function.update_of_ne (by decide)]
  show outsS7 m 12 = _; unfold outsS7; rw [Function.update_of_ne (by decide)]
  show outsS6 m 12 = _; unfold outsS6; rw [Function.update_self]
theorem outsS9_below_5 : ∀ i ≤ 10, outsS9 m i = outsS5 m i := by
  intro i hi
  show outsS9 m i = _; unfold outsS9; rw [Function.update_of_ne (by omega)]
  show outsS8 m i = _; unfold outsS8; rw [Function.update_of_ne (by omega)]
  show outsS7 m i = _; unfold outsS7; rw [Function.update_of_ne (by omega)]
  show outsS6 m i = _; unfold outsS6; rw [Function.update_of_ne (by omega)]

theorem outsS9_at_14 : outsS9 m 14 = (show (r : Ref sig .tc) → (c : Dev nD) → Buf (Elt F) ((c : Thread nD τ).loc r) from fun r c => after6 m c r) := by
  show outsS9 m 14 = _; unfold outsS9; rw [Function.update_of_ne (by decide)]
  show outsS8 m 14 = _; unfold outsS8; rw [Function.update_of_ne (by decide)]
  show outsS7 m 14 = _; unfold outsS7; rw [Function.update_self]
theorem outsS9_below_6 : ∀ i ≤ 12, outsS9 m i = outsS6 m i := by
  intro i hi
  show outsS9 m i = _; unfold outsS9; rw [Function.update_of_ne (by omega)]
  show outsS8 m i = _; unfold outsS8; rw [Function.update_of_ne (by omega)]
  show outsS7 m i = _; unfold outsS7; rw [Function.update_of_ne (by omega)]

theorem outsS9_at_16 : outsS9 m 16 = (show (r : Ref sig .tc) → (c : Dev nD) → Buf (Elt F) ((c : Thread nD τ).loc r) from fun r c => after7 m c r) := by
  show outsS9 m 16 = _; unfold outsS9; rw [Function.update_of_ne (by decide)]
  show outsS8 m 16 = _; unfold outsS8; rw [Function.update_self]
theorem outsS9_below_7 : ∀ i ≤ 14, outsS9 m i = outsS7 m i := by
  intro i hi
  show outsS9 m i = _; unfold outsS9; rw [Function.update_of_ne (by omega)]
  show outsS8 m i = _; unfold outsS8; rw [Function.update_of_ne (by omega)]

theorem outsS9_at_18 : outsS9 m 18 = (show (r : Ref sig .tc) → (c : Dev nD) → Buf (Elt F) ((c : Thread nD τ).loc r) from fun r c => after8 m c r) := by
  show outsS9 m 18 = _; unfold outsS9; rw [Function.update_self]
theorem outsS9_below_8 : ∀ i ≤ 16, outsS9 m i = outsS8 m i := by
  intro i hi
  show outsS9 m i = _; unfold outsS9; rw [Function.update_of_ne (by omega)]

set_option maxHeartbeats 4000000 in
/-- The contents built region by region are what the regions' pipelines leave. -/
theorem outsS_ok : OutsOK m (outsS9 m) where
  o0_6 c := by
    rw [outsS9_at_2]
    show after0 m c main_v16_0 = _
    unfold after0
    exact Pipeline.withArrays_arr spec0 launch0.win.arr_inj c _ _ 6
  o0_7 c := by
    rw [outsS9_at_2]
    show after0 m c main_v16_1 = _
    unfold after0
    exact Pipeline.withArrays_arr spec0 launch0.win.arr_inj c _ _ 7
  o0_8 c := by
    rw [outsS9_at_2]
    show after0 m c main_v16_2 = _
    unfold after0
    exact Pipeline.withArrays_arr spec0 launch0.win.arr_inj c _ _ 8
  o1_5 c := by
    have hIn : In1 m (outsS9 m) = In1 m (outsS1 m) := by
      funext c' b; exact congrFun (V3_congr m _ _ (outsS9_below_1 m) c') _
    rw [hIn, outsS9_at_4]
    show after1 m c main_v29 = _
    unfold after1
    exact Pipeline.withArrays_arr spec1 launch1.win.arr_inj c _ _ 5
  o2_6 c := by
    have hIn : In2 m (outsS9 m) = In2 m (outsS2 m) := by
      funext c' b; exact congrFun (V5_congr m _ _ (outsS9_below_2 m) c') _
    rw [hIn, outsS9_at_6]
    show after2 m c main_v54_0 = _
    unfold after2
    exact Pipeline.withArrays_arr spec2 launch2.win.arr_inj c _ _ 6
  o2_7 c := by
    have hIn : In2 m (outsS9 m) = In2 m (outsS2 m) := by
      funext c' b; exact congrFun (V5_congr m _ _ (outsS9_below_2 m) c') _
    rw [hIn, outsS9_at_6]
    show after2 m c main_v54_1 = _
    unfold after2
    exact Pipeline.withArrays_arr spec2 launch2.win.arr_inj c _ _ 7
  o2_8 c := by
    have hIn : In2 m (outsS9 m) = In2 m (outsS2 m) := by
      funext c' b; exact congrFun (V5_congr m _ _ (outsS9_below_2 m) c') _
    rw [hIn, outsS9_at_6]
    show after2 m c main_v54_2 = _
    unfold after2
    exact Pipeline.withArrays_arr spec2 launch2.win.arr_inj c _ _ 8
  o3_5 c := by
    have hIn : In3 m (outsS9 m) = In3 m (outsS3 m) := by
      funext c' b; exact congrFun (V7_congr m _ _ (outsS9_below_3 m) c') _
    rw [hIn, outsS9_at_8]
    show after3 m c main_v67 = _
    unfold after3
    exact Pipeline.withArrays_arr spec3 launch3.win.arr_inj c _ _ 5
  o4_6 c := by
    have hIn : In4 m (outsS9 m) = In4 m (outsS4 m) := by
      funext c' b; exact congrFun (V9_congr m _ _ (outsS9_below_4 m) c') _
    rw [hIn, outsS9_at_10]
    show after4 m c main_v92_0 = _
    unfold after4
    exact Pipeline.withArrays_arr spec4 launch4.win.arr_inj c _ _ 6
  o4_7 c := by
    have hIn : In4 m (outsS9 m) = In4 m (outsS4 m) := by
      funext c' b; exact congrFun (V9_congr m _ _ (outsS9_below_4 m) c') _
    rw [hIn, outsS9_at_10]
    show after4 m c main_v92_1 = _
    unfold after4
    exact Pipeline.withArrays_arr spec4 launch4.win.arr_inj c _ _ 7
  o4_8 c := by
    have hIn : In4 m (outsS9 m) = In4 m (outsS4 m) := by
      funext c' b; exact congrFun (V9_congr m _ _ (outsS9_below_4 m) c') _
    rw [hIn, outsS9_at_10]
    show after4 m c main_v92_2 = _
    unfold after4
    exact Pipeline.withArrays_arr spec4 launch4.win.arr_inj c _ _ 8
  o5_5 c := by
    have hIn : In5 m (outsS9 m) = In5 m (outsS5 m) := by
      funext c' b; exact congrFun (V11_congr m _ _ (outsS9_below_5 m) c') _
    rw [hIn, outsS9_at_12]
    show after5 m c main_v105 = _
    unfold after5
    exact Pipeline.withArrays_arr spec5 launch5.win.arr_inj c _ _ 5
  o6_6 c := by
    have hIn : In6 m (outsS9 m) = In6 m (outsS6 m) := by
      funext c' b; exact congrFun (V13_congr m _ _ (outsS9_below_6 m) c') _
    rw [hIn, outsS9_at_14]
    show after6 m c main_v130_0 = _
    unfold after6
    exact Pipeline.withArrays_arr spec6 launch6.win.arr_inj c _ _ 6
  o6_7 c := by
    have hIn : In6 m (outsS9 m) = In6 m (outsS6 m) := by
      funext c' b; exact congrFun (V13_congr m _ _ (outsS9_below_6 m) c') _
    rw [hIn, outsS9_at_14]
    show after6 m c main_v130_1 = _
    unfold after6
    exact Pipeline.withArrays_arr spec6 launch6.win.arr_inj c _ _ 7
  o6_8 c := by
    have hIn : In6 m (outsS9 m) = In6 m (outsS6 m) := by
      funext c' b; exact congrFun (V13_congr m _ _ (outsS9_below_6 m) c') _
    rw [hIn, outsS9_at_14]
    show after6 m c main_v130_2 = _
    unfold after6
    exact Pipeline.withArrays_arr spec6 launch6.win.arr_inj c _ _ 8
  o7_5 c := by
    have hIn : In7 m (outsS9 m) = In7 m (outsS7 m) := by
      funext c' b; exact congrFun (V15_congr m _ _ (outsS9_below_7 m) c') _
    rw [hIn, outsS9_at_16]
    show after7 m c main_v143 = _
    unfold after7
    exact Pipeline.withArrays_arr spec7 launch7.win.arr_inj c _ _ 5
  o8_5 c := by
    have hIn : In8 m (outsS9 m) = In8 m (outsS8 m) := by
      funext c' b; exact congrFun (V17_congr m _ _ (outsS9_below_8 m) c') _
    rw [hIn, outsS9_at_18]
    show after8 m c main_v159 = _
    unfold after8
    exact Pipeline.withArrays_arr spec8 launch8.win.arr_inj c _ _ 5

/-! ## The program's frame and run -/

/-- THE FRAME, at any float instance: from any memory with zero counters every weakly fair execution of the program
    terminates, nothing faulting, and every final memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of_outs m (outsS9 m) (outsS_ok m) ρ

/-- THE RUN: the same, and the result array ends at what the last region's pipeline leaves in it. -/
theorem run (ρ : Dev nD → PrngReg) :
    θ_run defs (onTc (τ := τ) (main (F := F))) ⟨m, fun _ => 0, ρ⟩ (fun r => ∀ c : Dev nD,
      r.2.mem ((c.tc : Thread nD τ).loc main_v159) = outsS9 m 18 main_v159 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  run_of_outs m (outsS9 m) (outsS_ok m) ρ

end Cert.KernelIdeal.Hand

end
-- ==== Proof.RefRun.lean ====
/-
  The reference program's run, read back as a fold.

  @main of the reference is a straight line of whole-array operations: every call of a helper function stands for the
  helper's own operations on that call's buffers, so the program is one list `ops` of operations, here written out in
  order in five consecutive stretches (`ops0 … ops4`, one per part `main_part0 … main_part4` of @main).  `main_eq` says
  @main is that list run in order.  Every operation writes exactly one buffer, its result, and no result buffer is an
  argument buffer: so (`opsK_keep`, `ops_keep`) a buffer outside the stretches' result lists `W0 … W4` holds after the fold what it
  held before.  `run`: every weakly fair execution from any memory with zero counters terminates, the returned buffer
  holds the fold of `ops` over the launch contents, and every argument buffer is unchanged.
-/
import proofs.«117300_j5643587027248_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A one-buffer set of writes lies in the image of a list holding the buffer. -/
theorem inW_of {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Operations 1 … 85 of @main, in order (a helper's operations in its call's place, over the call's buffers). -/
abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v13 main_v14 (addf : (⟨S100000x128, .f32⟩ : BufTy).Contents (Elt F) → (⟨S100000x128, .f32⟩ : BufTy).Contents (Elt F) → (⟨S100000x128, .f32⟩ : BufTy).Contents (Elt F)),
    binary main_v14 main_arg3 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v18) (TRef.of (T := ⟨S100000x128, .f32⟩) main_call0_v0) (TRef.of (T := ⟨S100000x128, .f32⟩) main_v19) maximumf,
    binary main_v19 main_arg5 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v20 main_v22 main_v23 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v23) (TRef.of (T := ⟨S100000x128, .f32⟩) main_call1_v0) (TRef.of (T := ⟨S100000x128, .f32⟩) main_v24) maximumf,
    nullary main_cst_1 (constant S_ .f32 0x00000000#32),
    binary main_v24 main_cst_1 main_v25 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v26 (broadcastInDim S128 ![] bcast_S_S128 : (⟨S_, .f32⟩ : BufTy).Contents (Elt F) → (⟨S128, .f32⟩ : BufTy).Contents (Elt F)),
    binary main_v25 main_v26 main_v27 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary (TRef.of (T := ⟨S_, .f32⟩) main_call2_cst) (constant S_ .f32 0x00000000#32),
    TRef.binary (TRef.of (T := ⟨S100000x128, .f32⟩) main_v24) (TRef.of (T := ⟨S_, .f32⟩) main_call2_cst) (TRef.of (T := ⟨S128, .f32⟩) main_call2_v0) (fun x v => Host.reduceAdd x v reducesTo_S100000x128_S128_d0 h_S_),
    TRef.unary (TRef.of (T := ⟨S128, .f32⟩) main_call2_v0) (TRef.of (T := ⟨S1x128, .f32⟩) main_call2_v1) (broadcastInDim S1x128 ![1] bcast_S128_S1x128_1),
    TRef.nullary (TRef.of (T := ⟨S_, .f32⟩) main_call2_cst_0) (constant S_ .f32 0x47C35000#32),
    TRef.unary (TRef.of (T := ⟨S_, .f32⟩) main_call2_cst_0) (TRef.of (T := ⟨S1x128, .f32⟩) main_call2_v2) (broadcastInDim S1x128 ![] bcast_S_S1x128),
    TRef.binary (TRef.of (T := ⟨S1x128, .f32⟩) main_call2_v1) (TRef.of (T := ⟨S1x128, .f32⟩) main_call2_v2) (TRef.of (T := ⟨S1x128, .f32⟩) main_call2_v3) Host.divf,
    TRef.unary (TRef.of (T := ⟨S1x128, .f32⟩) main_call2_v3) (TRef.of (T := ⟨S100000x128, .f32⟩) main_call2_v4) (broadcastInDim S100000x128 ![0, 1] bcast_S1x128_S100000x128_0_1),
    TRef.binary (TRef.of (T := ⟨S100000x128, .f32⟩) main_v24) (TRef.of (T := ⟨S100000x128, .f32⟩) main_call2_v4) (TRef.of (T := ⟨S100000x128, .f32⟩) main_call2_v5) subf,
    TRef.binary (TRef.of (T := ⟨S100000x128, .f32⟩) main_call2_v5) (TRef.of (T := ⟨S100000x128, .f32⟩) main_call2_v5) (TRef.of (T := ⟨S100000x128, .f32⟩) main_call2_v6) mulf,
    TRef.unary (TRef.of (T := ⟨S_, .i32⟩) main_c_3) (TRef.of (T := ⟨S_, .f32⟩) main_call2_v7) (sitofp .f32),
    TRef.nullary (TRef.of (T := ⟨S_, .f32⟩) main_call2_cst_1) (constant S_ .f32 0x47C35000#32),
    TRef.binary (TRef.of (T := ⟨S_, .f32⟩) main_call2_cst_1) (TRef.of (T := ⟨S_, .f32⟩) main_call2_v7) (TRef.of (T := ⟨S_, .f32⟩) main_call2_v8) subf,
    TRef.nullary (TRef.of (T := ⟨S_, .f32⟩) main_call2_cst_2) (constant S_ .f32 0x00000000#32),
    TRef.binary (TRef.of (T := ⟨S100000x128, .f32⟩) main_call2_v6) (TRef.of (T := ⟨S_, .f32⟩) main_call2_cst_2) (TRef.of (T := ⟨S128, .f32⟩) main_call2_v9) (fun x v => Host.reduceAdd x v reducesTo_S100000x128_S128_d0 h_S_),
    TRef.unary (TRef.of (T := ⟨S_, .f32⟩) main_call2_v8) (TRef.of (T := ⟨S128, .f32⟩) main_call2_v10) (broadcastInDim S128 ![] bcast_S_S128),
    TRef.binary (TRef.of (T := ⟨S128, .f32⟩) main_call2_v9) (TRef.of (T := ⟨S128, .f32⟩) main_call2_v10) (TRef.of (T := ⟨S128, .f32⟩) main_call2_v11) Host.divf,
    TRef.nullary (TRef.of (T := ⟨S_, .f32⟩) main_call2_cst_3) (constant S_ .f32 0x00000000#32),
    TRef.binary (TRef.of (T := ⟨S_, .f32⟩) main_call2_v8) (TRef.of (T := ⟨S_, .f32⟩) main_call2_cst_3) (TRef.of (T := ⟨S_, .i1⟩) main_call2_v12) (cmpf .ogt),
    TRef.nullary (TRef.of (T := ⟨S_, .f32⟩) main_call2_cst_4) (constant S_ .f32 0x7FC00000#32),
    TRef.unary (TRef.of (T := ⟨S_, .f32⟩) main_call2_cst_4) (TRef.of (T := ⟨S_, .f32⟩) main_call2_call0_v0) id,
    TRef.unary (TRef.of (T := ⟨S_, .f32⟩) main_call2_call0_v0) (TRef.of (T := ⟨S128, .f32⟩) main_call2_call0_v1) (broadcastInDim S128 ![] bcast_S_S128),
    TRef.ternary (TRef.of (T := ⟨S_, .i1⟩) main_call2_v12) (TRef.of (T := ⟨S128, .f32⟩) main_call2_v11) (TRef.of (T := ⟨S128, .f32⟩) main_call2_call0_v1) (TRef.of (T := ⟨S128, .f32⟩) main_v28) (fun p a b => select (broadcastInDim S128 ![] bcast_S_S128 p) a b),
    unary main_v27 main_v29 (broadcastInDim S1x128 ![1] bcast_S128_S1x128_1 : (⟨S128, .f32⟩ : BufTy).Contents (Elt F) → (⟨S1x128, .f32⟩ : BufTy).Contents (Elt F)),
    unary main_v29 main_v30 (broadcastInDim S100000x128 ![0, 1] bcast_S1x128_S100000x128_0_1 : (⟨S1x128, .f32⟩ : BufTy).Contents (Elt F) → (⟨S100000x128, .f32⟩ : BufTy).Contents (Elt F)),
    binary main_v24 main_v30 main_v31 (subf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v32 (broadcastInDim S128 ![] bcast_S_S128 : (⟨S_, .f32⟩ : BufTy).Contents (Elt F) → (⟨S128, .f32⟩ : BufTy).Contents (Elt F)),
    binary main_v28 main_v32 main_v33 (addf : (⟨S128, .f32⟩ : BufTy).Contents (Elt F) → (⟨S128, .f32⟩ : BufTy).Contents (Elt F) → (⟨S128, .f32⟩ : BufTy).Contents (Elt F)),
    unary main_v33 main_v34 (Host.rsqrt : (⟨S128, .f32⟩ : BufTy).Contents (Elt F) → (⟨S128, .f32⟩ : BufTy).Contents (Elt F)),
    unary main_v34 main_v35 (broadcastInDim S1x128 ![1] bcast_S128_S1x128_1 : (⟨S128, .f32⟩ : BufTy).Contents (Elt F) → (⟨S1x128, .f32⟩ : BufTy).Contents (Elt F)),
    unary main_v35 main_v36 (broadcastInDim S100000x128 ![0, 1] bcast_S1x128_S100000x128_0_1 : (⟨S1x128, .f32⟩ : BufTy).Contents (Elt F) → (⟨S100000x128, .f32⟩ : BufTy).Contents (Elt F)),
    binary main_v31 main_v36 main_v37 (mulf : (⟨S100000x128, .f32⟩ : BufTy).Contents (Elt F) → (⟨S100000x128, .f32⟩ : BufTy).Contents (Elt F) → (⟨S100000x128, .f32⟩ : BufTy).Contents (Elt F)),
    unary main_arg7 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v37 main_v39 main_v40 (mulf : (⟨S100000x128, .f32⟩ : BufTy).Contents (Elt F) → (⟨S100000x128, .f32⟩ : BufTy).Contents (Elt F) → (⟨S100000x128, .f32⟩ : BufTy).Contents (Elt F)),
    unary main_arg8 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    unary main_arg9 main_v44 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v44 main_v45 rfl shapeCasts_S1x128x128_S128x128,
    unary main_arg10 main_v46 ((extractStridedSlice S1x128 ![0, 0] · slices_S3x128_S1x128_0_0) : (⟨S3x128, .f32⟩ : BufTy).Contents (Elt F) → (⟨S1x128, .f32⟩ : BufTy).Contents (Elt F)),
    reshape main_v46 main_v47 rfl shapeCasts_S1x128_S128,
    unary main_arg11 main_v48 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v48 main_v49 rfl shapeCasts_S1x128x128_S128x128,
    unary main_arg12 main_v50 ((extractStridedSlice S1x128 ![0, 0] · slices_S3x128_S1x128_0_0) : (⟨S3x128, .f32⟩ : BufTy).Contents (Elt F) → (⟨S1x128, .f32⟩ : BufTy).Contents (Elt F)),
    reshape main_v50 main_v51 rfl shapeCasts_S1x128_S128,
    unary main_arg13 main_v52 ((extractStridedSlice S1x128 ![0, 0] · slices_S3x128_S1x128_0_0) : (⟨S3x128, .f32⟩ : BufTy).Contents (Elt F) → (⟨S1x128, .f32⟩ : BufTy).Contents (Elt F)) ]

/-- The buffers operations 1 … 85 write: each operation's result, in order. -/
abbrev W0 : List (Ref sig .tc) :=
  [ main_v0, main_v1, main_v2, main_v3, main_c, main_v4, main_v5, main_c_0, main_v6, main_v7,
    main_v8, main_v9, main_v10, main_cst, main_v11, main_v12, main_v13, main_v14, main_v15, main_v16,
    main_v17, main_v18, main_call0_cst, main_call0_v0, main_v19, main_v20, main_v21, main_v22, main_v23, main_call1_cst,
    main_call1_v0, main_v24, main_cst_1, main_v25, main_cst_2, main_v26, main_v27, main_c_3, main_call2_cst, main_call2_v0,
    main_call2_v1, main_call2_cst_0, main_call2_v2, main_call2_v3, main_call2_v4, main_call2_v5, main_call2_v6, main_call2_v7, main_call2_cst_1, main_call2_v8,
    main_call2_cst_2, main_call2_v9, main_call2_v10, main_call2_v11, main_call2_cst_3, main_call2_v12, main_call2_cst_4, main_call2_call0_v0, main_call2_call0_v1, main_v28,
    main_v29, main_v30, main_v31, main_cst_4, main_v32, main_v33, main_v34, main_v35, main_v36, main_v37,
    main_v38, main_v39, main_v40, main_v41, main_v42, main_v43, main_v44, main_v45, main_v46, main_v47,
    main_v48, main_v49, main_v50, main_v51, main_v52 ]

set_option maxRecDepth 8192 in
set_option maxHeartbeats 4000000 in
/-- Stretch 0 of @main is its operations run in order: a call unfolds to the helper's body, and sequencing re-associates. -/
theorem main_part0_eq (c : Dev nD) : main_part0 (F := F) c = seq ops0 := rfl

set_option maxRecDepth 8192 in
/-- Every buffer an operation of stretch 0 touches is a TensorCore buffer. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., unary_bufs_sub .., reshape_bufs_sub ..,
    unary_bufs_sub .., reshape_bufs_sub .., unary_bufs_sub .., reshape_bufs_sub .., unary_bufs_sub .., reshape_bufs_sub ..,
    unary_bufs_sub ..⟩

set_option maxRecDepth 8192 in
/-- Every operation of stretch 0 determines what it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of stretch 0 writes its one result buffer, which is in `W0`. -/
theorem ops0_writes : (ops0 : List (HloOp τ sig (Elt F))).Forall fun op => op.writes ⊆ (W0.map (Proc.devRef (τ := τ) .tc)).toFinset :=
  ⟨inW_of main_v0 (by decide), inW_of main_v1 (by decide), inW_of main_v2 (by decide), inW_of main_v3 (by decide),
    inW_of main_c (by decide), inW_of main_v4 (by decide), inW_of main_v5 (by decide), inW_of main_c_0 (by decide),
    inW_of main_v6 (by decide), inW_of main_v7 (by decide), inW_of main_v8 (by decide), inW_of main_v9 (by decide),
    inW_of main_v10 (by decide), inW_of main_cst (by decide), inW_of main_v11 (by decide), inW_of main_v12 (by decide),
    inW_of main_v13 (by decide), inW_of main_v14 (by decide), inW_of main_v15 (by decide), inW_of main_v16 (by decide),
    inW_of main_v17 (by decide), inW_of main_v18 (by decide), inW_of main_call0_cst (by decide), inW_of main_call0_v0 (by decide),
    inW_of main_v19 (by decide), inW_of main_v20 (by decide), inW_of main_v21 (by decide), inW_of main_v22 (by decide),
    inW_of main_v23 (by decide), inW_of main_call1_cst (by decide), inW_of main_call1_v0 (by decide), inW_of main_v24 (by decide),
    inW_of main_cst_1 (by decide), inW_of main_v25 (by decide), inW_of main_cst_2 (by decide), inW_of main_v26 (by decide),
    inW_of main_v27 (by decide), inW_of main_c_3 (by decide), inW_of main_call2_cst (by decide), inW_of main_call2_v0 (by decide),
    inW_of main_call2_v1 (by decide), inW_of main_call2_cst_0 (by decide), inW_of main_call2_v2 (by decide), inW_of main_call2_v3 (by decide),
    inW_of main_call2_v4 (by decide), inW_of main_call2_v5 (by decide), inW_of main_call2_v6 (by decide), inW_of main_call2_v7 (by decide),
    inW_of main_call2_cst_1 (by decide), inW_of main_call2_v8 (by decide), inW_of main_call2_cst_2 (by decide), inW_of main_call2_v9 (by decide),
    inW_of main_call2_v10 (by decide), inW_of main_call2_v11 (by decide), inW_of main_call2_cst_3 (by decide), inW_of main_call2_v12 (by decide),
    inW_of main_call2_cst_4 (by decide), inW_of main_call2_call0_v0 (by decide), inW_of main_call2_call0_v1 (by decide), inW_of main_v28 (by decide),
    inW_of main_v29 (by decide), inW_of main_v30 (by decide), inW_of main_v31 (by decide), inW_of main_cst_4 (by decide),
    inW_of main_v32 (by decide), inW_of main_v33 (by decide), inW_of main_v34 (by decide), inW_of main_v35 (by decide),
    inW_of main_v36 (by decide), inW_of main_v37 (by decide), inW_of main_v38 (by decide), inW_of main_v39 (by decide),
    inW_of main_v40 (by decide), inW_of main_v41 (by decide), inW_of main_v42 (by decide), inW_of main_v43 (by decide),
    inW_of main_v44 (by decide), inW_of main_v45 (by decide), inW_of main_v46 (by decide), inW_of main_v47 (by decide),
    inW_of main_v48 (by decide), inW_of main_v49 (by decide), inW_of main_v50 (by decide), inW_of main_v51 (by decide),
    inW_of main_v52 (by decide)⟩

/-- A buffer outside `W0` holds after stretch 0 what it held before. -/
theorem ops0_keep (V : Valuation τ sig (Elt F)) {r : Ref sig .tc} (h : r ∉ W0) :
    after ops0 V (Proc.devRef .tc r) = V (Proc.devRef .tc r) :=
  after_of_writes_sub ops0 V ops0_writes h

/-- Operations 86 … 170 of @main, in order (a helper's operations in its call's place, over the call's buffers). -/
abbrev ops1 : List (HloOp τ sig (Elt F)) :=
  [ reshape main_v52 main_v53 rfl shapeCasts_S1x128_S128,
    unary main_arg14 main_v54 ((extractStridedSlice S1x128 ![0, 0] · slices_S3x128_S1x128_0_0) : (⟨S3x128, .f32⟩ : BufTy).Contents (Elt F) → (⟨S1x128, .f32⟩ : BufTy).Contents (Elt F)),
    reshape main_v54 main_v55 rfl shapeCasts_S1x128_S128,
    nullary main_c_5 (constantI S_ 32 0#32),
    unary main_c_5 main_v56 (broadcastInDim S1600000 ![] bcast_S_S1600000 : (⟨S_, .i32⟩ : BufTy).Contents (Elt F) → (⟨S1600000, .i32⟩ : BufTy).Contents (Elt F)),
    binary main_v1 main_v56 main_v57 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v58 (broadcastInDim S1600000 ![] bcast_S_S1600000 : (⟨S_, .i32⟩ : BufTy).Contents (Elt F) → (⟨S1600000, .i32⟩ : BufTy).Contents (Elt F)),
    binary main_v1 main_v58 main_v59 (addi : (⟨S1600000, .i32⟩ : BufTy).Contents (Elt F) → (⟨S1600000, .i32⟩ : BufTy).Contents (Elt F) → (⟨S1600000, .i32⟩ : BufTy).Contents (Elt F)),
    ternary main_v57 main_v59 main_v1 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v60 main_v61 (broadcastInDim S1600000x1 ![0] bcast_S1600000_S1600000x1_0 : (⟨S1600000, .i32⟩ : BufTy).Contents (Elt F) → (⟨S1600000x1, .i32⟩ : BufTy).Contents (Elt F)),
    binary main_v43 main_v61 main_v62 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v63 (broadcastInDim S100000x128 ![] bcast_S_S100000x128 : (⟨S_, .f32⟩ : BufTy).Contents (Elt F) → (⟨S100000x128, .f32⟩ : BufTy).Contents (Elt F)),
    unary main_v3 main_v64 (broadcastInDim S1600000x1 ![0] bcast_S1600000_S1600000x1_0 : (⟨S1600000, .i32⟩ : BufTy).Contents (Elt F) → (⟨S1600000x1, .i32⟩ : BufTy).Contents (Elt F)),
    ternary main_v63 main_v64 main_v62 main_v65 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v43 main_v65 main_v66 (addf : (⟨S100000x128, .f32⟩ : BufTy).Contents (Elt F) → (⟨S100000x128, .f32⟩ : BufTy).Contents (Elt F) → (⟨S100000x128, .f32⟩ : BufTy).Contents (Elt F)),
    binary main_v66 main_v45 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v47 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v67 main_v69 main_v70 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v70) (TRef.of (T := ⟨S100000x128, .f32⟩) main_call3_v0) (TRef.of (T := ⟨S100000x128, .f32⟩) main_v71) maximumf,
    binary main_v71 main_v49 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v51 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v72 main_v74 main_v75 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v75) (TRef.of (T := ⟨S100000x128, .f32⟩) main_call4_v0) (TRef.of (T := ⟨S100000x128, .f32⟩) main_v76) maximumf,
    nullary main_cst_8 (constant S_ .f32 0x00000000#32),
    binary main_v76 main_cst_8 main_v77 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v78 (broadcastInDim S128 ![] bcast_S_S128 : (⟨S_, .f32⟩ : BufTy).Contents (Elt F) → (⟨S128, .f32⟩ : BufTy).Contents (Elt F)),
    binary main_v77 main_v78 main_v79 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary (TRef.of (T := ⟨S_, .f32⟩) main_call5_cst) (constant S_ .f32 0x00000000#32),
    TRef.binary (TRef.of (T := ⟨S100000x128, .f32⟩) main_v76) (TRef.of (T := ⟨S_, .f32⟩) main_call5_cst) (TRef.of (T := ⟨S128, .f32⟩) main_call5_v0) (fun x v => Host.reduceAdd x v reducesTo_S100000x128_S128_d0 h_S_),
    TRef.unary (TRef.of (T := ⟨S128, .f32⟩) main_call5_v0) (TRef.of (T := ⟨S1x128, .f32⟩) main_call5_v1) (broadcastInDim S1x128 ![1] bcast_S128_S1x128_1),
    TRef.nullary (TRef.of (T := ⟨S_, .f32⟩) main_call5_cst_0) (constant S_ .f32 0x47C35000#32),
    TRef.unary (TRef.of (T := ⟨S_, .f32⟩) main_call5_cst_0) (TRef.of (T := ⟨S1x128, .f32⟩) main_call5_v2) (broadcastInDim S1x128 ![] bcast_S_S1x128),
    TRef.binary (TRef.of (T := ⟨S1x128, .f32⟩) main_call5_v1) (TRef.of (T := ⟨S1x128, .f32⟩) main_call5_v2) (TRef.of (T := ⟨S1x128, .f32⟩) main_call5_v3) Host.divf,
    TRef.unary (TRef.of (T := ⟨S1x128, .f32⟩) main_call5_v3) (TRef.of (T := ⟨S100000x128, .f32⟩) main_call5_v4) (broadcastInDim S100000x128 ![0, 1] bcast_S1x128_S100000x128_0_1),
    TRef.binary (TRef.of (T := ⟨S100000x128, .f32⟩) main_v76) (TRef.of (T := ⟨S100000x128, .f32⟩) main_call5_v4) (TRef.of (T := ⟨S100000x128, .f32⟩) main_call5_v5) subf,
    TRef.binary (TRef.of (T := ⟨S100000x128, .f32⟩) main_call5_v5) (TRef.of (T := ⟨S100000x128, .f32⟩) main_call5_v5) (TRef.of (T := ⟨S100000x128, .f32⟩) main_call5_v6) mulf,
    TRef.unary (TRef.of (T := ⟨S_, .i32⟩) main_c_10) (TRef.of (T := ⟨S_, .f32⟩) main_call5_v7) (sitofp .f32),
    TRef.nullary (TRef.of (T := ⟨S_, .f32⟩) main_call5_cst_1) (constant S_ .f32 0x47C35000#32),
    TRef.binary (TRef.of (T := ⟨S_, .f32⟩) main_call5_cst_1) (TRef.of (T := ⟨S_, .f32⟩) main_call5_v7) (TRef.of (T := ⟨S_, .f32⟩) main_call5_v8) subf,
    TRef.nullary (TRef.of (T := ⟨S_, .f32⟩) main_call5_cst_2) (constant S_ .f32 0x00000000#32),
    TRef.binary (TRef.of (T := ⟨S100000x128, .f32⟩) main_call5_v6) (TRef.of (T := ⟨S_, .f32⟩) main_call5_cst_2) (TRef.of (T := ⟨S128, .f32⟩) main_call5_v9) (fun x v => Host.reduceAdd x v reducesTo_S100000x128_S128_d0 h_S_),
    TRef.unary (TRef.of (T := ⟨S_, .f32⟩) main_call5_v8) (TRef.of (T := ⟨S128, .f32⟩) main_call5_v10) (broadcastInDim S128 ![] bcast_S_S128),
    TRef.binary (TRef.of (T := ⟨S128, .f32⟩) main_call5_v9) (TRef.of (T := ⟨S128, .f32⟩) main_call5_v10) (TRef.of (T := ⟨S128, .f32⟩) main_call5_v11) Host.divf,
    TRef.nullary (TRef.of (T := ⟨S_, .f32⟩) main_call5_cst_3) (constant S_ .f32 0x00000000#32),
    TRef.binary (TRef.of (T := ⟨S_, .f32⟩) main_call5_v8) (TRef.of (T := ⟨S_, .f32⟩) main_call5_cst_3) (TRef.of (T := ⟨S_, .i1⟩) main_call5_v12) (cmpf .ogt),
    TRef.nullary (TRef.of (T := ⟨S_, .f32⟩) main_call5_cst_4) (constant S_ .f32 0x7FC00000#32),
    TRef.unary (TRef.of (T := ⟨S_, .f32⟩) main_call5_cst_4) (TRef.of (T := ⟨S_, .f32⟩) main_call5_call0_v0) id,
    TRef.unary (TRef.of (T := ⟨S_, .f32⟩) main_call5_call0_v0) (TRef.of (T := ⟨S128, .f32⟩) main_call5_call0_v1) (broadcastInDim S128 ![] bcast_S_S128),
    TRef.ternary (TRef.of (T := ⟨S_, .i1⟩) main_call5_v12) (TRef.of (T := ⟨S128, .f32⟩) main_call5_v11) (TRef.of (T := ⟨S128, .f32⟩) main_call5_call0_v1) (TRef.of (T := ⟨S128, .f32⟩) main_v80) (fun p a b => select (broadcastInDim S128 ![] bcast_S_S128 p) a b),
    unary main_v79 main_v81 (broadcastInDim S1x128 ![1] bcast_S128_S1x128_1 : (⟨S128, .f32⟩ : BufTy).Contents (Elt F) → (⟨S1x128, .f32⟩ : BufTy).Contents (Elt F)),
    unary main_v81 main_v82 (broadcastInDim S100000x128 ![0, 1] bcast_S1x128_S100000x128_0_1 : (⟨S1x128, .f32⟩ : BufTy).Contents (Elt F) → (⟨S100000x128, .f32⟩ : BufTy).Contents (Elt F)),
    binary main_v76 main_v82 main_v83 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v84 (broadcastInDim S128 ![] bcast_S_S128 : (⟨S_, .f32⟩ : BufTy).Contents (Elt F) → (⟨S128, .f32⟩ : BufTy).Contents (Elt F)),
    binary main_v80 main_v84 main_v85 (addf : (⟨S128, .f32⟩ : BufTy).Contents (Elt F) → (⟨S128, .f32⟩ : BufTy).Contents (Elt F) → (⟨S128, .f32⟩ : BufTy).Contents (Elt F)),
    unary main_v85 main_v86 (Host.rsqrt : (⟨S128, .f32⟩ : BufTy).Contents (Elt F) → (⟨S128, .f32⟩ : BufTy).Contents (Elt F)),
    unary main_v86 main_v87 (broadcastInDim S1x128 ![1] bcast_S128_S1x128_1 : (⟨S128, .f32⟩ : BufTy).Contents (Elt F) → (⟨S1x128, .f32⟩ : BufTy).Contents (Elt F)),
    unary main_v87 main_v88 (broadcastInDim S100000x128 ![0, 1] bcast_S1x128_S100000x128_0_1 : (⟨S1x128, .f32⟩ : BufTy).Contents (Elt F) → (⟨S100000x128, .f32⟩ : BufTy).Contents (Elt F)),
    binary main_v83 main_v88 main_v89 (mulf : (⟨S100000x128, .f32⟩ : BufTy).Contents (Elt F) → (⟨S100000x128, .f32⟩ : BufTy).Contents (Elt F) → (⟨S100000x128, .f32⟩ : BufTy).Contents (Elt F)),
    unary main_v53 main_v90 (broadcastInDim S1x128 ![1] bcast_S128_S1x128_1 : (⟨S128, .f32⟩ : BufTy).Contents (Elt F) → (⟨S1x128, .f32⟩ : BufTy).Contents (Elt F)),
    unary main_v90 main_v91 (broadcastInDim S100000x128 ![0, 1] bcast_S1x128_S100000x128_0_1 : (⟨S1x128, .f32⟩ : BufTy).Contents (Elt F) → (⟨S100000x128, .f32⟩ : BufTy).Contents (Elt F)),
    binary main_v89 main_v91 main_v92 (mulf : (⟨S100000x128, .f32⟩ : BufTy).Contents (Elt F) → (⟨S100000x128, .f32⟩ : BufTy).Contents (Elt F) → (⟨S100000x128, .f32⟩ : BufTy).Contents (Elt F)),
    unary main_v55 main_v93 (broadcastInDim S1x128 ![1] bcast_S128_S1x128_1 : (⟨S128, .f32⟩ : BufTy).Contents (Elt F) → (⟨S1x128, .f32⟩ : BufTy).Contents (Elt F)),
    unary main_v93 main_v94 (broadcastInDim S100000x128 ![0, 1] bcast_S1x128_S100000x128_0_1 : (⟨S1x128, .f32⟩ : BufTy).Contents (Elt F) → (⟨S100000x128, .f32⟩ : BufTy).Contents (Elt F)),
    binary main_v92 main_v94 main_v95 (addf : (⟨S100000x128, .f32⟩ : BufTy).Contents (Elt F) → (⟨S100000x128, .f32⟩ : BufTy).Contents (Elt F) → (⟨S100000x128, .f32⟩ : BufTy).Contents (Elt F)),
    unary main_arg9 main_v96 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v96 main_v97 rfl shapeCasts_S1x128x128_S128x128,
    unary main_arg10 main_v98 ((extractStridedSlice S1x128 ![1, 0] · slices_S3x128_S1x128_1_0) : (⟨S3x128, .f32⟩ : BufTy).Contents (Elt F) → (⟨S1x128, .f32⟩ : BufTy).Contents (Elt F)),
    reshape main_v98 main_v99 rfl shapeCasts_S1x128_S128,
    unary main_arg11 main_v100 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v100 main_v101 rfl shapeCasts_S1x128x128_S128x128,
    unary main_arg12 main_v102 ((extractStridedSlice S1x128 ![1, 0] · slices_S3x128_S1x128_1_0) : (⟨S3x128, .f32⟩ : BufTy).Contents (Elt F) → (⟨S1x128, .f32⟩ : BufTy).Contents (Elt F)),
    reshape main_v102 main_v103 rfl shapeCasts_S1x128_S128,
    unary main_arg13 main_v104 ((extractStridedSlice S1x128 ![1, 0] · slices_S3x128_S1x128_1_0) : (⟨S3x128, .f32⟩ : BufTy).Contents (Elt F) → (⟨S1x128, .f32⟩ : BufTy).Contents (Elt F)),
    reshape main_v104 main_v105 rfl shapeCasts_S1x128_S128 ]

/-- The buffers operations 86 … 170 write: each operation's result, in order. -/
abbrev W1 : List (Ref sig .tc) :=
  [ main_v53, main_v54, main_v55, main_c_5, main_v56, main_v57, main_c_6, main_v58, main_v59, main_v60,
    main_v61, main_v62, main_cst_7, main_v63, main_v64, main_v65, main_v66, main_v67, main_v68, main_v69,
    main_v70, main_call3_cst, main_call3_v0, main_v71, main_v72, main_v73, main_v74, main_v75, main_call4_cst, main_call4_v0,
    main_v76, main_cst_8, main_v77, main_cst_9, main_v78, main_v79, main_c_10, main_call5_cst, main_call5_v0, main_call5_v1,
    main_call5_cst_0, main_call5_v2, main_call5_v3, main_call5_v4, main_call5_v5, main_call5_v6, main_call5_v7, main_call5_cst_1, main_call5_v8, main_call5_cst_2,
    main_call5_v9, main_call5_v10, main_call5_v11, main_call5_cst_3, main_call5_v12, main_call5_cst_4, main_call5_call0_v0, main_call5_call0_v1, main_v80, main_v81,
    main_v82, main_v83, main_cst_11, main_v84, main_v85, main_v86, main_v87, main_v88, main_v89, main_v90,
    main_v91, main_v92, main_v93, main_v94, main_v95, main_v96, main_v97, main_v98, main_v99, main_v100,
    main_v101, main_v102, main_v103, main_v104, main_v105 ]

set_option maxRecDepth 8192 in
set_option maxHeartbeats 4000000 in
/-- Stretch 1 of @main is its operations run in order: a call unfolds to the helper's body, and sequencing re-associates. -/
theorem main_part1_eq (c : Dev nD) : main_part1 (F := F) c = seq ops1 := rfl

set_option maxRecDepth 8192 in
/-- Every buffer an operation of stretch 1 touches is a TensorCore buffer. -/
theorem ops1_sub : (ops1 : List (HloOp τ sig (Elt F))).Forall fun op => op.bufs ⊆ tcRefs τ sig :=
  ⟨reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., reshape_bufs_sub .., unary_bufs_sub ..,
    reshape_bufs_sub .., unary_bufs_sub .., reshape_bufs_sub .., unary_bufs_sub .., reshape_bufs_sub .., unary_bufs_sub ..,
    reshape_bufs_sub ..⟩

set_option maxRecDepth 8192 in
/-- Every operation of stretch 1 determines what it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of stretch 1 writes its one result buffer, which is in `W1`. -/
theorem ops1_writes : (ops1 : List (HloOp τ sig (Elt F))).Forall fun op => op.writes ⊆ (W1.map (Proc.devRef (τ := τ) .tc)).toFinset :=
  ⟨inW_of main_v53 (by decide), inW_of main_v54 (by decide), inW_of main_v55 (by decide), inW_of main_c_5 (by decide),
    inW_of main_v56 (by decide), inW_of main_v57 (by decide), inW_of main_c_6 (by decide), inW_of main_v58 (by decide),
    inW_of main_v59 (by decide), inW_of main_v60 (by decide), inW_of main_v61 (by decide), inW_of main_v62 (by decide),
    inW_of main_cst_7 (by decide), inW_of main_v63 (by decide), inW_of main_v64 (by decide), inW_of main_v65 (by decide),
    inW_of main_v66 (by decide), inW_of main_v67 (by decide), inW_of main_v68 (by decide), inW_of main_v69 (by decide),
    inW_of main_v70 (by decide), inW_of main_call3_cst (by decide), inW_of main_call3_v0 (by decide), inW_of main_v71 (by decide),
    inW_of main_v72 (by decide), inW_of main_v73 (by decide), inW_of main_v74 (by decide), inW_of main_v75 (by decide),
    inW_of main_call4_cst (by decide), inW_of main_call4_v0 (by decide), inW_of main_v76 (by decide), inW_of main_cst_8 (by decide),
    inW_of main_v77 (by decide), inW_of main_cst_9 (by decide), inW_of main_v78 (by decide), inW_of main_v79 (by decide),
    inW_of main_c_10 (by decide), inW_of main_call5_cst (by decide), inW_of main_call5_v0 (by decide), inW_of main_call5_v1 (by decide),
    inW_of main_call5_cst_0 (by decide), inW_of main_call5_v2 (by decide), inW_of main_call5_v3 (by decide), inW_of main_call5_v4 (by decide),
    inW_of main_call5_v5 (by decide), inW_of main_call5_v6 (by decide), inW_of main_call5_v7 (by decide), inW_of main_call5_cst_1 (by decide),
    inW_of main_call5_v8 (by decide), inW_of main_call5_cst_2 (by decide), inW_of main_call5_v9 (by decide), inW_of main_call5_v10 (by decide),
    inW_of main_call5_v11 (by decide), inW_of main_call5_cst_3 (by decide), inW_of main_call5_v12 (by decide), inW_of main_call5_cst_4 (by decide),
    inW_of main_call5_call0_v0 (by decide), inW_of main_call5_call0_v1 (by decide), inW_of main_v80 (by decide), inW_of main_v81 (by decide),
    inW_of main_v82 (by decide), inW_of main_v83 (by decide), inW_of main_cst_11 (by decide), inW_of main_v84 (by decide),
    inW_of main_v85 (by decide), inW_of main_v86 (by decide), inW_of main_v87 (by decide), inW_of main_v88 (by decide),
    inW_of main_v89 (by decide), inW_of main_v90 (by decide), inW_of main_v91 (by decide), inW_of main_v92 (by decide),
    inW_of main_v93 (by decide), inW_of main_v94 (by decide), inW_of main_v95 (by decide), inW_of main_v96 (by decide),
    inW_of main_v97 (by decide), inW_of main_v98 (by decide), inW_of main_v99 (by decide), inW_of main_v100 (by decide),
    inW_of main_v101 (by decide), inW_of main_v102 (by decide), inW_of main_v103 (by decide), inW_of main_v104 (by decide),
    inW_of main_v105 (by decide)⟩

/-- A buffer outside `W1` holds after stretch 1 what it held before. -/
theorem ops1_keep (V : Valuation τ sig (Elt F)) {r : Ref sig .tc} (h : r ∉ W1) :
    after ops1 V (Proc.devRef .tc r) = V (Proc.devRef .tc r) :=
  after_of_writes_sub ops1 V ops1_writes h

/-- Operations 171 … 255 of @main, in order (a helper's operations in its call's place, over the call's buffers). -/
abbrev ops2 : List (HloOp τ sig (Elt F)) :=
  [ unary main_arg14 main_v106 ((extractStridedSlice S1x128 ![1, 0] · slices_S3x128_S1x128_1_0) : (⟨S3x128, .f32⟩ : BufTy).Contents (Elt F) → (⟨S1x128, .f32⟩ : BufTy).Contents (Elt F)),
    reshape main_v106 main_v107 rfl shapeCasts_S1x128_S128,
    nullary main_c_12 (constantI S_ 32 0#32),
    unary main_c_12 main_v108 (broadcastInDim S1600000 ![] bcast_S_S1600000 : (⟨S_, .i32⟩ : BufTy).Contents (Elt F) → (⟨S1600000, .i32⟩ : BufTy).Contents (Elt F)),
    binary main_v1 main_v108 main_v109 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v110 (broadcastInDim S1600000 ![] bcast_S_S1600000 : (⟨S_, .i32⟩ : BufTy).Contents (Elt F) → (⟨S1600000, .i32⟩ : BufTy).Contents (Elt F)),
    binary main_v1 main_v110 main_v111 (addi : (⟨S1600000, .i32⟩ : BufTy).Contents (Elt F) → (⟨S1600000, .i32⟩ : BufTy).Contents (Elt F) → (⟨S1600000, .i32⟩ : BufTy).Contents (Elt F)),
    ternary main_v109 main_v111 main_v1 main_v112 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v112 main_v113 (broadcastInDim S1600000x1 ![0] bcast_S1600000_S1600000x1_0 : (⟨S1600000, .i32⟩ : BufTy).Contents (Elt F) → (⟨S1600000x1, .i32⟩ : BufTy).Contents (Elt F)),
    binary main_v95 main_v113 main_v114 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_14 (constant S_ .f32 0x00000000#32),
    unary main_cst_14 main_v115 (broadcastInDim S100000x128 ![] bcast_S_S100000x128 : (⟨S_, .f32⟩ : BufTy).Contents (Elt F) → (⟨S100000x128, .f32⟩ : BufTy).Contents (Elt F)),
    unary main_v3 main_v116 (broadcastInDim S1600000x1 ![0] bcast_S1600000_S1600000x1_0 : (⟨S1600000, .i32⟩ : BufTy).Contents (Elt F) → (⟨S1600000x1, .i32⟩ : BufTy).Contents (Elt F)),
    ternary main_v115 main_v116 main_v114 main_v117 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v95 main_v117 main_v118 (addf : (⟨S100000x128, .f32⟩ : BufTy).Contents (Elt F) → (⟨S100000x128, .f32⟩ : BufTy).Contents (Elt F) → (⟨S100000x128, .f32⟩ : BufTy).Contents (Elt F)),
    binary main_v118 main_v97 main_v119 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v99 main_v120 (broadcastInDim S1x128 ![1] bcast_S128_S1x128_1 : (⟨S128, .f32⟩ : BufTy).Contents (Elt F) → (⟨S1x128, .f32⟩ : BufTy).Contents (Elt F)),
    unary main_v120 main_v121 (broadcastInDim S100000x128 ![0, 1] bcast_S1x128_S100000x128_0_1 : (⟨S1x128, .f32⟩ : BufTy).Contents (Elt F) → (⟨S100000x128, .f32⟩ : BufTy).Contents (Elt F)),
    binary main_v119 main_v121 main_v122 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v122) (TRef.of (T := ⟨S100000x128, .f32⟩) main_call6_v0) (TRef.of (T := ⟨S100000x128, .f32⟩) main_v123) maximumf,
    binary main_v123 main_v101 main_v124 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v103 main_v125 (broadcastInDim S1x128 ![1] bcast_S128_S1x128_1 : (⟨S128, .f32⟩ : BufTy).Contents (Elt F) → (⟨S1x128, .f32⟩ : BufTy).Contents (Elt F)),
    unary main_v125 main_v126 (broadcastInDim S100000x128 ![0, 1] bcast_S1x128_S100000x128_0_1 : (⟨S1x128, .f32⟩ : BufTy).Contents (Elt F) → (⟨S100000x128, .f32⟩ : BufTy).Contents (Elt F)),
    binary main_v124 main_v126 main_v127 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x128, .f32⟩) main_call7_v0) (broadcastInDim S100000x128 ![] bcast_S_S100000x128),
    TRef.binary (TRef.of (T := ⟨S100000x128, .f32⟩) main_v127) (TRef.of (T := ⟨S100000x128, .f32⟩) main_call7_v0) (TRef.of (T := ⟨S100000x128, .f32⟩) main_v128) maximumf,
    nullary main_cst_15 (constant S_ .f32 0x00000000#32),
    binary main_v128 main_cst_15 main_v129 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_16 (constant S_ .f32 0x47C35000#32),
    unary main_cst_16 main_v130 (broadcastInDim S128 ![] bcast_S_S128 : (⟨S_, .f32⟩ : BufTy).Contents (Elt F) → (⟨S128, .f32⟩ : BufTy).Contents (Elt F)),
    binary main_v129 main_v130 main_v131 (Host.divf : (⟨S128, .f32⟩ : BufTy).Contents (Elt F) → (⟨S128, .f32⟩ : BufTy).Contents (Elt F) → (⟨S128, .f32⟩ : BufTy).Contents (Elt F)),
    nullary main_c_17 (constantI S_ 32 0#32),
    TRef.nullary (TRef.of (T := ⟨S_, .f32⟩) main_call8_cst) (constant S_ .f32 0x00000000#32),
    TRef.binary (TRef.of (T := ⟨S100000x128, .f32⟩) main_v128) (TRef.of (T := ⟨S_, .f32⟩) main_call8_cst) (TRef.of (T := ⟨S128, .f32⟩) main_call8_v0) (fun x v => Host.reduceAdd x v reducesTo_S100000x128_S128_d0 h_S_),
    TRef.unary (TRef.of (T := ⟨S128, .f32⟩) main_call8_v0) (TRef.of (T := ⟨S1x128, .f32⟩) main_call8_v1) (broadcastInDim S1x128 ![1] bcast_S128_S1x128_1),
    TRef.nullary (TRef.of (T := ⟨S_, .f32⟩) main_call8_cst_0) (constant S_ .f32 0x47C35000#32),
    TRef.unary (TRef.of (T := ⟨S_, .f32⟩) main_call8_cst_0) (TRef.of (T := ⟨S1x128, .f32⟩) main_call8_v2) (broadcastInDim S1x128 ![] bcast_S_S1x128),
    TRef.binary (TRef.of (T := ⟨S1x128, .f32⟩) main_call8_v1) (TRef.of (T := ⟨S1x128, .f32⟩) main_call8_v2) (TRef.of (T := ⟨S1x128, .f32⟩) main_call8_v3) Host.divf,
    TRef.unary (TRef.of (T := ⟨S1x128, .f32⟩) main_call8_v3) (TRef.of (T := ⟨S100000x128, .f32⟩) main_call8_v4) (broadcastInDim S100000x128 ![0, 1] bcast_S1x128_S100000x128_0_1),
    TRef.binary (TRef.of (T := ⟨S100000x128, .f32⟩) main_v128) (TRef.of (T := ⟨S100000x128, .f32⟩) main_call8_v4) (TRef.of (T := ⟨S100000x128, .f32⟩) main_call8_v5) subf,
    TRef.binary (TRef.of (T := ⟨S100000x128, .f32⟩) main_call8_v5) (TRef.of (T := ⟨S100000x128, .f32⟩) main_call8_v5) (TRef.of (T := ⟨S100000x128, .f32⟩) main_call8_v6) mulf,
    TRef.unary (TRef.of (T := ⟨S_, .i32⟩) main_c_17) (TRef.of (T := ⟨S_, .f32⟩) main_call8_v7) (sitofp .f32),
    TRef.nullary (TRef.of (T := ⟨S_, .f32⟩) main_call8_cst_1) (constant S_ .f32 0x47C35000#32),
    TRef.binary (TRef.of (T := ⟨S_, .f32⟩) main_call8_cst_1) (TRef.of (T := ⟨S_, .f32⟩) main_call8_v7) (TRef.of (T := ⟨S_, .f32⟩) main_call8_v8) subf,
    TRef.nullary (TRef.of (T := ⟨S_, .f32⟩) main_call8_cst_2) (constant S_ .f32 0x00000000#32),
    TRef.binary (TRef.of (T := ⟨S100000x128, .f32⟩) main_call8_v6) (TRef.of (T := ⟨S_, .f32⟩) main_call8_cst_2) (TRef.of (T := ⟨S128, .f32⟩) main_call8_v9) (fun x v => Host.reduceAdd x v reducesTo_S100000x128_S128_d0 h_S_),
    TRef.unary (TRef.of (T := ⟨S_, .f32⟩) main_call8_v8) (TRef.of (T := ⟨S128, .f32⟩) main_call8_v10) (broadcastInDim S128 ![] bcast_S_S128),
    TRef.binary (TRef.of (T := ⟨S128, .f32⟩) main_call8_v9) (TRef.of (T := ⟨S128, .f32⟩) main_call8_v10) (TRef.of (T := ⟨S128, .f32⟩) main_call8_v11) Host.divf,
    TRef.nullary (TRef.of (T := ⟨S_, .f32⟩) main_call8_cst_3) (constant S_ .f32 0x00000000#32),
    TRef.binary (TRef.of (T := ⟨S_, .f32⟩) main_call8_v8) (TRef.of (T := ⟨S_, .f32⟩) main_call8_cst_3) (TRef.of (T := ⟨S_, .i1⟩) main_call8_v12) (cmpf .ogt),
    TRef.nullary (TRef.of (T := ⟨S_, .f32⟩) main_call8_cst_4) (constant S_ .f32 0x7FC00000#32),
    TRef.unary (TRef.of (T := ⟨S_, .f32⟩) main_call8_cst_4) (TRef.of (T := ⟨S_, .f32⟩) main_call8_call0_v0) id,
    TRef.unary (TRef.of (T := ⟨S_, .f32⟩) main_call8_call0_v0) (TRef.of (T := ⟨S128, .f32⟩) main_call8_call0_v1) (broadcastInDim S128 ![] bcast_S_S128),
    TRef.ternary (TRef.of (T := ⟨S_, .i1⟩) main_call8_v12) (TRef.of (T := ⟨S128, .f32⟩) main_call8_v11) (TRef.of (T := ⟨S128, .f32⟩) main_call8_call0_v1) (TRef.of (T := ⟨S128, .f32⟩) main_v132) (fun p a b => select (broadcastInDim S128 ![] bcast_S_S128 p) a b),
    unary main_v131 main_v133 (broadcastInDim S1x128 ![1] bcast_S128_S1x128_1 : (⟨S128, .f32⟩ : BufTy).Contents (Elt F) → (⟨S1x128, .f32⟩ : BufTy).Contents (Elt F)),
    unary main_v133 main_v134 (broadcastInDim S100000x128 ![0, 1] bcast_S1x128_S100000x128_0_1 : (⟨S1x128, .f32⟩ : BufTy).Contents (Elt F) → (⟨S100000x128, .f32⟩ : BufTy).Contents (Elt F)),
    binary main_v128 main_v134 main_v135 (subf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x3727C5AC#32),
    unary main_cst_18 main_v136 (broadcastInDim S128 ![] bcast_S_S128 : (⟨S_, .f32⟩ : BufTy).Contents (Elt F) → (⟨S128, .f32⟩ : BufTy).Contents (Elt F)),
    binary main_v132 main_v136 main_v137 (addf : (⟨S128, .f32⟩ : BufTy).Contents (Elt F) → (⟨S128, .f32⟩ : BufTy).Contents (Elt F) → (⟨S128, .f32⟩ : BufTy).Contents (Elt F)),
    unary main_v137 main_v138 (Host.rsqrt : (⟨S128, .f32⟩ : BufTy).Contents (Elt F) → (⟨S128, .f32⟩ : BufTy).Contents (Elt F)),
    unary main_v138 main_v139 (broadcastInDim S1x128 ![1] bcast_S128_S1x128_1 : (⟨S128, .f32⟩ : BufTy).Contents (Elt F) → (⟨S1x128, .f32⟩ : BufTy).Contents (Elt F)),
    unary main_v139 main_v140 (broadcastInDim S100000x128 ![0, 1] bcast_S1x128_S100000x128_0_1 : (⟨S1x128, .f32⟩ : BufTy).Contents (Elt F) → (⟨S100000x128, .f32⟩ : BufTy).Contents (Elt F)),
    binary main_v135 main_v140 main_v141 (mulf : (⟨S100000x128, .f32⟩ : BufTy).Contents (Elt F) → (⟨S100000x128, .f32⟩ : BufTy).Contents (Elt F) → (⟨S100000x128, .f32⟩ : BufTy).Contents (Elt F)),
    unary main_v105 main_v142 (broadcastInDim S1x128 ![1] bcast_S128_S1x128_1 : (⟨S128, .f32⟩ : BufTy).Contents (Elt F) → (⟨S1x128, .f32⟩ : BufTy).Contents (Elt F)),
    unary main_v142 main_v143 (broadcastInDim S100000x128 ![0, 1] bcast_S1x128_S100000x128_0_1 : (⟨S1x128, .f32⟩ : BufTy).Contents (Elt F) → (⟨S100000x128, .f32⟩ : BufTy).Contents (Elt F)),
    binary main_v141 main_v143 main_v144 (mulf : (⟨S100000x128, .f32⟩ : BufTy).Contents (Elt F) → (⟨S100000x128, .f32⟩ : BufTy).Contents (Elt F) → (⟨S100000x128, .f32⟩ : BufTy).Contents (Elt F)),
    unary main_v107 main_v145 (broadcastInDim S1x128 ![1] bcast_S128_S1x128_1 : (⟨S128, .f32⟩ : BufTy).Contents (Elt F) → (⟨S1x128, .f32⟩ : BufTy).Contents (Elt F)),
    unary main_v145 main_v146 (broadcastInDim S100000x128 ![0, 1] bcast_S1x128_S100000x128_0_1 : (⟨S1x128, .f32⟩ : BufTy).Contents (Elt F) → (⟨S100000x128, .f32⟩ : BufTy).Contents (Elt F)),
    binary main_v144 main_v146 main_v147 (addf : (⟨S100000x128, .f32⟩ : BufTy).Contents (Elt F) → (⟨S100000x128, .f32⟩ : BufTy).Contents (Elt F) → (⟨S100000x128, .f32⟩ : BufTy).Contents (Elt F)),
    unary main_arg9 main_v148 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v148 main_v149 rfl shapeCasts_S1x128x128_S128x128,
    unary main_arg10 main_v150 ((extractStridedSlice S1x128 ![2, 0] · slices_S3x128_S1x128_2_0) : (⟨S3x128, .f32⟩ : BufTy).Contents (Elt F) → (⟨S1x128, .f32⟩ : BufTy).Contents (Elt F)),
    reshape main_v150 main_v151 rfl shapeCasts_S1x128_S128,
    unary main_arg11 main_v152 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v152 main_v153 rfl shapeCasts_S1x128x128_S128x128,
    unary main_arg12 main_v154 ((extractStridedSlice S1x128 ![2, 0] · slices_S3x128_S1x128_2_0) : (⟨S3x128, .f32⟩ : BufTy).Contents (Elt F) → (⟨S1x128, .f32⟩ : BufTy).Contents (Elt F)),
    reshape main_v154 main_v155 rfl shapeCasts_S1x128_S128,
    unary main_arg13 main_v156 ((extractStridedSlice S1x128 ![2, 0] · slices_S3x128_S1x128_2_0) : (⟨S3x128, .f32⟩ : BufTy).Contents (Elt F) → (⟨S1x128, .f32⟩ : BufTy).Contents (Elt F)),
    reshape main_v156 main_v157 rfl shapeCasts_S1x128_S128,
    unary main_arg14 main_v158 ((extractStridedSlice S1x128 ![2, 0] · slices_S3x128_S1x128_2_0) : (⟨S3x128, .f32⟩ : BufTy).Contents (Elt F) → (⟨S1x128, .f32⟩ : BufTy).Contents (Elt F)) ]

/-- The buffers operations 171 … 255 write: each operation's result, in order. -/
abbrev W2 : List (Ref sig .tc) :=
  [ main_v106, main_v107, main_c_12, main_v108, main_v109, main_c_13, main_v110, main_v111, main_v112, main_v113,
    main_v114, main_cst_14, main_v115, main_v116, main_v117, main_v118, main_v119, main_v120, main_v121, main_v122,
    main_call6_cst, main_call6_v0, main_v123, main_v124, main_v125, main_v126, main_v127, main_call7_cst, main_call7_v0, main_v128,
    main_cst_15, main_v129, main_cst_16, main_v130, main_v131, main_c_17, main_call8_cst, main_call8_v0, main_call8_v1, main_call8_cst_0,
    main_call8_v2, main_call8_v3, main_call8_v4, main_call8_v5, main_call8_v6, main_call8_v7, main_call8_cst_1, main_call8_v8, main_call8_cst_2, main_call8_v9,
    main_call8_v10, main_call8_v11, main_call8_cst_3, main_call8_v12, main_call8_cst_4, main_call8_call0_v0, main_call8_call0_v1, main_v132, main_v133, main_v134,
    main_v135, main_cst_18, main_v136, main_v137, main_v138, main_v139, main_v140, main_v141, main_v142, main_v143,
    main_v144, main_v145, main_v146, main_v147, main_v148, main_v149, main_v150, main_v151, main_v152, main_v153,
    main_v154, main_v155, main_v156, main_v157, main_v158 ]

set_option maxRecDepth 8192 in
set_option maxHeartbeats 4000000 in
/-- Stretch 2 of @main is its operations run in order: a call unfolds to the helper's body, and sequencing re-associates. -/
theorem main_part2_eq (c : Dev nD) : main_part2 (F := F) c = seq ops2 := rfl

set_option maxRecDepth 8192 in
/-- Every buffer an operation of stretch 2 touches is a TensorCore buffer. -/
theorem ops2_sub : (ops2 : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    unary_bufs_sub ..⟩

set_option maxRecDepth 8192 in
/-- Every operation of stretch 2 determines what it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of stretch 2 writes its one result buffer, which is in `W2`. -/
theorem ops2_writes : (ops2 : List (HloOp τ sig (Elt F))).Forall fun op => op.writes ⊆ (W2.map (Proc.devRef (τ := τ) .tc)).toFinset :=
  ⟨inW_of main_v106 (by decide), inW_of main_v107 (by decide), inW_of main_c_12 (by decide), inW_of main_v108 (by decide),
    inW_of main_v109 (by decide), inW_of main_c_13 (by decide), inW_of main_v110 (by decide), inW_of main_v111 (by decide),
    inW_of main_v112 (by decide), inW_of main_v113 (by decide), inW_of main_v114 (by decide), inW_of main_cst_14 (by decide),
    inW_of main_v115 (by decide), inW_of main_v116 (by decide), inW_of main_v117 (by decide), inW_of main_v118 (by decide),
    inW_of main_v119 (by decide), inW_of main_v120 (by decide), inW_of main_v121 (by decide), inW_of main_v122 (by decide),
    inW_of main_call6_cst (by decide), inW_of main_call6_v0 (by decide), inW_of main_v123 (by decide), inW_of main_v124 (by decide),
    inW_of main_v125 (by decide), inW_of main_v126 (by decide), inW_of main_v127 (by decide), inW_of main_call7_cst (by decide),
    inW_of main_call7_v0 (by decide), inW_of main_v128 (by decide), inW_of main_cst_15 (by decide), inW_of main_v129 (by decide),
    inW_of main_cst_16 (by decide), inW_of main_v130 (by decide), inW_of main_v131 (by decide), inW_of main_c_17 (by decide),
    inW_of main_call8_cst (by decide), inW_of main_call8_v0 (by decide), inW_of main_call8_v1 (by decide), inW_of main_call8_cst_0 (by decide),
    inW_of main_call8_v2 (by decide), inW_of main_call8_v3 (by decide), inW_of main_call8_v4 (by decide), inW_of main_call8_v5 (by decide),
    inW_of main_call8_v6 (by decide), inW_of main_call8_v7 (by decide), inW_of main_call8_cst_1 (by decide), inW_of main_call8_v8 (by decide),
    inW_of main_call8_cst_2 (by decide), inW_of main_call8_v9 (by decide), inW_of main_call8_v10 (by decide), inW_of main_call8_v11 (by decide),
    inW_of main_call8_cst_3 (by decide), inW_of main_call8_v12 (by decide), inW_of main_call8_cst_4 (by decide), inW_of main_call8_call0_v0 (by decide),
    inW_of main_call8_call0_v1 (by decide), inW_of main_v132 (by decide), inW_of main_v133 (by decide), inW_of main_v134 (by decide),
    inW_of main_v135 (by decide), inW_of main_cst_18 (by decide), inW_of main_v136 (by decide), inW_of main_v137 (by decide),
    inW_of main_v138 (by decide), inW_of main_v139 (by decide), inW_of main_v140 (by decide), inW_of main_v141 (by decide),
    inW_of main_v142 (by decide), inW_of main_v143 (by decide), inW_of main_v144 (by decide), inW_of main_v145 (by decide),
    inW_of main_v146 (by decide), inW_of main_v147 (by decide), inW_of main_v148 (by decide), inW_of main_v149 (by decide),
    inW_of main_v150 (by decide), inW_of main_v151 (by decide), inW_of main_v152 (by decide), inW_of main_v153 (by decide),
    inW_of main_v154 (by decide), inW_of main_v155 (by decide), inW_of main_v156 (by decide), inW_of main_v157 (by decide),
    inW_of main_v158 (by decide)⟩

/-- A buffer outside `W2` holds after stretch 2 what it held before. -/
theorem ops2_keep (V : Valuation τ sig (Elt F)) {r : Ref sig .tc} (h : r ∉ W2) :
    after ops2 V (Proc.devRef .tc r) = V (Proc.devRef .tc r) :=
  after_of_writes_sub ops2 V ops2_writes h

/-- Operations 256 … 340 of @main, in order (a helper's operations in its call's place, over the call's buffers). -/
abbrev ops3 : List (HloOp τ sig (Elt F)) :=
  [ reshape main_v158 main_v159 rfl shapeCasts_S1x128_S128,
    nullary main_c_19 (constantI S_ 32 0#32),
    unary main_c_19 main_v160 (broadcastInDim S1600000 ![] bcast_S_S1600000 : (⟨S_, .i32⟩ : BufTy).Contents (Elt F) → (⟨S1600000, .i32⟩ : BufTy).Contents (Elt F)),
    binary main_v1 main_v160 main_v161 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v162 (broadcastInDim S1600000 ![] bcast_S_S1600000 : (⟨S_, .i32⟩ : BufTy).Contents (Elt F) → (⟨S1600000, .i32⟩ : BufTy).Contents (Elt F)),
    binary main_v1 main_v162 main_v163 (addi : (⟨S1600000, .i32⟩ : BufTy).Contents (Elt F) → (⟨S1600000, .i32⟩ : BufTy).Contents (Elt F) → (⟨S1600000, .i32⟩ : BufTy).Contents (Elt F)),
    ternary main_v161 main_v163 main_v1 main_v164 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v164 main_v165 (broadcastInDim S1600000x1 ![0] bcast_S1600000_S1600000x1_0 : (⟨S1600000, .i32⟩ : BufTy).Contents (Elt F) → (⟨S1600000x1, .i32⟩ : BufTy).Contents (Elt F)),
    binary main_v147 main_v165 main_v166 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_21 (constant S_ .f32 0x00000000#32),
    unary main_cst_21 main_v167 (broadcastInDim S100000x128 ![] bcast_S_S100000x128 : (⟨S_, .f32⟩ : BufTy).Contents (Elt F) → (⟨S100000x128, .f32⟩ : BufTy).Contents (Elt F)),
    unary main_v3 main_v168 (broadcastInDim S1600000x1 ![0] bcast_S1600000_S1600000x1_0 : (⟨S1600000, .i32⟩ : BufTy).Contents (Elt F) → (⟨S1600000x1, .i32⟩ : BufTy).Contents (Elt F)),
    ternary main_v167 main_v168 main_v166 main_v169 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v147 main_v169 main_v170 (addf : (⟨S100000x128, .f32⟩ : BufTy).Contents (Elt F) → (⟨S100000x128, .f32⟩ : BufTy).Contents (Elt F) → (⟨S100000x128, .f32⟩ : BufTy).Contents (Elt F)),
    binary main_v170 main_v149 main_v171 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v151 main_v172 (broadcastInDim S1x128 ![1] bcast_S128_S1x128_1 : (⟨S128, .f32⟩ : BufTy).Contents (Elt F) → (⟨S1x128, .f32⟩ : BufTy).Contents (Elt F)),
    unary main_v172 main_v173 (broadcastInDim S100000x128 ![0, 1] bcast_S1x128_S100000x128_0_1 : (⟨S1x128, .f32⟩ : BufTy).Contents (Elt F) → (⟨S100000x128, .f32⟩ : BufTy).Contents (Elt F)),
    binary main_v171 main_v173 main_v174 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S100000x128, .f32⟩) main_call9_v0) (broadcastInDim S100000x128 ![] bcast_S_S100000x128),
    TRef.binary (TRef.of (T := ⟨S100000x128, .f32⟩) main_v174) (TRef.of (T := ⟨S100000x128, .f32⟩) main_call9_v0) (TRef.of (T := ⟨S100000x128, .f32⟩) main_v175) maximumf,
    binary main_v175 main_v153 main_v176 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v155 main_v177 (broadcastInDim S1x128 ![1] bcast_S128_S1x128_1 : (⟨S128, .f32⟩ : BufTy).Contents (Elt F) → (⟨S1x128, .f32⟩ : BufTy).Contents (Elt F)),
    unary main_v177 main_v178 (broadcastInDim S100000x128 ![0, 1] bcast_S1x128_S100000x128_0_1 : (⟨S1x128, .f32⟩ : BufTy).Contents (Elt F) → (⟨S100000x128, .f32⟩ : BufTy).Contents (Elt F)),
    binary main_v176 main_v178 main_v179 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x128, .f32⟩) main_call10_v0) (broadcastInDim S100000x128 ![] bcast_S_S100000x128),
    TRef.binary (TRef.of (T := ⟨S100000x128, .f32⟩) main_v179) (TRef.of (T := ⟨S100000x128, .f32⟩) main_call10_v0) (TRef.of (T := ⟨S100000x128, .f32⟩) main_v180) maximumf,
    nullary main_cst_22 (constant S_ .f32 0x00000000#32),
    binary main_v180 main_cst_22 main_v181 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_23 (constant S_ .f32 0x47C35000#32),
    unary main_cst_23 main_v182 (broadcastInDim S128 ![] bcast_S_S128 : (⟨S_, .f32⟩ : BufTy).Contents (Elt F) → (⟨S128, .f32⟩ : BufTy).Contents (Elt F)),
    binary main_v181 main_v182 main_v183 (Host.divf : (⟨S128, .f32⟩ : BufTy).Contents (Elt F) → (⟨S128, .f32⟩ : BufTy).Contents (Elt F) → (⟨S128, .f32⟩ : BufTy).Contents (Elt F)),
    nullary main_c_24 (constantI S_ 32 0#32),
    TRef.nullary (TRef.of (T := ⟨S_, .f32⟩) main_call11_cst) (constant S_ .f32 0x00000000#32),
    TRef.binary (TRef.of (T := ⟨S100000x128, .f32⟩) main_v180) (TRef.of (T := ⟨S_, .f32⟩) main_call11_cst) (TRef.of (T := ⟨S128, .f32⟩) main_call11_v0) (fun x v => Host.reduceAdd x v reducesTo_S100000x128_S128_d0 h_S_),
    TRef.unary (TRef.of (T := ⟨S128, .f32⟩) main_call11_v0) (TRef.of (T := ⟨S1x128, .f32⟩) main_call11_v1) (broadcastInDim S1x128 ![1] bcast_S128_S1x128_1),
    TRef.nullary (TRef.of (T := ⟨S_, .f32⟩) main_call11_cst_0) (constant S_ .f32 0x47C35000#32),
    TRef.unary (TRef.of (T := ⟨S_, .f32⟩) main_call11_cst_0) (TRef.of (T := ⟨S1x128, .f32⟩) main_call11_v2) (broadcastInDim S1x128 ![] bcast_S_S1x128),
    TRef.binary (TRef.of (T := ⟨S1x128, .f32⟩) main_call11_v1) (TRef.of (T := ⟨S1x128, .f32⟩) main_call11_v2) (TRef.of (T := ⟨S1x128, .f32⟩) main_call11_v3) Host.divf,
    TRef.unary (TRef.of (T := ⟨S1x128, .f32⟩) main_call11_v3) (TRef.of (T := ⟨S100000x128, .f32⟩) main_call11_v4) (broadcastInDim S100000x128 ![0, 1] bcast_S1x128_S100000x128_0_1),
    TRef.binary (TRef.of (T := ⟨S100000x128, .f32⟩) main_v180) (TRef.of (T := ⟨S100000x128, .f32⟩) main_call11_v4) (TRef.of (T := ⟨S100000x128, .f32⟩) main_call11_v5) subf,
    TRef.binary (TRef.of (T := ⟨S100000x128, .f32⟩) main_call11_v5) (TRef.of (T := ⟨S100000x128, .f32⟩) main_call11_v5) (TRef.of (T := ⟨S100000x128, .f32⟩) main_call11_v6) mulf,
    TRef.unary (TRef.of (T := ⟨S_, .i32⟩) main_c_24) (TRef.of (T := ⟨S_, .f32⟩) main_call11_v7) (sitofp .f32),
    TRef.nullary (TRef.of (T := ⟨S_, .f32⟩) main_call11_cst_1) (constant S_ .f32 0x47C35000#32),
    TRef.binary (TRef.of (T := ⟨S_, .f32⟩) main_call11_cst_1) (TRef.of (T := ⟨S_, .f32⟩) main_call11_v7) (TRef.of (T := ⟨S_, .f32⟩) main_call11_v8) subf,
    TRef.nullary (TRef.of (T := ⟨S_, .f32⟩) main_call11_cst_2) (constant S_ .f32 0x00000000#32),
    TRef.binary (TRef.of (T := ⟨S100000x128, .f32⟩) main_call11_v6) (TRef.of (T := ⟨S_, .f32⟩) main_call11_cst_2) (TRef.of (T := ⟨S128, .f32⟩) main_call11_v9) (fun x v => Host.reduceAdd x v reducesTo_S100000x128_S128_d0 h_S_),
    TRef.unary (TRef.of (T := ⟨S_, .f32⟩) main_call11_v8) (TRef.of (T := ⟨S128, .f32⟩) main_call11_v10) (broadcastInDim S128 ![] bcast_S_S128),
    TRef.binary (TRef.of (T := ⟨S128, .f32⟩) main_call11_v9) (TRef.of (T := ⟨S128, .f32⟩) main_call11_v10) (TRef.of (T := ⟨S128, .f32⟩) main_call11_v11) Host.divf,
    TRef.nullary (TRef.of (T := ⟨S_, .f32⟩) main_call11_cst_3) (constant S_ .f32 0x00000000#32),
    TRef.binary (TRef.of (T := ⟨S_, .f32⟩) main_call11_v8) (TRef.of (T := ⟨S_, .f32⟩) main_call11_cst_3) (TRef.of (T := ⟨S_, .i1⟩) main_call11_v12) (cmpf .ogt),
    TRef.nullary (TRef.of (T := ⟨S_, .f32⟩) main_call11_cst_4) (constant S_ .f32 0x7FC00000#32),
    TRef.unary (TRef.of (T := ⟨S_, .f32⟩) main_call11_cst_4) (TRef.of (T := ⟨S_, .f32⟩) main_call11_call0_v0) id,
    TRef.unary (TRef.of (T := ⟨S_, .f32⟩) main_call11_call0_v0) (TRef.of (T := ⟨S128, .f32⟩) main_call11_call0_v1) (broadcastInDim S128 ![] bcast_S_S128),
    TRef.ternary (TRef.of (T := ⟨S_, .i1⟩) main_call11_v12) (TRef.of (T := ⟨S128, .f32⟩) main_call11_v11) (TRef.of (T := ⟨S128, .f32⟩) main_call11_call0_v1) (TRef.of (T := ⟨S128, .f32⟩) main_v184) (fun p a b => select (broadcastInDim S128 ![] bcast_S_S128 p) a b),
    unary main_v183 main_v185 (broadcastInDim S1x128 ![1] bcast_S128_S1x128_1 : (⟨S128, .f32⟩ : BufTy).Contents (Elt F) → (⟨S1x128, .f32⟩ : BufTy).Contents (Elt F)),
    unary main_v185 main_v186 (broadcastInDim S100000x128 ![0, 1] bcast_S1x128_S100000x128_0_1 : (⟨S1x128, .f32⟩ : BufTy).Contents (Elt F) → (⟨S100000x128, .f32⟩ : BufTy).Contents (Elt F)),
    binary main_v180 main_v186 main_v187 (subf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x3727C5AC#32),
    unary main_cst_25 main_v188 (broadcastInDim S128 ![] bcast_S_S128 : (⟨S_, .f32⟩ : BufTy).Contents (Elt F) → (⟨S128, .f32⟩ : BufTy).Contents (Elt F)),
    binary main_v184 main_v188 main_v189 (addf : (⟨S128, .f32⟩ : BufTy).Contents (Elt F) → (⟨S128, .f32⟩ : BufTy).Contents (Elt F) → (⟨S128, .f32⟩ : BufTy).Contents (Elt F)),
    unary main_v189 main_v190 (Host.rsqrt : (⟨S128, .f32⟩ : BufTy).Contents (Elt F) → (⟨S128, .f32⟩ : BufTy).Contents (Elt F)),
    unary main_v190 main_v191 (broadcastInDim S1x128 ![1] bcast_S128_S1x128_1 : (⟨S128, .f32⟩ : BufTy).Contents (Elt F) → (⟨S1x128, .f32⟩ : BufTy).Contents (Elt F)),
    unary main_v191 main_v192 (broadcastInDim S100000x128 ![0, 1] bcast_S1x128_S100000x128_0_1 : (⟨S1x128, .f32⟩ : BufTy).Contents (Elt F) → (⟨S100000x128, .f32⟩ : BufTy).Contents (Elt F)),
    binary main_v187 main_v192 main_v193 (mulf : (⟨S100000x128, .f32⟩ : BufTy).Contents (Elt F) → (⟨S100000x128, .f32⟩ : BufTy).Contents (Elt F) → (⟨S100000x128, .f32⟩ : BufTy).Contents (Elt F)),
    unary main_v157 main_v194 (broadcastInDim S1x128 ![1] bcast_S128_S1x128_1 : (⟨S128, .f32⟩ : BufTy).Contents (Elt F) → (⟨S1x128, .f32⟩ : BufTy).Contents (Elt F)),
    unary main_v194 main_v195 (broadcastInDim S100000x128 ![0, 1] bcast_S1x128_S100000x128_0_1 : (⟨S1x128, .f32⟩ : BufTy).Contents (Elt F) → (⟨S100000x128, .f32⟩ : BufTy).Contents (Elt F)),
    binary main_v193 main_v195 main_v196 (mulf : (⟨S100000x128, .f32⟩ : BufTy).Contents (Elt F) → (⟨S100000x128, .f32⟩ : BufTy).Contents (Elt F) → (⟨S100000x128, .f32⟩ : BufTy).Contents (Elt F)),
    unary main_v159 main_v197 (broadcastInDim S1x128 ![1] bcast_S128_S1x128_1 : (⟨S128, .f32⟩ : BufTy).Contents (Elt F) → (⟨S1x128, .f32⟩ : BufTy).Contents (Elt F)),
    unary main_v197 main_v198 (broadcastInDim S100000x128 ![0, 1] bcast_S1x128_S100000x128_0_1 : (⟨S1x128, .f32⟩ : BufTy).Contents (Elt F) → (⟨S100000x128, .f32⟩ : BufTy).Contents (Elt F)),
    binary main_v196 main_v198 main_v199 (addf : (⟨S100000x128, .f32⟩ : BufTy).Contents (Elt F) → (⟨S100000x128, .f32⟩ : BufTy).Contents (Elt F) → (⟨S100000x128, .f32⟩ : BufTy).Contents (Elt F)),
    nary ![main_v43, main_v95, main_v147, main_v199] main_v200 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    nullary main_cst_26 (constant S_ .f32 0x00000000#32),
    unary main_cst_26 main_v201 (broadcastInDim S128x512 ![] bcast_S_S128x512 : (⟨S_, .f32⟩ : BufTy).Contents (Elt F) → (⟨S128x512, .f32⟩ : BufTy).Contents (Elt F)),
    unary main_arg2 main_v202 (broadcastInDim S100000x1 ![0] bcast_S100000_S100000x1_0 : (⟨S100000, .i32⟩ : BufTy).Contents (Elt F) → (⟨S100000x1, .i32⟩ : BufTy).Contents (Elt F)),
    ternary main_v201 main_v202 main_v200 main_v203 ((fun x i u => Host.scatterAdd scatter_S128x512_S100000x1_S100000x512_1_0_0_1 x i u) : (⟨S128x512, .f32⟩ : BufTy).Contents (Elt F) → (⟨S100000x1, .i32⟩ : BufTy).Contents (Elt F) → (⟨S100000x512, .f32⟩ : BufTy).Contents (Elt F) → (⟨S128x512, .f32⟩ : BufTy).Contents (Elt F)),
    nullary main_cst_27 (constant S_ .f32 0x3F800000#32),
    unary main_cst_27 main_v204 (broadcastInDim S100000 ![] bcast_S_S100000 : (⟨S_, .f32⟩ : BufTy).Contents (Elt F) → (⟨S100000, .f32⟩ : BufTy).Contents (Elt F)),
    nullary main_cst_28 (constant S_ .f32 0x00000000#32),
    unary main_cst_28 main_v205 (broadcastInDim S128 ![] bcast_S_S128 : (⟨S_, .f32⟩ : BufTy).Contents (Elt F) → (⟨S128, .f32⟩ : BufTy).Contents (Elt F)),
    unary main_arg2 main_v206 (broadcastInDim S100000x1 ![0] bcast_S100000_S100000x1_0 : (⟨S100000, .i32⟩ : BufTy).Contents (Elt F) → (⟨S100000x1, .i32⟩ : BufTy).Contents (Elt F)),
    ternary main_v205 main_v206 main_v204 main_v207 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    nullary main_cst_29 (constant S_ .f32 0x3F800000#32) ]

/-- The buffers operations 256 … 340 write: each operation's result, in order. -/
abbrev W3 : List (Ref sig .tc) :=
  [ main_v159, main_c_19, main_v160, main_v161, main_c_20, main_v162, main_v163, main_v164, main_v165, main_v166,
    main_cst_21, main_v167, main_v168, main_v169, main_v170, main_v171, main_v172, main_v173, main_v174, main_call9_cst,
    main_call9_v0, main_v175, main_v176, main_v177, main_v178, main_v179, main_call10_cst, main_call10_v0, main_v180, main_cst_22,
    main_v181, main_cst_23, main_v182, main_v183, main_c_24, main_call11_cst, main_call11_v0, main_call11_v1, main_call11_cst_0, main_call11_v2,
    main_call11_v3, main_call11_v4, main_call11_v5, main_call11_v6, main_call11_v7, main_call11_cst_1, main_call11_v8, main_call11_cst_2, main_call11_v9, main_call11_v10,
    main_call11_v11, main_call11_cst_3, main_call11_v12, main_call11_cst_4, main_call11_call0_v0, main_call11_call0_v1, main_v184, main_v185, main_v186, main_v187,
    main_cst_25, main_v188, main_v189, main_v190, main_v191, main_v192, main_v193, main_v194, main_v195, main_v196,
    main_v197, main_v198, main_v199, main_v200, main_cst_26, main_v201, main_v202, main_v203, main_cst_27, main_v204,
    main_cst_28, main_v205, main_v206, main_v207, main_cst_29 ]

set_option maxRecDepth 8192 in
set_option maxHeartbeats 4000000 in
/-- Stretch 3 of @main is its operations run in order: a call unfolds to the helper's body, and sequencing re-associates. -/
theorem main_part3_eq (c : Dev nD) : main_part3 (F := F) c = seq ops3 := rfl

set_option maxRecDepth 8192 in
/-- Every buffer an operation of stretch 3 touches is a TensorCore buffer. -/
theorem ops3_sub : (ops3 : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub ..⟩

set_option maxRecDepth 8192 in
/-- Every operation of stretch 3 determines what it writes. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation of stretch 3 writes its one result buffer, which is in `W3`. -/
theorem ops3_writes : (ops3 : List (HloOp τ sig (Elt F))).Forall fun op => op.writes ⊆ (W3.map (Proc.devRef (τ := τ) .tc)).toFinset :=
  ⟨inW_of main_v159 (by decide), inW_of main_c_19 (by decide), inW_of main_v160 (by decide), inW_of main_v161 (by decide),
    inW_of main_c_20 (by decide), inW_of main_v162 (by decide), inW_of main_v163 (by decide), inW_of main_v164 (by decide),
    inW_of main_v165 (by decide), inW_of main_v166 (by decide), inW_of main_cst_21 (by decide), inW_of main_v167 (by decide),
    inW_of main_v168 (by decide), inW_of main_v169 (by decide), inW_of main_v170 (by decide), inW_of main_v171 (by decide),
    inW_of main_v172 (by decide), inW_of main_v173 (by decide), inW_of main_v174 (by decide), inW_of main_call9_cst (by decide),
    inW_of main_call9_v0 (by decide), inW_of main_v175 (by decide), inW_of main_v176 (by decide), inW_of main_v177 (by decide),
    inW_of main_v178 (by decide), inW_of main_v179 (by decide), inW_of main_call10_cst (by decide), inW_of main_call10_v0 (by decide),
    inW_of main_v180 (by decide), inW_of main_cst_22 (by decide), inW_of main_v181 (by decide), inW_of main_cst_23 (by decide),
    inW_of main_v182 (by decide), inW_of main_v183 (by decide), inW_of main_c_24 (by decide), inW_of main_call11_cst (by decide),
    inW_of main_call11_v0 (by decide), inW_of main_call11_v1 (by decide), inW_of main_call11_cst_0 (by decide), inW_of main_call11_v2 (by decide),
    inW_of main_call11_v3 (by decide), inW_of main_call11_v4 (by decide), inW_of main_call11_v5 (by decide), inW_of main_call11_v6 (by decide),
    inW_of main_call11_v7 (by decide), inW_of main_call11_cst_1 (by decide), inW_of main_call11_v8 (by decide), inW_of main_call11_cst_2 (by decide),
    inW_of main_call11_v9 (by decide), inW_of main_call11_v10 (by decide), inW_of main_call11_v11 (by decide), inW_of main_call11_cst_3 (by decide),
    inW_of main_call11_v12 (by decide), inW_of main_call11_cst_4 (by decide), inW_of main_call11_call0_v0 (by decide), inW_of main_call11_call0_v1 (by decide),
    inW_of main_v184 (by decide), inW_of main_v185 (by decide), inW_of main_v186 (by decide), inW_of main_v187 (by decide),
    inW_of main_cst_25 (by decide), inW_of main_v188 (by decide), inW_of main_v189 (by decide), inW_of main_v190 (by decide),
    inW_of main_v191 (by decide), inW_of main_v192 (by decide), inW_of main_v193 (by decide), inW_of main_v194 (by decide),
    inW_of main_v195 (by decide), inW_of main_v196 (by decide), inW_of main_v197 (by decide), inW_of main_v198 (by decide),
    inW_of main_v199 (by decide), inW_of main_v200 (by decide), inW_of main_cst_26 (by decide), inW_of main_v201 (by decide),
    inW_of main_v202 (by decide), inW_of main_v203 (by decide), inW_of main_cst_27 (by decide), inW_of main_v204 (by decide),
    inW_of main_cst_28 (by decide), inW_of main_v205 (by decide), inW_of main_v206 (by decide), inW_of main_v207 (by decide),
    inW_of main_cst_29 (by decide)⟩

/-- A buffer outside `W3` holds after stretch 3 what it held before. -/
theorem ops3_keep (V : Valuation τ sig (Elt F)) {r : Ref sig .tc} (h : r ∉ W3) :
    after ops3 V (Proc.devRef .tc r) = V (Proc.devRef .tc r) :=
  after_of_writes_sub ops3 V ops3_writes h

/-- Operations 341 … 356 of @main, in order (a helper's operations in its call's place, over the call's buffers). -/
abbrev ops4 : List (HloOp τ sig (Elt F)) :=
  [ unary main_cst_29 main_v208 (broadcastInDim S128 ![] bcast_S_S128 : (⟨S_, .f32⟩ : BufTy).Contents (Elt F) → (⟨S128, .f32⟩ : BufTy).Contents (Elt F)),
    binary main_v207 main_v208 main_v209 (maximumf : (⟨S128, .f32⟩ : BufTy).Contents (Elt F) → (⟨S128, .f32⟩ : BufTy).Contents (Elt F) → (⟨S128, .f32⟩ : BufTy).Contents (Elt F)),
    unary main_v209 main_v210 (broadcastInDim S128x1 ![0] bcast_S128_S128x1_0 : (⟨S128, .f32⟩ : BufTy).Contents (Elt F) → (⟨S128x1, .f32⟩ : BufTy).Contents (Elt F)),
    unary main_v210 main_v211 (broadcastInDim S128x512 ![0, 1] bcast_S128x1_S128x512_0_1 : (⟨S128x1, .f32⟩ : BufTy).Contents (Elt F) → (⟨S128x512, .f32⟩ : BufTy).Contents (Elt F)),
    binary main_v203 main_v211 main_v212 (Host.divf : (⟨S128x512, .f32⟩ : BufTy).Contents (Elt F) → (⟨S128x512, .f32⟩ : BufTy).Contents (Elt F) → (⟨S128x512, .f32⟩ : BufTy).Contents (Elt F)),
    binary main_v212 main_arg15 main_v213 ((fun l r => Host.dotGeneral dot_S128x512_S512x128_S128x128_1_0_0_1_n_n none l r) : (⟨S128x512, .f32⟩ : BufTy).Contents (Elt F) → (⟨S512x128, .f32⟩ : BufTy).Contents (Elt F) → (⟨S128x128, .f32⟩ : BufTy).Contents (Elt F)),
    unary main_arg16 main_v214 (broadcastInDim S1x128 ![1] bcast_S128_S1x128_1 : (⟨S128, .f32⟩ : BufTy).Contents (Elt F) → (⟨S1x128, .f32⟩ : BufTy).Contents (Elt F)),
    unary main_v214 main_v215 (broadcastInDim S128x128 ![0, 1] bcast_S1x128_S128x128_0_1 : (⟨S1x128, .f32⟩ : BufTy).Contents (Elt F) → (⟨S128x128, .f32⟩ : BufTy).Contents (Elt F)),
    binary main_v213 main_v215 main_v216 (addf : (⟨S128x128, .f32⟩ : BufTy).Contents (Elt F) → (⟨S128x128, .f32⟩ : BufTy).Contents (Elt F) → (⟨S128x128, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S128x128, .f32⟩) main_call12_v0) (broadcastInDim S128x128 ![] bcast_S_S128x128),
    TRef.binary (TRef.of (T := ⟨S128x128, .f32⟩) main_v216) (TRef.of (T := ⟨S128x128, .f32⟩) main_call12_v0) (TRef.of (T := ⟨S128x128, .f32⟩) main_v217) maximumf,
    binary main_v217 main_arg17 main_v218 ((fun l r => Host.dotGeneral dot_S128x128_S128x10_S128x10_1_0_0_1_n_n none l r) : (⟨S128x128, .f32⟩ : BufTy).Contents (Elt F) → (⟨S128x10, .f32⟩ : BufTy).Contents (Elt F) → (⟨S128x10, .f32⟩ : BufTy).Contents (Elt F)),
    unary main_arg18 main_v219 (broadcastInDim S1x10 ![1] bcast_S10_S1x10_1 : (⟨S10, .f32⟩ : BufTy).Contents (Elt F) → (⟨S1x10, .f32⟩ : BufTy).Contents (Elt F)),
    unary main_v219 main_v220 (broadcastInDim S128x10 ![0, 1] bcast_S1x10_S128x10_0_1 : (⟨S1x10, .f32⟩ : BufTy).Contents (Elt F) → (⟨S128x10, .f32⟩ : BufTy).Contents (Elt F)),
    binary main_v218 main_v220 main_v221 (addf : (⟨S128x10, .f32⟩ : BufTy).Contents (Elt F) → (⟨S128x10, .f32⟩ : BufTy).Contents (Elt F) → (⟨S128x10, .f32⟩ : BufTy).Contents (Elt F)) ]

/-- The buffers operations 341 … 356 write: each operation's result, in order. -/
abbrev W4 : List (Ref sig .tc) :=
  [ main_v208, main_v209, main_v210, main_v211, main_v212, main_v213, main_v214, main_v215, main_v216, main_call12_cst,
    main_call12_v0, main_v217, main_v218, main_v219, main_v220, main_v221 ]

set_option maxRecDepth 8192 in
set_option maxHeartbeats 4000000 in
/-- Stretch 4 of @main is its operations run in order: a call unfolds to the helper's body, and sequencing re-associates. -/
theorem main_part4_eq (c : Dev nD) : main_part4 (F := F) c = seq ops4 := rfl

set_option maxRecDepth 8192 in
/-- Every buffer an operation of stretch 4 touches is a TensorCore buffer. -/
theorem ops4_sub : (ops4 : List (HloOp τ sig (Elt F))).Forall fun op => op.bufs ⊆ tcRefs τ sig :=
  ⟨unary_bufs_sub .., binary_bufs_sub .., unary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub ..⟩

set_option maxRecDepth 8192 in
/-- Every operation of stretch 4 determines what it writes. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl⟩

set_option maxRecDepth 8192 in
/-- Each operation of stretch 4 writes its one result buffer, which is in `W4`. -/
theorem ops4_writes : (ops4 : List (HloOp τ sig (Elt F))).Forall fun op => op.writes ⊆ (W4.map (Proc.devRef (τ := τ) .tc)).toFinset :=
  ⟨inW_of main_v208 (by decide), inW_of main_v209 (by decide), inW_of main_v210 (by decide), inW_of main_v211 (by decide),
    inW_of main_v212 (by decide), inW_of main_v213 (by decide), inW_of main_v214 (by decide), inW_of main_v215 (by decide),
    inW_of main_v216 (by decide), inW_of main_call12_cst (by decide), inW_of main_call12_v0 (by decide), inW_of main_v217 (by decide),
    inW_of main_v218 (by decide), inW_of main_v219 (by decide), inW_of main_v220 (by decide), inW_of main_v221 (by decide)⟩

/-- A buffer outside `W4` holds after stretch 4 what it held before. -/
theorem ops4_keep (V : Valuation τ sig (Elt F)) {r : Ref sig .tc} (h : r ∉ W4) :
    after ops4 V (Proc.devRef .tc r) = V (Proc.devRef .tc r) :=
  after_of_writes_sub ops4 V ops4_writes h

/-- @main's operations, in order. -/
abbrev ops : List (HloOp τ sig (Elt F)) := ops0 ++ (ops1 ++ (ops2 ++ (ops3 ++ (ops4))))

set_option maxRecDepth 8192 in
/-- @main is its operations run in order: stretch by stretch, two lists run one after the other being their concatenation run as one. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h]

theorem ops_fresh : ∀ op ∈ (ops : List (HloOp τ sig (Elt F))), op.fresh = ∅ := fun op h => by
  simp only [ops, List.mem_append] at h
  rcases h with h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h]

/-- The fold of @main's operations is the stretches' folds, one after the other. -/
theorem after_ops (V : Valuation τ sig (Elt F)) :
    after ops V = after ops4 (after ops3 (after ops2 (after ops1 (after ops0 V)))) := by
  simp only [ops, StableHlo.after_append]

/-- A buffer that is no operation's result holds after the fold what it held before: stretch by stretch, last stretch first. -/
theorem ops_keep (V : Valuation τ sig (Elt F)) {r : Ref sig .tc} (h0 : r ∉ W0) (h1 : r ∉ W1) (h2 : r ∉ W2) (h3 : r ∉ W3) (h4 : r ∉ W4) :
    after ops V (Proc.devRef .tc r) = V (Proc.devRef .tc r) := by
  rw [after_ops, ops4_keep _ h4, ops3_keep _ h3, ops2_keep _ h2, ops1_keep _ h1, ops0_keep _ h0]

/-- On every device, for any float values, from any memory with zero counters: every weakly fair execution of @main
    terminates with the returned buffer at the fold of @main's operations over the launch contents and every argument
    buffer unchanged (no operation's result is an argument buffer). -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v221) = after ops (launchContents m c) (Proc.devRef .tc main_v221)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨h c main_v221,
      (h c main_arg0).trans (ops_keep _ (by decide) (by decide) (by decide) (by decide) (by decide)),
      (h c main_arg1).trans (ops_keep _ (by decide) (by decide) (by decide) (by decide) (by decide)),
      (h c main_arg2).trans (ops_keep _ (by decide) (by decide) (by decide) (by decide) (by decide)),
      (h c main_arg3).trans (ops_keep _ (by decide) (by decide) (by decide) (by decide) (by decide)),
      (h c main_arg4).trans (ops_keep _ (by decide) (by decide) (by decide) (by decide) (by decide)),
      (h c main_arg5).trans (ops_keep _ (by decide) (by decide) (by decide) (by decide) (by decide)),
      (h c main_arg6).trans (ops_keep _ (by decide) (by decide) (by decide) (by decide) (by decide)),
      (h c main_arg7).trans (ops_keep _ (by decide) (by decide) (by decide) (by decide) (by decide)),
      (h c main_arg8).trans (ops_keep _ (by decide) (by decide) (by decide) (by decide) (by decide)),
      (h c main_arg9).trans (ops_keep _ (by decide) (by decide) (by decide) (by decide) (by decide)),
      (h c main_arg10).trans (ops_keep _ (by decide) (by decide) (by decide) (by decide) (by decide)),
      (h c main_arg11).trans (ops_keep _ (by decide) (by decide) (by decide) (by decide) (by decide)),
      (h c main_arg12).trans (ops_keep _ (by decide) (by decide) (by decide) (by decide) (by decide)),
      (h c main_arg13).trans (ops_keep _ (by decide) (by decide) (by decide) (by decide) (by decide)),
      (h c main_arg14).trans (ops_keep _ (by decide) (by decide) (by decide) (by decide) (by decide)),
      (h c main_arg15).trans (ops_keep _ (by decide) (by decide) (by decide) (by decide) (by decide)),
      (h c main_arg16).trans (ops_keep _ (by decide) (by decide) (by decide) (by decide) (by decide)),
      (h c main_arg17).trans (ops_keep _ (by decide) (by decide) (by decide) (by decide) (by decide)),
      (h c main_arg18).trans (ops_keep _ (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.LibDenseRows.lean ====
/-
  A dense layer read one row at a time, on the extended reals.

  A dense layer takes a matrix x (m rows of k entries), a weight matrix w (k × n) and a bias b (one row of n entries)
  to the matrix whose entry (p, q) is  (Σ_c x[p, c] · w[c, q]) + b[0, q].  Entry (p, q) depends on x only through its
  row p.  A kernel and a host program spell the layer differently — the kernel as a matrix unit's product accumulated
  into a zero splat plus the bias row broadcast down the rows, the host as a dot_general plus a broadcast along axis 0 —
  and cut the rows differently (a kernel sees a block of rows, the host all of them); read at an entry both are the
  same function of the row, whatever the number of rows.  The rectifier max(·, 0) is likewise read entry by entry.
  Nothing here uses more of real arithmetic than 0 + x = x, so everything holds at the infinities too.
-/
import Idealize.ShloMosaic.Lib.StackMember
import Idealize.ShloMosaic.Lib.KernelVsHost
import Idealize.ShloMosaic.Lib.ValueLayout
import Idealize.ShloMosaic.Lib.ValueIdx
import Idealize.ShloMosaic.PureOps.Ideal.Laws

noncomputable section

namespace Cert.LibDenseRows

open Idealize.ShloMosaic Idealize.ShloMosaic.ValueIdx

/-- One row through a dense layer: entry q of  r · w + b. -/
def denseRow {k n : ℕ} (r : Fin k → EReal) (w : (⟨2, ![k, n]⟩ : Shape).Idx → EReal)
    (b : (⟨2, ![1, n]⟩ : Shape).Idx → EReal) (q : Fin n) : EReal :=
  (∑ c : Fin k, r c * w (ix2 c q)) + b (ix2 (0 : Fin 1) q)

/-- The rectifier on one extended real, against the f32 zero word. -/
def relu (x : EReal) : EReal := max x (Ideal.ofBits .f32 0x00000000#32)

/-- One row through two rectified dense layers:  relu(relu(r · w1 + b1) · w2 + b2)  at entry q. -/
def mlp2Row {k h n : ℕ} (r : Fin k → EReal) (w1 : (⟨2, ![k, h]⟩ : Shape).Idx → EReal) (b1 : (⟨2, ![1, h]⟩ : Shape).Idx → EReal)
    (w2 : (⟨2, ![h, n]⟩ : Shape).Idx → EReal) (b2 : (⟨2, ![1, n]⟩ : Shape).Idx → EReal) (q : Fin n) : EReal :=
  relu (denseRow (fun c => relu (denseRow r w1 b1 c)) w2 b2 q)

/-- One row through two rectified dense layers and a last, unrectified one:
    relu(relu(r · w0 + b0) · w1 + b1) · w2 + b2  at entry q. -/
def mlp3Row {k h g n : ℕ} (r : Fin k → EReal) (w0 : (⟨2, ![k, h]⟩ : Shape).Idx → EReal) (b0 : (⟨2, ![1, h]⟩ : Shape).Idx → EReal)
    (w1 : (⟨2, ![h, g]⟩ : Shape).Idx → EReal) (b1 : (⟨2, ![1, g]⟩ : Shape).Idx → EReal)
    (w2 : (⟨2, ![g, n]⟩ : Shape).Idx → EReal) (b2 : (⟨2, ![1, n]⟩ : Shape).Idx → EReal) (q : Fin n) : EReal :=
  denseRow (fun d => relu (denseRow (fun c => relu (denseRow r w0 b0 c)) w1 b1 d)) w2 b2 q

/-- The dense layer of a whole matrix: entry (i, j) is row i through the layer, at j. -/
def denseArr {m k n : ℕ} (x : (⟨2, ![m, k]⟩ : Shape).Idx → EReal) (w : (⟨2, ![k, n]⟩ : Shape).Idx → EReal)
    (b : (⟨2, ![1, n]⟩ : Shape).Idx → EReal) : (⟨2, ![m, n]⟩ : Shape).Idx → EReal :=
  fun i => denseRow (fun c => x (ix2 (i 0 : Fin m) c)) w b (i 1 : Fin n)

/-- Two rectified dense layers of a whole matrix, row by row. -/
def mlp2Arr {m k h n : ℕ} (x : (⟨2, ![m, k]⟩ : Shape).Idx → EReal) (w1 : (⟨2, ![k, h]⟩ : Shape).Idx → EReal)
    (b1 : (⟨2, ![1, h]⟩ : Shape).Idx → EReal) (w2 : (⟨2, ![h, n]⟩ : Shape).Idx → EReal) (b2 : (⟨2, ![1, n]⟩ : Shape).Idx → EReal) :
    (⟨2, ![m, n]⟩ : Shape).Idx → EReal :=
  fun i => mlp2Row (fun c => x (ix2 (i 0 : Fin m) c)) w1 b1 w2 b2 (i 1 : Fin n)

/-- Two rectified dense layers and a last, unrectified one of a whole matrix, row by row. -/
def mlp3Arr {m k h g n : ℕ} (x : (⟨2, ![m, k]⟩ : Shape).Idx → EReal) (w0 : (⟨2, ![k, h]⟩ : Shape).Idx → EReal)
    (b0 : (⟨2, ![1, h]⟩ : Shape).Idx → EReal) (w1 : (⟨2, ![h, g]⟩ : Shape).Idx → EReal) (b1 : (⟨2, ![1, g]⟩ : Shape).Idx → EReal)
    (w2 : (⟨2, ![g, n]⟩ : Shape).Idx → EReal) (b2 : (⟨2, ![1, n]⟩ : Shape).Idx → EReal) : (⟨2, ![m, n]⟩ : Shape).Idx → EReal :=
  fun i => mlp3Row (fun c => x (ix2 (i 0 : Fin m) c)) w0 b0 w1 b1 w2 b2 (i 1 : Fin n)

/-- The host's dense layer at entry (p, q): the layer applied to row p. -/
theorem host_dense_apply {m k n : ℕ} {φ₁ φ₂ : FTy} (x : FVec Ideal ⟨2, ![m, k]⟩ φ₁) (w : FVec Ideal ⟨2, ![k, n]⟩ φ₂)
    (b : FVec Ideal ⟨2, ![1, n]⟩ .f32) (hbc : (⟨2, ![1, n]⟩ : Shape).BroadcastsInDim ⟨2, ![m, n]⟩ ![0, 1])
    (p : Fin m) (q : Fin n) :
    addf (Host.dotGeneral (DotDims.plain m k n) none x w) (broadcastInDim ⟨2, ![m, n]⟩ ![0, 1] hbc b) (ix2 p q)
      = denseRow (fun c => x (ix2 p c)) w b q := by
  rw [addf_apply, StackMember.dotGeneral_plain_apply, broadcastInDim_oneRow_apply]
  rfl

/-- The kernel's dense layer on a block of rows at entry (p, q): the layer applied to row p of the block. -/
theorem kernel_dense_apply {m k n : ℕ} {φ₁ φ₂ : FTy} (x : FVec Ideal ⟨2, ![m, k]⟩ φ₁) (w : FVec Ideal ⟨2, ![k, n]⟩ φ₂)
    (b : FVec Ideal ⟨2, ![1, n]⟩ .f32) (hb : (⟨2, ![1, n]⟩ : Shape).Broadcasts ⟨2, ![m, n]⟩) (p : Fin m) (q : Fin n) :
    addf (matmul (DotDims.plain m k n) none x w (constant ⟨2, ![m, n]⟩ .f32 0x00000000#32))
        (broadcastTo ⟨2, ![m, n]⟩ b hb) (ix2 p q)
      = denseRow (fun c => x (ix2 p c)) w b q := by
  rw [addf_apply, matmul_zero_eq_dotGeneral, StackMember.dotGeneral_plain_apply, broadcastTo_1b_ab_apply]
  rfl

/-- The kernel's rectifier (a maximum with the splat of the zero word) at an entry. -/
theorem kernel_relu_apply {s : Shape} (v : FVec Ideal s .f32) (i : s.Idx) :
    maximumf v (broadcast s (Scalar.ofBits (F := Ideal) .f32 0x00000000#32)) i = relu (v i) := rfl

/-- The host's rectifier (a maximum with the broadcast of the zero constant) at an entry. -/
theorem host_relu_apply {s : Shape} (v : FVec Ideal s .f32) (h : (⟨0, ![]⟩ : Shape).BroadcastsInDim s ![]) (i : s.Idx) :
    maximumf v (broadcastInDim s ![] h (constant (F := Ideal) ⟨0, ![]⟩ .f32 0x00000000#32)) i = relu (v i) := by
  rw [maximumf_apply, broadcastInDim_apply ![] h _ i ix0 (fun a => a.elim0)]
  rfl

/-- A vector of n entries as a one-row matrix: the reshape is the broadcast along axis 1. -/
theorem oneRow_cast_eq_bcast {α : Type} {n : ℕ} (b : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ b hc = broadcastInDim ⟨2, ![1, n]⟩ ![1] hb b := by
  funext i
  have e1 := shapeCast_apply b hc i (ix1 (i 1 : Fin n)) (by
    rw [Shape.rowMajor_val_two, Shape.rowMajor_val_one]
    have h0 : (i 0).val < 1 := (i 0).isLt
    show (i 1).val = (i 0).val * n + (i 1).val
    have : (i 0).val = 0 := by omega
    rw [this]; omega)
  have e2 := broadcastInDim_apply ![1] hb b i (ix1 (i 1 : Fin n)) (by
    intro a
    match a with
    | ⟨0, _⟩ =>
      show (i 1).val = if n = 1 then 0 else (i 1).val
      split
      · have := (i 1).isLt; have e : (i 1).val < n := this; omega
      · rfl)
  exact e1.trans e2.symm

/-- A one-row matrix flattened to a vector and broadcast back along axis 1 is the one-row matrix. -/
theorem bcast_cast_oneRow {α : Type} {n : ℕ} (r : (⟨2, ![1, n]⟩ : Shape).Idx → α)
    (hc : (⟨2, ![1, n]⟩ : Shape).ShapeCasts ⟨1, ![n]⟩) (hb : (⟨1, ![n]⟩ : Shape).BroadcastsInDim ⟨2, ![1, n]⟩ ![1]) :
    broadcastInDim ⟨2, ![1, n]⟩ ![1] hb (shapeCast ⟨1, ![n]⟩ r hc) = r := by
  funext i
  have e2 := broadcastInDim_apply ![1] hb (shapeCast ⟨1, ![n]⟩ r hc) i (ix1 (i 1 : Fin n)) (by
    intro a
    match a with
    | ⟨0, _⟩ =>
      show (i 1).val = if n = 1 then 0 else (i 1).val
      split
      · have := (i 1).isLt; have e : (i 1).val < n := this; omega
      · rfl)
  have e1 := shapeCast_apply r hc (ix1 (i 1 : Fin n)) i (by
    rw [Shape.rowMajor_val_two, Shape.rowMajor_val_one]
    have h0 : (i 0).val < 1 := (i 0).isLt
    show (i 0).val * n + (i 1).val = (i 1).val
    have : (i 0).val = 0 := by omega
    rw [this]; omega)
  exact e2.trans e1

/-- The host's dense layer of a whole matrix is `denseArr`. -/
theorem host_dense_eq {m k n : ℕ} {φ₁ φ₂ : FTy} (x : FVec Ideal ⟨2, ![m, k]⟩ φ₁) (w : FVec Ideal ⟨2, ![k, n]⟩ φ₂)
    (b : FVec Ideal ⟨2, ![1, n]⟩ .f32) (hbc : (⟨2, ![1, n]⟩ : Shape).BroadcastsInDim ⟨2, ![m, n]⟩ ![0, 1]) :
    addf (Host.dotGeneral (DotDims.plain m k n) none x w) (broadcastInDim ⟨2, ![m, n]⟩ ![0, 1] hbc b) = denseArr x w b := by
  funext i
  obtain ⟨p, q, rfl⟩ : ∃ (p : Fin m) (q : Fin n), i = ix2 p q := ⟨i 0, i 1, eq_ix2 i⟩
  exact host_dense_apply x w b hbc p q

/-- The host's rectified dense layer of a whole matrix, entry by entry. -/
theorem host_relu_dense_apply {m k n : ℕ} {φ₁ φ₂ : FTy} (x : FVec Ideal ⟨2, ![m, k]⟩ φ₁) (w : FVec Ideal ⟨2, ![k, n]⟩ φ₂)
    (b : FVec Ideal ⟨2, ![1, n]⟩ .f32) (hbc : (⟨2, ![1, n]⟩ : Shape).BroadcastsInDim ⟨2, ![m, n]⟩ ![0, 1])
    (h0 : (⟨0, ![]⟩ : Shape).BroadcastsInDim ⟨2, ![m, n]⟩ ![]) (p : Fin m) (q : Fin n) :
    maximumf (addf (Host.dotGeneral (DotDims.plain m k n) none x w) (broadcastInDim ⟨2, ![m, n]⟩ ![0, 1] hbc b))
        (broadcastInDim ⟨2, ![m, n]⟩ ![] h0 (constant (F := Ideal) ⟨0, ![]⟩ .f32 0x00000000#32)) (ix2 p q)
      = relu (denseRow (fun c => x (ix2 p c)) w b q) :=
  (host_relu_apply _ h0 _).trans (congrArg relu (host_dense_apply x w b hbc p q))

end Cert.LibDenseRows

end
-- ==== Proof.LibFinite.lean ====
/-
  Finiteness of extended reals.

  An extended real is FINITE when it is a real number (neither +∞ nor −∞).  Sums, differences, products, maxima and
  minima of finite extended reals are finite, and so is a finite sum of them; a finite extended real divided by a
  nonzero real is the real quotient; the reciprocal square root of a positive real is a positive real.  The maximum
  of a finite extended real with zero is a non-negative real, and a non-negative real plus a positive real is a
  positive real, so the reciprocal square root of "variance plus epsilon" is a positive real.

  For whole arrays: an array gathered from an array of finite entries has finite entries (each is one of the
  operand's); a scatter-add of finite updates into an array of finite entries has finite entries (each is an operand
  entry plus a finite sum of updates); a contraction of two arrays of finite entries has finite entries (each is a
  finite sum of products); a host sum with a finite initial value of an array of finite entries has finite entries.
  The integer index operands play no part.

  Three float patterns: 0x47435000 denotes 50000, 0x00000000 denotes 0, and 0x3727C5AC (the single-precision number
  nearest 10⁻⁵) denotes a positive real.
-/
import Mathlib
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Lib.BatchNorm

open Idealize.ShloMosaic

/-! ## The predicate -/

/-- An extended real is finite when it is (the image of) a real number. -/
def IsReal (x : EReal) : Prop := ∃ r : ℝ, x = (r : EReal)

/-- A real number, read as an extended real, is finite. -/
theorem isReal_coe (r : ℝ) : IsReal (r : EReal) := ⟨r, rfl⟩

/-- Zero is finite. -/
theorem isReal_zero : IsReal (0 : EReal) := ⟨0, rfl⟩

/-- One is finite. -/
theorem isReal_one : IsReal (1 : EReal) := ⟨1, rfl⟩

/-- Finite means: neither +∞ nor −∞. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- A finite extended real is the image of its real part. -/
theorem IsReal.eq_coe_toReal {x : EReal} (hx : IsReal x) : x = ((x.toReal : ℝ) : EReal) := by
  obtain ⟨r, rfl⟩ := hx
  rw [EReal.toReal_coe]

/-- A family of finite extended reals is the image of a family of reals. -/
theorem exists_real_family {ι : Type*} {x : ι → EReal} (hx : ∀ i, IsReal (x i)) :
    ∃ f : ι → ℝ, ∀ i, x i = ((f i : ℝ) : EReal) :=
  ⟨fun i => (x i).toReal, fun i => (hx i).eq_coe_toReal⟩

/-! ## Closure under the arithmetic operations -/

/-- The sum of two finite extended reals is finite. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The negation of a finite extended real is finite. -/
theorem IsReal.neg {x : EReal} (hx : IsReal x) : IsReal (-x) := by
  obtain ⟨a, rfl⟩ := hx
  exact ⟨-a, (EReal.coe_neg a).symm⟩

/-- The difference of two finite extended reals is finite. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The product of two finite extended reals is finite. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The maximum of two finite extended reals is finite. -/
theorem isReal_max {x y : EReal} (hx : IsReal x) (hy : IsReal y) : IsReal (max x y) := by
  rcases max_choice x y with h | h <;> rw [h] <;> assumption

/-- The minimum of two finite extended reals is finite. -/
theorem isReal_min {x y : EReal} (hx : IsReal x) (hy : IsReal y) : IsReal (min x y) := by
  rcases min_choice x y with h | h <;> rw [h] <;> assumption

/-- The maximum of a finite extended real with zero is finite. -/
theorem isReal_max_zero {x : EReal} (hx : IsReal x) : IsReal (max x 0) := isReal_max hx isReal_zero

/-- The maximum of two reals, read as extended reals, is the real maximum. -/
theorem max_coe_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The maximum of a finite extended real with zero is a non-negative real. -/
theorem exists_nonneg_max_zero {x : EReal} (hx : IsReal x) :
    ∃ v : ℝ, 0 ≤ v ∧ max x 0 = (v : EReal) := by
  obtain ⟨a, rfl⟩ := hx
  refine ⟨max a 0, le_max_right a 0, ?_⟩
  rw [← EReal.coe_zero, max_coe_coe]

/-- The maximum with zero is never below zero. -/
theorem zero_le_max_zero (x : EReal) : 0 ≤ max x 0 := le_max_right x 0

/-! ## Finite sums -/

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert k s hk ih => rw [Finset.sum_insert hk, Finset.sum_insert hk, EReal.coe_add, ih]

/-- A finite sum of finite extended reals is finite. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert k s hk ih =>
    rw [Finset.sum_insert hk]
    exact (hf k (Finset.mem_insert_self k s)).add (ih fun i hi => hf i (Finset.mem_insert_of_mem hi))

/-- A sum over a whole finite index type of finite extended reals is finite. -/
theorem isReal_sum_univ {ι : Type*} [Fintype ι] (f : ι → EReal) (hf : ∀ i, IsReal (f i)) :
    IsReal (∑ i, f i) :=
  isReal_sum Finset.univ f fun i _ => hf i

/-- The same with the sum started at zero, the form a host sum with initial value zero takes. -/
theorem isReal_zero_add_sum {ι : Type*} (s : Finset ι) (f : ι → EReal) (hf : ∀ i ∈ s, IsReal (f i)) :
    IsReal ((0 : EReal) + ∑ i ∈ s, f i) :=
  isReal_zero.add (isReal_sum s f hf)

/-! ## Division by a nonzero real -/

/-- A real divided by a nonzero real, as extended reals, is the real quotient. -/
theorem div_coe_coe (a : ℝ) {r : ℝ} (hr : r ≠ 0) :
    Ideal.div (a : EReal) (r : EReal) = ((a / r : ℝ) : EReal) := by
  rw [Ideal.div_coe hr, ← EReal.coe_mul, mul_one_div]

/-- A finite extended real divided by a nonzero real is finite. -/
theorem IsReal.div_coe {x : EReal} (hx : IsReal x) {r : ℝ} (hr : r ≠ 0) : IsReal (Ideal.div x (r : EReal)) := by
  obtain ⟨a, rfl⟩ := hx
  exact ⟨a / r, div_coe_coe a hr⟩

/-- A finite extended real divided by a nonzero finite extended real is finite. -/
theorem IsReal.div {x y : EReal} (hx : IsReal x) (hy : IsReal y) (hy0 : y ≠ 0) : IsReal (Ideal.div x y) := by
  obtain ⟨b, rfl⟩ := hy
  exact hx.div_coe (fun h => hy0 (by rw [h, EReal.coe_zero]))

/-! ## The reciprocal square root of a positive real -/

/-- The reciprocal square root of a positive real r is the real 1 / √r. -/
theorem rsqrt_coe_of_pos {r : ℝ} (hr : 0 < r) :
    Ideal.rsqrt (r : EReal) = (((Real.sqrt r)⁻¹ : ℝ) : EReal) := by
  rw [Ideal.rsqrt_coe, if_neg (not_lt.mpr hr.le), if_neg hr.ne']

/-- … and 1 / √r is positive. -/
theorem inv_sqrt_pos {r : ℝ} (hr : 0 < r) : 0 < (Real.sqrt r)⁻¹ :=
  inv_pos.mpr (Real.sqrt_pos.mpr hr)

/-- The reciprocal square root of a positive real is a positive real. -/
theorem exists_pos_rsqrt {x : EReal} (hx : ∃ r : ℝ, 0 < r ∧ x = (r : EReal)) :
    ∃ q : ℝ, 0 < q ∧ Ideal.rsqrt x = (q : EReal) := by
  obtain ⟨r, hr, rfl⟩ := hx
  exact ⟨(Real.sqrt r)⁻¹, inv_sqrt_pos hr, rsqrt_coe_of_pos hr⟩

/-- In particular it is finite. -/
theorem isReal_rsqrt_of_pos {x : EReal} (hx : ∃ r : ℝ, 0 < r ∧ x = (r : EReal)) : IsReal (Ideal.rsqrt x) := by
  obtain ⟨q, _, hq⟩ := exists_pos_rsqrt hx
  exact ⟨q, hq⟩

/-! ## Variance plus epsilon -/

/-- A non-negative real plus a positive real is a positive real. -/
theorem exists_pos_add {x e : EReal} (hx : ∃ v : ℝ, 0 ≤ v ∧ x = (v : EReal)) (he : ∃ r : ℝ, 0 < r ∧ e = (r : EReal)) :
    ∃ p : ℝ, 0 < p ∧ x + e = (p : EReal) := by
  obtain ⟨v, hv, rfl⟩ := hx
  obtain ⟨r, hr, rfl⟩ := he
  exact ⟨v + r, by linarith, (EReal.coe_add v r).symm⟩

/-- So the reciprocal square root of a non-negative real plus a positive real is a positive real. -/
theorem exists_pos_rsqrt_add {x e : EReal} (hx : ∃ v : ℝ, 0 ≤ v ∧ x = (v : EReal))
    (he : ∃ r : ℝ, 0 < r ∧ e = (r : EReal)) :
    ∃ q : ℝ, 0 < q ∧ Ideal.rsqrt (x + e) = (q : EReal) :=
  exists_pos_rsqrt (exists_pos_add hx he)

/-- For a finite x and a positive real e, the reciprocal square root of max x 0 + e is a positive real. -/
theorem exists_pos_rsqrt_max_zero_add {x e : EReal} (hx : IsReal x) (he : ∃ r : ℝ, 0 < r ∧ e = (r : EReal)) :
    ∃ q : ℝ, 0 < q ∧ Ideal.rsqrt (max x 0 + e) = (q : EReal) :=
  exists_pos_rsqrt_add (exists_nonneg_max_zero hx) he

/-! ## Three float patterns -/

/-- The single-precision pattern 0x47435000 denotes 50000. -/
theorem ofBits_50000 : Ideal.ofBits .f32 0x47435000#32 = ((50000 : ℝ) : EReal) := by
  simp [Ideal.ofBits, Ideal.ieee, -EReal.coe_mul]; norm_num

/-- The single-precision pattern 0x00000000 denotes 0. -/
theorem ofBits_zero : Ideal.ofBits .f32 0x00000000#32 = 0 := Ideal.ofBits_zero_f32

/-- The single-precision pattern 0x3727C5AC (the number nearest 10⁻⁵) denotes the real 10995116 · 2⁻⁴⁰. -/
theorem ofBits_eps_eq : Ideal.ofBits .f32 0x3727C5AC#32 = (((10995116 : ℝ) * (2 : ℝ) ^ (-40 : ℤ) : ℝ) : EReal) := by
  simp [Ideal.ofBits, Ideal.ieee, -EReal.coe_mul]

/-- … a positive real. -/
theorem ofBits_eps : ∃ e : ℝ, 0 < e ∧ Ideal.ofBits .f32 0x3727C5AC#32 = (e : EReal) :=
  ⟨(10995116 : ℝ) * (2 : ℝ) ^ (-40 : ℤ), by positivity, ofBits_eps_eq⟩

/-- 50000 is not zero. -/
theorem fifty_thousand_ne_zero : (50000 : ℝ) ≠ 0 := by norm_num

/-! ## Whole arrays -/

section Arrays

/-- Entry by entry, the host's quotient of two float arrays is the quotient of the entries. -/
theorem host_divf_apply {s : Shape} {φ : FTy} (x y : FVec Ideal s φ) (i : s.Idx) :
    Host.divf (F := Ideal) x y i = Ideal.div (x i) (y i) := rfl

/-- Entry by entry, the host's reciprocal square root of a float array is that of the entry. -/
theorem host_rsqrt_apply {s : Shape} {φ : FTy} (x : FVec Ideal s φ) (i : s.Idx) :
    Host.rsqrt (F := Ideal) x i = Ideal.rsqrt (x i) := rfl

/-- An array gathered from an array of finite entries has finite entries, whatever the start indices. -/
theorem isReal_gather {s si t : Shape} {w : Nat} (d : GatherDims s si t) (x : s.Idx → EReal) (idx : IVec si w)
    (hx : ∀ i, IsReal (x i)) (j : t.Idx) : IsReal (Host.gather d x idx j) :=
  hx _

/-- A scatter-add of finite updates into an array of finite entries has finite entries, whatever the scatter
    indices: each entry is the operand's plus a finite sum of updates. -/
theorem isReal_hostScatterAdd {s si u : Shape} {w : Nat} (d : ScatterDims s si u) (x : s.Idx → EReal) (idx : IVec si w)
    (upd : u.Idx → EReal) (hx : ∀ i, IsReal (x i)) (hu : ∀ j, IsReal (upd j)) (i : s.Idx) :
    IsReal (Ideal.hostScatterAdd d x idx upd i) :=
  (hx i).add (isReal_sum _ _ fun j _ => hu j)

/-- The same for the host operation as a program spells it. -/
theorem isReal_scatterAdd {s si u : Shape} {w : Nat} {φ : FTy} (d : ScatterDims s si u) (x : FVec Ideal s φ)
    (idx : IVec si w) (upd : FVec Ideal u φ) (hx : ∀ i, IsReal (x i)) (hu : ∀ j, IsReal (upd j)) (i : s.Idx) :
    IsReal (Host.scatterAdd (F := Ideal) d x idx upd i) :=
  isReal_hostScatterAdd d x idx upd hx hu i

/-- A contraction of two arrays of finite entries has finite entries: each is a finite sum of products. -/
theorem isReal_dotGeneral {sl sr so : Shape} {φ₁ φ₂ : FTy} (d : DotDims sl sr so) (prec : Option ContractPrecision)
    (sched : HostSchedule) (lhs : FVec Ideal sl φ₁) (rhs : FVec Ideal sr φ₂) (hl : ∀ i, IsReal (lhs i))
    (hr : ∀ i, IsReal (rhs i)) (j : so.Idx) : IsReal (FloatOps.dotGeneral d prec sched lhs rhs j) := by
  rw [Ideal.dotGeneral_apply]
  exact isReal_sum _ _ fun k _ => (hl _).mul (hr _)

/-- The same for the host operation as a program spells it. -/
theorem isReal_host_dotGeneral {sl sr so : Shape} {φ₁ φ₂ : FTy} (d : DotDims sl sr so) (prec : Option ContractPrecision)
    (lhs : FVec Ideal sl φ₁) (rhs : FVec Ideal sr φ₂) (hl : ∀ i, IsReal (lhs i))
    (hr : ∀ i, IsReal (rhs i)) (j : so.Idx) : IsReal (Host.dotGeneral (F := Ideal) d prec lhs rhs j) :=
  isReal_dotGeneral d prec .single lhs rhs hl hr j

/-- A host sum, from a finite initial value, of an array of finite entries has finite entries. -/
theorem isReal_hostReduceAdd {s t : Shape} {axes : List (Fin s.rank)} (h : s.ReducesTo axes t) (x : s.Idx → EReal)
    (init : EReal) (hx : ∀ i, IsReal (x i)) (hi : IsReal init) (j : t.Idx) :
    IsReal (Ideal.hostReduceAdd h x init j) :=
  hi.add (isReal_sum _ _ fun i _ => hx i)

/-- A matrix product into an accumulator, all three arrays of finite entries, has finite entries: each is the
    accumulator's entry plus a finite sum of products. -/
theorem isReal_matmul {sl sr so : Shape} {φ₁ φ₂ : FTy} (d : DotDims sl sr so) (prec : Option ContractPrecision)
    (lhs : FVec Ideal sl φ₁) (rhs : FVec Ideal sr φ₂) (acc : FVec Ideal so .f32) (hl : ∀ i, IsReal (lhs i))
    (hr : ∀ i, IsReal (rhs i)) (ha : ∀ j, IsReal (acc j)) (j : so.Idx) :
    IsReal (FloatOps.matmul d prec lhs rhs acc j) := by
  rw [Ideal.matmul_apply]
  exact (ha j).add (isReal_sum _ _ fun k _ => (hl _).mul (hr _))

/-- A sum along axes of an array of finite entries has finite entries. -/
theorem isReal_reduceAdd {s t : Shape} {axes : List (Fin s.rank)} (h : s.Reduces axes t) (x : s.Idx → EReal)
    (hx : ∀ i, IsReal (x i)) (j : t.Idx) : IsReal (Ideal.reduceAdd h x j) :=
  isReal_sum _ _ fun i _ => hx i

end Arrays

/-! ## One entry of a batch normalisation -/

/-- (x − μ) · c · g + b is finite when x, μ, c, g and b are. -/
theorem isReal_normalised {x mu c g b : EReal} (hx : IsReal x) (hmu : IsReal mu) (hc : IsReal c) (hg : IsReal g)
    (hb : IsReal b) : IsReal ((x - mu) * c * g + b) :=
  (((hx.sub hmu).mul hc).mul hg).add hb

end Cert.Lib.BatchNorm

end
-- ==== Proof.LibVariance.lean ====
/-
  The batch variance two ways.

  For N ≥ 1 real numbers x_i with sum s and sum of squares ss, the mean is m = s / N, and
      ss / N − m · m  =  (Σ_i (x_i − m) · (x_i − m)) / N,
  a non-negative real, so taking the maximum of the left side with zero changes nothing.  On the extended reals the
  two sides can differ when some x_i is infinite; for finite entries (every x_i a real number) every sum, quotient
  and product stays a real number and the identity carries over: the "mean of squares minus squared mean, clamped at
  zero" form of the variance equals the "mean squared deviation" form.  The mean is finite, both forms of the variance
  are one non-negative real, and the reciprocal square root of the variance plus a positive real is a positive real.
-/
import proofs.«117300_j5643587027248_1_alg».proof.Proof.LibFinite

noncomputable section

open scoped BigOperators

namespace Cert.Lib.BatchNorm

open Idealize.ShloMosaic

/-! ## Over the reals -/

section Real
variable {ι : Type*} [Fintype ι]

/-- The sum of squared deviations from any m, expanded: Σ (x_i − m)² = Σ x_i² − 2 m Σ x_i + N m². -/
theorem real_sum_sq_dev (f : ι → ℝ) {n : ℝ} (hn : (Fintype.card ι : ℝ) = n) (m : ℝ) :
    ∑ i, (f i - m) * (f i - m) = (∑ i, f i * f i) - 2 * m * (∑ i, f i) + n * (m * m) := by
  have h : ∀ i, (f i - m) * (f i - m) = f i * f i - 2 * m * f i + m * m := fun i => by ring
  simp only [h, Finset.sum_add_distrib, Finset.sum_sub_distrib, ← Finset.mul_sum, Finset.sum_const, Finset.card_univ,
    nsmul_eq_mul, hn]
  ring

/-- Mean of squares minus squared mean is the mean squared deviation from the mean. -/
theorem real_variance (f : ι → ℝ) {n : ℝ} (hn : (Fintype.card ι : ℝ) = n) (hpos : 0 < n) :
    (∑ i, f i * f i) / n - (∑ i, f i) / n * ((∑ i, f i) / n)
      = (∑ i, (f i - (∑ j, f j) / n) * (f i - (∑ j, f j) / n)) / n := by
  rw [real_sum_sq_dev f hn]
  have hn0 : n ≠ 0 := hpos.ne'
  field_simp
  ring

/-- The mean squared deviation is non-negative. -/
theorem real_variance_nonneg (f : ι → ℝ) {n : ℝ} (hpos : 0 < n) (m : ℝ) :
    0 ≤ (∑ i, (f i - m) * (f i - m)) / n :=
  div_nonneg (Finset.sum_nonneg fun i _ => mul_self_nonneg _) hpos.le

end Real

/-! ## Over the extended reals, for finite entries -/

section Coe
variable {ι : Type*} [Fintype ι]

/-- The sum of the squares of the images is the image of the sum of squares. -/
theorem sum_coe_mul_self (f : ι → ℝ) :
    ∑ i, (f i : EReal) * (f i : EReal) = ((∑ i, f i * f i : ℝ) : EReal) := by
  rw [coe_sum]
  exact Finset.sum_congr rfl fun i _ => (EReal.coe_mul _ _).symm

/-- The mean of the images is the image of the mean. -/
theorem mean_coe (f : ι → ℝ) {n : ℝ} (hn0 : n ≠ 0) :
    Ideal.div (∑ i, (f i : EReal)) (n : EReal) = (((∑ i, f i) / n : ℝ) : EReal) := by
  rw [← coe_sum, div_coe_coe _ hn0]

/-- The mean squared deviation of the images is the image of the mean squared deviation. -/
theorem msd_coe (f : ι → ℝ) {n : ℝ} (hn0 : n ≠ 0) :
    Ideal.div (∑ i, ((f i : EReal) - Ideal.div (∑ j, (f j : EReal)) (n : EReal))
        * ((f i : EReal) - Ideal.div (∑ j, (f j : EReal)) (n : EReal))) (n : EReal)
      = (((∑ i, (f i - (∑ j, f j) / n) * (f i - (∑ j, f j) / n)) / n : ℝ) : EReal) := by
  have hd : ∑ i, ((f i : EReal) - (((∑ j, f j) / n : ℝ) : EReal)) * ((f i : EReal) - (((∑ j, f j) / n : ℝ) : EReal))
      = ((∑ i, (f i - (∑ j, f j) / n) * (f i - (∑ j, f j) / n) : ℝ) : EReal) := by
    rw [coe_sum]
    exact Finset.sum_congr rfl fun i _ => by rw [← EReal.coe_sub, ← EReal.coe_mul]
  rw [mean_coe f hn0, hd, div_coe_coe _ hn0]

/-- The two forms of the variance agree on images of reals. -/
theorem variance_coe (f : ι → ℝ) {n : ℝ} (hn : (Fintype.card ι : ℝ) = n) (hpos : 0 < n) :
    max (Ideal.div (∑ i, (f i : EReal) * (f i : EReal)) (n : EReal)
          - Ideal.div (∑ i, (f i : EReal)) (n : EReal) * Ideal.div (∑ i, (f i : EReal)) (n : EReal)) 0
      = Ideal.div (∑ i, ((f i : EReal) - Ideal.div (∑ j, (f j : EReal)) (n : EReal))
          * ((f i : EReal) - Ideal.div (∑ j, (f j : EReal)) (n : EReal))) (n : EReal) := by
  have hn0 : n ≠ 0 := hpos.ne'
  rw [msd_coe f hn0, mean_coe f hn0, sum_coe_mul_self, div_coe_coe _ hn0, ← EReal.coe_mul, ← EReal.coe_sub,
    ← EReal.coe_zero, max_coe_coe, real_variance f hn hpos, max_eq_left (real_variance_nonneg f hpos _)]

end Coe

section Main
variable {ι : Type*} [Fintype ι]

/-- The mean of finite entries is finite. -/
theorem isReal_mean (x : ι → EReal) (hx : ∀ i, IsReal (x i)) {n : ℝ} (hn0 : n ≠ 0) :
    IsReal (Ideal.div (∑ i, x i) (n : EReal)) :=
  (isReal_sum_univ x hx).div_coe hn0

/-- For finite entries, N = n ≥ 1 of them: mean of squares minus squared mean, clamped at zero, is the mean squared
    deviation from the mean. -/
theorem variance_eq (x : ι → EReal) (hx : ∀ i, IsReal (x i)) {n : ℝ} (hn : (Fintype.card ι : ℝ) = n) (hpos : 0 < n) :
    max (Ideal.div (∑ i, x i * x i) (n : EReal)
          - Ideal.div (∑ i, x i) (n : EReal) * Ideal.div (∑ i, x i) (n : EReal)) 0
      = Ideal.div (∑ i, (x i - Ideal.div (∑ j, x j) (n : EReal)) * (x i - Ideal.div (∑ j, x j) (n : EReal)))
          (n : EReal) := by
  obtain ⟨f, hf⟩ := exists_real_family hx
  obtain rfl : x = fun i => ((f i : ℝ) : EReal) := funext hf
  exact variance_coe f hn hpos

/-- The same with the sum s and the sum of squares ss given as values known to be those sums. -/
theorem variance_eq_of_sums (x : ι → EReal) (hx : ∀ i, IsReal (x i)) {n : ℝ} (hn : (Fintype.card ι : ℝ) = n)
    (hpos : 0 < n) {s ss : EReal} (hs : s = ∑ i, x i) (hss : ss = ∑ i, x i * x i) :
    max (Ideal.div ss (n : EReal) - Ideal.div s (n : EReal) * Ideal.div s (n : EReal)) 0
      = Ideal.div (∑ i, (x i - Ideal.div s (n : EReal)) * (x i - Ideal.div s (n : EReal))) (n : EReal) := by
  subst hs hss
  exact variance_eq x hx hn hpos

/-- The same with every sum written as zero plus the sum, the form a sum with initial
    value zero takes. -/
theorem variance_eq_zero_add (x : ι → EReal) (hx : ∀ i, IsReal (x i)) {n : ℝ} (hn : (Fintype.card ι : ℝ) = n)
    (hpos : 0 < n) :
    max (Ideal.div (0 + ∑ i, x i * x i) (n : EReal)
          - Ideal.div (0 + ∑ i, x i) (n : EReal) * Ideal.div (0 + ∑ i, x i) (n : EReal)) 0
      = Ideal.div (0 + ∑ i, (x i - Ideal.div (0 + ∑ j, x j) (n : EReal))
          * (x i - Ideal.div (0 + ∑ j, x j) (n : EReal))) (n : EReal) := by
  simp only [zero_add]
  exact variance_eq x hx hn hpos

/-- The mean squared deviation of finite entries is a non-negative real. -/
theorem exists_nonneg_msd (x : ι → EReal) (hx : ∀ i, IsReal (x i)) {n : ℝ} (hpos : 0 < n) :
    ∃ v : ℝ, 0 ≤ v ∧
      Ideal.div (∑ i, (x i - Ideal.div (∑ j, x j) (n : EReal)) * (x i - Ideal.div (∑ j, x j) (n : EReal)))
          (n : EReal) = (v : EReal) := by
  obtain ⟨f, hf⟩ := exists_real_family hx
  obtain rfl : x = fun i => ((f i : ℝ) : EReal) := funext hf
  exact ⟨_, real_variance_nonneg f hpos _, msd_coe f hpos.ne'⟩

/-- So is the clamped form. -/
theorem exists_nonneg_clamped (x : ι → EReal) (hx : ∀ i, IsReal (x i)) {n : ℝ} (hn : (Fintype.card ι : ℝ) = n)
    (hpos : 0 < n) :
    ∃ v : ℝ, 0 ≤ v ∧
      max (Ideal.div (∑ i, x i * x i) (n : EReal)
          - Ideal.div (∑ i, x i) (n : EReal) * Ideal.div (∑ i, x i) (n : EReal)) 0 = (v : EReal) := by
  rw [variance_eq x hx hn hpos]
  exact exists_nonneg_msd x hx hpos

/-- The reciprocal square root of the mean squared deviation plus a positive real is a positive real. -/
theorem exists_pos_rsqrt_msd_add (x : ι → EReal) (hx : ∀ i, IsReal (x i)) {n : ℝ} (hpos : 0 < n) {e : EReal}
    (he : ∃ r : ℝ, 0 < r ∧ e = (r : EReal)) :
    ∃ q : ℝ, 0 < q ∧
      Ideal.rsqrt (Ideal.div (∑ i, (x i - Ideal.div (∑ j, x j) (n : EReal))
          * (x i - Ideal.div (∑ j, x j) (n : EReal))) (n : EReal) + e) = (q : EReal) :=
  exists_pos_rsqrt_add (exists_nonneg_msd x hx hpos) he

/-- … and of the clamped form plus a positive real. -/
theorem exists_pos_rsqrt_clamped_add (x : ι → EReal) (hx : ∀ i, IsReal (x i)) {n : ℝ}
    (hn : (Fintype.card ι : ℝ) = n) (hpos : 0 < n) {e : EReal} (he : ∃ r : ℝ, 0 < r ∧ e = (r : EReal)) :
    ∃ q : ℝ, 0 < q ∧
      Ideal.rsqrt (max (Ideal.div (∑ i, x i * x i) (n : EReal)
          - Ideal.div (∑ i, x i) (n : EReal) * Ideal.div (∑ i, x i) (n : EReal)) 0 + e) = (q : EReal) :=
  exists_pos_rsqrt_add (exists_nonneg_clamped x hx hn hpos) he

end Main

/-! ## The instance N = 50000 -/

/-- There are 50000 indices below 50000. -/
theorem card_fin_50000 : (Fintype.card (Fin 50000) : ℝ) = 50000 := by
  rw [Fintype.card_fin]; norm_num

/-- at 50000 entries. -/
theorem variance_eq_50000 (x : Fin 50000 → EReal) (hx : ∀ i, IsReal (x i)) :
    max (Ideal.div (∑ i, x i * x i) ((50000 : ℝ) : EReal)
          - Ideal.div (∑ i, x i) ((50000 : ℝ) : EReal) * Ideal.div (∑ i, x i) ((50000 : ℝ) : EReal)) 0
      = Ideal.div (∑ i, (x i - Ideal.div (∑ j, x j) ((50000 : ℝ) : EReal))
          * (x i - Ideal.div (∑ j, x j) ((50000 : ℝ) : EReal))) ((50000 : ℝ) : EReal) :=
  variance_eq x hx card_fin_50000 (by norm_num)

/-- at 50000 entries. -/
theorem variance_eq_of_sums_50000 (x : Fin 50000 → EReal) (hx : ∀ i, IsReal (x i)) {s ss : EReal}
    (hs : s = ∑ i, x i) (hss : ss = ∑ i, x i * x i) :
    max (Ideal.div ss ((50000 : ℝ) : EReal)
          - Ideal.div s ((50000 : ℝ) : EReal) * Ideal.div s ((50000 : ℝ) : EReal)) 0
      = Ideal.div (∑ i, (x i - Ideal.div s ((50000 : ℝ) : EReal)) * (x i - Ideal.div s ((50000 : ℝ) : EReal)))
          ((50000 : ℝ) : EReal) :=
  variance_eq_of_sums x hx card_fin_50000 (by norm_num) hs hss

/-- at 50000 entries. -/
theorem variance_eq_zero_add_50000 (x : Fin 50000 → EReal) (hx : ∀ i, IsReal (x i)) :
    max (Ideal.div (0 + ∑ i, x i * x i) ((50000 : ℝ) : EReal)
          - Ideal.div (0 + ∑ i, x i) ((50000 : ℝ) : EReal) * Ideal.div (0 + ∑ i, x i) ((50000 : ℝ) : EReal)) 0
      = Ideal.div (0 + ∑ i, (x i - Ideal.div (0 + ∑ j, x j) ((50000 : ℝ) : EReal))
          * (x i - Ideal.div (0 + ∑ j, x j) ((50000 : ℝ) : EReal))) ((50000 : ℝ) : EReal) :=
  variance_eq_zero_add x hx card_fin_50000 (by norm_num)

/-- at 50000 entries: the mean is finite. -/
theorem isReal_mean_50000 (x : Fin 50000 → EReal) (hx : ∀ i, IsReal (x i)) :
    IsReal (Ideal.div (∑ i, x i) ((50000 : ℝ) : EReal)) :=
  isReal_mean x hx (by norm_num)

/-- at 50000 entries: the mean squared deviation is a non-negative real. -/
theorem exists_nonneg_msd_50000 (x : Fin 50000 → EReal) (hx : ∀ i, IsReal (x i)) :
    ∃ v : ℝ, 0 ≤ v ∧
      Ideal.div (∑ i, (x i - Ideal.div (∑ j, x j) ((50000 : ℝ) : EReal))
          * (x i - Ideal.div (∑ j, x j) ((50000 : ℝ) : EReal))) ((50000 : ℝ) : EReal) = (v : EReal) :=
  exists_nonneg_msd x hx (by norm_num)

/-- at 50000 entries: the clamped form is a non-negative real. -/
theorem exists_nonneg_clamped_50000 (x : Fin 50000 → EReal) (hx : ∀ i, IsReal (x i)) :
    ∃ v : ℝ, 0 ≤ v ∧
      max (Ideal.div (∑ i, x i * x i) ((50000 : ℝ) : EReal)
          - Ideal.div (∑ i, x i) ((50000 : ℝ) : EReal) * Ideal.div (∑ i, x i) ((50000 : ℝ) : EReal)) 0
        = (v : EReal) :=
  exists_nonneg_clamped x hx card_fin_50000 (by norm_num)

/-! ## The divisor N − 0 and the guard "divisor above zero" -/

/-- The signed reading of the 32-bit word 0 is the real 0. -/
theorem zero_word_toInt : (((0#32 : BitVec 32).toInt : ℤ) : ℝ) = 0 := by simp

/-- 50000, as its single-precision pattern, less the integer 0 is the real 50000. -/
theorem divisor_eq :
    Ideal.ofBits .f32 0x47435000#32 - ((((0#32 : BitVec 32).toInt : ℤ) : ℝ) : EReal) = ((50000 : ℝ) : EReal) := by
  rw [ofBits_50000, zero_word_toInt, EReal.coe_zero, sub_zero]

/-- 50000 is above zero, as the comparison of extended reals answers it. -/
theorem cmp_ogt_50000_zero : Ideal.cmp .ogt ((50000 : ℝ) : EReal) (0 : EReal) = 1#1 := by
  have h : (0 : EReal) < ((50000 : ℝ) : EReal) := EReal.coe_pos.mpr (by norm_num)
  simp [Ideal.cmp, h]

/-- A value guarded by "50000 − 0 is above zero", with any alternative, is the value. -/
theorem guarded_by_divisor {α : Type} (v w : α) :
    Scalar.select (Ideal.cmp .ogt (Ideal.ofBits .f32 0x47435000#32 - ((((0#32 : BitVec 32).toInt : ℤ) : ℝ) : EReal))
        (Ideal.ofBits .f32 0x00000000#32)) v w = v := by
  rw [divisor_eq, ofBits_zero, cmp_ogt_50000_zero]
  rfl

end Cert.Lib.BatchNorm

end
-- ==== Proof.LibVariancePlain.lean ====
/-
  The batch variance two ways, with no clamp.

  For N ≥ 1 real numbers x_i with sum s and sum of squares ss and mean m = s / N,
      ss / N − m · m  =  (Σ_i (x_i − m) · (x_i − m)) / N.
  On the extended reals the two sides can differ when some x_i is infinite (the left side may be ∞ − ∞); for finite
  entries every sum, quotient and product stays a real number and the identity over the reals carries over. The left
  side is then a non-negative real, so its reciprocal square root after adding a positive real is a positive real.
  Also here: the count 100000 as a 32-bit float word, as the cardinality of its index type, and the comparison
  100000 − 0 > 0 that guards a variance's divisor.
-/
import proofs.«117300_j5643587027248_1_alg».proof.Proof.LibVariance

noncomputable section

open scoped BigOperators

namespace Cert.Lib.BatchNorm

open Idealize.ShloMosaic

section Plain
variable {ι : Type*} [Fintype ι]

/-- The two forms of the variance agree on images of reals, with no clamp. -/
theorem variance_plain_coe (f : ι → ℝ) {n : ℝ} (hn : (Fintype.card ι : ℝ) = n) (hpos : 0 < n) :
    Ideal.div (∑ i, (f i : EReal) * (f i : EReal)) (n : EReal)
        - Ideal.div (∑ i, (f i : EReal)) (n : EReal) * Ideal.div (∑ i, (f i : EReal)) (n : EReal)
      = Ideal.div (∑ i, ((f i : EReal) - Ideal.div (∑ j, (f j : EReal)) (n : EReal))
          * ((f i : EReal) - Ideal.div (∑ j, (f j : EReal)) (n : EReal))) (n : EReal) := by
  have hn0 : n ≠ 0 := hpos.ne'
  rw [msd_coe f hn0, mean_coe f hn0, sum_coe_mul_self, div_coe_coe _ hn0, ← EReal.coe_mul, ← EReal.coe_sub,
    real_variance f hn hpos]

/-- For finite entries, N = n ≥ 1 of them: mean of squares minus squared mean is the mean squared deviation from the
    mean. -/
theorem variance_plain (x : ι → EReal) (hx : ∀ i, IsReal (x i)) {n : ℝ} (hn : (Fintype.card ι : ℝ) = n)
    (hpos : 0 < n) :
    Ideal.div (∑ i, x i * x i) (n : EReal)
        - Ideal.div (∑ i, x i) (n : EReal) * Ideal.div (∑ i, x i) (n : EReal)
      = Ideal.div (∑ i, (x i - Ideal.div (∑ j, x j) (n : EReal)) * (x i - Ideal.div (∑ j, x j) (n : EReal)))
          (n : EReal) := by
  obtain ⟨f, hf⟩ := exists_real_family hx
  obtain rfl : x = fun i => ((f i : ℝ) : EReal) := funext hf
  exact variance_plain_coe f hn hpos

/-- The same with the sum s and the sum of squares ss given as values known to be those sums. -/
theorem variance_plain_of_sums (x : ι → EReal) (hx : ∀ i, IsReal (x i)) {n : ℝ} (hn : (Fintype.card ι : ℝ) = n)
    (hpos : 0 < n) {s ss : EReal} (hs : s = ∑ i, x i) (hss : ss = ∑ i, x i * x i) :
    Ideal.div ss (n : EReal) - Ideal.div s (n : EReal) * Ideal.div s (n : EReal)
      = Ideal.div (∑ i, (x i - Ideal.div s (n : EReal)) * (x i - Ideal.div s (n : EReal))) (n : EReal) := by
  subst hs hss
  exact variance_plain x hx hn hpos

/-- The same with the mean squared deviation's sums written as zero plus the sum, the form a sum with initial value
    zero takes. -/
theorem variance_plain_zero_add (x : ι → EReal) (hx : ∀ i, IsReal (x i)) {n : ℝ} (hn : (Fintype.card ι : ℝ) = n)
    (hpos : 0 < n) {s ss : EReal} (hs : s = ∑ i, x i) (hss : ss = ∑ i, x i * x i) :
    Ideal.div ss (n : EReal) - Ideal.div s (n : EReal) * Ideal.div s (n : EReal)
      = Ideal.div (0 + ∑ i, (x i - Ideal.div (0 + ∑ j, x j) (n : EReal))
          * (x i - Ideal.div (0 + ∑ j, x j) (n : EReal))) (n : EReal) := by
  subst hs hss
  simp only [zero_add]
  exact variance_plain x hx hn hpos

/-- The unclamped "mean of squares minus squared mean" of finite entries is a non-negative real. -/
theorem exists_nonneg_plain (x : ι → EReal) (hx : ∀ i, IsReal (x i)) {n : ℝ} (hn : (Fintype.card ι : ℝ) = n)
    (hpos : 0 < n) :
    ∃ v : ℝ, 0 ≤ v ∧ Ideal.div (∑ i, x i * x i) (n : EReal)
        - Ideal.div (∑ i, x i) (n : EReal) * Ideal.div (∑ i, x i) (n : EReal) = (v : EReal) := by
  rw [variance_plain x hx hn hpos]
  exact exists_nonneg_msd x hx hpos

end Plain

/-! ## The count 100000 -/

theorem card_fin_100000 : (Fintype.card (Fin 100000) : ℝ) = 100000 := by
  rw [Fintype.card_fin]; norm_num

theorem hundred_thousand_pos : (0 : ℝ) < 100000 := by norm_num

theorem hundred_thousand_ne_zero : (100000 : ℝ) ≠ 0 := by norm_num

/-- The 32-bit float word of 100000. -/
theorem ofBits_100000 : Ideal.ofBits .f32 0x47C35000#32 = ((100000 : ℝ) : EReal) := by
  simp [Ideal.ofBits, Ideal.ieee, -EReal.coe_mul]; norm_num

/-- 100000, as its single-precision pattern, less the integer 0 is the real 100000. -/
theorem divisor_eq_100000 :
    Ideal.ofBits .f32 0x47C35000#32 - ((((0#32 : BitVec 32).toInt : ℤ) : ℝ) : EReal) = ((100000 : ℝ) : EReal) := by
  rw [ofBits_100000, zero_word_toInt, EReal.coe_zero, sub_zero]

/-- 100000 is above zero, as the comparison of extended reals answers it. -/
theorem cmp_ogt_100000_zero : Ideal.cmp .ogt ((100000 : ℝ) : EReal) (0 : EReal) = 1#1 := by
  have h : (0 : EReal) < ((100000 : ℝ) : EReal) := EReal.coe_pos.mpr (by norm_num)
  simp [Ideal.cmp, h]

/-- A value guarded by "100000 − 0 is above zero", with any alternative, is the value. -/
theorem guarded_by_divisor_100000 {α : Type} (v w : α) :
    Scalar.select (Ideal.cmp .ogt (Ideal.ofBits .f32 0x47C35000#32 - ((((0#32 : BitVec 32).toInt : ℤ) : ℝ) : EReal))
        (Ideal.ofBits .f32 0x00000000#32)) v w = v := by
  rw [divisor_eq_100000, ofBits_zero, cmp_ogt_100000_zero]
  rfl

end Cert.Lib.BatchNorm

end
-- ==== Proof.Spec.lean ====
/-
  The network's pieces as functions of arrays of extended reals, index by index — what each kernel region and each
  stretch of the reference computes, stated once so that both sides can be shown equal to the same function.

  One message-passing layer on N = 100000 nodes with 128 features: from the node features x and the aggregated
  neighbour features agg, two rectified dense layers of x + agg (`mlpArr`); the column sums of the result and of its
  square (`colSum`, `colSumSq`); the column means and the variance as "mean of squares minus squared mean"
  (`meanRow`, `varRow`); and the normalisation (h − μ) · (σ² + ε)^(−1/2) · γ + β (`normArr`). The classifier is a
  rectified dense layer followed by a dense layer (`clsArr`).
-/
import proofs.«117300_j5643587027248_1_alg».proof.Proof.LibDenseRows
import proofs.«117300_j5643587027248_1_alg».proof.Proof.LibVariancePlain

noncomputable section

open scoped BigOperators

namespace Cert.Spec

open Idealize.ShloMosaic Idealize.ShloMosaic.ValueIdx Cert.LibDenseRows

/-- Node features: 100000 rows of 128. -/
abbrev SR : Shape := ⟨2, ![100000, 128]⟩
/-- A one-row array of 128 (a bias, a statistic, a scale). -/
abbrev S1 : Shape := ⟨2, ![1, 128]⟩
/-- A square weight matrix. -/
abbrev SW : Shape := ⟨2, ![128, 128]⟩

/-- The variance's ε, as the 32-bit float word the programs carry (the float nearest 10⁻⁵). -/
def eps : EReal := Ideal.ofBits .f32 0x3727C5AC#32
/-- The number of rows, 100000, as the 32-bit float word the programs carry. -/
def cnt : EReal := Ideal.ofBits .f32 0x47C35000#32

/-- Two rectified dense layers of x + agg, row by row. -/
def mlpArr (x agg : SR.Idx → EReal) (w1 : SW.Idx → EReal) (b1 : S1.Idx → EReal) (w2 : SW.Idx → EReal) (b2 : S1.Idx → EReal) :
    SR.Idx → EReal :=
  mlp2Arr (fun i => x i + agg i) w1 b1 w2 b2

/-- The sum of each column, as a one-row array. -/
def colSum (h : SR.Idx → EReal) : S1.Idx → EReal := fun j => ∑ p : Fin 100000, h (ix2 p (j 1 : Fin 128))
/-- The sum of the squares of each column. -/
def colSumSq (h : SR.Idx → EReal) : S1.Idx → EReal :=
  fun j => ∑ p : Fin 100000, h (ix2 p (j 1 : Fin 128)) * h (ix2 p (j 1 : Fin 128))
/-- A column sum divided by the number of rows. -/
def meanRow (s : S1.Idx → EReal) : S1.Idx → EReal := fun j => Ideal.div (s j) cnt
/-- Mean of squares minus squared mean, from the two column sums. -/
def varRow (s ss : S1.Idx → EReal) : S1.Idx → EReal :=
  fun j => Ideal.div (ss j) cnt - Ideal.div (s j) cnt * Ideal.div (s j) cnt
/-- The mean squared deviation of each column from its mean. -/
def msdRow (h : SR.Idx → EReal) : S1.Idx → EReal :=
  fun j => Ideal.div (∑ p : Fin 100000, (h (ix2 p (j 1 : Fin 128)) - Ideal.div (∑ r : Fin 100000, h (ix2 r (j 1 : Fin 128))) cnt)
      * (h (ix2 p (j 1 : Fin 128)) - Ideal.div (∑ r : Fin 100000, h (ix2 r (j 1 : Fin 128))) cnt)) cnt
/-- The normalisation, entry by entry: (h − μ) · (σ² + ε)^(−1/2) · γ + β with the one-row statistics and parameters of
    the entry's column. -/
def normArr (h : SR.Idx → EReal) (mu var g b : S1.Idx → EReal) : SR.Idx → EReal :=
  fun i => (h i - mu (ix2 (0 : Fin 1) (i 1 : Fin 128))) * Ideal.rsqrt (var (ix2 (0 : Fin 1) (i 1 : Fin 128)) + eps)
      * g (ix2 (0 : Fin 1) (i 1 : Fin 128)) + b (ix2 (0 : Fin 1) (i 1 : Fin 128))

/-- The classifier: a rectified dense layer 512 → 128, then a dense layer 128 → 10, on 128 pooled rows. -/
def clsArr (p : (⟨2, ![128, 512]⟩ : Shape).Idx → EReal) (w1 : (⟨2, ![512, 128]⟩ : Shape).Idx → EReal) (b1 : S1.Idx → EReal)
    (w2 : (⟨2, ![128, 10]⟩ : Shape).Idx → EReal) (b2 : (⟨2, ![1, 10]⟩ : Shape).Idx → EReal) : (⟨2, ![128, 10]⟩ : Shape).Idx → EReal :=
  denseArr (fun i => relu (denseArr p w1 b1 i)) w2 b2

end Cert.Spec

end
-- ==== Proof.ValueCls.lean ====
/-
  The classifier region read as a value: the result array after the region is one function of the five arrays the
  region is entered from — each of the 128 pooled rows through a rectified dense layer 512 → 128 and a dense layer
  128 → 10. The body's payload at an entry; each window's one block is its whole array; the one write-back covers the
  result.
-/
import proofs.«117300_j5643587027248_1_alg».proof.Proof.RegionCls
import proofs.«117300_j5643587027248_1_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.LibDenseRows

-- the TensorCore's buffer contents when the region is entered, at the extended reals
variable (V : (c : Dev nD) → (b : Ref sig .tc) → Buf (Elt Ideal) ((c : Thread nD τ).loc b))

/-- The offsets of a whole-block access, however the zeros are spelt. -/
theorem hz8 : (![0, 0] : Fin 2 → Nat) = fun _ => 0 := funext fun a => by fin_cases a <;> rfl

/-! ## The body's payload -/

/-- The payload at entry (p, q): row p of the pooled block through the rectified dense layer, then through the dense
    layer, at q. The narrowings to bf16 are the identity on the extended reals. -/
theorem cls_pay_apply (x0 : Vec Ideal S128x512 .f32) (x1 : Vec Ideal S512x128 .f32) (x2 : Vec Ideal S1x128 .f32)
    (x3 : Vec Ideal S128x10 .f32) (x4 : Vec Ideal S1x10 .f32) (p : Fin 128) (q : Fin 10) :
    k8_pay1 (F := Ideal) x0 x1 x2 x3 x4 (ix2 p q) = Cert.Spec.clsArr x0 x1 x2 x3 x4 (ix2 p q) := by
  unfold k8_pay1
  simp only [shapeCast_self]
  refine (kernel_dense_apply (m := 128) (k := 128) (n := 10) _ _ _ _ p q).trans ?_
  show denseRow _ x3 x4 q = denseRow _ x3 x4 q
  refine congrArg (fun r => denseRow r x3 x4 q) (funext fun c => ?_)
  refine (truncf_apply (ψ := .bf16) _ bitsLt_bf16_f32 (ix2 p c)).trans ?_
  refine (kernel_relu_apply _ _).trans (congrArg relu ?_)
  exact kernel_dense_apply (m := 128) (k := 512) (n := 128) _ _ _ _ p c

/-- The payload of the loaded blocks is the classifier of them. -/
theorem cls_pay_eq (x0 : Vec Ideal S128x512 .f32) (x1 : Vec Ideal S512x128 .f32) (x2 : Vec Ideal S1x128 .f32)
    (x3 : Vec Ideal S128x10 .f32) (x4 : Vec Ideal S1x10 .f32) :
    k8_pay1 (F := Ideal) x0 x1 x2 x3 x4 = Cert.Spec.clsArr x0 x1 x2 x3 x4 := by
  funext i
  obtain ⟨p, q, rfl⟩ : ∃ (p : Fin 128) (q : Fin 10), i = ix2 p q := ⟨i 0, i 1, eq_ix2 i⟩
  exact cls_pay_apply x0 x1 x2 x3 x4 p q

/-! ## Each window's block is its whole array -/

/-- The printed index maps, decided over the grid: every window's block index is zero on both axes. -/
theorem idx_facts8 : ∀ t : Fin cfg8.N, win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

/-- The pooled features' block is the array. -/
theorem iblk8_0_eq (c : Dev nD) (t : Fin cfg8.N) : (iblk8 V c 0 t : Vec Ideal S128x512 .f32) = V c main_v156 := by
  obtain ⟨e0, e1, -⟩ := idx_facts8 t
  funext y
  show V c main_v156 (((cfg8.win 0).blk t).view.emb y) = V c main_v156 y
  refine congrArg _ (funext fun a => Fin.ext ?_)
  match a with
  | ⟨0, _⟩ => show win8_0.index t (0 : Fin 2) * 128 + 1 * (y 0).val = (y 0).val; omega
  | ⟨1, _⟩ => show win8_0.index t (1 : Fin 2) * 512 + 1 * (y 1).val = (y 1).val; omega

/-- The first weight matrix's block is the array. -/
theorem iblk8_1_eq (c : Dev nD) (t : Fin cfg8.N) : (iblk8 V c 1 t : Vec Ideal S512x128 .f32) = V c main_arg15 := by
  obtain ⟨-, -, e0, e1, -⟩ := idx_facts8 t
  funext y
  show V c main_arg15 (((cfg8.win 1).blk t).view.emb y) = V c main_arg15 y
  refine congrArg _ (funext fun a => Fin.ext ?_)
  match a with
  | ⟨0, _⟩ => show win8_1.index t (0 : Fin 2) * 512 + 1 * (y 0).val = (y 0).val; omega
  | ⟨1, _⟩ => show win8_1.index t (1 : Fin 2) * 128 + 1 * (y 1).val = (y 1).val; omega

/-- The first bias row's block is the array. -/
theorem iblk8_2_eq (c : Dev nD) (t : Fin cfg8.N) : (iblk8 V c 2 t : Vec Ideal S1x128 .f32) = V c main_v157 := by
  obtain ⟨-, -, -, -, e0, e1, -⟩ := idx_facts8 t
  funext y
  show V c main_v157 (((cfg8.win 2).blk t).view.emb y) = V c main_v157 y
  refine congrArg _ (funext fun a => Fin.ext ?_)
  match a with
  | ⟨0, _⟩ => show win8_2.index t (0 : Fin 2) * 1 + 1 * (y 0).val = (y 0).val; omega
  | ⟨1, _⟩ => show win8_2.index t (1 : Fin 2) * 128 + 1 * (y 1).val = (y 1).val; omega

/-- The second weight matrix's block is the array. -/
theorem iblk8_3_eq (c : Dev nD) (t : Fin cfg8.N) : (iblk8 V c 3 t : Vec Ideal S128x10 .f32) = V c main_arg17 := by
  obtain ⟨-, -, -, -, -, -, e0, e1, -⟩ := idx_facts8 t
  funext y
  show V c main_arg17 (((cfg8.win 3).blk t).view.emb y) = V c main_arg17 y
  refine congrArg _ (funext fun a => Fin.ext ?_)
  match a with
  | ⟨0, _⟩ => show win8_3.index t (0 : Fin 2) * 128 + 1 * (y 0).val = (y 0).val; omega
  | ⟨1, _⟩ => show win8_3.index t (1 : Fin 2) * 10 + 1 * (y 1).val = (y 1).val; omega

/-- The second bias row's block is the array. -/
theorem iblk8_4_eq (c : Dev nD) (t : Fin cfg8.N) : (iblk8 V c 4 t : Vec Ideal S1x10 .f32) = V c main_v158 := by
  obtain ⟨-, -, -, -, -, -, -, -, e0, e1, -⟩ := idx_facts8 t
  funext y
  show V c main_v158 (((cfg8.win 4).blk t).view.emb y) = V c main_v158 y
  refine congrArg _ (funext fun a => Fin.ext ?_)
  match a with
  | ⟨0, _⟩ => show win8_4.index t (0 : Fin 2) * 1 + 1 * (y 0).val = (y 0).val; omega
  | ⟨1, _⟩ => show win8_4.index t (1 : Fin 2) * 10 + 1 * (y 1).val = (y 1).val; omega

/-! ## What the point writes back, and the array after the region -/

/-- What point `t` writes back is block `t` of the classifier of the arrays as the region finds them. -/
theorem flushed8_eq (c : Dev nD) (t : Fin cfg8.N) :
    (dat8 (F := Ideal) V c).flushed 5 t = ((cfg8.win 5).blk t).view.read (Elt Ideal)
      (Cert.Spec.clsArr (V c main_v156) (V c main_arg15) (V c main_v157) (V c main_arg17) (V c main_v158)) := by
  show (cfg8.win 5).cut (grid8.coords t) ((dat8 V c).after 5 t) = _
  rw [after8_5]
  unfold out8_5
  rw [View.canon_unit_zero hz8]
  simp only [View.ld_unit_zero (S := S128x512) hz8, View.ld_unit_zero (S := S512x128) hz8, View.ld_unit_zero (S := S1x128) hz8,
    View.ld_unit_zero (S := S128x10) hz8, View.ld_unit_zero (S := S1x10) hz8]
  rw [iblk8_0_eq, iblk8_1_eq, iblk8_2_eq, iblk8_3_eq, iblk8_4_eq, cls_pay_eq]
  obtain ⟨-, -, -, -, -, -, -, -, -, -, e0, e1⟩ := idx_facts8 t
  funext j
  show Cert.Spec.clsArr (V c main_v156) (V c main_arg15) (V c main_v157) (V c main_arg17) (V c main_v158) j
    = Cert.Spec.clsArr (V c main_v156) (V c main_arg15) (V c main_v157) (V c main_arg17) (V c main_v158) (((cfg8.win 5).blk t).view.emb j)
  refine congrArg _ (funext fun a => Fin.ext ?_)
  match a with
  | ⟨0, _⟩ => show (j 0).val = win8_5.index t (0 : Fin 2) * 128 + 1 * (j 0).val; omega
  | ⟨1, _⟩ => show (j 1).val = win8_5.index t (1 : Fin 2) * 10 + 1 * (j 1).val; omega

/-- An index of the result array is in point `t`'s block iff each coordinate is in the block's range on its axis. -/
theorem mem_blk8 (t : Fin cfg8.N) (i : S128x10.Idx) :
    i ∈ ((cfg8.win 5).blk t).view.set ↔ ∀ a : Fin 2, win8_5.index t a * S128x10.size a ≤ (i a).val ∧ (i a).val < win8_5.index t a * S128x10.size a + S128x10.size a := by
  show i ∈ ((View.whole main_v159).slice (win8_5.rect t)).set ↔ _
  rw [View.set_slice_whole, Rect.mem_set_unit]
  exact Iff.rfl

/-- The result array after the region: the classifier of the five arrays the region is entered from. -/
theorem final_cls (c : Dev nD) :
    (dat8 (F := Ideal) V c).arrAt 5 cfg8.N
      = Cert.Spec.clsArr (V c main_v156) (V c main_arg15) (V c main_v157) (V c main_arg17) (V c main_v158) :=
  (dat8 (F := Ideal) V c).arrAt_eq_of_cover 5 _ (fun t _ => flushed8_eq V c t) fun i => ⟨t8_0, flush8_5 t8_0, by
    rw [mem_blk8]
    obtain ⟨-, -, -, -, -, -, -, -, -, -, e0, e1⟩ := idx_facts8 t8_0
    intro a
    match a with
    | ⟨0, _⟩ =>
      show win8_5.index t8_0 (0 : Fin 2) * 128 ≤ (i 0).val ∧ (i 0).val < win8_5.index t8_0 (0 : Fin 2) * 128 + 128
      have h : (i 0).val < 128 := (i 0).isLt
      omega
    | ⟨1, _⟩ =>
      show win8_5.index t8_0 (1 : Fin 2) * 10 ≤ (i 1).val ∧ (i 1).val < win8_5.index t8_0 (1 : Fin 2) * 10 + 10
      have h : (i 1).val < 10 := (i 1).isLt
      omega⟩

end Cert.KernelIdeal.Hand

end
-- ==== Proof.ValueNorm1.lean ====
/-
  The normalising region of layer 0 read as a value: the output array after the region is one function of the five
  arrays the region is entered from — entry (r, q) is (h[r, q] − μ[q]) · (σ²[q] + ε)^(−1/2) · γ[q] + β[q]. The body's
  payload at an entry; the one-row windows' blocks are their arrays at every point, the row windows' block at point t
  is rows 5000·t … 5000·t + 4999; the twenty write-backs cover the output.
-/
import proofs.«117300_j5643587027248_1_alg».proof.Proof.RegionNorm1
import proofs.«117300_j5643587027248_1_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.LibDenseRows

-- the TensorCore's buffer contents when the region is entered, at the extended reals
variable (V : (c : Dev nD) → (b : Ref sig .tc) → Buf (Elt Ideal) ((c : Thread nD τ).loc b))

/-- The offsets of a whole-block access, however the zeros are spelt. -/
theorem hz1 : (![0, 0] : Fin 2 → Nat) = fun _ => 0 := funext fun a => by fin_cases a <;> rfl

/-! ## The body's payload -/

/-- The payload at entry (p, q) of the block: the block's entry less the mean's, times the reciprocal square root of
    the variance's plus ε, times the scale's, plus the shift's — the one-row operands read at column q. -/
theorem norm1_pay_apply (xv : Vec Ideal S1x128 .f32) (xh : Vec Ideal S5000x128 .f32) (xm : Vec Ideal S1x128 .f32)
    (xg : Vec Ideal S1x128 .f32) (xb : Vec Ideal S1x128 .f32) (p : Fin 5000) (q : Fin 128) :
    k1_pay1 (F := Ideal) xv xh xm xg xb (ix2 p q)
      = (xh (ix2 p q) - xm (ix2 (0 : Fin 1) q)) * Ideal.rsqrt (xv (ix2 (0 : Fin 1) q) + Cert.Spec.eps)
          * xg (ix2 (0 : Fin 1) q) + xb (ix2 (0 : Fin 1) q) := by
  unfold k1_pay1
  simp only [shapeCast_self]
  rw [addf_apply, mulf_apply, mulf_apply, subf_apply, broadcastTo_1b_ab_apply, broadcastTo_1b_ab_apply,
    broadcastTo_1b_ab_apply, broadcastTo_1b_ab_apply]
  rfl

/-- The normalisation at an entry whose column is q. -/
theorem norm1_spec_apply (h : Cert.Spec.SR.Idx → EReal) (mu va g b : Cert.Spec.S1.Idx → EReal) (i : Cert.Spec.SR.Idx) (q : Fin 128)
    (hq : (i 1 : Fin 128) = q) :
    Cert.Spec.normArr h mu va g b i
      = (h i - mu (ix2 (0 : Fin 1) q)) * Ideal.rsqrt (va (ix2 (0 : Fin 1) q) + Cert.Spec.eps)
          * g (ix2 (0 : Fin 1) q) + b (ix2 (0 : Fin 1) q) := by
  subst hq; rfl

/-! ## The windows' blocks -/

/-- The printed index maps, decided over the grid: the input rows' block moves with the output's, along the rows
    only and within the twenty blocks; every one-row window's block index is zero on both axes. -/
theorem idx_facts1 : ∀ t : Fin cfg1.N, win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_0.index t (0 : Fin 2) = win1_5.index t (0 : Fin 2) ∧ win1_0.index t (1 : Fin 2) = 0
    ∧ win1_5.index t (0 : Fin 2) ≤ 19 ∧ win1_5.index t (1 : Fin 2) = 0 :=
  (by decide +kernel : ∀ t : Fin grid1.N, _)

/-- Every block of rows is some point's. -/
theorem idx_onto1 : ∀ q0 : Fin 20, ∃ t : Fin cfg1.N, win1_5.index t (0 : Fin 2) = q0.val :=
  (by decide +kernel : ∀ q0 : Fin 20, ∃ t : Fin grid1.N, win1_5.index t (0 : Fin 2) = q0.val)

/-- The mean's one-row block is the array, at every point. -/
theorem iblk1_1_eq (c : Dev nD) (t : Fin cfg1.N) : (iblk1 V c 1 t : Vec Ideal S1x128 .f32) = V c main_v25 := by
  obtain ⟨e0, e1, -⟩ := idx_facts1 t
  funext y
  show V c main_v25 (((cfg1.win 1).blk t).view.emb y) = V c main_v25 y
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The variance's one-row block is the array, at every point. -/
theorem iblk1_2_eq (c : Dev nD) (t : Fin cfg1.N) : (iblk1 V c 2 t : Vec Ideal S1x128 .f32) = V c main_v26 := by
  obtain ⟨-, -, e0, e1, -⟩ := idx_facts1 t
  funext y
  show V c main_v26 (((cfg1.win 2).blk t).view.emb y) = V c main_v26 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The scale's one-row block is the array, at every point. -/
theorem iblk1_3_eq (c : Dev nD) (t : Fin cfg1.N) : (iblk1 V c 3 t : Vec Ideal S1x128 .f32) = V c main_v27 := by
  obtain ⟨-, -, -, -, e0, e1, -⟩ := idx_facts1 t
  funext y
  show V c main_v27 (((cfg1.win 3).blk t).view.emb y) = V c main_v27 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The shift's one-row block is the array, at every point. -/
theorem iblk1_4_eq (c : Dev nD) (t : Fin cfg1.N) : (iblk1 V c 4 t : Vec Ideal S1x128 .f32) = V c main_v28 := by
  obtain ⟨-, -, -, -, -, -, e0, e1, -⟩ := idx_facts1 t
  funext y
  show V c main_v28 (((cfg1.win 4).blk t).view.emb y) = V c main_v28 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-! ## What a point writes back, and the array after the region -/

/-- What point `t` writes back is block `t` of the normalisation of the arrays as the region finds them. -/
theorem flushed1_eq (c : Dev nD) (t : Fin cfg1.N) :
    (dat1 (F := Ideal) V c).flushed 5 t = ((cfg1.win 5).blk t).view.read (Elt Ideal)
      (Cert.Spec.normArr (V c main_v16_0) (V c main_v25) (V c main_v26) (V c main_v27) (V c main_v28)) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S1x128) hz1]
  rw [iblk1_1_eq, iblk1_2_eq, iblk1_3_eq, iblk1_4_eq]
  obtain ⟨-, -, -, -, -, -, -, -, e0, e1, e2, e3⟩ := idx_facts1 t
  funext j
  obtain ⟨p, q, rfl⟩ : ∃ (p : Fin 5000) (q : Fin 128), j = ix2 p q := ⟨j 0, j 1, eq_ix2 j⟩
  refine (norm1_pay_apply _ _ _ _ _ p q).trans ?_
  have hemb : ((cfg1.win 0).blk t).view.emb (ix2 p q) = ((cfg1.win 5).blk t).view.emb (ix2 p q) := by
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * q.val = win1_5.index t (1 : Fin 2) * 128 + 1 * q.val; omega
  have hq : ((((cfg1.win 5).blk t).view.emb (ix2 p q)) 1 : Fin 128) = q :=
    Fin.ext (show win1_5.index t (1 : Fin 2) * 128 + 1 * q.val = q.val by omega)
  have h0 : (iblk1 V c 0 t : Vec Ideal S5000x128 .f32) (ix2 p q)
      = (V c main_v16_0 : Cert.Spec.SR.Idx → EReal) (((cfg1.win 5).blk t).view.emb (ix2 p q)) :=
    congrArg (V c main_v16_0 : Cert.Spec.SR.Idx → EReal) hemb
  refine Eq.trans ?_ (norm1_spec_apply (V c main_v16_0) (V c main_v25) (V c main_v26) (V c main_v27) (V c main_v28)
    (((cfg1.win 5).blk t).view.emb (ix2 p q)) q hq).symm
  rw [h0]

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v29).slice (win1_5.rect t)).set ↔ _
  rw [View.set_slice_whole, Rect.mem_set_unit]
  exact Iff.rfl

/-- The output array after the region: the normalisation of the five arrays the region is entered from. The point
    covering row r is the one whose block index is r / 5000. -/
theorem final_norm1 (c : Dev nD) :
    (dat1 (F := Ideal) V c).arrAt 5 cfg1.N
      = Cert.Spec.normArr (V c main_v16_0) (V c main_v25) (V c main_v26) (V c main_v27) (V c main_v28) :=
  (dat1 (F := Ideal) V c).arrAt_eq_of_cover 5 _ (fun t _ => flushed1_eq V c t) fun i => by
    have hi0 : (i 0).val < 100000 := (i 0).isLt
    have hi1 : (i 1).val < 128 := (i 1).isLt
    obtain ⟨t, ht⟩ := idx_onto1 ⟨(i 0).val / 5000, by omega⟩
    have q0 : win1_5.index t (0 : Fin 2) = (i 0).val / 5000 := ht
    obtain ⟨-, -, -, -, -, -, -, -, -, -, -, e3⟩ := idx_facts1 t
    refine ⟨t, flush1_5 t, ?_⟩
    rw [mem_blk1]
    intro a
    match a with
    | ⟨0, _⟩ =>
      show win1_5.index t (0 : Fin 2) * 5000 ≤ (i 0).val ∧ (i 0).val < win1_5.index t (0 : Fin 2) * 5000 + 5000
      omega
    | ⟨1, _⟩ =>
      show win1_5.index t (1 : Fin 2) * 128 ≤ (i 1).val ∧ (i 1).val < win1_5.index t (1 : Fin 2) * 128 + 128
      omega

end Cert.KernelIdeal.Hand

end
-- ==== Proof.ValueNorm3.lean ====
/-
  The normalising region of layer 1 read as a value: the output array after the region is one function of the five
  arrays the region is entered from — entry (r, q) is (h[r, q] − μ[q]) · (σ²[q] + ε)^(−1/2) · γ[q] + β[q]. The body's
  payload at an entry; the one-row windows' blocks are their arrays at every point, the row windows' block at point t
  is rows 5000·t … 5000·t + 4999; the twenty write-backs cover the output.
-/
import proofs.«117300_j5643587027248_1_alg».proof.Proof.RegionNorm3
import proofs.«117300_j5643587027248_1_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.LibDenseRows

-- the TensorCore's buffer contents when the region is entered, at the extended reals
variable (V : (c : Dev nD) → (b : Ref sig .tc) → Buf (Elt Ideal) ((c : Thread nD τ).loc b))

/-- The offsets of a whole-block access, however the zeros are spelt. -/
theorem hz3 : (![0, 0] : Fin 2 → Nat) = fun _ => 0 := funext fun a => by fin_cases a <;> rfl

/-! ## The body's payload -/

/-- The payload at entry (p, q) of the block: the block's entry less the mean's, times the reciprocal square root of
    the variance's plus ε, times the scale's, plus the shift's — the one-row operands read at column q. -/
theorem norm3_pay_apply (xv : Vec Ideal S1x128 .f32) (xh : Vec Ideal S5000x128 .f32) (xm : Vec Ideal S1x128 .f32)
    (xg : Vec Ideal S1x128 .f32) (xb : Vec Ideal S1x128 .f32) (p : Fin 5000) (q : Fin 128) :
    k3_pay1 (F := Ideal) xv xh xm xg xb (ix2 p q)
      = (xh (ix2 p q) - xm (ix2 (0 : Fin 1) q)) * Ideal.rsqrt (xv (ix2 (0 : Fin 1) q) + Cert.Spec.eps)
          * xg (ix2 (0 : Fin 1) q) + xb (ix2 (0 : Fin 1) q) := by
  unfold k3_pay1
  simp only [shapeCast_self]
  rw [addf_apply, mulf_apply, mulf_apply, subf_apply, broadcastTo_1b_ab_apply, broadcastTo_1b_ab_apply,
    broadcastTo_1b_ab_apply, broadcastTo_1b_ab_apply]
  rfl

/-- The normalisation at an entry whose column is q. -/
theorem norm3_spec_apply (h : Cert.Spec.SR.Idx → EReal) (mu va g b : Cert.Spec.S1.Idx → EReal) (i : Cert.Spec.SR.Idx) (q : Fin 128)
    (hq : (i 1 : Fin 128) = q) :
    Cert.Spec.normArr h mu va g b i
      = (h i - mu (ix2 (0 : Fin 1) q)) * Ideal.rsqrt (va (ix2 (0 : Fin 1) q) + Cert.Spec.eps)
          * g (ix2 (0 : Fin 1) q) + b (ix2 (0 : Fin 1) q) := by
  subst hq; rfl

/-! ## The windows' blocks -/

/-- The printed index maps, decided over the grid: the input rows' block moves with the output's, along the rows
    only and within the twenty blocks; every one-row window's block index is zero on both axes. -/
theorem idx_facts3 : ∀ t : Fin cfg3.N, win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_0.index t (0 : Fin 2) = win3_5.index t (0 : Fin 2) ∧ win3_0.index t (1 : Fin 2) = 0
    ∧ win3_5.index t (0 : Fin 2) ≤ 19 ∧ win3_5.index t (1 : Fin 2) = 0 :=
  (by decide +kernel : ∀ t : Fin grid3.N, _)

/-- Every block of rows is some point's. -/
theorem idx_onto3 : ∀ q0 : Fin 20, ∃ t : Fin cfg3.N, win3_5.index t (0 : Fin 2) = q0.val :=
  (by decide +kernel : ∀ q0 : Fin 20, ∃ t : Fin grid3.N, win3_5.index t (0 : Fin 2) = q0.val)

/-- The mean's one-row block is the array, at every point. -/
theorem iblk3_1_eq (c : Dev nD) (t : Fin cfg3.N) : (iblk3 V c 1 t : Vec Ideal S1x128 .f32) = V c main_v63 := by
  obtain ⟨e0, e1, -⟩ := idx_facts3 t
  funext y
  show V c main_v63 (((cfg3.win 1).blk t).view.emb y) = V c main_v63 y
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- The variance's one-row block is the array, at every point. -/
theorem iblk3_2_eq (c : Dev nD) (t : Fin cfg3.N) : (iblk3 V c 2 t : Vec Ideal S1x128 .f32) = V c main_v64 := by
  obtain ⟨-, -, e0, e1, -⟩ := idx_facts3 t
  funext y
  show V c main_v64 (((cfg3.win 2).blk t).view.emb y) = V c main_v64 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- The scale's one-row block is the array, at every point. -/
theorem iblk3_3_eq (c : Dev nD) (t : Fin cfg3.N) : (iblk3 V c 3 t : Vec Ideal S1x128 .f32) = V c main_v65 := by
  obtain ⟨-, -, -, -, e0, e1, -⟩ := idx_facts3 t
  funext y
  show V c main_v65 (((cfg3.win 3).blk t).view.emb y) = V c main_v65 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- The shift's one-row block is the array, at every point. -/
theorem iblk3_4_eq (c : Dev nD) (t : Fin cfg3.N) : (iblk3 V c 4 t : Vec Ideal S1x128 .f32) = V c main_v66 := by
  obtain ⟨-, -, -, -, -, -, e0, e1, -⟩ := idx_facts3 t
  funext y
  show V c main_v66 (((cfg3.win 4).blk t).view.emb y) = V c main_v66 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-! ## What a point writes back, and the array after the region -/

/-- What point `t` writes back is block `t` of the normalisation of the arrays as the region finds them. -/
theorem flushed3_eq (c : Dev nD) (t : Fin cfg3.N) :
    (dat3 (F := Ideal) V c).flushed 5 t = ((cfg3.win 5).blk t).view.read (Elt Ideal)
      (Cert.Spec.normArr (V c main_v54_0) (V c main_v63) (V c main_v64) (V c main_v65) (V c main_v66)) := by
  show (cfg3.win 5).cut (grid3.coords t) ((dat3 V c).after 5 t) = _
  rw [after3_5]
  unfold out3_5
  rw [View.canon_unit_zero hz3]
  simp only [View.ld_unit_zero (S := S5000x128) hz3, View.ld_unit_zero (S := S1x128) hz3]
  rw [iblk3_1_eq, iblk3_2_eq, iblk3_3_eq, iblk3_4_eq]
  obtain ⟨-, -, -, -, -, -, -, -, e0, e1, e2, e3⟩ := idx_facts3 t
  funext j
  obtain ⟨p, q, rfl⟩ : ∃ (p : Fin 5000) (q : Fin 128), j = ix2 p q := ⟨j 0, j 1, eq_ix2 j⟩
  refine (norm3_pay_apply _ _ _ _ _ p q).trans ?_
  have hemb : ((cfg3.win 0).blk t).view.emb (ix2 p q) = ((cfg3.win 5).blk t).view.emb (ix2 p q) := by
    funext a; apply Fin.ext
    match a with
    | ⟨0, _⟩ => show win3_0.index t (0 : Fin 2) * 5000 + 1 * p.val = win3_5.index t (0 : Fin 2) * 5000 + 1 * p.val; omega
    | ⟨1, _⟩ => show win3_0.index t (1 : Fin 2) * 128 + 1 * q.val = win3_5.index t (1 : Fin 2) * 128 + 1 * q.val; omega
  have hq : ((((cfg3.win 5).blk t).view.emb (ix2 p q)) 1 : Fin 128) = q :=
    Fin.ext (show win3_5.index t (1 : Fin 2) * 128 + 1 * q.val = q.val by omega)
  have h0 : (iblk3 V c 0 t : Vec Ideal S5000x128 .f32) (ix2 p q)
      = (V c main_v54_0 : Cert.Spec.SR.Idx → EReal) (((cfg3.win 5).blk t).view.emb (ix2 p q)) :=
    congrArg (V c main_v54_0 : Cert.Spec.SR.Idx → EReal) hemb
  refine Eq.trans ?_ (norm3_spec_apply (V c main_v54_0) (V c main_v63) (V c main_v64) (V c main_v65) (V c main_v66)
    (((cfg3.win 5).blk t).view.emb (ix2 p q)) q hq).symm
  rw [h0]

/-- An index of the output array is in point `t`'s block iff each coordinate is in the block's range on its axis. -/
theorem mem_blk3 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v67).slice (win3_5.rect t)).set ↔ _
  rw [View.set_slice_whole, Rect.mem_set_unit]
  exact Iff.rfl

/-- The output array after the region: the normalisation of the five arrays the region is entered from. The point
    covering row r is the one whose block index is r / 5000. -/
theorem final_norm3 (c : Dev nD) :
    (dat3 (F := Ideal) V c).arrAt 5 cfg3.N
      = Cert.Spec.normArr (V c main_v54_0) (V c main_v63) (V c main_v64) (V c main_v65) (V c main_v66) :=
  (dat3 (F := Ideal) V c).arrAt_eq_of_cover 5 _ (fun t _ => flushed3_eq V c t) fun i => by
    have hi0 : (i 0).val < 100000 := (i 0).isLt
    have hi1 : (i 1).val < 128 := (i 1).isLt
    obtain ⟨t, ht⟩ := idx_onto3 ⟨(i 0).val / 5000, by omega⟩
    have q0 : win3_5.index t (0 : Fin 2) = (i 0).val / 5000 := ht
    obtain ⟨-, -, -, -, -, -, -, -, -, -, -, e3⟩ := idx_facts3 t
    refine ⟨t, flush3_5 t, ?_⟩
    rw [mem_blk3]
    intro a
    match a with
    | ⟨0, _⟩ =>
      show win3_5.index t (0 : Fin 2) * 5000 ≤ (i 0).val ∧ (i 0).val < win3_5.index t (0 : Fin 2) * 5000 + 5000
      omega
    | ⟨1, _⟩ =>
      show win3_5.index t (1 : Fin 2) * 128 ≤ (i 1).val ∧ (i 1).val < win3_5.index t (1 : Fin 2) * 128 + 128
      omega

end Cert.KernelIdeal.Hand

end
-- ==== Proof.ValueNorm5.lean ====
/-
  The normalising region of layer 2 read as a value: the output array after the region is one function of the five
  arrays the region is entered from — entry (r, q) is (h[r, q] − μ[q]) · (σ²[q] + ε)^(−1/2) · γ[q] + β[q]. The body's
  payload at an entry; the one-row windows' blocks are their arrays at every point, the row windows' block at point t
  is rows 5000·t … 5000·t + 4999; the twenty write-backs cover the output.
-/
import proofs.«117300_j5643587027248_1_alg».proof.Proof.RegionNorm5
import proofs.«117300_j5643587027248_1_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.LibDenseRows

-- the TensorCore's buffer contents when the region is entered, at the extended reals
variable (V : (c : Dev nD) → (b : Ref sig .tc) → Buf (Elt Ideal) ((c : Thread nD τ).loc b))

/-- The offsets of a whole-block access, however the zeros are spelt. -/
theorem hz5 : (![0, 0] : Fin 2 → Nat) = fun _ => 0 := funext fun a => by fin_cases a <;> rfl

/-! ## The body's payload -/

/-- The payload at entry (p, q) of the block: the block's entry less the mean's, times the reciprocal square root of
    the variance's plus ε, times the scale's, plus the shift's — the one-row operands read at column q. -/
theorem norm5_pay_apply (xv : Vec Ideal S1x128 .f32) (xh : Vec Ideal S5000x128 .f32) (xm : Vec Ideal S1x128 .f32)
    (xg : Vec Ideal S1x128 .f32) (xb : Vec Ideal S1x128 .f32) (p : Fin 5000) (q : Fin 128) :
    k5_pay1 (F := Ideal) xv xh xm xg xb (ix2 p q)
      = (xh (ix2 p q) - xm (ix2 (0 : Fin 1) q)) * Ideal.rsqrt (xv (ix2 (0 : Fin 1) q) + Cert.Spec.eps)
          * xg (ix2 (0 : Fin 1) q) + xb (ix2 (0 : Fin 1) q) := by
  unfold k5_pay1
  simp only [shapeCast_self]
  rw [addf_apply, mulf_apply, mulf_apply, subf_apply, broadcastTo_1b_ab_apply, broadcastTo_1b_ab_apply,
    broadcastTo_1b_ab_apply, broadcastTo_1b_ab_apply]
  rfl

/-- The normalisation at an entry whose column is q. -/
theorem norm5_spec_apply (h : Cert.Spec.SR.Idx → EReal) (mu va g b : Cert.Spec.S1.Idx → EReal) (i : Cert.Spec.SR.Idx) (q : Fin 128)
    (hq : (i 1 : Fin 128) = q) :
    Cert.Spec.normArr h mu va g b i
      = (h i - mu (ix2 (0 : Fin 1) q)) * Ideal.rsqrt (va (ix2 (0 : Fin 1) q) + Cert.Spec.eps)
          * g (ix2 (0 : Fin 1) q) + b (ix2 (0 : Fin 1) q) := by
  subst hq; rfl

/-! ## The windows' blocks -/

/-- The printed index maps, decided over the grid: the input rows' block moves with the output's, along the rows
    only and within the twenty blocks; every one-row window's block index is zero on both axes. -/
theorem idx_facts5 : ∀ t : Fin cfg5.N, win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_0.index t (0 : Fin 2) = win5_5.index t (0 : Fin 2) ∧ win5_0.index t (1 : Fin 2) = 0
    ∧ win5_5.index t (0 : Fin 2) ≤ 19 ∧ win5_5.index t (1 : Fin 2) = 0 :=
  (by decide +kernel : ∀ t : Fin grid5.N, _)

/-- Every block of rows is some point's. -/
theorem idx_onto5 : ∀ q0 : Fin 20, ∃ t : Fin cfg5.N, win5_5.index t (0 : Fin 2) = q0.val :=
  (by decide +kernel : ∀ q0 : Fin 20, ∃ t : Fin grid5.N, win5_5.index t (0 : Fin 2) = q0.val)

/-- The mean's one-row block is the array, at every point. -/
theorem iblk5_1_eq (c : Dev nD) (t : Fin cfg5.N) : (iblk5 V c 1 t : Vec Ideal S1x128 .f32) = V c main_v101 := by
  obtain ⟨e0, e1, -⟩ := idx_facts5 t
  funext y
  show V c main_v101 (((cfg5.win 1).blk t).view.emb y) = V c main_v101 y
  refine congrArg _ (funext fun a => Fin.ext ?_)
  match a with
  | ⟨0, _⟩ => show win5_1.index t (0 : Fin 2) * 1 + 1 * (y 0).val = (y 0).val; omega
  | ⟨1, _⟩ => show win5_1.index t (1 : Fin 2) * 128 + 1 * (y 1).val = (y 1).val; omega

/-- The variance's one-row block is the array, at every point. -/
theorem iblk5_2_eq (c : Dev nD) (t : Fin cfg5.N) : (iblk5 V c 2 t : Vec Ideal S1x128 .f32) = V c main_v102 := by
  obtain ⟨-, -, e0, e1, -⟩ := idx_facts5 t
  funext y
  show V c main_v102 (((cfg5.win 2).blk t).view.emb y) = V c main_v102 y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- The scale's one-row block is the array, at every point. -/
theorem iblk5_3_eq (c : Dev nD) (t : Fin cfg5.N) : (iblk5 V c 3 t : Vec Ideal S1x128 .f32) = V c main_v103 := by
  obtain ⟨-, -, -, -, e0, e1, -⟩ := idx_facts5 t
  funext y
  show V c main_v103 (((cfg5.win 3).blk t).view.emb y) = V c main_v103 y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- The shift's one-row block is the array, at every point. -/
theorem iblk5_4_eq (c : Dev nD) (t : Fin cfg5.N) : (iblk5 V c 4 t : Vec Ideal S1x128 .f32) = V c main_v104 := by
  obtain ⟨-, -, -, -, -, -, e0, e1, -⟩ := idx_facts5 t
  funext y
  show V c main_v104 (((cfg5.win 4).blk t).view.emb y) = V c main_v104 y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-! ## What a point writes back, and the array after the region -/

/-- What point `t` writes back is block `t` of the normalisation of the arrays as the region finds them. -/
theorem flushed5_eq (c : Dev nD) (t : Fin cfg5.N) :
    (dat5 (F := Ideal) V c).flushed 5 t = ((cfg5.win 5).blk t).view.read (Elt Ideal)
      (Cert.Spec.normArr (V c main_v92_0) (V c main_v101) (V c main_v102) (V c main_v103) (V c main_v104)) := by
  show (cfg5.win 5).cut (grid5.coords t) ((dat5 V c).after 5 t) = _
  rw [after5_5]
  unfold out5_5
  rw [View.canon_unit_zero hz5]
  simp only [View.ld_unit_zero (S := S5000x128) hz5, View.ld_unit_zero (S := S1x128) hz5]
  rw [iblk5_1_eq, iblk5_2_eq, iblk5_3_eq, iblk5_4_eq]
  obtain ⟨-, -, -, -, -, -, -, -, e0, e1, e2, e3⟩ := idx_facts5 t
  funext j
  obtain ⟨p, q, rfl⟩ : ∃ (p : Fin 5000) (q : Fin 128), j = ix2 p q := ⟨j 0, j 1, eq_ix2 j⟩
  refine (norm5_pay_apply _ _ _ _ _ p q).trans ?_
  have hemb : ((cfg5.win 0).blk t).view.emb (ix2 p q) = ((cfg5.win 5).blk t).view.emb (ix2 p q) := by
    funext a; apply Fin.ext
    match a with
    | ⟨0, _⟩ => show win5_0.index t (0 : Fin 2) * 5000 + 1 * p.val = win5_5.index t (0 : Fin 2) * 5000 + 1 * p.val; omega
    | ⟨1, _⟩ => show win5_0.index t (1 : Fin 2) * 128 + 1 * q.val = win5_5.index t (1 : Fin 2) * 128 + 1 * q.val; omega
  have hq : ((((cfg5.win 5).blk t).view.emb (ix2 p q)) 1 : Fin 128) = q :=
    Fin.ext (show win5_5.index t (1 : Fin 2) * 128 + 1 * q.val = q.val by omega)
  have h0 : (iblk5 V c 0 t : Vec Ideal S5000x128 .f32) (ix2 p q)
      = (V c main_v92_0 : Cert.Spec.SR.Idx → EReal) (((cfg5.win 5).blk t).view.emb (ix2 p q)) :=
    congrArg (V c main_v92_0 : Cert.Spec.SR.Idx → EReal) hemb
  refine Eq.trans ?_ (norm5_spec_apply (V c main_v92_0) (V c main_v101) (V c main_v102) (V c main_v103) (V c main_v104)
    (((cfg5.win 5).blk t).view.emb (ix2 p q)) q hq).symm
  rw [h0]

/-- An index of the output array is in point `t`'s block iff each coordinate is in the block's range on its axis. -/
theorem mem_blk5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v105).slice (win5_5.rect t)).set ↔ _
  rw [View.set_slice_whole, Rect.mem_set_unit]
  exact Iff.rfl

/-- The output array after the region: the normalisation of the five arrays the region is entered from. The point
    covering row r is the one whose block index is r / 5000. -/
theorem final_norm5 (c : Dev nD) :
    (dat5 (F := Ideal) V c).arrAt 5 cfg5.N
      = Cert.Spec.normArr (V c main_v92_0) (V c main_v101) (V c main_v102) (V c main_v103) (V c main_v104) :=
  (dat5 (F := Ideal) V c).arrAt_eq_of_cover 5 _ (fun t _ => flushed5_eq V c t) fun i => by
    have hi0 : (i 0).val < 100000 := (i 0).isLt
    have hi1 : (i 1).val < 128 := (i 1).isLt
    obtain ⟨t, ht⟩ := idx_onto5 ⟨(i 0).val / 5000, by omega⟩
    have q0 : win5_5.index t (0 : Fin 2) = (i 0).val / 5000 := ht
    obtain ⟨-, -, -, -, -, -, -, -, -, -, -, e3⟩ := idx_facts5 t
    refine ⟨t, flush5_5 t, ?_⟩
    rw [mem_blk5]
    intro a
    match a with
    | ⟨0, _⟩ =>
      show win5_5.index t (0 : Fin 2) * 5000 ≤ (i 0).val ∧ (i 0).val < win5_5.index t (0 : Fin 2) * 5000 + 5000
      omega
    | ⟨1, _⟩ =>
      show win5_5.index t (1 : Fin 2) * 128 ≤ (i 1).val ∧ (i 1).val < win5_5.index t (1 : Fin 2) * 128 + 128
      omega

end Cert.KernelIdeal.Hand

end
-- ==== Proof.ValueNorm7.lean ====
/-
  The normalising region of layer 3 read as a value: the output array after the region is one function of the five
  arrays the region is entered from — entry (r, q) is (h[r, q] − μ[q]) · (σ²[q] + ε)^(−1/2) · γ[q] + β[q]. The body's
  payload at an entry; the one-row windows' blocks are their arrays at every point, the row windows' block at point t
  is rows 5000·t … 5000·t + 4999; the twenty write-backs cover the output.
-/
import proofs.«117300_j5643587027248_1_alg».proof.Proof.RegionNorm7
import proofs.«117300_j5643587027248_1_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)
open Cert.LibDenseRows

-- the TensorCore's buffer contents when the region is entered, at the extended reals
variable (V : (c : Dev nD) → (b : Ref sig .tc) → Buf (Elt Ideal) ((c : Thread nD τ).loc b))

/-- The offsets of a whole-block access, however the zeros are spelt. -/
theorem hz7 : (![0, 0] : Fin 2 → Nat) = fun _ => 0 := funext fun a => by fin_cases a <;> rfl

/-! ## The body's payload -/

/-- The payload at entry (p, q) of the block: the block's entry less the mean's, times the reciprocal square root of
    the variance's plus ε, times the scale's, plus the shift's — the one-row operands read at column q. -/
theorem norm7_pay_apply (xv : Vec Ideal S1x128 .f32) (xh : Vec Ideal S5000x128 .f32) (xm : Vec Ideal S1x128 .f32)
    (xg : Vec Ideal S1x128 .f32) (xb : Vec Ideal S1x128 .f32) (p : Fin 5000) (q : Fin 128) :
    k7_pay1 (F := Ideal) xv xh xm xg xb (ix2 p q)
      = (xh (ix2 p q) - xm (ix2 (0 : Fin 1) q)) * Ideal.rsqrt (xv (ix2 (0 : Fin 1) q) + Cert.Spec.eps)
          * xg (ix2 (0 : Fin 1) q) + xb (ix2 (0 : Fin 1) q) := by
  unfold k7_pay1
  simp only [shapeCast_self]
  rw [addf_apply, mulf_apply, mulf_apply, subf_apply, broadcastTo_1b_ab_apply, broadcastTo_1b_ab_apply,
    broadcastTo_1b_ab_apply, broadcastTo_1b_ab_apply]
  rfl

/-- The normalisation at an entry whose column is q. -/
theorem norm7_spec_apply (h : Cert.Spec.SR.Idx → EReal) (mu va g b : Cert.Spec.S1.Idx → EReal) (i : Cert.Spec.SR.Idx) (q : Fin 128)
    (hq : (i 1 : Fin 128) = q) :
    Cert.Spec.normArr h mu va g b i
      = (h i - mu (ix2 (0 : Fin 1) q)) * Ideal.rsqrt (va (ix2 (0 : Fin 1) q) + Cert.Spec.eps)
          * g (ix2 (0 : Fin 1) q) + b (ix2 (0 : Fin 1) q) := by
  subst hq; rfl

/-! ## The windows' blocks -/

/-- The printed index maps, decided over the grid: the input rows' block moves with the output's, along the rows
    only and within the twenty blocks; every one-row window's block index is zero on both axes. -/
theorem idx_facts7 : ∀ t : Fin cfg7.N, win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_0.index t (0 : Fin 2) = win7_5.index t (0 : Fin 2) ∧ win7_0.index t (1 : Fin 2) = 0
    ∧ win7_5.index t (0 : Fin 2) ≤ 19 ∧ win7_5.index t (1 : Fin 2) = 0 :=
  (by decide +kernel : ∀ t : Fin grid7.N, _)

/-- Every block of rows is some point's. -/
theorem idx_onto7 : ∀ q0 : Fin 20, ∃ t : Fin cfg7.N, win7_5.index t (0 : Fin 2) = q0.val :=
  (by decide +kernel : ∀ q0 : Fin 20, ∃ t : Fin grid7.N, win7_5.index t (0 : Fin 2) = q0.val)

/-- The mean's one-row block is the array, at every point. -/
theorem iblk7_1_eq (c : Dev nD) (t : Fin cfg7.N) : (iblk7 V c 1 t : Vec Ideal S1x128 .f32) = V c main_v139 := by
  obtain ⟨e0, e1, -⟩ := idx_facts7 t
  funext y
  show V c main_v139 (((cfg7.win 1).blk t).view.emb y) = V c main_v139 y
  refine congrArg _ (funext fun a => Fin.ext ?_)
  match a with
  | ⟨0, _⟩ => show win7_1.index t (0 : Fin 2) * 1 + 1 * (y 0).val = (y 0).val; omega
  | ⟨1, _⟩ => show win7_1.index t (1 : Fin 2) * 128 + 1 * (y 1).val = (y 1).val; omega

/-- The variance's one-row block is the array, at every point. -/
theorem iblk7_2_eq (c : Dev nD) (t : Fin cfg7.N) : (iblk7 V c 2 t : Vec Ideal S1x128 .f32) = V c main_v140 := by
  obtain ⟨-, -, e0, e1, -⟩ := idx_facts7 t
  funext y
  show V c main_v140 (((cfg7.win 2).blk t).view.emb y) = V c main_v140 y
  refine congrArg _ (funext fun a => Fin.ext ?_)
  match a with
  | ⟨0, _⟩ => show win7_2.index t (0 : Fin 2) * 1 + 1 * (y 0).val = (y 0).val; omega
  | ⟨1, _⟩ => show win7_2.index t (1 : Fin 2) * 128 + 1 * (y 1).val = (y 1).val; omega

/-- The scale's one-row block is the array, at every point. -/
theorem iblk7_3_eq (c : Dev nD) (t : Fin cfg7.N) : (iblk7 V c 3 t : Vec Ideal S1x128 .f32) = V c main_v141 := by
  obtain ⟨-, -, -, -, e0, e1, -⟩ := idx_facts7 t
  funext y
  show V c main_v141 (((cfg7.win 3).blk t).view.emb y) = V c main_v141 y
  refine congrArg _ (funext fun a => Fin.ext ?_)
  match a with
  | ⟨0, _⟩ => show win7_3.index t (0 : Fin 2) * 1 + 1 * (y 0).val = (y 0).val; omega
  | ⟨1, _⟩ => show win7_3.index t (1 : Fin 2) * 128 + 1 * (y 1).val = (y 1).val; omega

/-- The shift's one-row block is the array, at every point. -/
theorem iblk7_4_eq (c : Dev nD) (t : Fin cfg7.N) : (iblk7 V c 4 t : Vec Ideal S1x128 .f32) = V c main_v142 := by
  obtain ⟨-, -, -, -, -, -, e0, e1, -⟩ := idx_facts7 t
  funext y
  show V c main_v142 (((cfg7.win 4).blk t).view.emb y) = V c main_v142 y
  refine congrArg _ (funext fun a => Fin.ext ?_)
  match a with
  | ⟨0, _⟩ => show win7_4.index t (0 : Fin 2) * 1 + 1 * (y 0).val = (y 0).val; omega
  | ⟨1, _⟩ => show win7_4.index t (1 : Fin 2) * 128 + 1 * (y 1).val = (y 1).val; omega

/-! ## What a point writes back, and the array after the region -/

/-- What point `t` writes back is block `t` of the normalisation of the arrays as the region finds them. -/
theorem flushed7_eq (c : Dev nD) (t : Fin cfg7.N) :
    (dat7 (F := Ideal) V c).flushed 5 t = ((cfg7.win 5).blk t).view.read (Elt Ideal)
      (Cert.Spec.normArr (V c main_v130_0) (V c main_v139) (V c main_v140) (V c main_v141) (V c main_v142)) := by
  show (cfg7.win 5).cut (grid7.coords t) ((dat7 V c).after 5 t) = _
  rw [after7_5]
  unfold out7_5
  rw [View.canon_unit_zero hz7]
  simp only [View.ld_unit_zero (S := S5000x128) hz7, View.ld_unit_zero (S := S1x128) hz7]
  rw [iblk7_1_eq, iblk7_2_eq, iblk7_3_eq, iblk7_4_eq]
  obtain ⟨-, -, -, -, -, -, -, -, e0, e1, e2, e3⟩ := idx_facts7 t
  funext j
  obtain ⟨p, q, rfl⟩ : ∃ (p : Fin 5000) (q : Fin 128), j = ix2 p q := ⟨j 0, j 1, eq_ix2 j⟩
  refine (norm7_pay_apply _ _ _ _ _ p q).trans ?_
  have hemb : ((cfg7.win 0).blk t).view.emb (ix2 p q) = ((cfg7.win 5).blk t).view.emb (ix2 p q) := by
    funext a; apply Fin.ext
    match a with
    | ⟨0, _⟩ => show win7_0.index t (0 : Fin 2) * 5000 + 1 * p.val = win7_5.index t (0 : Fin 2) * 5000 + 1 * p.val; omega
    | ⟨1, _⟩ => show win7_0.index t (1 : Fin 2) * 128 + 1 * q.val = win7_5.index t (1 : Fin 2) * 128 + 1 * q.val; omega
  have hq : ((((cfg7.win 5).blk t).view.emb (ix2 p q)) 1 : Fin 128) = q :=
    Fin.ext (show win7_5.index t (1 : Fin 2) * 128 + 1 * q.val = q.val by omega)
  have h0 : (iblk7 V c 0 t : Vec Ideal S5000x128 .f32) (ix2 p q)
      = (V c main_v130_0 : Cert.Spec.SR.Idx → EReal) (((cfg7.win 5).blk t).view.emb (ix2 p q)) :=
    congrArg (V c main_v130_0 : Cert.Spec.SR.Idx → EReal) hemb
  refine Eq.trans ?_ (norm7_spec_apply (V c main_v130_0) (V c main_v139) (V c main_v140) (V c main_v141) (V c main_v142)
    (((cfg7.win 5).blk t).view.emb (ix2 p q)) q hq).symm
  rw [h0]

/-- An index of the output array is in point `t`'s block iff each coordinate is in the block's range on its axis. -/
theorem mem_blk7 (t : Fin cfg7.N) (i : S100000x128.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole main_v143).slice (win7_5.rect t)).set ↔ _
  rw [View.set_slice_whole, Rect.mem_set_unit]
  exact Iff.rfl

/-- The output array after the region: the normalisation of the five arrays the region is entered from. The point
    covering row r is the one whose block index is r / 5000. -/
theorem final_norm7 (c : Dev nD) :
    (dat7 (F := Ideal) V c).arrAt 5 cfg7.N
      = Cert.Spec.normArr (V c main_v130_0) (V c main_v139) (V c main_v140) (V c main_v141) (V c main_v142) :=
  (dat7 (F := Ideal) V c).arrAt_eq_of_cover 5 _ (fun t _ => flushed7_eq V c t) fun i => by
    have hi0 : (i 0).val < 100000 := (i 0).isLt
    have hi1 : (i 1).val < 128 := (i 1).isLt
    obtain ⟨t, ht⟩ := idx_onto7 ⟨(i 0).val / 5000, by omega⟩
    have q0 : win7_5.index t (0 : Fin 2) = (i 0).val / 5000 := ht
    obtain ⟨-, -, -, -, -, -, -, -, -, -, -, e3⟩ := idx_facts7 t
    refine ⟨t, flush7_5 t, ?_⟩
    rw [mem_blk7]
    intro a
    match a with
    | ⟨0, _⟩ =>
      show win7_5.index t (0 : Fin 2) * 5000 ≤ (i 0).val ∧ (i 0).val < win7_5.index t (0 : Fin 2) * 5000 + 5000
      omega
    | ⟨1, _⟩ =>
      show win7_5.index t (1 : Fin 2) * 128 ≤ (i 1).val ∧ (i 1).val < win7_5.index t (1 : Fin 2) * 128 + 128
      omega

end Cert.KernelIdeal.Hand

end
-- ==== Proof.LibBlockSum.lean ====
/-
  Sums over a range of T · B consecutive indices taken block by block, and running totals.

  The indices 0, …, T·B − 1 split into T consecutive blocks of B: index t·B + y is entry y of block t.  A sum over all of
  them is therefore the sum over the blocks of each block's sum.  A running total that starts from z plus the first
  term and adds one more term at each step is, after step t, z plus the sum of terms 0, …, t.  Together: a total
  accumulated block by block is z plus the sum over all T·B indices.
-/
import Mathlib

open scoped BigOperators

namespace Cert.Lib.BatchNorm

/-! ## The block decomposition of a range of T · B indices -/

/-- Entry y of block t has flat index t·B + y, below T·B. -/
theorem block_index_lt {T B : ℕ} (t : Fin T) (y : Fin B) : t.val * B + y.val < T * B :=
  calc t.val * B + y.val < t.val * B + B := Nat.add_lt_add_left y.isLt _
    _ = (t.val + 1) * B := by ring
    _ ≤ T * B := Nat.mul_le_mul_right _ t.isLt

/-- A sum over T·B indices is the sum over the T blocks of the sum over each block's B entries. -/
theorem sum_fin_mul {M : Type*} [AddCommMonoid M] (T B : ℕ) (f : Fin (T * B) → M) :
    ∑ i : Fin (T * B), f i = ∑ t : Fin T, ∑ y : Fin B, f ⟨t.val * B + y.val, block_index_lt t y⟩ := by
  rw [← Equiv.sum_comp (finProdFinEquiv (m := T) (n := B)) f, Fintype.sum_prod_type]
  refine Finset.sum_congr rfl fun t _ => Finset.sum_congr rfl fun y _ => ?_
  congr 1
  refine Fin.ext ?_
  simp only [finProdFinEquiv_apply_val]
  ring

/-- The same for a function of the flat index as a natural number, with the blocks and entries counted by ranges. -/
theorem sum_fin_mul_nat {M : Type*} [AddCommMonoid M] (T B : ℕ) (F : ℕ → M) :
    ∑ i : Fin (T * B), F i.val = ∑ t ∈ Finset.range T, ∑ y ∈ Finset.range B, F (t * B + y) := by
  rw [sum_fin_mul T B fun i => F i.val, Finset.sum_range]
  refine Finset.sum_congr rfl fun t _ => ?_
  rw [Finset.sum_range]

/-! ## Running totals -/

/-- A running total a, with a 0 = z + g 0 and a (t + 1) = a t + g (t + 1), is at step t the start z plus the sum of
    g 0, …, g t. -/
theorem running_total {M : Type*} [AddCommMonoid M] (a g : ℕ → M) (z : M) (h0 : a 0 = z + g 0)
    (hs : ∀ t, a (t + 1) = a t + g (t + 1)) (t : ℕ) : a t = z + ∑ s ∈ Finset.range (t + 1), g s := by
  induction t with
  | zero => rw [h0, Finset.sum_range_one]
  | succ t ih => rw [hs t, ih, Finset.sum_range_succ _ (t + 1), add_assoc]

/-- The same when the recurrence is known only up to a last step T − 1: for every t below T. -/
theorem running_total_below {M : Type*} [AddCommMonoid M] (T : ℕ) (a g : ℕ → M) (z : M) (h0 : a 0 = z + g 0)
    (hs : ∀ t, t + 1 < T → a (t + 1) = a t + g (t + 1)) (t : ℕ) (ht : t < T) :
    a t = z + ∑ s ∈ Finset.range (t + 1), g s := by
  induction t with
  | zero => rw [h0, Finset.sum_range_one]
  | succ t ih => rw [hs t ht, ih (Nat.lt_of_succ_lt ht), Finset.sum_range_succ _ (t + 1), add_assoc]

/-- A sum of g 0, …, g (T − 1) counted by a range is the sum over the T indices below T. -/
theorem sum_range_eq_sum_fin {M : Type*} [AddCommMonoid M] (T : ℕ) (g : ℕ → M) :
    ∑ s ∈ Finset.range T, g s = ∑ t : Fin T, g t.val :=
  Finset.sum_range g

/-- A total accumulated block by block — it starts from z plus block 0's sum and adds block t + 1's sum at step
    t + 1 — is, after the last of T ≥ 1 blocks of B entries, z plus the sum over all T·B flat indices. -/
theorem running_total_blocks {M : Type*} [AddCommMonoid M] (T B : ℕ) (hT : 0 < T) (a : ℕ → M) (F : ℕ → M) (z : M)
    (h0 : a 0 = z + ∑ y ∈ Finset.range B, F (0 * B + y))
    (hs : ∀ t, t + 1 < T → a (t + 1) = a t + ∑ y ∈ Finset.range B, F ((t + 1) * B + y)) :
    a (T - 1) = z + ∑ i : Fin (T * B), F i.val := by
  rw [running_total_below T a (fun t => ∑ y ∈ Finset.range B, F (t * B + y)) z h0 hs (T - 1) (by omega),
    sum_fin_mul_nat, Nat.sub_add_cancel hT]

/-! ## Running totals indexed by the steps 0, …, T − 1 themselves -/

/-- A running total a over the T steps, with a 0 = z + g 0 and a (t + 1) = a t + g (t + 1), is at the last step the
    start z plus the sum of all T terms. -/
theorem running_total_fin_last {M : Type*} [AddCommMonoid M] {T : ℕ} (hT : 0 < T) (a g : Fin T → M) (z : M)
    (h0 : a ⟨0, hT⟩ = z + g ⟨0, hT⟩)
    (hs : ∀ (t : ℕ) (h : t + 1 < T), a ⟨t + 1, h⟩ = a ⟨t, Nat.lt_of_succ_lt h⟩ + g ⟨t + 1, h⟩) :
    a ⟨T - 1, Nat.sub_lt hT Nat.one_pos⟩ = z + ∑ s : Fin T, g s := by
  have key := running_total_below T (fun t => if h : t < T then a ⟨t, h⟩ else 0)
    (fun t => if h : t < T then g ⟨t, h⟩ else 0) z
    (by simp only [dif_pos hT]; exact h0)
    (fun t h => by simp only [dif_pos h, dif_pos (Nat.lt_of_succ_lt h)]; exact hs t h)
    (T - 1) (Nat.sub_lt hT Nat.one_pos)
  simp only [dif_pos (Nat.sub_lt hT Nat.one_pos), Nat.sub_add_cancel hT] at key
  rw [key, Finset.sum_range]
  congr 1
  exact Finset.sum_congr rfl fun s _ => by rw [dif_pos s.isLt]

/-- A total accumulated block by block over T ≥ 1 blocks of B entries — it starts from z plus block 0's sum and
    adds block t + 1's sum at step t + 1 — is at the last step z plus the sum over all T·B flat indices. -/
theorem running_total_blocks_fin {M : Type*} [AddCommMonoid M] (T B : ℕ) (hT : 0 < T) (a : Fin T → M)
    (f : Fin (T * B) → M) (z : M)
    (h0 : a ⟨0, hT⟩ = z + ∑ y : Fin B, f ⟨(⟨0, hT⟩ : Fin T).val * B + y.val, block_index_lt ⟨0, hT⟩ y⟩)
    (hs : ∀ (t : ℕ) (h : t + 1 < T), a ⟨t + 1, h⟩ = a ⟨t, Nat.lt_of_succ_lt h⟩
        + ∑ y : Fin B, f ⟨(⟨t + 1, h⟩ : Fin T).val * B + y.val, block_index_lt ⟨t + 1, h⟩ y⟩) :
    a ⟨T - 1, Nat.sub_lt hT Nat.one_pos⟩ = z + ∑ i : Fin (T * B), f i := by
  rw [sum_fin_mul]
  exact running_total_fin_last hT a (fun t => ∑ y : Fin B, f ⟨t.val * B + y.val, block_index_lt t y⟩) z h0 hs

/-! ## The instance 50000 = 10 · 5000 -/

/-- A sum over 50000 indices is the sum over 10 blocks of the sum over each block's 5000 entries. -/
theorem sum_fin_50000 {M : Type*} [AddCommMonoid M] (f : Fin 50000 → M) :
    ∑ i : Fin 50000, f i
      = ∑ t : Fin 10, ∑ y : Fin 5000, f ⟨t.val * 5000 + y.val, by have := t.isLt; have := y.isLt; omega⟩ :=
  sum_fin_mul 10 5000 f

/-- The same for a function of the flat index as a natural number. -/
theorem sum_fin_50000_nat {M : Type*} [AddCommMonoid M] (F : ℕ → M) :
    ∑ i : Fin 50000, F i.val = ∑ t ∈ Finset.range 10, ∑ y ∈ Finset.range 5000, F (t * 5000 + y) :=
  sum_fin_mul_nat 10 5000 F

/-- A total accumulated over 10 blocks of 5000 is z plus the sum over all 50000 flat indices. -/
theorem running_total_50000 {M : Type*} [AddCommMonoid M] (a : ℕ → M) (F : ℕ → M) (z : M)
    (h0 : a 0 = z + ∑ y ∈ Finset.range 5000, F (0 * 5000 + y))
    (hs : ∀ t, t + 1 < 10 → a (t + 1) = a t + ∑ y ∈ Finset.range 5000, F ((t + 1) * 5000 + y)) :
    a 9 = z + ∑ i : Fin 50000, F i.val :=
  running_total_blocks 10 5000 (by norm_num) a F z h0 hs

/-- A total accumulated over the 10 steps, block t being the 5000 entries from 5000 t on, is at step 9 the start z
    plus the sum over all 50000 entries. -/
theorem running_total_50000_fin {M : Type*} [AddCommMonoid M] (a : Fin 10 → M) (f : Fin 50000 → M) (z : M)
    (h0 : a 0 = z + ∑ y : Fin 5000, f ⟨0 * 5000 + y.val, by have := y.isLt; omega⟩)
    (hs : ∀ (t : ℕ) (h : t + 1 < 10), a ⟨t + 1, h⟩ = a ⟨t, Nat.lt_of_succ_lt h⟩
        + ∑ y : Fin 5000, f ⟨(t + 1) * 5000 + y.val, by have := y.isLt; omega⟩) :
    a 9 = z + ∑ i : Fin 50000, f i :=
  running_total_blocks_fin 10 5000 (by norm_num) a f z h0 hs

end Cert.Lib.BatchNorm
-- ==== Proof.ValueMlp0.lean ====
/-
  The layer-0 perceptron region read as values: the three output arrays after the region are functions of the six
  arrays the region is entered from — the rows through two rectified dense layers of x + agg, and the column sums of
  that array and of its square.
-/
import proofs.«117300_j5643587027248_1_alg».proof.Proof.RegionMlp0
import proofs.«117300_j5643587027248_1_alg».proof.Proof.Spec
import proofs.«117300_j5643587027248_1_alg».proof.Proof.LibBlockSum
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.ShloMosaic.Pipeline (Dat)
open Cert.LibDenseRows
open scoped BigOperators

/-- The offsets of a whole-block access, however the zeros are spelt. -/
theorem hz0 : (![0, 0] : Fin 2 → Nat) = fun _ => 0 := funext fun a => by fin_cases a <;> rfl

/-! ## What each case leaves in the outputs' buffers, as payloads of the input blocks -/

section Pieces
variable {F : FTy → Type} [FloatOps F]

theorem out0_A_6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) :
    out0_A_6 c i arg1 harg1 arg2 harg2 arg3 harg3 arg4 harg4 arg5 harg5 arg6 harg6 arg7 harg7 arg8 harg8 arg9 harg9 hc0 x0 x1 x2 x3 x4 x5 = k0_pay4 x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  try sl_unfold_words
  rw [View.canon_unit_zero hz0]
  simp only [View.readAt_eq_ld, harg1.read_unread, harg2.read_unread, harg3.read_unread, harg4.read_unread, harg5.read_unread, harg6.read_unread, View.ld_unit_zero (S := S5000x128) hz0, View.ld_unit_zero (S := S128x128) hz0, View.ld_unit_zero (S := S1x128) hz0]

theorem out0_A_7_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) :
    out0_A_7 c i arg1 harg1 arg2 harg2 arg3 harg3 arg4 harg4 arg5 harg5 arg6 harg6 arg7 harg7 arg8 harg8 arg9 harg9 hc0 x0 x1 x2 x3 x4 x5 = k0_pay5 x0 x1 x2 x3 x4 x5 (k0_pay2 (F := F)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz0, View.readCov_unit_zero (S := S1x128) _ hz0]
  simp only [View.readAt_eq_ld, harg1.read_unread, harg2.read_unread, harg3.read_unread, harg4.read_unread, harg5.read_unread, harg6.read_unread, View.ld_unit_zero (S := S5000x128) hz0, View.ld_unit_zero (S := S128x128) hz0, View.ld_unit_zero (S := S1x128) hz0]

theorem out0_A_8_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i)
    (x0 : Vec F S5000x128 .f32) (x1 : Vec F S5000x128 .f32) (x2 : Vec F S128x128 .f32) (x3 : Vec F S1x128 .f32) (x4 : Vec F S128x128 .f32) (x5 : Vec F S1x128 .f32) :
    out0_A_8 c i arg1 harg1 arg2 harg2 arg3 harg3 arg4 harg4 arg5 harg5 arg6 harg6 arg7 harg7 arg8 harg8 arg9 harg9 hc0 x0 x1 x2 x3 x4 x5 = k0_pay1 (k0_pay4 x0 x1 x2 x3 x4 x5) (k0_pay3 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz0, View.readCov_unit_zero (S := S1x128) _ hz0]
  simp only [View.readAt_eq_ld, harg1.read_unread, harg2.read_unread, harg3.read_unread, harg4.read_unread, harg5.read_unread, harg6.read_unread, View.ld_unit_zero (S := S5000x128) hz0, View.ld_unit_zero (S := S128x128) hz0, View.ld_unit_zero (S := S1x128) hz0]

theorem out0_B_6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay4 x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  try sl_unfold_words
  rw [View.canon_unit_zero hz0]
  simp only [View.readAt_eq_ld, harg1.read_unread, harg2.read_unread, harg3.read_unread, harg4.read_unread, harg5.read_unread, harg6.read_unread, harg8.read_unread, harg9.read_unread, View.ld_unit_zero (S := S5000x128) hz0, View.ld_unit_zero (S := S128x128) hz0, View.ld_unit_zero (S := S1x128) hz0]

theorem out0_B_7_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay5 x0 x1 x2 x3 x4 x5 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  try sl_unfold_words
  rw [View.canon_unit_zero hz0]
  simp only [View.readAt_eq_ld, harg1.read_unread, harg2.read_unread, harg3.read_unread, harg4.read_unread, harg5.read_unread, harg6.read_unread, harg8.read_unread, harg9.read_unread, View.ld_unit_zero (S := S5000x128) hz0, View.ld_unit_zero (S := S128x128) hz0, View.ld_unit_zero (S := S1x128) hz0]

theorem out0_B_8_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay1 (k0_pay4 x0 x1 x2 x3 x4 x5) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  try sl_unfold_words
  rw [View.canon_unit_zero hz0]
  simp only [View.readAt_eq_ld, harg1.read_unread, harg2.read_unread, harg3.read_unread, harg4.read_unread, harg5.read_unread, harg6.read_unread, harg8.read_unread, harg9.read_unread, View.ld_unit_zero (S := S5000x128) hz0, View.ld_unit_zero (S := S128x128) hz0, View.ld_unit_zero (S := S1x128) hz0]

end Pieces

-- the TensorCore's buffer contents when the region is entered, at the extended reals
variable (V : (c : Dev nD) → (b : Ref sig .tc) → Buf (Elt Ideal) ((c : Thread nD τ).loc b))

/-! ## The body's payloads at an entry -/

/-- The rows' payload at entry (p, q): row p of x + agg through the two rectified dense layers, at q. The narrowings
    to bf16 are the identity on the extended reals. -/
theorem mlp0_pay_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k0_pay4 (F := Ideal) x0 x1 x2 x3 x4 x5 (ix2 p q)
      = mlp2Row (fun c => x0 (ix2 p c) + x1 (ix2 p c)) x2 x3 x4 x5 q := by
  unfold k0_pay4
  simp only [shapeCast_self]
  refine (kernel_relu_apply _ _).trans (congrArg relu ?_)
  refine (kernel_dense_apply (m := 5000) (k := 128) (n := 128) _ _ _ _ p q).trans ?_
  show denseRow _ x4 x5 q = denseRow _ x4 x5 q
  refine congrArg (fun r => denseRow r x4 x5 q) (funext fun c => ?_)
  refine (truncf_apply (ψ := .bf16) _ bitsLt_bf16_f32 (ix2 p c)).trans ?_
  refine (kernel_relu_apply _ _).trans (congrArg relu ?_)
  refine (kernel_dense_apply (m := 5000) (k := 128) (n := 128) _ _ _ _ p c).trans ?_
  show denseRow _ x2 x3 c = denseRow _ x2 x3 c
  refine congrArg (fun r => denseRow r x2 x3 c) (funext fun d => ?_)
  exact truncf_apply (ψ := .bf16) _ bitsLt_bf16_f32 (ix2 p d)

/-- A lane sum of a block of rows, as a one-row array, at column q: the sum down the rows. -/
theorem laneSum0_apply (v : FVec Ideal S5000x128 .f32) (q : Fin 128) :
    shapeCast S1x128 (multiReduction .add [0] S128 v 0x00000000#32 reduces_S5000x128_S128 (.inl rfl) rfl) shapeCasts_S128_S1x128
        (ix2 (0 : Fin 1) q)
      = ∑ p : Fin 5000, v (ix2 p q) := by
  refine (shapeCast_apply _ shapeCasts_S128_S1x128 (ix2 (0 : Fin 1) q) (ix1 q) (by
    rw [Shape.rowMajor_val_two, Shape.rowMajor_val_one]; show q.val = 0 * 128 + q.val; omega)).trans ?_
  refine (Ideal.multiReduction_add_single v 0x00000000#32 reduces_S5000x128_S128 (.inl rfl) rfl (ix1 q)).trans ?_
  refine Finset.sum_congr rfl fun k _ => congrArg v (funext fun a => Fin.ext ?_)
  match a with
  | ⟨0, _⟩ => rfl
  | ⟨1, _⟩ => rfl

/-- The sum accumulator's payload at column q: the running contents plus the block's column sum. -/
theorem sum0_pay_apply (x0 x1 : Vec Ideal S5000x128 .f32) (x2 : Vec Ideal S128x128 .f32) (x3 : Vec Ideal S1x128 .f32)
    (x4 : Vec Ideal S128x128 .f32) (x5 : Vec Ideal S1x128 .f32) (xo : Vec Ideal S1x128 .f32) (q : Fin 128) :
    k0_pay5 (F := Ideal) x0 x1 x2 x3 x4 x5 xo (ix2 (0 : Fin 1) q)
      = xo (ix2 (0 : Fin 1) q) + ∑ p : Fin 5000, k0_pay4 (F := Ideal) x0 x1 x2 x3 x4 x5 (ix2 p q) := by
  unfold k0_pay5
  simp only [shapeCast_self]
  refine (addf_apply _ _ _).trans ?_
  exact congrArg (xo (ix2 (0 : Fin 1) q) + ·) (laneSum0_apply _ q)

/-- The sum-of-squares accumulator's payload at column q: the running contents plus the block's column sum of squares. -/
theorem sumsq0_pay_apply (h : FVec Ideal S5000x128 .f32) (xo : Vec Ideal S1x128 .f32) (q : Fin 128) :
    k0_pay1 (F := Ideal) h xo (ix2 (0 : Fin 1) q)
      = xo (ix2 (0 : Fin 1) q) + ∑ p : Fin 5000, h (ix2 p q) * h (ix2 p q) := by
  unfold k0_pay1
  simp only [shapeCast_self]
  refine (addf_apply _ _ _).trans ?_
  exact congrArg (xo (ix2 (0 : Fin 1) q) + ·) (laneSum0_apply _ q)

/-- The reset values are zero. -/
theorem zero0_pay2_apply (j : S1x128.Idx) : k0_pay2 (F := Ideal) j = 0 := Ideal.ofBits_zero_f32
theorem zero0_pay3_apply (j : S1x128.Idx) : k0_pay3 (F := Ideal) j = 0 := Ideal.ofBits_zero_f32

/-! ## The windows' blocks -/

/-- The printed index maps, decided over the grid: the rows' windows (x, agg, h) are at block t on the rows and 0 on
    the columns; every parameter window and both accumulators are at block 0 on both axes. -/
theorem idx_facts0 : ∀ t : Fin cfg0.N, (win0_0.index t (0 : Fin 2) = t.val ∧ win0_0.index t (1 : Fin 2) = 0)
    ∧ (win0_1.index t (0 : Fin 2) = t.val ∧ win0_1.index t (1 : Fin 2) = 0)
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ (win0_6.index t (0 : Fin 2) = t.val ∧ win0_6.index t (1 : Fin 2) = 0)
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The first weight matrix's block is the array, at every point. -/
theorem iblk0_2_eq (c : Dev nD) (t : Fin cfg0.N) : (iblk0 V c 2 t : Vec Ideal S128x128 .f32) = V c main_arg3 := by
  have e0 := (idx_facts0 t).2.2.1
  have e1 := (idx_facts0 t).2.2.2.1
  funext y
  show V c main_arg3 (((cfg0.win 2).blk t).view.emb y) = V c main_arg3 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The first bias row's block is the array, at every point. -/
theorem iblk0_3_eq (c : Dev nD) (t : Fin cfg0.N) : (iblk0 V c 3 t : Vec Ideal S1x128 .f32) = V c main_v14 := by
  have e0 := (idx_facts0 t).2.2.2.2.1
  have e1 := (idx_facts0 t).2.2.2.2.2.1
  funext y
  show V c main_v14 (((cfg0.win 3).blk t).view.emb y) = V c main_v14 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second weight matrix's block is the array, at every point. -/
theorem iblk0_4_eq (c : Dev nD) (t : Fin cfg0.N) : (iblk0 V c 4 t : Vec Ideal S128x128 .f32) = V c main_arg5 := by
  have e0 := (idx_facts0 t).2.2.2.2.2.2.1
  have e1 := (idx_facts0 t).2.2.2.2.2.2.2.1
  funext y
  show V c main_arg5 (((cfg0.win 4).blk t).view.emb y) = V c main_arg5 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The second bias row's block is the array, at every point. -/
theorem iblk0_5_eq (c : Dev nD) (t : Fin cfg0.N) : (iblk0 V c 5 t : Vec Ideal S1x128 .f32) = V c main_v15 := by
  have e0 := (idx_facts0 t).2.2.2.2.2.2.2.2.1
  have e1 := (idx_facts0 t).2.2.2.2.2.2.2.2.2.1
  funext y
  show V c main_v15 (((cfg0.win 5).blk t).view.emb y) = V c main_v15 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Row p of the x rows' block at point t is row 5000·t + p of the array. -/
theorem iblk0_0_apply (c : Dev nD) (t : Fin cfg0.N) (p : Fin 5000) (q : Fin 128) (hr : t.val * 5000 + p.val < 100000) :
    (iblk0 V c 0 t : Vec Ideal S5000x128 .f32) (ix2 p q) = V c main_arg0 (ix2 (⟨t.val * 5000 + p.val, hr⟩ : Fin 100000) q) := by
  obtain ⟨⟨e0, e1⟩, -⟩ := idx_facts0 t
  show V c main_arg0 (((cfg0.win 0).blk t).view.emb (ix2 p q)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * q.val = q.val; omega

/-- Row p of the agg rows' block at point t is row 5000·t + p of the array. -/
theorem iblk0_1_apply (c : Dev nD) (t : Fin cfg0.N) (p : Fin 5000) (q : Fin 128) (hr : t.val * 5000 + p.val < 100000) :
    (iblk0 V c 1 t : Vec Ideal S5000x128 .f32) (ix2 p q) = V c main_v13 (ix2 (⟨t.val * 5000 + p.val, hr⟩ : Fin 100000) q) := by
  obtain ⟨-, ⟨e0, e1⟩, -⟩ := idx_facts0 t
  show V c main_v13 (((cfg0.win 1).blk t).view.emb (ix2 p q)) = _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * q.val = q.val; omega

/-- The rows' payload of point t's blocks, at entry (p, q): the specification's array at row 5000·t + p. -/
theorem hblock0_apply (c : Dev nD) (t : Fin cfg0.N) (p : Fin 5000) (q : Fin 128) (hr : t.val * 5000 + p.val < 100000) :
    k0_pay4 (F := Ideal) (iblk0 V c 0 t) (iblk0 V c 1 t) (iblk0 V c 2 t) (iblk0 V c 3 t) (iblk0 V c 4 t) (iblk0 V c 5 t) (ix2 p q)
      = (Cert.Spec.mlpArr (V c main_arg0) (V c main_v13) (V c main_arg3) (V c main_v14) (V c main_arg5) (V c main_v15)) (ix2 (⟨t.val * 5000 + p.val, hr⟩ : Fin 100000) q) := by
  refine (mlp0_pay_apply _ _ _ _ _ _ p q).trans ?_
  rw [iblk0_2_eq, iblk0_3_eq, iblk0_4_eq, iblk0_5_eq]
  refine congrArg (fun r => mlp2Row r (V c main_arg3) (V c main_v14) (V c main_arg5) (V c main_v15) q) (funext fun d => ?_)
  rw [iblk0_0_apply V c t p d hr, iblk0_1_apply V c t p d hr]

/-! ## The rows' output: what a point writes back, and the array after the region -/

/-- Row p of a point's block is below the array's 100000 rows. -/
theorem hrow0 (t : Fin cfg0.N) (p : Fin 5000) : t.val * 5000 + p.val < 100000 := by
  have hN : t.val < 20 := lt_of_lt_of_eq t.isLt (show cfg0.N = 20 from N_0)
  have := p.isLt
  omega

/-- What the rows' output buffer holds after point t, at entry (p, q): the specification's array at row 5000·t + p. -/
theorem out0_6_apply (c : Dev nD) (t : Fin cfg0.N) (p : Fin 5000) (q : Fin 128) :
    (outsAt0 V c t.val t.isLt).1 (ix2 p q) = (Cert.Spec.mlpArr (V c main_arg0) (V c main_v13) (V c main_arg3) (V c main_v14) (V c main_arg5) (V c main_v15)) (ix2 (⟨t.val * 5000 + p.val, hrow0 t p⟩ : Fin 100000) q) := by
  by_cases h0 : t.val % 20 = 0
  · rw [outsAt0_A V c t h0]
    dsimp only
    refine (congrFun (out0_A_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)) (ix2 p q)).trans ?_
    exact hblock0_apply V c t p q (hrow0 t p)
  · rw [outsAt0_B V c t h0]
    dsimp only
    refine (congrFun (out0_B_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) (ix2 p q)).trans ?_
    exact hblock0_apply V c t p q (hrow0 t p)

/-- What point t writes back of the rows' output is block t of the specification's array. -/
theorem flushed0_6_eq (c : Dev nD) (t : Fin cfg0.N) :
    (dat0 (F := Ideal) V c).flushed 6 t = ((cfg0.win 6).blk t).view.read (Elt Ideal) (Cert.Spec.mlpArr (V c main_arg0) (V c main_v13) (V c main_arg3) (V c main_v14) (V c main_arg5) (V c main_v15)) := by
  show (cfg0.win 6).cut (grid0.coords t) ((dat0 V c).after 6 t) = _
  rw [after0_6]
  obtain ⟨-, -, -, -, -, -, -, -, -, -, ⟨e0, e1⟩, -⟩ := idx_facts0 t
  funext j
  obtain ⟨p, q, rfl⟩ : ∃ (p : Fin 5000) (q : Fin 128), j = ix2 p q := ⟨j 0, j 1, eq_ix2 j⟩
  have hemb : ((cfg0.win 6).blk t).view.emb (ix2 p q) = ix2 (⟨t.val * 5000 + p.val, hrow0 t p⟩ : Fin 100000) q := by
    funext a; apply Fin.ext
    match a with
    | ⟨0, _⟩ => show win0_6.index t (0 : Fin 2) * 5000 + 1 * p.val = t.val * 5000 + p.val; omega
    | ⟨1, _⟩ => show win0_6.index t (1 : Fin 2) * 128 + 1 * q.val = q.val; omega
  show (outsAt0 V c t.val t.isLt).1 (ix2 p q) = (Cert.Spec.mlpArr (V c main_arg0) (V c main_v13) (V c main_arg3) (V c main_v14) (V c main_arg5) (V c main_v15)) (((cfg0.win 6).blk t).view.emb (ix2 p q))
  rw [hemb]
  exact out0_6_apply V c t p q

/-- An index of the rows' output array is in point t's block iff each coordinate is in the block's range on its axis. -/
theorem mem_blk0_6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v16_0).slice (win0_6.rect t)).set ↔ _
  rw [View.set_slice_whole, Rect.mem_set_unit]
  exact Iff.rfl

/-- The rows' output array after the region: the rows through the two rectified dense layers of x + agg. The point
    covering row r is r / 5000. -/
theorem final_mlp0_h (c : Dev nD) :
    (dat0 (F := Ideal) V c).arrAt 6 cfg0.N = (Cert.Spec.mlpArr (V c main_arg0) (V c main_v13) (V c main_arg3) (V c main_v14) (V c main_arg5) (V c main_v15)) :=
  (dat0 (F := Ideal) V c).arrAt_eq_of_cover 6 _ (fun t _ => flushed0_6_eq V c t) fun i => by
    have hi0 : (i 0).val < 100000 := (i 0).isLt
    have hi1 : (i 1).val < 128 := (i 1).isLt
    have hN : cfg0.N = 20 := N_0
    let t : Fin cfg0.N := ⟨(i 0).val / 5000, by rw [hN]; omega⟩
    obtain ⟨-, -, -, -, -, -, -, -, -, -, ⟨e0, e1⟩, -⟩ := idx_facts0 t
    have e0' : win0_6.index t (0 : Fin 2) = (i 0).val / 5000 := e0
    refine ⟨t, flush0_6 t, ?_⟩
    rw [mem_blk0_6]
    intro a
    match a with
    | ⟨0, _⟩ =>
      show win0_6.index t (0 : Fin 2) * 5000 ≤ (i 0).val ∧ (i 0).val < win0_6.index t (0 : Fin 2) * 5000 + 5000
      omega
    | ⟨1, _⟩ =>
      show win0_6.index t (1 : Fin 2) * 128 ≤ (i 1).val ∧ (i 1).val < win0_6.index t (1 : Fin 2) * 128 + 128
      omega

/-! ## The two accumulators, point by point -/

/-- At a point that resets the accumulators the sum's buffer ends, at column q, at the block's column sum. -/
theorem acc0_7_A (c : Dev nD) (t : Fin cfg0.N) (h0 : t.val % 20 = 0) (q : Fin 128) :
    (outsAt0 V c t.val t.isLt).2.1 (ix2 (0 : Fin 1) q)
      = 0 + ∑ p : Fin 5000, (Cert.Spec.mlpArr (V c main_arg0) (V c main_v13) (V c main_arg3) (V c main_v14) (V c main_arg5) (V c main_v15)) (ix2 (⟨t.val * 5000 + p.val, hrow0 t p⟩ : Fin 100000) q) := by
  rw [outsAt0_A V c t h0]
  dsimp only
  refine (congrFun (out0_A_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)) (ix2 (0 : Fin 1) q)).trans ?_
  refine (sum0_pay_apply _ _ _ _ _ _ _ q).trans ?_
  refine congr (congrArg HAdd.hAdd (zero0_pay2_apply _)) (Finset.sum_congr rfl fun p _ => ?_)
  exact hblock0_apply V c t p q (hrow0 t p)

/-- At a point that carries them it ends at what the point before left plus the block's column sum. -/
theorem acc0_7_B (c : Dev nD) (t : Fin cfg0.N) (h0 : ¬t.val % 20 = 0) (q : Fin 128) :
    (outsAt0 V c t.val t.isLt).2.1 (ix2 (0 : Fin 1) q)
      = (outsAt0 V c (t.val - 1) (Nat.lt_of_le_of_lt (Nat.sub_le _ _) t.isLt)).2.1 (ix2 (0 : Fin 1) q)
        + ∑ p : Fin 5000, (Cert.Spec.mlpArr (V c main_arg0) (V c main_v13) (V c main_arg3) (V c main_v14) (V c main_arg5) (V c main_v15)) (ix2 (⟨t.val * 5000 + p.val, hrow0 t p⟩ : Fin 100000) q) := by
  rw [outsAt0_B V c t h0]
  dsimp only
  refine (congrFun (out0_B_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) q)).trans ?_
  refine (sum0_pay_apply _ _ _ _ _ _ _ q).trans ?_
  refine congrArg (_ + ·) (Finset.sum_congr rfl fun p _ => ?_)
  exact hblock0_apply V c t p q (hrow0 t p)

/-- At a point that resets the accumulators the sum of squares' buffer ends, at column q, at the block's column sum of squares. -/
theorem acc0_8_A (c : Dev nD) (t : Fin cfg0.N) (h0 : t.val % 20 = 0) (q : Fin 128) :
    (outsAt0 V c t.val t.isLt).2.2 (ix2 (0 : Fin 1) q)
      = 0 + ∑ p : Fin 5000, (Cert.Spec.mlpArr (V c main_arg0) (V c main_v13) (V c main_arg3) (V c main_v14) (V c main_arg5) (V c main_v15)) (ix2 (⟨t.val * 5000 + p.val, hrow0 t p⟩ : Fin 100000) q)
          * (Cert.Spec.mlpArr (V c main_arg0) (V c main_v13) (V c main_arg3) (V c main_v14) (V c main_arg5) (V c main_v15)) (ix2 (⟨t.val * 5000 + p.val, hrow0 t p⟩ : Fin 100000) q) := by
  rw [outsAt0_A V c t h0]
  dsimp only
  refine (congrFun (out0_A_8_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)) (ix2 (0 : Fin 1) q)).trans ?_
  refine (sumsq0_pay_apply _ _ q).trans ?_
  refine congr (congrArg HAdd.hAdd (zero0_pay3_apply _)) (Finset.sum_congr rfl fun p _ => ?_)
  rw [hblock0_apply V c t p q (hrow0 t p)]

/-- At a point that carries them it ends at what the point before left plus the block's column sum of squares. -/
theorem acc0_8_B (c : Dev nD) (t : Fin cfg0.N) (h0 : ¬t.val % 20 = 0) (q : Fin 128) :
    (outsAt0 V c t.val t.isLt).2.2 (ix2 (0 : Fin 1) q)
      = (outsAt0 V c (t.val - 1) (Nat.lt_of_le_of_lt (Nat.sub_le _ _) t.isLt)).2.2 (ix2 (0 : Fin 1) q)
        + ∑ p : Fin 5000, (Cert.Spec.mlpArr (V c main_arg0) (V c main_v13) (V c main_arg3) (V c main_v14) (V c main_arg5) (V c main_v15)) (ix2 (⟨t.val * 5000 + p.val, hrow0 t p⟩ : Fin 100000) q)
          * (Cert.Spec.mlpArr (V c main_arg0) (V c main_v13) (V c main_arg3) (V c main_v14) (V c main_arg5) (V c main_v15)) (ix2 (⟨t.val * 5000 + p.val, hrow0 t p⟩ : Fin 100000) q) := by
  rw [outsAt0_B V c t h0]
  dsimp only
  refine (congrFun (out0_B_8_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) q)).trans ?_
  refine (sumsq0_pay_apply _ _ q).trans ?_
  refine congrArg (_ + ·) (Finset.sum_congr rfl fun p _ => ?_)
  rw [hblock0_apply V c t p q (hrow0 t p)]

/-- A point below twenty is a point of the grid. -/
theorem hlt0 (t : Fin 20) : t.val < cfg0.N := lt_of_lt_of_eq t.isLt (show 20 = cfg0.N from N_0.symm)

/-- After the last point the sum's buffer holds, at column q, the sum down all 100000 rows. Stated at any point whose
    position is 19. -/
theorem total0_7 (c : Dev nD) (t : Fin cfg0.N) (h19 : t.val = 19) (q : Fin 128) :
    (outsAt0 V c t.val t.isLt).2.1 (ix2 (0 : Fin 1) q) = ∑ p : Fin 100000, (Cert.Spec.mlpArr (V c main_arg0) (V c main_v13) (V c main_arg3) (V c main_v14) (V c main_arg5) (V c main_v15)) (ix2 p q) := by
  have key := Cert.Lib.BatchNorm.running_total_blocks_fin 20 5000 (by norm_num)
    (fun s : Fin 20 => (outsAt0 V c s.val (hlt0 s)).2.1 (ix2 (0 : Fin 1) q))
    (fun i : Fin (20 * 5000) => (Cert.Spec.mlpArr (V c main_arg0) (V c main_v13) (V c main_arg3) (V c main_v14) (V c main_arg5) (V c main_v15)) (ix2 (⟨i.val, i.isLt⟩ : Fin 100000) q)) 0
    (acc0_7_A V c ⟨0, hlt0 0⟩ rfl q)
    (fun s h => acc0_7_B V c ⟨s + 1, hlt0 ⟨s + 1, h⟩⟩ (by show ¬(s + 1) % 20 = 0; omega) q)
  have transport : ∀ s : Fin 20, s.val = t.val →
      (outsAt0 V c s.val (hlt0 s)).2.1 (ix2 (0 : Fin 1) q) = (outsAt0 V c t.val t.isLt).2.1 (ix2 (0 : Fin 1) q) := by
    intro s hs
    obtain ⟨n, hn⟩ := s
    obtain ⟨m, hm⟩ := t
    obtain rfl : n = m := hs
    rfl
  exact (transport ⟨20 - 1, Nat.sub_lt (by norm_num) Nat.one_pos⟩ (by show 20 - 1 = t.val; omega)).symm.trans (key.trans (zero_add _))

/-- After the last point the sum of squares' buffer holds, at column q, the sum of squares down all 100000 rows. Stated at any point whose
    position is 19. -/
theorem total0_8 (c : Dev nD) (t : Fin cfg0.N) (h19 : t.val = 19) (q : Fin 128) :
    (outsAt0 V c t.val t.isLt).2.2 (ix2 (0 : Fin 1) q) = ∑ p : Fin 100000, (Cert.Spec.mlpArr (V c main_arg0) (V c main_v13) (V c main_arg3) (V c main_v14) (V c main_arg5) (V c main_v15)) (ix2 p q) * (Cert.Spec.mlpArr (V c main_arg0) (V c main_v13) (V c main_arg3) (V c main_v14) (V c main_arg5) (V c main_v15)) (ix2 p q) := by
  have key := Cert.Lib.BatchNorm.running_total_blocks_fin 20 5000 (by norm_num)
    (fun s : Fin 20 => (outsAt0 V c s.val (hlt0 s)).2.2 (ix2 (0 : Fin 1) q))
    (fun i : Fin (20 * 5000) => (Cert.Spec.mlpArr (V c main_arg0) (V c main_v13) (V c main_arg3) (V c main_v14) (V c main_arg5) (V c main_v15)) (ix2 (⟨i.val, i.isLt⟩ : Fin 100000) q) * (Cert.Spec.mlpArr (V c main_arg0) (V c main_v13) (V c main_arg3) (V c main_v14) (V c main_arg5) (V c main_v15)) (ix2 (⟨i.val, i.isLt⟩ : Fin 100000) q)) 0
    (acc0_8_A V c ⟨0, hlt0 0⟩ rfl q)
    (fun s h => acc0_8_B V c ⟨s + 1, hlt0 ⟨s + 1, h⟩⟩ (by show ¬(s + 1) % 20 = 0; omega) q)
  have transport : ∀ s : Fin 20, s.val = t.val →
      (outsAt0 V c s.val (hlt0 s)).2.2 (ix2 (0 : Fin 1) q) = (outsAt0 V c t.val t.isLt).2.2 (ix2 (0 : Fin 1) q) := by
    intro s hs
    obtain ⟨n, hn⟩ := s
    obtain ⟨m, hm⟩ := t
    obtain rfl : n = m := hs
    rfl
  exact (transport ⟨20 - 1, Nat.sub_lt (by norm_num) Nat.one_pos⟩ (by show 20 - 1 = t.val; omega)).symm.trans (key.trans (zero_add _))

/-! ## The two accumulators' arrays after the region -/

/-- After the last point the column sums' buffer holds the column sums of the specification's array. -/
theorem acc0_7_final (c : Dev nD) (t : Fin cfg0.N) (h19 : t.val = 19) :
    (outsAt0 V c t.val t.isLt).2.1 = Cert.Spec.colSum (Cert.Spec.mlpArr (V c main_arg0) (V c main_v13) (V c main_arg3) (V c main_v14) (V c main_arg5) (V c main_v15)) := by
  funext j
  obtain ⟨z, q, rfl⟩ : ∃ (z : Fin 1) (q : Fin 128), j = ix2 z q := ⟨j 0, j 1, eq_ix2 j⟩
  obtain rfl : z = 0 := Subsingleton.elim _ _
  unfold Cert.Spec.colSum
  refine (total0_7 V c t h19 q).trans (Finset.sum_congr rfl fun p _ => ?_)
  rfl

/-- An index of the column sums' array is in point t's block iff each coordinate is in the block's range on its axis. -/
theorem mem_blk0_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v16_1).slice (win0_7.rect t)).set ↔ _
  rw [View.set_slice_whole, Rect.mem_set_unit]
  exact Iff.rfl

/-- The one write-back of the column sums' buffer, at the last point, writes the column sums of the specification's array: the one
    block is the whole array. -/
theorem flushed0_7_eq (c : Dev nD) (t : Fin cfg0.N) (hf : (cfg0.win 7).flush t = true) :
    (dat0 (F := Ideal) V c).flushed 7 t = ((cfg0.win 7).blk t).view.read (Elt Ideal) (Cert.Spec.colSum (Cert.Spec.mlpArr (V c main_arg0) (V c main_v13) (V c main_arg3) (V c main_v14) (V c main_arg5) (V c main_v15))) := by
  have hN : t.val < 20 := lt_of_lt_of_eq t.isLt (show cfg0.N = 20 from N_0)
  have h19 : t.val = 19 := by have := (flush0_7 t).mp hf; omega
  show (cfg0.win 7).cut (grid0.coords t) ((dat0 V c).after 7 t) = _
  rw [after0_7, acc0_7_final V c t h19]
  generalize Cert.Spec.colSum (Cert.Spec.mlpArr (V c main_arg0) (V c main_v13) (V c main_arg3) (V c main_v14) (V c main_arg5) (V c main_v15)) = F
  have e0 := (idx_facts0 t).2.2.2.2.2.2.2.2.2.2.2.1
  have e1 := (idx_facts0 t).2.2.2.2.2.2.2.2.2.2.2.2.1
  funext j
  obtain ⟨z, q, rfl⟩ : ∃ (z : Fin 1) (q : Fin 128), j = ix2 z q := ⟨j 0, j 1, eq_ix2 j⟩
  obtain rfl : z = 0 := Subsingleton.elim _ _
  have hemb : ((cfg0.win 7).blk t).view.emb (ix2 (0 : Fin 1) q) = ix2 (0 : Fin 1) q := by
    funext a; apply Fin.ext
    match a with
    | ⟨0, _⟩ => show win0_7.index t (0 : Fin 2) * 1 + 1 * 0 = 0; omega
    | ⟨1, _⟩ => show win0_7.index t (1 : Fin 2) * 128 + 1 * q.val = q.val; omega
  show F (ix2 (0 : Fin 1) q) = F (((cfg0.win 7).blk t).view.emb (ix2 (0 : Fin 1) q))
  rw [hemb]

/-- The column sums' array after the region: the column sums of the specification's array. Only the last
    point writes it back, and its one block is the whole array. -/
theorem final_mlp0_s (c : Dev nD) :
    (dat0 (F := Ideal) V c).arrAt 7 cfg0.N = Cert.Spec.colSum (Cert.Spec.mlpArr (V c main_arg0) (V c main_v13) (V c main_arg3) (V c main_v14) (V c main_arg5) (V c main_v15)) :=
  (dat0 (F := Ideal) V c).arrAt_eq_of_cover 7 _ (fun t hf => flushed0_7_eq V c t hf) fun i => by
    have hi0 : (i 0).val < 1 := (i 0).isLt
    have hi1 : (i 1).val < 128 := (i 1).isLt
    have e0 := (idx_facts0 ⟨19, hlt0 19⟩).2.2.2.2.2.2.2.2.2.2.2.1
    have e1 := (idx_facts0 ⟨19, hlt0 19⟩).2.2.2.2.2.2.2.2.2.2.2.2.1
    refine ⟨⟨19, hlt0 19⟩, (flush0_7 _).mpr rfl, ?_⟩
    rw [mem_blk0_7]
    intro a
    match a with
    | ⟨0, _⟩ =>
      show win0_7.index ⟨19, hlt0 19⟩ (0 : Fin 2) * 1 ≤ (i 0).val ∧ (i 0).val < win0_7.index ⟨19, hlt0 19⟩ (0 : Fin 2) * 1 + 1
      omega
    | ⟨1, _⟩ =>
      show win0_7.index ⟨19, hlt0 19⟩ (1 : Fin 2) * 128 ≤ (i 1).val ∧ (i 1).val < win0_7.index ⟨19, hlt0 19⟩ (1 : Fin 2) * 128 + 128
      omega

/-- After the last point the column sums of squares' buffer holds the column sums of squares of the specification's array. -/
theorem acc0_8_final (c : Dev nD) (t : Fin cfg0.N) (h19 : t.val = 19) :
    (outsAt0 V c t.val t.isLt).2.2 = Cert.Spec.colSumSq (Cert.Spec.mlpArr (V c main_arg0) (V c main_v13) (V c main_arg3) (V c main_v14) (V c main_arg5) (V c main_v15)) := by
  funext j
  obtain ⟨z, q, rfl⟩ : ∃ (z : Fin 1) (q : Fin 128), j = ix2 z q := ⟨j 0, j 1, eq_ix2 j⟩
  obtain rfl : z = 0 := Subsingleton.elim _ _
  unfold Cert.Spec.colSumSq
  refine (total0_8 V c t h19 q).trans (Finset.sum_congr rfl fun p _ => ?_)
  rfl

/-- An index of the column sums of squares' array is in point t's block iff each coordinate is in the block's range on its axis. -/
theorem mem_blk0_8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v16_2).slice (win0_8.rect t)).set ↔ _
  rw [View.set_slice_whole, Rect.mem_set_unit]
  exact Iff.rfl

/-- The one write-back of the column sums of squares' buffer, at the last point, writes the column sums of squares of the specification's array: the one
    block is the whole array. -/
theorem flushed0_8_eq (c : Dev nD) (t : Fin cfg0.N) (hf : (cfg0.win 8).flush t = true) :
    (dat0 (F := Ideal) V c).flushed 8 t = ((cfg0.win 8).blk t).view.read (Elt Ideal) (Cert.Spec.colSumSq (Cert.Spec.mlpArr (V c main_arg0) (V c main_v13) (V c main_arg3) (V c main_v14) (V c main_arg5) (V c main_v15))) := by
  have hN : t.val < 20 := lt_of_lt_of_eq t.isLt (show cfg0.N = 20 from N_0)
  have h19 : t.val = 19 := by have := (flush0_8 t).mp hf; omega
  show (cfg0.win 8).cut (grid0.coords t) ((dat0 V c).after 8 t) = _
  rw [after0_8, acc0_8_final V c t h19]
  generalize Cert.Spec.colSumSq (Cert.Spec.mlpArr (V c main_arg0) (V c main_v13) (V c main_arg3) (V c main_v14) (V c main_arg5) (V c main_v15)) = F
  have e0 := (idx_facts0 t).2.2.2.2.2.2.2.2.2.2.2.2.2.1
  have e1 := (idx_facts0 t).2.2.2.2.2.2.2.2.2.2.2.2.2.2
  funext j
  obtain ⟨z, q, rfl⟩ : ∃ (z : Fin 1) (q : Fin 128), j = ix2 z q := ⟨j 0, j 1, eq_ix2 j⟩
  obtain rfl : z = 0 := Subsingleton.elim _ _
  have hemb : ((cfg0.win 8).blk t).view.emb (ix2 (0 : Fin 1) q) = ix2 (0 : Fin 1) q := by
    funext a; apply Fin.ext
    match a with
    | ⟨0, _⟩ => show win0_8.index t (0 : Fin 2) * 1 + 1 * 0 = 0; omega
    | ⟨1, _⟩ => show win0_8.index t (1 : Fin 2) * 128 + 1 * q.val = q.val; omega
  show F (ix2 (0 : Fin 1) q) = F (((cfg0.win 8).blk t).view.emb (ix2 (0 : Fin 1) q))
  rw [hemb]

/-- The column sums of squares' array after the region: those of the specification's array. Only the last
    point writes it back, and its one block is the whole array. -/
theorem final_mlp0_ss (c : Dev nD) :
    (dat0 (F := Ideal) V c).arrAt 8 cfg0.N = Cert.Spec.colSumSq (Cert.Spec.mlpArr (V c main_arg0) (V c main_v13) (V c main_arg3) (V c main_v14) (V c main_arg5) (V c main_v15)) :=
  (dat0 (F := Ideal) V c).arrAt_eq_of_cover 8 _ (fun t hf => flushed0_8_eq V c t hf) fun i => by
    have hi0 : (i 0).val < 1 := (i 0).isLt
    have hi1 : (i 1).val < 128 := (i 1).isLt
    have e0 := (idx_facts0 ⟨19, hlt0 19⟩).2.2.2.2.2.2.2.2.2.2.2.2.2.1
    have e1 := (idx_facts0 ⟨19, hlt0 19⟩).2.2.2.2.2.2.2.2.2.2.2.2.2.2
    refine ⟨⟨19, hlt0 19⟩, (flush0_8 _).mpr rfl, ?_⟩
    rw [mem_blk0_8]
    intro a
    match a with
    | ⟨0, _⟩ =>
      show win0_8.index ⟨19, hlt0 19⟩ (0 : Fin 2) * 1 ≤ (i 0).val ∧ (i 0).val < win0_8.index ⟨19, hlt0 19⟩ (0 : Fin 2) * 1 + 1
      omega
    | ⟨1, _⟩ =>
      show win0_8.index ⟨19, hlt0 19⟩ (1 : Fin 2) * 128 ≤ (i 1).val ∧ (i 1).val < win0_8.index ⟨19, hlt0 19⟩ (1 : Fin 2) * 128 + 128
      omega

end Cert.KernelIdeal.Hand

end
-- ==== Proof.ValueMlp2.lean ====
/-
  The layer-1 perceptron region read as values: the three output arrays after the region are functions of the six
  arrays the region is entered from — the rows through two rectified dense layers of x + agg, and the column sums of
  that array and of its square.
-/
import proofs.«117300_j5643587027248_1_alg».proof.Proof.RegionMlp2
import proofs.«117300_j5643587027248_1_alg».proof.Proof.Spec
import proofs.«117300_j5643587027248_1_alg».proof.Proof.LibBlockSum
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.ShloMosaic.Pipeline (Dat)
open Cert.LibDenseRows
open scoped BigOperators

/-- The offsets of a whole-block access, however the zeros are spelt. -/
theorem hz2 : (![0, 0] : Fin 2 → Nat) = fun _ => 0 := funext fun a => by fin_cases a <;> rfl

/-! ## What each case leaves in the outputs' buffers, as payloads of the input blocks -/

section Pieces
variable {F : FTy → Type} [FloatOps F]

theorem out2_A_6_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) :
    out2_A_6 c i arg1 harg1 arg2 harg2 arg3 harg3 arg4 harg4 arg5 harg5 arg6 harg6 arg7 harg7 arg8 harg8 arg9 harg9 hc0 x0 x1 x2 x3 x4 x5 = k2_pay5 x0 x1 x2 x3 x4 x5 := by
  unfold out2_A_6
  rw [View.read_writes_eq_canon _ _ _ (cover2_A_6 c i arg1 harg1 arg2 harg2 arg3 harg3 arg4 harg4 arg5 harg5 arg6 harg6 arg7 harg7 arg8 harg8 arg9 harg9 hc0 x0 x1 x2 x3 x4 x5)]
  unfold kernelRun2_A
  dsimp only
  try sl_unfold_words
  rw [View.canon_unit_zero hz2]
  simp only [View.readAt_eq_ld, harg1.read_unread, harg2.read_unread, harg3.read_unread, harg4.read_unread, harg5.read_unread, harg6.read_unread, View.ld_unit_zero (S := S5000x128) hz2, View.ld_unit_zero (S := S128x128) hz2, View.ld_unit_zero (S := S1x128) hz2]

theorem out2_A_7_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) :
    out2_A_7 c i arg1 harg1 arg2 harg2 arg3 harg3 arg4 harg4 arg5 harg5 arg6 harg6 arg7 harg7 arg8 harg8 arg9 harg9 hc0 x0 x1 x2 x3 x4 x5 = k2_pay1 (k2_pay6 (k2_pay3 (F := F))) (k2_pay7 x0 x1 x2 x3 x4 x5) := by
  unfold out2_A_7
  rw [View.read_writes_eq_canon _ _ _ (cover2_A_7 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, View.ld_unit_zero (S := S5000x128) hz2, View.ld_unit_zero (S := S128x128) hz2, View.ld_unit_zero (S := S1x128) hz2]

theorem out2_A_8_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond2_0 i)
    (x0 : Vec F S5000x128 .f32) (x1 : Vec F S5000x128 .f32) (x2 : Vec F S128x128 .f32) (x3 : Vec F S1x128 .f32) (x4 : Vec F S128x128 .f32) (x5 : Vec F S1x128 .f32) :
    out2_A_8 c i arg1 harg1 arg2 harg2 arg3 harg3 arg4 harg4 arg5 harg5 arg6 harg6 arg7 harg7 arg8 harg8 arg9 harg9 hc0 x0 x1 x2 x3 x4 x5 = k2_pay2 (k2_pay5 x0 x1 x2 x3 x4 x5) (k2_pay4 (F := F)) := by
  unfold out2_A_8
  rw [View.read_writes_eq_canon _ _ _ (cover2_A_8 c i arg1 harg1 arg2 harg2 arg3 harg3 arg4 harg4 arg5 harg5 arg6 harg6 arg7 harg7 arg8 harg8 arg9 harg9 hc0 x0 x1 x2 x3 x4 x5)]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, View.ld_unit_zero (S := S5000x128) hz2, View.ld_unit_zero (S := S128x128) hz2, View.ld_unit_zero (S := S1x128) hz2]

theorem out2_B_6_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out2_B_6 c i arg1 harg1 arg2 harg2 arg3 harg3 arg4 harg4 arg5 harg5 arg6 harg6 arg7 harg7 arg8 harg8 arg9 harg9 hc0 x0 x1 x2 x3 x4 x5 xo7 xo8 = k2_pay5 x0 x1 x2 x3 x4 x5 := by
  unfold out2_B_6
  rw [View.read_writes_eq_canon _ _ _ (cover2_B_6 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  try sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S5000x128) hz2, View.ld_unit_zero (S := S128x128) hz2, View.ld_unit_zero (S := S1x128) hz2]

theorem out2_B_7_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out2_B_7 c i arg1 harg1 arg2 harg2 arg3 harg3 arg4 harg4 arg5 harg5 arg6 harg6 arg7 harg7 arg8 harg8 arg9 harg9 hc0 x0 x1 x2 x3 x4 x5 xo7 xo8 = k2_pay1 (k2_pay6 xo7) (k2_pay7 x0 x1 x2 x3 x4 x5) := by
  unfold out2_B_7
  rw [View.read_writes_eq_canon _ _ _ (cover2_B_7 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  try sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S5000x128) hz2, View.ld_unit_zero (S := S128x128) hz2, View.ld_unit_zero (S := S1x128) hz2]

theorem out2_B_8_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond2_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out2_B_8 c i arg1 harg1 arg2 harg2 arg3 harg3 arg4 harg4 arg5 harg5 arg6 harg6 arg7 harg7 arg8 harg8 arg9 harg9 hc0 x0 x1 x2 x3 x4 x5 xo7 xo8 = k2_pay2 (k2_pay5 x0 x1 x2 x3 x4 x5) xo8 := by
  unfold out2_B_8
  rw [View.read_writes_eq_canon _ _ _ (cover2_B_8 c i arg1 harg1 arg2 harg2 arg3 harg3 arg4 harg4 arg5 harg5 arg6 harg6 arg7 harg7 arg8 harg8 arg9 harg9 hc0 x0 x1 x2 x3 x4 x5 xo7 xo8)]
  unfold kernelRun2_B
  dsimp only
  try sl_unfold_words
  rw [View.canon_unit_zero hz2]
  simp only [View.readAt_eq_ld, harg1.read_unread, harg2.read_unread, harg3.read_unread, harg4.read_unread, harg5.read_unread, harg6.read_unread, harg8.read_unread, harg9.read_unread, View.ld_unit_zero (S := S5000x128) hz2, View.ld_unit_zero (S := S128x128) hz2, View.ld_unit_zero (S := S1x128) hz2]

end Pieces

-- the TensorCore's buffer contents when the region is entered, at the extended reals
variable (V : (c : Dev nD) → (b : Ref sig .tc) → Buf (Elt Ideal) ((c : Thread nD τ).loc b))

/-! ## The body's payloads at an entry -/

/-- The rows' payload at entry (p, q): row p of x + agg through the two rectified dense layers, at q. The narrowings
    to bf16 are the identity on the extended reals. -/
theorem mlp2_pay_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k2_pay5 (F := Ideal) x0 x1 x2 x3 x4 x5 (ix2 p q)
      = mlp2Row (fun c => x0 (ix2 p c) + x1 (ix2 p c)) x2 x3 x4 x5 q := by
  unfold k2_pay5
  simp only [shapeCast_self]
  refine (kernel_relu_apply _ _).trans (congrArg relu ?_)
  refine (kernel_dense_apply (m := 5000) (k := 128) (n := 128) _ _ _ _ p q).trans ?_
  show denseRow _ x4 x5 q = denseRow _ x4 x5 q
  refine congrArg (fun r => denseRow r x4 x5 q) (funext fun c => ?_)
  refine (truncf_apply (ψ := .bf16) _ bitsLt_bf16_f32 (ix2 p c)).trans ?_
  refine (kernel_relu_apply _ _).trans (congrArg relu ?_)
  refine (kernel_dense_apply (m := 5000) (k := 128) (n := 128) _ _ _ _ p c).trans ?_
  show denseRow _ x2 x3 c = denseRow _ x2 x3 c
  refine congrArg (fun r => denseRow r x2 x3 c) (funext fun d => ?_)
  exact truncf_apply (ψ := .bf16) _ bitsLt_bf16_f32 (ix2 p d)

/-- A lane sum of a block of rows, as a one-row array, at column q: the sum down the rows. -/
theorem laneSum2_apply (v : FVec Ideal S5000x128 .f32) (q : Fin 128) :
    shapeCast S1x128 (multiReduction .add [0] S128 v 0x00000000#32 reduces_S5000x128_S128 (.inl rfl) rfl) shapeCasts_S128_S1x128
        (ix2 (0 : Fin 1) q)
      = ∑ p : Fin 5000, v (ix2 p q) := by
  refine (shapeCast_apply _ shapeCasts_S128_S1x128 (ix2 (0 : Fin 1) q) (ix1 q) (by
    rw [Shape.rowMajor_val_two, Shape.rowMajor_val_one]; show q.val = 0 * 128 + q.val; omega)).trans ?_
  refine (Ideal.multiReduction_add_single v 0x00000000#32 reduces_S5000x128_S128 (.inl rfl) rfl (ix1 q)).trans ?_
  refine Finset.sum_congr rfl fun k _ => congrArg v (funext fun a => Fin.ext ?_)
  match a with
  | ⟨0, _⟩ => rfl
  | ⟨1, _⟩ => rfl

/-- The sum accumulator's payload at column q: the running contents plus the block's column sum. -/
theorem sum2_pay_apply (x0 x1 : Vec Ideal S5000x128 .f32) (x2 : Vec Ideal S128x128 .f32) (x3 : Vec Ideal S1x128 .f32)
    (x4 : Vec Ideal S128x128 .f32) (x5 : Vec Ideal S1x128 .f32) (xo : Vec Ideal S1x128 .f32) (q : Fin 128) :
    k2_pay1 (F := Ideal) (k2_pay6 xo) (k2_pay7 x0 x1 x2 x3 x4 x5) (ix2 (0 : Fin 1) q)
      = xo (ix2 (0 : Fin 1) q) + ∑ p : Fin 5000, k2_pay5 (F := Ideal) x0 x1 x2 x3 x4 x5 (ix2 p q) := by
  unfold k2_pay1 k2_pay6 k2_pay7
  simp only [shapeCast_self]
  refine (addf_apply _ _ _).trans ?_
  exact congrArg (xo (ix2 (0 : Fin 1) q) + ·) (laneSum2_apply _ q)

/-- The sum-of-squares accumulator's payload at column q: the running contents plus the block's column sum of squares. -/
theorem sumsq2_pay_apply (h : FVec Ideal S5000x128 .f32) (xo : Vec Ideal S1x128 .f32) (q : Fin 128) :
    k2_pay2 (F := Ideal) h xo (ix2 (0 : Fin 1) q)
      = xo (ix2 (0 : Fin 1) q) + ∑ p : Fin 5000, h (ix2 p q) * h (ix2 p q) := by
  unfold k2_pay2
  simp only [shapeCast_self]
  refine (addf_apply _ _ _).trans ?_
  exact congrArg (xo (ix2 (0 : Fin 1) q) + ·) (laneSum2_apply _ q)

/-- The reset values are zero. -/
theorem zero2_7_apply (j : S1x128.Idx) : k2_pay3 (F := Ideal) j = 0 := Ideal.ofBits_zero_f32
theorem zero2_8_apply (j : S1x128.Idx) : k2_pay4 (F := Ideal) j = 0 := Ideal.ofBits_zero_f32

/-! ## The windows' blocks -/

/-- The printed index maps, decided over the grid: the rows' windows (x, agg, h) are at block t on the rows and 0 on
    the columns; every parameter window and both accumulators are at block 0 on both axes. -/
theorem idx_facts2 : ∀ t : Fin cfg2.N, (win2_0.index t (0 : Fin 2) = t.val ∧ win2_0.index t (1 : Fin 2) = 0)
    ∧ (win2_1.index t (0 : Fin 2) = t.val ∧ win2_1.index t (1 : Fin 2) = 0)
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ (win2_6.index t (0 : Fin 2) = t.val ∧ win2_6.index t (1 : Fin 2) = 0)
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- The first weight matrix's block is the array, at every point. -/
theorem iblk2_2_eq (c : Dev nD) (t : Fin cfg2.N) : (iblk2 V c 2 t : Vec Ideal S128x128 .f32) = V c main_v31 := by
  have e0 := (idx_facts2 t).2.2.1
  have e1 := (idx_facts2 t).2.2.2.1
  funext y
  show V c main_v31 (((cfg2.win 2).blk t).view.emb y) = V c main_v31 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The first bias row's block is the array, at every point. -/
theorem iblk2_3_eq (c : Dev nD) (t : Fin cfg2.N) : (iblk2 V c 3 t : Vec Ideal S1x128 .f32) = V c main_v52 := by
  have e0 := (idx_facts2 t).2.2.2.2.1
  have e1 := (idx_facts2 t).2.2.2.2.2.1
  funext y
  show V c main_v52 (((cfg2.win 3).blk t).view.emb y) = V c main_v52 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The second weight matrix's block is the array, at every point. -/
theorem iblk2_4_eq (c : Dev nD) (t : Fin cfg2.N) : (iblk2 V c 4 t : Vec Ideal S128x128 .f32) = V c main_v35 := by
  have e0 := (idx_facts2 t).2.2.2.2.2.2.1
  have e1 := (idx_facts2 t).2.2.2.2.2.2.2.1
  funext y
  show V c main_v35 (((cfg2.win 4).blk t).view.emb y) = V c main_v35 y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- The second bias row's block is the array, at every point. -/
theorem iblk2_5_eq (c : Dev nD) (t : Fin cfg2.N) : (iblk2 V c 5 t : Vec Ideal S1x128 .f32) = V c main_v53 := by
  have e0 := (idx_facts2 t).2.2.2.2.2.2.2.2.1
  have e1 := (idx_facts2 t).2.2.2.2.2.2.2.2.2.1
  funext y
  show V c main_v53 (((cfg2.win 5).blk t).view.emb y) = V c main_v53 y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- Row p of the x rows' block at point t is row 5000·t + p of the array. -/
theorem iblk2_0_apply (c : Dev nD) (t : Fin cfg2.N) (p : Fin 5000) (q : Fin 128) (hr : t.val * 5000 + p.val < 100000) :
    (iblk2 V c 0 t : Vec Ideal S5000x128 .f32) (ix2 p q) = V c main_v29 (ix2 (⟨t.val * 5000 + p.val, hr⟩ : Fin 100000) q) := by
  obtain ⟨⟨e0, e1⟩, -⟩ := idx_facts2 t
  show V c main_v29 (((cfg2.win 0).blk t).view.emb (ix2 p q)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * q.val = q.val; omega

/-- Row p of the agg rows' block at point t is row 5000·t + p of the array. -/
theorem iblk2_1_apply (c : Dev nD) (t : Fin cfg2.N) (p : Fin 5000) (q : Fin 128) (hr : t.val * 5000 + p.val < 100000) :
    (iblk2 V c 1 t : Vec Ideal S5000x128 .f32) (ix2 p q) = V c main_v51 (ix2 (⟨t.val * 5000 + p.val, hr⟩ : Fin 100000) q) := by
  obtain ⟨-, ⟨e0, e1⟩, -⟩ := idx_facts2 t
  show V c main_v51 (((cfg2.win 1).blk t).view.emb (ix2 p q)) = _
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * q.val = q.val; omega

/-- The rows' payload of point t's blocks, at entry (p, q): the specification's array at row 5000·t + p. -/
theorem hblock2_apply (c : Dev nD) (t : Fin cfg2.N) (p : Fin 5000) (q : Fin 128) (hr : t.val * 5000 + p.val < 100000) :
    k2_pay5 (F := Ideal) (iblk2 V c 0 t) (iblk2 V c 1 t) (iblk2 V c 2 t) (iblk2 V c 3 t) (iblk2 V c 4 t) (iblk2 V c 5 t) (ix2 p q)
      = (Cert.Spec.mlpArr (V c main_v29) (V c main_v51) (V c main_v31) (V c main_v52) (V c main_v35) (V c main_v53)) (ix2 (⟨t.val * 5000 + p.val, hr⟩ : Fin 100000) q) := by
  refine (mlp2_pay_apply _ _ _ _ _ _ p q).trans ?_
  rw [iblk2_2_eq, iblk2_3_eq, iblk2_4_eq, iblk2_5_eq]
  refine congrArg (fun r => mlp2Row r (V c main_v31) (V c main_v52) (V c main_v35) (V c main_v53) q) (funext fun d => ?_)
  rw [iblk2_0_apply V c t p d hr, iblk2_1_apply V c t p d hr]

/-! ## The rows' output: what a point writes back, and the array after the region -/

/-- Row p of a point's block is below the array's 100000 rows. -/
theorem hrow2 (t : Fin cfg2.N) (p : Fin 5000) : t.val * 5000 + p.val < 100000 := by
  have hN : t.val < 20 := lt_of_lt_of_eq t.isLt (show cfg2.N = 20 from N_2)
  have := p.isLt
  omega

/-- What the rows' output buffer holds after point t, at entry (p, q): the specification's array at row 5000·t + p. -/
theorem out2_6_apply (c : Dev nD) (t : Fin cfg2.N) (p : Fin 5000) (q : Fin 128) :
    (outsAt2 V c t.val t.isLt).1 (ix2 p q) = (Cert.Spec.mlpArr (V c main_v29) (V c main_v51) (V c main_v31) (V c main_v52) (V c main_v35) (V c main_v53)) (ix2 (⟨t.val * 5000 + p.val, hrow2 t p⟩ : Fin 100000) q) := by
  by_cases h0 : t.val % 20 = 0
  · rw [outsAt2_A V c t h0]
    dsimp only
    refine (congrFun (out2_A_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)) (ix2 p q)).trans ?_
    exact hblock2_apply V c t p q (hrow2 t p)
  · rw [outsAt2_B V c t h0]
    dsimp only
    refine (congrFun (out2_B_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2) (ix2 p q)).trans ?_
    exact hblock2_apply V c t p q (hrow2 t p)

/-- What point t writes back of the rows' output is block t of the specification's array. -/
theorem flushed2_6_eq (c : Dev nD) (t : Fin cfg2.N) :
    (dat2 (F := Ideal) V c).flushed 6 t = ((cfg2.win 6).blk t).view.read (Elt Ideal) (Cert.Spec.mlpArr (V c main_v29) (V c main_v51) (V c main_v31) (V c main_v52) (V c main_v35) (V c main_v53)) := by
  show (cfg2.win 6).cut (grid2.coords t) ((dat2 V c).after 6 t) = _
  rw [after2_6]
  obtain ⟨-, -, -, -, -, -, -, -, -, -, ⟨e0, e1⟩, -⟩ := idx_facts2 t
  funext j
  obtain ⟨p, q, rfl⟩ : ∃ (p : Fin 5000) (q : Fin 128), j = ix2 p q := ⟨j 0, j 1, eq_ix2 j⟩
  have hemb : ((cfg2.win 6).blk t).view.emb (ix2 p q) = (ix2 (⟨t.val * 5000 + p.val, hrow2 t p⟩ : Fin 100000) q) := by
    funext a; apply Fin.ext
    match a with
    | ⟨0, _⟩ => show win2_6.index t (0 : Fin 2) * 5000 + 1 * p.val = t.val * 5000 + p.val; omega
    | ⟨1, _⟩ => show win2_6.index t (1 : Fin 2) * 128 + 1 * q.val = q.val; omega
  show (outsAt2 V c t.val t.isLt).1 (ix2 p q) = (Cert.Spec.mlpArr (V c main_v29) (V c main_v51) (V c main_v31) (V c main_v52) (V c main_v35) (V c main_v53)) (((cfg2.win 6).blk t).view.emb (ix2 p q))
  rw [hemb]
  exact out2_6_apply V c t p q

/-- An index of the rows' output array is in point t's block iff each coordinate is in the block's range on its axis. -/
theorem mem_blk2_6 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v54_0).slice (win2_6.rect t)).set ↔ _
  rw [View.set_slice_whole, Rect.mem_set_unit]
  exact Iff.rfl

/-- The rows' output array after the region: the rows through the two rectified dense layers of x + agg. The point
    covering row r is r / 5000. -/
theorem final_mlp2_h (c : Dev nD) :
    (dat2 (F := Ideal) V c).arrAt 6 cfg2.N = (Cert.Spec.mlpArr (V c main_v29) (V c main_v51) (V c main_v31) (V c main_v52) (V c main_v35) (V c main_v53)) :=
  (dat2 (F := Ideal) V c).arrAt_eq_of_cover 6 _ (fun t _ => flushed2_6_eq V c t) fun i => by
    have hi0 : (i 0).val < 100000 := (i 0).isLt
    have hi1 : (i 1).val < 128 := (i 1).isLt
    have hN : cfg2.N = 20 := N_2
    let t : Fin cfg2.N := ⟨(i 0).val / 5000, by rw [hN]; omega⟩
    obtain ⟨-, -, -, -, -, -, -, -, -, -, ⟨e0, e1⟩, -⟩ := idx_facts2 t
    have e0' : win2_6.index t (0 : Fin 2) = (i 0).val / 5000 := e0
    refine ⟨t, flush2_6 t, ?_⟩
    rw [mem_blk2_6]
    intro a
    match a with
    | ⟨0, _⟩ =>
      show win2_6.index t (0 : Fin 2) * 5000 ≤ (i 0).val ∧ (i 0).val < win2_6.index t (0 : Fin 2) * 5000 + 5000
      omega
    | ⟨1, _⟩ =>
      show win2_6.index t (1 : Fin 2) * 128 ≤ (i 1).val ∧ (i 1).val < win2_6.index t (1 : Fin 2) * 128 + 128
      omega

/-! ## The two accumulators, point by point -/

/-- At a point that resets the accumulators the sum's buffer ends, at column q, at the block's column sum. -/
theorem acc2_7_A (c : Dev nD) (t : Fin cfg2.N) (h0 : t.val % 20 = 0) (q : Fin 128) :
    (outsAt2 V c t.val t.isLt).2.1 (ix2 (0 : Fin 1) q)
      = 0 + ∑ p : Fin 5000, (Cert.Spec.mlpArr (V c main_v29) (V c main_v51) (V c main_v31) (V c main_v52) (V c main_v35) (V c main_v53)) (ix2 (⟨t.val * 5000 + p.val, hrow2 t p⟩ : Fin 100000) q) := by
  rw [outsAt2_A V c t h0]
  dsimp only
  refine (congrFun (out2_A_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)) (ix2 (0 : Fin 1) q)).trans ?_
  refine (sum2_pay_apply _ _ _ _ _ _ _ q).trans ?_
  refine congr (congrArg HAdd.hAdd (zero2_7_apply _)) (Finset.sum_congr rfl fun p _ => ?_)
  exact hblock2_apply V c t p q (hrow2 t p)

/-- At a point that carries them it ends at what the point before left plus the block's column sum. -/
theorem acc2_7_B (c : Dev nD) (t : Fin cfg2.N) (h0 : ¬t.val % 20 = 0) (q : Fin 128) :
    (outsAt2 V c t.val t.isLt).2.1 (ix2 (0 : Fin 1) q)
      = (outsAt2 V c (t.val - 1) (Nat.lt_of_le_of_lt (Nat.sub_le _ _) t.isLt)).2.1 (ix2 (0 : Fin 1) q)
        + ∑ p : Fin 5000, (Cert.Spec.mlpArr (V c main_v29) (V c main_v51) (V c main_v31) (V c main_v52) (V c main_v35) (V c main_v53)) (ix2 (⟨t.val * 5000 + p.val, hrow2 t p⟩ : Fin 100000) q) := by
  rw [outsAt2_B V c t h0]
  dsimp only
  refine (congrFun (out2_B_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2) (ix2 (0 : Fin 1) q)).trans ?_
  refine (sum2_pay_apply _ _ _ _ _ _ _ q).trans ?_
  refine congrArg (_ + ·) (Finset.sum_congr rfl fun p _ => ?_)
  exact hblock2_apply V c t p q (hrow2 t p)

/-- At a point that resets the accumulators the sum of squares' buffer ends, at column q, at the block's column sum of squares. -/
theorem acc2_8_A (c : Dev nD) (t : Fin cfg2.N) (h0 : t.val % 20 = 0) (q : Fin 128) :
    (outsAt2 V c t.val t.isLt).2.2 (ix2 (0 : Fin 1) q)
      = 0 + ∑ p : Fin 5000, (Cert.Spec.mlpArr (V c main_v29) (V c main_v51) (V c main_v31) (V c main_v52) (V c main_v35) (V c main_v53)) (ix2 (⟨t.val * 5000 + p.val, hrow2 t p⟩ : Fin 100000) q)
          * (Cert.Spec.mlpArr (V c main_v29) (V c main_v51) (V c main_v31) (V c main_v52) (V c main_v35) (V c main_v53)) (ix2 (⟨t.val * 5000 + p.val, hrow2 t p⟩ : Fin 100000) q) := by
  rw [outsAt2_A V c t h0]
  dsimp only
  refine (congrFun (out2_A_8_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)) (ix2 (0 : Fin 1) q)).trans ?_
  refine (sumsq2_pay_apply _ _ q).trans ?_
  refine congr (congrArg HAdd.hAdd (zero2_8_apply _)) (Finset.sum_congr rfl fun p _ => ?_)
  rw [hblock2_apply V c t p q (hrow2 t p)]

/-- At a point that carries them it ends at what the point before left plus the block's column sum of squares. -/
theorem acc2_8_B (c : Dev nD) (t : Fin cfg2.N) (h0 : ¬t.val % 20 = 0) (q : Fin 128) :
    (outsAt2 V c t.val t.isLt).2.2 (ix2 (0 : Fin 1) q)
      = (outsAt2 V c (t.val - 1) (Nat.lt_of_le_of_lt (Nat.sub_le _ _) t.isLt)).2.2 (ix2 (0 : Fin 1) q)
        + ∑ p : Fin 5000, (Cert.Spec.mlpArr (V c main_v29) (V c main_v51) (V c main_v31) (V c main_v52) (V c main_v35) (V c main_v53)) (ix2 (⟨t.val * 5000 + p.val, hrow2 t p⟩ : Fin 100000) q)
          * (Cert.Spec.mlpArr (V c main_v29) (V c main_v51) (V c main_v31) (V c main_v52) (V c main_v35) (V c main_v53)) (ix2 (⟨t.val * 5000 + p.val, hrow2 t p⟩ : Fin 100000) q) := by
  rw [outsAt2_B V c t h0]
  dsimp only
  refine (congrFun (out2_B_8_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2) (ix2 (0 : Fin 1) q)).trans ?_
  refine (sumsq2_pay_apply _ _ q).trans ?_
  refine congrArg (_ + ·) (Finset.sum_congr rfl fun p _ => ?_)
  rw [hblock2_apply V c t p q (hrow2 t p)]

/-- A point below twenty is a point of the grid. -/
theorem hlt2 (t : Fin 20) : t.val < cfg2.N := lt_of_lt_of_eq t.isLt (show 20 = cfg2.N from N_2.symm)

/-- After the last point the sum's buffer holds, at column q, the sum down all 100000 rows. Stated at any point whose
    position is 19. -/
theorem total2_7 (c : Dev nD) (t : Fin cfg2.N) (h19 : t.val = 19) (q : Fin 128) :
    (outsAt2 V c t.val t.isLt).2.1 (ix2 (0 : Fin 1) q) = ∑ p : Fin 100000, (Cert.Spec.mlpArr (V c main_v29) (V c main_v51) (V c main_v31) (V c main_v52) (V c main_v35) (V c main_v53)) (ix2 p q) := by
  have key := Cert.Lib.BatchNorm.running_total_blocks_fin 20 5000 (by norm_num)
    (fun s : Fin 20 => (outsAt2 V c s.val (hlt2 s)).2.1 (ix2 (0 : Fin 1) q))
    (fun i : Fin (20 * 5000) => (Cert.Spec.mlpArr (V c main_v29) (V c main_v51) (V c main_v31) (V c main_v52) (V c main_v35) (V c main_v53)) (ix2 (⟨i.val, i.isLt⟩ : Fin 100000) q)) 0
    (acc2_7_A V c ⟨0, hlt2 0⟩ rfl q)
    (fun s h => acc2_7_B V c ⟨s + 1, hlt2 ⟨s + 1, h⟩⟩ (by show ¬(s + 1) % 20 = 0; omega) q)
  have transport : ∀ s : Fin 20, s.val = t.val →
      (outsAt2 V c s.val (hlt2 s)).2.1 (ix2 (0 : Fin 1) q) = (outsAt2 V c t.val t.isLt).2.1 (ix2 (0 : Fin 1) q) := by
    intro s hs
    obtain ⟨n, hn⟩ := s
    obtain ⟨m, hm⟩ := t
    obtain rfl : n = m := hs
    rfl
  exact (transport ⟨20 - 1, Nat.sub_lt (by norm_num) Nat.one_pos⟩ (by show 20 - 1 = t.val; omega)).symm.trans (key.trans (zero_add _))

/-- After the last point the sum of squares' buffer holds, at column q, the sum of squares down all 100000 rows. Stated at any point whose
    position is 19. -/
theorem total2_8 (c : Dev nD) (t : Fin cfg2.N) (h19 : t.val = 19) (q : Fin 128) :
    (outsAt2 V c t.val t.isLt).2.2 (ix2 (0 : Fin 1) q) = ∑ p : Fin 100000, (Cert.Spec.mlpArr (V c main_v29) (V c main_v51) (V c main_v31) (V c main_v52) (V c main_v35) (V c main_v53)) (ix2 p q) * (Cert.Spec.mlpArr (V c main_v29) (V c main_v51) (V c main_v31) (V c main_v52) (V c main_v35) (V c main_v53)) (ix2 p q) := by
  have key := Cert.Lib.BatchNorm.running_total_blocks_fin 20 5000 (by norm_num)
    (fun s : Fin 20 => (outsAt2 V c s.val (hlt2 s)).2.2 (ix2 (0 : Fin 1) q))
    (fun i : Fin (20 * 5000) => (Cert.Spec.mlpArr (V c main_v29) (V c main_v51) (V c main_v31) (V c main_v52) (V c main_v35) (V c main_v53)) (ix2 (⟨i.val, i.isLt⟩ : Fin 100000) q) * (Cert.Spec.mlpArr (V c main_v29) (V c main_v51) (V c main_v31) (V c main_v52) (V c main_v35) (V c main_v53)) (ix2 (⟨i.val, i.isLt⟩ : Fin 100000) q)) 0
    (acc2_8_A V c ⟨0, hlt2 0⟩ rfl q)
    (fun s h => acc2_8_B V c ⟨s + 1, hlt2 ⟨s + 1, h⟩⟩ (by show ¬(s + 1) % 20 = 0; omega) q)
  have transport : ∀ s : Fin 20, s.val = t.val →
      (outsAt2 V c s.val (hlt2 s)).2.2 (ix2 (0 : Fin 1) q) = (outsAt2 V c t.val t.isLt).2.2 (ix2 (0 : Fin 1) q) := by
    intro s hs
    obtain ⟨n, hn⟩ := s
    obtain ⟨m, hm⟩ := t
    obtain rfl : n = m := hs
    rfl
  exact (transport ⟨20 - 1, Nat.sub_lt (by norm_num) Nat.one_pos⟩ (by show 20 - 1 = t.val; omega)).symm.trans (key.trans (zero_add _))

/-! ## The two accumulators' arrays after the region -/

/-- After the last point the column sums' buffer holds the column sums of the specification's array. -/
theorem acc2_7_final (c : Dev nD) (t : Fin cfg2.N) (h19 : t.val = 19) :
    (outsAt2 V c t.val t.isLt).2.1 = Cert.Spec.colSum (Cert.Spec.mlpArr (V c main_v29) (V c main_v51) (V c main_v31) (V c main_v52) (V c main_v35) (V c main_v53)) := by
  funext j
  obtain ⟨z, q, rfl⟩ : ∃ (z : Fin 1) (q : Fin 128), j = ix2 z q := ⟨j 0, j 1, eq_ix2 j⟩
  obtain rfl : z = 0 := Subsingleton.elim _ _
  unfold Cert.Spec.colSum
  refine (total2_7 V c t h19 q).trans (Finset.sum_congr rfl fun p _ => ?_)
  rfl

/-- An index of the column sums' array is in point t's block iff each coordinate is in the block's range on its axis. -/
theorem mem_blk2_7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v54_1).slice (win2_7.rect t)).set ↔ _
  rw [View.set_slice_whole, Rect.mem_set_unit]
  exact Iff.rfl

/-- The one write-back of the column sums' buffer, at the last point, writes the column sums of the specification's array: the one
    block is the whole array. -/
theorem flushed2_7_eq (c : Dev nD) (t : Fin cfg2.N) (hf : (cfg2.win 7).flush t = true) :
    (dat2 (F := Ideal) V c).flushed 7 t = ((cfg2.win 7).blk t).view.read (Elt Ideal) (Cert.Spec.colSum (Cert.Spec.mlpArr (V c main_v29) (V c main_v51) (V c main_v31) (V c main_v52) (V c main_v35) (V c main_v53))) := by
  have hN : t.val < 20 := lt_of_lt_of_eq t.isLt (show cfg2.N = 20 from N_2)
  have h19 : t.val = 19 := by have := (flush2_7 t).mp hf; omega
  show (cfg2.win 7).cut (grid2.coords t) ((dat2 V c).after 7 t) = _
  rw [after2_7, acc2_7_final V c t h19]
  generalize Cert.Spec.colSum (Cert.Spec.mlpArr (V c main_v29) (V c main_v51) (V c main_v31) (V c main_v52) (V c main_v35) (V c main_v53)) = F
  have e0 := (idx_facts2 t).2.2.2.2.2.2.2.2.2.2.2.1
  have e1 := (idx_facts2 t).2.2.2.2.2.2.2.2.2.2.2.2.1
  funext j
  obtain ⟨z, q, rfl⟩ : ∃ (z : Fin 1) (q : Fin 128), j = ix2 z q := ⟨j 0, j 1, eq_ix2 j⟩
  obtain rfl : z = 0 := Subsingleton.elim _ _
  have hemb : ((cfg2.win 7).blk t).view.emb (ix2 (0 : Fin 1) q) = ix2 (0 : Fin 1) q := by
    funext a; apply Fin.ext
    match a with
    | ⟨0, _⟩ => show win2_7.index t (0 : Fin 2) * 1 + 1 * 0 = 0; omega
    | ⟨1, _⟩ => show win2_7.index t (1 : Fin 2) * 128 + 1 * q.val = q.val; omega
  show F (ix2 (0 : Fin 1) q) = F (((cfg2.win 7).blk t).view.emb (ix2 (0 : Fin 1) q))
  rw [hemb]

/-- The column sums' array after the region: the column sums of the specification's array. Only the last
    point writes it back, and its one block is the whole array. -/
theorem final_mlp2_s (c : Dev nD) :
    (dat2 (F := Ideal) V c).arrAt 7 cfg2.N = Cert.Spec.colSum (Cert.Spec.mlpArr (V c main_v29) (V c main_v51) (V c main_v31) (V c main_v52) (V c main_v35) (V c main_v53)) :=
  (dat2 (F := Ideal) V c).arrAt_eq_of_cover 7 _ (fun t hf => flushed2_7_eq V c t hf) fun i => by
    have hi0 : (i 0).val < 1 := (i 0).isLt
    have hi1 : (i 1).val < 128 := (i 1).isLt
    have e0 := (idx_facts2 ⟨19, hlt2 19⟩).2.2.2.2.2.2.2.2.2.2.2.1
    have e1 := (idx_facts2 ⟨19, hlt2 19⟩).2.2.2.2.2.2.2.2.2.2.2.2.1
    refine ⟨⟨19, hlt2 19⟩, (flush2_7 _).mpr rfl, ?_⟩
    rw [mem_blk2_7]
    intro a
    match a with
    | ⟨0, _⟩ =>
      show win2_7.index ⟨19, hlt2 19⟩ (0 : Fin 2) * 1 ≤ (i 0).val ∧ (i 0).val < win2_7.index ⟨19, hlt2 19⟩ (0 : Fin 2) * 1 + 1
      omega
    | ⟨1, _⟩ =>
      show win2_7.index ⟨19, hlt2 19⟩ (1 : Fin 2) * 128 ≤ (i 1).val ∧ (i 1).val < win2_7.index ⟨19, hlt2 19⟩ (1 : Fin 2) * 128 + 128
      omega

/-- After the last point the column sums of squares' buffer holds the column sums of squares of the specification's array. -/
theorem acc2_8_final (c : Dev nD) (t : Fin cfg2.N) (h19 : t.val = 19) :
    (outsAt2 V c t.val t.isLt).2.2 = Cert.Spec.colSumSq (Cert.Spec.mlpArr (V c main_v29) (V c main_v51) (V c main_v31) (V c main_v52) (V c main_v35) (V c main_v53)) := by
  funext j
  obtain ⟨z, q, rfl⟩ : ∃ (z : Fin 1) (q : Fin 128), j = ix2 z q := ⟨j 0, j 1, eq_ix2 j⟩
  obtain rfl : z = 0 := Subsingleton.elim _ _
  unfold Cert.Spec.colSumSq
  refine (total2_8 V c t h19 q).trans (Finset.sum_congr rfl fun p _ => ?_)
  rfl

/-- An index of the column sums of squares' array is in point t's block iff each coordinate is in the block's range on its axis. -/
theorem mem_blk2_8 (t : Fin cfg2.N) (i : S1x128.Idx) :
    i ∈ ((cfg2.win 8).blk t).view.set ↔ ∀ a : Fin 2, win2_8.index t a * S1x128.size a ≤ (i a).val ∧ (i a).val < win2_8.index t a * S1x128.size a + S1x128.size a := by
  show i ∈ ((View.whole main_v54_2).slice (win2_8.rect t)).set ↔ _
  rw [View.set_slice_whole, Rect.mem_set_unit]
  exact Iff.rfl

/-- The one write-back of the column sums of squares' buffer, at the last point, writes the column sums of squares of the specification's array: the one
    block is the whole array. -/
theorem flushed2_8_eq (c : Dev nD) (t : Fin cfg2.N) (hf : (cfg2.win 8).flush t = true) :
    (dat2 (F := Ideal) V c).flushed 8 t = ((cfg2.win 8).blk t).view.read (Elt Ideal) (Cert.Spec.colSumSq (Cert.Spec.mlpArr (V c main_v29) (V c main_v51) (V c main_v31) (V c main_v52) (V c main_v35) (V c main_v53))) := by
  have hN : t.val < 20 := lt_of_lt_of_eq t.isLt (show cfg2.N = 20 from N_2)
  have h19 : t.val = 19 := by have := (flush2_8 t).mp hf; omega
  show (cfg2.win 8).cut (grid2.coords t) ((dat2 V c).after 8 t) = _
  rw [after2_8, acc2_8_final V c t h19]
  generalize Cert.Spec.colSumSq (Cert.Spec.mlpArr (V c main_v29) (V c main_v51) (V c main_v31) (V c main_v52) (V c main_v35) (V c main_v53)) = F
  have e0 := (idx_facts2 t).2.2.2.2.2.2.2.2.2.2.2.2.2.1
  have e1 := (idx_facts2 t).2.2.2.2.2.2.2.2.2.2.2.2.2.2
  funext j
  obtain ⟨z, q, rfl⟩ : ∃ (z : Fin 1) (q : Fin 128), j = ix2 z q := ⟨j 0, j 1, eq_ix2 j⟩
  obtain rfl : z = 0 := Subsingleton.elim _ _
  have hemb : ((cfg2.win 8).blk t).view.emb (ix2 (0 : Fin 1) q) = ix2 (0 : Fin 1) q := by
    funext a; apply Fin.ext
    match a with
    | ⟨0, _⟩ => show win2_8.index t (0 : Fin 2) * 1 + 1 * 0 = 0; omega
    | ⟨1, _⟩ => show win2_8.index t (1 : Fin 2) * 128 + 1 * q.val = q.val; omega
  show F (ix2 (0 : Fin 1) q) = F (((cfg2.win 8).blk t).view.emb (ix2 (0 : Fin 1) q))
  rw [hemb]

/-- The column sums of squares' array after the region: those of the specification's array. Only the last
    point writes it back, and its one block is the whole array. -/
theorem final_mlp2_ss (c : Dev nD) :
    (dat2 (F := Ideal) V c).arrAt 8 cfg2.N = Cert.Spec.colSumSq (Cert.Spec.mlpArr (V c main_v29) (V c main_v51) (V c main_v31) (V c main_v52) (V c main_v35) (V c main_v53)) :=
  (dat2 (F := Ideal) V c).arrAt_eq_of_cover 8 _ (fun t hf => flushed2_8_eq V c t hf) fun i => by
    have hi0 : (i 0).val < 1 := (i 0).isLt
    have hi1 : (i 1).val < 128 := (i 1).isLt
    have e0 := (idx_facts2 ⟨19, hlt2 19⟩).2.2.2.2.2.2.2.2.2.2.2.2.2.1
    have e1 := (idx_facts2 ⟨19, hlt2 19⟩).2.2.2.2.2.2.2.2.2.2.2.2.2.2
    refine ⟨⟨19, hlt2 19⟩, (flush2_8 _).mpr rfl, ?_⟩
    rw [mem_blk2_8]
    intro a
    match a with
    | ⟨0, _⟩ =>
      show win2_8.index ⟨19, hlt2 19⟩ (0 : Fin 2) * 1 ≤ (i 0).val ∧ (i 0).val < win2_8.index ⟨19, hlt2 19⟩ (0 : Fin 2) * 1 + 1
      omega
    | ⟨1, _⟩ =>
      show win2_8.index ⟨19, hlt2 19⟩ (1 : Fin 2) * 128 ≤ (i 1).val ∧ (i 1).val < win2_8.index ⟨19, hlt2 19⟩ (1 : Fin 2) * 128 + 128
      omega

end Cert.KernelIdeal.Hand

end
-- ==== Proof.ValueMlp4.lean ====
/-
  The layer-2 perceptron region read as values: the three output arrays after the region are functions of the six
  arrays the region is entered from — the rows through two rectified dense layers of x + agg, and the column sums of
  that array and of its square.
-/
import proofs.«117300_j5643587027248_1_alg».proof.Proof.RegionMlp4
import proofs.«117300_j5643587027248_1_alg».proof.Proof.Spec
import proofs.«117300_j5643587027248_1_alg».proof.Proof.LibBlockSum
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.ShloMosaic.Pipeline (Dat)
open Cert.LibDenseRows
open scoped BigOperators

/-- The offsets of a whole-block access, however the zeros are spelt. -/
theorem hz4 : (![0, 0] : Fin 2 → Nat) = fun _ => 0 := funext fun a => by fin_cases a <;> rfl

/-! ## What each case leaves in the outputs' buffers, as payloads of the input blocks -/

section Pieces
variable {F : FTy → Type} [FloatOps F]

theorem out4_A_6_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) :
    out4_A_6 c i arg1 harg1 arg2 harg2 arg3 harg3 arg4 harg4 arg5 harg5 arg6 harg6 arg7 harg7 arg8 harg8 arg9 harg9 hc0 x0 x1 x2 x3 x4 x5 = k4_pay5 x0 x1 x2 x3 x4 x5 := by
  unfold out4_A_6
  rw [View.read_writes_eq_canon _ _ _ (cover4_A_6 c i arg1 harg1 arg2 harg2 arg3 harg3 arg4 harg4 arg5 harg5 arg6 harg6 arg7 harg7 arg8 harg8 arg9 harg9 hc0 x0 x1 x2 x3 x4 x5)]
  unfold kernelRun4_A
  dsimp only
  try sl_unfold_words
  rw [View.canon_unit_zero hz4]
  simp only [View.readAt_eq_ld, harg1.read_unread, harg2.read_unread, harg3.read_unread, harg4.read_unread, harg5.read_unread, harg6.read_unread, View.ld_unit_zero (S := S5000x128) hz4, View.ld_unit_zero (S := S128x128) hz4, View.ld_unit_zero (S := S1x128) hz4]

theorem out4_A_7_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) :
    out4_A_7 c i arg1 harg1 arg2 harg2 arg3 harg3 arg4 harg4 arg5 harg5 arg6 harg6 arg7 harg7 arg8 harg8 arg9 harg9 hc0 x0 x1 x2 x3 x4 x5 = k4_pay1 (k4_pay6 (k4_pay3 (F := F))) (k4_pay7 x0 x1 x2 x3 x4 x5) := by
  unfold out4_A_7
  rw [View.read_writes_eq_canon _ _ _ (cover4_A_7 c i arg1 harg1 arg2 harg2 arg3 harg3 arg4 harg4 arg5 harg5 arg6 harg6 arg7 harg7 arg8 harg8 arg9 harg9 hc0 x0 x1 x2 x3 x4 x5)]
  unfold kernelRun4_A
  dsimp only
  sl_unfold_words
  rw [View.canon_cons_unit_zero (S := S1x128) hz4, View.readCov_unit_zero (S := S1x128) _ hz4]
  simp only [View.readAt_eq_ld, harg1.read_unread, harg2.read_unread, harg3.read_unread, harg4.read_unread, harg5.read_unread, harg6.read_unread, View.ld_unit_zero (S := S5000x128) hz4, View.ld_unit_zero (S := S128x128) hz4, View.ld_unit_zero (S := S1x128) hz4]

theorem out4_A_8_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond4_0 i)
    (x0 : Vec F S5000x128 .f32) (x1 : Vec F S5000x128 .f32) (x2 : Vec F S128x128 .f32) (x3 : Vec F S1x128 .f32) (x4 : Vec F S128x128 .f32) (x5 : Vec F S1x128 .f32) :
    out4_A_8 c i arg1 harg1 arg2 harg2 arg3 harg3 arg4 harg4 arg5 harg5 arg6 harg6 arg7 harg7 arg8 harg8 arg9 harg9 hc0 x0 x1 x2 x3 x4 x5 = k4_pay2 (k4_pay5 x0 x1 x2 x3 x4 x5) (k4_pay4 (F := F)) := by
  unfold out4_A_8
  rw [View.read_writes_eq_canon _ _ _ (cover4_A_8 c i arg1 harg1 arg2 harg2 arg3 harg3 arg4 harg4 arg5 harg5 arg6 harg6 arg7 harg7 arg8 harg8 arg9 harg9 hc0 x0 x1 x2 x3 x4 x5)]
  unfold kernelRun4_A
  dsimp only
  sl_unfold_words
  rw [View.canon_cons_unit_zero (S := S1x128) hz4, View.readCov_unit_zero (S := S1x128) _ hz4]
  simp only [View.readAt_eq_ld, harg1.read_unread, harg2.read_unread, harg3.read_unread, harg4.read_unread, harg5.read_unread, harg6.read_unread, View.ld_unit_zero (S := S5000x128) hz4, View.ld_unit_zero (S := S128x128) hz4, View.ld_unit_zero (S := S1x128) hz4]

theorem out4_B_6_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out4_B_6 c i arg1 harg1 arg2 harg2 arg3 harg3 arg4 harg4 arg5 harg5 arg6 harg6 arg7 harg7 arg8 harg8 arg9 harg9 hc0 x0 x1 x2 x3 x4 x5 xo7 xo8 = k4_pay5 x0 x1 x2 x3 x4 x5 := by
  unfold out4_B_6
  rw [View.read_writes_eq_canon _ _ _ (cover4_B_6 c i arg1 harg1 arg2 harg2 arg3 harg3 arg4 harg4 arg5 harg5 arg6 harg6 arg7 harg7 arg8 harg8 arg9 harg9 hc0 x0 x1 x2 x3 x4 x5 xo7 xo8)]
  unfold kernelRun4_B
  dsimp only
  try sl_unfold_words
  rw [View.canon_unit_zero hz4]
  simp only [View.readAt_eq_ld, harg1.read_unread, harg2.read_unread, harg3.read_unread, harg4.read_unread, harg5.read_unread, harg6.read_unread, harg8.read_unread, harg9.read_unread, View.ld_unit_zero (S := S5000x128) hz4, View.ld_unit_zero (S := S128x128) hz4, View.ld_unit_zero (S := S1x128) hz4]

theorem out4_B_7_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out4_B_7 c i arg1 harg1 arg2 harg2 arg3 harg3 arg4 harg4 arg5 harg5 arg6 harg6 arg7 harg7 arg8 harg8 arg9 harg9 hc0 x0 x1 x2 x3 x4 x5 xo7 xo8 = k4_pay1 (k4_pay6 xo7) (k4_pay7 x0 x1 x2 x3 x4 x5) := by
  unfold out4_B_7
  rw [View.read_writes_eq_canon _ _ _ (cover4_B_7 c i arg1 harg1 arg2 harg2 arg3 harg3 arg4 harg4 arg5 harg5 arg6 harg6 arg7 harg7 arg8 harg8 arg9 harg9 hc0 x0 x1 x2 x3 x4 x5 xo7 xo8)]
  unfold kernelRun4_B
  dsimp only
  try sl_unfold_words
  rw [View.canon_unit_zero hz4]
  simp only [View.readAt_eq_ld, harg1.read_unread, harg2.read_unread, harg3.read_unread, harg4.read_unread, harg5.read_unread, harg6.read_unread, harg8.read_unread, harg9.read_unread, View.ld_unit_zero (S := S5000x128) hz4, View.ld_unit_zero (S := S128x128) hz4, View.ld_unit_zero (S := S1x128) hz4]

theorem out4_B_8_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond4_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out4_B_8 c i arg1 harg1 arg2 harg2 arg3 harg3 arg4 harg4 arg5 harg5 arg6 harg6 arg7 harg7 arg8 harg8 arg9 harg9 hc0 x0 x1 x2 x3 x4 x5 xo7 xo8 = k4_pay2 (k4_pay5 x0 x1 x2 x3 x4 x5) xo8 := by
  unfold out4_B_8
  rw [View.read_writes_eq_canon _ _ _ (cover4_B_8 c i arg1 harg1 arg2 harg2 arg3 harg3 arg4 harg4 arg5 harg5 arg6 harg6 arg7 harg7 arg8 harg8 arg9 harg9 hc0 x0 x1 x2 x3 x4 x5 xo7 xo8)]
  unfold kernelRun4_B
  dsimp only
  try sl_unfold_words
  rw [View.canon_unit_zero hz4]
  simp only [View.readAt_eq_ld, harg1.read_unread, harg2.read_unread, harg3.read_unread, harg4.read_unread, harg5.read_unread, harg6.read_unread, harg8.read_unread, harg9.read_unread, View.ld_unit_zero (S := S5000x128) hz4, View.ld_unit_zero (S := S128x128) hz4, View.ld_unit_zero (S := S1x128) hz4]

end Pieces

-- the TensorCore's buffer contents when the region is entered, at the extended reals
variable (V : (c : Dev nD) → (b : Ref sig .tc) → Buf (Elt Ideal) ((c : Thread nD τ).loc b))

/-! ## The body's payloads at an entry -/

/-- The rows' payload at entry (p, q): row p of x + agg through the two rectified dense layers, at q. The narrowings
    to bf16 are the identity on the extended reals. -/
theorem mlp4_pay_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k4_pay5 (F := Ideal) x0 x1 x2 x3 x4 x5 (ix2 p q)
      = mlp2Row (fun c => x0 (ix2 p c) + x1 (ix2 p c)) x2 x3 x4 x5 q := by
  unfold k4_pay5
  simp only [shapeCast_self]
  refine (kernel_relu_apply _ _).trans (congrArg relu ?_)
  refine (kernel_dense_apply (m := 5000) (k := 128) (n := 128) _ _ _ _ p q).trans ?_
  show denseRow _ x4 x5 q = denseRow _ x4 x5 q
  refine congrArg (fun r => denseRow r x4 x5 q) (funext fun c => ?_)
  refine (truncf_apply (ψ := .bf16) _ bitsLt_bf16_f32 (ix2 p c)).trans ?_
  refine (kernel_relu_apply _ _).trans (congrArg relu ?_)
  refine (kernel_dense_apply (m := 5000) (k := 128) (n := 128) _ _ _ _ p c).trans ?_
  show denseRow _ x2 x3 c = denseRow _ x2 x3 c
  refine congrArg (fun r => denseRow r x2 x3 c) (funext fun d => ?_)
  exact truncf_apply (ψ := .bf16) _ bitsLt_bf16_f32 (ix2 p d)

/-- A lane sum of a block of rows, as a one-row array, at column q: the sum down the rows. -/
theorem laneSum4_apply (v : FVec Ideal S5000x128 .f32) (q : Fin 128) :
    shapeCast S1x128 (multiReduction .add [0] S128 v 0x00000000#32 reduces_S5000x128_S128 (.inl rfl) rfl) shapeCasts_S128_S1x128
        (ix2 (0 : Fin 1) q)
      = ∑ p : Fin 5000, v (ix2 p q) := by
  refine (shapeCast_apply _ shapeCasts_S128_S1x128 (ix2 (0 : Fin 1) q) (ix1 q) (by
    rw [Shape.rowMajor_val_two, Shape.rowMajor_val_one]; show q.val = 0 * 128 + q.val; omega)).trans ?_
  refine (Ideal.multiReduction_add_single v 0x00000000#32 reduces_S5000x128_S128 (.inl rfl) rfl (ix1 q)).trans ?_
  refine Finset.sum_congr rfl fun k _ => congrArg v (funext fun a => Fin.ext ?_)
  match a with
  | ⟨0, _⟩ => rfl
  | ⟨1, _⟩ => rfl

/-- The sum accumulator's payload at column q: the running contents plus the block's column sum. -/
theorem sum4_pay_apply (x0 x1 : Vec Ideal S5000x128 .f32) (x2 : Vec Ideal S128x128 .f32) (x3 : Vec Ideal S1x128 .f32)
    (x4 : Vec Ideal S128x128 .f32) (x5 : Vec Ideal S1x128 .f32) (xo : Vec Ideal S1x128 .f32) (q : Fin 128) :
    k4_pay1 (F := Ideal) (k4_pay6 xo) (k4_pay7 x0 x1 x2 x3 x4 x5) (ix2 (0 : Fin 1) q)
      = xo (ix2 (0 : Fin 1) q) + ∑ p : Fin 5000, k4_pay5 (F := Ideal) x0 x1 x2 x3 x4 x5 (ix2 p q) := by
  unfold k4_pay1 k4_pay6 k4_pay7
  simp only [shapeCast_self]
  refine (addf_apply _ _ _).trans ?_
  exact congrArg (xo (ix2 (0 : Fin 1) q) + ·) (laneSum4_apply _ q)

/-- The sum-of-squares accumulator's payload at column q: the running contents plus the block's column sum of squares. -/
theorem sumsq4_pay_apply (h : FVec Ideal S5000x128 .f32) (xo : Vec Ideal S1x128 .f32) (q : Fin 128) :
    k4_pay2 (F := Ideal) h xo (ix2 (0 : Fin 1) q)
      = xo (ix2 (0 : Fin 1) q) + ∑ p : Fin 5000, h (ix2 p q) * h (ix2 p q) := by
  unfold k4_pay2
  simp only [shapeCast_self]
  refine (addf_apply _ _ _).trans ?_
  exact congrArg (xo (ix2 (0 : Fin 1) q) + ·) (laneSum4_apply _ q)

/-- The reset values are zero. -/
theorem zero4_7_apply (j : S1x128.Idx) : k4_pay3 (F := Ideal) j = 0 := Ideal.ofBits_zero_f32
theorem zero4_8_apply (j : S1x128.Idx) : k4_pay4 (F := Ideal) j = 0 := Ideal.ofBits_zero_f32

/-! ## The windows' blocks -/

/-- The printed index maps, decided over the grid: the rows' windows (x, agg, h) are at block t on the rows and 0 on
    the columns; every parameter window and both accumulators are at block 0 on both axes. -/
theorem idx_facts4 : ∀ t : Fin cfg4.N, (win4_0.index t (0 : Fin 2) = t.val ∧ win4_0.index t (1 : Fin 2) = 0)
    ∧ (win4_1.index t (0 : Fin 2) = t.val ∧ win4_1.index t (1 : Fin 2) = 0)
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ (win4_6.index t (0 : Fin 2) = t.val ∧ win4_6.index t (1 : Fin 2) = 0)
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- The first weight matrix's block is the array, at every point. -/
theorem iblk4_2_eq (c : Dev nD) (t : Fin cfg4.N) : (iblk4 V c 2 t : Vec Ideal S128x128 .f32) = V c main_v69 := by
  have e0 := (idx_facts4 t).2.2.1
  have e1 := (idx_facts4 t).2.2.2.1
  funext y
  show V c main_v69 (((cfg4.win 2).blk t).view.emb y) = V c main_v69 y
  refine congrArg _ (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- The first bias row's block is the array, at every point. -/
theorem iblk4_3_eq (c : Dev nD) (t : Fin cfg4.N) : (iblk4 V c 3 t : Vec Ideal S1x128 .f32) = V c main_v90 := by
  have e0 := (idx_facts4 t).2.2.2.2.1
  have e1 := (idx_facts4 t).2.2.2.2.2.1
  funext y
  show V c main_v90 (((cfg4.win 3).blk t).view.emb y) = V c main_v90 y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- The second weight matrix's block is the array, at every point. -/
theorem iblk4_4_eq (c : Dev nD) (t : Fin cfg4.N) : (iblk4 V c 4 t : Vec Ideal S128x128 .f32) = V c main_v73 := by
  have e0 := (idx_facts4 t).2.2.2.2.2.2.1
  have e1 := (idx_facts4 t).2.2.2.2.2.2.2.1
  funext y
  show V c main_v73 (((cfg4.win 4).blk t).view.emb y) = V c main_v73 y
  refine congrArg _ (funext fun a => Fin.ext ?_)
  match a with
  | ⟨0, _⟩ => show win4_4.index t (0 : Fin 2) * 128 + 1 * (y 0).val = (y 0).val; omega
  | ⟨1, _⟩ => show win4_4.index t (1 : Fin 2) * 128 + 1 * (y 1).val = (y 1).val; omega

/-- The second bias row's block is the array, at every point. -/
theorem iblk4_5_eq (c : Dev nD) (t : Fin cfg4.N) : (iblk4 V c 5 t : Vec Ideal S1x128 .f32) = V c main_v91 := by
  have e0 := (idx_facts4 t).2.2.2.2.2.2.2.2.1
  have e1 := (idx_facts4 t).2.2.2.2.2.2.2.2.2.1
  funext y
  show V c main_v91 (((cfg4.win 5).blk t).view.emb y) = V c main_v91 y
  refine congrArg _ (funext fun a => Fin.ext ?_)
  match a with
  | ⟨0, _⟩ => show win4_5.index t (0 : Fin 2) * 1 + 1 * (y 0).val = (y 0).val; omega
  | ⟨1, _⟩ => show win4_5.index t (1 : Fin 2) * 128 + 1 * (y 1).val = (y 1).val; omega

/-- Row p of the x rows' block at point t is row 5000·t + p of the array. -/
theorem iblk4_0_apply (c : Dev nD) (t : Fin cfg4.N) (p : Fin 5000) (q : Fin 128) (hr : t.val * 5000 + p.val < 100000) :
    (iblk4 V c 0 t : Vec Ideal S5000x128 .f32) (ix2 p q) = V c main_v67 (ix2 (⟨t.val * 5000 + p.val, hr⟩ : Fin 100000) q) := by
  obtain ⟨⟨e0, e1⟩, -⟩ := idx_facts4 t
  show V c main_v67 (((cfg4.win 0).blk t).view.emb (ix2 p q)) = _
  refine congrArg _ (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * q.val = q.val; omega

/-- Row p of the agg rows' block at point t is row 5000·t + p of the array. -/
theorem iblk4_1_apply (c : Dev nD) (t : Fin cfg4.N) (p : Fin 5000) (q : Fin 128) (hr : t.val * 5000 + p.val < 100000) :
    (iblk4 V c 1 t : Vec Ideal S5000x128 .f32) (ix2 p q) = V c main_v89 (ix2 (⟨t.val * 5000 + p.val, hr⟩ : Fin 100000) q) := by
  obtain ⟨-, ⟨e0, e1⟩, -⟩ := idx_facts4 t
  show V c main_v89 (((cfg4.win 1).blk t).view.emb (ix2 p q)) = _
  refine congrArg _ (funext fun a => Fin.ext ?_)
  match a with
  | ⟨0, _⟩ => show win4_1.index t (0 : Fin 2) * 5000 + 1 * p.val = t.val * 5000 + p.val; omega
  | ⟨1, _⟩ => show win4_1.index t (1 : Fin 2) * 128 + 1 * q.val = q.val; omega

/-- The rows' payload of point t's blocks, at entry (p, q): the specification's array at row 5000·t + p. -/
theorem hblock4_apply (c : Dev nD) (t : Fin cfg4.N) (p : Fin 5000) (q : Fin 128) (hr : t.val * 5000 + p.val < 100000) :
    k4_pay5 (F := Ideal) (iblk4 V c 0 t) (iblk4 V c 1 t) (iblk4 V c 2 t) (iblk4 V c 3 t) (iblk4 V c 4 t) (iblk4 V c 5 t) (ix2 p q)
      = (Cert.Spec.mlpArr (V c main_v67) (V c main_v89) (V c main_v69) (V c main_v90) (V c main_v73) (V c main_v91)) (ix2 (⟨t.val * 5000 + p.val, hr⟩ : Fin 100000) q) := by
  refine (mlp4_pay_apply _ _ _ _ _ _ p q).trans ?_
  rw [iblk4_2_eq, iblk4_3_eq, iblk4_4_eq, iblk4_5_eq]
  refine congrArg (fun r => mlp2Row r (V c main_v69) (V c main_v90) (V c main_v73) (V c main_v91) q) (funext fun d => ?_)
  rw [iblk4_0_apply V c t p d hr, iblk4_1_apply V c t p d hr]

/-! ## The rows' output: what a point writes back, and the array after the region -/

/-- Row p of a point's block is below the array's 100000 rows. -/
theorem hrow4 (t : Fin cfg4.N) (p : Fin 5000) : t.val * 5000 + p.val < 100000 := by
  have hN : t.val < 20 := lt_of_lt_of_eq t.isLt (show cfg4.N = 20 from N_4)
  have := p.isLt
  omega

/-- What the rows' output buffer holds after point t, at entry (p, q): the specification's array at row 5000·t + p. -/
theorem out4_6_apply (c : Dev nD) (t : Fin cfg4.N) (p : Fin 5000) (q : Fin 128) :
    (outsAt4 V c t.val t.isLt).1 (ix2 p q) = (Cert.Spec.mlpArr (V c main_v67) (V c main_v89) (V c main_v69) (V c main_v90) (V c main_v73) (V c main_v91)) (ix2 (⟨t.val * 5000 + p.val, hrow4 t p⟩ : Fin 100000) q) := by
  by_cases h0 : t.val % 20 = 0
  · rw [outsAt4_A V c t h0]
    dsimp only
    refine (congrFun (out4_A_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)) (ix2 p q)).trans ?_
    exact hblock4_apply V c t p q (hrow4 t p)
  · rw [outsAt4_B V c t h0]
    dsimp only
    refine (congrFun (out4_B_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2) (ix2 p q)).trans ?_
    exact hblock4_apply V c t p q (hrow4 t p)

/-- What point t writes back of the rows' output is block t of the specification's array. -/
theorem flushed4_6_eq (c : Dev nD) (t : Fin cfg4.N) :
    (dat4 (F := Ideal) V c).flushed 6 t = ((cfg4.win 6).blk t).view.read (Elt Ideal) (Cert.Spec.mlpArr (V c main_v67) (V c main_v89) (V c main_v69) (V c main_v90) (V c main_v73) (V c main_v91)) := by
  show (cfg4.win 6).cut (grid4.coords t) ((dat4 V c).after 6 t) = _
  rw [after4_6]
  obtain ⟨-, -, -, -, -, -, -, -, -, -, ⟨e0, e1⟩, -⟩ := idx_facts4 t
  funext j
  obtain ⟨p, q, rfl⟩ : ∃ (p : Fin 5000) (q : Fin 128), j = ix2 p q := ⟨j 0, j 1, eq_ix2 j⟩
  have hemb : ((cfg4.win 6).blk t).view.emb (ix2 p q) = (ix2 (⟨t.val * 5000 + p.val, hrow4 t p⟩ : Fin 100000) q) := by
    funext a; apply Fin.ext
    match a with
    | ⟨0, _⟩ => show win4_6.index t (0 : Fin 2) * 5000 + 1 * p.val = t.val * 5000 + p.val; omega
    | ⟨1, _⟩ => show win4_6.index t (1 : Fin 2) * 128 + 1 * q.val = q.val; omega
  show (outsAt4 V c t.val t.isLt).1 (ix2 p q) = (Cert.Spec.mlpArr (V c main_v67) (V c main_v89) (V c main_v69) (V c main_v90) (V c main_v73) (V c main_v91)) (((cfg4.win 6).blk t).view.emb (ix2 p q))
  rw [hemb]
  exact out4_6_apply V c t p q

/-- An index of the rows' output array is in point t's block iff each coordinate is in the block's range on its axis. -/
theorem mem_blk4_6 (t : Fin cfg4.N) (i : S100000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v92_0).slice (win4_6.rect t)).set ↔ _
  rw [View.set_slice_whole, Rect.mem_set_unit]
  exact Iff.rfl

/-- The rows' output array after the region: the rows through the two rectified dense layers of x + agg. The point
    covering row r is r / 5000. -/
theorem final_mlp4_h (c : Dev nD) :
    (dat4 (F := Ideal) V c).arrAt 6 cfg4.N = (Cert.Spec.mlpArr (V c main_v67) (V c main_v89) (V c main_v69) (V c main_v90) (V c main_v73) (V c main_v91)) :=
  (dat4 (F := Ideal) V c).arrAt_eq_of_cover 6 _ (fun t _ => flushed4_6_eq V c t) fun i => by
    have hi0 : (i 0).val < 100000 := (i 0).isLt
    have hi1 : (i 1).val < 128 := (i 1).isLt
    have hN : cfg4.N = 20 := N_4
    let t : Fin cfg4.N := ⟨(i 0).val / 5000, by rw [hN]; omega⟩
    obtain ⟨-, -, -, -, -, -, -, -, -, -, ⟨e0, e1⟩, -⟩ := idx_facts4 t
    have e0' : win4_6.index t (0 : Fin 2) = (i 0).val / 5000 := e0
    refine ⟨t, flush4_6 t, ?_⟩
    rw [mem_blk4_6]
    intro a
    match a with
    | ⟨0, _⟩ =>
      show win4_6.index t (0 : Fin 2) * 5000 ≤ (i 0).val ∧ (i 0).val < win4_6.index t (0 : Fin 2) * 5000 + 5000
      omega
    | ⟨1, _⟩ =>
      show win4_6.index t (1 : Fin 2) * 128 ≤ (i 1).val ∧ (i 1).val < win4_6.index t (1 : Fin 2) * 128 + 128
      omega

/-! ## The two accumulators, point by point -/

/-- At a point that resets the accumulators the sum's buffer ends, at column q, at the block's column sum. -/
theorem acc4_7_A (c : Dev nD) (t : Fin cfg4.N) (h0 : t.val % 20 = 0) (q : Fin 128) :
    (outsAt4 V c t.val t.isLt).2.1 (ix2 (0 : Fin 1) q)
      = 0 + ∑ p : Fin 5000, (Cert.Spec.mlpArr (V c main_v67) (V c main_v89) (V c main_v69) (V c main_v90) (V c main_v73) (V c main_v91)) (ix2 (⟨t.val * 5000 + p.val, hrow4 t p⟩ : Fin 100000) q) := by
  rw [outsAt4_A V c t h0]
  dsimp only
  refine (congrFun (out4_A_7_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)) (ix2 (0 : Fin 1) q)).trans ?_
  refine (sum4_pay_apply _ _ _ _ _ _ _ q).trans ?_
  refine congr (congrArg HAdd.hAdd (zero4_7_apply _)) (Finset.sum_congr rfl fun p _ => ?_)
  exact hblock4_apply V c t p q (hrow4 t p)

/-- At a point that carries them it ends at what the point before left plus the block's column sum. -/
theorem acc4_7_B (c : Dev nD) (t : Fin cfg4.N) (h0 : ¬t.val % 20 = 0) (q : Fin 128) :
    (outsAt4 V c t.val t.isLt).2.1 (ix2 (0 : Fin 1) q)
      = (outsAt4 V c (t.val - 1) (Nat.lt_of_le_of_lt (Nat.sub_le _ _) t.isLt)).2.1 (ix2 (0 : Fin 1) q)
        + ∑ p : Fin 5000, (Cert.Spec.mlpArr (V c main_v67) (V c main_v89) (V c main_v69) (V c main_v90) (V c main_v73) (V c main_v91)) (ix2 (⟨t.val * 5000 + p.val, hrow4 t p⟩ : Fin 100000) q) := by
  rw [outsAt4_B V c t h0]
  dsimp only
  refine (congrFun (out4_B_7_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2) (ix2 (0 : Fin 1) q)).trans ?_
  refine (sum4_pay_apply _ _ _ _ _ _ _ q).trans ?_
  refine congrArg (_ + ·) (Finset.sum_congr rfl fun p _ => ?_)
  exact hblock4_apply V c t p q (hrow4 t p)

/-- At a point that resets the accumulators the sum of squares' buffer ends, at column q, at the block's column sum of squares. -/
theorem acc4_8_A (c : Dev nD) (t : Fin cfg4.N) (h0 : t.val % 20 = 0) (q : Fin 128) :
    (outsAt4 V c t.val t.isLt).2.2 (ix2 (0 : Fin 1) q)
      = 0 + ∑ p : Fin 5000, (Cert.Spec.mlpArr (V c main_v67) (V c main_v89) (V c main_v69) (V c main_v90) (V c main_v73) (V c main_v91)) (ix2 (⟨t.val * 5000 + p.val, hrow4 t p⟩ : Fin 100000) q)
          * (Cert.Spec.mlpArr (V c main_v67) (V c main_v89) (V c main_v69) (V c main_v90) (V c main_v73) (V c main_v91)) (ix2 (⟨t.val * 5000 + p.val, hrow4 t p⟩ : Fin 100000) q) := by
  rw [outsAt4_A V c t h0]
  dsimp only
  refine (congrFun (out4_A_8_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)) (ix2 (0 : Fin 1) q)).trans ?_
  refine (sumsq4_pay_apply _ _ q).trans ?_
  refine congr (congrArg HAdd.hAdd (zero4_8_apply _)) (Finset.sum_congr rfl fun p _ => ?_)
  rw [hblock4_apply V c t p q (hrow4 t p)]

/-- At a point that carries them it ends at what the point before left plus the block's column sum of squares. -/
theorem acc4_8_B (c : Dev nD) (t : Fin cfg4.N) (h0 : ¬t.val % 20 = 0) (q : Fin 128) :
    (outsAt4 V c t.val t.isLt).2.2 (ix2 (0 : Fin 1) q)
      = (outsAt4 V c (t.val - 1) (Nat.lt_of_le_of_lt (Nat.sub_le _ _) t.isLt)).2.2 (ix2 (0 : Fin 1) q)
        + ∑ p : Fin 5000, (Cert.Spec.mlpArr (V c main_v67) (V c main_v89) (V c main_v69) (V c main_v90) (V c main_v73) (V c main_v91)) (ix2 (⟨t.val * 5000 + p.val, hrow4 t p⟩ : Fin 100000) q)
          * (Cert.Spec.mlpArr (V c main_v67) (V c main_v89) (V c main_v69) (V c main_v90) (V c main_v73) (V c main_v91)) (ix2 (⟨t.val * 5000 + p.val, hrow4 t p⟩ : Fin 100000) q) := by
  rw [outsAt4_B V c t h0]
  dsimp only
  refine (congrFun (out4_B_8_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2) (ix2 (0 : Fin 1) q)).trans ?_
  refine (sumsq4_pay_apply _ _ q).trans ?_
  refine congrArg (_ + ·) (Finset.sum_congr rfl fun p _ => ?_)
  rw [hblock4_apply V c t p q (hrow4 t p)]

/-- A point below twenty is a point of the grid. -/
theorem hlt4 (t : Fin 20) : t.val < cfg4.N := lt_of_lt_of_eq t.isLt (show 20 = cfg4.N from N_4.symm)

/-- After the last point the sum's buffer holds, at column q, the sum down all 100000 rows. Stated at any point whose
    position is 19. -/
theorem total4_7 (c : Dev nD) (t : Fin cfg4.N) (h19 : t.val = 19) (q : Fin 128) :
    (outsAt4 V c t.val t.isLt).2.1 (ix2 (0 : Fin 1) q) = ∑ p : Fin 100000, (Cert.Spec.mlpArr (V c main_v67) (V c main_v89) (V c main_v69) (V c main_v90) (V c main_v73) (V c main_v91)) (ix2 p q) := by
  have key := Cert.Lib.BatchNorm.running_total_blocks_fin 20 5000 (by norm_num)
    (fun s : Fin 20 => (outsAt4 V c s.val (hlt4 s)).2.1 (ix2 (0 : Fin 1) q))
    (fun i : Fin (20 * 5000) => (Cert.Spec.mlpArr (V c main_v67) (V c main_v89) (V c main_v69) (V c main_v90) (V c main_v73) (V c main_v91)) (ix2 (⟨i.val, i.isLt⟩ : Fin 100000) q)) 0
    (acc4_7_A V c ⟨0, hlt4 0⟩ rfl q)
    (fun s h => acc4_7_B V c ⟨s + 1, hlt4 ⟨s + 1, h⟩⟩ (by show ¬(s + 1) % 20 = 0; omega) q)
  have transport : ∀ s : Fin 20, s.val = t.val →
      (outsAt4 V c s.val (hlt4 s)).2.1 (ix2 (0 : Fin 1) q) = (outsAt4 V c t.val t.isLt).2.1 (ix2 (0 : Fin 1) q) := by
    intro s hs
    obtain ⟨n, hn⟩ := s
    obtain ⟨m, hm⟩ := t
    obtain rfl : n = m := hs
    rfl
  exact (transport ⟨20 - 1, Nat.sub_lt (by norm_num) Nat.one_pos⟩ (by show 20 - 1 = t.val; omega)).symm.trans (key.trans (zero_add _))

/-- After the last point the sum of squares' buffer holds, at column q, the sum of squares down all 100000 rows. Stated at any point whose
    position is 19. -/
theorem total4_8 (c : Dev nD) (t : Fin cfg4.N) (h19 : t.val = 19) (q : Fin 128) :
    (outsAt4 V c t.val t.isLt).2.2 (ix2 (0 : Fin 1) q) = ∑ p : Fin 100000, (Cert.Spec.mlpArr (V c main_v67) (V c main_v89) (V c main_v69) (V c main_v90) (V c main_v73) (V c main_v91)) (ix2 p q) * (Cert.Spec.mlpArr (V c main_v67) (V c main_v89) (V c main_v69) (V c main_v90) (V c main_v73) (V c main_v91)) (ix2 p q) := by
  have key := Cert.Lib.BatchNorm.running_total_blocks_fin 20 5000 (by norm_num)
    (fun s : Fin 20 => (outsAt4 V c s.val (hlt4 s)).2.2 (ix2 (0 : Fin 1) q))
    (fun i : Fin (20 * 5000) => (Cert.Spec.mlpArr (V c main_v67) (V c main_v89) (V c main_v69) (V c main_v90) (V c main_v73) (V c main_v91)) (ix2 (⟨i.val, i.isLt⟩ : Fin 100000) q) * (Cert.Spec.mlpArr (V c main_v67) (V c main_v89) (V c main_v69) (V c main_v90) (V c main_v73) (V c main_v91)) (ix2 (⟨i.val, i.isLt⟩ : Fin 100000) q)) 0
    (acc4_8_A V c ⟨0, hlt4 0⟩ rfl q)
    (fun s h => acc4_8_B V c ⟨s + 1, hlt4 ⟨s + 1, h⟩⟩ (by show ¬(s + 1) % 20 = 0; omega) q)
  have transport : ∀ s : Fin 20, s.val = t.val →
      (outsAt4 V c s.val (hlt4 s)).2.2 (ix2 (0 : Fin 1) q) = (outsAt4 V c t.val t.isLt).2.2 (ix2 (0 : Fin 1) q) := by
    intro s hs
    obtain ⟨n, hn⟩ := s
    obtain ⟨m, hm⟩ := t
    obtain rfl : n = m := hs
    rfl
  exact (transport ⟨20 - 1, Nat.sub_lt (by norm_num) Nat.one_pos⟩ (by show 20 - 1 = t.val; omega)).symm.trans (key.trans (zero_add _))

/-! ## The two accumulators' arrays after the region -/

/-- After the last point the column sums' buffer holds the column sums of the specification's array. -/
theorem acc4_7_final (c : Dev nD) (t : Fin cfg4.N) (h19 : t.val = 19) :
    (outsAt4 V c t.val t.isLt).2.1 = Cert.Spec.colSum (Cert.Spec.mlpArr (V c main_v67) (V c main_v89) (V c main_v69) (V c main_v90) (V c main_v73) (V c main_v91)) := by
  funext j
  obtain ⟨z, q, rfl⟩ : ∃ (z : Fin 1) (q : Fin 128), j = ix2 z q := ⟨j 0, j 1, eq_ix2 j⟩
  obtain rfl : z = 0 := Subsingleton.elim _ _
  unfold Cert.Spec.colSum
  refine (total4_7 V c t h19 q).trans (Finset.sum_congr rfl fun p _ => ?_)
  rfl

/-- An index of the column sums' array is in point t's block iff each coordinate is in the block's range on its axis. -/
theorem mem_blk4_7 (t : Fin cfg4.N) (i : S1x128.Idx) :
    i ∈ ((cfg4.win 7).blk t).view.set ↔ ∀ a : Fin 2, win4_7.index t a * S1x128.size a ≤ (i a).val ∧ (i a).val < win4_7.index t a * S1x128.size a + S1x128.size a := by
  show i ∈ ((View.whole main_v92_1).slice (win4_7.rect t)).set ↔ _
  rw [View.set_slice_whole, Rect.mem_set_unit]
  exact Iff.rfl

/-- The one write-back of the column sums' buffer, at the last point, writes the column sums of the specification's array: the one
    block is the whole array. -/
theorem flushed4_7_eq (c : Dev nD) (t : Fin cfg4.N) (hf : (cfg4.win 7).flush t = true) :
    (dat4 (F := Ideal) V c).flushed 7 t = ((cfg4.win 7).blk t).view.read (Elt Ideal) (Cert.Spec.colSum (Cert.Spec.mlpArr (V c main_v67) (V c main_v89) (V c main_v69) (V c main_v90) (V c main_v73) (V c main_v91))) := by
  have hN : t.val < 20 := lt_of_lt_of_eq t.isLt (show cfg4.N = 20 from N_4)
  have h19 : t.val = 19 := by have := (flush4_7 t).mp hf; omega
  show (cfg4.win 7).cut (grid4.coords t) ((dat4 V c).after 7 t) = _
  rw [after4_7, acc4_7_final V c t h19]
  generalize Cert.Spec.colSum (Cert.Spec.mlpArr (V c main_v67) (V c main_v89) (V c main_v69) (V c main_v90) (V c main_v73) (V c main_v91)) = F
  have e0 := (idx_facts4 t).2.2.2.2.2.2.2.2.2.2.2.1
  have e1 := (idx_facts4 t).2.2.2.2.2.2.2.2.2.2.2.2.1
  funext j
  obtain ⟨z, q, rfl⟩ : ∃ (z : Fin 1) (q : Fin 128), j = ix2 z q := ⟨j 0, j 1, eq_ix2 j⟩
  obtain rfl : z = 0 := Subsingleton.elim _ _
  have hemb : ((cfg4.win 7).blk t).view.emb (ix2 (0 : Fin 1) q) = ix2 (0 : Fin 1) q := by
    funext a; apply Fin.ext
    match a with
    | ⟨0, _⟩ => show win4_7.index t (0 : Fin 2) * 1 + 1 * 0 = 0; omega
    | ⟨1, _⟩ => show win4_7.index t (1 : Fin 2) * 128 + 1 * q.val = q.val; omega
  show F (ix2 (0 : Fin 1) q) = F (((cfg4.win 7).blk t).view.emb (ix2 (0 : Fin 1) q))
  rw [hemb]

/-- The column sums' array after the region: the column sums of the specification's array. Only the last
    point writes it back, and its one block is the whole array. -/
theorem final_mlp4_s (c : Dev nD) :
    (dat4 (F := Ideal) V c).arrAt 7 cfg4.N = Cert.Spec.colSum (Cert.Spec.mlpArr (V c main_v67) (V c main_v89) (V c main_v69) (V c main_v90) (V c main_v73) (V c main_v91)) :=
  (dat4 (F := Ideal) V c).arrAt_eq_of_cover 7 _ (fun t hf => flushed4_7_eq V c t hf) fun i => by
    have hi0 : (i 0).val < 1 := (i 0).isLt
    have hi1 : (i 1).val < 128 := (i 1).isLt
    have e0 := (idx_facts4 ⟨19, hlt4 19⟩).2.2.2.2.2.2.2.2.2.2.2.1
    have e1 := (idx_facts4 ⟨19, hlt4 19⟩).2.2.2.2.2.2.2.2.2.2.2.2.1
    refine ⟨⟨19, hlt4 19⟩, (flush4_7 _).mpr rfl, ?_⟩
    rw [mem_blk4_7]
    intro a
    match a with
    | ⟨0, _⟩ =>
      show win4_7.index ⟨19, hlt4 19⟩ (0 : Fin 2) * 1 ≤ (i 0).val ∧ (i 0).val < win4_7.index ⟨19, hlt4 19⟩ (0 : Fin 2) * 1 + 1
      omega
    | ⟨1, _⟩ =>
      show win4_7.index ⟨19, hlt4 19⟩ (1 : Fin 2) * 128 ≤ (i 1).val ∧ (i 1).val < win4_7.index ⟨19, hlt4 19⟩ (1 : Fin 2) * 128 + 128
      omega

/-- After the last point the column sums of squares' buffer holds the column sums of squares of the specification's array. -/
theorem acc4_8_final (c : Dev nD) (t : Fin cfg4.N) (h19 : t.val = 19) :
    (outsAt4 V c t.val t.isLt).2.2 = Cert.Spec.colSumSq (Cert.Spec.mlpArr (V c main_v67) (V c main_v89) (V c main_v69) (V c main_v90) (V c main_v73) (V c main_v91)) := by
  funext j
  obtain ⟨z, q, rfl⟩ : ∃ (z : Fin 1) (q : Fin 128), j = ix2 z q := ⟨j 0, j 1, eq_ix2 j⟩
  obtain rfl : z = 0 := Subsingleton.elim _ _
  unfold Cert.Spec.colSumSq
  refine (total4_8 V c t h19 q).trans (Finset.sum_congr rfl fun p _ => ?_)
  rfl

/-- An index of the column sums of squares' array is in point t's block iff each coordinate is in the block's range on its axis. -/
theorem mem_blk4_8 (t : Fin cfg4.N) (i : S1x128.Idx) :
    i ∈ ((cfg4.win 8).blk t).view.set ↔ ∀ a : Fin 2, win4_8.index t a * S1x128.size a ≤ (i a).val ∧ (i a).val < win4_8.index t a * S1x128.size a + S1x128.size a := by
  show i ∈ ((View.whole main_v92_2).slice (win4_8.rect t)).set ↔ _
  rw [View.set_slice_whole, Rect.mem_set_unit]
  exact Iff.rfl

/-- The one write-back of the column sums of squares' buffer, at the last point, writes the column sums of squares of the specification's array: the one
    block is the whole array. -/
theorem flushed4_8_eq (c : Dev nD) (t : Fin cfg4.N) (hf : (cfg4.win 8).flush t = true) :
    (dat4 (F := Ideal) V c).flushed 8 t = ((cfg4.win 8).blk t).view.read (Elt Ideal) (Cert.Spec.colSumSq (Cert.Spec.mlpArr (V c main_v67) (V c main_v89) (V c main_v69) (V c main_v90) (V c main_v73) (V c main_v91))) := by
  have hN : t.val < 20 := lt_of_lt_of_eq t.isLt (show cfg4.N = 20 from N_4)
  have h19 : t.val = 19 := by have := (flush4_8 t).mp hf; omega
  show (cfg4.win 8).cut (grid4.coords t) ((dat4 V c).after 8 t) = _
  rw [after4_8, acc4_8_final V c t h19]
  generalize Cert.Spec.colSumSq (Cert.Spec.mlpArr (V c main_v67) (V c main_v89) (V c main_v69) (V c main_v90) (V c main_v73) (V c main_v91)) = F
  have e0 := (idx_facts4 t).2.2.2.2.2.2.2.2.2.2.2.2.2.1
  have e1 := (idx_facts4 t).2.2.2.2.2.2.2.2.2.2.2.2.2.2
  funext j
  obtain ⟨z, q, rfl⟩ : ∃ (z : Fin 1) (q : Fin 128), j = ix2 z q := ⟨j 0, j 1, eq_ix2 j⟩
  obtain rfl : z = 0 := Subsingleton.elim _ _
  have hemb : ((cfg4.win 8).blk t).view.emb (ix2 (0 : Fin 1) q) = ix2 (0 : Fin 1) q := by
    funext a; apply Fin.ext
    match a with
    | ⟨0, _⟩ => show win4_8.index t (0 : Fin 2) * 1 + 1 * 0 = 0; omega
    | ⟨1, _⟩ => show win4_8.index t (1 : Fin 2) * 128 + 1 * q.val = q.val; omega
  show F (ix2 (0 : Fin 1) q) = F (((cfg4.win 8).blk t).view.emb (ix2 (0 : Fin 1) q))
  rw [hemb]

/-- The column sums of squares' array after the region: those of the specification's array. Only the last
    point writes it back, and its one block is the whole array. -/
theorem final_mlp4_ss (c : Dev nD) :
    (dat4 (F := Ideal) V c).arrAt 8 cfg4.N = Cert.Spec.colSumSq (Cert.Spec.mlpArr (V c main_v67) (V c main_v89) (V c main_v69) (V c main_v90) (V c main_v73) (V c main_v91)) :=
  (dat4 (F := Ideal) V c).arrAt_eq_of_cover 8 _ (fun t hf => flushed4_8_eq V c t hf) fun i => by
    have hi0 : (i 0).val < 1 := (i 0).isLt
    have hi1 : (i 1).val < 128 := (i 1).isLt
    have e0 := (idx_facts4 ⟨19, hlt4 19⟩).2.2.2.2.2.2.2.2.2.2.2.2.2.1
    have e1 := (idx_facts4 ⟨19, hlt4 19⟩).2.2.2.2.2.2.2.2.2.2.2.2.2.2
    refine ⟨⟨19, hlt4 19⟩, (flush4_8 _).mpr rfl, ?_⟩
    rw [mem_blk4_8]
    intro a
    match a with
    | ⟨0, _⟩ =>
      show win4_8.index ⟨19, hlt4 19⟩ (0 : Fin 2) * 1 ≤ (i 0).val ∧ (i 0).val < win4_8.index ⟨19, hlt4 19⟩ (0 : Fin 2) * 1 + 1
      omega
    | ⟨1, _⟩ =>
      show win4_8.index ⟨19, hlt4 19⟩ (1 : Fin 2) * 128 ≤ (i 1).val ∧ (i 1).val < win4_8.index ⟨19, hlt4 19⟩ (1 : Fin 2) * 128 + 128
      omega

end Cert.KernelIdeal.Hand

end
-- ==== Proof.ValueMlp6.lean ====
/-
  The layer-3 perceptron region read as values: the three output arrays after the region are functions of the six
  arrays the region is entered from — the rows through two rectified dense layers of x + agg, and the column sums of
  that array and of its square.
-/
import proofs.«117300_j5643587027248_1_alg».proof.Proof.RegionMlp6
import proofs.«117300_j5643587027248_1_alg».proof.Proof.Spec
import proofs.«117300_j5643587027248_1_alg».proof.Proof.LibBlockSum
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.ShloMosaic.Pipeline (Dat)
open Cert.LibDenseRows
open scoped BigOperators

/-- The offsets of a whole-block access, however the zeros are spelt. -/
theorem hz6 : (![0, 0] : Fin 2 → Nat) = fun _ => 0 := funext fun a => by fin_cases a <;> rfl

/-! ## What each case leaves in the outputs' buffers, as payloads of the input blocks -/

section Pieces
variable {F : FTy → Type} [FloatOps F]

theorem out6_A_6_eq (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) :
    out6_A_6 c i arg1 harg1 arg2 harg2 arg3 harg3 arg4 harg4 arg5 harg5 arg6 harg6 arg7 harg7 arg8 harg8 arg9 harg9 hc0 x0 x1 x2 x3 x4 x5 = k6_pay5 x0 x1 x2 x3 x4 x5 := by
  unfold out6_A_6
  rw [View.read_writes_eq_canon _ _ _ (cover6_A_6 c i arg1 harg1 arg2 harg2 arg3 harg3 arg4 harg4 arg5 harg5 arg6 harg6 arg7 harg7 arg8 harg8 arg9 harg9 hc0 x0 x1 x2 x3 x4 x5)]
  unfold kernelRun6_A
  dsimp only
  try sl_unfold_words
  rw [View.canon_unit_zero hz6]
  simp only [View.readAt_eq_ld, harg1.read_unread, harg2.read_unread, harg3.read_unread, harg4.read_unread, harg5.read_unread, harg6.read_unread, View.ld_unit_zero (S := S5000x128) hz6, View.ld_unit_zero (S := S128x128) hz6, View.ld_unit_zero (S := S1x128) hz6]

theorem out6_A_7_eq (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) :
    out6_A_7 c i arg1 harg1 arg2 harg2 arg3 harg3 arg4 harg4 arg5 harg5 arg6 harg6 arg7 harg7 arg8 harg8 arg9 harg9 hc0 x0 x1 x2 x3 x4 x5 = k6_pay1 (k6_pay6 (k6_pay3 (F := F))) (k6_pay7 x0 x1 x2 x3 x4 x5) := by
  unfold out6_A_7
  rw [View.read_writes_eq_canon _ _ _ (cover6_A_7 c i arg1 harg1 arg2 harg2 arg3 harg3 arg4 harg4 arg5 harg5 arg6 harg6 arg7 harg7 arg8 harg8 arg9 harg9 hc0 x0 x1 x2 x3 x4 x5)]
  unfold kernelRun6_A
  dsimp only
  sl_unfold_words
  rw [View.canon_cons_unit_zero (S := S1x128) hz6, View.readCov_unit_zero (S := S1x128) _ hz6]
  simp only [View.readAt_eq_ld, harg1.read_unread, harg2.read_unread, harg3.read_unread, harg4.read_unread, harg5.read_unread, harg6.read_unread, View.ld_unit_zero (S := S5000x128) hz6, View.ld_unit_zero (S := S128x128) hz6, View.ld_unit_zero (S := S1x128) hz6]

theorem out6_A_8_eq (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond6_0 i)
    (x0 : Vec F S5000x128 .f32) (x1 : Vec F S5000x128 .f32) (x2 : Vec F S128x128 .f32) (x3 : Vec F S1x128 .f32) (x4 : Vec F S128x128 .f32) (x5 : Vec F S1x128 .f32) :
    out6_A_8 c i arg1 harg1 arg2 harg2 arg3 harg3 arg4 harg4 arg5 harg5 arg6 harg6 arg7 harg7 arg8 harg8 arg9 harg9 hc0 x0 x1 x2 x3 x4 x5 = k6_pay2 (k6_pay5 x0 x1 x2 x3 x4 x5) (k6_pay4 (F := F)) := by
  unfold out6_A_8
  rw [View.read_writes_eq_canon _ _ _ (cover6_A_8 c i arg1 harg1 arg2 harg2 arg3 harg3 arg4 harg4 arg5 harg5 arg6 harg6 arg7 harg7 arg8 harg8 arg9 harg9 hc0 x0 x1 x2 x3 x4 x5)]
  unfold kernelRun6_A
  dsimp only
  sl_unfold_words
  rw [View.canon_cons_unit_zero (S := S1x128) hz6, View.readCov_unit_zero (S := S1x128) _ hz6]
  simp only [View.readAt_eq_ld, harg1.read_unread, harg2.read_unread, harg3.read_unread, harg4.read_unread, harg5.read_unread, harg6.read_unread, View.ld_unit_zero (S := S5000x128) hz6, View.ld_unit_zero (S := S128x128) hz6, View.ld_unit_zero (S := S1x128) hz6]

theorem out6_B_6_eq (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out6_B_6 c i arg1 harg1 arg2 harg2 arg3 harg3 arg4 harg4 arg5 harg5 arg6 harg6 arg7 harg7 arg8 harg8 arg9 harg9 hc0 x0 x1 x2 x3 x4 x5 xo7 xo8 = k6_pay5 x0 x1 x2 x3 x4 x5 := by
  unfold out6_B_6
  rw [View.read_writes_eq_canon _ _ _ (cover6_B_6 c i arg1 harg1 arg2 harg2 arg3 harg3 arg4 harg4 arg5 harg5 arg6 harg6 arg7 harg7 arg8 harg8 arg9 harg9 hc0 x0 x1 x2 x3 x4 x5 xo7 xo8)]
  unfold kernelRun6_B
  dsimp only
  try sl_unfold_words
  rw [View.canon_unit_zero hz6]
  simp only [View.readAt_eq_ld, harg1.read_unread, harg2.read_unread, harg3.read_unread, harg4.read_unread, harg5.read_unread, harg6.read_unread, harg8.read_unread, harg9.read_unread, View.ld_unit_zero (S := S5000x128) hz6, View.ld_unit_zero (S := S128x128) hz6, View.ld_unit_zero (S := S1x128) hz6]

theorem out6_B_7_eq (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out6_B_7 c i arg1 harg1 arg2 harg2 arg3 harg3 arg4 harg4 arg5 harg5 arg6 harg6 arg7 harg7 arg8 harg8 arg9 harg9 hc0 x0 x1 x2 x3 x4 x5 xo7 xo8 = k6_pay1 (k6_pay6 xo7) (k6_pay7 x0 x1 x2 x3 x4 x5) := by
  unfold out6_B_7
  rw [View.read_writes_eq_canon _ _ _ (cover6_B_7 c i arg1 harg1 arg2 harg2 arg3 harg3 arg4 harg4 arg5 harg5 arg6 harg6 arg7 harg7 arg8 harg8 arg9 harg9 hc0 x0 x1 x2 x3 x4 x5 xo7 xo8)]
  unfold kernelRun6_B
  dsimp only
  try sl_unfold_words
  rw [View.canon_unit_zero hz6]
  simp only [View.readAt_eq_ld, harg1.read_unread, harg2.read_unread, harg3.read_unread, harg4.read_unread, harg5.read_unread, harg6.read_unread, harg8.read_unread, harg9.read_unread, View.ld_unit_zero (S := S5000x128) hz6, View.ld_unit_zero (S := S128x128) hz6, View.ld_unit_zero (S := S1x128) hz6]

theorem out6_B_8_eq (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond6_0 i)
    (x0 : Vec F S5000x128 .f32) (x1 : Vec F S5000x128 .f32) (x2 : Vec F S128x128 .f32) (x3 : Vec F S1x128 .f32) (x4 : Vec F S128x128 .f32) (x5 : Vec F S1x128 .f32) (xo7 : Vec F S1x128 .f32) (xo8 : Vec F S1x128 .f32) :
    out6_B_8 c i arg1 harg1 arg2 harg2 arg3 harg3 arg4 harg4 arg5 harg5 arg6 harg6 arg7 harg7 arg8 harg8 arg9 harg9 hc0 x0 x1 x2 x3 x4 x5 xo7 xo8 = k6_pay2 (k6_pay5 x0 x1 x2 x3 x4 x5) xo8 := by
  unfold out6_B_8
  rw [View.read_writes_eq_canon _ _ _ (cover6_B_8 c i arg1 harg1 arg2 harg2 arg3 harg3 arg4 harg4 arg5 harg5 arg6 harg6 arg7 harg7 arg8 harg8 arg9 harg9 hc0 x0 x1 x2 x3 x4 x5 xo7 xo8)]
  unfold kernelRun6_B
  dsimp only
  try sl_unfold_words
  rw [View.canon_unit_zero hz6]
  simp only [View.readAt_eq_ld, harg1.read_unread, harg2.read_unread, harg3.read_unread, harg4.read_unread, harg5.read_unread, harg6.read_unread, harg8.read_unread, harg9.read_unread, View.ld_unit_zero (S := S5000x128) hz6, View.ld_unit_zero (S := S128x128) hz6, View.ld_unit_zero (S := S1x128) hz6]

end Pieces

-- the TensorCore's buffer contents when the region is entered, at the extended reals
variable (V : (c : Dev nD) → (b : Ref sig .tc) → Buf (Elt Ideal) ((c : Thread nD τ).loc b))

/-! ## The body's payloads at an entry -/

/-- The rows' payload at entry (p, q): row p of x + agg through the two rectified dense layers, at q. The narrowings
    to bf16 are the identity on the extended reals. -/
theorem mlp6_pay_apply (x0 x1 : Vec Ideal S5000x128 .f32) (x2 : Vec Ideal S128x128 .f32) (x3 : Vec Ideal S1x128 .f32)
    (x4 : Vec Ideal S128x128 .f32) (x5 : Vec Ideal S1x128 .f32) (p : Fin 5000) (q : Fin 128) :
    k6_pay5 (F := Ideal) x0 x1 x2 x3 x4 x5 (ix2 p q)
      = mlp2Row (fun c => x0 (ix2 p c) + x1 (ix2 p c)) x2 x3 x4 x5 q := by
  unfold k6_pay5
  simp only [shapeCast_self]
  refine (kernel_relu_apply _ _).trans (congrArg relu ?_)
  refine (kernel_dense_apply (m := 5000) (k := 128) (n := 128) _ _ _ _ p q).trans ?_
  show denseRow _ x4 x5 q = denseRow _ x4 x5 q
  refine congrArg (fun r => denseRow r x4 x5 q) (funext fun c => ?_)
  refine (truncf_apply (ψ := .bf16) _ bitsLt_bf16_f32 (ix2 p c)).trans ?_
  refine (kernel_relu_apply _ _).trans (congrArg relu ?_)
  refine (kernel_dense_apply (m := 5000) (k := 128) (n := 128) _ _ _ _ p c).trans ?_
  show denseRow _ x2 x3 c = denseRow _ x2 x3 c
  refine congrArg (fun r => denseRow r x2 x3 c) (funext fun d => ?_)
  exact truncf_apply (ψ := .bf16) _ bitsLt_bf16_f32 (ix2 p d)

/-- A lane sum of a block of rows, as a one-row array, at column q: the sum down the rows. -/
theorem laneSum6_apply (v : FVec Ideal S5000x128 .f32) (q : Fin 128) :
    shapeCast S1x128 (multiReduction .add [0] S128 v 0x00000000#32 reduces_S5000x128_S128 (.inl rfl) rfl) shapeCasts_S128_S1x128
        (ix2 (0 : Fin 1) q)
      = ∑ p : Fin 5000, v (ix2 p q) := by
  refine (shapeCast_apply _ shapeCasts_S128_S1x128 (ix2 (0 : Fin 1) q) (ix1 q) (by
    rw [Shape.rowMajor_val_two, Shape.rowMajor_val_one]; show q.val = 0 * 128 + q.val; omega)).trans ?_
  refine (Ideal.multiReduction_add_single v 0x00000000#32 reduces_S5000x128_S128 (.inl rfl) rfl (ix1 q)).trans ?_
  refine Finset.sum_congr rfl fun k _ => congrArg v (funext fun a => Fin.ext ?_)
  match a with
  | ⟨0, _⟩ => rfl
  | ⟨1, _⟩ => rfl

/-- The sum accumulator's payload at column q: the running contents plus the block's column sum. -/
theorem sum6_pay_apply (x0 x1 : Vec Ideal S5000x128 .f32) (x2 : Vec Ideal S128x128 .f32) (x3 : Vec Ideal S1x128 .f32)
    (x4 : Vec Ideal S128x128 .f32) (x5 : Vec Ideal S1x128 .f32) (xo : Vec Ideal S1x128 .f32) (q : Fin 128) :
    k6_pay1 (F := Ideal) (k6_pay6 xo) (k6_pay7 x0 x1 x2 x3 x4 x5) (ix2 (0 : Fin 1) q)
      = xo (ix2 (0 : Fin 1) q) + ∑ p : Fin 5000, k6_pay5 (F := Ideal) x0 x1 x2 x3 x4 x5 (ix2 p q) := by
  unfold k6_pay1 k6_pay6 k6_pay7
  simp only [shapeCast_self]
  refine (addf_apply _ _ _).trans ?_
  exact congrArg (xo (ix2 (0 : Fin 1) q) + ·) (laneSum6_apply _ q)

/-- The sum-of-squares accumulator's payload at column q: the running contents plus the block's column sum of squares. -/
theorem sumsq6_pay_apply (h : FVec Ideal S5000x128 .f32) (xo : Vec Ideal S1x128 .f32) (q : Fin 128) :
    k6_pay2 (F := Ideal) h xo (ix2 (0 : Fin 1) q)
      = xo (ix2 (0 : Fin 1) q) + ∑ p : Fin 5000, h (ix2 p q) * h (ix2 p q) := by
  unfold k6_pay2
  simp only [shapeCast_self]
  refine (addf_apply _ _ _).trans ?_
  exact congrArg (xo (ix2 (0 : Fin 1) q) + ·) (laneSum6_apply _ q)

/-- The reset values are zero. -/
theorem zero6_7_apply (j : S1x128.Idx) : k6_pay3 (F := Ideal) j = 0 := Ideal.ofBits_zero_f32
theorem zero6_8_apply (j : S1x128.Idx) : k6_pay4 (F := Ideal) j = 0 := Ideal.ofBits_zero_f32

/-! ## The windows' blocks -/

/-- The printed index maps, decided over the grid: the rows' windows (x, agg, h) are at block t on the rows and 0 on
    the columns; every parameter window and both accumulators are at block 0 on both axes. -/
theorem idx_facts6 : ∀ t : Fin cfg6.N, (win6_0.index t (0 : Fin 2) = t.val ∧ win6_0.index t (1 : Fin 2) = 0)
    ∧ (win6_1.index t (0 : Fin 2) = t.val ∧ win6_1.index t (1 : Fin 2) = 0)
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ (win6_6.index t (0 : Fin 2) = t.val ∧ win6_6.index t (1 : Fin 2) = 0)
    ∧ win6_7.index t (0 : Fin 2) = 0 ∧ win6_7.index t (1 : Fin 2) = 0
    ∧ win6_8.index t (0 : Fin 2) = 0 ∧ win6_8.index t (1 : Fin 2) = 0 :=
  (by decide +kernel : ∀ t : Fin grid6.N, _)

/-- The first weight matrix's block is the array, at every point. -/
theorem iblk6_2_eq (c : Dev nD) (t : Fin cfg6.N) : (iblk6 V c 2 t : Vec Ideal S128x128 .f32) = V c main_v107 := by
  have e0 := (idx_facts6 t).2.2.1
  have e1 := (idx_facts6 t).2.2.2.1
  funext y
  show V c main_v107 (((cfg6.win 2).blk t).view.emb y) = V c main_v107 y
  refine congrArg _ (funext fun a => Fin.ext ?_)
  match a with
  | ⟨0, _⟩ => show win6_2.index t (0 : Fin 2) * 128 + 1 * (y 0).val = (y 0).val; omega
  | ⟨1, _⟩ => show win6_2.index t (1 : Fin 2) * 128 + 1 * (y 1).val = (y 1).val; omega

/-- The first bias row's block is the array, at every point. -/
theorem iblk6_3_eq (c : Dev nD) (t : Fin cfg6.N) : (iblk6 V c 3 t : Vec Ideal S1x128 .f32) = V c main_v128 := by
  have e0 := (idx_facts6 t).2.2.2.2.1
  have e1 := (idx_facts6 t).2.2.2.2.2.1
  funext y
  show V c main_v128 (((cfg6.win 3).blk t).view.emb y) = V c main_v128 y
  refine congrArg _ (funext fun a => Fin.ext ?_)
  match a with
  | ⟨0, _⟩ => show win6_3.index t (0 : Fin 2) * 1 + 1 * (y 0).val = (y 0).val; omega
  | ⟨1, _⟩ => show win6_3.index t (1 : Fin 2) * 128 + 1 * (y 1).val = (y 1).val; omega

/-- The second weight matrix's block is the array, at every point. -/
theorem iblk6_4_eq (c : Dev nD) (t : Fin cfg6.N) : (iblk6 V c 4 t : Vec Ideal S128x128 .f32) = V c main_v111 := by
  have e0 := (idx_facts6 t).2.2.2.2.2.2.1
  have e1 := (idx_facts6 t).2.2.2.2.2.2.2.1
  funext y
  show V c main_v111 (((cfg6.win 4).blk t).view.emb y) = V c main_v111 y
  refine congrArg _ (funext fun a => Fin.ext ?_)
  match a with
  | ⟨0, _⟩ => show win6_4.index t (0 : Fin 2) * 128 + 1 * (y 0).val = (y 0).val; omega
  | ⟨1, _⟩ => show win6_4.index t (1 : Fin 2) * 128 + 1 * (y 1).val = (y 1).val; omega

/-- The second bias row's block is the array, at every point. -/
theorem iblk6_5_eq (c : Dev nD) (t : Fin cfg6.N) : (iblk6 V c 5 t : Vec Ideal S1x128 .f32) = V c main_v129 := by
  have e0 := (idx_facts6 t).2.2.2.2.2.2.2.2.1
  have e1 := (idx_facts6 t).2.2.2.2.2.2.2.2.2.1
  funext y
  show V c main_v129 (((cfg6.win 5).blk t).view.emb y) = V c main_v129 y
  refine congrArg _ (funext fun a => Fin.ext ?_)
  match a with
  | ⟨0, _⟩ => show win6_5.index t (0 : Fin 2) * 1 + 1 * (y 0).val = (y 0).val; omega
  | ⟨1, _⟩ => show win6_5.index t (1 : Fin 2) * 128 + 1 * (y 1).val = (y 1).val; omega

/-- Row p of the x rows' block at point t is row 5000·t + p of the array. -/
theorem iblk6_0_apply (c : Dev nD) (t : Fin cfg6.N) (p : Fin 5000) (q : Fin 128) (hr : t.val * 5000 + p.val < 100000) :
    (iblk6 V c 0 t : Vec Ideal S5000x128 .f32) (ix2 p q) = V c main_v105 (ix2 (⟨t.val * 5000 + p.val, hr⟩ : Fin 100000) q) := by
  obtain ⟨⟨e0, e1⟩, -⟩ := idx_facts6 t
  show V c main_v105 (((cfg6.win 0).blk t).view.emb (ix2 p q)) = _
  refine congrArg _ (funext fun a => Fin.ext ?_)
  match a with
  | ⟨0, _⟩ => show win6_0.index t (0 : Fin 2) * 5000 + 1 * p.val = t.val * 5000 + p.val; omega
  | ⟨1, _⟩ => show win6_0.index t (1 : Fin 2) * 128 + 1 * q.val = q.val; omega

/-- Row p of the agg rows' block at point t is row 5000·t + p of the array. -/
theorem iblk6_1_apply (c : Dev nD) (t : Fin cfg6.N) (p : Fin 5000) (q : Fin 128) (hr : t.val * 5000 + p.val < 100000) :
    (iblk6 V c 1 t : Vec Ideal S5000x128 .f32) (ix2 p q) = V c main_v127 (ix2 (⟨t.val * 5000 + p.val, hr⟩ : Fin 100000) q) := by
  obtain ⟨-, ⟨e0, e1⟩, -⟩ := idx_facts6 t
  show V c main_v127 (((cfg6.win 1).blk t).view.emb (ix2 p q)) = _
  refine congrArg _ (funext fun a => Fin.ext ?_)
  match a with
  | ⟨0, _⟩ => show win6_1.index t (0 : Fin 2) * 5000 + 1 * p.val = t.val * 5000 + p.val; omega
  | ⟨1, _⟩ => show win6_1.index t (1 : Fin 2) * 128 + 1 * q.val = q.val; omega

/-- The rows' payload of point t's blocks, at entry (p, q): the specification's array at row 5000·t + p. -/
theorem hblock6_apply (c : Dev nD) (t : Fin cfg6.N) (p : Fin 5000) (q : Fin 128) (hr : t.val * 5000 + p.val < 100000) :
    k6_pay5 (F := Ideal) (iblk6 V c 0 t) (iblk6 V c 1 t) (iblk6 V c 2 t) (iblk6 V c 3 t) (iblk6 V c 4 t) (iblk6 V c 5 t) (ix2 p q)
      = (Cert.Spec.mlpArr (V c main_v105) (V c main_v127) (V c main_v107) (V c main_v128) (V c main_v111) (V c main_v129)) (ix2 (⟨t.val * 5000 + p.val, hr⟩ : Fin 100000) q) := by
  refine (mlp6_pay_apply _ _ _ _ _ _ p q).trans ?_
  rw [iblk6_2_eq, iblk6_3_eq, iblk6_4_eq, iblk6_5_eq]
  refine congrArg (fun r => mlp2Row r (V c main_v107) (V c main_v128) (V c main_v111) (V c main_v129) q) (funext fun d => ?_)
  rw [iblk6_0_apply V c t p d hr, iblk6_1_apply V c t p d hr]

/-! ## The rows' output: what a point writes back, and the array after the region -/

/-- Row p of a point's block is below the array's 100000 rows. -/
theorem hrow6 (t : Fin cfg6.N) (p : Fin 5000) : t.val * 5000 + p.val < 100000 := by
  have hN : t.val < 20 := lt_of_lt_of_eq t.isLt (show cfg6.N = 20 from N_6)
  have := p.isLt
  omega

/-- What the rows' output buffer holds after point t, at entry (p, q): the specification's array at row 5000·t + p. -/
theorem out6_6_apply (c : Dev nD) (t : Fin cfg6.N) (p : Fin 5000) (q : Fin 128) :
    (outsAt6 V c t.val t.isLt).1 (ix2 p q) = (Cert.Spec.mlpArr (V c main_v105) (V c main_v127) (V c main_v107) (V c main_v128) (V c main_v111) (V c main_v129)) (ix2 (⟨t.val * 5000 + p.val, hrow6 t p⟩ : Fin 100000) q) := by
  by_cases h0 : t.val % 20 = 0
  · rw [outsAt6_A V c t h0]
    dsimp only
    refine (congrFun (out6_A_6_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h0) (iblk6 V c 0 t) (iblk6 V c 1 t) (iblk6 V c 2 t) (iblk6 V c 3 t) (iblk6 V c 4 t) (iblk6 V c 5 t)) (ix2 p q)).trans ?_
    exact hblock6_apply V c t p q (hrow6 t p)
  · rw [outsAt6_B V c t h0]
    dsimp only
    refine (congrFun (out6_B_6_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h => h0 ((hcond6_0 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.1 (outsAt6 V c (t.val - 1) (Nat.lt_of_le_of_lt (Nat.sub_le _ _) t.isLt)).2.2) (ix2 p q)).trans ?_
    exact hblock6_apply V c t p q (hrow6 t p)

/-- What point t writes back of the rows' output is block t of the specification's array. -/
theorem flushed6_6_eq (c : Dev nD) (t : Fin cfg6.N) :
    (dat6 (F := Ideal) V c).flushed 6 t = ((cfg6.win 6).blk t).view.read (Elt Ideal) (Cert.Spec.mlpArr (V c main_v105) (V c main_v127) (V c main_v107) (V c main_v128) (V c main_v111) (V c main_v129)) := by
  show (cfg6.win 6).cut (grid6.coords t) ((dat6 V c).after 6 t) = _
  rw [after6_6]
  obtain ⟨-, -, -, -, -, -, -, -, -, -, ⟨e0, e1⟩, -⟩ := idx_facts6 t
  funext j
  obtain ⟨p, q, rfl⟩ : ∃ (p : Fin 5000) (q : Fin 128), j = ix2 p q := ⟨j 0, j 1, eq_ix2 j⟩
  have hemb : ((cfg6.win 6).blk t).view.emb (ix2 p q) = (ix2 (⟨t.val * 5000 + p.val, hrow6 t p⟩ : Fin 100000) q) := by
    funext a; apply Fin.ext
    match a with
    | ⟨0, _⟩ => show win6_6.index t (0 : Fin 2) * 5000 + 1 * p.val = t.val * 5000 + p.val; omega
    | ⟨1, _⟩ => show win6_6.index t (1 : Fin 2) * 128 + 1 * q.val = q.val; omega
  show (outsAt6 V c t.val t.isLt).1 (ix2 p q) = (Cert.Spec.mlpArr (V c main_v105) (V c main_v127) (V c main_v107) (V c main_v128) (V c main_v111) (V c main_v129)) (((cfg6.win 6).blk t).view.emb (ix2 p q))
  rw [hemb]
  exact out6_6_apply V c t p q

/-- An index of the rows' output array is in point t's block iff each coordinate is in the block's range on its axis. -/
theorem mem_blk6_6 (t : Fin cfg6.N) (i : S100000x128.Idx) :
    i ∈ ((cfg6.win 6).blk t).view.set ↔ ∀ a : Fin 2, win6_6.index t a * S5000x128.size a ≤ (i a).val ∧ (i a).val < win6_6.index t a * S5000x128.size a + S5000x128.size a := by
  show i ∈ ((View.whole main_v130_0).slice (win6_6.rect t)).set ↔ _
  rw [View.set_slice_whole, Rect.mem_set_unit]
  exact Iff.rfl

/-- The rows' output array after the region: the rows through the two rectified dense layers of x + agg. The point
    covering row r is r / 5000. -/
theorem final_mlp6_h (c : Dev nD) :
    (dat6 (F := Ideal) V c).arrAt 6 cfg6.N = (Cert.Spec.mlpArr (V c main_v105) (V c main_v127) (V c main_v107) (V c main_v128) (V c main_v111) (V c main_v129)) :=
  (dat6 (F := Ideal) V c).arrAt_eq_of_cover 6 _ (fun t _ => flushed6_6_eq V c t) fun i => by
    have hi0 : (i 0).val < 100000 := (i 0).isLt
    have hi1 : (i 1).val < 128 := (i 1).isLt
    have hN : cfg6.N = 20 := N_6
    let t : Fin cfg6.N := ⟨(i 0).val / 5000, by rw [hN]; omega⟩
    obtain ⟨-, -, -, -, -, -, -, -, -, -, ⟨e0, e1⟩, -⟩ := idx_facts6 t
    have e0' : win6_6.index t (0 : Fin 2) = (i 0).val / 5000 := e0
    refine ⟨t, flush6_6 t, ?_⟩
    rw [mem_blk6_6]
    intro a
    match a with
    | ⟨0, _⟩ =>
      show win6_6.index t (0 : Fin 2) * 5000 ≤ (i 0).val ∧ (i 0).val < win6_6.index t (0 : Fin 2) * 5000 + 5000
      omega
    | ⟨1, _⟩ =>
      show win6_6.index t (1 : Fin 2) * 128 ≤ (i 1).val ∧ (i 1).val < win6_6.index t (1 : Fin 2) * 128 + 128
      omega

/-! ## The two accumulators, point by point -/

/-- At a point that resets the accumulators the sum's buffer ends, at column q, at the block's column sum. -/
theorem acc6_7_A (c : Dev nD) (t : Fin cfg6.N) (h0 : t.val % 20 = 0) (q : Fin 128) :
    (outsAt6 V c t.val t.isLt).2.1 (ix2 (0 : Fin 1) q)
      = 0 + ∑ p : Fin 5000, (Cert.Spec.mlpArr (V c main_v105) (V c main_v127) (V c main_v107) (V c main_v128) (V c main_v111) (V c main_v129)) (ix2 (⟨t.val * 5000 + p.val, hrow6 t p⟩ : Fin 100000) q) := by
  rw [outsAt6_A V c t h0]
  dsimp only
  refine (congrFun (out6_A_7_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h0) (iblk6 V c 0 t) (iblk6 V c 1 t) (iblk6 V c 2 t) (iblk6 V c 3 t) (iblk6 V c 4 t) (iblk6 V c 5 t)) (ix2 (0 : Fin 1) q)).trans ?_
  refine (sum6_pay_apply _ _ _ _ _ _ _ q).trans ?_
  refine congr (congrArg HAdd.hAdd (zero6_7_apply _)) (Finset.sum_congr rfl fun p _ => ?_)
  exact hblock6_apply V c t p q (hrow6 t p)

/-- At a point that carries them it ends at what the point before left plus the block's column sum. -/
theorem acc6_7_B (c : Dev nD) (t : Fin cfg6.N) (h0 : ¬t.val % 20 = 0) (q : Fin 128) :
    (outsAt6 V c t.val t.isLt).2.1 (ix2 (0 : Fin 1) q)
      = (outsAt6 V c (t.val - 1) (Nat.lt_of_le_of_lt (Nat.sub_le _ _) t.isLt)).2.1 (ix2 (0 : Fin 1) q)
        + ∑ p : Fin 5000, (Cert.Spec.mlpArr (V c main_v105) (V c main_v127) (V c main_v107) (V c main_v128) (V c main_v111) (V c main_v129)) (ix2 (⟨t.val * 5000 + p.val, hrow6 t p⟩ : Fin 100000) q) := by
  rw [outsAt6_B V c t h0]
  dsimp only
  refine (congrFun (out6_B_7_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h => h0 ((hcond6_0 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.1 (outsAt6 V c (t.val - 1) (Nat.lt_of_le_of_lt (Nat.sub_le _ _) t.isLt)).2.2) (ix2 (0 : Fin 1) q)).trans ?_
  refine (sum6_pay_apply _ _ _ _ _ _ _ q).trans ?_
  refine congrArg (_ + ·) (Finset.sum_congr rfl fun p _ => ?_)
  exact hblock6_apply V c t p q (hrow6 t p)

/-- At a point that resets the accumulators the sum of squares' buffer ends, at column q, at the block's column sum of squares. -/
theorem acc6_8_A (c : Dev nD) (t : Fin cfg6.N) (h0 : t.val % 20 = 0) (q : Fin 128) :
    (outsAt6 V c t.val t.isLt).2.2 (ix2 (0 : Fin 1) q)
      = 0 + ∑ p : Fin 5000, (Cert.Spec.mlpArr (V c main_v105) (V c main_v127) (V c main_v107) (V c main_v128) (V c main_v111) (V c main_v129)) (ix2 (⟨t.val * 5000 + p.val, hrow6 t p⟩ : Fin 100000) q)
          * (Cert.Spec.mlpArr (V c main_v105) (V c main_v127) (V c main_v107) (V c main_v128) (V c main_v111) (V c main_v129)) (ix2 (⟨t.val * 5000 + p.val, hrow6 t p⟩ : Fin 100000) q) := by
  rw [outsAt6_A V c t h0]
  dsimp only
  refine (congrFun (out6_A_8_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) ((hcond6_0 t).mpr h0) (iblk6 V c 0 t) (iblk6 V c 1 t) (iblk6 V c 2 t) (iblk6 V c 3 t) (iblk6 V c 4 t) (iblk6 V c 5 t)) (ix2 (0 : Fin 1) q)).trans ?_
  refine (sumsq6_pay_apply _ _ q).trans ?_
  refine congr (congrArg HAdd.hAdd (zero6_8_apply _)) (Finset.sum_congr rfl fun p _ => ?_)
  rw [hblock6_apply V c t p q (hrow6 t p)]

/-- At a point that carries them it ends at what the point before left plus the block's column sum of squares. -/
theorem acc6_8_B (c : Dev nD) (t : Fin cfg6.N) (h0 : ¬t.val % 20 = 0) (q : Fin 128) :
    (outsAt6 V c t.val t.isLt).2.2 (ix2 (0 : Fin 1) q)
      = (outsAt6 V c (t.val - 1) (Nat.lt_of_le_of_lt (Nat.sub_le _ _) t.isLt)).2.2 (ix2 (0 : Fin 1) q)
        + ∑ p : Fin 5000, (Cert.Spec.mlpArr (V c main_v105) (V c main_v127) (V c main_v107) (V c main_v128) (V c main_v111) (V c main_v129)) (ix2 (⟨t.val * 5000 + p.val, hrow6 t p⟩ : Fin 100000) q)
          * (Cert.Spec.mlpArr (V c main_v105) (V c main_v127) (V c main_v107) (V c main_v128) (V c main_v111) (V c main_v129)) (ix2 (⟨t.val * 5000 + p.val, hrow6 t p⟩ : Fin 100000) q) := by
  rw [outsAt6_B V c t h0]
  dsimp only
  refine (congrFun (out6_B_8_eq (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) (fun h => h0 ((hcond6_0 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.1 (outsAt6 V c (t.val - 1) (Nat.lt_of_le_of_lt (Nat.sub_le _ _) t.isLt)).2.2) (ix2 (0 : Fin 1) q)).trans ?_
  refine (sumsq6_pay_apply _ _ q).trans ?_
  refine congrArg (_ + ·) (Finset.sum_congr rfl fun p _ => ?_)
  rw [hblock6_apply V c t p q (hrow6 t p)]

/-- A point below twenty is a point of the grid. -/
theorem hlt6 (t : Fin 20) : t.val < cfg6.N := lt_of_lt_of_eq t.isLt (show 20 = cfg6.N from N_6.symm)

/-- After the last point the sum's buffer holds, at column q, the sum down all 100000 rows. Stated at any point whose
    position is 19. -/
theorem total6_7 (c : Dev nD) (t : Fin cfg6.N) (h19 : t.val = 19) (q : Fin 128) :
    (outsAt6 V c t.val t.isLt).2.1 (ix2 (0 : Fin 1) q) = ∑ p : Fin 100000, (Cert.Spec.mlpArr (V c main_v105) (V c main_v127) (V c main_v107) (V c main_v128) (V c main_v111) (V c main_v129)) (ix2 p q) := by
  have key := Cert.Lib.BatchNorm.running_total_blocks_fin 20 5000 (by norm_num)
    (fun s : Fin 20 => (outsAt6 V c s.val (hlt6 s)).2.1 (ix2 (0 : Fin 1) q))
    (fun i : Fin (20 * 5000) => (Cert.Spec.mlpArr (V c main_v105) (V c main_v127) (V c main_v107) (V c main_v128) (V c main_v111) (V c main_v129)) (ix2 (⟨i.val, i.isLt⟩ : Fin 100000) q)) 0
    (acc6_7_A V c ⟨0, hlt6 0⟩ rfl q)
    (fun s h => acc6_7_B V c ⟨s + 1, hlt6 ⟨s + 1, h⟩⟩ (by show ¬(s + 1) % 20 = 0; omega) q)
  have transport : ∀ s : Fin 20, s.val = t.val →
      (outsAt6 V c s.val (hlt6 s)).2.1 (ix2 (0 : Fin 1) q) = (outsAt6 V c t.val t.isLt).2.1 (ix2 (0 : Fin 1) q) := by
    intro s hs
    obtain ⟨n, hn⟩ := s
    obtain ⟨m, hm⟩ := t
    obtain rfl : n = m := hs
    rfl
  exact (transport ⟨20 - 1, Nat.sub_lt (by norm_num) Nat.one_pos⟩ (by show 20 - 1 = t.val; omega)).symm.trans (key.trans (zero_add _))

/-- After the last point the sum of squares' buffer holds, at column q, the sum of squares down all 100000 rows. Stated at any point whose
    position is 19. -/
theorem total6_8 (c : Dev nD) (t : Fin cfg6.N) (h19 : t.val = 19) (q : Fin 128) :
    (outsAt6 V c t.val t.isLt).2.2 (ix2 (0 : Fin 1) q) = ∑ p : Fin 100000, (Cert.Spec.mlpArr (V c main_v105) (V c main_v127) (V c main_v107) (V c main_v128) (V c main_v111) (V c main_v129)) (ix2 p q) * (Cert.Spec.mlpArr (V c main_v105) (V c main_v127) (V c main_v107) (V c main_v128) (V c main_v111) (V c main_v129)) (ix2 p q) := by
  have key := Cert.Lib.BatchNorm.running_total_blocks_fin 20 5000 (by norm_num)
    (fun s : Fin 20 => (outsAt6 V c s.val (hlt6 s)).2.2 (ix2 (0 : Fin 1) q))
    (fun i : Fin (20 * 5000) => (Cert.Spec.mlpArr (V c main_v105) (V c main_v127) (V c main_v107) (V c main_v128) (V c main_v111) (V c main_v129)) (ix2 (⟨i.val, i.isLt⟩ : Fin 100000) q) * (Cert.Spec.mlpArr (V c main_v105) (V c main_v127) (V c main_v107) (V c main_v128) (V c main_v111) (V c main_v129)) (ix2 (⟨i.val, i.isLt⟩ : Fin 100000) q)) 0
    (acc6_8_A V c ⟨0, hlt6 0⟩ rfl q)
    (fun s h => acc6_8_B V c ⟨s + 1, hlt6 ⟨s + 1, h⟩⟩ (by show ¬(s + 1) % 20 = 0; omega) q)
  have transport : ∀ s : Fin 20, s.val = t.val →
      (outsAt6 V c s.val (hlt6 s)).2.2 (ix2 (0 : Fin 1) q) = (outsAt6 V c t.val t.isLt).2.2 (ix2 (0 : Fin 1) q) := by
    intro s hs
    obtain ⟨n, hn⟩ := s
    obtain ⟨m, hm⟩ := t
    obtain rfl : n = m := hs
    rfl
  exact (transport ⟨20 - 1, Nat.sub_lt (by norm_num) Nat.one_pos⟩ (by show 20 - 1 = t.val; omega)).symm.trans (key.trans (zero_add _))

/-! ## The two accumulators' arrays after the region -/

/-- After the last point the column sums' buffer holds the column sums of the specification's array. -/
theorem acc6_7_final (c : Dev nD) (t : Fin cfg6.N) (h19 : t.val = 19) :
    (outsAt6 V c t.val t.isLt).2.1 = Cert.Spec.colSum (Cert.Spec.mlpArr (V c main_v105) (V c main_v127) (V c main_v107) (V c main_v128) (V c main_v111) (V c main_v129)) := by
  funext j
  obtain ⟨z, q, rfl⟩ : ∃ (z : Fin 1) (q : Fin 128), j = ix2 z q := ⟨j 0, j 1, eq_ix2 j⟩
  obtain rfl : z = 0 := Subsingleton.elim _ _
  unfold Cert.Spec.colSum
  refine (total6_7 V c t h19 q).trans (Finset.sum_congr rfl fun p _ => ?_)
  rfl

/-- An index of the column sums' array is in point t's block iff each coordinate is in the block's range on its axis. -/
theorem mem_blk6_7 (t : Fin cfg6.N) (i : S1x128.Idx) :
    i ∈ ((cfg6.win 7).blk t).view.set ↔ ∀ a : Fin 2, win6_7.index t a * S1x128.size a ≤ (i a).val ∧ (i a).val < win6_7.index t a * S1x128.size a + S1x128.size a := by
  show i ∈ ((View.whole main_v130_1).slice (win6_7.rect t)).set ↔ _
  rw [View.set_slice_whole, Rect.mem_set_unit]
  exact Iff.rfl

/-- The one write-back of the column sums' buffer, at the last point, writes the column sums of the specification's array: the one
    block is the whole array. -/
theorem flushed6_7_eq (c : Dev nD) (t : Fin cfg6.N) (hf : (cfg6.win 7).flush t = true) :
    (dat6 (F := Ideal) V c).flushed 7 t = ((cfg6.win 7).blk t).view.read (Elt Ideal) (Cert.Spec.colSum (Cert.Spec.mlpArr (V c main_v105) (V c main_v127) (V c main_v107) (V c main_v128) (V c main_v111) (V c main_v129))) := by
  have hN : t.val < 20 := lt_of_lt_of_eq t.isLt (show cfg6.N = 20 from N_6)
  have h19 : t.val = 19 := by have := (flush6_7 t).mp hf; omega
  show (cfg6.win 7).cut (grid6.coords t) ((dat6 V c).after 7 t) = _
  rw [after6_7, acc6_7_final V c t h19]
  generalize Cert.Spec.colSum (Cert.Spec.mlpArr (V c main_v105) (V c main_v127) (V c main_v107) (V c main_v128) (V c main_v111) (V c main_v129)) = F
  have e0 := (idx_facts6 t).2.2.2.2.2.2.2.2.2.2.2.1
  have e1 := (idx_facts6 t).2.2.2.2.2.2.2.2.2.2.2.2.1
  funext j
  obtain ⟨z, q, rfl⟩ : ∃ (z : Fin 1) (q : Fin 128), j = ix2 z q := ⟨j 0, j 1, eq_ix2 j⟩
  obtain rfl : z = 0 := Subsingleton.elim _ _
  have hemb : ((cfg6.win 7).blk t).view.emb (ix2 (0 : Fin 1) q) = ix2 (0 : Fin 1) q := by
    funext a; apply Fin.ext
    match a with
    | ⟨0, _⟩ => show win6_7.index t (0 : Fin 2) * 1 + 1 * 0 = 0; omega
    | ⟨1, _⟩ => show win6_7.index t (1 : Fin 2) * 128 + 1 * q.val = q.val; omega
  show F (ix2 (0 : Fin 1) q) = F (((cfg6.win 7).blk t).view.emb (ix2 (0 : Fin 1) q))
  rw [hemb]

/-- The column sums' array after the region: the column sums of the specification's array. Only the last
    point writes it back, and its one block is the whole array. -/
theorem final_mlp6_s (c : Dev nD) :
    (dat6 (F := Ideal) V c).arrAt 7 cfg6.N = Cert.Spec.colSum (Cert.Spec.mlpArr (V c main_v105) (V c main_v127) (V c main_v107) (V c main_v128) (V c main_v111) (V c main_v129)) :=
  (dat6 (F := Ideal) V c).arrAt_eq_of_cover 7 _ (fun t hf => flushed6_7_eq V c t hf) fun i => by
    have hi0 : (i 0).val < 1 := (i 0).isLt
    have hi1 : (i 1).val < 128 := (i 1).isLt
    have e0 := (idx_facts6 ⟨19, hlt6 19⟩).2.2.2.2.2.2.2.2.2.2.2.1
    have e1 := (idx_facts6 ⟨19, hlt6 19⟩).2.2.2.2.2.2.2.2.2.2.2.2.1
    refine ⟨⟨19, hlt6 19⟩, (flush6_7 _).mpr rfl, ?_⟩
    rw [mem_blk6_7]
    intro a
    match a with
    | ⟨0, _⟩ =>
      show win6_7.index ⟨19, hlt6 19⟩ (0 : Fin 2) * 1 ≤ (i 0).val ∧ (i 0).val < win6_7.index ⟨19, hlt6 19⟩ (0 : Fin 2) * 1 + 1
      omega
    | ⟨1, _⟩ =>
      show win6_7.index ⟨19, hlt6 19⟩ (1 : Fin 2) * 128 ≤ (i 1).val ∧ (i 1).val < win6_7.index ⟨19, hlt6 19⟩ (1 : Fin 2) * 128 + 128
      omega

/-- After the last point the column sums of squares' buffer holds the column sums of squares of the specification's array. -/
theorem acc6_8_final (c : Dev nD) (t : Fin cfg6.N) (h19 : t.val = 19) :
    (outsAt6 V c t.val t.isLt).2.2 = Cert.Spec.colSumSq (Cert.Spec.mlpArr (V c main_v105) (V c main_v127) (V c main_v107) (V c main_v128) (V c main_v111) (V c main_v129)) := by
  funext j
  obtain ⟨z, q, rfl⟩ : ∃ (z : Fin 1) (q : Fin 128), j = ix2 z q := ⟨j 0, j 1, eq_ix2 j⟩
  obtain rfl : z = 0 := Subsingleton.elim _ _
  unfold Cert.Spec.colSumSq
  refine (total6_8 V c t h19 q).trans (Finset.sum_congr rfl fun p _ => ?_)
  rfl

/-- An index of the column sums of squares' array is in point t's block iff each coordinate is in the block's range on its axis. -/
theorem mem_blk6_8 (t : Fin cfg6.N) (i : S1x128.Idx) :
    i ∈ ((cfg6.win 8).blk t).view.set ↔ ∀ a : Fin 2, win6_8.index t a * S1x128.size a ≤ (i a).val ∧ (i a).val < win6_8.index t a * S1x128.size a + S1x128.size a := by
  show i ∈ ((View.whole main_v130_2).slice (win6_8.rect t)).set ↔ _
  rw [View.set_slice_whole, Rect.mem_set_unit]
  exact Iff.rfl

/-- The one write-back of the column sums of squares' buffer, at the last point, writes the column sums of squares of the specification's array: the one
    block is the whole array. -/
theorem flushed6_8_eq (c : Dev nD) (t : Fin cfg6.N) (hf : (cfg6.win 8).flush t = true) :
    (dat6 (F := Ideal) V c).flushed 8 t = ((cfg6.win 8).blk t).view.read (Elt Ideal) (Cert.Spec.colSumSq (Cert.Spec.mlpArr (V c main_v105) (V c main_v127) (V c main_v107) (V c main_v128) (V c main_v111) (V c main_v129))) := by
  have hN : t.val < 20 := lt_of_lt_of_eq t.isLt (show cfg6.N = 20 from N_6)
  have h19 : t.val = 19 := by have := (flush6_8 t).mp hf; omega
  show (cfg6.win 8).cut (grid6.coords t) ((dat6 V c).after 8 t) = _
  rw [after6_8, acc6_8_final V c t h19]
  generalize Cert.Spec.colSumSq (Cert.Spec.mlpArr (V c main_v105) (V c main_v127) (V c main_v107) (V c main_v128) (V c main_v111) (V c main_v129)) = F
  have e0 := (idx_facts6 t).2.2.2.2.2.2.2.2.2.2.2.2.2.1
  have e1 := (idx_facts6 t).2.2.2.2.2.2.2.2.2.2.2.2.2.2
  funext j
  obtain ⟨z, q, rfl⟩ : ∃ (z : Fin 1) (q : Fin 128), j = ix2 z q := ⟨j 0, j 1, eq_ix2 j⟩
  obtain rfl : z = 0 := Subsingleton.elim _ _
  have hemb : ((cfg6.win 8).blk t).view.emb (ix2 (0 : Fin 1) q) = ix2 (0 : Fin 1) q := by
    funext a; apply Fin.ext
    match a with
    | ⟨0, _⟩ => show win6_8.index t (0 : Fin 2) * 1 + 1 * 0 = 0; omega
    | ⟨1, _⟩ => show win6_8.index t (1 : Fin 2) * 128 + 1 * q.val = q.val; omega
  show F (ix2 (0 : Fin 1) q) = F (((cfg6.win 8).blk t).view.emb (ix2 (0 : Fin 1) q))
  rw [hemb]

/-- The column sums of squares' array after the region: those of the specification's array. Only the last
    point writes it back, and its one block is the whole array. -/
theorem final_mlp6_ss (c : Dev nD) :
    (dat6 (F := Ideal) V c).arrAt 8 cfg6.N = Cert.Spec.colSumSq (Cert.Spec.mlpArr (V c main_v105) (V c main_v127) (V c main_v107) (V c main_v128) (V c main_v111) (V c main_v129)) :=
  (dat6 (F := Ideal) V c).arrAt_eq_of_cover 8 _ (fun t hf => flushed6_8_eq V c t hf) fun i => by
    have hi0 : (i 0).val < 1 := (i 0).isLt
    have hi1 : (i 1).val < 128 := (i 1).isLt
    have e0 := (idx_facts6 ⟨19, hlt6 19⟩).2.2.2.2.2.2.2.2.2.2.2.2.2.1
    have e1 := (idx_facts6 ⟨19, hlt6 19⟩).2.2.2.2.2.2.2.2.2.2.2.2.2.2
    refine ⟨⟨19, hlt6 19⟩, (flush6_8 _).mpr rfl, ?_⟩
    rw [mem_blk6_8]
    intro a
    match a with
    | ⟨0, _⟩ =>
      show win6_8.index ⟨19, hlt6 19⟩ (0 : Fin 2) * 1 ≤ (i 0).val ∧ (i 0).val < win6_8.index ⟨19, hlt6 19⟩ (0 : Fin 2) * 1 + 1
      omega
    | ⟨1, _⟩ =>
      show win6_8.index ⟨19, hlt6 19⟩ (1 : Fin 2) * 128 ≤ (i 1).val ∧ (i 1).val < win6_8.index ⟨19, hlt6 19⟩ (1 : Fin 2) * 128 + 128
      omega

end Cert.KernelIdeal.Hand

end
-- ==== Proof.Net.lean ====
/-
  The whole network as one function of its argument arrays, over two parameters that the two programs share verbatim
  and that are never opened: the neighbour aggregation `agg` (features ↦ aggregated features: a gather along the
  edges' sources and a scatter-add at their destinations) and the pooling `pool` (the four layers' features ↦ the
  per-graph means of their concatenation). The one place where the two programs differ is how a layer's batch
  variance is computed — "mean of squares minus squared mean" from the two column sums, or the mean squared
  deviation — so the variance is a parameter `var` too.

  A layer: h = two rectified dense layers of x + agg x; its output is (h − μ) · (var h + ε)^(−1/2) · γ + β with μ the
  column means of h. Layer 0 takes its parameters whole; layers 1–3 take slice l of the stacked parameters. The
  result is the classifier applied to the pooled features.
-/
import proofs.«117300_j5643587027248_1_alg».proof.Proof.Spec

noncomputable section

namespace Cert.Net

open Idealize.ShloMosaic Idealize.ShloMosaic.ValueIdx Cert.LibDenseRows Cert.Spec

/-- The pooled features: 128 graphs by 4 · 128 features. -/
abbrev SP : Shape := ⟨2, ![128, 512]⟩

/-- A vector of 128 as a one-row array. -/
def rowOf (v : (⟨1, ![128]⟩ : Shape).Idx → EReal) : S1.Idx → EReal := fun j => v (ix1 (j 1 : Fin 128))
/-- A vector of 10 as a one-row array. -/
def rowOf10 (v : (⟨1, ![10]⟩ : Shape).Idx → EReal) : (⟨2, ![1, 10]⟩ : Shape).Idx → EReal := fun j => v (ix1 (j 1 : Fin 10))
/-- Slice l of three stacked weight matrices. -/
def matOf (a : (⟨3, ![3, 128, 128]⟩ : Shape).Idx → EReal) (l : Fin 3) : SW.Idx → EReal :=
  fun i => a (ix3 l (i 0 : Fin 128) (i 1 : Fin 128))
/-- Row l of three stacked vectors, as a one-row array. -/
def rowOf3 (a : (⟨2, ![3, 128]⟩ : Shape).Idx → EReal) (l : Fin 3) : S1.Idx → EReal := fun j => a (ix2 l (j 1 : Fin 128))

/-- The variance as mean of squares minus squared mean, from the two column sums. -/
def varSums (h : SR.Idx → EReal) : S1.Idx → EReal := varRow (colSum h) (colSumSq h)

/-- One layer. -/
def layer (agg : (SR.Idx → EReal) → SR.Idx → EReal) (var : (SR.Idx → EReal) → S1.Idx → EReal)
    (x : SR.Idx → EReal) (w1 : SW.Idx → EReal) (b1 : S1.Idx → EReal) (w2 : SW.Idx → EReal) (b2 g b : S1.Idx → EReal) : SR.Idx → EReal :=
  normArr (mlpArr x (agg x) w1 b1 w2 b2) (meanRow (colSum (mlpArr x (agg x) w1 b1 w2 b2))) (var (mlpArr x (agg x) w1 b1 w2 b2)) g b

/-- The seventeen float argument arrays. -/
structure Params where
  x : SR.Idx → EReal
  w1_0 : SW.Idx → EReal
  b1_0 : (⟨1, ![128]⟩ : Shape).Idx → EReal
  w2_0 : SW.Idx → EReal
  b2_0 : (⟨1, ![128]⟩ : Shape).Idx → EReal
  gamma0 : (⟨1, ![128]⟩ : Shape).Idx → EReal
  beta0 : (⟨1, ![128]⟩ : Shape).Idx → EReal
  w1s : (⟨3, ![3, 128, 128]⟩ : Shape).Idx → EReal
  b1s : (⟨2, ![3, 128]⟩ : Shape).Idx → EReal
  w2s : (⟨3, ![3, 128, 128]⟩ : Shape).Idx → EReal
  b2s : (⟨2, ![3, 128]⟩ : Shape).Idx → EReal
  gammas : (⟨2, ![3, 128]⟩ : Shape).Idx → EReal
  betas : (⟨2, ![3, 128]⟩ : Shape).Idx → EReal
  lin1_w : (⟨2, ![512, 128]⟩ : Shape).Idx → EReal
  lin1_b : (⟨1, ![128]⟩ : Shape).Idx → EReal
  lin2_w : (⟨2, ![128, 10]⟩ : Shape).Idx → EReal
  lin2_b : (⟨1, ![10]⟩ : Shape).Idx → EReal

variable (agg : (SR.Idx → EReal) → SR.Idx → EReal) (var : (SR.Idx → EReal) → S1.Idx → EReal)
  (pool : (SR.Idx → EReal) → (SR.Idx → EReal) → (SR.Idx → EReal) → (SR.Idx → EReal) → SP.Idx → EReal) (P : Params)

/-- Layer 0's output. -/
def x1 : SR.Idx → EReal :=
  layer agg var P.x P.w1_0 (rowOf P.b1_0) P.w2_0 (rowOf P.b2_0) (rowOf P.gamma0) (rowOf P.beta0)
/-- A later layer's output from the layer before, with slice l of the stacked parameters. -/
def xNext (l : Fin 3) (x : SR.Idx → EReal) : SR.Idx → EReal :=
  layer agg var x (matOf P.w1s l) (rowOf3 P.b1s l) (matOf P.w2s l) (rowOf3 P.b2s l) (rowOf3 P.gammas l) (rowOf3 P.betas l)
def x2 : SR.Idx → EReal := xNext agg var P 0 (x1 agg var P)
def x3 : SR.Idx → EReal := xNext agg var P 1 (x2 agg var P)
def x4 : SR.Idx → EReal := xNext agg var P 2 (x3 agg var P)

/-- The network's result: the classifier on the pooled features of the four layers. -/
def out : (⟨2, ![128, 10]⟩ : Shape).Idx → EReal :=
  clsArr (pool (x1 agg var P) (x2 agg var P) (x3 agg var P) (x4 agg var P)) P.lin1_w (rowOf P.lin1_b) P.lin2_w (rowOf10 P.lin2_b)

end Cert.Net

end
-- ==== Proof.KHostLib.lean ====
/-
  The host's layout and arithmetic steps between the regions, read as functions of arrays of extended reals.

  Between two regions the host reshapes a vector of n entries to a one-row array and back (the same entries in the same
  order), broadcasts the 32-bit float word of 100000 to a vector, and divides, multiplies and subtracts entry by entry.
  Read at an entry: a reshape between a vector and a one-row array reads the entry with the same column; the broadcast
  of a scalar reads the scalar; so the flattened column sums divided by the count are the column means, and "mean of
  squares minus squared mean" is computed entry by entry from the two flattened sums.
-/
import proofs.«117300_j5643587027248_1_alg».proof.Proof.Gen.KernelIdeal.Launch
import proofs.«117300_j5643587027248_1_alg».proof.Proof.Net
import Idealize.ShloMosaic.Lib.StableHlo.Run
import Idealize.ShloMosaic.Lib.ValueLayout
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem

/-! ## Host layout operations read as functions of arrays of extended reals -/

/-- The count word 100000 broadcast to a vector of 128. -/
abbrev cntVec (hb : S_.BroadcastsInDim S128 (![] : Fin 0 → Fin S128.rank)) : FVec Ideal S128 .f32 :=
  broadcastInDim S128 ![] hb (constant (F := Ideal) S_ .f32 0x47C35000#32)

/-- A vector of 128 reshaped to one row is the vector as a one-row array. -/
theorem reshape_rowOf (v : S128.Idx → EReal) (h2 : S128.ShapeCasts S1x128) :
    shapeCast S1x128 v h2 = Cert.Net.rowOf v := by
  funext i
  obtain ⟨u, q, rfl⟩ : ∃ (u : Fin 1) (q : Fin 128), i = ix2 u q := ⟨i 0, i 1, eq_ix2 i⟩
  rw [shapeCast_a_1a_apply]
  rfl

/-- A vector of 10 reshaped to one row is the vector as a one-row array. -/
theorem reshape_rowOf10 (v : S10.Idx → EReal) (h2 : S10.ShapeCasts S1x10) :
    shapeCast S1x10 v h2 = Cert.Net.rowOf10 v := by
  funext i
  obtain ⟨u, q, rfl⟩ : ∃ (u : Fin 1) (q : Fin 10), i = ix2 u q := ⟨i 0, i 1, eq_ix2 i⟩
  rw [shapeCast_a_1a_apply]
  rfl

/-- The column means as the host computes them: the one-row sums flattened, divided entry by entry by the count
    word, and reshaped back to one row. -/
theorem host_meanRow (s : Cert.Spec.S1.Idx → EReal) (h1 : S1x128.ShapeCasts S128) (h2 : S128.ShapeCasts S1x128)
    (hb : S_.BroadcastsInDim S128 (![] : Fin 0 → Fin S128.rank)) :
    shapeCast S1x128 (Host.divf (F := Ideal) (shapeCast S128 s h1) (cntVec hb)) h2 = Cert.Spec.meanRow s := by
  funext i
  obtain ⟨u, q, rfl⟩ : ∃ (u : Fin 1) (q : Fin 128), i = ix2 u q := ⟨i 0, i 1, eq_ix2 i⟩
  obtain rfl : u = 0 := Subsingleton.elim _ _
  rw [shapeCast_a_1a_apply]
  show Ideal.div (shapeCast S128 s h1 (ix1 q)) (cntVec hb (ix1 q)) = _
  rw [shapeCast_1a_a_apply, show cntVec hb (ix1 q) = Cert.Spec.cnt from
    broadcastInDim_apply ![] hb _ (ix1 q) ix0 (fun a => a.elim0)]
  rfl

/-- The variance row as the host computes it from the two one-row sums: mean of squares minus squared mean, entry by
    entry on the flattened rows, reshaped back to one row. -/
theorem host_varRow (s ss : Cert.Spec.S1.Idx → EReal) (h1 : S1x128.ShapeCasts S128) (h2 : S128.ShapeCasts S1x128)
    (hb : S_.BroadcastsInDim S128 (![] : Fin 0 → Fin S128.rank)) :
    shapeCast S1x128
        (subf (F := Ideal) (Host.divf (F := Ideal) (shapeCast S128 ss h1) (cntVec hb))
          (mulf (F := Ideal) (Host.divf (F := Ideal) (shapeCast S128 s h1) (cntVec hb))
            (Host.divf (F := Ideal) (shapeCast S128 s h1) (cntVec hb)))) h2
      = Cert.Spec.varRow s ss := by
  funext i
  obtain ⟨u, q, rfl⟩ : ∃ (u : Fin 1) (q : Fin 128), i = ix2 u q := ⟨i 0, i 1, eq_ix2 i⟩
  obtain rfl : u = 0 := Subsingleton.elim _ _
  rw [shapeCast_a_1a_apply]
  show Ideal.div (shapeCast S128 ss h1 (ix1 q)) (cntVec hb (ix1 q))
      - Ideal.div (shapeCast S128 s h1 (ix1 q)) (cntVec hb (ix1 q))
        * Ideal.div (shapeCast S128 s h1 (ix1 q)) (cntVec hb (ix1 q)) = _
  rw [shapeCast_1a_a_apply, shapeCast_1a_a_apply, show cntVec hb (ix1 q) = Cert.Spec.cnt from
    broadcastInDim_apply ![] hb _ (ix1 q) ix0 (fun a => a.elim0)]
  rfl

end Cert.KernelIdeal.Hand

end
-- ==== Proof.KHostAgg.lean ====
/-
  The host's index-driven steps between the regions, named once, and the slices of the stacked parameters.

  The two rows of the edge array, flattened, are the edges' sources and destinations. The neighbour aggregation gathers
  the rows of the features at the sources and adds them up at the destinations, starting from zero; whatever the edges
  are, every entry of the result is zero plus a finite sum of entries of the operand, so a real operand gives a real
  result. The pooling adds the four layers' features, side by side, by graph id and divides by each graph's number of
  rows. Both are kept as single named terms: nothing later depends on more than their being the same function on both
  sides. A layer's parameters are slice l of three stacked arrays: the slice, with its unit axis dropped, reads the stack
  at first coordinate l.
-/
import proofs.«117300_j5643587027248_1_alg».proof.Proof.KHostLib

noncomputable section

namespace Cert.KernelIdeal.Hand

open Cert.KernelIdeal Cert.KernelIdeal.Gen
open Idealize.ShloMosaic Idealize.ShloMosaic.TcCoe Idealize.ShloMosaic.ValueIdx Idealize.SL.Sem

open Cert.Lib.BatchNorm (IsReal)

/-! ## The edge lists, the aggregation and the pooling, as the host spells them -/

/-- The edges' sources: row 0 of the 2 × 1600000 edge array, flattened. -/
def srcK (e : IVec S2x1600000 32) : IVec S1600000 32 :=
  shapeCast S1600000 (extractStridedSlice S1x1600000 ![0, 0] e slices_S2x1600000_S1x1600000_0_0)
    shapeCasts_S1x1600000_S1600000

/-- The edges' destinations: row 1 of the edge array, flattened. -/
def dstK (e : IVec S2x1600000 32) : IVec S1600000 32 :=
  shapeCast S1600000 (extractStridedSlice S1x1600000 ![1, 0] e slices_S2x1600000_S1x1600000_1_0)
    shapeCasts_S1x1600000_S1600000

/-- The neighbour aggregation: the rows of x gathered at the edges' sources (a negative source counted from the end)
    and added up at the edges' destinations, from zero. -/
def aggK' (src dst : IVec S1600000 32) (x : S100000x128.Idx → EReal) : S100000x128.Idx → EReal :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The broadcast of the zero word is real at every entry. -/
theorem isReal_zeroSplat {s : Shape} (h : S_.BroadcastsInDim s (![] : Fin 0 → Fin s.rank)) (i : s.Idx) :
    IsReal (broadcastInDim s ![] h (constant (F := Ideal) S_ .f32 0x00000000#32) i) := by
  rw [broadcastInDim_apply ![] h _ i ix0 (fun a => a.elim0)]
  show IsReal (Ideal.ofBits .f32 0x00000000#32)
  rw [Ideal.ofBits_zero_f32]
  exact Cert.Lib.BatchNorm.isReal_zero

/-- The aggregation of a real array is real, whatever the edges: a gathered entry is one of the operand's, and each
    entry of the result is zero plus a finite sum of gathered entries. -/
theorem isReal_aggK' (src dst : IVec S1600000 32) (x : S100000x128.Idx → EReal) (hx : ∀ i, IsReal (x i)) :
    ∀ i, IsReal (aggK' src dst x i) := fun i =>
  Cert.Lib.BatchNorm.isReal_scatterAdd _ _ _ _ (isReal_zeroSplat _)
    (fun j => Cert.Lib.BatchNorm.isReal_gather _ x _ hx j) i

/-! ## Slices of the stacked parameters -/

/-- Row l of three stacked vectors, as a vector of 128. -/
def vecOf3 (a : S3x128.Idx → EReal) (l : Fin 3) : S128.Idx → EReal := fun i => a (ix2 l (i 0 : Fin 128))

/-- As a one-row array it is row l of the stack as a one-row array. -/
theorem rowOf_vecOf3 (a : S3x128.Idx → EReal) (l : Fin 3) : Cert.Net.rowOf (vecOf3 a l) = Cert.Net.rowOf3 a l := rfl

/-- The slice [l : l+1] of three stacked matrices, with its unit axis dropped, is matrix l. -/
theorem slice_matOf (a : S3x128x128.Idx → EReal) (l : Fin 3) (off : Fin 3 → ℕ) (h0 : off 0 = l.val) (h1 : off 1 = 0)
    (h2 : off 2 = 0) (hs : S3x128x128.Slices off S1x128x128) (hc : S1x128x128.ShapeCasts S128x128) :
    shapeCast S128x128 (extractStridedSlice S1x128x128 off a hs) hc = Cert.Net.matOf a l := by
  funext i
  obtain ⟨p, q, rfl⟩ : ∃ (p : Fin 128) (q : Fin 128), i = ix2 p q := ⟨i 0, i 1, eq_ix2 i⟩
  rw [shapeCast_1ab_ab_apply]
  exact extractStridedSlice_apply off a hs (ix3 (0 : Fin 1) p q) (ix3 l p q) (fun a => by
    match a with
    | ⟨0, _⟩ => show l.val = off 0 + 0; omega
    | ⟨1, _⟩ => show p.val = off 1 + p.val; omega
    | ⟨2, _⟩ => show q.val = off 2 + q.val; omega)

/-- The slice [l : l+1] of three stacked vectors, flattened, is vector l. -/
theorem slice_vecOf3 (a : S3x128.Idx → EReal) (l : Fin 3) (off : Fin 2 → ℕ) (h0 : off 0 = l.val) (h1 : off 1 = 0)
    (hs : S3x128.Slices off S1x128) (hc : S1x128.ShapeCasts S128) :
    shapeCast S128 (extractStridedSlice S1x128 off a hs) hc = vecOf3 a l := by
  funext i
  obtain ⟨q, rfl⟩ : ∃ q : Fin 128, i = ix1 q := ⟨i 0, eq_ix1 i⟩
  rw [shapeCast_1a_a_apply]
  exact extractStridedSlice_apply off a hs (ix2 (0 : Fin 1) q) (ix2 l q) (fun a => by
    match a with
    | ⟨0, _⟩ => show l.val = off 0 + 0; omega
    | ⟨1, _⟩ => show q.val = off 1 + q.val; omega)

/-- … and reshaped back to one row it is row l of the stack as a one-row array. -/
theorem slice_rowOf3 (a : S3x128.Idx → EReal) (l : Fin 3) (off : Fin 2 → ℕ) (h0 : off 0 = l.val) (h1 : off 1 = 0)
    (hs : S3x128.Slices off S1x128) (hc : S1x128.ShapeCasts S128) (h2 : S128.ShapeCasts S1x128) :
    shapeCast S1x128 (shapeCast S128 (extractStridedSlice S1x128 off a hs) hc) h2 = Cert.Net.rowOf3 a l := by
  rw [slice_vecOf3 a l off h0 h1 hs hc, reshape_rowOf, rowOf_vecOf3]

/-! ## The pooling -/

/-- The per-graph mean of the four layers' features side by side: the rows added up by graph id, from zero, and
    divided by the number of rows of each graph (at least 1). -/
def poolK (g : IVec S100000 32) (a b c d : S100000x128.Idx → EReal) : S128x512.Idx → EReal :=
  Host.divf (F := Ideal) (φ := .f32)
    (Host.scatterAdd (F := Ideal) (φ := .f32) scatter_S128x512_S100000x1_S100000x512_1_0_0_1
      (broadcastInDim S128x512 ![] bcast_S_S128x512 (constant (F := Ideal) S_ .f32 0x00000000#32))
      (broadcastInDim S100000x1 ![0] bcast_S100000_S100000x1_0 g)
      (concatenate S100000x512 1 [⟨S100000x128, a⟩, ⟨S100000x128, b⟩, ⟨S100000x128, c⟩, ⟨S100000x128, d⟩]
        concatenates_S100000x128_S100000x128_S100000x128_S100000x128_S100000x512_d1))
    (broadcastInDim S128x512 ![0, 1] bcast_S128x1_S128x512_0_1
      (broadcastInDim S128x1 ![0] bcast_S128_S128x1_0
        (maximumf (F := Ideal) (φ := .f32)
          (Host.scatterAdd (F := Ideal) (φ := .f32) scatter_S128_S100000x1_S100000_n_0_0_1
            (broadcastInDim S128 ![] bcast_S_S128 (constant (F := Ideal) S_ .f32 0x00000000#32))
            (broadcastInDim S100000x1 ![0] bcast_S100000_S100000x1_0 g)
            (broadcastInDim S100000 ![] bcast_S_S100000 (constant (F := Ideal) S_ .f32 0x3F800000#32)))
          (broadcastInDim S128 ![] bcast_S_S128 (constant (F := Ideal) S_ .f32 0x3F800000#32)))))

end Cert.KernelIdeal.Hand

end
-- ==== Proof.KHost0.lean ====
/-
  The host stretch before the first region, read at an arbitrary valuation of the buffers: the edges' sources and
  destinations (the two rows of the edge array), the aggregation of the input features along the edges, and layer 0's
  two bias vectors as one-row arrays. Every buffer a region or a later stretch reads is a named function of the
  argument arrays.
-/
import proofs.«117300_j5643587027248_1_alg».proof.Proof.KHostAgg

set_option maxRecDepth 4000

noncomputable section

namespace Cert.KernelIdeal.Hand

open Cert.KernelIdeal Cert.KernelIdeal.Gen
open Idealize.ShloMosaic Idealize.ShloMosaic.TcCoe Idealize.ShloMosaic.ValueIdx Idealize.SL.Sem

/-! ## Stretch 0: the edge lists, the first aggregation and layer 0's bias rows -/

/-- After the stretch, the sources buffer holds row 0 of the edge array, flattened. -/
theorem h0_v1 (W : Valuation τ sig (Elt Ideal)) :
    StableHlo.after (hostOps0 (F := Ideal)) W (Proc.devRef .tc main_v1) = srcK (W (Proc.devRef .tc main_arg1)) := by
  after_results
  rfl

/-- After the stretch, the destinations buffer holds row 1 of the edge array, flattened. -/
theorem h0_v3 (W : Valuation τ sig (Elt Ideal)) :
    StableHlo.after (hostOps0 (F := Ideal)) W (Proc.devRef .tc main_v3) = dstK (W (Proc.devRef .tc main_arg1)) := by
  after_results
  rfl

set_option maxHeartbeats 400000 in
/-- After the stretch, the aggregate buffer holds the aggregation of the input features along the edges. -/
theorem h0_v13 (W : Valuation τ sig (Elt Ideal)) :
    StableHlo.after (hostOps0 (F := Ideal)) W (Proc.devRef .tc main_v13)
      = aggK' (srcK (W (Proc.devRef .tc main_arg1))) (dstK (W (Proc.devRef .tc main_arg1)))
          (W (Proc.devRef .tc main_arg0)) := by
  after_results_simp
  rfl

/-- Layer 0's first bias vector, as a one-row array. -/
theorem h0_v14 (W : Valuation τ sig (Elt Ideal)) :
    StableHlo.after (hostOps0 (F := Ideal)) W (Proc.devRef .tc main_v14)
      = Cert.Net.rowOf (W (Proc.devRef .tc main_arg4)) := by
  after_results
  exact reshape_rowOf _ _

/-- Layer 0's second bias vector, as a one-row array. -/
theorem h0_v15 (W : Valuation τ sig (Elt Ideal)) :
    StableHlo.after (hostOps0 (F := Ideal)) W (Proc.devRef .tc main_v15)
      = Cert.Net.rowOf (W (Proc.devRef .tc main_arg6)) := by
  after_results
  exact reshape_rowOf _ _

end Cert.KernelIdeal.Hand

end
-- ==== Proof.KHost1.lean ====
/-
  The host stretches before the four normalisation regions, read at an arbitrary valuation of the buffers.

  Each such stretch takes the two one-row column sums a layer's first region wrote (of the layer's activations and of
  their squares), and forms the means row (sum divided by the count 100000) and the variance row (mean of squares minus
  squared mean); and it reshapes the layer's scale and shift vectors to one-row arrays. Every buffer the next region
  reads is therefore a named function of the buffers the stretch starts from.
-/
import proofs.«117300_j5643587027248_1_alg».proof.Proof.KHostLib

set_option maxRecDepth 4000

noncomputable section

namespace Cert.KernelIdeal.Hand

open Cert.KernelIdeal Cert.KernelIdeal.Gen
open Idealize.ShloMosaic Idealize.ShloMosaic.TcCoe Idealize.ShloMosaic.ValueIdx Idealize.SL.Sem

/-! ## Stretch 1: the two statistics rows and the scale and shift rows -/

/-- The means row: the column sums divided by the count. -/
theorem h1_v25 (W : Valuation τ sig (Elt Ideal)) :
    StableHlo.after (hostOps1 (F := Ideal)) W (Proc.devRef .tc main_v25)
      = Cert.Spec.meanRow (W (Proc.devRef .tc main_v16_1)) := by
  after_results
  exact host_meanRow _ _ _ _

/-- The variance row: mean of squares minus squared mean, from the two column sums. -/
theorem h1_v26 (W : Valuation τ sig (Elt Ideal)) :
    StableHlo.after (hostOps1 (F := Ideal)) W (Proc.devRef .tc main_v26)
      = Cert.Spec.varRow (W (Proc.devRef .tc main_v16_1)) (W (Proc.devRef .tc main_v16_2)) := by
  after_results
  exact host_varRow _ _ _ _ _

/-- The scale as a one-row array. -/
theorem h1_v27 (W : Valuation τ sig (Elt Ideal)) :
    StableHlo.after (hostOps1 (F := Ideal)) W (Proc.devRef .tc main_v27)
      = Cert.Net.rowOf (W (Proc.devRef .tc main_arg7)) := by
  after_results
  exact reshape_rowOf _ _

/-- The shift as a one-row array. -/
theorem h1_v28 (W : Valuation τ sig (Elt Ideal)) :
    StableHlo.after (hostOps1 (F := Ideal)) W (Proc.devRef .tc main_v28)
      = Cert.Net.rowOf (W (Proc.devRef .tc main_arg8)) := by
  after_results
  exact reshape_rowOf _ _

/-! ## Stretch 3: the two statistics rows and the scale and shift rows -/

/-- The means row: the column sums divided by the count. -/
theorem h3_v63 (W : Valuation τ sig (Elt Ideal)) :
    StableHlo.after (hostOps3 (F := Ideal)) W (Proc.devRef .tc main_v63)
      = Cert.Spec.meanRow (W (Proc.devRef .tc main_v54_1)) := by
  after_results
  exact host_meanRow _ _ _ _

/-- The variance row: mean of squares minus squared mean, from the two column sums. -/
theorem h3_v64 (W : Valuation τ sig (Elt Ideal)) :
    StableHlo.after (hostOps3 (F := Ideal)) W (Proc.devRef .tc main_v64)
      = Cert.Spec.varRow (W (Proc.devRef .tc main_v54_1)) (W (Proc.devRef .tc main_v54_2)) := by
  after_results
  exact host_varRow _ _ _ _ _

/-- The scale as a one-row array. -/
theorem h3_v65 (W : Valuation τ sig (Elt Ideal)) :
    StableHlo.after (hostOps3 (F := Ideal)) W (Proc.devRef .tc main_v65)
      = Cert.Net.rowOf (W (Proc.devRef .tc main_v39)) := by
  after_results
  exact reshape_rowOf _ _

/-- The shift as a one-row array. -/
theorem h3_v66 (W : Valuation τ sig (Elt Ideal)) :
    StableHlo.after (hostOps3 (F := Ideal)) W (Proc.devRef .tc main_v66)
      = Cert.Net.rowOf (W (Proc.devRef .tc main_v41)) := by
  after_results
  exact reshape_rowOf _ _

/-! ## Stretch 5: the two statistics rows and the scale and shift rows -/

/-- The means row: the column sums divided by the count. -/
theorem h5_v101 (W : Valuation τ sig (Elt Ideal)) :
    StableHlo.after (hostOps5 (F := Ideal)) W (Proc.devRef .tc main_v101)
      = Cert.Spec.meanRow (W (Proc.devRef .tc main_v92_1)) := by
  after_results
  exact host_meanRow _ _ _ _

/-- The variance row: mean of squares minus squared mean, from the two column sums. -/
theorem h5_v102 (W : Valuation τ sig (Elt Ideal)) :
    StableHlo.after (hostOps5 (F := Ideal)) W (Proc.devRef .tc main_v102)
      = Cert.Spec.varRow (W (Proc.devRef .tc main_v92_1)) (W (Proc.devRef .tc main_v92_2)) := by
  after_results
  exact host_varRow _ _ _ _ _

/-- The scale as a one-row array. -/
theorem h5_v103 (W : Valuation τ sig (Elt Ideal)) :
    StableHlo.after (hostOps5 (F := Ideal)) W (Proc.devRef .tc main_v103)
      = Cert.Net.rowOf (W (Proc.devRef .tc main_v77)) := by
  after_results
  exact reshape_rowOf _ _

/-- The shift as a one-row array. -/
theorem h5_v104 (W : Valuation τ sig (Elt Ideal)) :
    StableHlo.after (hostOps5 (F := Ideal)) W (Proc.devRef .tc main_v104)
      = Cert.Net.rowOf (W (Proc.devRef .tc main_v79)) := by
  after_results
  exact reshape_rowOf _ _

/-! ## Stretch 7: the two statistics rows and the scale and shift rows -/

/-- The means row: the column sums divided by the count. -/
theorem h7_v139 (W : Valuation τ sig (Elt Ideal)) :
    StableHlo.after (hostOps7 (F := Ideal)) W (Proc.devRef .tc main_v139)
      = Cert.Spec.meanRow (W (Proc.devRef .tc main_v130_1)) := by
  after_results
  exact host_meanRow _ _ _ _

/-- The variance row: mean of squares minus squared mean, from the two column sums. -/
theorem h7_v140 (W : Valuation τ sig (Elt Ideal)) :
    StableHlo.after (hostOps7 (F := Ideal)) W (Proc.devRef .tc main_v140)
      = Cert.Spec.varRow (W (Proc.devRef .tc main_v130_1)) (W (Proc.devRef .tc main_v130_2)) := by
  after_results
  exact host_varRow _ _ _ _ _

/-- The scale as a one-row array. -/
theorem h7_v141 (W : Valuation τ sig (Elt Ideal)) :
    StableHlo.after (hostOps7 (F := Ideal)) W (Proc.devRef .tc main_v141)
      = Cert.Net.rowOf (W (Proc.devRef .tc main_v115)) := by
  after_results
  exact reshape_rowOf _ _

/-- The shift as a one-row array. -/
theorem h7_v142 (W : Valuation τ sig (Elt Ideal)) :
    StableHlo.after (hostOps7 (F := Ideal)) W (Proc.devRef .tc main_v142)
      = Cert.Net.rowOf (W (Proc.devRef .tc main_v117)) := by
  after_results
  exact reshape_rowOf _ _

end Cert.KernelIdeal.Hand

end
-- ==== Proof.KHost2.lean ====
/-
  The host stretches before layers 1, 2 and 3, read at an arbitrary valuation of the buffers: slice l of each stacked
  parameter array (the two weight matrices; the two bias vectors as one-row arrays; the scale and shift as vectors, which
  the following stretch turns into one-row arrays), and the aggregation of the previous layer's output along the edges.
-/
import proofs.«117300_j5643587027248_1_alg».proof.Proof.KHostAgg

set_option maxRecDepth 4000

noncomputable section

namespace Cert.KernelIdeal.Hand

open Cert.KernelIdeal Cert.KernelIdeal.Gen
open Idealize.ShloMosaic Idealize.ShloMosaic.TcCoe Idealize.ShloMosaic.ValueIdx Idealize.SL.Sem

/-! ## Stretch 2: slice 0 of the stacked parameters, and the aggregation of the previous layer's output -/

/-- The first weight matrix of the layer: matrix 0 of the stack. -/
theorem h2_v31 (W : Valuation τ sig (Elt Ideal)) :
    StableHlo.after (hostOps2 (F := Ideal)) W (Proc.devRef .tc main_v31)
      = Cert.Net.matOf (W (Proc.devRef .tc main_arg9)) 0 := by
  after_results
  exact slice_matOf _ 0 ![0, 0, 0] rfl rfl rfl _ _

/-- The first bias of the layer as a one-row array: row 0 of the stack. -/
theorem h2_v52 (W : Valuation τ sig (Elt Ideal)) :
    StableHlo.after (hostOps2 (F := Ideal)) W (Proc.devRef .tc main_v52)
      = Cert.Net.rowOf3 (W (Proc.devRef .tc main_arg10)) 0 := by
  after_results
  exact slice_rowOf3 _ 0 ![0, 0] rfl rfl _ _ _

/-- The second weight matrix of the layer: matrix 0 of the stack. -/
theorem h2_v35 (W : Valuation τ sig (Elt Ideal)) :
    StableHlo.after (hostOps2 (F := Ideal)) W (Proc.devRef .tc main_v35)
      = Cert.Net.matOf (W (Proc.devRef .tc main_arg11)) 0 := by
  after_results
  exact slice_matOf _ 0 ![0, 0, 0] rfl rfl rfl _ _

/-- The second bias of the layer as a one-row array: row 0 of the stack. -/
theorem h2_v53 (W : Valuation τ sig (Elt Ideal)) :
    StableHlo.after (hostOps2 (F := Ideal)) W (Proc.devRef .tc main_v53)
      = Cert.Net.rowOf3 (W (Proc.devRef .tc main_arg12)) 0 := by
  after_results
  exact slice_rowOf3 _ 0 ![0, 0] rfl rfl _ _ _

/-- The scale of the layer as a vector: row 0 of the stack. -/
theorem h2_v39 (W : Valuation τ sig (Elt Ideal)) :
    StableHlo.after (hostOps2 (F := Ideal)) W (Proc.devRef .tc main_v39)
      = vecOf3 (W (Proc.devRef .tc main_arg13)) 0 := by
  after_results
  exact slice_vecOf3 _ 0 ![0, 0] rfl rfl _ _

/-- The shift of the layer as a vector: row 0 of the stack. -/
theorem h2_v41 (W : Valuation τ sig (Elt Ideal)) :
    StableHlo.after (hostOps2 (F := Ideal)) W (Proc.devRef .tc main_v41)
      = vecOf3 (W (Proc.devRef .tc main_arg14)) 0 := by
  after_results
  exact slice_vecOf3 _ 0 ![0, 0] rfl rfl _ _

set_option maxHeartbeats 400000 in
/-- The aggregation of the previous layer's output along the edges. -/
theorem h2_v51 (W : Valuation τ sig (Elt Ideal)) :
    StableHlo.after (hostOps2 (F := Ideal)) W (Proc.devRef .tc main_v51)
      = aggK' (W (Proc.devRef .tc main_v1)) (W (Proc.devRef .tc main_v3)) (W (Proc.devRef .tc main_v29)) := by
  after_results_simp
  rfl

/-! ## Stretch 4: slice 1 of the stacked parameters, and the aggregation of the previous layer's output -/

/-- The first weight matrix of the layer: matrix 1 of the stack. -/
theorem h4_v69 (W : Valuation τ sig (Elt Ideal)) :
    StableHlo.after (hostOps4 (F := Ideal)) W (Proc.devRef .tc main_v69)
      = Cert.Net.matOf (W (Proc.devRef .tc main_arg9)) 1 := by
  after_results
  exact slice_matOf _ 1 ![1, 0, 0] rfl rfl rfl _ _

/-- The first bias of the layer as a one-row array: row 1 of the stack. -/
theorem h4_v90 (W : Valuation τ sig (Elt Ideal)) :
    StableHlo.after (hostOps4 (F := Ideal)) W (Proc.devRef .tc main_v90)
      = Cert.Net.rowOf3 (W (Proc.devRef .tc main_arg10)) 1 := by
  after_results
  exact slice_rowOf3 _ 1 ![1, 0] rfl rfl _ _ _

/-- The second weight matrix of the layer: matrix 1 of the stack. -/
theorem h4_v73 (W : Valuation τ sig (Elt Ideal)) :
    StableHlo.after (hostOps4 (F := Ideal)) W (Proc.devRef .tc main_v73)
      = Cert.Net.matOf (W (Proc.devRef .tc main_arg11)) 1 := by
  after_results
  exact slice_matOf _ 1 ![1, 0, 0] rfl rfl rfl _ _

/-- The second bias of the layer as a one-row array: row 1 of the stack. -/
theorem h4_v91 (W : Valuation τ sig (Elt Ideal)) :
    StableHlo.after (hostOps4 (F := Ideal)) W (Proc.devRef .tc main_v91)
      = Cert.Net.rowOf3 (W (Proc.devRef .tc main_arg12)) 1 := by
  after_results
  exact slice_rowOf3 _ 1 ![1, 0] rfl rfl _ _ _

/-- The scale of the layer as a vector: row 1 of the stack. -/
theorem h4_v77 (W : Valuation τ sig (Elt Ideal)) :
    StableHlo.after (hostOps4 (F := Ideal)) W (Proc.devRef .tc main_v77)
      = vecOf3 (W (Proc.devRef .tc main_arg13)) 1 := by
  after_results
  exact slice_vecOf3 _ 1 ![1, 0] rfl rfl _ _

/-- The shift of the layer as a vector: row 1 of the stack. -/
theorem h4_v79 (W : Valuation τ sig (Elt Ideal)) :
    StableHlo.after (hostOps4 (F := Ideal)) W (Proc.devRef .tc main_v79)
      = vecOf3 (W (Proc.devRef .tc main_arg14)) 1 := by
  after_results
  exact slice_vecOf3 _ 1 ![1, 0] rfl rfl _ _

set_option maxHeartbeats 400000 in
/-- The aggregation of the previous layer's output along the edges. -/
theorem h4_v89 (W : Valuation τ sig (Elt Ideal)) :
    StableHlo.after (hostOps4 (F := Ideal)) W (Proc.devRef .tc main_v89)
      = aggK' (W (Proc.devRef .tc main_v1)) (W (Proc.devRef .tc main_v3)) (W (Proc.devRef .tc main_v67)) := by
  after_results_simp
  rfl

/-! ## Stretch 6: slice 2 of the stacked parameters, and the aggregation of the previous layer's output -/

/-- The first weight matrix of the layer: matrix 2 of the stack. -/
theorem h6_v107 (W : Valuation τ sig (Elt Ideal)) :
    StableHlo.after (hostOps6 (F := Ideal)) W (Proc.devRef .tc main_v107)
      = Cert.Net.matOf (W (Proc.devRef .tc main_arg9)) 2 := by
  after_results
  exact slice_matOf _ 2 ![2, 0, 0] rfl rfl rfl _ _

/-- The first bias of the layer as a one-row array: row 2 of the stack. -/
theorem h6_v128 (W : Valuation τ sig (Elt Ideal)) :
    StableHlo.after (hostOps6 (F := Ideal)) W (Proc.devRef .tc main_v128)
      = Cert.Net.rowOf3 (W (Proc.devRef .tc main_arg10)) 2 := by
  after_results
  exact slice_rowOf3 _ 2 ![2, 0] rfl rfl _ _ _

/-- The second weight matrix of the layer: matrix 2 of the stack. -/
theorem h6_v111 (W : Valuation τ sig (Elt Ideal)) :
    StableHlo.after (hostOps6 (F := Ideal)) W (Proc.devRef .tc main_v111)
      = Cert.Net.matOf (W (Proc.devRef .tc main_arg11)) 2 := by
  after_results
  exact slice_matOf _ 2 ![2, 0, 0] rfl rfl rfl _ _

/-- The second bias of the layer as a one-row array: row 2 of the stack. -/
theorem h6_v129 (W : Valuation τ sig (Elt Ideal)) :
    StableHlo.after (hostOps6 (F := Ideal)) W (Proc.devRef .tc main_v129)
      = Cert.Net.rowOf3 (W (Proc.devRef .tc main_arg12)) 2 := by
  after_results
  exact slice_rowOf3 _ 2 ![2, 0] rfl rfl _ _ _

/-- The scale of the layer as a vector: row 2 of the stack. -/
theorem h6_v115 (W : Valuation τ sig (Elt Ideal)) :
    StableHlo.after (hostOps6 (F := Ideal)) W (Proc.devRef .tc main_v115)
      = vecOf3 (W (Proc.devRef .tc main_arg13)) 2 := by
  after_results
  exact slice_vecOf3 _ 2 ![2, 0] rfl rfl _ _

/-- The shift of the layer as a vector: row 2 of the stack. -/
theorem h6_v117 (W : Valuation τ sig (Elt Ideal)) :
    StableHlo.after (hostOps6 (F := Ideal)) W (Proc.devRef .tc main_v117)
      = vecOf3 (W (Proc.devRef .tc main_arg14)) 2 := by
  after_results
  exact slice_vecOf3 _ 2 ![2, 0] rfl rfl _ _

set_option maxHeartbeats 400000 in
/-- The aggregation of the previous layer's output along the edges. -/
theorem h6_v127 (W : Valuation τ sig (Elt Ideal)) :
    StableHlo.after (hostOps6 (F := Ideal)) W (Proc.devRef .tc main_v127)
      = aggK' (W (Proc.devRef .tc main_v1)) (W (Proc.devRef .tc main_v3)) (W (Proc.devRef .tc main_v105)) := by
  after_results_simp
  rfl

end Cert.KernelIdeal.Hand

end
-- ==== Proof.KHost8.lean ====
/-
  The host stretch before the classifier region, read at an arbitrary valuation of the buffers: the pooled features of
  the four layers' outputs, and the classifier's two bias vectors as one-row arrays.
-/
import proofs.«117300_j5643587027248_1_alg».proof.Proof.KHostAgg

set_option maxRecDepth 4000

noncomputable section

namespace Cert.KernelIdeal.Hand

open Cert.KernelIdeal Cert.KernelIdeal.Gen
open Idealize.ShloMosaic Idealize.ShloMosaic.TcCoe Idealize.ShloMosaic.ValueIdx Idealize.SL.Sem

/-! ## Stretch 8: the pooled features and the classifier's bias rows -/

set_option maxHeartbeats 400000 in
/-- The pooled features: the per-graph means of the four layers' outputs side by side. -/
theorem h8_v156 (W : Valuation τ sig (Elt Ideal)) :
    StableHlo.after (hostOps8 (F := Ideal)) W (Proc.devRef .tc main_v156)
      = poolK (W (Proc.devRef .tc main_arg2)) (W (Proc.devRef .tc main_v29)) (W (Proc.devRef .tc main_v67))
          (W (Proc.devRef .tc main_v105)) (W (Proc.devRef .tc main_v143)) := by
  after_results_simp
  rfl

/-- The classifier's first bias vector, as a one-row array. -/
theorem h8_v157 (W : Valuation τ sig (Elt Ideal)) :
    StableHlo.after (hostOps8 (F := Ideal)) W (Proc.devRef .tc main_v157)
      = Cert.Net.rowOf (W (Proc.devRef .tc main_arg16)) := by
  after_results
  exact reshape_rowOf _ _

/-- The classifier's second bias vector, as a one-row array. -/
theorem h8_v158 (W : Valuation τ sig (Elt Ideal)) :
    StableHlo.after (hostOps8 (F := Ideal)) W (Proc.devRef .tc main_v158)
      = Cert.Net.rowOf10 (W (Proc.devRef .tc main_arg18)) := by
  after_results
  exact reshape_rowOf10 _ _

end Cert.KernelIdeal.Hand

end
-- ==== Proof.KernelValue.lean ====
/-
  The kernel's value. After the nine regions and the host stretches between them the result array holds the network
  function of the launch contents: layer by layer, a region's arrays end at the closed forms of its value (two rectified
  dense layers of x + agg with their column sums; the normalisation; the classifier), a host stretch turns the column
  sums into the mean and the "mean of squares minus squared mean" variance and lays out the parameters' slices, and a
  buffer that nothing in between writes is read back unchanged.
-/
import proofs.«117300_j5643587027248_1_alg».proof.Proof.FrameRun
import proofs.«117300_j5643587027248_1_alg».proof.Proof.ValueCls
import proofs.«117300_j5643587027248_1_alg».proof.Proof.ValueNorm1
import proofs.«117300_j5643587027248_1_alg».proof.Proof.ValueNorm3
import proofs.«117300_j5643587027248_1_alg».proof.Proof.ValueNorm5
import proofs.«117300_j5643587027248_1_alg».proof.Proof.ValueNorm7
import proofs.«117300_j5643587027248_1_alg».proof.Proof.ValueMlp0
import proofs.«117300_j5643587027248_1_alg».proof.Proof.ValueMlp2
import proofs.«117300_j5643587027248_1_alg».proof.Proof.ValueMlp4
import proofs.«117300_j5643587027248_1_alg».proof.Proof.ValueMlp6
import proofs.«117300_j5643587027248_1_alg».proof.Proof.KHost0
import proofs.«117300_j5643587027248_1_alg».proof.Proof.KHost1
import proofs.«117300_j5643587027248_1_alg».proof.Proof.KHost2
import proofs.«117300_j5643587027248_1_alg».proof.Proof.KHost8
import proofs.«117300_j5643587027248_1_alg».proof.Proof.Net

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- Argument 0's launch contents on core `c`. -/
abbrev a0 : S100000x128.Idx → EReal := m ((c : Thread nD τ).loc main_arg0)
/-- Argument 1's launch contents on core `c`. -/
abbrev a1 : IVec S2x1600000 32 := m ((c : Thread nD τ).loc main_arg1)
/-- Argument 2's launch contents on core `c`. -/
abbrev a2 : IVec S100000 32 := m ((c : Thread nD τ).loc main_arg2)
/-- Argument 3's launch contents on core `c`. -/
abbrev a3 : S128x128.Idx → EReal := m ((c : Thread nD τ).loc main_arg3)
/-- Argument 4's launch contents on core `c`. -/
abbrev a4 : S128.Idx → EReal := m ((c : Thread nD τ).loc main_arg4)
/-- Argument 5's launch contents on core `c`. -/
abbrev a5 : S128x128.Idx → EReal := m ((c : Thread nD τ).loc main_arg5)
/-- Argument 6's launch contents on core `c`. -/
abbrev a6 : S128.Idx → EReal := m ((c : Thread nD τ).loc main_arg6)
/-- Argument 7's launch contents on core `c`. -/
abbrev a7 : S128.Idx → EReal := m ((c : Thread nD τ).loc main_arg7)
/-- Argument 8's launch contents on core `c`. -/
abbrev a8 : S128.Idx → EReal := m ((c : Thread nD τ).loc main_arg8)
/-- Argument 9's launch contents on core `c`. -/
abbrev a9 : S3x128x128.Idx → EReal := m ((c : Thread nD τ).loc main_arg9)
/-- Argument 10's launch contents on core `c`. -/
abbrev a10 : S3x128.Idx → EReal := m ((c : Thread nD τ).loc main_arg10)
/-- Argument 11's launch contents on core `c`. -/
abbrev a11 : S3x128x128.Idx → EReal := m ((c : Thread nD τ).loc main_arg11)
/-- Argument 12's launch contents on core `c`. -/
abbrev a12 : S3x128.Idx → EReal := m ((c : Thread nD τ).loc main_arg12)
/-- Argument 13's launch contents on core `c`. -/
abbrev a13 : S3x128.Idx → EReal := m ((c : Thread nD τ).loc main_arg13)
/-- Argument 14's launch contents on core `c`. -/
abbrev a14 : S3x128.Idx → EReal := m ((c : Thread nD τ).loc main_arg14)
/-- Argument 15's launch contents on core `c`. -/
abbrev a15 : S512x128.Idx → EReal := m ((c : Thread nD τ).loc main_arg15)
/-- Argument 16's launch contents on core `c`. -/
abbrev a16 : S128.Idx → EReal := m ((c : Thread nD τ).loc main_arg16)
/-- Argument 17's launch contents on core `c`. -/
abbrev a17 : S128x10.Idx → EReal := m ((c : Thread nD τ).loc main_arg17)
/-- Argument 18's launch contents on core `c`. -/
abbrev a18 : S10.Idx → EReal := m ((c : Thread nD τ).loc main_arg18)

/-- The kernel program's neighbour aggregation as a function of the features: its edge list fixed at launch. -/
def aggK : (S100000x128.Idx → EReal) → S100000x128.Idx → EReal :=
  fun x => aggK' (srcK (a1 m c)) (dstK (a1 m c)) x

/-- The seventeen float arguments as launched. -/
def paramsK : Cert.Net.Params :=
  { x := a0 m c, w1_0 := a3 m c, b1_0 := a4 m c, w2_0 := a5 m c, b2_0 := a6 m c, gamma0 := a7 m c, beta0 := a8 m c,
    w1s := a9 m c, b1s := a10 m c, w2s := a11 m c, b2s := a12 m c, gammas := a13 m c, betas := a14 m c,
    lin1_w := a15 m c, lin1_b := a16 m c, lin2_w := a17 m c, lin2_b := a18 m c }

/-! ## Layer 0 -/

theorem K_src : (Gen.V1 m c) main_v1 = srcK (a1 m c) :=
  h0_v1 (Gen.V0 m c)
theorem K_dst : (Gen.V1 m c) main_v3 = dstK (a1 m c) :=
  h0_v3 (Gen.V0 m c)
theorem K_arg0_1 : (Gen.V1 m c) main_arg0 = (a0 m c) :=
  (Gen.V1_of m c main_arg0 (by decide))
theorem L0_x : (Gen.V1 m c) main_arg0 = (a0 m c) :=
  K_arg0_1 m c
theorem L0_agg : (Gen.V1 m c) main_v13 = aggK m c (a0 m c) :=
  h0_v13 (Gen.V0 m c)
theorem K_arg3_1 : (Gen.V1 m c) main_arg3 = (a3 m c) :=
  (Gen.V1_of m c main_arg3 (by decide))
theorem L0_w1 : (Gen.V1 m c) main_arg3 = (a3 m c) :=
  K_arg3_1 m c
theorem L0_b1 : (Gen.V1 m c) main_v14 = (Cert.Net.rowOf (a4 m c)) :=
  h0_v14 (Gen.V0 m c)
theorem K_arg5_1 : (Gen.V1 m c) main_arg5 = (a5 m c) :=
  (Gen.V1_of m c main_arg5 (by decide))
theorem L0_w2 : (Gen.V1 m c) main_arg5 = (a5 m c) :=
  K_arg5_1 m c
theorem L0_b2 : (Gen.V1 m c) main_v15 = (Cert.Net.rowOf (a6 m c)) :=
  h0_v15 (Gen.V0 m c)
theorem L0_h : outsS9 m 2 main_v16_0 c = (Cert.Spec.mlpArr (a0 m c) (aggK m c (a0 m c)) (a3 m c) (Cert.Net.rowOf (a4 m c)) (a5 m c) (Cert.Net.rowOf (a6 m c))) :=
  ((outsS_ok m).o0_6 c).trans ((final_mlp0_h (In0 m) c).trans (by
    show Cert.Spec.mlpArr ((Gen.V1 m c) main_arg0) ((Gen.V1 m c) main_v13) ((Gen.V1 m c) main_arg3) ((Gen.V1 m c) main_v14) ((Gen.V1 m c) main_arg5) ((Gen.V1 m c) main_v15) = _
    rw [L0_x m c, L0_agg m c, L0_w1 m c, L0_b1 m c, L0_w2 m c, L0_b2 m c]))
theorem L0_s : outsS9 m 2 main_v16_1 c = Cert.Spec.colSum (Cert.Spec.mlpArr (a0 m c) (aggK m c (a0 m c)) (a3 m c) (Cert.Net.rowOf (a4 m c)) (a5 m c) (Cert.Net.rowOf (a6 m c))) :=
  ((outsS_ok m).o0_7 c).trans ((final_mlp0_s (In0 m) c).trans (by
    show Cert.Spec.colSum (Cert.Spec.mlpArr ((Gen.V1 m c) main_arg0) ((Gen.V1 m c) main_v13) ((Gen.V1 m c) main_arg3) ((Gen.V1 m c) main_v14) ((Gen.V1 m c) main_arg5) ((Gen.V1 m c) main_v15)) = _
    rw [L0_x m c, L0_agg m c, L0_w1 m c, L0_b1 m c, L0_w2 m c, L0_b2 m c]))
theorem L0_ss : outsS9 m 2 main_v16_2 c = Cert.Spec.colSumSq (Cert.Spec.mlpArr (a0 m c) (aggK m c (a0 m c)) (a3 m c) (Cert.Net.rowOf (a4 m c)) (a5 m c) (Cert.Net.rowOf (a6 m c))) :=
  ((outsS_ok m).o0_8 c).trans ((final_mlp0_ss (In0 m) c).trans (by
    show Cert.Spec.colSumSq (Cert.Spec.mlpArr ((Gen.V1 m c) main_arg0) ((Gen.V1 m c) main_v13) ((Gen.V1 m c) main_arg3) ((Gen.V1 m c) main_v14) ((Gen.V1 m c) main_arg5) ((Gen.V1 m c) main_v15)) = _
    rw [L0_x m c, L0_agg m c, L0_w1 m c, L0_b1 m c, L0_w2 m c, L0_b2 m c]))
theorem L0_hin : (Gen.V3 m (outsS9 m) c) main_v16_0 = (Cert.Spec.mlpArr (a0 m c) (aggK m c (a0 m c)) (a3 m c) (Cert.Net.rowOf (a4 m c)) (a5 m c) (Cert.Net.rowOf (a6 m c))) :=
  (Gen.V3_of m (outsS9 m) c main_v16_0 (by decide)).trans ((V2_at_6 m (outsS9 m) c).trans (L0_h m c))
theorem L0_mean : (Gen.V3 m (outsS9 m) c) main_v25 = Cert.Spec.meanRow (Cert.Spec.colSum (Cert.Spec.mlpArr (a0 m c) (aggK m c (a0 m c)) (a3 m c) (Cert.Net.rowOf (a4 m c)) (a5 m c) (Cert.Net.rowOf (a6 m c)))) :=
  (h1_v25 (Gen.V2 m (outsS9 m) c)).trans (by rw [V2_at_7 m (outsS9 m) c, L0_s m c])
theorem L0_var : (Gen.V3 m (outsS9 m) c) main_v26 = Cert.Spec.varRow (Cert.Spec.colSum (Cert.Spec.mlpArr (a0 m c) (aggK m c (a0 m c)) (a3 m c) (Cert.Net.rowOf (a4 m c)) (a5 m c) (Cert.Net.rowOf (a6 m c)))) (Cert.Spec.colSumSq (Cert.Spec.mlpArr (a0 m c) (aggK m c (a0 m c)) (a3 m c) (Cert.Net.rowOf (a4 m c)) (a5 m c) (Cert.Net.rowOf (a6 m c)))) :=
  (h1_v26 (Gen.V2 m (outsS9 m) c)).trans (by rw [V2_at_7 m (outsS9 m) c, V2_at_8 m (outsS9 m) c, L0_s m c, L0_ss m c])
theorem K_arg7_2 : (Gen.V2 m (outsS9 m) c) main_arg7 = (a7 m c) :=
  ((Gen.V2_of m (outsS9 m) c main_arg7 (by decide)).trans (Gen.V1_of m c main_arg7 (by decide)))
theorem L0_g : (Gen.V3 m (outsS9 m) c) main_v27 = (Cert.Net.rowOf (a7 m c)) :=
  (h1_v27 (Gen.V2 m (outsS9 m) c)).trans (by rw [K_arg7_2 m c])
theorem K_arg8_2 : (Gen.V2 m (outsS9 m) c) main_arg8 = (a8 m c) :=
  ((Gen.V2_of m (outsS9 m) c main_arg8 (by decide)).trans (Gen.V1_of m c main_arg8 (by decide)))
theorem L0_b : (Gen.V3 m (outsS9 m) c) main_v28 = (Cert.Net.rowOf (a8 m c)) :=
  (h1_v28 (Gen.V2 m (outsS9 m) c)).trans (by rw [K_arg8_2 m c])
theorem L0_out : outsS9 m 4 main_v29 c = Cert.Net.layer (aggK m c) Cert.Net.varSums (a0 m c) (a3 m c) (Cert.Net.rowOf (a4 m c)) (a5 m c) (Cert.Net.rowOf (a6 m c)) (Cert.Net.rowOf (a7 m c)) (Cert.Net.rowOf (a8 m c)) :=
  ((outsS_ok m).o1_5 c).trans ((final_norm1 (In1 m (outsS9 m)) c).trans (by
    show Cert.Spec.normArr ((Gen.V3 m (outsS9 m) c) main_v16_0) ((Gen.V3 m (outsS9 m) c) main_v25) ((Gen.V3 m (outsS9 m) c) main_v26) ((Gen.V3 m (outsS9 m) c) main_v27) ((Gen.V3 m (outsS9 m) c) main_v28) = _
    rw [L0_hin m c, L0_mean m c, L0_var m c, L0_g m c, L0_b m c]; rfl))
theorem kx1 : outsS9 m 4 main_v29 c = Cert.Net.x1 (aggK m c) Cert.Net.varSums (paramsK m c) :=
  L0_out m c

/-! ## Layer 1 -/

theorem K_v1_4_1 : (Gen.V4 m (outsS9 m) c) main_v1 = (Gen.V1 m c) main_v1 :=
  (((Gen.V4_of m (outsS9 m) c main_v1 (by decide)).trans (Gen.V3_of m (outsS9 m) c main_v1 (by decide))).trans (Gen.V2_of m (outsS9 m) c main_v1 (by decide)))
theorem K_v3_4_1 : (Gen.V4 m (outsS9 m) c) main_v3 = (Gen.V1 m c) main_v3 :=
  (((Gen.V4_of m (outsS9 m) c main_v3 (by decide)).trans (Gen.V3_of m (outsS9 m) c main_v3 (by decide))).trans (Gen.V2_of m (outsS9 m) c main_v3 (by decide)))
theorem L1_x : (Gen.V5 m (outsS9 m) c) main_v29 = (outsS9 m 4 main_v29 c) :=
  (Gen.V5_of m (outsS9 m) c main_v29 (by decide)).trans (V4_at_5 m (outsS9 m) c)
theorem L1_agg : (Gen.V5 m (outsS9 m) c) main_v51 = aggK m c (outsS9 m 4 main_v29 c) :=
  (h2_v51 (Gen.V4 m (outsS9 m) c)).trans (by
    rw [K_v1_4_1 m c, K_v3_4_1 m c, V4_at_5 m (outsS9 m) c, K_src m c, K_dst m c]; rfl)
theorem K_arg9_4 : (Gen.V4 m (outsS9 m) c) main_arg9 = (a9 m c) :=
  ((((Gen.V4_of m (outsS9 m) c main_arg9 (by decide)).trans (Gen.V3_of m (outsS9 m) c main_arg9 (by decide))).trans (Gen.V2_of m (outsS9 m) c main_arg9 (by decide))).trans (Gen.V1_of m c main_arg9 (by decide)))
theorem L1_w1 : (Gen.V5 m (outsS9 m) c) main_v31 = (Cert.Net.matOf (a9 m c) 0) :=
  (h2_v31 (Gen.V4 m (outsS9 m) c)).trans (by rw [K_arg9_4 m c])
theorem K_arg10_4 : (Gen.V4 m (outsS9 m) c) main_arg10 = (a10 m c) :=
  ((((Gen.V4_of m (outsS9 m) c main_arg10 (by decide)).trans (Gen.V3_of m (outsS9 m) c main_arg10 (by decide))).trans (Gen.V2_of m (outsS9 m) c main_arg10 (by decide))).trans (Gen.V1_of m c main_arg10 (by decide)))
theorem L1_b1 : (Gen.V5 m (outsS9 m) c) main_v52 = (Cert.Net.rowOf3 (a10 m c) 0) :=
  (h2_v52 (Gen.V4 m (outsS9 m) c)).trans (by rw [K_arg10_4 m c])
theorem K_arg11_4 : (Gen.V4 m (outsS9 m) c) main_arg11 = (a11 m c) :=
  ((((Gen.V4_of m (outsS9 m) c main_arg11 (by decide)).trans (Gen.V3_of m (outsS9 m) c main_arg11 (by decide))).trans (Gen.V2_of m (outsS9 m) c main_arg11 (by decide))).trans (Gen.V1_of m c main_arg11 (by decide)))
theorem L1_w2 : (Gen.V5 m (outsS9 m) c) main_v35 = (Cert.Net.matOf (a11 m c) 0) :=
  (h2_v35 (Gen.V4 m (outsS9 m) c)).trans (by rw [K_arg11_4 m c])
theorem K_arg12_4 : (Gen.V4 m (outsS9 m) c) main_arg12 = (a12 m c) :=
  ((((Gen.V4_of m (outsS9 m) c main_arg12 (by decide)).trans (Gen.V3_of m (outsS9 m) c main_arg12 (by decide))).trans (Gen.V2_of m (outsS9 m) c main_arg12 (by decide))).trans (Gen.V1_of m c main_arg12 (by decide)))
theorem L1_b2 : (Gen.V5 m (outsS9 m) c) main_v53 = (Cert.Net.rowOf3 (a12 m c) 0) :=
  (h2_v53 (Gen.V4 m (outsS9 m) c)).trans (by rw [K_arg12_4 m c])
theorem L1_h : outsS9 m 6 main_v54_0 c = (Cert.Spec.mlpArr (outsS9 m 4 main_v29 c) (aggK m c (outsS9 m 4 main_v29 c)) (Cert.Net.matOf (a9 m c) 0) (Cert.Net.rowOf3 (a10 m c) 0) (Cert.Net.matOf (a11 m c) 0) (Cert.Net.rowOf3 (a12 m c) 0)) :=
  ((outsS_ok m).o2_6 c).trans ((final_mlp2_h (In2 m (outsS9 m)) c).trans (by
    show Cert.Spec.mlpArr ((Gen.V5 m (outsS9 m) c) main_v29) ((Gen.V5 m (outsS9 m) c) main_v51) ((Gen.V5 m (outsS9 m) c) main_v31) ((Gen.V5 m (outsS9 m) c) main_v52) ((Gen.V5 m (outsS9 m) c) main_v35) ((Gen.V5 m (outsS9 m) c) main_v53) = _
    rw [L1_x m c, L1_agg m c, L1_w1 m c, L1_b1 m c, L1_w2 m c, L1_b2 m c]))
theorem L1_s : outsS9 m 6 main_v54_1 c = Cert.Spec.colSum (Cert.Spec.mlpArr (outsS9 m 4 main_v29 c) (aggK m c (outsS9 m 4 main_v29 c)) (Cert.Net.matOf (a9 m c) 0) (Cert.Net.rowOf3 (a10 m c) 0) (Cert.Net.matOf (a11 m c) 0) (Cert.Net.rowOf3 (a12 m c) 0)) :=
  ((outsS_ok m).o2_7 c).trans ((final_mlp2_s (In2 m (outsS9 m)) c).trans (by
    show Cert.Spec.colSum (Cert.Spec.mlpArr ((Gen.V5 m (outsS9 m) c) main_v29) ((Gen.V5 m (outsS9 m) c) main_v51) ((Gen.V5 m (outsS9 m) c) main_v31) ((Gen.V5 m (outsS9 m) c) main_v52) ((Gen.V5 m (outsS9 m) c) main_v35) ((Gen.V5 m (outsS9 m) c) main_v53)) = _
    rw [L1_x m c, L1_agg m c, L1_w1 m c, L1_b1 m c, L1_w2 m c, L1_b2 m c]))
theorem L1_ss : outsS9 m 6 main_v54_2 c = Cert.Spec.colSumSq (Cert.Spec.mlpArr (outsS9 m 4 main_v29 c) (aggK m c (outsS9 m 4 main_v29 c)) (Cert.Net.matOf (a9 m c) 0) (Cert.Net.rowOf3 (a10 m c) 0) (Cert.Net.matOf (a11 m c) 0) (Cert.Net.rowOf3 (a12 m c) 0)) :=
  ((outsS_ok m).o2_8 c).trans ((final_mlp2_ss (In2 m (outsS9 m)) c).trans (by
    show Cert.Spec.colSumSq (Cert.Spec.mlpArr ((Gen.V5 m (outsS9 m) c) main_v29) ((Gen.V5 m (outsS9 m) c) main_v51) ((Gen.V5 m (outsS9 m) c) main_v31) ((Gen.V5 m (outsS9 m) c) main_v52) ((Gen.V5 m (outsS9 m) c) main_v35) ((Gen.V5 m (outsS9 m) c) main_v53)) = _
    rw [L1_x m c, L1_agg m c, L1_w1 m c, L1_b1 m c, L1_w2 m c, L1_b2 m c]))
theorem L1_hin : (Gen.V7 m (outsS9 m) c) main_v54_0 = (Cert.Spec.mlpArr (outsS9 m 4 main_v29 c) (aggK m c (outsS9 m 4 main_v29 c)) (Cert.Net.matOf (a9 m c) 0) (Cert.Net.rowOf3 (a10 m c) 0) (Cert.Net.matOf (a11 m c) 0) (Cert.Net.rowOf3 (a12 m c) 0)) :=
  (Gen.V7_of m (outsS9 m) c main_v54_0 (by decide)).trans ((V6_at_6 m (outsS9 m) c).trans (L1_h m c))
theorem L1_mean : (Gen.V7 m (outsS9 m) c) main_v63 = Cert.Spec.meanRow (Cert.Spec.colSum (Cert.Spec.mlpArr (outsS9 m 4 main_v29 c) (aggK m c (outsS9 m 4 main_v29 c)) (Cert.Net.matOf (a9 m c) 0) (Cert.Net.rowOf3 (a10 m c) 0) (Cert.Net.matOf (a11 m c) 0) (Cert.Net.rowOf3 (a12 m c) 0))) :=
  (h3_v63 (Gen.V6 m (outsS9 m) c)).trans (by rw [V6_at_7 m (outsS9 m) c, L1_s m c])
theorem L1_var : (Gen.V7 m (outsS9 m) c) main_v64 = Cert.Spec.varRow (Cert.Spec.colSum (Cert.Spec.mlpArr (outsS9 m 4 main_v29 c) (aggK m c (outsS9 m 4 main_v29 c)) (Cert.Net.matOf (a9 m c) 0) (Cert.Net.rowOf3 (a10 m c) 0) (Cert.Net.matOf (a11 m c) 0) (Cert.Net.rowOf3 (a12 m c) 0))) (Cert.Spec.colSumSq (Cert.Spec.mlpArr (outsS9 m 4 main_v29 c) (aggK m c (outsS9 m 4 main_v29 c)) (Cert.Net.matOf (a9 m c) 0) (Cert.Net.rowOf3 (a10 m c) 0) (Cert.Net.matOf (a11 m c) 0) (Cert.Net.rowOf3 (a12 m c) 0))) :=
  (h3_v64 (Gen.V6 m (outsS9 m) c)).trans (by rw [V6_at_7 m (outsS9 m) c, V6_at_8 m (outsS9 m) c, L1_s m c, L1_ss m c])
theorem K_arg13_4 : (Gen.V4 m (outsS9 m) c) main_arg13 = (a13 m c) :=
  ((((Gen.V4_of m (outsS9 m) c main_arg13 (by decide)).trans (Gen.V3_of m (outsS9 m) c main_arg13 (by decide))).trans (Gen.V2_of m (outsS9 m) c main_arg13 (by decide))).trans (Gen.V1_of m c main_arg13 (by decide)))
theorem L1_g : (Gen.V7 m (outsS9 m) c) main_v65 = (Cert.Net.rowOf3 (a13 m c) 0) :=
  (h3_v65 (Gen.V6 m (outsS9 m) c)).trans (by
    rw [(Gen.V6_of m (outsS9 m) c main_v39 (by decide)), show (Gen.V5 m (outsS9 m) c) main_v39 = vecOf3 ((Gen.V4 m (outsS9 m) c) main_arg13) 0 from h2_v39 (Gen.V4 m (outsS9 m) c), rowOf_vecOf3, K_arg13_4 m c])
theorem K_arg14_4 : (Gen.V4 m (outsS9 m) c) main_arg14 = (a14 m c) :=
  ((((Gen.V4_of m (outsS9 m) c main_arg14 (by decide)).trans (Gen.V3_of m (outsS9 m) c main_arg14 (by decide))).trans (Gen.V2_of m (outsS9 m) c main_arg14 (by decide))).trans (Gen.V1_of m c main_arg14 (by decide)))
theorem L1_b : (Gen.V7 m (outsS9 m) c) main_v66 = (Cert.Net.rowOf3 (a14 m c) 0) :=
  (h3_v66 (Gen.V6 m (outsS9 m) c)).trans (by
    rw [(Gen.V6_of m (outsS9 m) c main_v41 (by decide)), show (Gen.V5 m (outsS9 m) c) main_v41 = vecOf3 ((Gen.V4 m (outsS9 m) c) main_arg14) 0 from h2_v41 (Gen.V4 m (outsS9 m) c), rowOf_vecOf3, K_arg14_4 m c])
theorem L1_out : outsS9 m 8 main_v67 c = Cert.Net.layer (aggK m c) Cert.Net.varSums (outsS9 m 4 main_v29 c) (Cert.Net.matOf (a9 m c) 0) (Cert.Net.rowOf3 (a10 m c) 0) (Cert.Net.matOf (a11 m c) 0) (Cert.Net.rowOf3 (a12 m c) 0) (Cert.Net.rowOf3 (a13 m c) 0) (Cert.Net.rowOf3 (a14 m c) 0) :=
  ((outsS_ok m).o3_5 c).trans ((final_norm3 (In3 m (outsS9 m)) c).trans (by
    show Cert.Spec.normArr ((Gen.V7 m (outsS9 m) c) main_v54_0) ((Gen.V7 m (outsS9 m) c) main_v63) ((Gen.V7 m (outsS9 m) c) main_v64) ((Gen.V7 m (outsS9 m) c) main_v65) ((Gen.V7 m (outsS9 m) c) main_v66) = _
    rw [L1_hin m c, L1_mean m c, L1_var m c, L1_g m c, L1_b m c]; rfl))
theorem kx2 : outsS9 m 8 main_v67 c = Cert.Net.x2 (aggK m c) Cert.Net.varSums (paramsK m c) :=
  (L1_out m c).trans (by rw [kx1 m c]; rfl)

/-! ## Layer 2 -/

theorem K_v1_8_1 : (Gen.V8 m (outsS9 m) c) main_v1 = (Gen.V1 m c) main_v1 :=
  (((((((Gen.V8_of m (outsS9 m) c main_v1 (by decide)).trans (Gen.V7_of m (outsS9 m) c main_v1 (by decide))).trans (Gen.V6_of m (outsS9 m) c main_v1 (by decide))).trans (Gen.V5_of m (outsS9 m) c main_v1 (by decide))).trans (Gen.V4_of m (outsS9 m) c main_v1 (by decide))).trans (Gen.V3_of m (outsS9 m) c main_v1 (by decide))).trans (Gen.V2_of m (outsS9 m) c main_v1 (by decide)))
theorem K_v3_8_1 : (Gen.V8 m (outsS9 m) c) main_v3 = (Gen.V1 m c) main_v3 :=
  (((((((Gen.V8_of m (outsS9 m) c main_v3 (by decide)).trans (Gen.V7_of m (outsS9 m) c main_v3 (by decide))).trans (Gen.V6_of m (outsS9 m) c main_v3 (by decide))).trans (Gen.V5_of m (outsS9 m) c main_v3 (by decide))).trans (Gen.V4_of m (outsS9 m) c main_v3 (by decide))).trans (Gen.V3_of m (outsS9 m) c main_v3 (by decide))).trans (Gen.V2_of m (outsS9 m) c main_v3 (by decide)))
theorem L2_x : (Gen.V9 m (outsS9 m) c) main_v67 = (outsS9 m 8 main_v67 c) :=
  (Gen.V9_of m (outsS9 m) c main_v67 (by decide)).trans (V8_at_5 m (outsS9 m) c)
theorem L2_agg : (Gen.V9 m (outsS9 m) c) main_v89 = aggK m c (outsS9 m 8 main_v67 c) :=
  (h4_v89 (Gen.V8 m (outsS9 m) c)).trans (by
    rw [K_v1_8_1 m c, K_v3_8_1 m c, V8_at_5 m (outsS9 m) c, K_src m c, K_dst m c]; rfl)
theorem K_arg9_8 : (Gen.V8 m (outsS9 m) c) main_arg9 = (a9 m c) :=
  ((((((((Gen.V8_of m (outsS9 m) c main_arg9 (by decide)).trans (Gen.V7_of m (outsS9 m) c main_arg9 (by decide))).trans (Gen.V6_of m (outsS9 m) c main_arg9 (by decide))).trans (Gen.V5_of m (outsS9 m) c main_arg9 (by decide))).trans (Gen.V4_of m (outsS9 m) c main_arg9 (by decide))).trans (Gen.V3_of m (outsS9 m) c main_arg9 (by decide))).trans (Gen.V2_of m (outsS9 m) c main_arg9 (by decide))).trans (Gen.V1_of m c main_arg9 (by decide)))
theorem L2_w1 : (Gen.V9 m (outsS9 m) c) main_v69 = (Cert.Net.matOf (a9 m c) 1) :=
  (h4_v69 (Gen.V8 m (outsS9 m) c)).trans (by rw [K_arg9_8 m c])
theorem K_arg10_8 : (Gen.V8 m (outsS9 m) c) main_arg10 = (a10 m c) :=
  ((((((((Gen.V8_of m (outsS9 m) c main_arg10 (by decide)).trans (Gen.V7_of m (outsS9 m) c main_arg10 (by decide))).trans (Gen.V6_of m (outsS9 m) c main_arg10 (by decide))).trans (Gen.V5_of m (outsS9 m) c main_arg10 (by decide))).trans (Gen.V4_of m (outsS9 m) c main_arg10 (by decide))).trans (Gen.V3_of m (outsS9 m) c main_arg10 (by decide))).trans (Gen.V2_of m (outsS9 m) c main_arg10 (by decide))).trans (Gen.V1_of m c main_arg10 (by decide)))
theorem L2_b1 : (Gen.V9 m (outsS9 m) c) main_v90 = (Cert.Net.rowOf3 (a10 m c) 1) :=
  (h4_v90 (Gen.V8 m (outsS9 m) c)).trans (by rw [K_arg10_8 m c])
theorem K_arg11_8 : (Gen.V8 m (outsS9 m) c) main_arg11 = (a11 m c) :=
  ((((((((Gen.V8_of m (outsS9 m) c main_arg11 (by decide)).trans (Gen.V7_of m (outsS9 m) c main_arg11 (by decide))).trans (Gen.V6_of m (outsS9 m) c main_arg11 (by decide))).trans (Gen.V5_of m (outsS9 m) c main_arg11 (by decide))).trans (Gen.V4_of m (outsS9 m) c main_arg11 (by decide))).trans (Gen.V3_of m (outsS9 m) c main_arg11 (by decide))).trans (Gen.V2_of m (outsS9 m) c main_arg11 (by decide))).trans (Gen.V1_of m c main_arg11 (by decide)))
theorem L2_w2 : (Gen.V9 m (outsS9 m) c) main_v73 = (Cert.Net.matOf (a11 m c) 1) :=
  (h4_v73 (Gen.V8 m (outsS9 m) c)).trans (by rw [K_arg11_8 m c])
theorem K_arg12_8 : (Gen.V8 m (outsS9 m) c) main_arg12 = (a12 m c) :=
  ((((((((Gen.V8_of m (outsS9 m) c main_arg12 (by decide)).trans (Gen.V7_of m (outsS9 m) c main_arg12 (by decide))).trans (Gen.V6_of m (outsS9 m) c main_arg12 (by decide))).trans (Gen.V5_of m (outsS9 m) c main_arg12 (by decide))).trans (Gen.V4_of m (outsS9 m) c main_arg12 (by decide))).trans (Gen.V3_of m (outsS9 m) c main_arg12 (by decide))).trans (Gen.V2_of m (outsS9 m) c main_arg12 (by decide))).trans (Gen.V1_of m c main_arg12 (by decide)))
theorem L2_b2 : (Gen.V9 m (outsS9 m) c) main_v91 = (Cert.Net.rowOf3 (a12 m c) 1) :=
  (h4_v91 (Gen.V8 m (outsS9 m) c)).trans (by rw [K_arg12_8 m c])
theorem L2_h : outsS9 m 10 main_v92_0 c = (Cert.Spec.mlpArr (outsS9 m 8 main_v67 c) (aggK m c (outsS9 m 8 main_v67 c)) (Cert.Net.matOf (a9 m c) 1) (Cert.Net.rowOf3 (a10 m c) 1) (Cert.Net.matOf (a11 m c) 1) (Cert.Net.rowOf3 (a12 m c) 1)) :=
  ((outsS_ok m).o4_6 c).trans ((final_mlp4_h (In4 m (outsS9 m)) c).trans (by
    show Cert.Spec.mlpArr ((Gen.V9 m (outsS9 m) c) main_v67) ((Gen.V9 m (outsS9 m) c) main_v89) ((Gen.V9 m (outsS9 m) c) main_v69) ((Gen.V9 m (outsS9 m) c) main_v90) ((Gen.V9 m (outsS9 m) c) main_v73) ((Gen.V9 m (outsS9 m) c) main_v91) = _
    rw [L2_x m c, L2_agg m c, L2_w1 m c, L2_b1 m c, L2_w2 m c, L2_b2 m c]))
theorem L2_s : outsS9 m 10 main_v92_1 c = Cert.Spec.colSum (Cert.Spec.mlpArr (outsS9 m 8 main_v67 c) (aggK m c (outsS9 m 8 main_v67 c)) (Cert.Net.matOf (a9 m c) 1) (Cert.Net.rowOf3 (a10 m c) 1) (Cert.Net.matOf (a11 m c) 1) (Cert.Net.rowOf3 (a12 m c) 1)) :=
  ((outsS_ok m).o4_7 c).trans ((final_mlp4_s (In4 m (outsS9 m)) c).trans (by
    show Cert.Spec.colSum (Cert.Spec.mlpArr ((Gen.V9 m (outsS9 m) c) main_v67) ((Gen.V9 m (outsS9 m) c) main_v89) ((Gen.V9 m (outsS9 m) c) main_v69) ((Gen.V9 m (outsS9 m) c) main_v90) ((Gen.V9 m (outsS9 m) c) main_v73) ((Gen.V9 m (outsS9 m) c) main_v91)) = _
    rw [L2_x m c, L2_agg m c, L2_w1 m c, L2_b1 m c, L2_w2 m c, L2_b2 m c]))
theorem L2_ss : outsS9 m 10 main_v92_2 c = Cert.Spec.colSumSq (Cert.Spec.mlpArr (outsS9 m 8 main_v67 c) (aggK m c (outsS9 m 8 main_v67 c)) (Cert.Net.matOf (a9 m c) 1) (Cert.Net.rowOf3 (a10 m c) 1) (Cert.Net.matOf (a11 m c) 1) (Cert.Net.rowOf3 (a12 m c) 1)) :=
  ((outsS_ok m).o4_8 c).trans ((final_mlp4_ss (In4 m (outsS9 m)) c).trans (by
    show Cert.Spec.colSumSq (Cert.Spec.mlpArr ((Gen.V9 m (outsS9 m) c) main_v67) ((Gen.V9 m (outsS9 m) c) main_v89) ((Gen.V9 m (outsS9 m) c) main_v69) ((Gen.V9 m (outsS9 m) c) main_v90) ((Gen.V9 m (outsS9 m) c) main_v73) ((Gen.V9 m (outsS9 m) c) main_v91)) = _
    rw [L2_x m c, L2_agg m c, L2_w1 m c, L2_b1 m c, L2_w2 m c, L2_b2 m c]))
theorem L2_hin : (Gen.V11 m (outsS9 m) c) main_v92_0 = (Cert.Spec.mlpArr (outsS9 m 8 main_v67 c) (aggK m c (outsS9 m 8 main_v67 c)) (Cert.Net.matOf (a9 m c) 1) (Cert.Net.rowOf3 (a10 m c) 1) (Cert.Net.matOf (a11 m c) 1) (Cert.Net.rowOf3 (a12 m c) 1)) :=
  (Gen.V11_of m (outsS9 m) c main_v92_0 (by decide)).trans ((V10_at_6 m (outsS9 m) c).trans (L2_h m c))
theorem L2_mean : (Gen.V11 m (outsS9 m) c) main_v101 = Cert.Spec.meanRow (Cert.Spec.colSum (Cert.Spec.mlpArr (outsS9 m 8 main_v67 c) (aggK m c (outsS9 m 8 main_v67 c)) (Cert.Net.matOf (a9 m c) 1) (Cert.Net.rowOf3 (a10 m c) 1) (Cert.Net.matOf (a11 m c) 1) (Cert.Net.rowOf3 (a12 m c) 1))) :=
  (h5_v101 (Gen.V10 m (outsS9 m) c)).trans (by rw [V10_at_7 m (outsS9 m) c, L2_s m c])
theorem L2_var : (Gen.V11 m (outsS9 m) c) main_v102 = Cert.Spec.varRow (Cert.Spec.colSum (Cert.Spec.mlpArr (outsS9 m 8 main_v67 c) (aggK m c (outsS9 m 8 main_v67 c)) (Cert.Net.matOf (a9 m c) 1) (Cert.Net.rowOf3 (a10 m c) 1) (Cert.Net.matOf (a11 m c) 1) (Cert.Net.rowOf3 (a12 m c) 1))) (Cert.Spec.colSumSq (Cert.Spec.mlpArr (outsS9 m 8 main_v67 c) (aggK m c (outsS9 m 8 main_v67 c)) (Cert.Net.matOf (a9 m c) 1) (Cert.Net.rowOf3 (a10 m c) 1) (Cert.Net.matOf (a11 m c) 1) (Cert.Net.rowOf3 (a12 m c) 1))) :=
  (h5_v102 (Gen.V10 m (outsS9 m) c)).trans (by rw [V10_at_7 m (outsS9 m) c, V10_at_8 m (outsS9 m) c, L2_s m c, L2_ss m c])
theorem K_arg13_8 : (Gen.V8 m (outsS9 m) c) main_arg13 = (a13 m c) :=
  ((((((((Gen.V8_of m (outsS9 m) c main_arg13 (by decide)).trans (Gen.V7_of m (outsS9 m) c main_arg13 (by decide))).trans (Gen.V6_of m (outsS9 m) c main_arg13 (by decide))).trans (Gen.V5_of m (outsS9 m) c main_arg13 (by decide))).trans (Gen.V4_of m (outsS9 m) c main_arg13 (by decide))).trans (Gen.V3_of m (outsS9 m) c main_arg13 (by decide))).trans (Gen.V2_of m (outsS9 m) c main_arg13 (by decide))).trans (Gen.V1_of m c main_arg13 (by decide)))
theorem L2_g : (Gen.V11 m (outsS9 m) c) main_v103 = (Cert.Net.rowOf3 (a13 m c) 1) :=
  (h5_v103 (Gen.V10 m (outsS9 m) c)).trans (by
    rw [(Gen.V10_of m (outsS9 m) c main_v77 (by decide)), show (Gen.V9 m (outsS9 m) c) main_v77 = vecOf3 ((Gen.V8 m (outsS9 m) c) main_arg13) 1 from h4_v77 (Gen.V8 m (outsS9 m) c), rowOf_vecOf3, K_arg13_8 m c])
theorem K_arg14_8 : (Gen.V8 m (outsS9 m) c) main_arg14 = (a14 m c) :=
  ((((((((Gen.V8_of m (outsS9 m) c main_arg14 (by decide)).trans (Gen.V7_of m (outsS9 m) c main_arg14 (by decide))).trans (Gen.V6_of m (outsS9 m) c main_arg14 (by decide))).trans (Gen.V5_of m (outsS9 m) c main_arg14 (by decide))).trans (Gen.V4_of m (outsS9 m) c main_arg14 (by decide))).trans (Gen.V3_of m (outsS9 m) c main_arg14 (by decide))).trans (Gen.V2_of m (outsS9 m) c main_arg14 (by decide))).trans (Gen.V1_of m c main_arg14 (by decide)))
theorem L2_b : (Gen.V11 m (outsS9 m) c) main_v104 = (Cert.Net.rowOf3 (a14 m c) 1) :=
  (h5_v104 (Gen.V10 m (outsS9 m) c)).trans (by
    rw [(Gen.V10_of m (outsS9 m) c main_v79 (by decide)), show (Gen.V9 m (outsS9 m) c) main_v79 = vecOf3 ((Gen.V8 m (outsS9 m) c) main_arg14) 1 from h4_v79 (Gen.V8 m (outsS9 m) c), rowOf_vecOf3, K_arg14_8 m c])
theorem L2_out : outsS9 m 12 main_v105 c = Cert.Net.layer (aggK m c) Cert.Net.varSums (outsS9 m 8 main_v67 c) (Cert.Net.matOf (a9 m c) 1) (Cert.Net.rowOf3 (a10 m c) 1) (Cert.Net.matOf (a11 m c) 1) (Cert.Net.rowOf3 (a12 m c) 1) (Cert.Net.rowOf3 (a13 m c) 1) (Cert.Net.rowOf3 (a14 m c) 1) :=
  ((outsS_ok m).o5_5 c).trans ((final_norm5 (In5 m (outsS9 m)) c).trans (by
    show Cert.Spec.normArr ((Gen.V11 m (outsS9 m) c) main_v92_0) ((Gen.V11 m (outsS9 m) c) main_v101) ((Gen.V11 m (outsS9 m) c) main_v102) ((Gen.V11 m (outsS9 m) c) main_v103) ((Gen.V11 m (outsS9 m) c) main_v104) = _
    rw [L2_hin m c, L2_mean m c, L2_var m c, L2_g m c, L2_b m c]; rfl))
theorem kx3 : outsS9 m 12 main_v105 c = Cert.Net.x3 (aggK m c) Cert.Net.varSums (paramsK m c) :=
  (L2_out m c).trans (by rw [kx2 m c]; rfl)

/-! ## Layer 3 -/

theorem K_v1_12_1 : (Gen.V12 m (outsS9 m) c) main_v1 = (Gen.V1 m c) main_v1 :=
  (((((((((((Gen.V12_of m (outsS9 m) c main_v1 (by decide)).trans (Gen.V11_of m (outsS9 m) c main_v1 (by decide))).trans (Gen.V10_of m (outsS9 m) c main_v1 (by decide))).trans (Gen.V9_of m (outsS9 m) c main_v1 (by decide))).trans (Gen.V8_of m (outsS9 m) c main_v1 (by decide))).trans (Gen.V7_of m (outsS9 m) c main_v1 (by decide))).trans (Gen.V6_of m (outsS9 m) c main_v1 (by decide))).trans (Gen.V5_of m (outsS9 m) c main_v1 (by decide))).trans (Gen.V4_of m (outsS9 m) c main_v1 (by decide))).trans (Gen.V3_of m (outsS9 m) c main_v1 (by decide))).trans (Gen.V2_of m (outsS9 m) c main_v1 (by decide)))
theorem K_v3_12_1 : (Gen.V12 m (outsS9 m) c) main_v3 = (Gen.V1 m c) main_v3 :=
  (((((((((((Gen.V12_of m (outsS9 m) c main_v3 (by decide)).trans (Gen.V11_of m (outsS9 m) c main_v3 (by decide))).trans (Gen.V10_of m (outsS9 m) c main_v3 (by decide))).trans (Gen.V9_of m (outsS9 m) c main_v3 (by decide))).trans (Gen.V8_of m (outsS9 m) c main_v3 (by decide))).trans (Gen.V7_of m (outsS9 m) c main_v3 (by decide))).trans (Gen.V6_of m (outsS9 m) c main_v3 (by decide))).trans (Gen.V5_of m (outsS9 m) c main_v3 (by decide))).trans (Gen.V4_of m (outsS9 m) c main_v3 (by decide))).trans (Gen.V3_of m (outsS9 m) c main_v3 (by decide))).trans (Gen.V2_of m (outsS9 m) c main_v3 (by decide)))
theorem L3_x : (Gen.V13 m (outsS9 m) c) main_v105 = (outsS9 m 12 main_v105 c) :=
  (Gen.V13_of m (outsS9 m) c main_v105 (by decide)).trans (V12_at_5 m (outsS9 m) c)
theorem L3_agg : (Gen.V13 m (outsS9 m) c) main_v127 = aggK m c (outsS9 m 12 main_v105 c) :=
  (h6_v127 (Gen.V12 m (outsS9 m) c)).trans (by
    rw [K_v1_12_1 m c, K_v3_12_1 m c, V12_at_5 m (outsS9 m) c, K_src m c, K_dst m c]; rfl)
theorem K_arg9_12 : (Gen.V12 m (outsS9 m) c) main_arg9 = (a9 m c) :=
  ((((((((((((Gen.V12_of m (outsS9 m) c main_arg9 (by decide)).trans (Gen.V11_of m (outsS9 m) c main_arg9 (by decide))).trans (Gen.V10_of m (outsS9 m) c main_arg9 (by decide))).trans (Gen.V9_of m (outsS9 m) c main_arg9 (by decide))).trans (Gen.V8_of m (outsS9 m) c main_arg9 (by decide))).trans (Gen.V7_of m (outsS9 m) c main_arg9 (by decide))).trans (Gen.V6_of m (outsS9 m) c main_arg9 (by decide))).trans (Gen.V5_of m (outsS9 m) c main_arg9 (by decide))).trans (Gen.V4_of m (outsS9 m) c main_arg9 (by decide))).trans (Gen.V3_of m (outsS9 m) c main_arg9 (by decide))).trans (Gen.V2_of m (outsS9 m) c main_arg9 (by decide))).trans (Gen.V1_of m c main_arg9 (by decide)))
theorem L3_w1 : (Gen.V13 m (outsS9 m) c) main_v107 = (Cert.Net.matOf (a9 m c) 2) :=
  (h6_v107 (Gen.V12 m (outsS9 m) c)).trans (by rw [K_arg9_12 m c])
theorem K_arg10_12 : (Gen.V12 m (outsS9 m) c) main_arg10 = (a10 m c) :=
  ((((((((((((Gen.V12_of m (outsS9 m) c main_arg10 (by decide)).trans (Gen.V11_of m (outsS9 m) c main_arg10 (by decide))).trans (Gen.V10_of m (outsS9 m) c main_arg10 (by decide))).trans (Gen.V9_of m (outsS9 m) c main_arg10 (by decide))).trans (Gen.V8_of m (outsS9 m) c main_arg10 (by decide))).trans (Gen.V7_of m (outsS9 m) c main_arg10 (by decide))).trans (Gen.V6_of m (outsS9 m) c main_arg10 (by decide))).trans (Gen.V5_of m (outsS9 m) c main_arg10 (by decide))).trans (Gen.V4_of m (outsS9 m) c main_arg10 (by decide))).trans (Gen.V3_of m (outsS9 m) c main_arg10 (by decide))).trans (Gen.V2_of m (outsS9 m) c main_arg10 (by decide))).trans (Gen.V1_of m c main_arg10 (by decide)))
theorem L3_b1 : (Gen.V13 m (outsS9 m) c) main_v128 = (Cert.Net.rowOf3 (a10 m c) 2) :=
  (h6_v128 (Gen.V12 m (outsS9 m) c)).trans (by rw [K_arg10_12 m c])
theorem K_arg11_12 : (Gen.V12 m (outsS9 m) c) main_arg11 = (a11 m c) :=
  ((((((((((((Gen.V12_of m (outsS9 m) c main_arg11 (by decide)).trans (Gen.V11_of m (outsS9 m) c main_arg11 (by decide))).trans (Gen.V10_of m (outsS9 m) c main_arg11 (by decide))).trans (Gen.V9_of m (outsS9 m) c main_arg11 (by decide))).trans (Gen.V8_of m (outsS9 m) c main_arg11 (by decide))).trans (Gen.V7_of m (outsS9 m) c main_arg11 (by decide))).trans (Gen.V6_of m (outsS9 m) c main_arg11 (by decide))).trans (Gen.V5_of m (outsS9 m) c main_arg11 (by decide))).trans (Gen.V4_of m (outsS9 m) c main_arg11 (by decide))).trans (Gen.V3_of m (outsS9 m) c main_arg11 (by decide))).trans (Gen.V2_of m (outsS9 m) c main_arg11 (by decide))).trans (Gen.V1_of m c main_arg11 (by decide)))
theorem L3_w2 : (Gen.V13 m (outsS9 m) c) main_v111 = (Cert.Net.matOf (a11 m c) 2) :=
  (h6_v111 (Gen.V12 m (outsS9 m) c)).trans (by rw [K_arg11_12 m c])
theorem K_arg12_12 : (Gen.V12 m (outsS9 m) c) main_arg12 = (a12 m c) :=
  ((((((((((((Gen.V12_of m (outsS9 m) c main_arg12 (by decide)).trans (Gen.V11_of m (outsS9 m) c main_arg12 (by decide))).trans (Gen.V10_of m (outsS9 m) c main_arg12 (by decide))).trans (Gen.V9_of m (outsS9 m) c main_arg12 (by decide))).trans (Gen.V8_of m (outsS9 m) c main_arg12 (by decide))).trans (Gen.V7_of m (outsS9 m) c main_arg12 (by decide))).trans (Gen.V6_of m (outsS9 m) c main_arg12 (by decide))).trans (Gen.V5_of m (outsS9 m) c main_arg12 (by decide))).trans (Gen.V4_of m (outsS9 m) c main_arg12 (by decide))).trans (Gen.V3_of m (outsS9 m) c main_arg12 (by decide))).trans (Gen.V2_of m (outsS9 m) c main_arg12 (by decide))).trans (Gen.V1_of m c main_arg12 (by decide)))
theorem L3_b2 : (Gen.V13 m (outsS9 m) c) main_v129 = (Cert.Net.rowOf3 (a12 m c) 2) :=
  (h6_v129 (Gen.V12 m (outsS9 m) c)).trans (by rw [K_arg12_12 m c])
theorem L3_h : outsS9 m 14 main_v130_0 c = (Cert.Spec.mlpArr (outsS9 m 12 main_v105 c) (aggK m c (outsS9 m 12 main_v105 c)) (Cert.Net.matOf (a9 m c) 2) (Cert.Net.rowOf3 (a10 m c) 2) (Cert.Net.matOf (a11 m c) 2) (Cert.Net.rowOf3 (a12 m c) 2)) :=
  ((outsS_ok m).o6_6 c).trans ((final_mlp6_h (In6 m (outsS9 m)) c).trans (by
    show Cert.Spec.mlpArr ((Gen.V13 m (outsS9 m) c) main_v105) ((Gen.V13 m (outsS9 m) c) main_v127) ((Gen.V13 m (outsS9 m) c) main_v107) ((Gen.V13 m (outsS9 m) c) main_v128) ((Gen.V13 m (outsS9 m) c) main_v111) ((Gen.V13 m (outsS9 m) c) main_v129) = _
    rw [L3_x m c, L3_agg m c, L3_w1 m c, L3_b1 m c, L3_w2 m c, L3_b2 m c]))
theorem L3_s : outsS9 m 14 main_v130_1 c = Cert.Spec.colSum (Cert.Spec.mlpArr (outsS9 m 12 main_v105 c) (aggK m c (outsS9 m 12 main_v105 c)) (Cert.Net.matOf (a9 m c) 2) (Cert.Net.rowOf3 (a10 m c) 2) (Cert.Net.matOf (a11 m c) 2) (Cert.Net.rowOf3 (a12 m c) 2)) :=
  ((outsS_ok m).o6_7 c).trans ((final_mlp6_s (In6 m (outsS9 m)) c).trans (by
    show Cert.Spec.colSum (Cert.Spec.mlpArr ((Gen.V13 m (outsS9 m) c) main_v105) ((Gen.V13 m (outsS9 m) c) main_v127) ((Gen.V13 m (outsS9 m) c) main_v107) ((Gen.V13 m (outsS9 m) c) main_v128) ((Gen.V13 m (outsS9 m) c) main_v111) ((Gen.V13 m (outsS9 m) c) main_v129)) = _
    rw [L3_x m c, L3_agg m c, L3_w1 m c, L3_b1 m c, L3_w2 m c, L3_b2 m c]))
theorem L3_ss : outsS9 m 14 main_v130_2 c = Cert.Spec.colSumSq (Cert.Spec.mlpArr (outsS9 m 12 main_v105 c) (aggK m c (outsS9 m 12 main_v105 c)) (Cert.Net.matOf (a9 m c) 2) (Cert.Net.rowOf3 (a10 m c) 2) (Cert.Net.matOf (a11 m c) 2) (Cert.Net.rowOf3 (a12 m c) 2)) :=
  ((outsS_ok m).o6_8 c).trans ((final_mlp6_ss (In6 m (outsS9 m)) c).trans (by
    show Cert.Spec.colSumSq (Cert.Spec.mlpArr ((Gen.V13 m (outsS9 m) c) main_v105) ((Gen.V13 m (outsS9 m) c) main_v127) ((Gen.V13 m (outsS9 m) c) main_v107) ((Gen.V13 m (outsS9 m) c) main_v128) ((Gen.V13 m (outsS9 m) c) main_v111) ((Gen.V13 m (outsS9 m) c) main_v129)) = _
    rw [L3_x m c, L3_agg m c, L3_w1 m c, L3_b1 m c, L3_w2 m c, L3_b2 m c]))
theorem L3_hin : (Gen.V15 m (outsS9 m) c) main_v130_0 = (Cert.Spec.mlpArr (outsS9 m 12 main_v105 c) (aggK m c (outsS9 m 12 main_v105 c)) (Cert.Net.matOf (a9 m c) 2) (Cert.Net.rowOf3 (a10 m c) 2) (Cert.Net.matOf (a11 m c) 2) (Cert.Net.rowOf3 (a12 m c) 2)) :=
  (Gen.V15_of m (outsS9 m) c main_v130_0 (by decide)).trans ((V14_at_6 m (outsS9 m) c).trans (L3_h m c))
theorem L3_mean : (Gen.V15 m (outsS9 m) c) main_v139 = Cert.Spec.meanRow (Cert.Spec.colSum (Cert.Spec.mlpArr (outsS9 m 12 main_v105 c) (aggK m c (outsS9 m 12 main_v105 c)) (Cert.Net.matOf (a9 m c) 2) (Cert.Net.rowOf3 (a10 m c) 2) (Cert.Net.matOf (a11 m c) 2) (Cert.Net.rowOf3 (a12 m c) 2))) :=
  (h7_v139 (Gen.V14 m (outsS9 m) c)).trans (by rw [V14_at_7 m (outsS9 m) c, L3_s m c])
theorem L3_var : (Gen.V15 m (outsS9 m) c) main_v140 = Cert.Spec.varRow (Cert.Spec.colSum (Cert.Spec.mlpArr (outsS9 m 12 main_v105 c) (aggK m c (outsS9 m 12 main_v105 c)) (Cert.Net.matOf (a9 m c) 2) (Cert.Net.rowOf3 (a10 m c) 2) (Cert.Net.matOf (a11 m c) 2) (Cert.Net.rowOf3 (a12 m c) 2))) (Cert.Spec.colSumSq (Cert.Spec.mlpArr (outsS9 m 12 main_v105 c) (aggK m c (outsS9 m 12 main_v105 c)) (Cert.Net.matOf (a9 m c) 2) (Cert.Net.rowOf3 (a10 m c) 2) (Cert.Net.matOf (a11 m c) 2) (Cert.Net.rowOf3 (a12 m c) 2))) :=
  (h7_v140 (Gen.V14 m (outsS9 m) c)).trans (by rw [V14_at_7 m (outsS9 m) c, V14_at_8 m (outsS9 m) c, L3_s m c, L3_ss m c])
theorem K_arg13_12 : (Gen.V12 m (outsS9 m) c) main_arg13 = (a13 m c) :=
  ((((((((((((Gen.V12_of m (outsS9 m) c main_arg13 (by decide)).trans (Gen.V11_of m (outsS9 m) c main_arg13 (by decide))).trans (Gen.V10_of m (outsS9 m) c main_arg13 (by decide))).trans (Gen.V9_of m (outsS9 m) c main_arg13 (by decide))).trans (Gen.V8_of m (outsS9 m) c main_arg13 (by decide))).trans (Gen.V7_of m (outsS9 m) c main_arg13 (by decide))).trans (Gen.V6_of m (outsS9 m) c main_arg13 (by decide))).trans (Gen.V5_of m (outsS9 m) c main_arg13 (by decide))).trans (Gen.V4_of m (outsS9 m) c main_arg13 (by decide))).trans (Gen.V3_of m (outsS9 m) c main_arg13 (by decide))).trans (Gen.V2_of m (outsS9 m) c main_arg13 (by decide))).trans (Gen.V1_of m c main_arg13 (by decide)))
theorem L3_g : (Gen.V15 m (outsS9 m) c) main_v141 = (Cert.Net.rowOf3 (a13 m c) 2) :=
  (h7_v141 (Gen.V14 m (outsS9 m) c)).trans (by
    rw [(Gen.V14_of m (outsS9 m) c main_v115 (by decide)), show (Gen.V13 m (outsS9 m) c) main_v115 = vecOf3 ((Gen.V12 m (outsS9 m) c) main_arg13) 2 from h6_v115 (Gen.V12 m (outsS9 m) c), rowOf_vecOf3, K_arg13_12 m c])
theorem K_arg14_12 : (Gen.V12 m (outsS9 m) c) main_arg14 = (a14 m c) :=
  ((((((((((((Gen.V12_of m (outsS9 m) c main_arg14 (by decide)).trans (Gen.V11_of m (outsS9 m) c main_arg14 (by decide))).trans (Gen.V10_of m (outsS9 m) c main_arg14 (by decide))).trans (Gen.V9_of m (outsS9 m) c main_arg14 (by decide))).trans (Gen.V8_of m (outsS9 m) c main_arg14 (by decide))).trans (Gen.V7_of m (outsS9 m) c main_arg14 (by decide))).trans (Gen.V6_of m (outsS9 m) c main_arg14 (by decide))).trans (Gen.V5_of m (outsS9 m) c main_arg14 (by decide))).trans (Gen.V4_of m (outsS9 m) c main_arg14 (by decide))).trans (Gen.V3_of m (outsS9 m) c main_arg14 (by decide))).trans (Gen.V2_of m (outsS9 m) c main_arg14 (by decide))).trans (Gen.V1_of m c main_arg14 (by decide)))
theorem L3_b : (Gen.V15 m (outsS9 m) c) main_v142 = (Cert.Net.rowOf3 (a14 m c) 2) :=
  (h7_v142 (Gen.V14 m (outsS9 m) c)).trans (by
    rw [(Gen.V14_of m (outsS9 m) c main_v117 (by decide)), show (Gen.V13 m (outsS9 m) c) main_v117 = vecOf3 ((Gen.V12 m (outsS9 m) c) main_arg14) 2 from h6_v117 (Gen.V12 m (outsS9 m) c), rowOf_vecOf3, K_arg14_12 m c])
theorem L3_out : outsS9 m 16 main_v143 c = Cert.Net.layer (aggK m c) Cert.Net.varSums (outsS9 m 12 main_v105 c) (Cert.Net.matOf (a9 m c) 2) (Cert.Net.rowOf3 (a10 m c) 2) (Cert.Net.matOf (a11 m c) 2) (Cert.Net.rowOf3 (a12 m c) 2) (Cert.Net.rowOf3 (a13 m c) 2) (Cert.Net.rowOf3 (a14 m c) 2) :=
  ((outsS_ok m).o7_5 c).trans ((final_norm7 (In7 m (outsS9 m)) c).trans (by
    show Cert.Spec.normArr ((Gen.V15 m (outsS9 m) c) main_v130_0) ((Gen.V15 m (outsS9 m) c) main_v139) ((Gen.V15 m (outsS9 m) c) main_v140) ((Gen.V15 m (outsS9 m) c) main_v141) ((Gen.V15 m (outsS9 m) c) main_v142) = _
    rw [L3_hin m c, L3_mean m c, L3_var m c, L3_g m c, L3_b m c]; rfl))
theorem kx4 : outsS9 m 16 main_v143 c = Cert.Net.x4 (aggK m c) Cert.Net.varSums (paramsK m c) :=
  (L3_out m c).trans (by rw [kx3 m c]; rfl)

/-! ## Pooling and the classifier -/

theorem K_arg2_16 : (Gen.V16 m (outsS9 m) c) main_arg2 = (a2 m c) :=
  ((((((((((((((((Gen.V16_of m (outsS9 m) c main_arg2 (by decide)).trans (Gen.V15_of m (outsS9 m) c main_arg2 (by decide))).trans (Gen.V14_of m (outsS9 m) c main_arg2 (by decide))).trans (Gen.V13_of m (outsS9 m) c main_arg2 (by decide))).trans (Gen.V12_of m (outsS9 m) c main_arg2 (by decide))).trans (Gen.V11_of m (outsS9 m) c main_arg2 (by decide))).trans (Gen.V10_of m (outsS9 m) c main_arg2 (by decide))).trans (Gen.V9_of m (outsS9 m) c main_arg2 (by decide))).trans (Gen.V8_of m (outsS9 m) c main_arg2 (by decide))).trans (Gen.V7_of m (outsS9 m) c main_arg2 (by decide))).trans (Gen.V6_of m (outsS9 m) c main_arg2 (by decide))).trans (Gen.V5_of m (outsS9 m) c main_arg2 (by decide))).trans (Gen.V4_of m (outsS9 m) c main_arg2 (by decide))).trans (Gen.V3_of m (outsS9 m) c main_arg2 (by decide))).trans (Gen.V2_of m (outsS9 m) c main_arg2 (by decide))).trans (Gen.V1_of m c main_arg2 (by decide)))
theorem K_v29_16_4 : (Gen.V16 m (outsS9 m) c) main_v29 = (Gen.V4 m (outsS9 m) c) main_v29 :=
  ((((((((((((Gen.V16_of m (outsS9 m) c main_v29 (by decide)).trans (Gen.V15_of m (outsS9 m) c main_v29 (by decide))).trans (Gen.V14_of m (outsS9 m) c main_v29 (by decide))).trans (Gen.V13_of m (outsS9 m) c main_v29 (by decide))).trans (Gen.V12_of m (outsS9 m) c main_v29 (by decide))).trans (Gen.V11_of m (outsS9 m) c main_v29 (by decide))).trans (Gen.V10_of m (outsS9 m) c main_v29 (by decide))).trans (Gen.V9_of m (outsS9 m) c main_v29 (by decide))).trans (Gen.V8_of m (outsS9 m) c main_v29 (by decide))).trans (Gen.V7_of m (outsS9 m) c main_v29 (by decide))).trans (Gen.V6_of m (outsS9 m) c main_v29 (by decide))).trans (Gen.V5_of m (outsS9 m) c main_v29 (by decide)))
theorem K_v67_16_8 : (Gen.V16 m (outsS9 m) c) main_v67 = (Gen.V8 m (outsS9 m) c) main_v67 :=
  ((((((((Gen.V16_of m (outsS9 m) c main_v67 (by decide)).trans (Gen.V15_of m (outsS9 m) c main_v67 (by decide))).trans (Gen.V14_of m (outsS9 m) c main_v67 (by decide))).trans (Gen.V13_of m (outsS9 m) c main_v67 (by decide))).trans (Gen.V12_of m (outsS9 m) c main_v67 (by decide))).trans (Gen.V11_of m (outsS9 m) c main_v67 (by decide))).trans (Gen.V10_of m (outsS9 m) c main_v67 (by decide))).trans (Gen.V9_of m (outsS9 m) c main_v67 (by decide)))
theorem K_v105_16_12 : (Gen.V16 m (outsS9 m) c) main_v105 = (Gen.V12 m (outsS9 m) c) main_v105 :=
  ((((Gen.V16_of m (outsS9 m) c main_v105 (by decide)).trans (Gen.V15_of m (outsS9 m) c main_v105 (by decide))).trans (Gen.V14_of m (outsS9 m) c main_v105 (by decide))).trans (Gen.V13_of m (outsS9 m) c main_v105 (by decide)))
theorem P_pool : (Gen.V17 m (outsS9 m) c) main_v156 = poolK (a2 m c) (Cert.Net.x1 (aggK m c) Cert.Net.varSums (paramsK m c)) (Cert.Net.x2 (aggK m c) Cert.Net.varSums (paramsK m c)) (Cert.Net.x3 (aggK m c) Cert.Net.varSums (paramsK m c)) (Cert.Net.x4 (aggK m c) Cert.Net.varSums (paramsK m c)) :=
  (h8_v156 (Gen.V16 m (outsS9 m) c)).trans (by
    rw [K_arg2_16 m c, K_v29_16_4 m c, V4_at_5 m (outsS9 m) c, K_v67_16_8 m c, V8_at_5 m (outsS9 m) c, K_v105_16_12 m c, V12_at_5 m (outsS9 m) c, V16_at_5 m (outsS9 m) c, kx1 m c, kx2 m c, kx3 m c, kx4 m c])
theorem K_arg15_17 : (Gen.V17 m (outsS9 m) c) main_arg15 = (a15 m c) :=
  (((((((((((((((((Gen.V17_of m (outsS9 m) c main_arg15 (by decide)).trans (Gen.V16_of m (outsS9 m) c main_arg15 (by decide))).trans (Gen.V15_of m (outsS9 m) c main_arg15 (by decide))).trans (Gen.V14_of m (outsS9 m) c main_arg15 (by decide))).trans (Gen.V13_of m (outsS9 m) c main_arg15 (by decide))).trans (Gen.V12_of m (outsS9 m) c main_arg15 (by decide))).trans (Gen.V11_of m (outsS9 m) c main_arg15 (by decide))).trans (Gen.V10_of m (outsS9 m) c main_arg15 (by decide))).trans (Gen.V9_of m (outsS9 m) c main_arg15 (by decide))).trans (Gen.V8_of m (outsS9 m) c main_arg15 (by decide))).trans (Gen.V7_of m (outsS9 m) c main_arg15 (by decide))).trans (Gen.V6_of m (outsS9 m) c main_arg15 (by decide))).trans (Gen.V5_of m (outsS9 m) c main_arg15 (by decide))).trans (Gen.V4_of m (outsS9 m) c main_arg15 (by decide))).trans (Gen.V3_of m (outsS9 m) c main_arg15 (by decide))).trans (Gen.V2_of m (outsS9 m) c main_arg15 (by decide))).trans (Gen.V1_of m c main_arg15 (by decide)))
theorem P_w1 : (Gen.V17 m (outsS9 m) c) main_arg15 = (a15 m c) :=
  K_arg15_17 m c
theorem K_arg16_16 : (Gen.V16 m (outsS9 m) c) main_arg16 = (a16 m c) :=
  ((((((((((((((((Gen.V16_of m (outsS9 m) c main_arg16 (by decide)).trans (Gen.V15_of m (outsS9 m) c main_arg16 (by decide))).trans (Gen.V14_of m (outsS9 m) c main_arg16 (by decide))).trans (Gen.V13_of m (outsS9 m) c main_arg16 (by decide))).trans (Gen.V12_of m (outsS9 m) c main_arg16 (by decide))).trans (Gen.V11_of m (outsS9 m) c main_arg16 (by decide))).trans (Gen.V10_of m (outsS9 m) c main_arg16 (by decide))).trans (Gen.V9_of m (outsS9 m) c main_arg16 (by decide))).trans (Gen.V8_of m (outsS9 m) c main_arg16 (by decide))).trans (Gen.V7_of m (outsS9 m) c main_arg16 (by decide))).trans (Gen.V6_of m (outsS9 m) c main_arg16 (by decide))).trans (Gen.V5_of m (outsS9 m) c main_arg16 (by decide))).trans (Gen.V4_of m (outsS9 m) c main_arg16 (by decide))).trans (Gen.V3_of m (outsS9 m) c main_arg16 (by decide))).trans (Gen.V2_of m (outsS9 m) c main_arg16 (by decide))).trans (Gen.V1_of m c main_arg16 (by decide)))
theorem P_b1 : (Gen.V17 m (outsS9 m) c) main_v157 = Cert.Net.rowOf (a16 m c) :=
  (h8_v157 (Gen.V16 m (outsS9 m) c)).trans (by rw [K_arg16_16 m c])
theorem K_arg17_17 : (Gen.V17 m (outsS9 m) c) main_arg17 = (a17 m c) :=
  (((((((((((((((((Gen.V17_of m (outsS9 m) c main_arg17 (by decide)).trans (Gen.V16_of m (outsS9 m) c main_arg17 (by decide))).trans (Gen.V15_of m (outsS9 m) c main_arg17 (by decide))).trans (Gen.V14_of m (outsS9 m) c main_arg17 (by decide))).trans (Gen.V13_of m (outsS9 m) c main_arg17 (by decide))).trans (Gen.V12_of m (outsS9 m) c main_arg17 (by decide))).trans (Gen.V11_of m (outsS9 m) c main_arg17 (by decide))).trans (Gen.V10_of m (outsS9 m) c main_arg17 (by decide))).trans (Gen.V9_of m (outsS9 m) c main_arg17 (by decide))).trans (Gen.V8_of m (outsS9 m) c main_arg17 (by decide))).trans (Gen.V7_of m (outsS9 m) c main_arg17 (by decide))).trans (Gen.V6_of m (outsS9 m) c main_arg17 (by decide))).trans (Gen.V5_of m (outsS9 m) c main_arg17 (by decide))).trans (Gen.V4_of m (outsS9 m) c main_arg17 (by decide))).trans (Gen.V3_of m (outsS9 m) c main_arg17 (by decide))).trans (Gen.V2_of m (outsS9 m) c main_arg17 (by decide))).trans (Gen.V1_of m c main_arg17 (by decide)))
theorem P_w2 : (Gen.V17 m (outsS9 m) c) main_arg17 = (a17 m c) :=
  K_arg17_17 m c
theorem K_arg18_16 : (Gen.V16 m (outsS9 m) c) main_arg18 = (a18 m c) :=
  ((((((((((((((((Gen.V16_of m (outsS9 m) c main_arg18 (by decide)).trans (Gen.V15_of m (outsS9 m) c main_arg18 (by decide))).trans (Gen.V14_of m (outsS9 m) c main_arg18 (by decide))).trans (Gen.V13_of m (outsS9 m) c main_arg18 (by decide))).trans (Gen.V12_of m (outsS9 m) c main_arg18 (by decide))).trans (Gen.V11_of m (outsS9 m) c main_arg18 (by decide))).trans (Gen.V10_of m (outsS9 m) c main_arg18 (by decide))).trans (Gen.V9_of m (outsS9 m) c main_arg18 (by decide))).trans (Gen.V8_of m (outsS9 m) c main_arg18 (by decide))).trans (Gen.V7_of m (outsS9 m) c main_arg18 (by decide))).trans (Gen.V6_of m (outsS9 m) c main_arg18 (by decide))).trans (Gen.V5_of m (outsS9 m) c main_arg18 (by decide))).trans (Gen.V4_of m (outsS9 m) c main_arg18 (by decide))).trans (Gen.V3_of m (outsS9 m) c main_arg18 (by decide))).trans (Gen.V2_of m (outsS9 m) c main_arg18 (by decide))).trans (Gen.V1_of m c main_arg18 (by decide)))
theorem P_b2 : (Gen.V17 m (outsS9 m) c) main_v158 = Cert.Net.rowOf10 (a18 m c) :=
  (h8_v158 (Gen.V16 m (outsS9 m) c)).trans (by rw [K_arg18_16 m c])

/-- THE KERNEL'S VALUE: the result array ends at the network function of the launch contents, with the variance of
    each layer computed from the two column sums. -/
theorem kernel_value : outsS9 m 18 main_v159 c = Cert.Net.out (aggK m c) Cert.Net.varSums (poolK (a2 m c)) (paramsK m c) :=
  ((outsS_ok m).o8_5 c).trans ((final_cls (In8 m (outsS9 m)) c).trans (by
    show Cert.Spec.clsArr ((Gen.V17 m (outsS9 m) c) main_v156) ((Gen.V17 m (outsS9 m) c) main_arg15) ((Gen.V17 m (outsS9 m) c) main_v157) ((Gen.V17 m (outsS9 m) c) main_arg17) ((Gen.V17 m (outsS9 m) c) main_v158) = _
    rw [P_pool m c, P_w1 m c, P_b1 m c, P_w2 m c, P_b2 m c]; rfl))

end Cert.KernelIdeal.Hand

end
-- ==== Proof.LibDenseHost.lean ====
/-
  Stacks of dense layers in the host's spelling, read as whole matrices.

  Two rectified dense layers of a matrix, spelt as the host spells them (dot_general, bias row broadcast down the rows,
  maximum with a broadcast zero, twice), are the row-by-row function of the dense-layer module; so is one rectified
  layer. Each entry of the result depends on one row of the input.
-/
import proofs.«117300_j5643587027248_1_alg».proof.Proof.LibDenseRows

noncomputable section

namespace Cert.LibDenseRows

open Idealize.ShloMosaic Idealize.ShloMosaic.ValueIdx

/-- The host's two rectified dense layers of a whole matrix. -/
theorem host_mlp2_eq {m k h n : ℕ} {φ₁ φ₂ φ₃ : FTy} (x : FVec Ideal ⟨2, ![m, k]⟩ φ₁) (w1 : FVec Ideal ⟨2, ![k, h]⟩ φ₂)
    (b1 : FVec Ideal ⟨2, ![1, h]⟩ .f32) (w2 : FVec Ideal ⟨2, ![h, n]⟩ φ₃) (b2 : FVec Ideal ⟨2, ![1, n]⟩ .f32)
    (hb1 : (⟨2, ![1, h]⟩ : Shape).BroadcastsInDim ⟨2, ![m, h]⟩ ![0, 1]) (h01 : (⟨0, ![]⟩ : Shape).BroadcastsInDim ⟨2, ![m, h]⟩ ![])
    (hb2 : (⟨2, ![1, n]⟩ : Shape).BroadcastsInDim ⟨2, ![m, n]⟩ ![0, 1]) (h02 : (⟨0, ![]⟩ : Shape).BroadcastsInDim ⟨2, ![m, n]⟩ ![]) :
    maximumf (addf (Host.dotGeneral (DotDims.plain m h n) none
        (maximumf (addf (Host.dotGeneral (DotDims.plain m k h) none x w1) (broadcastInDim ⟨2, ![m, h]⟩ ![0, 1] hb1 b1))
          (broadcastInDim ⟨2, ![m, h]⟩ ![] h01 (constant (F := Ideal) ⟨0, ![]⟩ .f32 0x00000000#32))) w2)
        (broadcastInDim ⟨2, ![m, n]⟩ ![0, 1] hb2 b2))
      (broadcastInDim ⟨2, ![m, n]⟩ ![] h02 (constant (F := Ideal) ⟨0, ![]⟩ .f32 0x00000000#32))
    = mlp2Arr x w1 b1 w2 b2 := by
  funext i
  obtain ⟨p, q, rfl⟩ : ∃ (p : Fin m) (q : Fin n), i = ix2 p q := ⟨i 0, i 1, eq_ix2 i⟩
  refine (host_relu_dense_apply _ w2 b2 hb2 h02 p q).trans (congrArg relu ?_)
  exact congrArg (fun r => denseRow r w2 b2 q) (funext fun c => host_relu_dense_apply x w1 b1 hb1 h01 p c)

end Cert.LibDenseRows

end
-- ==== Proof.RefHost.lean ====
/-
  The reference program's chains of whole-array operations, as functions of arrays of extended reals, and what they
  compute.

  Each definition below is a chain of the reference's host operations written as one term: the neighbour aggregation
  (the edge list's sources wrapped into range, a gather of the rows at the sources, a scatter-add of them at the
  destinations), two rectified dense layers, the column sums and means, the variance as the mean squared deviation
  (with its guard on the divisor 100000 − 0), the normalisation, a whole layer, the pooling and the classifier.
  The lemmas read each chain entry by entry and identify it with the network's function of the same name: nothing is
  used of the arithmetic of extended reals beyond 0 + x = x and the value of the divisor.
-/
import proofs.«117300_j5643587027248_1_alg».proof.Proof.Gen.ReferenceIdeal
import proofs.«117300_j5643587027248_1_alg».proof.Proof.Net
import proofs.«117300_j5643587027248_1_alg».proof.Proof.LibDenseHost
import proofs.«117300_j5643587027248_1_alg».proof.Proof.LibVariancePlain
import Idealize.ShloMosaic.Lib.IdealHost
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx
open Cert.LibDenseRows Cert.Spec Cert.Net Cert.Lib.BatchNorm

/-! ## The chains -/

/-- The edges' sources: row 0 of the edge list, flattened. -/
def srcH (ei : IVec S2x1600000 32) : IVec S1600000 32 :=
  shapeCast S1600000 (extractStridedSlice S1x1600000 ![0, 0] ei slices_S2x1600000_S1x1600000_0_0) shapeCasts_S1x1600000_S1600000

/-- The edges' destinations: row 1 of the edge list, flattened. -/
def dstH (ei : IVec S2x1600000 32) : IVec S1600000 32 :=
  shapeCast S1600000 (extractStridedSlice S1x1600000 ![1, 0] ei slices_S2x1600000_S1x1600000_1_0) shapeCasts_S1x1600000_S1600000

/-- The neighbour aggregation: the rows of x at the sources (a negative source wrapped by 100000), added up at the
    destinations into a zero array. -/
def aggH (src dst : IVec S1600000 32) (x : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The aggregation as a function of the edge list. -/
def aggR (ei : IVec S2x1600000 32) : (SR.Idx → EReal) → SR.Idx → EReal := fun x => aggH (srcH ei) (dstH ei) x

/-- A vector of 128 spread down the 100000 rows: first made a one-row array, then broadcast along the rows. -/
def biasH (b : FVec Ideal S128 .f32) : FVec Ideal S100000x128 .f32 :=
  broadcastInDim S100000x128 ![0, 1] bcast_S1x128_S100000x128_0_1 (broadcastInDim S1x128 ![1] bcast_S128_S1x128_1 b)

/-- The zero array the rectifier compares with. -/
def zeroH : FVec Ideal S100000x128 .f32 := broadcastInDim S100000x128 ![] bcast_S_S100000x128 (constant S_ .f32 0x00000000#32)

/-- One rectified dense layer. -/
def denseReluH (x : FVec Ideal S100000x128 .f32) (w : FVec Ideal S128x128 .f32) (b : FVec Ideal S128 .f32) : FVec Ideal S100000x128 .f32 :=
  maximumf (addf (Host.dotGeneral dot_S100000x128_S128x128_S100000x128_1_0_0_1_n_n none x w) (biasH b)) zeroH

/-- Two rectified dense layers of x + a. -/
def mlpH (x a : FVec Ideal S100000x128 .f32) (w1 : FVec Ideal S128x128 .f32) (b1 : FVec Ideal S128 .f32)
    (w2 : FVec Ideal S128x128 .f32) (b2 : FVec Ideal S128 .f32) : FVec Ideal S100000x128 .f32 :=
  denseReluH (denseReluH (addf x a) w1 b1) w2 b2

/-- The column sums, from zero. -/
def sumH (h : FVec Ideal S100000x128 .f32) : FVec Ideal S128 .f32 :=
  Host.reduceAdd h (constant S_ .f32 0x00000000#32) reducesTo_S100000x128_S128_d0 h_S_

/-- The column means. -/
def meanH (h : FVec Ideal S100000x128 .f32) : FVec Ideal S128 .f32 :=
  Host.divf (sumH h) (broadcastInDim S128 ![] bcast_S_S128 (constant S_ .f32 0x47C35000#32))

/-- The variance's divisor: 100000 less the integer 0 made a float. -/
def dofH : FVec Ideal S_ .f32 := subf (constant S_ .f32 0x47C35000#32) (sitofp .f32 (constantI S_ 32 0#32))

/-- The deviations from the column means (the means taken through a one-row array). -/
def devH (h : FVec Ideal S100000x128 .f32) : FVec Ideal S100000x128 .f32 :=
  subf h (broadcastInDim S100000x128 ![0, 1] bcast_S1x128_S100000x128_0_1
    (Host.divf (broadcastInDim S1x128 ![1] bcast_S128_S1x128_1 (sumH h))
      (broadcastInDim S1x128 ![] bcast_S_S1x128 (constant S_ .f32 0x47C35000#32))))

/-- The variance: the column sums of the squared deviations over the divisor, guarded by "the divisor is above zero". -/
def varH (h : FVec Ideal S100000x128 .f32) : FVec Ideal S128 .f32 :=
  select (broadcastInDim S128 ![] bcast_S_S128 (cmpf .ogt dofH (constant S_ .f32 0x00000000#32)))
    (Host.divf (Host.reduceAdd (mulf (devH h) (devH h)) (constant S_ .f32 0x00000000#32) reducesTo_S100000x128_S128_d0 h_S_)
      (broadcastInDim S128 ![] bcast_S_S128 dofH))
    (broadcastInDim S128 ![] bcast_S_S128 (id (constant S_ .f32 0x7FC00000#32)))

/-- The normalisation (h − μ) · (σ² + ε)^(−1/2) · γ + β with the statistics and parameters spread down the rows. -/
def normH (h : FVec Ideal S100000x128 .f32) (mu var g b : FVec Ideal S128 .f32) : FVec Ideal S100000x128 .f32 :=
  addf (mulf (mulf (subf h (biasH mu))
      (biasH (Host.rsqrt (addf var (broadcastInDim S128 ![] bcast_S_S128 (constant S_ .f32 0x3727C5AC#32))))))
    (biasH g)) (biasH b)

/-- One layer. -/
def layerH (src dst : IVec S1600000 32) (x : FVec Ideal S100000x128 .f32) (w1 : FVec Ideal S128x128 .f32) (b1 : FVec Ideal S128 .f32)
    (w2 : FVec Ideal S128x128 .f32) (b2 g b : FVec Ideal S128 .f32) : FVec Ideal S100000x128 .f32 :=
  normH (mlpH x (aggH src dst x) w1 b1 w2 b2) (meanH (mlpH x (aggH src dst x) w1 b1 w2 b2))
    (varH (mlpH x (aggH src dst x) w1 b1 w2 b2)) g b

/-! ## Reading them -/

/-- A vector of 128 made a one-row array by a broadcast along axis 1 is the one-row array of its entries. -/
theorem bcast_row (v : FVec Ideal S128 .f32) : broadcastInDim S1x128 ![1] bcast_S128_S1x128_1 v = rowOf v := by
  funext j
  refine broadcastInDim_apply ![1] bcast_S128_S1x128_1 v j (ix1 (j 1 : Fin 128)) ?_
  intro a
  match a with
  | ⟨0, _⟩ =>
    show (j 1).val = if (128 : ℕ) = 1 then 0 else (j 1).val
    simp

/-- The spread of a vector down the rows, at an entry: the vector's entry of that column. -/
theorem biasH_apply (v : FVec Ideal S128 .f32) (p : Fin 100000) (q : Fin 128) : biasH v (ix2 p q) = v (ix1 q) := by
  unfold biasH
  rw [bcast_row, broadcastInDim_oneRow_apply]
  rfl

/-- The two rectified dense layers are the network's. -/
theorem mlpH_eq (x a : FVec Ideal S100000x128 .f32) (w1 : FVec Ideal S128x128 .f32) (b1 : FVec Ideal S128 .f32)
    (w2 : FVec Ideal S128x128 .f32) (b2 : FVec Ideal S128 .f32) :
    mlpH x a w1 b1 w2 b2 = mlpArr x a w1 (rowOf b1) w2 (rowOf b2) := by
  unfold mlpH denseReluH biasH zeroH mlpArr
  rw [bcast_row, bcast_row]
  exact host_mlp2_eq (m := 100000) (k := 128) (h := 128) (n := 128) (addf x a) w1 (rowOf b1) w2 (rowOf b2)
    bcast_S1x128_S100000x128_0_1 bcast_S_S100000x128 bcast_S1x128_S100000x128_0_1 bcast_S_S100000x128

/-- A column sum from zero is the sum of the column. -/
theorem colsum_apply (h : FVec Ideal S100000x128 .f32) (q : Fin 128) :
    Host.reduceAdd h (constant S_ .f32 0x00000000#32) reducesTo_S100000x128_S128_d0 h_S_ (ix1 q) = ∑ p : Fin 100000, h (ix2 p q) := by
  rw [hostReduceAdd_apply, Ideal.hostReduceAdd_single reducesTo_S100000x128_S128_d0 (by decide : S100000x128.Reduces [0] S128),
    constant_apply, ofBits_zero, zero_add]
  refine Finset.sum_congr rfl fun p _ => congrArg h ?_
  funext a
  match a with
  | ⟨0, _⟩ => rfl
  | ⟨1, _⟩ => rfl

theorem sumH_apply (h : FVec Ideal S100000x128 .f32) (q : Fin 128) : sumH h (ix1 q) = ∑ p : Fin 100000, h (ix2 p q) :=
  colsum_apply h q

/-- A column mean. -/
theorem meanH_apply (h : FVec Ideal S100000x128 .f32) (q : Fin 128) :
    meanH h (ix1 q) = Ideal.div (∑ p : Fin 100000, h (ix2 p q)) cnt := by
  unfold meanH
  rw [hostDivf_apply, sumH_apply, broadcastInDim_scalar_apply, constant_apply]
  rfl

/-- The column means are the network's. -/
theorem meanH_row (h : FVec Ideal S100000x128 .f32) : rowOf (meanH h) = meanRow (colSum h) := by
  funext j
  obtain ⟨r, q, rfl⟩ : ∃ (r : Fin 1) (q : Fin 128), j = ix2 r q := ⟨j 0, j 1, eq_ix2 j⟩
  exact meanH_apply h q

/-- The variance's divisor is the row count. -/
theorem dofH_eq : dofH ix0 = cnt := by
  show Ideal.ofBits .f32 0x47C35000#32 - ((((0#32 : BitVec 32).toInt : ℤ) : ℝ) : EReal) = cnt
  rw [divisor_eq_100000, cnt, ofBits_100000]

/-- The guard "the divisor is above zero" holds. -/
theorem guardH_eq : cmpf .ogt dofH (constant S_ .f32 0x00000000#32) ix0 = 1#1 := by
  show Ideal.cmp .ogt (dofH ix0) (Ideal.ofBits .f32 0x00000000#32) = 1#1
  rw [dofH_eq, cnt, ofBits_100000, ofBits_zero, cmp_ogt_100000_zero]

/-- A deviation from the column mean. -/
theorem devH_apply (h : FVec Ideal S100000x128 .f32) (p : Fin 100000) (q : Fin 128) :
    devH h (ix2 p q) = h (ix2 p q) - Ideal.div (∑ r : Fin 100000, h (ix2 r q)) cnt := by
  unfold devH
  rw [subf_apply, broadcastInDim_oneRow_apply, hostDivf_apply, bcast_row, broadcastInDim_scalar_apply, constant_apply]
  show h (ix2 p q) - Ideal.div (sumH h (ix1 q)) _ = _
  rw [sumH_apply]
  rfl

/-- The variance of a column: the mean squared deviation from the column mean. -/
theorem varH_apply (h : FVec Ideal S100000x128 .f32) (q : Fin 128) :
    varH h (ix1 q) = Ideal.div (∑ p : Fin 100000, (h (ix2 p q) - Ideal.div (∑ r : Fin 100000, h (ix2 r q)) cnt)
        * (h (ix2 p q) - Ideal.div (∑ r : Fin 100000, h (ix2 r q)) cnt)) cnt := by
  unfold varH
  rw [select_apply, broadcastInDim_scalar_apply, guardH_eq, hostDivf_apply, colsum_apply, broadcastInDim_scalar_apply, dofH_eq]
  show Ideal.div (∑ p : Fin 100000, mulf (devH h) (devH h) (ix2 p q)) cnt = _
  simp only [mulf_apply, devH_apply]

/-- The variance is the mean squared deviation. -/
theorem varH_row (h : FVec Ideal S100000x128 .f32) : rowOf (varH h) = msdRow h := by
  funext j
  obtain ⟨r, q, rfl⟩ : ∃ (r : Fin 1) (q : Fin 128), j = ix2 r q := ⟨j 0, j 1, eq_ix2 j⟩
  exact varH_apply h q

/-- The normalisation is the network's. -/
theorem normH_eq (h : FVec Ideal S100000x128 .f32) (mu var g b : FVec Ideal S128 .f32) :
    normH h mu var g b = normArr h (rowOf mu) (rowOf var) (rowOf g) (rowOf b) := by
  funext i
  obtain ⟨p, q, rfl⟩ : ∃ (p : Fin 100000) (q : Fin 128), i = ix2 p q := ⟨i 0, i 1, eq_ix2 i⟩
  unfold normH
  simp only [addf_apply, mulf_apply, subf_apply, biasH_apply]
  rfl

/-- A layer is the network's layer over this aggregation and the mean squared deviation. -/
theorem layerH_eq (src dst : IVec S1600000 32) (x : FVec Ideal S100000x128 .f32) (w1 : FVec Ideal S128x128 .f32)
    (b1 : FVec Ideal S128 .f32) (w2 : FVec Ideal S128x128 .f32) (b2 g b : FVec Ideal S128 .f32) :
    layerH src dst x w1 b1 w2 b2 g b
      = layer (aggH src dst) msdRow x w1 (rowOf b1) w2 (rowOf b2) (rowOf g) (rowOf b) := by
  unfold layerH layer
  rw [normH_eq, mlpH_eq, meanH_row, varH_row]

/-! ## The stacked parameters' slices -/

/-- Row l of three stacked vectors, cut out as a one-row slice and flattened, is that row. -/
theorem rowSlice_eq (a : FVec Ideal S3x128 .f32) (l : Fin 3) (k : ℕ) (hk : k = l.val) (hs : S3x128.Slices ![k, 0] S1x128) :
    rowOf (shapeCast S128 (extractStridedSlice S1x128 ![k, 0] a hs) shapeCasts_S1x128_S128) = rowOf3 a l := by
  funext j
  obtain ⟨r, q, rfl⟩ : ∃ (r : Fin 1) (q : Fin 128), j = ix2 r q := ⟨j 0, j 1, eq_ix2 j⟩
  show shapeCast S128 (extractStridedSlice S1x128 ![k, 0] a hs) shapeCasts_S1x128_S128 (ix1 q) = a (ix2 l q)
  rw [shapeCast_apply _ shapeCasts_S1x128_S128 (ix1 q) (ix2 (0 : Fin 1) q) (by
    rw [Shape.rowMajor_val_two, Shape.rowMajor_val_one]
    show (0 : ℕ) * 128 + q.val = q.val
    omega)]
  refine extractStridedSlice_apply ![k, 0] a hs (ix2 (0 : Fin 1) q) (ix2 l q) ?_
  intro c
  match c with
  | ⟨0, _⟩ => show l.val = k + 0; omega
  | ⟨1, _⟩ => show q.val = 0 + q.val; omega

/-- Slice l of three stacked matrices, cut out and flattened to a matrix, is that matrix. -/
theorem matSlice_eq (a : FVec Ideal S3x128x128 .f32) (l : Fin 3) (k : ℕ) (hk : k = l.val) (hs : S3x128x128.Slices ![k, 0, 0] S1x128x128) :
    shapeCast S128x128 (extractStridedSlice S1x128x128 ![k, 0, 0] a hs) shapeCasts_S1x128x128_S128x128 = matOf a l := by
  funext i
  obtain ⟨p, q, rfl⟩ : ∃ (p : Fin 128) (q : Fin 128), i = ix2 p q := ⟨i 0, i 1, eq_ix2 i⟩
  show _ = a (ix3 l p q)
  rw [shapeCast_apply _ shapeCasts_S1x128x128_S128x128 (ix2 p q) (ix3 (0 : Fin 1) p q) (by
    rw [Shape.rowMajor_val_three, Shape.rowMajor_val_two]
    show ((0 : ℕ) * 128 + p.val) * 128 + q.val = p.val * 128 + q.val
    omega)]
  refine extractStridedSlice_apply ![k, 0, 0] a hs (ix3 (0 : Fin 1) p q) (ix3 l p q) ?_
  intro c
  match c with
  | ⟨0, _⟩ => show l.val = k + 0; omega
  | ⟨1, _⟩ => show p.val = 0 + p.val; omega
  | ⟨2, _⟩ => show q.val = 0 + q.val; omega

/-- Slice k of three stacked matrices, as a matrix. -/
def matS (k : ℕ) (a : FVec Ideal S3x128x128 .f32) (hs : S3x128x128.Slices ![k, 0, 0] S1x128x128) : FVec Ideal S128x128 .f32 :=
  shapeCast S128x128 (extractStridedSlice S1x128x128 ![k, 0, 0] a hs) shapeCasts_S1x128x128_S128x128

/-- Row k of three stacked vectors, as a vector. -/
def rowS (k : ℕ) (a : FVec Ideal S3x128 .f32) (hs : S3x128.Slices ![k, 0] S1x128) : FVec Ideal S128 .f32 :=
  shapeCast S128 (extractStridedSlice S1x128 ![k, 0] a hs) shapeCasts_S1x128_S128

theorem matS_eq (a : FVec Ideal S3x128x128 .f32) (l : Fin 3) (k : ℕ) (hk : k = l.val) (hs : S3x128x128.Slices ![k, 0, 0] S1x128x128) :
    matS k a hs = matOf a l := matSlice_eq a l k hk hs

theorem rowS_eq (a : FVec Ideal S3x128 .f32) (l : Fin 3) (k : ℕ) (hk : k = l.val) (hs : S3x128.Slices ![k, 0] S1x128) :
    rowOf (rowS k a hs) = rowOf3 a l := rowSlice_eq a l k hk hs

/-! ## Pooling and the classifier -/

/-- The per-graph sums of the four layers' features side by side. -/
def poolSumH (batch : IVec S100000 32) (x1 x2 x3 x4 : FVec Ideal S100000x128 .f32) : FVec Ideal S128x512 .f32 :=
  Host.scatterAdd scatter_S128x512_S100000x1_S100000x512_1_0_0_1
    (broadcastInDim S128x512 ![] bcast_S_S128x512 (constant S_ .f32 0x00000000#32))
    (broadcastInDim S100000x1 ![0] bcast_S100000_S100000x1_0 batch)
    (concatenate S100000x512 1 [⟨S100000x128, x1⟩, ⟨S100000x128, x2⟩, ⟨S100000x128, x3⟩, ⟨S100000x128, x4⟩]
      concatenates_S100000x128_S100000x128_S100000x128_S100000x128_S100000x512_d1)

/-- The per-graph node counts: ones added up per graph. -/
def poolCntH (batch : IVec S100000 32) : FVec Ideal S128 .f32 :=
  Host.scatterAdd scatter_S128_S100000x1_S100000_n_0_0_1
    (broadcastInDim S128 ![] bcast_S_S128 (constant S_ .f32 0x00000000#32))
    (broadcastInDim S100000x1 ![0] bcast_S100000_S100000x1_0 batch)
    (broadcastInDim S100000 ![] bcast_S_S100000 (constant S_ .f32 0x3F800000#32))

/-- The sums over the counts, a count below one raised to it. -/
def poolFinH (s : FVec Ideal S128x512 .f32) (c : FVec Ideal S128 .f32) (one : FVec Ideal S_ .f32) : FVec Ideal S128x512 .f32 :=
  Host.divf s (broadcastInDim S128x512 ![0, 1] bcast_S128x1_S128x512_0_1
    (broadcastInDim S128x1 ![0] bcast_S128_S128x1_0 (maximumf c (broadcastInDim S128 ![] bcast_S_S128 one))))

/-- The pooling: the four layers' features side by side, added up per graph, over the per-graph node counts (at least 1). -/
def poolH (batch : IVec S100000 32) (x1 x2 x3 x4 : FVec Ideal S100000x128 .f32) : FVec Ideal S128x512 .f32 :=
  poolFinH (poolSumH batch x1 x2 x3 x4) (poolCntH batch) (constant S_ .f32 0x3F800000#32)

/-- The pooling as a function of the graph assignment. -/
def poolR (batch : IVec S100000 32) :
    (SR.Idx → EReal) → (SR.Idx → EReal) → (SR.Idx → EReal) → (SR.Idx → EReal) → SP.Idx → EReal :=
  fun x1 x2 x3 x4 => poolH batch x1 x2 x3 x4

/-- The classifier: a rectified dense layer, then a dense layer. -/
def clsH (p : FVec Ideal S128x512 .f32) (w1 : FVec Ideal S512x128 .f32) (b1 : FVec Ideal S128 .f32)
    (w2 : FVec Ideal S128x10 .f32) (b2 : FVec Ideal S10 .f32) : FVec Ideal S128x10 .f32 :=
  addf (Host.dotGeneral dot_S128x128_S128x10_S128x10_1_0_0_1_n_n none
      (maximumf (addf (Host.dotGeneral dot_S128x512_S512x128_S128x128_1_0_0_1_n_n none p w1)
          (broadcastInDim S128x128 ![0, 1] bcast_S1x128_S128x128_0_1 (broadcastInDim S1x128 ![1] bcast_S128_S1x128_1 b1)))
        (broadcastInDim S128x128 ![] bcast_S_S128x128 (constant S_ .f32 0x00000000#32))) w2)
    (broadcastInDim S128x10 ![0, 1] bcast_S1x10_S128x10_0_1 (broadcastInDim S1x10 ![1] bcast_S10_S1x10_1 b2))

/-- A vector of 10 made a one-row array by a broadcast along axis 1 is the one-row array of its entries. -/
theorem bcast_row10 (v : FVec Ideal S10 .f32) : broadcastInDim S1x10 ![1] bcast_S10_S1x10_1 v = rowOf10 v := by
  funext j
  refine broadcastInDim_apply ![1] bcast_S10_S1x10_1 v j (ix1 (j 1 : Fin 10)) ?_
  intro a
  match a with
  | ⟨0, _⟩ =>
    show (j 1).val = if (10 : ℕ) = 1 then 0 else (j 1).val
    simp

/-- The classifier is the network's. -/
theorem clsH_eq (p : FVec Ideal S128x512 .f32) (w1 : FVec Ideal S512x128 .f32) (b1 : FVec Ideal S128 .f32)
    (w2 : FVec Ideal S128x10 .f32) (b2 : FVec Ideal S10 .f32) :
    clsH p w1 b1 w2 b2 = clsArr p w1 (rowOf b1) w2 (rowOf10 b2) := by
  unfold clsH clsArr
  rw [bcast_row, bcast_row10]
  have e1 : maximumf (addf (Host.dotGeneral dot_S128x512_S512x128_S128x128_1_0_0_1_n_n none p w1)
          (broadcastInDim S128x128 ![0, 1] bcast_S1x128_S128x128_0_1 (rowOf b1)))
        (broadcastInDim S128x128 ![] bcast_S_S128x128 (constant S_ .f32 0x00000000#32))
      = fun i => relu (denseArr p w1 (rowOf b1) i) := by
    funext i
    obtain ⟨r, q, rfl⟩ : ∃ (r : Fin 128) (q : Fin 128), i = ix2 r q := ⟨i 0, i 1, eq_ix2 i⟩
    exact host_relu_dense_apply (m := 128) (k := 512) (n := 128) p w1 (rowOf b1) bcast_S1x128_S128x128_0_1 bcast_S_S128x128 r q
  rw [e1]
  exact host_dense_eq (m := 128) (k := 128) (n := 10) _ w2 (rowOf10 b2) bcast_S1x10_S128x10_0_1

end Cert.ReferenceIdeal.Hand

end
-- ==== Proof.RefRead0.lean ====
/-
  What stretch 0 of the reference's operations leaves in the buffers later stretches read, from any contents found: each
  buffer holds a chain of whole-array operations applied to what the stretch found in the buffers it reads.
-/
import proofs.«117300_j5643587027248_1_alg».proof.Proof.RefRun
import proofs.«117300_j5643587027248_1_alg».proof.Proof.RefHost

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.LibDenseRows Cert.Spec Cert.Net

set_option maxRecDepth 8192 in
set_option maxHeartbeats 4000000 in
/-- Stretch 0 leaves the edges' sources in their buffer. -/
theorem s0_v1 (W : Valuation τ sig (Elt Ideal)) :
    after ops0 W (Proc.devRef .tc main_v1) = srcH (W (Proc.devRef .tc main_arg1)) := by
  after_results_simp <;> rfl

set_option maxRecDepth 8192 in
set_option maxHeartbeats 4000000 in
/-- Stretch 0 leaves the edges' destinations in their buffer. -/
theorem s0_v3 (W : Valuation τ sig (Elt Ideal)) :
    after ops0 W (Proc.devRef .tc main_v3) = dstH (W (Proc.devRef .tc main_arg1)) := by
  after_results_simp <;> rfl

set_option maxRecDepth 8192 in
set_option maxHeartbeats 4000000 in
/-- Stretch 0 leaves layer 0's output in its buffer. -/
theorem s0_v43 (W : Valuation τ sig (Elt Ideal)) :
    after ops0 W (Proc.devRef .tc main_v43) = layerH (srcH (W (Proc.devRef .tc main_arg1))) (dstH (W (Proc.devRef .tc main_arg1))) (W (Proc.devRef .tc main_arg0)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  after_results_simp <;> rfl

set_option maxRecDepth 8192 in
set_option maxHeartbeats 4000000 in
/-- Slice 0 of the first stacked weights. -/
theorem s0_v45 (W : Valuation τ sig (Elt Ideal)) :
    after ops0 W (Proc.devRef .tc main_v45) = (matS 0 (W (Proc.devRef .tc main_arg9)) slices_S3x128x128_S1x128x128_0_0_0) := by
  after_results_simp <;> rfl

set_option maxRecDepth 8192 in
set_option maxHeartbeats 4000000 in
/-- Row 0 of the first stacked biases. -/
theorem s0_v47 (W : Valuation τ sig (Elt Ideal)) :
    after ops0 W (Proc.devRef .tc main_v47) = (rowS 0 (W (Proc.devRef .tc main_arg10)) slices_S3x128_S1x128_0_0) := by
  after_results_simp <;> rfl

set_option maxRecDepth 8192 in
set_option maxHeartbeats 4000000 in
/-- Slice 0 of the second stacked weights. -/
theorem s0_v49 (W : Valuation τ sig (Elt Ideal)) :
    after ops0 W (Proc.devRef .tc main_v49) = (matS 0 (W (Proc.devRef .tc main_arg11)) slices_S3x128x128_S1x128x128_0_0_0) := by
  after_results_simp <;> rfl

set_option maxRecDepth 8192 in
set_option maxHeartbeats 4000000 in
/-- Row 0 of the second stacked biases. -/
theorem s0_v51 (W : Valuation τ sig (Elt Ideal)) :
    after ops0 W (Proc.devRef .tc main_v51) = (rowS 0 (W (Proc.devRef .tc main_arg12)) slices_S3x128_S1x128_0_0) := by
  after_results_simp <;> rfl

set_option maxRecDepth 8192 in
set_option maxHeartbeats 4000000 in
/-- Row 0 of the stacked scales, still a one-row array. -/
theorem s0_v52 (W : Valuation τ sig (Elt Ideal)) :
    after ops0 W (Proc.devRef .tc main_v52) = extractStridedSlice S1x128 ![0, 0] (W (Proc.devRef .tc main_arg13)) slices_S3x128_S1x128_0_0 := by
  after_results_simp <;> rfl

end Cert.ReferenceIdeal.Hand

end
-- ==== Proof.RefRead1.lean ====
/-
  What stretch 1 of the reference's operations leaves in the buffers later stretches read, from any contents found: each
  buffer holds a chain of whole-array operations applied to what the stretch found in the buffers it reads.
-/
import proofs.«117300_j5643587027248_1_alg».proof.Proof.RefRun
import proofs.«117300_j5643587027248_1_alg».proof.Proof.RefHost

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.LibDenseRows Cert.Spec Cert.Net

set_option maxRecDepth 8192 in
set_option maxHeartbeats 4000000 in
/-- Stretch 1 leaves layer 1's output: a layer of what it finds in layer 0's buffer, with the parameter slices it finds. -/
theorem s1_v95 (W : Valuation τ sig (Elt Ideal)) :
    after ops1 W (Proc.devRef .tc main_v95) = layerH (W (Proc.devRef .tc main_v1)) (W (Proc.devRef .tc main_v3)) (W (Proc.devRef .tc main_v43)) (W (Proc.devRef .tc main_v45)) (W (Proc.devRef .tc main_v47)) (W (Proc.devRef .tc main_v49)) (W (Proc.devRef .tc main_v51)) (shapeCast S128 (W (Proc.devRef .tc main_v52)) shapeCasts_S1x128_S128) (rowS 0 (W (Proc.devRef .tc main_arg14)) slices_S3x128_S1x128_0_0) := by
  after_results_simp <;> rfl

set_option maxRecDepth 8192 in
set_option maxHeartbeats 4000000 in
/-- Slice 1 of the first stacked weights. -/
theorem s1_v97 (W : Valuation τ sig (Elt Ideal)) :
    after ops1 W (Proc.devRef .tc main_v97) = (matS 1 (W (Proc.devRef .tc main_arg9)) slices_S3x128x128_S1x128x128_1_0_0) := by
  after_results_simp <;> rfl

set_option maxRecDepth 8192 in
set_option maxHeartbeats 4000000 in
/-- Row 1 of the first stacked biases. -/
theorem s1_v99 (W : Valuation τ sig (Elt Ideal)) :
    after ops1 W (Proc.devRef .tc main_v99) = (rowS 1 (W (Proc.devRef .tc main_arg10)) slices_S3x128_S1x128_1_0) := by
  after_results_simp <;> rfl

set_option maxRecDepth 8192 in
set_option maxHeartbeats 4000000 in
/-- Slice 1 of the second stacked weights. -/
theorem s1_v101 (W : Valuation τ sig (Elt Ideal)) :
    after ops1 W (Proc.devRef .tc main_v101) = (matS 1 (W (Proc.devRef .tc main_arg11)) slices_S3x128x128_S1x128x128_1_0_0) := by
  after_results_simp <;> rfl

set_option maxRecDepth 8192 in
set_option maxHeartbeats 4000000 in
/-- Row 1 of the second stacked biases. -/
theorem s1_v103 (W : Valuation τ sig (Elt Ideal)) :
    after ops1 W (Proc.devRef .tc main_v103) = (rowS 1 (W (Proc.devRef .tc main_arg12)) slices_S3x128_S1x128_1_0) := by
  after_results_simp <;> rfl

set_option maxRecDepth 8192 in
set_option maxHeartbeats 4000000 in
/-- Row 1 of the stacked scales. -/
theorem s1_v105 (W : Valuation τ sig (Elt Ideal)) :
    after ops1 W (Proc.devRef .tc main_v105) = (rowS 1 (W (Proc.devRef .tc main_arg13)) slices_S3x128_S1x128_1_0) := by
  after_results_simp <;> rfl

end Cert.ReferenceIdeal.Hand

end
-- ==== Proof.RefRead2.lean ====
/-
  What stretch 2 of the reference's operations leaves in the buffers later stretches read, from any contents found: each
  buffer holds a chain of whole-array operations applied to what the stretch found in the buffers it reads.
-/
import proofs.«117300_j5643587027248_1_alg».proof.Proof.RefRun
import proofs.«117300_j5643587027248_1_alg».proof.Proof.RefHost

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.LibDenseRows Cert.Spec Cert.Net

set_option maxRecDepth 8192 in
set_option maxHeartbeats 4000000 in
/-- Stretch 2 leaves layer 2's output. -/
theorem s2_v147 (W : Valuation τ sig (Elt Ideal)) :
    after ops2 W (Proc.devRef .tc main_v147) = layerH (W (Proc.devRef .tc main_v1)) (W (Proc.devRef .tc main_v3)) (W (Proc.devRef .tc main_v95)) (W (Proc.devRef .tc main_v97)) (W (Proc.devRef .tc main_v99)) (W (Proc.devRef .tc main_v101)) (W (Proc.devRef .tc main_v103)) (W (Proc.devRef .tc main_v105)) (rowS 1 (W (Proc.devRef .tc main_arg14)) slices_S3x128_S1x128_1_0) := by
  after_results_simp <;> rfl

set_option maxRecDepth 8192 in
set_option maxHeartbeats 4000000 in
/-- Slice 2 of the first stacked weights. -/
theorem s2_v149 (W : Valuation τ sig (Elt Ideal)) :
    after ops2 W (Proc.devRef .tc main_v149) = (matS 2 (W (Proc.devRef .tc main_arg9)) slices_S3x128x128_S1x128x128_2_0_0) := by
  after_results_simp <;> rfl

set_option maxRecDepth 8192 in
set_option maxHeartbeats 4000000 in
/-- Row 2 of the first stacked biases. -/
theorem s2_v151 (W : Valuation τ sig (Elt Ideal)) :
    after ops2 W (Proc.devRef .tc main_v151) = (rowS 2 (W (Proc.devRef .tc main_arg10)) slices_S3x128_S1x128_2_0) := by
  after_results_simp <;> rfl

set_option maxRecDepth 8192 in
set_option maxHeartbeats 4000000 in
/-- Slice 2 of the second stacked weights. -/
theorem s2_v153 (W : Valuation τ sig (Elt Ideal)) :
    after ops2 W (Proc.devRef .tc main_v153) = (matS 2 (W (Proc.devRef .tc main_arg11)) slices_S3x128x128_S1x128x128_2_0_0) := by
  after_results_simp <;> rfl

set_option maxRecDepth 8192 in
set_option maxHeartbeats 4000000 in
/-- Row 2 of the second stacked biases. -/
theorem s2_v155 (W : Valuation τ sig (Elt Ideal)) :
    after ops2 W (Proc.devRef .tc main_v155) = (rowS 2 (W (Proc.devRef .tc main_arg12)) slices_S3x128_S1x128_2_0) := by
  after_results_simp <;> rfl

set_option maxRecDepth 8192 in
set_option maxHeartbeats 4000000 in
/-- Row 2 of the stacked scales. -/
theorem s2_v157 (W : Valuation τ sig (Elt Ideal)) :
    after ops2 W (Proc.devRef .tc main_v157) = (rowS 2 (W (Proc.devRef .tc main_arg13)) slices_S3x128_S1x128_2_0) := by
  after_results_simp <;> rfl

set_option maxRecDepth 8192 in
set_option maxHeartbeats 4000000 in
/-- Row 2 of the stacked shifts, still a one-row array. -/
theorem s2_v158 (W : Valuation τ sig (Elt Ideal)) :
    after ops2 W (Proc.devRef .tc main_v158) = extractStridedSlice S1x128 ![2, 0] (W (Proc.devRef .tc main_arg14)) slices_S3x128_S1x128_2_0 := by
  after_results_simp <;> rfl

end Cert.ReferenceIdeal.Hand

end
-- ==== Proof.RefRead3.lean ====
/-
  What stretches 3 and 4 of the reference's operations leave in the buffers later stretches read, from any contents found: each
  buffer holds a chain of whole-array operations applied to what the stretch found in the buffers it reads.
-/
import proofs.«117300_j5643587027248_1_alg».proof.Proof.RefRun
import proofs.«117300_j5643587027248_1_alg».proof.Proof.RefHost

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.LibDenseRows Cert.Spec Cert.Net

set_option maxRecDepth 8192 in
set_option maxHeartbeats 4000000 in
/-- Stretch 3 leaves the per-graph node counts. -/
theorem s3_v207 (W : Valuation τ sig (Elt Ideal)) :
    after ops3 W (Proc.devRef .tc main_v207) = poolCntH (W (Proc.devRef .tc main_arg2)) := by
  after_results_simp <;> rfl

set_option maxRecDepth 8192 in
set_option maxHeartbeats 4000000 in
/-- Stretch 3 leaves the constant one. -/
theorem s3_cst_29 (W : Valuation τ sig (Elt Ideal)) :
    after ops3 W (Proc.devRef .tc main_cst_29) = constant (F := Ideal) S_ .f32 0x3F800000#32 := by
  after_results_simp <;> rfl

set_option maxRecDepth 8192 in
set_option maxHeartbeats 4000000 in
/-- Stretch 4 leaves the classifier of the pooled features in the result buffer. -/
theorem s4_v221 (W : Valuation τ sig (Elt Ideal)) :
    after ops4 W (Proc.devRef .tc main_v221) = clsH (poolFinH (W (Proc.devRef .tc main_v203)) (W (Proc.devRef .tc main_v207)) (W (Proc.devRef .tc main_cst_29))) (W (Proc.devRef .tc main_arg15)) (W (Proc.devRef .tc main_arg16)) (W (Proc.devRef .tc main_arg17)) (W (Proc.devRef .tc main_arg18)) := by
  after_results_simp <;> rfl

end Cert.ReferenceIdeal.Hand

end
-- ==== Proof.RefRead3P.lean ====
/-
  What stretch 3 of the reference's operations leaves in the buffers later stretches read, from any contents found: each
  buffer holds a chain of whole-array operations applied to what the stretch found in the buffers it reads.
-/
import proofs.«117300_j5643587027248_1_alg».proof.Proof.RefRun
import proofs.«117300_j5643587027248_1_alg».proof.Proof.RefHost

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.LibDenseRows Cert.Spec Cert.Net

variable {F : FTy → Type} [FloatOps F]

/-- The first 73 operations of stretch 3: up to layer 3's output. -/
abbrev ops3a : List (HloOp τ sig (Elt F)) :=
  [ reshape main_v158 main_v159 rfl shapeCasts_S1x128_S128,
    nullary main_c_19 (constantI S_ 32 0#32),
    unary main_c_19 main_v160 (broadcastInDim S1600000 ![] bcast_S_S1600000 : (⟨S_, .i32⟩ : BufTy).Contents (Elt F) → (⟨S1600000, .i32⟩ : BufTy).Contents (Elt F)),
    binary main_v1 main_v160 main_v161 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v162 (broadcastInDim S1600000 ![] bcast_S_S1600000 : (⟨S_, .i32⟩ : BufTy).Contents (Elt F) → (⟨S1600000, .i32⟩ : BufTy).Contents (Elt F)),
    binary main_v1 main_v162 main_v163 (addi : (⟨S1600000, .i32⟩ : BufTy).Contents (Elt F) → (⟨S1600000, .i32⟩ : BufTy).Contents (Elt F) → (⟨S1600000, .i32⟩ : BufTy).Contents (Elt F)),
    ternary main_v161 main_v163 main_v1 main_v164 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v164 main_v165 (broadcastInDim S1600000x1 ![0] bcast_S1600000_S1600000x1_0 : (⟨S1600000, .i32⟩ : BufTy).Contents (Elt F) → (⟨S1600000x1, .i32⟩ : BufTy).Contents (Elt F)),
    binary main_v147 main_v165 main_v166 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_21 (constant S_ .f32 0x00000000#32),
    unary main_cst_21 main_v167 (broadcastInDim S100000x128 ![] bcast_S_S100000x128 : (⟨S_, .f32⟩ : BufTy).Contents (Elt F) → (⟨S100000x128, .f32⟩ : BufTy).Contents (Elt F)),
    unary main_v3 main_v168 (broadcastInDim S1600000x1 ![0] bcast_S1600000_S1600000x1_0 : (⟨S1600000, .i32⟩ : BufTy).Contents (Elt F) → (⟨S1600000x1, .i32⟩ : BufTy).Contents (Elt F)),
    ternary main_v167 main_v168 main_v166 main_v169 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v147 main_v169 main_v170 (addf : (⟨S100000x128, .f32⟩ : BufTy).Contents (Elt F) → (⟨S100000x128, .f32⟩ : BufTy).Contents (Elt F) → (⟨S100000x128, .f32⟩ : BufTy).Contents (Elt F)),
    binary main_v170 main_v149 main_v171 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v151 main_v172 (broadcastInDim S1x128 ![1] bcast_S128_S1x128_1 : (⟨S128, .f32⟩ : BufTy).Contents (Elt F) → (⟨S1x128, .f32⟩ : BufTy).Contents (Elt F)),
    unary main_v172 main_v173 (broadcastInDim S100000x128 ![0, 1] bcast_S1x128_S100000x128_0_1 : (⟨S1x128, .f32⟩ : BufTy).Contents (Elt F) → (⟨S100000x128, .f32⟩ : BufTy).Contents (Elt F)),
    binary main_v171 main_v173 main_v174 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S100000x128, .f32⟩) main_call9_v0) (broadcastInDim S100000x128 ![] bcast_S_S100000x128),
    TRef.binary (TRef.of (T := ⟨S100000x128, .f32⟩) main_v174) (TRef.of (T := ⟨S100000x128, .f32⟩) main_call9_v0) (TRef.of (T := ⟨S100000x128, .f32⟩) main_v175) maximumf,
    binary main_v175 main_v153 main_v176 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v155 main_v177 (broadcastInDim S1x128 ![1] bcast_S128_S1x128_1 : (⟨S128, .f32⟩ : BufTy).Contents (Elt F) → (⟨S1x128, .f32⟩ : BufTy).Contents (Elt F)),
    unary main_v177 main_v178 (broadcastInDim S100000x128 ![0, 1] bcast_S1x128_S100000x128_0_1 : (⟨S1x128, .f32⟩ : BufTy).Contents (Elt F) → (⟨S100000x128, .f32⟩ : BufTy).Contents (Elt F)),
    binary main_v176 main_v178 main_v179 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x128, .f32⟩) main_call10_v0) (broadcastInDim S100000x128 ![] bcast_S_S100000x128),
    TRef.binary (TRef.of (T := ⟨S100000x128, .f32⟩) main_v179) (TRef.of (T := ⟨S100000x128, .f32⟩) main_call10_v0) (TRef.of (T := ⟨S100000x128, .f32⟩) main_v180) maximumf,
    nullary main_cst_22 (constant S_ .f32 0x00000000#32),
    binary main_v180 main_cst_22 main_v181 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_23 (constant S_ .f32 0x47C35000#32),
    unary main_cst_23 main_v182 (broadcastInDim S128 ![] bcast_S_S128 : (⟨S_, .f32⟩ : BufTy).Contents (Elt F) → (⟨S128, .f32⟩ : BufTy).Contents (Elt F)),
    binary main_v181 main_v182 main_v183 (Host.divf : (⟨S128, .f32⟩ : BufTy).Contents (Elt F) → (⟨S128, .f32⟩ : BufTy).Contents (Elt F) → (⟨S128, .f32⟩ : BufTy).Contents (Elt F)),
    nullary main_c_24 (constantI S_ 32 0#32),
    TRef.nullary (TRef.of (T := ⟨S_, .f32⟩) main_call11_cst) (constant S_ .f32 0x00000000#32),
    TRef.binary (TRef.of (T := ⟨S100000x128, .f32⟩) main_v180) (TRef.of (T := ⟨S_, .f32⟩) main_call11_cst) (TRef.of (T := ⟨S128, .f32⟩) main_call11_v0) (fun x v => Host.reduceAdd x v reducesTo_S100000x128_S128_d0 h_S_),
    TRef.unary (TRef.of (T := ⟨S128, .f32⟩) main_call11_v0) (TRef.of (T := ⟨S1x128, .f32⟩) main_call11_v1) (broadcastInDim S1x128 ![1] bcast_S128_S1x128_1),
    TRef.nullary (TRef.of (T := ⟨S_, .f32⟩) main_call11_cst_0) (constant S_ .f32 0x47C35000#32),
    TRef.unary (TRef.of (T := ⟨S_, .f32⟩) main_call11_cst_0) (TRef.of (T := ⟨S1x128, .f32⟩) main_call11_v2) (broadcastInDim S1x128 ![] bcast_S_S1x128),
    TRef.binary (TRef.of (T := ⟨S1x128, .f32⟩) main_call11_v1) (TRef.of (T := ⟨S1x128, .f32⟩) main_call11_v2) (TRef.of (T := ⟨S1x128, .f32⟩) main_call11_v3) Host.divf,
    TRef.unary (TRef.of (T := ⟨S1x128, .f32⟩) main_call11_v3) (TRef.of (T := ⟨S100000x128, .f32⟩) main_call11_v4) (broadcastInDim S100000x128 ![0, 1] bcast_S1x128_S100000x128_0_1),
    TRef.binary (TRef.of (T := ⟨S100000x128, .f32⟩) main_v180) (TRef.of (T := ⟨S100000x128, .f32⟩) main_call11_v4) (TRef.of (T := ⟨S100000x128, .f32⟩) main_call11_v5) subf,
    TRef.binary (TRef.of (T := ⟨S100000x128, .f32⟩) main_call11_v5) (TRef.of (T := ⟨S100000x128, .f32⟩) main_call11_v5) (TRef.of (T := ⟨S100000x128, .f32⟩) main_call11_v6) mulf,
    TRef.unary (TRef.of (T := ⟨S_, .i32⟩) main_c_24) (TRef.of (T := ⟨S_, .f32⟩) main_call11_v7) (sitofp .f32),
    TRef.nullary (TRef.of (T := ⟨S_, .f32⟩) main_call11_cst_1) (constant S_ .f32 0x47C35000#32),
    TRef.binary (TRef.of (T := ⟨S_, .f32⟩) main_call11_cst_1) (TRef.of (T := ⟨S_, .f32⟩) main_call11_v7) (TRef.of (T := ⟨S_, .f32⟩) main_call11_v8) subf,
    TRef.nullary (TRef.of (T := ⟨S_, .f32⟩) main_call11_cst_2) (constant S_ .f32 0x00000000#32),
    TRef.binary (TRef.of (T := ⟨S100000x128, .f32⟩) main_call11_v6) (TRef.of (T := ⟨S_, .f32⟩) main_call11_cst_2) (TRef.of (T := ⟨S128, .f32⟩) main_call11_v9) (fun x v => Host.reduceAdd x v reducesTo_S100000x128_S128_d0 h_S_),
    TRef.unary (TRef.of (T := ⟨S_, .f32⟩) main_call11_v8) (TRef.of (T := ⟨S128, .f32⟩) main_call11_v10) (broadcastInDim S128 ![] bcast_S_S128),
    TRef.binary (TRef.of (T := ⟨S128, .f32⟩) main_call11_v9) (TRef.of (T := ⟨S128, .f32⟩) main_call11_v10) (TRef.of (T := ⟨S128, .f32⟩) main_call11_v11) Host.divf,
    TRef.nullary (TRef.of (T := ⟨S_, .f32⟩) main_call11_cst_3) (constant S_ .f32 0x00000000#32),
    TRef.binary (TRef.of (T := ⟨S_, .f32⟩) main_call11_v8) (TRef.of (T := ⟨S_, .f32⟩) main_call11_cst_3) (TRef.of (T := ⟨S_, .i1⟩) main_call11_v12) (cmpf .ogt),
    TRef.nullary (TRef.of (T := ⟨S_, .f32⟩) main_call11_cst_4) (constant S_ .f32 0x7FC00000#32),
    TRef.unary (TRef.of (T := ⟨S_, .f32⟩) main_call11_cst_4) (TRef.of (T := ⟨S_, .f32⟩) main_call11_call0_v0) id,
    TRef.unary (TRef.of (T := ⟨S_, .f32⟩) main_call11_call0_v0) (TRef.of (T := ⟨S128, .f32⟩) main_call11_call0_v1) (broadcastInDim S128 ![] bcast_S_S128),
    TRef.ternary (TRef.of (T := ⟨S_, .i1⟩) main_call11_v12) (TRef.of (T := ⟨S128, .f32⟩) main_call11_v11) (TRef.of (T := ⟨S128, .f32⟩) main_call11_call0_v1) (TRef.of (T := ⟨S128, .f32⟩) main_v184) (fun p a b => select (broadcastInDim S128 ![] bcast_S_S128 p) a b),
    unary main_v183 main_v185 (broadcastInDim S1x128 ![1] bcast_S128_S1x128_1 : (⟨S128, .f32⟩ : BufTy).Contents (Elt F) → (⟨S1x128, .f32⟩ : BufTy).Contents (Elt F)),
    unary main_v185 main_v186 (broadcastInDim S100000x128 ![0, 1] bcast_S1x128_S100000x128_0_1 : (⟨S1x128, .f32⟩ : BufTy).Contents (Elt F) → (⟨S100000x128, .f32⟩ : BufTy).Contents (Elt F)),
    binary main_v180 main_v186 main_v187 (subf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x3727C5AC#32),
    unary main_cst_25 main_v188 (broadcastInDim S128 ![] bcast_S_S128 : (⟨S_, .f32⟩ : BufTy).Contents (Elt F) → (⟨S128, .f32⟩ : BufTy).Contents (Elt F)),
    binary main_v184 main_v188 main_v189 (addf : (⟨S128, .f32⟩ : BufTy).Contents (Elt F) → (⟨S128, .f32⟩ : BufTy).Contents (Elt F) → (⟨S128, .f32⟩ : BufTy).Contents (Elt F)),
    unary main_v189 main_v190 (Host.rsqrt : (⟨S128, .f32⟩ : BufTy).Contents (Elt F) → (⟨S128, .f32⟩ : BufTy).Contents (Elt F)),
    unary main_v190 main_v191 (broadcastInDim S1x128 ![1] bcast_S128_S1x128_1 : (⟨S128, .f32⟩ : BufTy).Contents (Elt F) → (⟨S1x128, .f32⟩ : BufTy).Contents (Elt F)),
    unary main_v191 main_v192 (broadcastInDim S100000x128 ![0, 1] bcast_S1x128_S100000x128_0_1 : (⟨S1x128, .f32⟩ : BufTy).Contents (Elt F) → (⟨S100000x128, .f32⟩ : BufTy).Contents (Elt F)),
    binary main_v187 main_v192 main_v193 (mulf : (⟨S100000x128, .f32⟩ : BufTy).Contents (Elt F) → (⟨S100000x128, .f32⟩ : BufTy).Contents (Elt F) → (⟨S100000x128, .f32⟩ : BufTy).Contents (Elt F)),
    unary main_v157 main_v194 (broadcastInDim S1x128 ![1] bcast_S128_S1x128_1 : (⟨S128, .f32⟩ : BufTy).Contents (Elt F) → (⟨S1x128, .f32⟩ : BufTy).Contents (Elt F)),
    unary main_v194 main_v195 (broadcastInDim S100000x128 ![0, 1] bcast_S1x128_S100000x128_0_1 : (⟨S1x128, .f32⟩ : BufTy).Contents (Elt F) → (⟨S100000x128, .f32⟩ : BufTy).Contents (Elt F)),
    binary main_v193 main_v195 main_v196 (mulf : (⟨S100000x128, .f32⟩ : BufTy).Contents (Elt F) → (⟨S100000x128, .f32⟩ : BufTy).Contents (Elt F) → (⟨S100000x128, .f32⟩ : BufTy).Contents (Elt F)),
    unary main_v159 main_v197 (broadcastInDim S1x128 ![1] bcast_S128_S1x128_1 : (⟨S128, .f32⟩ : BufTy).Contents (Elt F) → (⟨S1x128, .f32⟩ : BufTy).Contents (Elt F)),
    unary main_v197 main_v198 (broadcastInDim S100000x128 ![0, 1] bcast_S1x128_S100000x128_0_1 : (⟨S1x128, .f32⟩ : BufTy).Contents (Elt F) → (⟨S100000x128, .f32⟩ : BufTy).Contents (Elt F)),
    binary main_v196 main_v198 main_v199 (addf : (⟨S100000x128, .f32⟩ : BufTy).Contents (Elt F) → (⟨S100000x128, .f32⟩ : BufTy).Contents (Elt F) → (⟨S100000x128, .f32⟩ : BufTy).Contents (Elt F)) ]

/-- The last 12 operations of stretch 3: the four layers' outputs side by side, the per-graph sums and counts. -/
abbrev ops3b : List (HloOp τ sig (Elt F)) :=
  [ nary ![main_v43, main_v95, main_v147, main_v199] main_v200 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    nullary main_cst_26 (constant S_ .f32 0x00000000#32),
    unary main_cst_26 main_v201 (broadcastInDim S128x512 ![] bcast_S_S128x512 : (⟨S_, .f32⟩ : BufTy).Contents (Elt F) → (⟨S128x512, .f32⟩ : BufTy).Contents (Elt F)),
    unary main_arg2 main_v202 (broadcastInDim S100000x1 ![0] bcast_S100000_S100000x1_0 : (⟨S100000, .i32⟩ : BufTy).Contents (Elt F) → (⟨S100000x1, .i32⟩ : BufTy).Contents (Elt F)),
    ternary main_v201 main_v202 main_v200 main_v203 ((fun x i u => Host.scatterAdd scatter_S128x512_S100000x1_S100000x512_1_0_0_1 x i u) : (⟨S128x512, .f32⟩ : BufTy).Contents (Elt F) → (⟨S100000x1, .i32⟩ : BufTy).Contents (Elt F) → (⟨S100000x512, .f32⟩ : BufTy).Contents (Elt F) → (⟨S128x512, .f32⟩ : BufTy).Contents (Elt F)),
    nullary main_cst_27 (constant S_ .f32 0x3F800000#32),
    unary main_cst_27 main_v204 (broadcastInDim S100000 ![] bcast_S_S100000 : (⟨S_, .f32⟩ : BufTy).Contents (Elt F) → (⟨S100000, .f32⟩ : BufTy).Contents (Elt F)),
    nullary main_cst_28 (constant S_ .f32 0x00000000#32),
    unary main_cst_28 main_v205 (broadcastInDim S128 ![] bcast_S_S128 : (⟨S_, .f32⟩ : BufTy).Contents (Elt F) → (⟨S128, .f32⟩ : BufTy).Contents (Elt F)),
    unary main_arg2 main_v206 (broadcastInDim S100000x1 ![0] bcast_S100000_S100000x1_0 : (⟨S100000, .i32⟩ : BufTy).Contents (Elt F) → (⟨S100000x1, .i32⟩ : BufTy).Contents (Elt F)),
    ternary main_v205 main_v206 main_v204 main_v207 ((fun x i u => Host.scatterAdd scatter_S128_S100000x1_S100000_n_0_0_1 x i u) : (⟨S128, .f32⟩ : BufTy).Contents (Elt F) → (⟨S100000x1, .i32⟩ : BufTy).Contents (Elt F) → (⟨S100000, .f32⟩ : BufTy).Contents (Elt F) → (⟨S128, .f32⟩ : BufTy).Contents (Elt F)),
    nullary main_cst_29 (constant S_ .f32 0x3F800000#32) ]

set_option maxRecDepth 8192 in
/-- Stretch 3 is its first 73 operations followed by its last 12. -/
theorem ops3_split : (ops3 : List (HloOp τ sig (Elt F))) = ops3a ++ ops3b := rfl

set_option maxRecDepth 8192 in
set_option maxHeartbeats 4000000 in
/-- The first 73 operations leave layer 3's output. -/
theorem s3a_v199 (W : Valuation τ sig (Elt Ideal)) :
    after ops3a W (Proc.devRef .tc main_v199) = layerH (W (Proc.devRef .tc main_v1)) (W (Proc.devRef .tc main_v3)) (W (Proc.devRef .tc main_v147)) (W (Proc.devRef .tc main_v149)) (W (Proc.devRef .tc main_v151)) (W (Proc.devRef .tc main_v153)) (W (Proc.devRef .tc main_v155)) (W (Proc.devRef .tc main_v157)) (shapeCast S128 (W (Proc.devRef .tc main_v158)) shapeCasts_S1x128_S128) := by
  after_results_simp <;> rfl

set_option maxRecDepth 8192 in
set_option maxHeartbeats 4000000 in
/-- The first 73 operations leave layer 0's output alone. -/
theorem s3a_v43 (W : Valuation τ sig (Elt Ideal)) :
    after ops3a W (Proc.devRef .tc main_v43) = (W (Proc.devRef .tc main_v43)) := by
  after_results_simp <;> rfl

set_option maxRecDepth 8192 in
set_option maxHeartbeats 4000000 in
/-- The first 73 operations leave layer 1's output alone. -/
theorem s3a_v95 (W : Valuation τ sig (Elt Ideal)) :
    after ops3a W (Proc.devRef .tc main_v95) = (W (Proc.devRef .tc main_v95)) := by
  after_results_simp <;> rfl

set_option maxRecDepth 8192 in
set_option maxHeartbeats 4000000 in
/-- The first 73 operations leave layer 2's output alone. -/
theorem s3a_v147 (W : Valuation τ sig (Elt Ideal)) :
    after ops3a W (Proc.devRef .tc main_v147) = (W (Proc.devRef .tc main_v147)) := by
  after_results_simp <;> rfl

set_option maxRecDepth 8192 in
set_option maxHeartbeats 4000000 in
/-- The first 73 operations leave the graph assignment alone. -/
theorem s3a_arg2 (W : Valuation τ sig (Elt Ideal)) :
    after ops3a W (Proc.devRef .tc main_arg2) = (W (Proc.devRef .tc main_arg2)) := by
  after_results_simp <;> rfl

set_option maxRecDepth 8192 in
set_option maxHeartbeats 4000000 in
/-- The last 12 operations leave the per-graph sums of what they find in the four layers' buffers. -/
theorem s3b_v203 (W : Valuation τ sig (Elt Ideal)) :
    after ops3b W (Proc.devRef .tc main_v203) = poolSumH (W (Proc.devRef .tc main_arg2)) (W (Proc.devRef .tc main_v43)) (W (Proc.devRef .tc main_v95)) (W (Proc.devRef .tc main_v147)) (W (Proc.devRef .tc main_v199)) := by
  after_results_simp <;> rfl

/-- Stretch 3 leaves the per-graph sums of the four layers' outputs, the last of them made in this stretch. -/
theorem s3_v203 (W : Valuation τ sig (Elt Ideal)) :
    after ops3 W (Proc.devRef .tc main_v203) = poolSumH (W (Proc.devRef .tc main_arg2)) (W (Proc.devRef .tc main_v43)) (W (Proc.devRef .tc main_v95)) (W (Proc.devRef .tc main_v147)) (layerH (W (Proc.devRef .tc main_v1)) (W (Proc.devRef .tc main_v3)) (W (Proc.devRef .tc main_v147)) (W (Proc.devRef .tc main_v149)) (W (Proc.devRef .tc main_v151)) (W (Proc.devRef .tc main_v153)) (W (Proc.devRef .tc main_v155)) (W (Proc.devRef .tc main_v157)) (shapeCast S128 (W (Proc.devRef .tc main_v158)) shapeCasts_S1x128_S128)) := by
  rw [ops3_split, StableHlo.after_append, s3b_v203, s3a_arg2, s3a_v43, s3a_v95, s3a_v147, s3a_v199]

end Cert.ReferenceIdeal.Hand

end
-- ==== Proof.RefValue.lean ====
/-
  The reference's result as the network's function of its arguments.

  The fold of @main's operations is read stretch by stretch.  For each stretch and each buffer a later stretch reads,
  one lemma (`sK_‹buffer›`, in the modules imported here) says what the stretch leaves in that buffer, as a chain of
  whole-array operations applied to what the stretch found in the buffers it reads.  Composing them from the launch contents
  (`tK_‹buffer›`: what the first K+1 stretches leave) gives the four layers' outputs X1 … X4, each a layer of the one
  before with its own slice of the stacked parameters, then the pooled features and the classifier; the chains are the
  network's functions of the same name, so the result is the network's output over this program's aggregation, the
  mean squared deviation as the variance, and this program's pooling.
-/
import proofs.«117300_j5643587027248_1_alg».proof.Proof.RefRead0
import proofs.«117300_j5643587027248_1_alg».proof.Proof.RefRead1
import proofs.«117300_j5643587027248_1_alg».proof.Proof.RefRead2
import proofs.«117300_j5643587027248_1_alg».proof.Proof.RefRead3
import proofs.«117300_j5643587027248_1_alg».proof.Proof.RefRead3P

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.LibDenseRows Cert.Spec Cert.Net

/-- The arguments as the network's parameters: the seventeen float arrays, in order. -/
def paramsR (V : Valuation τ sig (Elt Ideal)) : Params :=
  ⟨(V (Proc.devRef .tc main_arg0)), (V (Proc.devRef .tc main_arg3)), (V (Proc.devRef .tc main_arg4)), (V (Proc.devRef .tc main_arg5)), (V (Proc.devRef .tc main_arg6)), (V (Proc.devRef .tc main_arg7)), (V (Proc.devRef .tc main_arg8)), (V (Proc.devRef .tc main_arg9)), (V (Proc.devRef .tc main_arg10)), (V (Proc.devRef .tc main_arg11)), (V (Proc.devRef .tc main_arg12)), (V (Proc.devRef .tc main_arg13)), (V (Proc.devRef .tc main_arg14)), (V (Proc.devRef .tc main_arg15)), (V (Proc.devRef .tc main_arg16)), (V (Proc.devRef .tc main_arg17)), (V (Proc.devRef .tc main_arg18))⟩

/-- Layer 0's output from the launch contents. -/
def X1 (V : Valuation τ sig (Elt Ideal)) : FVec Ideal S100000x128 .f32 :=
  layerH (srcH (V (Proc.devRef .tc main_arg1))) (dstH (V (Proc.devRef .tc main_arg1))) (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8))

/-- A later layer's output from the layer before, with slice k of the stacked parameters. -/
def XN (k : ℕ) (hm : S3x128x128.Slices ![k, 0, 0] S1x128x128) (hr : S3x128.Slices ![k, 0] S1x128) (V : Valuation τ sig (Elt Ideal))
    (x : FVec Ideal S100000x128 .f32) : FVec Ideal S100000x128 .f32 :=
  layerH (srcH (V (Proc.devRef .tc main_arg1))) (dstH (V (Proc.devRef .tc main_arg1))) x (matS k (V (Proc.devRef .tc main_arg9)) hm) (rowS k (V (Proc.devRef .tc main_arg10)) hr) (matS k (V (Proc.devRef .tc main_arg11)) hm) (rowS k (V (Proc.devRef .tc main_arg12)) hr)
    (rowS k (V (Proc.devRef .tc main_arg13)) hr) (rowS k (V (Proc.devRef .tc main_arg14)) hr)

def X2 (V : Valuation τ sig (Elt Ideal)) : FVec Ideal S100000x128 .f32 := XN 0 slices_S3x128x128_S1x128x128_0_0_0 slices_S3x128_S1x128_0_0 V (X1 V)
def X3 (V : Valuation τ sig (Elt Ideal)) : FVec Ideal S100000x128 .f32 := XN 1 slices_S3x128x128_S1x128x128_1_0_0 slices_S3x128_S1x128_1_0 V (X2 V)
def X4 (V : Valuation τ sig (Elt Ideal)) : FVec Ideal S100000x128 .f32 := XN 2 slices_S3x128x128_S1x128x128_2_0_0 slices_S3x128_S1x128_2_0 V (X3 V)

/-! ## What the first stretches leave, from the launch contents -/

/-- After stretches 0–1: the edges' sources. -/
theorem t1_v1 (V : Valuation τ sig (Elt Ideal)) :
    after ops1 (after ops0 V) (Proc.devRef .tc main_v1) = srcH (V (Proc.devRef .tc main_arg1)) := by
  rw [ops1_keep (r := main_v1) _ (by decide), s0_v1]

/-- After stretches 0–1: the edges' destinations. -/
theorem t1_v3 (V : Valuation τ sig (Elt Ideal)) :
    after ops1 (after ops0 V) (Proc.devRef .tc main_v3) = dstH (V (Proc.devRef .tc main_arg1)) := by
  rw [ops1_keep (r := main_v3) _ (by decide), s0_v3]

/-- After stretches 0–1: layer 0's output. -/
theorem t1_v43 (V : Valuation τ sig (Elt Ideal)) :
    after ops1 (after ops0 V) (Proc.devRef .tc main_v43) = X1 V := by
  rw [ops1_keep (r := main_v43) _ (by decide), s0_v43]
  rfl

/-- After stretches 0–1: layer 1's output. -/
theorem t1_v95 (V : Valuation τ sig (Elt Ideal)) :
    after ops1 (after ops0 V) (Proc.devRef .tc main_v95) = X2 V := by
  rw [s1_v95, s0_v1, s0_v3, s0_v43, s0_v45, s0_v47, s0_v49, s0_v51, s0_v52, ops0_keep (r := main_arg14) _ (by decide)]
  rfl

/-- After stretches 0–1: slice 1 of a stacked parameter. -/
theorem t1_v97 (V : Valuation τ sig (Elt Ideal)) :
    after ops1 (after ops0 V) (Proc.devRef .tc main_v97) = (matS 1 (V (Proc.devRef .tc main_arg9)) slices_S3x128x128_S1x128x128_1_0_0) := by
  rw [s1_v97, ops0_keep (r := main_arg9) _ (by decide)]

/-- After stretches 0–1: slice 1 of a stacked parameter. -/
theorem t1_v99 (V : Valuation τ sig (Elt Ideal)) :
    after ops1 (after ops0 V) (Proc.devRef .tc main_v99) = (rowS 1 (V (Proc.devRef .tc main_arg10)) slices_S3x128_S1x128_1_0) := by
  rw [s1_v99, ops0_keep (r := main_arg10) _ (by decide)]

/-- After stretches 0–1: slice 1 of a stacked parameter. -/
theorem t1_v101 (V : Valuation τ sig (Elt Ideal)) :
    after ops1 (after ops0 V) (Proc.devRef .tc main_v101) = (matS 1 (V (Proc.devRef .tc main_arg11)) slices_S3x128x128_S1x128x128_1_0_0) := by
  rw [s1_v101, ops0_keep (r := main_arg11) _ (by decide)]

/-- After stretches 0–1: slice 1 of a stacked parameter. -/
theorem t1_v103 (V : Valuation τ sig (Elt Ideal)) :
    after ops1 (after ops0 V) (Proc.devRef .tc main_v103) = (rowS 1 (V (Proc.devRef .tc main_arg12)) slices_S3x128_S1x128_1_0) := by
  rw [s1_v103, ops0_keep (r := main_arg12) _ (by decide)]

/-- After stretches 0–1: slice 1 of a stacked parameter. -/
theorem t1_v105 (V : Valuation τ sig (Elt Ideal)) :
    after ops1 (after ops0 V) (Proc.devRef .tc main_v105) = (rowS 1 (V (Proc.devRef .tc main_arg13)) slices_S3x128_S1x128_1_0) := by
  rw [s1_v105, ops0_keep (r := main_arg13) _ (by decide)]

/-- After stretches 0–1 an argument is unchanged. -/
theorem t1_arg2 (V : Valuation τ sig (Elt Ideal)) :
    after ops1 (after ops0 V) (Proc.devRef .tc main_arg2) = (V (Proc.devRef .tc main_arg2)) := by
  rw [ops1_keep (r := main_arg2) _ (by decide), ops0_keep (r := main_arg2) _ (by decide)]

/-- After stretches 0–1 an argument is unchanged. -/
theorem t1_arg9 (V : Valuation τ sig (Elt Ideal)) :
    after ops1 (after ops0 V) (Proc.devRef .tc main_arg9) = (V (Proc.devRef .tc main_arg9)) := by
  rw [ops1_keep (r := main_arg9) _ (by decide), ops0_keep (r := main_arg9) _ (by decide)]

/-- After stretches 0–1 an argument is unchanged. -/
theorem t1_arg10 (V : Valuation τ sig (Elt Ideal)) :
    after ops1 (after ops0 V) (Proc.devRef .tc main_arg10) = (V (Proc.devRef .tc main_arg10)) := by
  rw [ops1_keep (r := main_arg10) _ (by decide), ops0_keep (r := main_arg10) _ (by decide)]

/-- After stretches 0–1 an argument is unchanged. -/
theorem t1_arg11 (V : Valuation τ sig (Elt Ideal)) :
    after ops1 (after ops0 V) (Proc.devRef .tc main_arg11) = (V (Proc.devRef .tc main_arg11)) := by
  rw [ops1_keep (r := main_arg11) _ (by decide), ops0_keep (r := main_arg11) _ (by decide)]

/-- After stretches 0–1 an argument is unchanged. -/
theorem t1_arg12 (V : Valuation τ sig (Elt Ideal)) :
    after ops1 (after ops0 V) (Proc.devRef .tc main_arg12) = (V (Proc.devRef .tc main_arg12)) := by
  rw [ops1_keep (r := main_arg12) _ (by decide), ops0_keep (r := main_arg12) _ (by decide)]

/-- After stretches 0–1 an argument is unchanged. -/
theorem t1_arg13 (V : Valuation τ sig (Elt Ideal)) :
    after ops1 (after ops0 V) (Proc.devRef .tc main_arg13) = (V (Proc.devRef .tc main_arg13)) := by
  rw [ops1_keep (r := main_arg13) _ (by decide), ops0_keep (r := main_arg13) _ (by decide)]

/-- After stretches 0–1 an argument is unchanged. -/
theorem t1_arg14 (V : Valuation τ sig (Elt Ideal)) :
    after ops1 (after ops0 V) (Proc.devRef .tc main_arg14) = (V (Proc.devRef .tc main_arg14)) := by
  rw [ops1_keep (r := main_arg14) _ (by decide), ops0_keep (r := main_arg14) _ (by decide)]

/-- After stretches 0–1 an argument is unchanged. -/
theorem t1_arg15 (V : Valuation τ sig (Elt Ideal)) :
    after ops1 (after ops0 V) (Proc.devRef .tc main_arg15) = (V (Proc.devRef .tc main_arg15)) := by
  rw [ops1_keep (r := main_arg15) _ (by decide), ops0_keep (r := main_arg15) _ (by decide)]

/-- After stretches 0–1 an argument is unchanged. -/
theorem t1_arg16 (V : Valuation τ sig (Elt Ideal)) :
    after ops1 (after ops0 V) (Proc.devRef .tc main_arg16) = (V (Proc.devRef .tc main_arg16)) := by
  rw [ops1_keep (r := main_arg16) _ (by decide), ops0_keep (r := main_arg16) _ (by decide)]

/-- After stretches 0–1 an argument is unchanged. -/
theorem t1_arg17 (V : Valuation τ sig (Elt Ideal)) :
    after ops1 (after ops0 V) (Proc.devRef .tc main_arg17) = (V (Proc.devRef .tc main_arg17)) := by
  rw [ops1_keep (r := main_arg17) _ (by decide), ops0_keep (r := main_arg17) _ (by decide)]

/-- After stretches 0–1 an argument is unchanged. -/
theorem t1_arg18 (V : Valuation τ sig (Elt Ideal)) :
    after ops1 (after ops0 V) (Proc.devRef .tc main_arg18) = (V (Proc.devRef .tc main_arg18)) := by
  rw [ops1_keep (r := main_arg18) _ (by decide), ops0_keep (r := main_arg18) _ (by decide)]

/-- After stretches 0–2: the edges' sources. -/
theorem t2_v1 (V : Valuation τ sig (Elt Ideal)) :
    after ops2 (after ops1 (after ops0 V)) (Proc.devRef .tc main_v1) = srcH (V (Proc.devRef .tc main_arg1)) := by
  rw [ops2_keep (r := main_v1) _ (by decide), t1_v1]

/-- After stretches 0–2: the edges' destinations. -/
theorem t2_v3 (V : Valuation τ sig (Elt Ideal)) :
    after ops2 (after ops1 (after ops0 V)) (Proc.devRef .tc main_v3) = dstH (V (Proc.devRef .tc main_arg1)) := by
  rw [ops2_keep (r := main_v3) _ (by decide), t1_v3]

/-- After stretches 0–2: layer 0's output. -/
theorem t2_v43 (V : Valuation τ sig (Elt Ideal)) :
    after ops2 (after ops1 (after ops0 V)) (Proc.devRef .tc main_v43) = X1 V := by
  rw [ops2_keep (r := main_v43) _ (by decide), t1_v43]

/-- After stretches 0–2: layer 1's output. -/
theorem t2_v95 (V : Valuation τ sig (Elt Ideal)) :
    after ops2 (after ops1 (after ops0 V)) (Proc.devRef .tc main_v95) = X2 V := by
  rw [ops2_keep (r := main_v95) _ (by decide), t1_v95]

/-- After stretches 0–2: layer 2's output. -/
theorem t2_v147 (V : Valuation τ sig (Elt Ideal)) :
    after ops2 (after ops1 (after ops0 V)) (Proc.devRef .tc main_v147) = X3 V := by
  rw [s2_v147, t1_v1, t1_v3, t1_v95, t1_v97, t1_v99, t1_v101, t1_v103, t1_v105, t1_arg14]
  rfl

/-- After stretches 0–2: slice 2 of a stacked parameter. -/
theorem t2_v149 (V : Valuation τ sig (Elt Ideal)) :
    after ops2 (after ops1 (after ops0 V)) (Proc.devRef .tc main_v149) = (matS 2 (V (Proc.devRef .tc main_arg9)) slices_S3x128x128_S1x128x128_2_0_0) := by
  rw [s2_v149, t1_arg9]

/-- After stretches 0–2: slice 2 of a stacked parameter. -/
theorem t2_v151 (V : Valuation τ sig (Elt Ideal)) :
    after ops2 (after ops1 (after ops0 V)) (Proc.devRef .tc main_v151) = (rowS 2 (V (Proc.devRef .tc main_arg10)) slices_S3x128_S1x128_2_0) := by
  rw [s2_v151, t1_arg10]

/-- After stretches 0–2: slice 2 of a stacked parameter. -/
theorem t2_v153 (V : Valuation τ sig (Elt Ideal)) :
    after ops2 (after ops1 (after ops0 V)) (Proc.devRef .tc main_v153) = (matS 2 (V (Proc.devRef .tc main_arg11)) slices_S3x128x128_S1x128x128_2_0_0) := by
  rw [s2_v153, t1_arg11]

/-- After stretches 0–2: slice 2 of a stacked parameter. -/
theorem t2_v155 (V : Valuation τ sig (Elt Ideal)) :
    after ops2 (after ops1 (after ops0 V)) (Proc.devRef .tc main_v155) = (rowS 2 (V (Proc.devRef .tc main_arg12)) slices_S3x128_S1x128_2_0) := by
  rw [s2_v155, t1_arg12]

/-- After stretches 0–2: slice 2 of a stacked parameter. -/
theorem t2_v157 (V : Valuation τ sig (Elt Ideal)) :
    after ops2 (after ops1 (after ops0 V)) (Proc.devRef .tc main_v157) = (rowS 2 (V (Proc.devRef .tc main_arg13)) slices_S3x128_S1x128_2_0) := by
  rw [s2_v157, t1_arg13]

/-- After stretches 0–2: row 2 of the stacked shifts, a one-row array. -/
theorem t2_v158 (V : Valuation τ sig (Elt Ideal)) :
    after ops2 (after ops1 (after ops0 V)) (Proc.devRef .tc main_v158) = extractStridedSlice S1x128 ![2, 0] (V (Proc.devRef .tc main_arg14)) slices_S3x128_S1x128_2_0 := by
  rw [s2_v158, t1_arg14]

/-- After stretches 0–2 an argument is unchanged. -/
theorem t2_arg2 (V : Valuation τ sig (Elt Ideal)) :
    after ops2 (after ops1 (after ops0 V)) (Proc.devRef .tc main_arg2) = (V (Proc.devRef .tc main_arg2)) := by
  rw [ops2_keep (r := main_arg2) _ (by decide), t1_arg2]

/-- After stretches 0–2 an argument is unchanged. -/
theorem t2_arg15 (V : Valuation τ sig (Elt Ideal)) :
    after ops2 (after ops1 (after ops0 V)) (Proc.devRef .tc main_arg15) = (V (Proc.devRef .tc main_arg15)) := by
  rw [ops2_keep (r := main_arg15) _ (by decide), t1_arg15]

/-- After stretches 0–2 an argument is unchanged. -/
theorem t2_arg16 (V : Valuation τ sig (Elt Ideal)) :
    after ops2 (after ops1 (after ops0 V)) (Proc.devRef .tc main_arg16) = (V (Proc.devRef .tc main_arg16)) := by
  rw [ops2_keep (r := main_arg16) _ (by decide), t1_arg16]

/-- After stretches 0–2 an argument is unchanged. -/
theorem t2_arg17 (V : Valuation τ sig (Elt Ideal)) :
    after ops2 (after ops1 (after ops0 V)) (Proc.devRef .tc main_arg17) = (V (Proc.devRef .tc main_arg17)) := by
  rw [ops2_keep (r := main_arg17) _ (by decide), t1_arg17]

/-- After stretches 0–2 an argument is unchanged. -/
theorem t2_arg18 (V : Valuation τ sig (Elt Ideal)) :
    after ops2 (after ops1 (after ops0 V)) (Proc.devRef .tc main_arg18) = (V (Proc.devRef .tc main_arg18)) := by
  rw [ops2_keep (r := main_arg18) _ (by decide), t1_arg18]

/-- After stretches 0–3: the per-graph sums of the four layers' outputs. -/
theorem t3_v203 (V : Valuation τ sig (Elt Ideal)) :
    after ops3 (after ops2 (after ops1 (after ops0 V))) (Proc.devRef .tc main_v203) = poolSumH (V (Proc.devRef .tc main_arg2)) (X1 V) (X2 V) (X3 V) (X4 V) := by
  rw [s3_v203, t2_arg2, t2_v43, t2_v95, t2_v147, t2_v1, t2_v3, t2_v149, t2_v151, t2_v153, t2_v155, t2_v157, t2_v158]
  rfl

/-- After stretches 0–3: the per-graph node counts. -/
theorem t3_v207 (V : Valuation τ sig (Elt Ideal)) :
    after ops3 (after ops2 (after ops1 (after ops0 V))) (Proc.devRef .tc main_v207) = poolCntH (V (Proc.devRef .tc main_arg2)) := by
  rw [s3_v207, t2_arg2]

/-- After stretches 0–3: the constant one. -/
theorem t3_cst_29 (V : Valuation τ sig (Elt Ideal)) :
    after ops3 (after ops2 (after ops1 (after ops0 V))) (Proc.devRef .tc main_cst_29) = constant (F := Ideal) S_ .f32 0x3F800000#32 := by
  rw [s3_cst_29]

/-- After stretches 0–3 an argument is unchanged. -/
theorem t3_arg15 (V : Valuation τ sig (Elt Ideal)) :
    after ops3 (after ops2 (after ops1 (after ops0 V))) (Proc.devRef .tc main_arg15) = (V (Proc.devRef .tc main_arg15)) := by
  rw [ops3_keep (r := main_arg15) _ (by decide), t2_arg15]

/-- After stretches 0–3 an argument is unchanged. -/
theorem t3_arg16 (V : Valuation τ sig (Elt Ideal)) :
    after ops3 (after ops2 (after ops1 (after ops0 V))) (Proc.devRef .tc main_arg16) = (V (Proc.devRef .tc main_arg16)) := by
  rw [ops3_keep (r := main_arg16) _ (by decide), t2_arg16]

/-- After stretches 0–3 an argument is unchanged. -/
theorem t3_arg17 (V : Valuation τ sig (Elt Ideal)) :
    after ops3 (after ops2 (after ops1 (after ops0 V))) (Proc.devRef .tc main_arg17) = (V (Proc.devRef .tc main_arg17)) := by
  rw [ops3_keep (r := main_arg17) _ (by decide), t2_arg17]

/-- After stretches 0–3 an argument is unchanged. -/
theorem t3_arg18 (V : Valuation τ sig (Elt Ideal)) :
    after ops3 (after ops2 (after ops1 (after ops0 V))) (Proc.devRef .tc main_arg18) = (V (Proc.devRef .tc main_arg18)) := by
  rw [ops3_keep (r := main_arg18) _ (by decide), t2_arg18]

/-! ## The layers are the network's -/

theorem X1_eq (V : Valuation τ sig (Elt Ideal)) : X1 V = x1 (aggR (V (Proc.devRef .tc main_arg1))) msdRow (paramsR V) := by
  unfold X1
  rw [layerH_eq]
  rfl

theorem XN_eq (k : ℕ) (l : Fin 3) (hk : k = l.val) (hm : S3x128x128.Slices ![k, 0, 0] S1x128x128) (hr : S3x128.Slices ![k, 0] S1x128)
    (V : Valuation τ sig (Elt Ideal)) (x : FVec Ideal S100000x128 .f32) :
    XN k hm hr V x = xNext (aggR (V (Proc.devRef .tc main_arg1))) msdRow (paramsR V) l x := by
  unfold XN
  rw [layerH_eq, matS_eq _ l k hk, matS_eq _ l k hk, rowS_eq _ l k hk, rowS_eq _ l k hk, rowS_eq _ l k hk, rowS_eq _ l k hk]
  rfl

theorem X2_eq (V : Valuation τ sig (Elt Ideal)) : X2 V = x2 (aggR (V (Proc.devRef .tc main_arg1))) msdRow (paramsR V) := by
  unfold X2
  rw [XN_eq 0 0 rfl, X1_eq]
  rfl

theorem X3_eq (V : Valuation τ sig (Elt Ideal)) : X3 V = x3 (aggR (V (Proc.devRef .tc main_arg1))) msdRow (paramsR V) := by
  unfold X3
  rw [XN_eq 1 1 rfl, X2_eq]
  rfl

theorem X4_eq (V : Valuation τ sig (Elt Ideal)) : X4 V = x4 (aggR (V (Proc.devRef .tc main_arg1))) msdRow (paramsR V) := by
  unfold X4
  rw [XN_eq 2 2 rfl, X3_eq]
  rfl

/-! ## The result -/

/-- The returned buffer after @main's operations, from any contents: the network's output over this program's
    aggregation along the edge list, the mean squared deviation as each layer's variance, this program's pooling by the
    graph assignment, and the seventeen float arguments as parameters. -/
theorem ref_value (V : Valuation τ sig (Elt Ideal)) :
    after ops V (Proc.devRef .tc main_v221) = Cert.Net.out (aggR (V (Proc.devRef .tc main_arg1))) Cert.Spec.msdRow (poolR (V (Proc.devRef .tc main_arg2))) (paramsR V) := by
  rw [after_ops, s4_v221, t3_v203, t3_v207, t3_cst_29, t3_arg15, t3_arg16, t3_arg17, t3_arg18, clsH_eq, X1_eq, X2_eq, X3_eq, X4_eq]
  rfl

end Cert.ReferenceIdeal.Hand

end
-- ==== Proof.LibBatchNorm.lean ====
/-
  One batch normalisation, entry by entry.

  A column of N ≥ 1 finite entries x_i is normalised to (x_i − m) · c · g + b, where m is the column's mean, c is the
  reciprocal square root of the column's variance plus a positive real ε, and g, b are finite.  Whether the variance is
  taken as "mean of squares minus squared mean, clamped at zero" (from the sum s and the sum of squares ss) or as the
  mean squared deviation from the mean, the factor c is the same positive real, so the two normalisations agree entry
  by entry, and every normalised entry is finite.
-/
import proofs.«117300_j5643587027248_1_alg».proof.Proof.LibVariance

noncomputable section

open scoped BigOperators

namespace Cert.Lib.BatchNorm

open Idealize.ShloMosaic

section
variable {ι : Type*} [Fintype ι]

/-- The two reciprocal-square-root factors agree: with the clamped variance from the sums s and ss, and with the mean
    squared deviation. -/
theorem rsqrt_factor_eq (x : ι → EReal) (hx : ∀ i, IsReal (x i)) {n : ℝ} (hn : (Fintype.card ι : ℝ) = n)
    (hpos : 0 < n) {s ss : EReal} (hs : s = ∑ i, x i) (hss : ss = ∑ i, x i * x i) (e : EReal) :
    Ideal.rsqrt (max (Ideal.div ss (n : EReal) - Ideal.div s (n : EReal) * Ideal.div s (n : EReal)) 0 + e)
      = Ideal.rsqrt (Ideal.div (∑ i, (x i - Ideal.div (∑ j, x j) (n : EReal))
          * (x i - Ideal.div (∑ j, x j) (n : EReal))) (n : EReal) + e) := by
  rw [variance_eq_of_sums x hx hn hpos hs hss, hs]

/-- The two normalisations of an entry agree. -/
theorem normalised_eq (x : ι → EReal) (hx : ∀ i, IsReal (x i)) {n : ℝ} (hn : (Fintype.card ι : ℝ) = n)
    (hpos : 0 < n) {s ss : EReal} (hs : s = ∑ i, x i) (hss : ss = ∑ i, x i * x i) (e g b : EReal) (i : ι) :
    (x i - Ideal.div s (n : EReal))
        * Ideal.rsqrt (max (Ideal.div ss (n : EReal) - Ideal.div s (n : EReal) * Ideal.div s (n : EReal)) 0 + e)
        * g + b
      = (x i - Ideal.div (∑ j, x j) (n : EReal))
        * Ideal.rsqrt (Ideal.div (∑ k, (x k - Ideal.div (∑ j, x j) (n : EReal))
            * (x k - Ideal.div (∑ j, x j) (n : EReal))) (n : EReal) + e)
        * g + b := by
  rw [rsqrt_factor_eq x hx hn hpos hs hss e, hs]

/-- The factor from the mean squared deviation is finite. -/
theorem isReal_rsqrt_msd_add (x : ι → EReal) (hx : ∀ i, IsReal (x i)) {n : ℝ} (hpos : 0 < n) {e : EReal}
    (he : ∃ r : ℝ, 0 < r ∧ e = (r : EReal)) :
    IsReal (Ideal.rsqrt (Ideal.div (∑ i, (x i - Ideal.div (∑ j, x j) (n : EReal))
        * (x i - Ideal.div (∑ j, x j) (n : EReal))) (n : EReal) + e)) := by
  obtain ⟨q, _, hq⟩ := exists_pos_rsqrt_msd_add x hx hpos he
  exact ⟨q, hq⟩

/-- The factor from the clamped variance is finite. -/
theorem isReal_rsqrt_clamped_add (x : ι → EReal) (hx : ∀ i, IsReal (x i)) {n : ℝ} (hn : (Fintype.card ι : ℝ) = n)
    (hpos : 0 < n) {e : EReal} (he : ∃ r : ℝ, 0 < r ∧ e = (r : EReal)) :
    IsReal (Ideal.rsqrt (max (Ideal.div (∑ i, x i * x i) (n : EReal)
        - Ideal.div (∑ i, x i) (n : EReal) * Ideal.div (∑ i, x i) (n : EReal)) 0 + e)) := by
  obtain ⟨q, _, hq⟩ := exists_pos_rsqrt_clamped_add x hx hn hpos he
  exact ⟨q, hq⟩

/-- Every entry normalised with the mean squared deviation is finite. -/
theorem isReal_normalised_msd (x : ι → EReal) (hx : ∀ i, IsReal (x i)) {n : ℝ} (hpos : 0 < n) {e g b : EReal}
    (he : ∃ r : ℝ, 0 < r ∧ e = (r : EReal)) (hg : IsReal g) (hb : IsReal b) (i : ι) :
    IsReal ((x i - Ideal.div (∑ j, x j) (n : EReal))
        * Ideal.rsqrt (Ideal.div (∑ k, (x k - Ideal.div (∑ j, x j) (n : EReal))
            * (x k - Ideal.div (∑ j, x j) (n : EReal))) (n : EReal) + e)
        * g + b) :=
  isReal_normalised (hx i) (isReal_mean x hx hpos.ne') (isReal_rsqrt_msd_add x hx hpos he) hg hb

/-- Every entry normalised with the clamped variance is finite. -/
theorem isReal_normalised_clamped (x : ι → EReal) (hx : ∀ i, IsReal (x i)) {n : ℝ} (hn : (Fintype.card ι : ℝ) = n)
    (hpos : 0 < n) {e g b : EReal} (he : ∃ r : ℝ, 0 < r ∧ e = (r : EReal)) (hg : IsReal g) (hb : IsReal b) (i : ι) :
    IsReal ((x i - Ideal.div (∑ j, x j) (n : EReal))
        * Ideal.rsqrt (max (Ideal.div (∑ j, x j * x j) (n : EReal)
            - Ideal.div (∑ j, x j) (n : EReal) * Ideal.div (∑ j, x j) (n : EReal)) 0 + e)
        * g + b) :=
  isReal_normalised (hx i) (isReal_mean x hx hpos.ne') (isReal_rsqrt_clamped_add x hx hn hpos he) hg hb

end

/-! ## The instance N = 50000, ε the single-precision number nearest 10⁻⁵ -/

/-- The two normalisations of an entry of a column of 50000 finite entries agree, with N and ε as their
    single-precision patterns denote them. -/
theorem normalised_eq_50000 (x : Fin 50000 → EReal) (hx : ∀ i, IsReal (x i)) {s ss : EReal} (hs : s = ∑ i, x i)
    (hss : ss = ∑ i, x i * x i) (e g b : EReal) (i : Fin 50000) :
    (x i - Ideal.div s ((50000 : ℝ) : EReal))
        * Ideal.rsqrt (max (Ideal.div ss ((50000 : ℝ) : EReal)
            - Ideal.div s ((50000 : ℝ) : EReal) * Ideal.div s ((50000 : ℝ) : EReal)) 0 + e)
        * g + b
      = (x i - Ideal.div (∑ j, x j) ((50000 : ℝ) : EReal))
        * Ideal.rsqrt (Ideal.div (∑ k, (x k - Ideal.div (∑ j, x j) ((50000 : ℝ) : EReal))
            * (x k - Ideal.div (∑ j, x j) ((50000 : ℝ) : EReal))) ((50000 : ℝ) : EReal) + e)
        * g + b :=
  normalised_eq x hx card_fin_50000 (by norm_num) hs hss e g b i

/-- Every entry of a column of 50000 finite entries, normalised with the mean squared deviation and ε, is finite. -/
theorem isReal_normalised_msd_50000 (x : Fin 50000 → EReal) (hx : ∀ i, IsReal (x i)) {g b : EReal} (hg : IsReal g)
    (hb : IsReal b) (i : Fin 50000) :
    IsReal ((x i - Ideal.div (∑ j, x j) ((50000 : ℝ) : EReal))
        * Ideal.rsqrt (Ideal.div (∑ k, (x k - Ideal.div (∑ j, x j) ((50000 : ℝ) : EReal))
            * (x k - Ideal.div (∑ j, x j) ((50000 : ℝ) : EReal))) ((50000 : ℝ) : EReal)
            + Ideal.ofBits .f32 0x3727C5AC#32)
        * g + b) :=
  isReal_normalised_msd x hx (by norm_num) ofBits_eps hg hb i

/-- … and normalised with the clamped variance and ε. -/
theorem isReal_normalised_clamped_50000 (x : Fin 50000 → EReal) (hx : ∀ i, IsReal (x i)) {g b : EReal}
    (hg : IsReal g) (hb : IsReal b) (i : Fin 50000) :
    IsReal ((x i - Ideal.div (∑ j, x j) ((50000 : ℝ) : EReal))
        * Ideal.rsqrt (max (Ideal.div (∑ j, x j * x j) ((50000 : ℝ) : EReal)
            - Ideal.div (∑ j, x j) ((50000 : ℝ) : EReal) * Ideal.div (∑ j, x j) ((50000 : ℝ) : EReal)) 0
            + Ideal.ofBits .f32 0x3727C5AC#32)
        * g + b) :=
  isReal_normalised_clamped x hx card_fin_50000 (by norm_num) ofBits_eps hg hb i

end Cert.Lib.BatchNorm

end
-- ==== Proof.NetBridge.lean ====
/-
  The two ways of computing a layer's batch variance give the same network on real inputs.

  For real entries, "mean of squares minus squared mean" computed from the two column sums equals the mean squared
  deviation from the mean: over the reals this is the usual identity, and for finite entries every sum, quotient and
  product met on the way stays a real number, so nothing of the form ∞ − ∞ arises. To use this layer after layer one
  needs every layer's output to be real again: two rectified dense layers of real arrays are real (finite sums of
  products, and the maximum with zero); the column means are real; the mean squared deviation is a non-negative real,
  so adding the positive ε gives a positive real whose reciprocal square root is a positive real; and the normalised
  entry (h − μ) · (σ² + ε)^(−1/2) · γ + β is then real. Hence, layer by layer, the network computed with either variance
  is the same function, provided the aggregation takes real arrays to real arrays.
-/
import proofs.«117300_j5643587027248_1_alg».proof.Proof.Net
import proofs.«117300_j5643587027248_1_alg».proof.Proof.LibBatchNorm

noncomputable section

open scoped BigOperators

namespace Cert.Net

open Idealize.ShloMosaic Idealize.ShloMosaic.ValueIdx Cert.LibDenseRows Cert.Spec Cert.Lib.BatchNorm

/-- Every entry of an array is a real number. -/
abbrev AllReal {ι : Type} (x : ι → EReal) : Prop := ∀ i, IsReal (x i)

/-! ## The two variances agree on real arrays -/

/-- The count word is the real 100000. -/
theorem cnt_eq : cnt = ((100000 : ℝ) : EReal) := ofBits_100000

/-- ε is a positive real. -/
theorem eps_pos : ∃ e : ℝ, 0 < e ∧ eps = (e : EReal) := ofBits_eps

/-- Mean of squares minus squared mean, from the column sums of a real array, is the mean squared deviation. -/
theorem varSums_eq_msd (h : SR.Idx → EReal) (hh : AllReal h) : varSums h = msdRow h := by
  funext j
  simp only [varSums, varRow, colSum, colSumSq, msdRow, cnt_eq]
  exact variance_plain (fun p : Fin 100000 => h (ix2 p (j 1 : Fin 128))) (fun p => hh _) card_fin_100000
    hundred_thousand_pos

/-! ## Real arrays stay real -/

/-- The rectifier of a real is real. -/
theorem isReal_relu {x : EReal} (hx : IsReal x) : IsReal (relu x) := by
  unfold relu
  rw [Ideal.ofBits_zero_f32]
  exact isReal_max hx isReal_zero

/-- A dense layer's entry, from a real row, real weights and a real bias, is real. -/
theorem isReal_denseRow {k n : ℕ} (r : Fin k → EReal) (w : (⟨2, ![k, n]⟩ : Shape).Idx → EReal)
    (b : (⟨2, ![1, n]⟩ : Shape).Idx → EReal) (hr : AllReal r) (hw : AllReal w) (hb : AllReal b) (q : Fin n) :
    IsReal (denseRow r w b q) :=
  (isReal_sum_univ _ fun c => (hr c).mul (hw _)).add (hb _)

/-- Two rectified dense layers of a real row are real. -/
theorem isReal_mlp2Row {k h n : ℕ} (r : Fin k → EReal) (w1 : (⟨2, ![k, h]⟩ : Shape).Idx → EReal)
    (b1 : (⟨2, ![1, h]⟩ : Shape).Idx → EReal) (w2 : (⟨2, ![h, n]⟩ : Shape).Idx → EReal)
    (b2 : (⟨2, ![1, n]⟩ : Shape).Idx → EReal) (hr : AllReal r) (hw1 : AllReal w1) (hb1 : AllReal b1)
    (hw2 : AllReal w2) (hb2 : AllReal b2) (q : Fin n) : IsReal (mlp2Row r w1 b1 w2 b2 q) :=
  isReal_relu (isReal_denseRow _ w2 b2 (fun c => isReal_relu (isReal_denseRow r w1 b1 hr hw1 hb1 c)) hw2 hb2 q)

/-- A dense layer of a real matrix is real. -/
theorem isReal_denseArr {m k n : ℕ} (x : (⟨2, ![m, k]⟩ : Shape).Idx → EReal) (w : (⟨2, ![k, n]⟩ : Shape).Idx → EReal)
    (b : (⟨2, ![1, n]⟩ : Shape).Idx → EReal) (hx : AllReal x) (hw : AllReal w) (hb : AllReal b) :
    AllReal (denseArr x w b) :=
  fun i => isReal_denseRow _ w b (fun c => hx _) hw hb _

/-- The two rectified dense layers of x + agg are real when x, agg and the parameters are. -/
theorem isReal_mlpArr (x agg : SR.Idx → EReal) (w1 : SW.Idx → EReal) (b1 : S1.Idx → EReal) (w2 : SW.Idx → EReal)
    (b2 : S1.Idx → EReal) (hx : AllReal x) (hagg : AllReal agg) (hw1 : AllReal w1) (hb1 : AllReal b1)
    (hw2 : AllReal w2) (hb2 : AllReal b2) : AllReal (mlpArr x agg w1 b1 w2 b2) :=
  fun i => isReal_mlp2Row _ w1 b1 w2 b2 (fun c => (hx _).add (hagg _)) hw1 hb1 hw2 hb2 _

/-- The classifier of real pooled features and real parameters is real. -/
theorem isReal_clsArr (p : (⟨2, ![128, 512]⟩ : Shape).Idx → EReal) (w1 : (⟨2, ![512, 128]⟩ : Shape).Idx → EReal)
    (b1 : S1.Idx → EReal) (w2 : (⟨2, ![128, 10]⟩ : Shape).Idx → EReal) (b2 : (⟨2, ![1, 10]⟩ : Shape).Idx → EReal)
    (hp : AllReal p) (hw1 : AllReal w1) (hb1 : AllReal b1) (hw2 : AllReal w2) (hb2 : AllReal b2) :
    AllReal (clsArr p w1 b1 w2 b2) :=
  isReal_denseArr _ w2 b2 (fun i => isReal_relu (isReal_denseArr p w1 b1 hp hw1 hb1 i)) hw2 hb2

/-- The column means of a real array are real. -/
theorem isReal_meanRow_colSum (h : SR.Idx → EReal) (hh : AllReal h) : AllReal (meanRow (colSum h)) := by
  intro j
  simp only [meanRow, colSum, cnt_eq]
  exact isReal_mean (fun p : Fin 100000 => h (ix2 p (j 1 : Fin 128))) (fun p => hh _) hundred_thousand_ne_zero

/-- The mean squared deviation of a real array's column is a non-negative real. -/
theorem exists_nonneg_msdRow (h : SR.Idx → EReal) (hh : AllReal h) (j : S1.Idx) :
    ∃ v : ℝ, 0 ≤ v ∧ msdRow h j = (v : EReal) := by
  simp only [msdRow, cnt_eq]
  exact exists_nonneg_msd (fun p : Fin 100000 => h (ix2 p (j 1 : Fin 128))) (fun p => hh _) hundred_thousand_pos

/-- The normalisation of a real array with real means, non-negative real variances and real scale and shift is real. -/
theorem isReal_normArr (h : SR.Idx → EReal) (mu var g b : S1.Idx → EReal) (hh : AllReal h) (hmu : AllReal mu)
    (hvar : ∀ j, ∃ v : ℝ, 0 ≤ v ∧ var j = (v : EReal)) (hg : AllReal g) (hb : AllReal b) :
    AllReal (normArr h mu var g b) :=
  fun i => isReal_normalised (hh i) (hmu _) (isReal_rsqrt_of_pos (exists_pos_add (hvar _) eps_pos)) (hg _) (hb _)

/-- The normalisation of a real array with its own column means and mean squared deviations is real. -/
theorem isReal_normArr_msd (h : SR.Idx → EReal) (g b : S1.Idx → EReal) (hh : AllReal h) (hg : AllReal g)
    (hb : AllReal b) : AllReal (normArr h (meanRow (colSum h)) (msdRow h) g b) :=
  isReal_normArr h _ _ g b hh (isReal_meanRow_colSum h hh) (exists_nonneg_msdRow h hh) hg hb

/-- A real vector of 128 as a one-row array is real. -/
theorem isReal_rowOf (v : (⟨1, ![128]⟩ : Shape).Idx → EReal) (hv : AllReal v) : AllReal (rowOf v) := fun j => hv _
/-- A real vector of 10 as a one-row array is real. -/
theorem isReal_rowOf10 (v : (⟨1, ![10]⟩ : Shape).Idx → EReal) (hv : AllReal v) : AllReal (rowOf10 v) := fun j => hv _
/-- A slice of real stacked matrices is real. -/
theorem isReal_matOf (a : (⟨3, ![3, 128, 128]⟩ : Shape).Idx → EReal) (ha : AllReal a) (l : Fin 3) :
    AllReal (matOf a l) := fun i => ha _
/-- A row of real stacked vectors is real. -/
theorem isReal_rowOf3 (a : (⟨2, ![3, 128]⟩ : Shape).Idx → EReal) (ha : AllReal a) (l : Fin 3) :
    AllReal (rowOf3 a l) := fun j => ha _

/-! ## One layer -/

/-- On real features, a real aggregate and real parameters, a layer is the same with either variance, and its
    output is real. -/
theorem layer_bridge (agg : (SR.Idx → EReal) → SR.Idx → EReal) (x : SR.Idx → EReal) (w1 : SW.Idx → EReal)
    (b1 : S1.Idx → EReal) (w2 : SW.Idx → EReal) (b2 g b : S1.Idx → EReal) (hx : AllReal x) (hagg : AllReal (agg x))
    (hw1 : AllReal w1) (hb1 : AllReal b1) (hw2 : AllReal w2) (hb2 : AllReal b2) (hg : AllReal g) (hb : AllReal b) :
    layer agg varSums x w1 b1 w2 b2 g b = layer agg msdRow x w1 b1 w2 b2 g b
      ∧ AllReal (layer agg msdRow x w1 b1 w2 b2 g b) := by
  have hm : AllReal (mlpArr x (agg x) w1 b1 w2 b2) := isReal_mlpArr x (agg x) w1 b1 w2 b2 hx hagg hw1 hb1 hw2 hb2
  refine ⟨?_, isReal_normArr_msd _ g b hm hg hb⟩
  unfold layer
  rw [varSums_eq_msd _ hm]

/-! ## The network -/

/-- Every one of the seventeen float argument arrays has real entries. -/
structure Params.Real (P : Params) : Prop where
  x : AllReal P.x
  w1_0 : AllReal P.w1_0
  b1_0 : AllReal P.b1_0
  w2_0 : AllReal P.w2_0
  b2_0 : AllReal P.b2_0
  gamma0 : AllReal P.gamma0
  beta0 : AllReal P.beta0
  w1s : AllReal P.w1s
  b1s : AllReal P.b1s
  w2s : AllReal P.w2s
  b2s : AllReal P.b2s
  gammas : AllReal P.gammas
  betas : AllReal P.betas
  lin1_w : AllReal P.lin1_w
  lin1_b : AllReal P.lin1_b
  lin2_w : AllReal P.lin2_w
  lin2_b : AllReal P.lin2_b

section Network
variable (agg : (SR.Idx → EReal) → SR.Idx → EReal) (hagg : ∀ x, AllReal x → AllReal (agg x))
  (pool : (SR.Idx → EReal) → (SR.Idx → EReal) → (SR.Idx → EReal) → (SR.Idx → EReal) → SP.Idx → EReal)
  (P : Params) (hP : P.Real)
include hagg hP

/-- Layer 0 with either variance, and its output is real. -/
theorem x1_bridge : x1 agg varSums P = x1 agg msdRow P ∧ AllReal (x1 agg msdRow P) :=
  layer_bridge agg P.x P.w1_0 (rowOf P.b1_0) P.w2_0 (rowOf P.b2_0) (rowOf P.gamma0) (rowOf P.beta0) hP.x
    (hagg _ hP.x) hP.w1_0 (isReal_rowOf _ hP.b1_0) hP.w2_0 (isReal_rowOf _ hP.b2_0) (isReal_rowOf _ hP.gamma0)
    (isReal_rowOf _ hP.beta0)

/-- A later layer on real features with either variance, and its output is real. -/
theorem xNext_bridge (l : Fin 3) (x : SR.Idx → EReal) (hx : AllReal x) :
    xNext agg varSums P l x = xNext agg msdRow P l x ∧ AllReal (xNext agg msdRow P l x) :=
  layer_bridge agg x (matOf P.w1s l) (rowOf3 P.b1s l) (matOf P.w2s l) (rowOf3 P.b2s l) (rowOf3 P.gammas l)
    (rowOf3 P.betas l) hx (hagg _ hx) (isReal_matOf _ hP.w1s l) (isReal_rowOf3 _ hP.b1s l) (isReal_matOf _ hP.w2s l)
    (isReal_rowOf3 _ hP.b2s l) (isReal_rowOf3 _ hP.gammas l) (isReal_rowOf3 _ hP.betas l)

theorem x2_bridge : x2 agg varSums P = x2 agg msdRow P ∧ AllReal (x2 agg msdRow P) := by
  obtain ⟨e, hr⟩ := x1_bridge agg hagg P hP
  unfold x2
  rw [e]
  exact xNext_bridge agg hagg P hP 0 _ hr

theorem x3_bridge : x3 agg varSums P = x3 agg msdRow P ∧ AllReal (x3 agg msdRow P) := by
  obtain ⟨e, hr⟩ := x2_bridge agg hagg P hP
  unfold x3
  rw [e]
  exact xNext_bridge agg hagg P hP 1 _ hr

theorem x4_bridge : x4 agg varSums P = x4 agg msdRow P ∧ AllReal (x4 agg msdRow P) := by
  obtain ⟨e, hr⟩ := x3_bridge agg hagg P hP
  unfold x4
  rw [e]
  exact xNext_bridge agg hagg P hP 2 _ hr

/-- THE BRIDGE: with an aggregation that keeps real arrays real and real argument arrays, the network computed with
    "mean of squares minus squared mean" is the network computed with the mean squared deviation. -/
theorem net_bridge : out agg varSums pool P = out agg msdRow pool P := by
  unfold out
  rw [(x1_bridge agg hagg P hP).1, (x2_bridge agg hagg P hP).1, (x3_bridge agg hagg P hP).1,
    (x4_bridge agg hagg P hP).1]

/-- If moreover the pooling keeps real arrays real, the network's result is real. -/
theorem isReal_out
    (hpool : ∀ a b c d, AllReal a → AllReal b → AllReal c → AllReal d → AllReal (pool a b c d)) :
    AllReal (out agg msdRow pool P) :=
  isReal_clsArr _ P.lin1_w (rowOf P.lin1_b) P.lin2_w (rowOf10 P.lin2_b)
    (hpool _ _ _ _ (x1_bridge agg hagg P hP).2 (x2_bridge agg hagg P hP).2 (x3_bridge agg hagg P hP).2
      (x4_bridge agg hagg P hP).2)
    hP.lin1_w (isReal_rowOf _ hP.lin1_b) hP.lin2_w (isReal_rowOf10 _ hP.lin2_b)

end Network

end Cert.Net

end
-- ==== Proof.Bridge.lean ====
/-
  The two programs' index-driven host steps are the same functions.

  The reference and the kernel program each spell the neighbour aggregation (the two rows of the edge array flattened,
  a negative source counted from the end, the gather of the rows at the sources, the scatter-add at the destinations
  from zero) and the pooling (the four layers' features side by side, added up by graph id from zero, divided by each
  graph's number of rows, at least 1) as the same chain of the same operations, over dimension records that are the
  same literals declared once per program. Unfolding both sides gives one and the same term.
-/
import proofs.«117300_j5643587027248_1_alg».proof.Proof.RefHost
import proofs.«117300_j5643587027248_1_alg».proof.Proof.KHostAgg

noncomputable section

namespace Cert.Bridge

open Idealize.ShloMosaic

/-- The aggregation, as a function of the edge array, is the same in both programs. -/
theorem agg_eq (e : IVec ⟨2, ![2, 1600000]⟩ 32) :
    Cert.ReferenceIdeal.Hand.aggR e
      = fun x => Cert.KernelIdeal.Hand.aggK' (Cert.KernelIdeal.Hand.srcK e) (Cert.KernelIdeal.Hand.dstK e) x := by
  funext x
  rfl

/-- The pooling, as a function of the graph ids, is the same in both programs. -/
theorem pool_eq (g : IVec ⟨1, ![100000]⟩ 32) :
    Cert.ReferenceIdeal.Hand.poolR g = Cert.KernelIdeal.Hand.poolK g := by
  funext a b c d
  rfl

end Cert.Bridge

end
-- ==== Proof.FiniteInputs.lean ====
/-
  Finiteness of the float inputs, from the precondition.

  The precondition of the claim is a predicate of the nineteen argument arrays: for each of the seventeen float
  arrays x it forms the conjunction over all entries of |x| < +∞ — the elementwise comparison of |x| = max(x, −x)
  against the broadcast single-precision pattern 0x7F800000 (which denotes +∞), reduced over every axis by `and`
  starting from 1 — and it conjoins the seventeen one-bit results. The claim assumes the outcome is the bit 1.

  Read back: a conjunction of one-bit words is 1 only if every word is 1; a reduction by `and` into a single result that
  is 1 met a 1 at every entry; an entry's comparison bit is 1 only if max(x, −x) < +∞; and an extended real with
  max(x, −x) < +∞ is neither +∞ nor −∞, that is, a real number. Hence every entry of every float argument is real.
-/
import proofs.«117300_j5643587027248_1_alg».proof.Defs
import proofs.«117300_j5643587027248_1_alg».proof.Proof.Gen.Pre_finite_inputs
import proofs.«117300_j5643587027248_1_alg».proof.Proof.LibFinite
import Idealize.ShloMosaic.Lib.ReduceAll
import Idealize.ShloMosaic.Lib.ValueIdx

noncomputable section

namespace Cert.KernelIdeal.Hand

open Cert.KernelIdeal
open Idealize.ShloMosaic Idealize.SL.Sem
open Cert.Lib.BatchNorm (IsReal)

/-- The scalar shape has exactly one index. -/
instance subsingleton_scalar_idx : Subsingleton Cert.Pre_finite_inputs.S_.Idx :=
  ⟨fun a b => funext fun d => d.elim0⟩

/-- The single-precision pattern 0x7F800000 denotes +∞. -/
theorem ofBits_inf : Ideal.ofBits .f32 0x7F800000#32 = (⊤ : EReal) := by
  simp [Ideal.ofBits, Ideal.ieee]

/-- An extended real whose absolute value max(x, −x) is below +∞ is a real number. -/
theorem isReal_of_abs_lt_top (x : EReal) (h : max x (-x) < ⊤) : IsReal x := by
  induction x using EReal.rec with
  | bot => simp at h
  | coe r => exact ⟨r, rfl⟩
  | top => simp at h

/-- One-bit words: the word of a decided proposition is 1 exactly when the proposition holds. -/
theorem ofBool_decide_eq_one (p : Prop) [Decidable p] (h : BitVec.ofBool (decide p) = 1#1) : p := by
  by_cases hp : p
  · exact hp
  · simp [hp] at h

/-- THE PER-ARRAY STEP, generic in the shape: if the conjunction over all entries of "|x| < +∞" (the reduction by
    `and`, from 1, of the elementwise comparison of |x| against the broadcast +∞ pattern) is the bit 1, then every
    entry of x is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1)
    (i : s.Idx) : IsReal (x i) := by
  have h := Host.reduce_andi_all _ _ hr hu j e i
  have h' : BitVec.ofBool (decide (max (x i) (-(x i)) < Ideal.ofBits .f32 0x7F800000#32)) = 1#1 := h
  rw [ofBits_inf] at h'
  exact isReal_of_abs_lt_top _ (ofBool_decide_eq_one _ h')

/-- FINITENESS OF THE FLOAT INPUTS. The precondition says that, on every device, the conjunction over the seventeen
    float argument arrays of "every entry has absolute value below +∞" is the bit 1 (the two integer arrays are not
    constrained). A conjunction of one-bit words is 1 exactly when each word is, so each array's own conjunction is 1,
    and by the per-array step every entry of every float argument is a real number. -/
theorem finite_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev nD) :
    (∀ i, IsReal ((m ((c.tc : Thread nD τ).loc main_arg0)) i))
    ∧ (∀ i, IsReal ((m ((c.tc : Thread nD τ).loc main_arg3)) i))
    ∧ (∀ i, IsReal ((m ((c.tc : Thread nD τ).loc main_arg4)) i))
    ∧ (∀ i, IsReal ((m ((c.tc : Thread nD τ).loc main_arg5)) i))
    ∧ (∀ i, IsReal ((m ((c.tc : Thread nD τ).loc main_arg6)) i))
    ∧ (∀ i, IsReal ((m ((c.tc : Thread nD τ).loc main_arg7)) i))
    ∧ (∀ i, IsReal ((m ((c.tc : Thread nD τ).loc main_arg8)) i))
    ∧ (∀ i, IsReal ((m ((c.tc : Thread nD τ).loc main_arg9)) i))
    ∧ (∀ i, IsReal ((m ((c.tc : Thread nD τ).loc main_arg10)) i))
    ∧ (∀ i, IsReal ((m ((c.tc : Thread nD τ).loc main_arg11)) i))
    ∧ (∀ i, IsReal ((m ((c.tc : Thread nD τ).loc main_arg12)) i))
    ∧ (∀ i, IsReal ((m ((c.tc : Thread nD τ).loc main_arg13)) i))
    ∧ (∀ i, IsReal ((m ((c.tc : Thread nD τ).loc main_arg14)) i))
    ∧ (∀ i, IsReal ((m ((c.tc : Thread nD τ).loc main_arg15)) i))
    ∧ (∀ i, IsReal ((m ((c.tc : Thread nD τ).loc main_arg16)) i))
    ∧ (∀ i, IsReal ((m ((c.tc : Thread nD τ).loc main_arg17)) i))
    ∧ (∀ i, IsReal ((m ((c.tc : Thread nD τ).loc main_arg18)) i)) := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at e
  obtain ⟨e, e18⟩ := IntOp.andi_eq_one.1 e
  obtain ⟨e, e17⟩ := IntOp.andi_eq_one.1 e
  obtain ⟨e, e16⟩ := IntOp.andi_eq_one.1 e
  obtain ⟨e, e15⟩ := IntOp.andi_eq_one.1 e
  obtain ⟨e, e14⟩ := IntOp.andi_eq_one.1 e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e0, e3⟩ := IntOp.andi_eq_one.1 e
  have r0 := all_real _ _ _ _ _ e0
  have r3 := all_real _ _ _ _ _ e3
  have r4 := all_real _ _ _ _ _ e4
  have r5 := all_real _ _ _ _ _ e5
  have r6 := all_real _ _ _ _ _ e6
  have r7 := all_real _ _ _ _ _ e7
  have r8 := all_real _ _ _ _ _ e8
  have r9 := all_real _ _ _ _ _ e9
  have r10 := all_real _ _ _ _ _ e10
  have r11 := all_real _ _ _ _ _ e11
  have r12 := all_real _ _ _ _ _ e12
  have r13 := all_real _ _ _ _ _ e13
  have r14 := all_real _ _ _ _ _ e14
  have r15 := all_real _ _ _ _ _ e15
  have r16 := all_real _ _ _ _ _ e16
  have r17 := all_real _ _ _ _ _ e17
  have r18 := all_real _ _ _ _ _ e18
  exact ⟨r0, r3, r4, r5, r6, r7, r8, r9, r10, r11, r12, r13, r14, r15, r16, r17, r18⟩

end Cert.KernelIdeal.Hand

end
-- ==== Proof.Algebraic.lean ====
/-
  The two idealized programs compute one function. The kernel's result is the network function of its launch contents
  with each layer's batch variance taken as "mean of squares minus squared mean" from the two column sums; the
  reference's result is the same network function with the variance taken as the mean squared deviation. For finite
  inputs every layer's pre-normalisation features are real numbers (sums and products of reals, maxima with zero, an
  aggregation that only gathers and adds), on which the two variances agree; so each layer's output agrees, and is again
  real, and the classifier on the pooled features agrees. The aggregation and the pooling are the same host operations in
  both programs, and the arguments agree by hypothesis.
-/
import proofs.«117300_j5643587027248_1_alg».proof.Defs
import proofs.«117300_j5643587027248_1_alg».proof.Proof.Gen.Kernel
import proofs.«117300_j5643587027248_1_alg».proof.Proof.Gen.KernelIdeal
import proofs.«117300_j5643587027248_1_alg».proof.Proof.Gen.ReferenceIdeal
import proofs.«117300_j5643587027248_1_alg».proof.Proof.Gen.Pre_finite_inputs
import proofs.«117300_j5643587027248_1_alg».proof.Proof.KernelValue
import proofs.«117300_j5643587027248_1_alg».proof.Proof.RefValue
import proofs.«117300_j5643587027248_1_alg».proof.Proof.NetBridge
import proofs.«117300_j5643587027248_1_alg».proof.Proof.Bridge
import proofs.«117300_j5643587027248_1_alg».proof.Proof.FiniteInputs

noncomputable section

namespace Cert.Proof

open Idealize.ShloMosaic Idealize.SL.Sem

/-- The reference's argument arrays, where they agree with the kernel's, give the kernel's parameters. -/
theorem params_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Hand.paramsR (StableHlo.launchContents m' c) = Cert.KernelIdeal.Hand.paramsK m c := by
  unfold Cert.ReferenceIdeal.Hand.paramsR Cert.KernelIdeal.Hand.paramsK
  congr 1

set_option maxHeartbeats 1000000 in
theorem algebraic : Cert.algebraic_KernelIdeal_ReferenceIdeal := by
  intro m ρ m' ρ' hpre hagree
  refine ⟨fun c => Cert.KernelIdeal.Hand.outsS9 (F := Ideal) m 18 Cert.KernelIdeal.main_v159 c,
    Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  beta_reduce
  obtain ⟨r0, r3, r4, r5, r6, r7, r8, r9, r10, r11, r12, r13, r14, r15, r16, r17, r18⟩ := Cert.KernelIdeal.Hand.finite_of_pre m hpre c
  obtain ⟨e0, e1, e2, e3, e4, e5, e6, e7, e8, e9, e10, e11, e12, e13, e14, e15, e16, e17, e18⟩ := hagree c
  rw [Cert.ReferenceIdeal.Hand.ref_value, Cert.KernelIdeal.Hand.kernel_value m c,
    Cert.Net.net_bridge (Cert.KernelIdeal.Hand.aggK m c) (fun x hx => Cert.KernelIdeal.Hand.isReal_aggK' _ _ x hx) _
      (Cert.KernelIdeal.Hand.paramsK m c) ⟨r0, r3, r4, r5, r6, r7, r8, r9, r10, r11, r12, r13, r14, r15, r16, r17, r18⟩,
    params_eq m m' c e0 e3 e4 e5 e6 e7 e8 e9 e10 e11 e12 e13 e14 e15 e16 e17 e18, Cert.Bridge.agg_eq, Cert.Bridge.pool_eq]
  rw [show StableHlo.launchContents m' c (Proc.devRef .tc Cert.ReferenceIdeal.main_arg1) = Cert.KernelIdeal.Hand.a1 m c from e1,
    show StableHlo.launchContents m' c (Proc.devRef .tc Cert.ReferenceIdeal.main_arg2) = Cert.KernelIdeal.Hand.a2 m c from e2]
  rfl

end Cert.Proof

end
-- ==== Proof.lean ====
/-
  The certificate of a four-layer graph network with a classifier — per layer: neighbour aggregation by gather and
  scatter-add, two rectified dense layers of x + agg, batch statistics, normalisation; then pooling by graph and a
  two-layer classifier — whose kernel runs the dense layers with their column sums, the normalisation and the classifier
  as nine kernel regions among host stretches, against the plain array program.

  Frames: each of the kernel's two printings runs to the end leaving its arguments as launched, from its nine regions'
  segment records (each region's body obligation discharged by running its body) over the host-side chain; the
  reference is a straight line of host operations none of which writes an argument. The idealization rewrote nothing.
  The value claim: both idealized programs end at one network function of the arguments; the only difference, a layer's
  batch variance as "mean of squares minus squared mean" against the mean squared deviation, vanishes on the real
  numbers, which is where finite inputs keep every layer.
-/
import proofs.«117300_j5643587027248_1_alg».proof.Defs
import proofs.«117300_j5643587027248_1_alg».proof.Proof.Gen.Kernel
import proofs.«117300_j5643587027248_1_alg».proof.Proof.Gen.KernelIdeal
import proofs.«117300_j5643587027248_1_alg».proof.Proof.Gen.ReferenceIdeal
import proofs.«117300_j5643587027248_1_alg».proof.Proof.Gen.Pre_finite_inputs
import proofs.«117300_j5643587027248_1_alg».proof.Proof.KFrameRun
import proofs.«117300_j5643587027248_1_alg».proof.Proof.FrameRun
import proofs.«117300_j5643587027248_1_alg».proof.Proof.RefRun
import proofs.«117300_j5643587027248_1_alg».proof.Proof.Algebraic
import Idealize.ShloMosaic.Adequacy
import Idealize.ShloMosaic.Init

noncomputable section

namespace Cert.Proof

open Idealize.ShloMosaic Idealize.SL.Sem

/-- The kernel as printed runs to the end with its arguments as launched. -/
theorem frame_k : Cert.frame_Kernel := fun m ρ _ => Cert.Kernel.Hand.frame (F := Bits) m ρ

/-- The idealized kernel runs to the end with its arguments as launched. -/
theorem frame_ki : Cert.frame_KernelIdeal := fun m ρ _ => Cert.KernelIdeal.Hand.frame (F := Ideal) m ρ

/-- The idealized reference runs to the end with its arguments as launched: its run, the result forgotten. -/
theorem frame_ri : Cert.frame_ReferenceIdeal := fun m ρ _ =>
  (θ_run Cert.ReferenceIdeal.defs _ _).mono (fun _ h c => (h c).2) (Cert.ReferenceIdeal.Hand.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
